-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S16384 : Shape := ⟨1, ![16384]⟩
abbrev S7 : Shape := ⟨1, ![7]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S7 : S_.BroadcastsInDim S7 (![] : Fin 0 → Fin S7.rank)
  reducesTo_S7_S_d0 : S7.ReducesTo [0] S_
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S16384 .f32) (main_arg2 : FVec F S7 .f32) : IVec S_ 1 :=
  let main_v0 : FVec F S16384 .f32 := Host.absf main_arg1
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S7 .f32 := Host.absf main_arg2
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  let main_c_2 : IVec S_ 32 := constantI S_ 32 0#32
  let main_v9 : IVec S16384x200 32 := broadcastInDim S16384x200 ![] bcast_S_S16384x200 main_c_2
  let main_v10 : IVec S16384x200 1 := cmpi .sge main_arg0 main_v9
  let main_c_3 : IVec S_ 32 := constantI S_ 32 6#32
  let main_v11 : IVec S16384x200 32 := broadcastInDim S16384x200 ![] bcast_S_S16384x200 main_c_3
  let main_v12 : IVec S16384x200 1 := cmpi .sle main_arg0 main_v11
  let main_v13 : IVec S16384x200 1 := andi main_v10 main_v12
  let main_c_4 : IVec S_ 1 := constantI S_ 1 1#1
  let main_v14 : IVec S_ 1 := (fun x v => Host.reduce IntOp.andi x v reducesTo_S16384x200_S_d0_1 h_S_) main_v13 main_c_4
  let main_v15 : IVec S_ 1 := andi main_v8 main_v14
  main_v15
-- ==== Kernel.lean ====
abbrev S16384x200 : Shape := ⟨2, ![16384, 200]⟩
abbrev S16384 : Shape := ⟨1, ![16384]⟩
abbrev S7 : Shape := ⟨1, ![7]⟩
abbrev S_ : Shape := ⟨0, ![]⟩
abbrev S8 : Shape := ⟨1, ![8]⟩
abbrev S1 : Shape := ⟨1, ![1]⟩
abbrev S128x200 : Shape := ⟨2, ![128, 200]⟩
abbrev S272 : Shape := ⟨1, ![272]⟩
abbrev S64 : Shape := ⟨1, ![64]⟩
abbrev S4096 : Shape := ⟨1, ![4096]⟩
abbrev S512 : Shape := ⟨1, ![512]⟩
abbrev S16 : Shape := ⟨1, ![16]⟩

abbrev nBuf : Table → Nat
  | .hbm => 9
  | .local .scVector .vmem => 9
  | _ => 0

abbrev bufTy : (tb : Table) → Fin (nBuf tb) → BufTy
  | .hbm, ⟨0, _⟩ => ⟨S16384x200, .i32⟩
  | .hbm, ⟨1, _⟩ => ⟨S16384, .f32⟩
  | .hbm, ⟨2, _⟩ => ⟨S7, .f32⟩
  | .hbm, ⟨3, _⟩ => ⟨S_, .f32⟩
  | .hbm, ⟨4, _⟩ => ⟨S8, .f32⟩
  | .hbm, ⟨5, _⟩ => ⟨S_, .i32⟩
  | .hbm, ⟨6, _⟩ => ⟨S1, .i32⟩
  | .hbm, ⟨7, _⟩ => ⟨S8, .f32⟩
  | .hbm, ⟨8, _⟩ => ⟨S16384, .f32⟩
  | .local .scVector .vmem, ⟨0, _⟩ => ⟨S128x200, .i32⟩
  | .local .scVector .vmem, ⟨1, _⟩ => ⟨S128x200, .i32⟩
  | .local .scVector .vmem, ⟨2, _⟩ => ⟨S8, .f32⟩
  | .local .scVector .vmem, ⟨3, _⟩ => ⟨S272, .f32⟩
  | .local .scVector .vmem, ⟨4, _⟩ => ⟨S64, .f32⟩
  | .local .scVector .vmem, ⟨5, _⟩ => ⟨S4096, .f32⟩
  | .local .scVector .vmem, ⟨6, _⟩ => ⟨S512, .f32⟩
  | .local .scVector .vmem, ⟨7, _⟩ => ⟨S512, .f32⟩
  | .local .scVector .vmem, ⟨8, _⟩ => ⟨S512, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0_scv : Ref sig .scVector := ⟨.hbm, 0, rfl⟩
abbrev main_arg1_scv : Ref sig .scVector := ⟨.hbm, 1, rfl⟩
abbrev main_v2_scv : Ref sig .scVector := ⟨.hbm, 7, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v22 : IVec S16 32) : Prop :=
  (∀ a x, ((![v22] : Fin 1 → IVec S16 32) a x).toNat < S8.size a)
instance k0_chk1.dec : ∀ (v22 : IVec S16 32), Decidable (k0_chk1 v22) := fun v22 => decidable_of_iff' _ (Iff.of_eq (k0_chk1.eq_1 v22))
theorem k0_idx1_inb : ∀ (v22 : IVec S16 32) (k0_hw1 : k0_chk1 v22), ∀ a x, ((![v22] : Fin 1 → IVec S16 32) a x).toNat < S8.size a := fun v22 k0_hw1 => k0_hw1

def k0_chk2 (v25 : IVec S16 32) : Prop :=
  (∀ a x, ((![v25] : Fin 1 → IVec S16 32) a x).toNat < S8.size a)
instance k0_chk2.dec : ∀ (v25 : IVec S16 32), Decidable (k0_chk2 v25) := fun v25 => decidable_of_iff' _ (Iff.of_eq (k0_chk2.eq_1 v25))
theorem k0_idx2_inb : ∀ (v25 : IVec S16 32) (k0_hw2 : k0_chk2 v25), ∀ a x, ((![v25] : Fin 1 → IVec S16 32) a x).toNat < S8.size a := fun v25 k0_hw2 => k0_hw2

def k0_chk3 (v34 : IVec S16 32) : Prop :=
  (∀ a x, ((![v34] : Fin 1 → IVec S16 32) a x).toNat < S8.size a)
instance k0_chk3.dec : ∀ (v34 : IVec S16 32), Decidable (k0_chk3 v34) := fun v34 => decidable_of_iff' _ (Iff.of_eq (k0_chk3.eq_1 v34))
theorem k0_idx3_inb : ∀ (v34 : IVec S16 32) (k0_hw3 : k0_chk3 v34), ∀ a x, ((![v34] : Fin 1 → IVec S16 32) a x).toNat < S8.size a := fun v34 k0_hw3 => k0_hw3

def k0_chk4 (v37 : IVec S16 32) : Prop :=
  (∀ a x, ((![v37] : Fin 1 → IVec S16 32) a x).toNat < S8.size a)
instance k0_chk4.dec : ∀ (v37 : IVec S16 32), Decidable (k0_chk4 v37) := fun v37 => decidable_of_iff' _ (Iff.of_eq (k0_chk4.eq_1 v37))
theorem k0_idx4_inb : ∀ (v37 : IVec S16 32) (k0_hw4 : k0_chk4 v37), ∀ a x, ((![v37] : Fin 1 → IVec S16 32) a x).toNat < S8.size a := fun v37 k0_hw4 => k0_hw4

def k0_chk5 (v46 : IVec S16 32) : Prop :=
  (∀ a x, ((![v46] : Fin 1 → IVec S16 32) a x).toNat < S8.size a)
instance k0_chk5.dec : ∀ (v46 : IVec S16 32), Decidable (k0_chk5 v46) := fun v46 => decidable_of_iff' _ (Iff.of_eq (k0_chk5.eq_1 v46))
theorem k0_idx5_inb : ∀ (v46 : IVec S16 32) (k0_hw5 : k0_chk5 v46), ∀ a x, ((![v46] : Fin 1 → IVec S16 32) a x).toNat < S8.size a := fun v46 k0_hw5 => k0_hw5

def k0_chk6 (v49 : IVec S16 32) : Prop :=
  (∀ a x, ((![v49] : Fin 1 → IVec S16 32) a x).toNat < S8.size a)
instance k0_chk6.dec : ∀ (v49 : IVec S16 32), Decidable (k0_chk6 v49) := fun v49 => decidable_of_iff' _ (Iff.of_eq (k0_chk6.eq_1 v49))
theorem k0_idx6_inb : ∀ (v49 : IVec S16 32) (k0_hw6 : k0_chk6 v49), ∀ a x, ((![v49] : Fin 1 → IVec S16 32) a x).toNat < S8.size a := fun v49 k0_hw6 => k0_hw6

def k0_chk7 (v58 : IVec S16 32) : Prop :=
  (∀ a x, ((![v58] : Fin 1 → IVec S16 32) a x).toNat < S8.size a)
instance k0_chk7.dec : ∀ (v58 : IVec S16 32), Decidable (k0_chk7 v58) := fun v58 => decidable_of_iff' _ (Iff.of_eq (k0_chk7.eq_1 v58))
theorem k0_idx7_inb : ∀ (v58 : IVec S16 32) (k0_hw7 : k0_chk7 v58), ∀ a x, ((![v58] : Fin 1 → IVec S16 32) a x).toNat < S8.size a := fun v58 k0_hw7 => k0_hw7

def k0_chk8 (v61 : IVec S16 32) : Prop :=
  (∀ a x, ((![v61] : Fin 1 → IVec S16 32) a x).toNat < S8.size a)
instance k0_chk8.dec : ∀ (v61 : IVec S16 32), Decidable (k0_chk8 v61) := fun v61 => decidable_of_iff' _ (Iff.of_eq (k0_chk8.eq_1 v61))
theorem k0_idx8_inb : ∀ (v61 : IVec S16 32) (k0_hw8 : k0_chk8 v61), ∀ a x, ((![v61] : Fin 1 → IVec S16 32) a x).toNat < S8.size a := fun v61 k0_hw8 => k0_hw8

def k0_chk9 (v95 : IVec S16 32) : Prop :=
  (∀ a x, ((![v95] : Fin 1 → IVec S16 32) a x).toNat < S8.size a)
instance k0_chk9.dec : ∀ (v95 : IVec S16 32), Decidable (k0_chk9 v95) := fun v95 => decidable_of_iff' _ (Iff.of_eq (k0_chk9.eq_1 v95))
theorem k0_idx9_inb : ∀ (v95 : IVec S16 32) (k0_hw9 : k0_chk9 v95), ∀ a x, ((![v95] : Fin 1 → IVec S16 32) a x).toNat < S8.size a := fun v95 k0_hw9 => k0_hw9

def k0_chk10 (v128 : IVec S16 32) : Prop :=
  (∀ a x, ((![v128] : Fin 1 → IVec S16 32) a x).toNat < S8.size a)
instance k0_chk10.dec : ∀ (v128 : IVec S16 32), Decidable (k0_chk10 v128) := fun v128 => decidable_of_iff' _ (Iff.of_eq (k0_chk10.eq_1 v128))
theorem k0_idx10_inb : ∀ (v128 : IVec S16 32) (k0_hw10 : k0_chk10 v128), ∀ a x, ((![v128] : Fin 1 → IVec S16 32) a x).toNat < S8.size a := fun v128 k0_hw10 => k0_hw10

def k0_chk11 (v161 : IVec S16 32) : Prop :=
  (∀ a x, ((![v161] : Fin 1 → IVec S16 32) a x).toNat < S8.size a)
instance k0_chk11.dec : ∀ (v161 : IVec S16 32), Decidable (k0_chk11 v161) := fun v161 => decidable_of_iff' _ (Iff.of_eq (k0_chk11.eq_1 v161))
theorem k0_idx11_inb : ∀ (v161 : IVec S16 32) (k0_hw11 : k0_chk11 v161), ∀ a x, ((![v161] : Fin 1 → IVec S16 32) a x).toNat < S8.size a := fun v161 k0_hw11 => k0_hw11

def k0_chk12 (v194 : IVec S16 32) : Prop :=
  (∀ a x, ((![v194] : Fin 1 → IVec S16 32) a x).toNat < S8.size a)
instance k0_chk12.dec : ∀ (v194 : IVec S16 32), Decidable (k0_chk12 v194) := fun v194 => decidable_of_iff' _ (Iff.of_eq (k0_chk12.eq_1 v194))
theorem k0_idx12_inb : ∀ (v194 : IVec S16 32) (k0_hw12 : k0_chk12 v194), ∀ a x, ((![v194] : Fin 1 → IVec S16 32) a x).toNat < S8.size a := fun v194 k0_hw12 => k0_hw12

def k0_chk13 (v227 : IVec S16 32) : Prop :=
  (∀ a x, ((![v227] : Fin 1 → IVec S16 32) a x).toNat < S8.size a)
instance k0_chk13.dec : ∀ (v227 : IVec S16 32), Decidable (k0_chk13 v227) := fun v227 => decidable_of_iff' _ (Iff.of_eq (k0_chk13.eq_1 v227))
theorem k0_idx13_inb : ∀ (v227 : IVec S16 32) (k0_hw13 : k0_chk13 v227), ∀ a x, ((![v227] : Fin 1 → IVec S16 32) a x).toNat < S8.size a := fun v227 k0_hw13 => k0_hw13

def k0_chk14 (v260 : IVec S16 32) : Prop :=
  (∀ a x, ((![v260] : Fin 1 → IVec S16 32) a x).toNat < S8.size a)
instance k0_chk14.dec : ∀ (v260 : IVec S16 32), Decidable (k0_chk14 v260) := fun v260 => decidable_of_iff' _ (Iff.of_eq (k0_chk14.eq_1 v260))
theorem k0_idx14_inb : ∀ (v260 : IVec S16 32) (k0_hw14 : k0_chk14 v260), ∀ a x, ((![v260] : Fin 1 → IVec S16 32) a x).toNat < S8.size a := fun v260 k0_hw14 => k0_hw14

def k0_chk15 (v293 : IVec S16 32) : Prop :=
  (∀ a x, ((![v293] : Fin 1 → IVec S16 32) a x).toNat < S8.size a)
instance k0_chk15.dec : ∀ (v293 : IVec S16 32), Decidable (k0_chk15 v293) := fun v293 => decidable_of_iff' _ (Iff.of_eq (k0_chk15.eq_1 v293))
theorem k0_idx15_inb : ∀ (v293 : IVec S16 32) (k0_hw15 : k0_chk15 v293), ∀ a x, ((![v293] : Fin 1 → IVec S16 32) a x).toNat < S8.size a := fun v293 k0_hw15 => k0_hw15

def k0_chk16 (v326 : IVec S16 32) : Prop :=
  (∀ a x, ((![v326] : Fin 1 → IVec S16 32) a x).toNat < S8.size a)
instance k0_chk16.dec : ∀ (v326 : IVec S16 32), Decidable (k0_chk16 v326) := fun v326 => decidable_of_iff' _ (Iff.of_eq (k0_chk16.eq_1 v326))
theorem k0_idx16_inb : ∀ (v326 : IVec S16 32) (k0_hw16 : k0_chk16 v326), ∀ a x, ((![v326] : Fin 1 → IVec S16 32) a x).toNat < S8.size a := fun v326 k0_hw16 => k0_hw16

def k0_chk17 (v359 : IVec S16 32) : Prop :=
  (∀ a x, ((![v359] : Fin 1 → IVec S16 32) a x).toNat < S8.size a)
instance k0_chk17.dec : ∀ (v359 : IVec S16 32), Decidable (k0_chk17 v359) := fun v359 => decidable_of_iff' _ (Iff.of_eq (k0_chk17.eq_1 v359))
theorem k0_idx17_inb : ∀ (v359 : IVec S16 32) (k0_hw17 : k0_chk17 v359), ∀ a x, ((![v359] : Fin 1 → IVec S16 32) a x).toNat < S8.size a := fun v359 k0_hw17 => k0_hw17

def k0_chk18 (v392 : IVec S16 32) : Prop :=
  (∀ a x, ((![v392] : Fin 1 → IVec S16 32) a x).toNat < S8.size a)
instance k0_chk18.dec : ∀ (v392 : IVec S16 32), Decidable (k0_chk18 v392) := fun v392 => decidable_of_iff' _ (Iff.of_eq (k0_chk18.eq_1 v392))
theorem k0_idx18_inb : ∀ (v392 : IVec S16 32) (k0_hw18 : k0_chk18 v392), ∀ a x, ((![v392] : Fin 1 → IVec S16 32) a x).toNat < S8.size a := fun v392 k0_hw18 => k0_hw18

def k0_chk19 (v425 : IVec S16 32) : Prop :=
  (∀ a x, ((![v425] : Fin 1 → IVec S16 32) a x).toNat < S8.size a)
instance k0_chk19.dec : ∀ (v425 : IVec S16 32), Decidable (k0_chk19 v425) := fun v425 => decidable_of_iff' _ (Iff.of_eq (k0_chk19.eq_1 v425))
theorem k0_idx19_inb : ∀ (v425 : IVec S16 32) (k0_hw19 : k0_chk19 v425), ∀ a x, ((![v425] : Fin 1 → IVec S16 32) a x).toNat < S8.size a := fun v425 k0_hw19 => k0_hw19

def k0_chk20 (v458 : IVec S16 32) : Prop :=
  (∀ a x, ((![v458] : Fin 1 → IVec S16 32) a x).toNat < S8.size a)
instance k0_chk20.dec : ∀ (v458 : IVec S16 32), Decidable (k0_chk20 v458) := fun v458 => decidable_of_iff' _ (Iff.of_eq (k0_chk20.eq_1 v458))
theorem k0_idx20_inb : ∀ (v458 : IVec S16 32) (k0_hw20 : k0_chk20 v458), ∀ a x, ((![v458] : Fin 1 → IVec S16 32) a x).toNat < S8.size a := fun v458 k0_hw20 => k0_hw20

def k0_chk21 (v491 : IVec S16 32) : Prop :=
  (∀ a x, ((![v491] : Fin 1 → IVec S16 32) a x).toNat < S8.size a)
instance k0_chk21.dec : ∀ (v491 : IVec S16 32), Decidable (k0_chk21 v491) := fun v491 => decidable_of_iff' _ (Iff.of_eq (k0_chk21.eq_1 v491))
theorem k0_idx21_inb : ∀ (v491 : IVec S16 32) (k0_hw21 : k0_chk21 v491), ∀ a x, ((![v491] : Fin 1 → IVec S16 32) a x).toNat < S8.size a := fun v491 k0_hw21 => k0_hw21

def k0_chk22 (v524 : IVec S16 32) : Prop :=
  (∀ a x, ((![v524] : Fin 1 → IVec S16 32) a x).toNat < S8.size a)
instance k0_chk22.dec : ∀ (v524 : IVec S16 32), Decidable (k0_chk22 v524) := fun v524 => decidable_of_iff' _ (Iff.of_eq (k0_chk22.eq_1 v524))
theorem k0_idx22_inb : ∀ (v524 : IVec S16 32) (k0_hw22 : k0_chk22 v524), ∀ a x, ((![v524] : Fin 1 → IVec S16 32) a x).toNat < S8.size a := fun v524 k0_hw22 => k0_hw22

def k0_chk23 (v557 : IVec S16 32) : Prop :=
  (∀ a x, ((![v557] : Fin 1 → IVec S16 32) a x).toNat < S8.size a)
instance k0_chk23.dec : ∀ (v557 : IVec S16 32), Decidable (k0_chk23 v557) := fun v557 => decidable_of_iff' _ (Iff.of_eq (k0_chk23.eq_1 v557))
theorem k0_idx23_inb : ∀ (v557 : IVec S16 32) (k0_hw23 : k0_chk23 v557), ∀ a x, ((![v557] : Fin 1 → IVec S16 32) a x).toNat < S8.size a := fun v557 k0_hw23 => k0_hw23

def k0_chk24 (v590 : IVec S16 32) : Prop :=
  (∀ a x, ((![v590] : Fin 1 → IVec S16 32) a x).toNat < S8.size a)
instance k0_chk24.dec : ∀ (v590 : IVec S16 32), Decidable (k0_chk24 v590) := fun v590 => decidable_of_iff' _ (Iff.of_eq (k0_chk24.eq_1 v590))
theorem k0_idx24_inb : ∀ (v590 : IVec S16 32) (k0_hw24 : k0_chk24 v590), ∀ a x, ((![v590] : Fin 1 → IVec S16 32) a x).toNat < S8.size a := fun v590 k0_hw24 => k0_hw24

def k0_chk25 (v623 : IVec S16 32) : Prop :=
  (∀ a x, ((![v623] : Fin 1 → IVec S16 32) a x).toNat < S8.size a)
instance k0_chk25.dec : ∀ (v623 : IVec S16 32), Decidable (k0_chk25 v623) := fun v623 => decidable_of_iff' _ (Iff.of_eq (k0_chk25.eq_1 v623))
theorem k0_idx25_inb : ∀ (v623 : IVec S16 32) (k0_hw25 : k0_chk25 v623), ∀ a x, ((![v623] : Fin 1 → IVec S16 32) a x).toNat < S8.size a := fun v623 k0_hw25 => k0_hw25
@[reducible] def k0_t1_loop : Scf.Loop 32 :=
  let c0_i32_178 : BitVec 32 := 0#32
  let c32_i32_179 : BitVec 32 := 32#32
  let v626 : BitVec 32 := Scalar.addi c0_i32_178 c32_i32_179
  let c1_i32_180 : BitVec 32 := 1#32
  ⟨c0_i32_178, v626, c1_i32_180⟩

def k0_chk26 (v650 : IVec S16 32) : Prop :=
  (∀ a x, ((![v650] : Fin 1 → IVec S16 32) a x).toNat < S64.size a)
instance k0_chk26.dec : ∀ (v650 : IVec S16 32), Decidable (k0_chk26 v650) := fun v650 => decidable_of_iff' _ (Iff.of_eq (k0_chk26.eq_1 v650))
theorem k0_idx26_inb : ∀ (v650 : IVec S16 32) (k0_hw26 : k0_chk26 v650), ∀ a x, ((![v650] : Fin 1 → IVec S16 32) a x).toNat < S64.size a := fun v650 k0_hw26 => k0_hw26

def k0_chk27 (v653 : IVec S16 32) : Prop :=
  (∀ a x, ((![v653] : Fin 1 → IVec S16 32) a x).toNat < S64.size a)
instance k0_chk27.dec : ∀ (v653 : IVec S16 32), Decidable (k0_chk27 v653) := fun v653 => decidable_of_iff' _ (Iff.of_eq (k0_chk27.eq_1 v653))
theorem k0_idx27_inb : ∀ (v653 : IVec S16 32) (k0_hw27 : k0_chk27 v653), ∀ a x, ((![v653] : Fin 1 → IVec S16 32) a x).toNat < S64.size a := fun v653 k0_hw27 => k0_hw27
def k0_off3 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c0_i32_217 : BitVec 32 := 0#32
  let v656 : BitVec 32 := Scalar.addi v645 c0_i32_217
  let v657 : Index := Scalar.indexCast v656
  ![v657.toNat]

def k0_chk28 (v663 : IVec S16 32) : Prop :=
  (∀ a x, ((![v663] : Fin 1 → IVec S16 32) a x).toNat < S64.size a)
instance k0_chk28.dec : ∀ (v663 : IVec S16 32), Decidable (k0_chk28 v663) := fun v663 => decidable_of_iff' _ (Iff.of_eq (k0_chk28.eq_1 v663))
theorem k0_idx28_inb : ∀ (v663 : IVec S16 32) (k0_hw28 : k0_chk28 v663), ∀ a x, ((![v663] : Fin 1 → IVec S16 32) a x).toNat < S64.size a := fun v663 k0_hw28 => k0_hw28

def k0_chk29 (v666 : IVec S16 32) : Prop :=
  (∀ a x, ((![v666] : Fin 1 → IVec S16 32) a x).toNat < S64.size a)
instance k0_chk29.dec : ∀ (v666 : IVec S16 32), Decidable (k0_chk29 v666) := fun v666 => decidable_of_iff' _ (Iff.of_eq (k0_chk29.eq_1 v666))
theorem k0_idx29_inb : ∀ (v666 : IVec S16 32) (k0_hw29 : k0_chk29 v666), ∀ a x, ((![v666] : Fin 1 → IVec S16 32) a x).toNat < S64.size a := fun v666 k0_hw29 => k0_hw29
def k0_off4 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c16_i32_221 : BitVec 32 := 16#32
  let v669 : BitVec 32 := Scalar.addi v645 c16_i32_221
  let v670 : Index := Scalar.indexCast v669
  ![v670.toNat]

def k0_chk30 (v676 : IVec S16 32) : Prop :=
  (∀ a x, ((![v676] : Fin 1 → IVec S16 32) a x).toNat < S64.size a)
instance k0_chk30.dec : ∀ (v676 : IVec S16 32), Decidable (k0_chk30 v676) := fun v676 => decidable_of_iff' _ (Iff.of_eq (k0_chk30.eq_1 v676))
theorem k0_idx30_inb : ∀ (v676 : IVec S16 32) (k0_hw30 : k0_chk30 v676), ∀ a x, ((![v676] : Fin 1 → IVec S16 32) a x).toNat < S64.size a := fun v676 k0_hw30 => k0_hw30

def k0_chk31 (v679 : IVec S16 32) : Prop :=
  (∀ a x, ((![v679] : Fin 1 → IVec S16 32) a x).toNat < S64.size a)
instance k0_chk31.dec : ∀ (v679 : IVec S16 32), Decidable (k0_chk31 v679) := fun v679 => decidable_of_iff' _ (Iff.of_eq (k0_chk31.eq_1 v679))
theorem k0_idx31_inb : ∀ (v679 : IVec S16 32) (k0_hw31 : k0_chk31 v679), ∀ a x, ((![v679] : Fin 1 → IVec S16 32) a x).toNat < S64.size a := fun v679 k0_hw31 => k0_hw31
def k0_off5 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c32_i32_225 : BitVec 32 := 32#32
  let v682 : BitVec 32 := Scalar.addi v645 c32_i32_225
  let v683 : Index := Scalar.indexCast v682
  ![v683.toNat]

def k0_chk32 (v689 : IVec S16 32) : Prop :=
  (∀ a x, ((![v689] : Fin 1 → IVec S16 32) a x).toNat < S64.size a)
instance k0_chk32.dec : ∀ (v689 : IVec S16 32), Decidable (k0_chk32 v689) := fun v689 => decidable_of_iff' _ (Iff.of_eq (k0_chk32.eq_1 v689))
theorem k0_idx32_inb : ∀ (v689 : IVec S16 32) (k0_hw32 : k0_chk32 v689), ∀ a x, ((![v689] : Fin 1 → IVec S16 32) a x).toNat < S64.size a := fun v689 k0_hw32 => k0_hw32

def k0_chk33 (v692 : IVec S16 32) : Prop :=
  (∀ a x, ((![v692] : Fin 1 → IVec S16 32) a x).toNat < S64.size a)
instance k0_chk33.dec : ∀ (v692 : IVec S16 32), Decidable (k0_chk33 v692) := fun v692 => decidable_of_iff' _ (Iff.of_eq (k0_chk33.eq_1 v692))
theorem k0_idx33_inb : ∀ (v692 : IVec S16 32) (k0_hw33 : k0_chk33 v692), ∀ a x, ((![v692] : Fin 1 → IVec S16 32) a x).toNat < S64.size a := fun v692 k0_hw33 => k0_hw33
def k0_off6 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c48_i32_229 : BitVec 32 := 48#32
  let v695 : BitVec 32 := Scalar.addi v645 c48_i32_229
  let v696 : Index := Scalar.indexCast v695
  ![v696.toNat]

def k0_chk34 (v702 : IVec S16 32) : Prop :=
  (∀ a x, ((![v702] : Fin 1 → IVec S16 32) a x).toNat < S64.size a)
instance k0_chk34.dec : ∀ (v702 : IVec S16 32), Decidable (k0_chk34 v702) := fun v702 => decidable_of_iff' _ (Iff.of_eq (k0_chk34.eq_1 v702))
theorem k0_idx34_inb : ∀ (v702 : IVec S16 32) (k0_hw34 : k0_chk34 v702), ∀ a x, ((![v702] : Fin 1 → IVec S16 32) a x).toNat < S64.size a := fun v702 k0_hw34 => k0_hw34

def k0_chk35 (v705 : IVec S16 32) : Prop :=
  (∀ a x, ((![v705] : Fin 1 → IVec S16 32) a x).toNat < S64.size a)
instance k0_chk35.dec : ∀ (v705 : IVec S16 32), Decidable (k0_chk35 v705) := fun v705 => decidable_of_iff' _ (Iff.of_eq (k0_chk35.eq_1 v705))
theorem k0_idx35_inb : ∀ (v705 : IVec S16 32) (k0_hw35 : k0_chk35 v705), ∀ a x, ((![v705] : Fin 1 → IVec S16 32) a x).toNat < S64.size a := fun v705 k0_hw35 => k0_hw35
def k0_off7 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c64_i32_233 : BitVec 32 := 64#32
  let v708 : BitVec 32 := Scalar.addi v645 c64_i32_233
  let v709 : Index := Scalar.indexCast v708
  ![v709.toNat]

def k0_chk36 (v715 : IVec S16 32) : Prop :=
  (∀ a x, ((![v715] : Fin 1 → IVec S16 32) a x).toNat < S64.size a)
instance k0_chk36.dec : ∀ (v715 : IVec S16 32), Decidable (k0_chk36 v715) := fun v715 => decidable_of_iff' _ (Iff.of_eq (k0_chk36.eq_1 v715))
theorem k0_idx36_inb : ∀ (v715 : IVec S16 32) (k0_hw36 : k0_chk36 v715), ∀ a x, ((![v715] : Fin 1 → IVec S16 32) a x).toNat < S64.size a := fun v715 k0_hw36 => k0_hw36

def k0_chk37 (v718 : IVec S16 32) : Prop :=
  (∀ a x, ((![v718] : Fin 1 → IVec S16 32) a x).toNat < S64.size a)
instance k0_chk37.dec : ∀ (v718 : IVec S16 32), Decidable (k0_chk37 v718) := fun v718 => decidable_of_iff' _ (Iff.of_eq (k0_chk37.eq_1 v718))
theorem k0_idx37_inb : ∀ (v718 : IVec S16 32) (k0_hw37 : k0_chk37 v718), ∀ a x, ((![v718] : Fin 1 → IVec S16 32) a x).toNat < S64.size a := fun v718 k0_hw37 => k0_hw37
def k0_off8 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c80_i32_237 : BitVec 32 := 80#32
  let v721 : BitVec 32 := Scalar.addi v645 c80_i32_237
  let v722 : Index := Scalar.indexCast v721
  ![v722.toNat]

def k0_chk38 (v728 : IVec S16 32) : Prop :=
  (∀ a x, ((![v728] : Fin 1 → IVec S16 32) a x).toNat < S64.size a)
instance k0_chk38.dec : ∀ (v728 : IVec S16 32), Decidable (k0_chk38 v728) := fun v728 => decidable_of_iff' _ (Iff.of_eq (k0_chk38.eq_1 v728))
theorem k0_idx38_inb : ∀ (v728 : IVec S16 32) (k0_hw38 : k0_chk38 v728), ∀ a x, ((![v728] : Fin 1 → IVec S16 32) a x).toNat < S64.size a := fun v728 k0_hw38 => k0_hw38

def k0_chk39 (v731 : IVec S16 32) : Prop :=
  (∀ a x, ((![v731] : Fin 1 → IVec S16 32) a x).toNat < S64.size a)
instance k0_chk39.dec : ∀ (v731 : IVec S16 32), Decidable (k0_chk39 v731) := fun v731 => decidable_of_iff' _ (Iff.of_eq (k0_chk39.eq_1 v731))
theorem k0_idx39_inb : ∀ (v731 : IVec S16 32) (k0_hw39 : k0_chk39 v731), ∀ a x, ((![v731] : Fin 1 → IVec S16 32) a x).toNat < S64.size a := fun v731 k0_hw39 => k0_hw39
def k0_off9 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c96_i32_241 : BitVec 32 := 96#32
  let v734 : BitVec 32 := Scalar.addi v645 c96_i32_241
  let v735 : Index := Scalar.indexCast v734
  ![v735.toNat]

def k0_chk40 (v741 : IVec S16 32) : Prop :=
  (∀ a x, ((![v741] : Fin 1 → IVec S16 32) a x).toNat < S64.size a)
instance k0_chk40.dec : ∀ (v741 : IVec S16 32), Decidable (k0_chk40 v741) := fun v741 => decidable_of_iff' _ (Iff.of_eq (k0_chk40.eq_1 v741))
theorem k0_idx40_inb : ∀ (v741 : IVec S16 32) (k0_hw40 : k0_chk40 v741), ∀ a x, ((![v741] : Fin 1 → IVec S16 32) a x).toNat < S64.size a := fun v741 k0_hw40 => k0_hw40

def k0_chk41 (v744 : IVec S16 32) : Prop :=
  (∀ a x, ((![v744] : Fin 1 → IVec S16 32) a x).toNat < S64.size a)
instance k0_chk41.dec : ∀ (v744 : IVec S16 32), Decidable (k0_chk41 v744) := fun v744 => decidable_of_iff' _ (Iff.of_eq (k0_chk41.eq_1 v744))
theorem k0_idx41_inb : ∀ (v744 : IVec S16 32) (k0_hw41 : k0_chk41 v744), ∀ a x, ((![v744] : Fin 1 → IVec S16 32) a x).toNat < S64.size a := fun v744 k0_hw41 => k0_hw41
def k0_off10 (k0_t1 : Fin k0_t1_loop.trips) : Fin 1 → Nat :=
  let c0_i32_178 : BitVec 32 := 0#32
  let c1_i32_180 : BitVec 32 := 1#32
  let arg17 : BitVec 32 := Scf.iv c0_i32_178 c1_i32_180 k0_t1
  let c128_i32_215 : BitVec 32 := 128#32
  let v645 : BitVec 32 := Scalar.muli arg17 c128_i32_215
  let c112_i32_245 : BitVec 32 := 112#32
  let v747 : BitVec 32 := Scalar.addi v645 c112_i32_245
  let v748 : Index := Scalar.indexCast v747
  ![v748.toNat]
def k0_off11 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_182 : BitVec 32 := 0#32
  ![v3.toNat, 0]
@[reducible] def k0_t2_loop : Scf.Loop 32 :=
  let c0_i32_185 : BitVec 32 := 0#32
  let c8_i32_186 : BitVec 32 := 8#32
  let v629 : BitVec 32 := Scalar.addi c0_i32_185 c8_i32_186
  let c1_i32_187 : BitVec 32 := 1#32
  ⟨c0_i32_185, v629, c1_i32_187⟩

def k0_chk42 (v651 : IVec S16 32) (v653 : IVec S16 32) : Prop :=
  (∀ a x, ((![v651, v653] : Fin 2 → IVec S16 32) a x).toNat < S128x200.size a)
instance k0_chk42.dec : ∀ (v651 : IVec S16 32) (v653 : IVec S16 32), Decidable (k0_chk42 v651 v653) := fun v651 v653 => decidable_of_iff' _ (Iff.of_eq (k0_chk42.eq_1 v651 v653))
theorem k0_idx42_inb : ∀ (v651 : IVec S16 32) (v653 : IVec S16 32) (k0_hw42 : k0_chk42 v651 v653), ∀ a x, ((![v651, v653] : Fin 2 → IVec S16 32) a x).toNat < S128x200.size a := fun v651 v653 k0_hw42 => k0_hw42

def k0_chk43 (v651 : IVec S16 32) (v658 : IVec S16 32) : Prop :=
  (∀ a x, ((![v651, v658] : Fin 2 → IVec S16 32) a x).toNat < S128x200.size a)
instance k0_chk43.dec : ∀ (v651 : IVec S16 32) (v658 : IVec S16 32), Decidable (k0_chk43 v651 v658) := fun v651 v658 => decidable_of_iff' _ (Iff.of_eq (k0_chk43.eq_1 v651 v658))
theorem k0_idx43_inb : ∀ (v651 : IVec S16 32) (v658 : IVec S16 32) (k0_hw43 : k0_chk43 v651 v658), ∀ a x, ((![v651, v658] : Fin 2 → IVec S16 32) a x).toNat < S128x200.size a := fun v651 v658 k0_hw43 => k0_hw43

def k0_chk44 (v651 : IVec S16 32) (v663 : IVec S16 32) : Prop :=
  (∀ a x, ((![v651, v663] : Fin 2 → IVec S16 32) a x).toNat < S128x200.size a)
instance k0_chk44.dec : ∀ (v651 : IVec S16 32) (v663 : IVec S16 32), Decidable (k0_chk44 v651 v663) := fun v651 v663 => decidable_of_iff' _ (Iff.of_eq (k0_chk44.eq_1 v651 v663))
theorem k0_idx44_inb : ∀ (v651 : IVec S16 32) (v663 : IVec S16 32) (k0_hw44 : k0_chk44 v651 v663), ∀ a x, ((![v651, v663] : Fin 2 → IVec S16 32) a x).toNat < S128x200.size a := fun v651 v663 k0_hw44 => k0_hw44

def k0_chk45 (v651 : IVec S16 32) (v668 : IVec S16 32) : Prop :=
  (∀ a x, ((![v651, v668] : Fin 2 → IVec S16 32) a x).toNat < S128x200.size a)
instance k0_chk45.dec : ∀ (v651 : IVec S16 32) (v668 : IVec S16 32), Decidable (k0_chk45 v651 v668) := fun v651 v668 => decidable_of_iff' _ (Iff.of_eq (k0_chk45.eq_1 v651 v668))
theorem k0_idx45_inb : ∀ (v651 : IVec S16 32) (v668 : IVec S16 32) (k0_hw45 : k0_chk45 v651 v668), ∀ a x, ((![v651, v668] : Fin 2 → IVec S16 32) a x).toNat < S128x200.size a := fun v651 v668 k0_hw45 => k0_hw45

def k0_chk46 (v678 : IVec S16 32) : Prop :=
  (∀ a x, ((![v678] : Fin 1 → IVec S16 32) a x).toNat < S4096.size a)
instance k0_chk46.dec : ∀ (v678 : IVec S16 32), Decidable (k0_chk46 v678) := fun v678 => decidable_of_iff' _ (Iff.of_eq (k0_chk46.eq_1 v678))
theorem k0_idx46_inb : ∀ (v678 : IVec S16 32) (k0_hw46 : k0_chk46 v678), ∀ a x, ((![v678] : Fin 1 → IVec S16 32) a x).toNat < S4096.size a := fun v678 k0_hw46 => k0_hw46

def k0_chk47 (v651 : IVec S16 32) (v681 : IVec S16 32) : Prop :=
  (∀ a x, ((![v651, v681] : Fin 2 → IVec S16 32) a x).toNat < S128x200.size a)
instance k0_chk47.dec : ∀ (v651 : IVec S16 32) (v681 : IVec S16 32), Decidable (k0_chk47 v651 v681) := fun v651 v681 => decidable_of_iff' _ (Iff.of_eq (k0_chk47.eq_1 v651 v681))
theorem k0_idx47_inb : ∀ (v651 : IVec S16 32) (v681 : IVec S16 32) (k0_hw47 : k0_chk47 v651 v681), ∀ a x, ((![v651, v681] : Fin 2 → IVec S16 32) a x).toNat < S128x200.size a := fun v651 v681 k0_hw47 => k0_hw47

def k0_chk48 (v651 : IVec S16 32) (v686 : IVec S16 32) : Prop :=
  (∀ a x, ((![v651, v686] : Fin 2 → IVec S16 32) a x).toNat < S128x200.size a)
instance k0_chk48.dec : ∀ (v651 : IVec S16 32) (v686 : IVec S16 32), Decidable (k0_chk48 v651 v686) := fun v651 v686 => decidable_of_iff' _ (Iff.of_eq (k0_chk48.eq_1 v651 v686))
theorem k0_idx48_inb : ∀ (v651 : IVec S16 32) (v686 : IVec S16 32) (k0_hw48 : k0_chk48 v651 v686), ∀ a x, ((![v651, v686] : Fin 2 → IVec S16 32) a x).toNat < S128x200.size a := fun v651 v686 k0_hw48 => k0_hw48

def k0_chk49 (v651 : IVec S16 32) (v691 : IVec S16 32) : Prop :=
  (∀ a x, ((![v651, v691] : Fin 2 → IVec S16 32) a x).toNat < S128x200.size a)
instance k0_chk49.dec : ∀ (v651 : IVec S16 32) (v691 : IVec S16 32), Decidable (k0_chk49 v651 v691) := fun v651 v691 => decidable_of_iff' _ (Iff.of_eq (k0_chk49.eq_1 v651 v691))
theorem k0_idx49_inb : ∀ (v651 : IVec S16 32) (v691 : IVec S16 32) (k0_hw49 : k0_chk49 v651 v691), ∀ a x, ((![v651, v691] : Fin 2 → IVec S16 32) a x).toNat < S128x200.size a := fun v651 v691 k0_hw49 => k0_hw49

def k0_chk50 (v651 : IVec S16 32) (v696 : IVec S16 32) : Prop :=
  (∀ a x, ((![v651, v696] : Fin 2 → IVec S16 32) a x).toNat < S128x200.size a)
instance k0_chk50.dec : ∀ (v651 : IVec S16 32) (v696 : IVec S16 32), Decidable (k0_chk50 v651 v696) := fun v651 v696 => decidable_of_iff' _ (Iff.of_eq (k0_chk50.eq_1 v651 v696))
theorem k0_idx50_inb : ∀ (v651 : IVec S16 32) (v696 : IVec S16 32) (k0_hw50 : k0_chk50 v651 v696), ∀ a x, ((![v651, v696] : Fin 2 → IVec S16 32) a x).toNat < S128x200.size a := fun v651 v696 k0_hw50 => k0_hw50

def k0_chk51 (v706 : IVec S16 32) : Prop :=
  (∀ a x, ((![v706] : Fin 1 → IVec S16 32) a x).toNat < S4096.size a)
instance k0_chk51.dec : ∀ (v706 : IVec S16 32), Decidable (k0_chk51 v706) := fun v706 => decidable_of_iff' _ (Iff.of_eq (k0_chk51.eq_1 v706))
theorem k0_idx51_inb : ∀ (v706 : IVec S16 32) (k0_hw51 : k0_chk51 v706), ∀ a x, ((![v706] : Fin 1 → IVec S16 32) a x).toNat < S4096.size a := fun v706 k0_hw51 => k0_hw51

def k0_chk52 (v651 : IVec S16 32) (v710 : IVec S16 32) : Prop :=
  (∀ a x, ((![v651, v710] : Fin 2 → IVec S16 32) a x).toNat < S128x200.size a)
instance k0_chk52.dec : ∀ (v651 : IVec S16 32) (v710 : IVec S16 32), Decidable (k0_chk52 v651 v710) := fun v651 v710 => decidable_of_iff' _ (Iff.of_eq (k0_chk52.eq_1 v651 v710))
theorem k0_idx52_inb : ∀ (v651 : IVec S16 32) (v710 : IVec S16 32) (k0_hw52 : k0_chk52 v651 v710), ∀ a x, ((![v651, v710] : Fin 2 → IVec S16 32) a x).toNat < S128x200.size a := fun v651 v710 k0_hw52 => k0_hw52

def k0_chk53 (v651 : IVec S16 32) (v715 : IVec S16 32) : Prop :=
  (∀ a x, ((![v651, v715] : Fin 2 → IVec S16 32) a x).toNat < S128x200.size a)
instance k0_chk53.dec : ∀ (v651 : IVec S16 32) (v715 : IVec S16 32), Decidable (k0_chk53 v651 v715) := fun v651 v715 => decidable_of_iff' _ (Iff.of_eq (k0_chk53.eq_1 v651 v715))
theorem k0_idx53_inb : ∀ (v651 : IVec S16 32) (v715 : IVec S16 32) (k0_hw53 : k0_chk53 v651 v715), ∀ a x, ((![v651, v715] : Fin 2 → IVec S16 32) a x).toNat < S128x200.size a := fun v651 v715 k0_hw53 => k0_hw53

def k0_chk54 (v651 : IVec S16 32) (v720 : IVec S16 32) : Prop :=
  (∀ a x, ((![v651, v720] : Fin 2 → IVec S16 32) a x).toNat < S128x200.size a)
instance k0_chk54.dec : ∀ (v651 : IVec S16 32) (v720 : IVec S16 32), Decidable (k0_chk54 v651 v720) := fun v651 v720 => decidable_of_iff' _ (Iff.of_eq (k0_chk54.eq_1 v651 v720))
theorem k0_idx54_inb : ∀ (v651 : IVec S16 32) (v720 : IVec S16 32) (k0_hw54 : k0_chk54 v651 v720), ∀ a x, ((![v651, v720] : Fin 2 → IVec S16 32) a x).toNat < S128x200.size a := fun v651 v720 k0_hw54 => k0_hw54

def k0_chk55 (v651 : IVec S16 32) (v725 : IVec S16 32) : Prop :=
  (∀ a x, ((![v651, v725] : Fin 2 → IVec S16 32) a x).toNat < S128x200.size a)
instance k0_chk55.dec : ∀ (v651 : IVec S16 32) (v725 : IVec S16 32), Decidable (k0_chk55 v651 v725) := fun v651 v725 => decidable_of_iff' _ (Iff.of_eq (k0_chk55.eq_1 v651 v725))
theorem k0_idx55_inb : ∀ (v651 : IVec S16 32) (v725 : IVec S16 32) (k0_hw55 : k0_chk55 v651 v725), ∀ a x, ((![v651, v725] : Fin 2 → IVec S16 32) a x).toNat < S128x200.size a := fun v651 v725 k0_hw55 => k0_hw55

def k0_chk56 (v735 : IVec S16 32) : Prop :=
  (∀ a x, ((![v735] : Fin 1 → IVec S16 32) a x).toNat < S4096.size a)
instance k0_chk56.dec : ∀ (v735 : IVec S16 32), Decidable (k0_chk56 v735) := fun v735 => decidable_of_iff' _ (Iff.of_eq (k0_chk56.eq_1 v735))
theorem k0_idx56_inb : ∀ (v735 : IVec S16 32) (k0_hw56 : k0_chk56 v735), ∀ a x, ((![v735] : Fin 1 → IVec S16 32) a x).toNat < S4096.size a := fun v735 k0_hw56 => k0_hw56

def k0_chk57 (v651 : IVec S16 32) (v739 : IVec S16 32) : Prop :=
  (∀ a x, ((![v651, v739] : Fin 2 → IVec S16 32) a x).toNat < S128x200.size a)
instance k0_chk57.dec : ∀ (v651 : IVec S16 32) (v739 : IVec S16 32), Decidable (k0_chk57 v651 v739) := fun v651 v739 => decidable_of_iff' _ (Iff.of_eq (k0_chk57.eq_1 v651 v739))
theorem k0_idx57_inb : ∀ (v651 : IVec S16 32) (v739 : IVec S16 32) (k0_hw57 : k0_chk57 v651 v739), ∀ a x, ((![v651, v739] : Fin 2 → IVec S16 32) a x).toNat < S128x200.size a := fun v651 v739 k0_hw57 => k0_hw57

def k0_chk58 (v743 : IVec S16 32) : Prop :=
  (∀ a x, ((![v743] : Fin 1 → IVec S16 32) a x).toNat < S272.size a)
instance k0_chk58.dec : ∀ (v743 : IVec S16 32), Decidable (k0_chk58 v743) := fun v743 => decidable_of_iff' _ (Iff.of_eq (k0_chk58.eq_1 v743))
theorem k0_idx58_inb : ∀ (v743 : IVec S16 32) (k0_hw58 : k0_chk58 v743), ∀ a x, ((![v743] : Fin 1 → IVec S16 32) a x).toNat < S272.size a := fun v743 k0_hw58 => k0_hw58
def k0_off12 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c0_i32_250 : BitVec 32 := 0#32
  let v747 : BitVec 32 := Scalar.addi v648 c0_i32_250
  let v748 : Index := Scalar.indexCast v747
  ![v748.toNat]

def k0_chk59 (v752 : IVec S16 32) (v754 : IVec S16 32) : Prop :=
  (∀ a x, ((![v752, v754] : Fin 2 → IVec S16 32) a x).toNat < S128x200.size a)
instance k0_chk59.dec : ∀ (v752 : IVec S16 32) (v754 : IVec S16 32), Decidable (k0_chk59 v752 v754) := fun v752 v754 => decidable_of_iff' _ (Iff.of_eq (k0_chk59.eq_1 v752 v754))
theorem k0_idx59_inb : ∀ (v752 : IVec S16 32) (v754 : IVec S16 32) (k0_hw59 : k0_chk59 v752 v754), ∀ a x, ((![v752, v754] : Fin 2 → IVec S16 32) a x).toNat < S128x200.size a := fun v752 v754 k0_hw59 => k0_hw59

def k0_chk60 (v752 : IVec S16 32) (v759 : IVec S16 32) : Prop :=
  (∀ a x, ((![v752, v759] : Fin 2 → IVec S16 32) a x).toNat < S128x200.size a)
instance k0_chk60.dec : ∀ (v752 : IVec S16 32) (v759 : IVec S16 32), Decidable (k0_chk60 v752 v759) := fun v752 v759 => decidable_of_iff' _ (Iff.of_eq (k0_chk60.eq_1 v752 v759))
theorem k0_idx60_inb : ∀ (v752 : IVec S16 32) (v759 : IVec S16 32) (k0_hw60 : k0_chk60 v752 v759), ∀ a x, ((![v752, v759] : Fin 2 → IVec S16 32) a x).toNat < S128x200.size a := fun v752 v759 k0_hw60 => k0_hw60

def k0_chk61 (v752 : IVec S16 32) (v764 : IVec S16 32) : Prop :=
  (∀ a x, ((![v752, v764] : Fin 2 → IVec S16 32) a x).toNat < S128x200.size a)
instance k0_chk61.dec : ∀ (v752 : IVec S16 32) (v764 : IVec S16 32), Decidable (k0_chk61 v752 v764) := fun v752 v764 => decidable_of_iff' _ (Iff.of_eq (k0_chk61.eq_1 v752 v764))
theorem k0_idx61_inb : ∀ (v752 : IVec S16 32) (v764 : IVec S16 32) (k0_hw61 : k0_chk61 v752 v764), ∀ a x, ((![v752, v764] : Fin 2 → IVec S16 32) a x).toNat < S128x200.size a := fun v752 v764 k0_hw61 => k0_hw61

def k0_chk62 (v752 : IVec S16 32) (v769 : IVec S16 32) : Prop :=
  (∀ a x, ((![v752, v769] : Fin 2 → IVec S16 32) a x).toNat < S128x200.size a)
instance k0_chk62.dec : ∀ (v752 : IVec S16 32) (v769 : IVec S16 32), Decidable (k0_chk62 v752 v769) := fun v752 v769 => decidable_of_iff' _ (Iff.of_eq (k0_chk62.eq_1 v752 v769))
theorem k0_idx62_inb : ∀ (v752 : IVec S16 32) (v769 : IVec S16 32) (k0_hw62 : k0_chk62 v752 v769), ∀ a x, ((![v752, v769] : Fin 2 → IVec S16 32) a x).toNat < S128x200.size a := fun v752 v769 k0_hw62 => k0_hw62

def k0_chk63 (v779 : IVec S16 32) : Prop :=
  (∀ a x, ((![v779] : Fin 1 → IVec S16 32) a x).toNat < S4096.size a)
instance k0_chk63.dec : ∀ (v779 : IVec S16 32), Decidable (k0_chk63 v779) := fun v779 => decidable_of_iff' _ (Iff.of_eq (k0_chk63.eq_1 v779))
theorem k0_idx63_inb : ∀ (v779 : IVec S16 32) (k0_hw63 : k0_chk63 v779), ∀ a x, ((![v779] : Fin 1 → IVec S16 32) a x).toNat < S4096.size a := fun v779 k0_hw63 => k0_hw63

def k0_chk64 (v752 : IVec S16 32) (v782 : IVec S16 32) : Prop :=
  (∀ a x, ((![v752, v782] : Fin 2 → IVec S16 32) a x).toNat < S128x200.size a)
instance k0_chk64.dec : ∀ (v752 : IVec S16 32) (v782 : IVec S16 32), Decidable (k0_chk64 v752 v782) := fun v752 v782 => decidable_of_iff' _ (Iff.of_eq (k0_chk64.eq_1 v752 v782))
theorem k0_idx64_inb : ∀ (v752 : IVec S16 32) (v782 : IVec S16 32) (k0_hw64 : k0_chk64 v752 v782), ∀ a x, ((![v752, v782] : Fin 2 → IVec S16 32) a x).toNat < S128x200.size a := fun v752 v782 k0_hw64 => k0_hw64

def k0_chk65 (v752 : IVec S16 32) (v787 : IVec S16 32) : Prop :=
  (∀ a x, ((![v752, v787] : Fin 2 → IVec S16 32) a x).toNat < S128x200.size a)
instance k0_chk65.dec : ∀ (v752 : IVec S16 32) (v787 : IVec S16 32), Decidable (k0_chk65 v752 v787) := fun v752 v787 => decidable_of_iff' _ (Iff.of_eq (k0_chk65.eq_1 v752 v787))
theorem k0_idx65_inb : ∀ (v752 : IVec S16 32) (v787 : IVec S16 32) (k0_hw65 : k0_chk65 v752 v787), ∀ a x, ((![v752, v787] : Fin 2 → IVec S16 32) a x).toNat < S128x200.size a := fun v752 v787 k0_hw65 => k0_hw65

def k0_chk66 (v752 : IVec S16 32) (v792 : IVec S16 32) : Prop :=
  (∀ a x, ((![v752, v792] : Fin 2 → IVec S16 32) a x).toNat < S128x200.size a)
instance k0_chk66.dec : ∀ (v752 : IVec S16 32) (v792 : IVec S16 32), Decidable (k0_chk66 v752 v792) := fun v752 v792 => decidable_of_iff' _ (Iff.of_eq (k0_chk66.eq_1 v752 v792))
theorem k0_idx66_inb : ∀ (v752 : IVec S16 32) (v792 : IVec S16 32) (k0_hw66 : k0_chk66 v752 v792), ∀ a x, ((![v752, v792] : Fin 2 → IVec S16 32) a x).toNat < S128x200.size a := fun v752 v792 k0_hw66 => k0_hw66

def k0_chk67 (v752 : IVec S16 32) (v797 : IVec S16 32) : Prop :=
  (∀ a x, ((![v752, v797] : Fin 2 → IVec S16 32) a x).toNat < S128x200.size a)
instance k0_chk67.dec : ∀ (v752 : IVec S16 32) (v797 : IVec S16 32), Decidable (k0_chk67 v752 v797) := fun v752 v797 => decidable_of_iff' _ (Iff.of_eq (k0_chk67.eq_1 v752 v797))
theorem k0_idx67_inb : ∀ (v752 : IVec S16 32) (v797 : IVec S16 32) (k0_hw67 : k0_chk67 v752 v797), ∀ a x, ((![v752, v797] : Fin 2 → IVec S16 32) a x).toNat < S128x200.size a := fun v752 v797 k0_hw67 => k0_hw67

def k0_chk68 (v807 : IVec S16 32) : Prop :=
  (∀ a x, ((![v807] : Fin 1 → IVec S16 32) a x).toNat < S4096.size a)
instance k0_chk68.dec : ∀ (v807 : IVec S16 32), Decidable (k0_chk68 v807) := fun v807 => decidable_of_iff' _ (Iff.of_eq (k0_chk68.eq_1 v807))
theorem k0_idx68_inb : ∀ (v807 : IVec S16 32) (k0_hw68 : k0_chk68 v807), ∀ a x, ((![v807] : Fin 1 → IVec S16 32) a x).toNat < S4096.size a := fun v807 k0_hw68 => k0_hw68

def k0_chk69 (v752 : IVec S16 32) (v811 : IVec S16 32) : Prop :=
  (∀ a x, ((![v752, v811] : Fin 2 → IVec S16 32) a x).toNat < S128x200.size a)
instance k0_chk69.dec : ∀ (v752 : IVec S16 32) (v811 : IVec S16 32), Decidable (k0_chk69 v752 v811) := fun v752 v811 => decidable_of_iff' _ (Iff.of_eq (k0_chk69.eq_1 v752 v811))
theorem k0_idx69_inb : ∀ (v752 : IVec S16 32) (v811 : IVec S16 32) (k0_hw69 : k0_chk69 v752 v811), ∀ a x, ((![v752, v811] : Fin 2 → IVec S16 32) a x).toNat < S128x200.size a := fun v752 v811 k0_hw69 => k0_hw69

def k0_chk70 (v752 : IVec S16 32) (v816 : IVec S16 32) : Prop :=
  (∀ a x, ((![v752, v816] : Fin 2 → IVec S16 32) a x).toNat < S128x200.size a)
instance k0_chk70.dec : ∀ (v752 : IVec S16 32) (v816 : IVec S16 32), Decidable (k0_chk70 v752 v816) := fun v752 v816 => decidable_of_iff' _ (Iff.of_eq (k0_chk70.eq_1 v752 v816))
theorem k0_idx70_inb : ∀ (v752 : IVec S16 32) (v816 : IVec S16 32) (k0_hw70 : k0_chk70 v752 v816), ∀ a x, ((![v752, v816] : Fin 2 → IVec S16 32) a x).toNat < S128x200.size a := fun v752 v816 k0_hw70 => k0_hw70

def k0_chk71 (v752 : IVec S16 32) (v821 : IVec S16 32) : Prop :=
  (∀ a x, ((![v752, v821] : Fin 2 → IVec S16 32) a x).toNat < S128x200.size a)
instance k0_chk71.dec : ∀ (v752 : IVec S16 32) (v821 : IVec S16 32), Decidable (k0_chk71 v752 v821) := fun v752 v821 => decidable_of_iff' _ (Iff.of_eq (k0_chk71.eq_1 v752 v821))
theorem k0_idx71_inb : ∀ (v752 : IVec S16 32) (v821 : IVec S16 32) (k0_hw71 : k0_chk71 v752 v821), ∀ a x, ((![v752, v821] : Fin 2 → IVec S16 32) a x).toNat < S128x200.size a := fun v752 v821 k0_hw71 => k0_hw71

def k0_chk72 (v752 : IVec S16 32) (v826 : IVec S16 32) : Prop :=
  (∀ a x, ((![v752, v826] : Fin 2 → IVec S16 32) a x).toNat < S128x200.size a)
instance k0_chk72.dec : ∀ (v752 : IVec S16 32) (v826 : IVec S16 32), Decidable (k0_chk72 v752 v826) := fun v752 v826 => decidable_of_iff' _ (Iff.of_eq (k0_chk72.eq_1 v752 v826))
theorem k0_idx72_inb : ∀ (v752 : IVec S16 32) (v826 : IVec S16 32) (k0_hw72 : k0_chk72 v752 v826), ∀ a x, ((![v752, v826] : Fin 2 → IVec S16 32) a x).toNat < S128x200.size a := fun v752 v826 k0_hw72 => k0_hw72

def k0_chk73 (v836 : IVec S16 32) : Prop :=
  (∀ a x, ((![v836] : Fin 1 → IVec S16 32) a x).toNat < S4096.size a)
instance k0_chk73.dec : ∀ (v836 : IVec S16 32), Decidable (k0_chk73 v836) := fun v836 => decidable_of_iff' _ (Iff.of_eq (k0_chk73.eq_1 v836))
theorem k0_idx73_inb : ∀ (v836 : IVec S16 32) (k0_hw73 : k0_chk73 v836), ∀ a x, ((![v836] : Fin 1 → IVec S16 32) a x).toNat < S4096.size a := fun v836 k0_hw73 => k0_hw73

def k0_chk74 (v752 : IVec S16 32) (v840 : IVec S16 32) : Prop :=
  (∀ a x, ((![v752, v840] : Fin 2 → IVec S16 32) a x).toNat < S128x200.size a)
instance k0_chk74.dec : ∀ (v752 : IVec S16 32) (v840 : IVec S16 32), Decidable (k0_chk74 v752 v840) := fun v752 v840 => decidable_of_iff' _ (Iff.of_eq (k0_chk74.eq_1 v752 v840))
theorem k0_idx74_inb : ∀ (v752 : IVec S16 32) (v840 : IVec S16 32) (k0_hw74 : k0_chk74 v752 v840), ∀ a x, ((![v752, v840] : Fin 2 → IVec S16 32) a x).toNat < S128x200.size a := fun v752 v840 k0_hw74 => k0_hw74

def k0_chk75 (v844 : IVec S16 32) : Prop :=
  (∀ a x, ((![v844] : Fin 1 → IVec S16 32) a x).toNat < S272.size a)
instance k0_chk75.dec : ∀ (v844 : IVec S16 32), Decidable (k0_chk75 v844) := fun v844 => decidable_of_iff' _ (Iff.of_eq (k0_chk75.eq_1 v844))
theorem k0_idx75_inb : ∀ (v844 : IVec S16 32) (k0_hw75 : k0_chk75 v844), ∀ a x, ((![v844] : Fin 1 → IVec S16 32) a x).toNat < S272.size a := fun v844 k0_hw75 => k0_hw75
def k0_off13 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c16_i32_285 : BitVec 32 := 16#32
  let v848 : BitVec 32 := Scalar.addi v648 c16_i32_285
  let v849 : Index := Scalar.indexCast v848
  ![v849.toNat]

def k0_chk76 (v853 : IVec S16 32) (v855 : IVec S16 32) : Prop :=
  (∀ a x, ((![v853, v855] : Fin 2 → IVec S16 32) a x).toNat < S128x200.size a)
instance k0_chk76.dec : ∀ (v853 : IVec S16 32) (v855 : IVec S16 32), Decidable (k0_chk76 v853 v855) := fun v853 v855 => decidable_of_iff' _ (Iff.of_eq (k0_chk76.eq_1 v853 v855))
theorem k0_idx76_inb : ∀ (v853 : IVec S16 32) (v855 : IVec S16 32) (k0_hw76 : k0_chk76 v853 v855), ∀ a x, ((![v853, v855] : Fin 2 → IVec S16 32) a x).toNat < S128x200.size a := fun v853 v855 k0_hw76 => k0_hw76

def k0_chk77 (v853 : IVec S16 32) (v860 : IVec S16 32) : Prop :=
  (∀ a x, ((![v853, v860] : Fin 2 → IVec S16 32) a x).toNat < S128x200.size a)
instance k0_chk77.dec : ∀ (v853 : IVec S16 32) (v860 : IVec S16 32), Decidable (k0_chk77 v853 v860) := fun v853 v860 => decidable_of_iff' _ (Iff.of_eq (k0_chk77.eq_1 v853 v860))
theorem k0_idx77_inb : ∀ (v853 : IVec S16 32) (v860 : IVec S16 32) (k0_hw77 : k0_chk77 v853 v860), ∀ a x, ((![v853, v860] : Fin 2 → IVec S16 32) a x).toNat < S128x200.size a := fun v853 v860 k0_hw77 => k0_hw77

def k0_chk78 (v853 : IVec S16 32) (v865 : IVec S16 32) : Prop :=
  (∀ a x, ((![v853, v865] : Fin 2 → IVec S16 32) a x).toNat < S128x200.size a)
instance k0_chk78.dec : ∀ (v853 : IVec S16 32) (v865 : IVec S16 32), Decidable (k0_chk78 v853 v865) := fun v853 v865 => decidable_of_iff' _ (Iff.of_eq (k0_chk78.eq_1 v853 v865))
theorem k0_idx78_inb : ∀ (v853 : IVec S16 32) (v865 : IVec S16 32) (k0_hw78 : k0_chk78 v853 v865), ∀ a x, ((![v853, v865] : Fin 2 → IVec S16 32) a x).toNat < S128x200.size a := fun v853 v865 k0_hw78 => k0_hw78

def k0_chk79 (v853 : IVec S16 32) (v870 : IVec S16 32) : Prop :=
  (∀ a x, ((![v853, v870] : Fin 2 → IVec S16 32) a x).toNat < S128x200.size a)
instance k0_chk79.dec : ∀ (v853 : IVec S16 32) (v870 : IVec S16 32), Decidable (k0_chk79 v853 v870) := fun v853 v870 => decidable_of_iff' _ (Iff.of_eq (k0_chk79.eq_1 v853 v870))
theorem k0_idx79_inb : ∀ (v853 : IVec S16 32) (v870 : IVec S16 32) (k0_hw79 : k0_chk79 v853 v870), ∀ a x, ((![v853, v870] : Fin 2 → IVec S16 32) a x).toNat < S128x200.size a := fun v853 v870 k0_hw79 => k0_hw79

def k0_chk80 (v880 : IVec S16 32) : Prop :=
  (∀ a x, ((![v880] : Fin 1 → IVec S16 32) a x).toNat < S4096.size a)
instance k0_chk80.dec : ∀ (v880 : IVec S16 32), Decidable (k0_chk80 v880) := fun v880 => decidable_of_iff' _ (Iff.of_eq (k0_chk80.eq_1 v880))
theorem k0_idx80_inb : ∀ (v880 : IVec S16 32) (k0_hw80 : k0_chk80 v880), ∀ a x, ((![v880] : Fin 1 → IVec S16 32) a x).toNat < S4096.size a := fun v880 k0_hw80 => k0_hw80

def k0_chk81 (v853 : IVec S16 32) (v883 : IVec S16 32) : Prop :=
  (∀ a x, ((![v853, v883] : Fin 2 → IVec S16 32) a x).toNat < S128x200.size a)
instance k0_chk81.dec : ∀ (v853 : IVec S16 32) (v883 : IVec S16 32), Decidable (k0_chk81 v853 v883) := fun v853 v883 => decidable_of_iff' _ (Iff.of_eq (k0_chk81.eq_1 v853 v883))
theorem k0_idx81_inb : ∀ (v853 : IVec S16 32) (v883 : IVec S16 32) (k0_hw81 : k0_chk81 v853 v883), ∀ a x, ((![v853, v883] : Fin 2 → IVec S16 32) a x).toNat < S128x200.size a := fun v853 v883 k0_hw81 => k0_hw81

def k0_chk82 (v853 : IVec S16 32) (v888 : IVec S16 32) : Prop :=
  (∀ a x, ((![v853, v888] : Fin 2 → IVec S16 32) a x).toNat < S128x200.size a)
instance k0_chk82.dec : ∀ (v853 : IVec S16 32) (v888 : IVec S16 32), Decidable (k0_chk82 v853 v888) := fun v853 v888 => decidable_of_iff' _ (Iff.of_eq (k0_chk82.eq_1 v853 v888))
theorem k0_idx82_inb : ∀ (v853 : IVec S16 32) (v888 : IVec S16 32) (k0_hw82 : k0_chk82 v853 v888), ∀ a x, ((![v853, v888] : Fin 2 → IVec S16 32) a x).toNat < S128x200.size a := fun v853 v888 k0_hw82 => k0_hw82

def k0_chk83 (v853 : IVec S16 32) (v893 : IVec S16 32) : Prop :=
  (∀ a x, ((![v853, v893] : Fin 2 → IVec S16 32) a x).toNat < S128x200.size a)
instance k0_chk83.dec : ∀ (v853 : IVec S16 32) (v893 : IVec S16 32), Decidable (k0_chk83 v853 v893) := fun v853 v893 => decidable_of_iff' _ (Iff.of_eq (k0_chk83.eq_1 v853 v893))
theorem k0_idx83_inb : ∀ (v853 : IVec S16 32) (v893 : IVec S16 32) (k0_hw83 : k0_chk83 v853 v893), ∀ a x, ((![v853, v893] : Fin 2 → IVec S16 32) a x).toNat < S128x200.size a := fun v853 v893 k0_hw83 => k0_hw83

def k0_chk84 (v853 : IVec S16 32) (v898 : IVec S16 32) : Prop :=
  (∀ a x, ((![v853, v898] : Fin 2 → IVec S16 32) a x).toNat < S128x200.size a)
instance k0_chk84.dec : ∀ (v853 : IVec S16 32) (v898 : IVec S16 32), Decidable (k0_chk84 v853 v898) := fun v853 v898 => decidable_of_iff' _ (Iff.of_eq (k0_chk84.eq_1 v853 v898))
theorem k0_idx84_inb : ∀ (v853 : IVec S16 32) (v898 : IVec S16 32) (k0_hw84 : k0_chk84 v853 v898), ∀ a x, ((![v853, v898] : Fin 2 → IVec S16 32) a x).toNat < S128x200.size a := fun v853 v898 k0_hw84 => k0_hw84

def k0_chk85 (v908 : IVec S16 32) : Prop :=
  (∀ a x, ((![v908] : Fin 1 → IVec S16 32) a x).toNat < S4096.size a)
instance k0_chk85.dec : ∀ (v908 : IVec S16 32), Decidable (k0_chk85 v908) := fun v908 => decidable_of_iff' _ (Iff.of_eq (k0_chk85.eq_1 v908))
theorem k0_idx85_inb : ∀ (v908 : IVec S16 32) (k0_hw85 : k0_chk85 v908), ∀ a x, ((![v908] : Fin 1 → IVec S16 32) a x).toNat < S4096.size a := fun v908 k0_hw85 => k0_hw85

def k0_chk86 (v853 : IVec S16 32) (v912 : IVec S16 32) : Prop :=
  (∀ a x, ((![v853, v912] : Fin 2 → IVec S16 32) a x).toNat < S128x200.size a)
instance k0_chk86.dec : ∀ (v853 : IVec S16 32) (v912 : IVec S16 32), Decidable (k0_chk86 v853 v912) := fun v853 v912 => decidable_of_iff' _ (Iff.of_eq (k0_chk86.eq_1 v853 v912))
theorem k0_idx86_inb : ∀ (v853 : IVec S16 32) (v912 : IVec S16 32) (k0_hw86 : k0_chk86 v853 v912), ∀ a x, ((![v853, v912] : Fin 2 → IVec S16 32) a x).toNat < S128x200.size a := fun v853 v912 k0_hw86 => k0_hw86

def k0_chk87 (v853 : IVec S16 32) (v917 : IVec S16 32) : Prop :=
  (∀ a x, ((![v853, v917] : Fin 2 → IVec S16 32) a x).toNat < S128x200.size a)
instance k0_chk87.dec : ∀ (v853 : IVec S16 32) (v917 : IVec S16 32), Decidable (k0_chk87 v853 v917) := fun v853 v917 => decidable_of_iff' _ (Iff.of_eq (k0_chk87.eq_1 v853 v917))
theorem k0_idx87_inb : ∀ (v853 : IVec S16 32) (v917 : IVec S16 32) (k0_hw87 : k0_chk87 v853 v917), ∀ a x, ((![v853, v917] : Fin 2 → IVec S16 32) a x).toNat < S128x200.size a := fun v853 v917 k0_hw87 => k0_hw87

def k0_chk88 (v853 : IVec S16 32) (v922 : IVec S16 32) : Prop :=
  (∀ a x, ((![v853, v922] : Fin 2 → IVec S16 32) a x).toNat < S128x200.size a)
instance k0_chk88.dec : ∀ (v853 : IVec S16 32) (v922 : IVec S16 32), Decidable (k0_chk88 v853 v922) := fun v853 v922 => decidable_of_iff' _ (Iff.of_eq (k0_chk88.eq_1 v853 v922))
theorem k0_idx88_inb : ∀ (v853 : IVec S16 32) (v922 : IVec S16 32) (k0_hw88 : k0_chk88 v853 v922), ∀ a x, ((![v853, v922] : Fin 2 → IVec S16 32) a x).toNat < S128x200.size a := fun v853 v922 k0_hw88 => k0_hw88

def k0_chk89 (v853 : IVec S16 32) (v927 : IVec S16 32) : Prop :=
  (∀ a x, ((![v853, v927] : Fin 2 → IVec S16 32) a x).toNat < S128x200.size a)
instance k0_chk89.dec : ∀ (v853 : IVec S16 32) (v927 : IVec S16 32), Decidable (k0_chk89 v853 v927) := fun v853 v927 => decidable_of_iff' _ (Iff.of_eq (k0_chk89.eq_1 v853 v927))
theorem k0_idx89_inb : ∀ (v853 : IVec S16 32) (v927 : IVec S16 32) (k0_hw89 : k0_chk89 v853 v927), ∀ a x, ((![v853, v927] : Fin 2 → IVec S16 32) a x).toNat < S128x200.size a := fun v853 v927 k0_hw89 => k0_hw89

def k0_chk90 (v937 : IVec S16 32) : Prop :=
  (∀ a x, ((![v937] : Fin 1 → IVec S16 32) a x).toNat < S4096.size a)
instance k0_chk90.dec : ∀ (v937 : IVec S16 32), Decidable (k0_chk90 v937) := fun v937 => decidable_of_iff' _ (Iff.of_eq (k0_chk90.eq_1 v937))
theorem k0_idx90_inb : ∀ (v937 : IVec S16 32) (k0_hw90 : k0_chk90 v937), ∀ a x, ((![v937] : Fin 1 → IVec S16 32) a x).toNat < S4096.size a := fun v937 k0_hw90 => k0_hw90

def k0_chk91 (v853 : IVec S16 32) (v941 : IVec S16 32) : Prop :=
  (∀ a x, ((![v853, v941] : Fin 2 → IVec S16 32) a x).toNat < S128x200.size a)
instance k0_chk91.dec : ∀ (v853 : IVec S16 32) (v941 : IVec S16 32), Decidable (k0_chk91 v853 v941) := fun v853 v941 => decidable_of_iff' _ (Iff.of_eq (k0_chk91.eq_1 v853 v941))
theorem k0_idx91_inb : ∀ (v853 : IVec S16 32) (v941 : IVec S16 32) (k0_hw91 : k0_chk91 v853 v941), ∀ a x, ((![v853, v941] : Fin 2 → IVec S16 32) a x).toNat < S128x200.size a := fun v853 v941 k0_hw91 => k0_hw91

def k0_chk92 (v945 : IVec S16 32) : Prop :=
  (∀ a x, ((![v945] : Fin 1 → IVec S16 32) a x).toNat < S272.size a)
instance k0_chk92.dec : ∀ (v945 : IVec S16 32), Decidable (k0_chk92 v945) := fun v945 => decidable_of_iff' _ (Iff.of_eq (k0_chk92.eq_1 v945))
theorem k0_idx92_inb : ∀ (v945 : IVec S16 32) (k0_hw92 : k0_chk92 v945), ∀ a x, ((![v945] : Fin 1 → IVec S16 32) a x).toNat < S272.size a := fun v945 k0_hw92 => k0_hw92
def k0_off14 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c32_i32_320 : BitVec 32 := 32#32
  let v949 : BitVec 32 := Scalar.addi v648 c32_i32_320
  let v950 : Index := Scalar.indexCast v949
  ![v950.toNat]

def k0_chk93 (v954 : IVec S16 32) (v956 : IVec S16 32) : Prop :=
  (∀ a x, ((![v954, v956] : Fin 2 → IVec S16 32) a x).toNat < S128x200.size a)
instance k0_chk93.dec : ∀ (v954 : IVec S16 32) (v956 : IVec S16 32), Decidable (k0_chk93 v954 v956) := fun v954 v956 => decidable_of_iff' _ (Iff.of_eq (k0_chk93.eq_1 v954 v956))
theorem k0_idx93_inb : ∀ (v954 : IVec S16 32) (v956 : IVec S16 32) (k0_hw93 : k0_chk93 v954 v956), ∀ a x, ((![v954, v956] : Fin 2 → IVec S16 32) a x).toNat < S128x200.size a := fun v954 v956 k0_hw93 => k0_hw93

def k0_chk94 (v954 : IVec S16 32) (v961 : IVec S16 32) : Prop :=
  (∀ a x, ((![v954, v961] : Fin 2 → IVec S16 32) a x).toNat < S128x200.size a)
instance k0_chk94.dec : ∀ (v954 : IVec S16 32) (v961 : IVec S16 32), Decidable (k0_chk94 v954 v961) := fun v954 v961 => decidable_of_iff' _ (Iff.of_eq (k0_chk94.eq_1 v954 v961))
theorem k0_idx94_inb : ∀ (v954 : IVec S16 32) (v961 : IVec S16 32) (k0_hw94 : k0_chk94 v954 v961), ∀ a x, ((![v954, v961] : Fin 2 → IVec S16 32) a x).toNat < S128x200.size a := fun v954 v961 k0_hw94 => k0_hw94

def k0_chk95 (v954 : IVec S16 32) (v966 : IVec S16 32) : Prop :=
  (∀ a x, ((![v954, v966] : Fin 2 → IVec S16 32) a x).toNat < S128x200.size a)
instance k0_chk95.dec : ∀ (v954 : IVec S16 32) (v966 : IVec S16 32), Decidable (k0_chk95 v954 v966) := fun v954 v966 => decidable_of_iff' _ (Iff.of_eq (k0_chk95.eq_1 v954 v966))
theorem k0_idx95_inb : ∀ (v954 : IVec S16 32) (v966 : IVec S16 32) (k0_hw95 : k0_chk95 v954 v966), ∀ a x, ((![v954, v966] : Fin 2 → IVec S16 32) a x).toNat < S128x200.size a := fun v954 v966 k0_hw95 => k0_hw95

def k0_chk96 (v954 : IVec S16 32) (v971 : IVec S16 32) : Prop :=
  (∀ a x, ((![v954, v971] : Fin 2 → IVec S16 32) a x).toNat < S128x200.size a)
instance k0_chk96.dec : ∀ (v954 : IVec S16 32) (v971 : IVec S16 32), Decidable (k0_chk96 v954 v971) := fun v954 v971 => decidable_of_iff' _ (Iff.of_eq (k0_chk96.eq_1 v954 v971))
theorem k0_idx96_inb : ∀ (v954 : IVec S16 32) (v971 : IVec S16 32) (k0_hw96 : k0_chk96 v954 v971), ∀ a x, ((![v954, v971] : Fin 2 → IVec S16 32) a x).toNat < S128x200.size a := fun v954 v971 k0_hw96 => k0_hw96

def k0_chk97 (v981 : IVec S16 32) : Prop :=
  (∀ a x, ((![v981] : Fin 1 → IVec S16 32) a x).toNat < S4096.size a)
instance k0_chk97.dec : ∀ (v981 : IVec S16 32), Decidable (k0_chk97 v981) := fun v981 => decidable_of_iff' _ (Iff.of_eq (k0_chk97.eq_1 v981))
theorem k0_idx97_inb : ∀ (v981 : IVec S16 32) (k0_hw97 : k0_chk97 v981), ∀ a x, ((![v981] : Fin 1 → IVec S16 32) a x).toNat < S4096.size a := fun v981 k0_hw97 => k0_hw97

def k0_chk98 (v954 : IVec S16 32) (v984 : IVec S16 32) : Prop :=
  (∀ a x, ((![v954, v984] : Fin 2 → IVec S16 32) a x).toNat < S128x200.size a)
instance k0_chk98.dec : ∀ (v954 : IVec S16 32) (v984 : IVec S16 32), Decidable (k0_chk98 v954 v984) := fun v954 v984 => decidable_of_iff' _ (Iff.of_eq (k0_chk98.eq_1 v954 v984))
theorem k0_idx98_inb : ∀ (v954 : IVec S16 32) (v984 : IVec S16 32) (k0_hw98 : k0_chk98 v954 v984), ∀ a x, ((![v954, v984] : Fin 2 → IVec S16 32) a x).toNat < S128x200.size a := fun v954 v984 k0_hw98 => k0_hw98

def k0_chk99 (v954 : IVec S16 32) (v989 : IVec S16 32) : Prop :=
  (∀ a x, ((![v954, v989] : Fin 2 → IVec S16 32) a x).toNat < S128x200.size a)
instance k0_chk99.dec : ∀ (v954 : IVec S16 32) (v989 : IVec S16 32), Decidable (k0_chk99 v954 v989) := fun v954 v989 => decidable_of_iff' _ (Iff.of_eq (k0_chk99.eq_1 v954 v989))
theorem k0_idx99_inb : ∀ (v954 : IVec S16 32) (v989 : IVec S16 32) (k0_hw99 : k0_chk99 v954 v989), ∀ a x, ((![v954, v989] : Fin 2 → IVec S16 32) a x).toNat < S128x200.size a := fun v954 v989 k0_hw99 => k0_hw99

def k0_chk100 (v954 : IVec S16 32) (v994 : IVec S16 32) : Prop :=
  (∀ a x, ((![v954, v994] : Fin 2 → IVec S16 32) a x).toNat < S128x200.size a)
instance k0_chk100.dec : ∀ (v954 : IVec S16 32) (v994 : IVec S16 32), Decidable (k0_chk100 v954 v994) := fun v954 v994 => decidable_of_iff' _ (Iff.of_eq (k0_chk100.eq_1 v954 v994))
theorem k0_idx100_inb : ∀ (v954 : IVec S16 32) (v994 : IVec S16 32) (k0_hw100 : k0_chk100 v954 v994), ∀ a x, ((![v954, v994] : Fin 2 → IVec S16 32) a x).toNat < S128x200.size a := fun v954 v994 k0_hw100 => k0_hw100

def k0_chk101 (v954 : IVec S16 32) (v999 : IVec S16 32) : Prop :=
  (∀ a x, ((![v954, v999] : Fin 2 → IVec S16 32) a x).toNat < S128x200.size a)
instance k0_chk101.dec : ∀ (v954 : IVec S16 32) (v999 : IVec S16 32), Decidable (k0_chk101 v954 v999) := fun v954 v999 => decidable_of_iff' _ (Iff.of_eq (k0_chk101.eq_1 v954 v999))
theorem k0_idx101_inb : ∀ (v954 : IVec S16 32) (v999 : IVec S16 32) (k0_hw101 : k0_chk101 v954 v999), ∀ a x, ((![v954, v999] : Fin 2 → IVec S16 32) a x).toNat < S128x200.size a := fun v954 v999 k0_hw101 => k0_hw101

def k0_chk102 (v1009 : IVec S16 32) : Prop :=
  (∀ a x, ((![v1009] : Fin 1 → IVec S16 32) a x).toNat < S4096.size a)
instance k0_chk102.dec : ∀ (v1009 : IVec S16 32), Decidable (k0_chk102 v1009) := fun v1009 => decidable_of_iff' _ (Iff.of_eq (k0_chk102.eq_1 v1009))
theorem k0_idx102_inb : ∀ (v1009 : IVec S16 32) (k0_hw102 : k0_chk102 v1009), ∀ a x, ((![v1009] : Fin 1 → IVec S16 32) a x).toNat < S4096.size a := fun v1009 k0_hw102 => k0_hw102

def k0_chk103 (v954 : IVec S16 32) (v1013 : IVec S16 32) : Prop :=
  (∀ a x, ((![v954, v1013] : Fin 2 → IVec S16 32) a x).toNat < S128x200.size a)
instance k0_chk103.dec : ∀ (v954 : IVec S16 32) (v1013 : IVec S16 32), Decidable (k0_chk103 v954 v1013) := fun v954 v1013 => decidable_of_iff' _ (Iff.of_eq (k0_chk103.eq_1 v954 v1013))
theorem k0_idx103_inb : ∀ (v954 : IVec S16 32) (v1013 : IVec S16 32) (k0_hw103 : k0_chk103 v954 v1013), ∀ a x, ((![v954, v1013] : Fin 2 → IVec S16 32) a x).toNat < S128x200.size a := fun v954 v1013 k0_hw103 => k0_hw103

def k0_chk104 (v954 : IVec S16 32) (v1018 : IVec S16 32) : Prop :=
  (∀ a x, ((![v954, v1018] : Fin 2 → IVec S16 32) a x).toNat < S128x200.size a)
instance k0_chk104.dec : ∀ (v954 : IVec S16 32) (v1018 : IVec S16 32), Decidable (k0_chk104 v954 v1018) := fun v954 v1018 => decidable_of_iff' _ (Iff.of_eq (k0_chk104.eq_1 v954 v1018))
theorem k0_idx104_inb : ∀ (v954 : IVec S16 32) (v1018 : IVec S16 32) (k0_hw104 : k0_chk104 v954 v1018), ∀ a x, ((![v954, v1018] : Fin 2 → IVec S16 32) a x).toNat < S128x200.size a := fun v954 v1018 k0_hw104 => k0_hw104

def k0_chk105 (v954 : IVec S16 32) (v1023 : IVec S16 32) : Prop :=
  (∀ a x, ((![v954, v1023] : Fin 2 → IVec S16 32) a x).toNat < S128x200.size a)
instance k0_chk105.dec : ∀ (v954 : IVec S16 32) (v1023 : IVec S16 32), Decidable (k0_chk105 v954 v1023) := fun v954 v1023 => decidable_of_iff' _ (Iff.of_eq (k0_chk105.eq_1 v954 v1023))
theorem k0_idx105_inb : ∀ (v954 : IVec S16 32) (v1023 : IVec S16 32) (k0_hw105 : k0_chk105 v954 v1023), ∀ a x, ((![v954, v1023] : Fin 2 → IVec S16 32) a x).toNat < S128x200.size a := fun v954 v1023 k0_hw105 => k0_hw105

def k0_chk106 (v954 : IVec S16 32) (v1028 : IVec S16 32) : Prop :=
  (∀ a x, ((![v954, v1028] : Fin 2 → IVec S16 32) a x).toNat < S128x200.size a)
instance k0_chk106.dec : ∀ (v954 : IVec S16 32) (v1028 : IVec S16 32), Decidable (k0_chk106 v954 v1028) := fun v954 v1028 => decidable_of_iff' _ (Iff.of_eq (k0_chk106.eq_1 v954 v1028))
theorem k0_idx106_inb : ∀ (v954 : IVec S16 32) (v1028 : IVec S16 32) (k0_hw106 : k0_chk106 v954 v1028), ∀ a x, ((![v954, v1028] : Fin 2 → IVec S16 32) a x).toNat < S128x200.size a := fun v954 v1028 k0_hw106 => k0_hw106

def k0_chk107 (v1038 : IVec S16 32) : Prop :=
  (∀ a x, ((![v1038] : Fin 1 → IVec S16 32) a x).toNat < S4096.size a)
instance k0_chk107.dec : ∀ (v1038 : IVec S16 32), Decidable (k0_chk107 v1038) := fun v1038 => decidable_of_iff' _ (Iff.of_eq (k0_chk107.eq_1 v1038))
theorem k0_idx107_inb : ∀ (v1038 : IVec S16 32) (k0_hw107 : k0_chk107 v1038), ∀ a x, ((![v1038] : Fin 1 → IVec S16 32) a x).toNat < S4096.size a := fun v1038 k0_hw107 => k0_hw107

def k0_chk108 (v954 : IVec S16 32) (v1042 : IVec S16 32) : Prop :=
  (∀ a x, ((![v954, v1042] : Fin 2 → IVec S16 32) a x).toNat < S128x200.size a)
instance k0_chk108.dec : ∀ (v954 : IVec S16 32) (v1042 : IVec S16 32), Decidable (k0_chk108 v954 v1042) := fun v954 v1042 => decidable_of_iff' _ (Iff.of_eq (k0_chk108.eq_1 v954 v1042))
theorem k0_idx108_inb : ∀ (v954 : IVec S16 32) (v1042 : IVec S16 32) (k0_hw108 : k0_chk108 v954 v1042), ∀ a x, ((![v954, v1042] : Fin 2 → IVec S16 32) a x).toNat < S128x200.size a := fun v954 v1042 k0_hw108 => k0_hw108

def k0_chk109 (v1046 : IVec S16 32) : Prop :=
  (∀ a x, ((![v1046] : Fin 1 → IVec S16 32) a x).toNat < S272.size a)
instance k0_chk109.dec : ∀ (v1046 : IVec S16 32), Decidable (k0_chk109 v1046) := fun v1046 => decidable_of_iff' _ (Iff.of_eq (k0_chk109.eq_1 v1046))
theorem k0_idx109_inb : ∀ (v1046 : IVec S16 32) (k0_hw109 : k0_chk109 v1046), ∀ a x, ((![v1046] : Fin 1 → IVec S16 32) a x).toNat < S272.size a := fun v1046 k0_hw109 => k0_hw109
def k0_off15 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c48_i32_355 : BitVec 32 := 48#32
  let v1050 : BitVec 32 := Scalar.addi v648 c48_i32_355
  let v1051 : Index := Scalar.indexCast v1050
  ![v1051.toNat]

def k0_chk110 (v1055 : IVec S16 32) (v1057 : IVec S16 32) : Prop :=
  (∀ a x, ((![v1055, v1057] : Fin 2 → IVec S16 32) a x).toNat < S128x200.size a)
instance k0_chk110.dec : ∀ (v1055 : IVec S16 32) (v1057 : IVec S16 32), Decidable (k0_chk110 v1055 v1057) := fun v1055 v1057 => decidable_of_iff' _ (Iff.of_eq (k0_chk110.eq_1 v1055 v1057))
theorem k0_idx110_inb : ∀ (v1055 : IVec S16 32) (v1057 : IVec S16 32) (k0_hw110 : k0_chk110 v1055 v1057), ∀ a x, ((![v1055, v1057] : Fin 2 → IVec S16 32) a x).toNat < S128x200.size a := fun v1055 v1057 k0_hw110 => k0_hw110

def k0_chk111 (v1055 : IVec S16 32) (v1062 : IVec S16 32) : Prop :=
  (∀ a x, ((![v1055, v1062] : Fin 2 → IVec S16 32) a x).toNat < S128x200.size a)
instance k0_chk111.dec : ∀ (v1055 : IVec S16 32) (v1062 : IVec S16 32), Decidable (k0_chk111 v1055 v1062) := fun v1055 v1062 => decidable_of_iff' _ (Iff.of_eq (k0_chk111.eq_1 v1055 v1062))
theorem k0_idx111_inb : ∀ (v1055 : IVec S16 32) (v1062 : IVec S16 32) (k0_hw111 : k0_chk111 v1055 v1062), ∀ a x, ((![v1055, v1062] : Fin 2 → IVec S16 32) a x).toNat < S128x200.size a := fun v1055 v1062 k0_hw111 => k0_hw111

def k0_chk112 (v1055 : IVec S16 32) (v1067 : IVec S16 32) : Prop :=
  (∀ a x, ((![v1055, v1067] : Fin 2 → IVec S16 32) a x).toNat < S128x200.size a)
instance k0_chk112.dec : ∀ (v1055 : IVec S16 32) (v1067 : IVec S16 32), Decidable (k0_chk112 v1055 v1067) := fun v1055 v1067 => decidable_of_iff' _ (Iff.of_eq (k0_chk112.eq_1 v1055 v1067))
theorem k0_idx112_inb : ∀ (v1055 : IVec S16 32) (v1067 : IVec S16 32) (k0_hw112 : k0_chk112 v1055 v1067), ∀ a x, ((![v1055, v1067] : Fin 2 → IVec S16 32) a x).toNat < S128x200.size a := fun v1055 v1067 k0_hw112 => k0_hw112

def k0_chk113 (v1055 : IVec S16 32) (v1072 : IVec S16 32) : Prop :=
  (∀ a x, ((![v1055, v1072] : Fin 2 → IVec S16 32) a x).toNat < S128x200.size a)
instance k0_chk113.dec : ∀ (v1055 : IVec S16 32) (v1072 : IVec S16 32), Decidable (k0_chk113 v1055 v1072) := fun v1055 v1072 => decidable_of_iff' _ (Iff.of_eq (k0_chk113.eq_1 v1055 v1072))
theorem k0_idx113_inb : ∀ (v1055 : IVec S16 32) (v1072 : IVec S16 32) (k0_hw113 : k0_chk113 v1055 v1072), ∀ a x, ((![v1055, v1072] : Fin 2 → IVec S16 32) a x).toNat < S128x200.size a := fun v1055 v1072 k0_hw113 => k0_hw113

def k0_chk114 (v1082 : IVec S16 32) : Prop :=
  (∀ a x, ((![v1082] : Fin 1 → IVec S16 32) a x).toNat < S4096.size a)
instance k0_chk114.dec : ∀ (v1082 : IVec S16 32), Decidable (k0_chk114 v1082) := fun v1082 => decidable_of_iff' _ (Iff.of_eq (k0_chk114.eq_1 v1082))
theorem k0_idx114_inb : ∀ (v1082 : IVec S16 32) (k0_hw114 : k0_chk114 v1082), ∀ a x, ((![v1082] : Fin 1 → IVec S16 32) a x).toNat < S4096.size a := fun v1082 k0_hw114 => k0_hw114

def k0_chk115 (v1055 : IVec S16 32) (v1085 : IVec S16 32) : Prop :=
  (∀ a x, ((![v1055, v1085] : Fin 2 → IVec S16 32) a x).toNat < S128x200.size a)
instance k0_chk115.dec : ∀ (v1055 : IVec S16 32) (v1085 : IVec S16 32), Decidable (k0_chk115 v1055 v1085) := fun v1055 v1085 => decidable_of_iff' _ (Iff.of_eq (k0_chk115.eq_1 v1055 v1085))
theorem k0_idx115_inb : ∀ (v1055 : IVec S16 32) (v1085 : IVec S16 32) (k0_hw115 : k0_chk115 v1055 v1085), ∀ a x, ((![v1055, v1085] : Fin 2 → IVec S16 32) a x).toNat < S128x200.size a := fun v1055 v1085 k0_hw115 => k0_hw115

def k0_chk116 (v1055 : IVec S16 32) (v1090 : IVec S16 32) : Prop :=
  (∀ a x, ((![v1055, v1090] : Fin 2 → IVec S16 32) a x).toNat < S128x200.size a)
instance k0_chk116.dec : ∀ (v1055 : IVec S16 32) (v1090 : IVec S16 32), Decidable (k0_chk116 v1055 v1090) := fun v1055 v1090 => decidable_of_iff' _ (Iff.of_eq (k0_chk116.eq_1 v1055 v1090))
theorem k0_idx116_inb : ∀ (v1055 : IVec S16 32) (v1090 : IVec S16 32) (k0_hw116 : k0_chk116 v1055 v1090), ∀ a x, ((![v1055, v1090] : Fin 2 → IVec S16 32) a x).toNat < S128x200.size a := fun v1055 v1090 k0_hw116 => k0_hw116

def k0_chk117 (v1055 : IVec S16 32) (v1095 : IVec S16 32) : Prop :=
  (∀ a x, ((![v1055, v1095] : Fin 2 → IVec S16 32) a x).toNat < S128x200.size a)
instance k0_chk117.dec : ∀ (v1055 : IVec S16 32) (v1095 : IVec S16 32), Decidable (k0_chk117 v1055 v1095) := fun v1055 v1095 => decidable_of_iff' _ (Iff.of_eq (k0_chk117.eq_1 v1055 v1095))
theorem k0_idx117_inb : ∀ (v1055 : IVec S16 32) (v1095 : IVec S16 32) (k0_hw117 : k0_chk117 v1055 v1095), ∀ a x, ((![v1055, v1095] : Fin 2 → IVec S16 32) a x).toNat < S128x200.size a := fun v1055 v1095 k0_hw117 => k0_hw117

def k0_chk118 (v1055 : IVec S16 32) (v1100 : IVec S16 32) : Prop :=
  (∀ a x, ((![v1055, v1100] : Fin 2 → IVec S16 32) a x).toNat < S128x200.size a)
instance k0_chk118.dec : ∀ (v1055 : IVec S16 32) (v1100 : IVec S16 32), Decidable (k0_chk118 v1055 v1100) := fun v1055 v1100 => decidable_of_iff' _ (Iff.of_eq (k0_chk118.eq_1 v1055 v1100))
theorem k0_idx118_inb : ∀ (v1055 : IVec S16 32) (v1100 : IVec S16 32) (k0_hw118 : k0_chk118 v1055 v1100), ∀ a x, ((![v1055, v1100] : Fin 2 → IVec S16 32) a x).toNat < S128x200.size a := fun v1055 v1100 k0_hw118 => k0_hw118

def k0_chk119 (v1110 : IVec S16 32) : Prop :=
  (∀ a x, ((![v1110] : Fin 1 → IVec S16 32) a x).toNat < S4096.size a)
instance k0_chk119.dec : ∀ (v1110 : IVec S16 32), Decidable (k0_chk119 v1110) := fun v1110 => decidable_of_iff' _ (Iff.of_eq (k0_chk119.eq_1 v1110))
theorem k0_idx119_inb : ∀ (v1110 : IVec S16 32) (k0_hw119 : k0_chk119 v1110), ∀ a x, ((![v1110] : Fin 1 → IVec S16 32) a x).toNat < S4096.size a := fun v1110 k0_hw119 => k0_hw119

def k0_chk120 (v1055 : IVec S16 32) (v1114 : IVec S16 32) : Prop :=
  (∀ a x, ((![v1055, v1114] : Fin 2 → IVec S16 32) a x).toNat < S128x200.size a)
instance k0_chk120.dec : ∀ (v1055 : IVec S16 32) (v1114 : IVec S16 32), Decidable (k0_chk120 v1055 v1114) := fun v1055 v1114 => decidable_of_iff' _ (Iff.of_eq (k0_chk120.eq_1 v1055 v1114))
theorem k0_idx120_inb : ∀ (v1055 : IVec S16 32) (v1114 : IVec S16 32) (k0_hw120 : k0_chk120 v1055 v1114), ∀ a x, ((![v1055, v1114] : Fin 2 → IVec S16 32) a x).toNat < S128x200.size a := fun v1055 v1114 k0_hw120 => k0_hw120

def k0_chk121 (v1055 : IVec S16 32) (v1119 : IVec S16 32) : Prop :=
  (∀ a x, ((![v1055, v1119] : Fin 2 → IVec S16 32) a x).toNat < S128x200.size a)
instance k0_chk121.dec : ∀ (v1055 : IVec S16 32) (v1119 : IVec S16 32), Decidable (k0_chk121 v1055 v1119) := fun v1055 v1119 => decidable_of_iff' _ (Iff.of_eq (k0_chk121.eq_1 v1055 v1119))
theorem k0_idx121_inb : ∀ (v1055 : IVec S16 32) (v1119 : IVec S16 32) (k0_hw121 : k0_chk121 v1055 v1119), ∀ a x, ((![v1055, v1119] : Fin 2 → IVec S16 32) a x).toNat < S128x200.size a := fun v1055 v1119 k0_hw121 => k0_hw121

def k0_chk122 (v1055 : IVec S16 32) (v1124 : IVec S16 32) : Prop :=
  (∀ a x, ((![v1055, v1124] : Fin 2 → IVec S16 32) a x).toNat < S128x200.size a)
instance k0_chk122.dec : ∀ (v1055 : IVec S16 32) (v1124 : IVec S16 32), Decidable (k0_chk122 v1055 v1124) := fun v1055 v1124 => decidable_of_iff' _ (Iff.of_eq (k0_chk122.eq_1 v1055 v1124))
theorem k0_idx122_inb : ∀ (v1055 : IVec S16 32) (v1124 : IVec S16 32) (k0_hw122 : k0_chk122 v1055 v1124), ∀ a x, ((![v1055, v1124] : Fin 2 → IVec S16 32) a x).toNat < S128x200.size a := fun v1055 v1124 k0_hw122 => k0_hw122

def k0_chk123 (v1055 : IVec S16 32) (v1129 : IVec S16 32) : Prop :=
  (∀ a x, ((![v1055, v1129] : Fin 2 → IVec S16 32) a x).toNat < S128x200.size a)
instance k0_chk123.dec : ∀ (v1055 : IVec S16 32) (v1129 : IVec S16 32), Decidable (k0_chk123 v1055 v1129) := fun v1055 v1129 => decidable_of_iff' _ (Iff.of_eq (k0_chk123.eq_1 v1055 v1129))
theorem k0_idx123_inb : ∀ (v1055 : IVec S16 32) (v1129 : IVec S16 32) (k0_hw123 : k0_chk123 v1055 v1129), ∀ a x, ((![v1055, v1129] : Fin 2 → IVec S16 32) a x).toNat < S128x200.size a := fun v1055 v1129 k0_hw123 => k0_hw123

def k0_chk124 (v1139 : IVec S16 32) : Prop :=
  (∀ a x, ((![v1139] : Fin 1 → IVec S16 32) a x).toNat < S4096.size a)
instance k0_chk124.dec : ∀ (v1139 : IVec S16 32), Decidable (k0_chk124 v1139) := fun v1139 => decidable_of_iff' _ (Iff.of_eq (k0_chk124.eq_1 v1139))
theorem k0_idx124_inb : ∀ (v1139 : IVec S16 32) (k0_hw124 : k0_chk124 v1139), ∀ a x, ((![v1139] : Fin 1 → IVec S16 32) a x).toNat < S4096.size a := fun v1139 k0_hw124 => k0_hw124

def k0_chk125 (v1055 : IVec S16 32) (v1143 : IVec S16 32) : Prop :=
  (∀ a x, ((![v1055, v1143] : Fin 2 → IVec S16 32) a x).toNat < S128x200.size a)
instance k0_chk125.dec : ∀ (v1055 : IVec S16 32) (v1143 : IVec S16 32), Decidable (k0_chk125 v1055 v1143) := fun v1055 v1143 => decidable_of_iff' _ (Iff.of_eq (k0_chk125.eq_1 v1055 v1143))
theorem k0_idx125_inb : ∀ (v1055 : IVec S16 32) (v1143 : IVec S16 32) (k0_hw125 : k0_chk125 v1055 v1143), ∀ a x, ((![v1055, v1143] : Fin 2 → IVec S16 32) a x).toNat < S128x200.size a := fun v1055 v1143 k0_hw125 => k0_hw125

def k0_chk126 (v1147 : IVec S16 32) : Prop :=
  (∀ a x, ((![v1147] : Fin 1 → IVec S16 32) a x).toNat < S272.size a)
instance k0_chk126.dec : ∀ (v1147 : IVec S16 32), Decidable (k0_chk126 v1147) := fun v1147 => decidable_of_iff' _ (Iff.of_eq (k0_chk126.eq_1 v1147))
theorem k0_idx126_inb : ∀ (v1147 : IVec S16 32) (k0_hw126 : k0_chk126 v1147), ∀ a x, ((![v1147] : Fin 1 → IVec S16 32) a x).toNat < S272.size a := fun v1147 k0_hw126 => k0_hw126
def k0_off16 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c64_i32_389 : BitVec 32 := 64#32
  let v1151 : BitVec 32 := Scalar.addi v648 c64_i32_389
  let v1152 : Index := Scalar.indexCast v1151
  ![v1152.toNat]

def k0_chk127 (v1156 : IVec S16 32) (v1158 : IVec S16 32) : Prop :=
  (∀ a x, ((![v1156, v1158] : Fin 2 → IVec S16 32) a x).toNat < S128x200.size a)
instance k0_chk127.dec : ∀ (v1156 : IVec S16 32) (v1158 : IVec S16 32), Decidable (k0_chk127 v1156 v1158) := fun v1156 v1158 => decidable_of_iff' _ (Iff.of_eq (k0_chk127.eq_1 v1156 v1158))
theorem k0_idx127_inb : ∀ (v1156 : IVec S16 32) (v1158 : IVec S16 32) (k0_hw127 : k0_chk127 v1156 v1158), ∀ a x, ((![v1156, v1158] : Fin 2 → IVec S16 32) a x).toNat < S128x200.size a := fun v1156 v1158 k0_hw127 => k0_hw127

def k0_chk128 (v1156 : IVec S16 32) (v1163 : IVec S16 32) : Prop :=
  (∀ a x, ((![v1156, v1163] : Fin 2 → IVec S16 32) a x).toNat < S128x200.size a)
instance k0_chk128.dec : ∀ (v1156 : IVec S16 32) (v1163 : IVec S16 32), Decidable (k0_chk128 v1156 v1163) := fun v1156 v1163 => decidable_of_iff' _ (Iff.of_eq (k0_chk128.eq_1 v1156 v1163))
theorem k0_idx128_inb : ∀ (v1156 : IVec S16 32) (v1163 : IVec S16 32) (k0_hw128 : k0_chk128 v1156 v1163), ∀ a x, ((![v1156, v1163] : Fin 2 → IVec S16 32) a x).toNat < S128x200.size a := fun v1156 v1163 k0_hw128 => k0_hw128

def k0_chk129 (v1156 : IVec S16 32) (v1168 : IVec S16 32) : Prop :=
  (∀ a x, ((![v1156, v1168] : Fin 2 → IVec S16 32) a x).toNat < S128x200.size a)
instance k0_chk129.dec : ∀ (v1156 : IVec S16 32) (v1168 : IVec S16 32), Decidable (k0_chk129 v1156 v1168) := fun v1156 v1168 => decidable_of_iff' _ (Iff.of_eq (k0_chk129.eq_1 v1156 v1168))
theorem k0_idx129_inb : ∀ (v1156 : IVec S16 32) (v1168 : IVec S16 32) (k0_hw129 : k0_chk129 v1156 v1168), ∀ a x, ((![v1156, v1168] : Fin 2 → IVec S16 32) a x).toNat < S128x200.size a := fun v1156 v1168 k0_hw129 => k0_hw129

def k0_chk130 (v1156 : IVec S16 32) (v1173 : IVec S16 32) : Prop :=
  (∀ a x, ((![v1156, v1173] : Fin 2 → IVec S16 32) a x).toNat < S128x200.size a)
instance k0_chk130.dec : ∀ (v1156 : IVec S16 32) (v1173 : IVec S16 32), Decidable (k0_chk130 v1156 v1173) := fun v1156 v1173 => decidable_of_iff' _ (Iff.of_eq (k0_chk130.eq_1 v1156 v1173))
theorem k0_idx130_inb : ∀ (v1156 : IVec S16 32) (v1173 : IVec S16 32) (k0_hw130 : k0_chk130 v1156 v1173), ∀ a x, ((![v1156, v1173] : Fin 2 → IVec S16 32) a x).toNat < S128x200.size a := fun v1156 v1173 k0_hw130 => k0_hw130

def k0_chk131 (v1183 : IVec S16 32) : Prop :=
  (∀ a x, ((![v1183] : Fin 1 → IVec S16 32) a x).toNat < S4096.size a)
instance k0_chk131.dec : ∀ (v1183 : IVec S16 32), Decidable (k0_chk131 v1183) := fun v1183 => decidable_of_iff' _ (Iff.of_eq (k0_chk131.eq_1 v1183))
theorem k0_idx131_inb : ∀ (v1183 : IVec S16 32) (k0_hw131 : k0_chk131 v1183), ∀ a x, ((![v1183] : Fin 1 → IVec S16 32) a x).toNat < S4096.size a := fun v1183 k0_hw131 => k0_hw131

def k0_chk132 (v1156 : IVec S16 32) (v1186 : IVec S16 32) : Prop :=
  (∀ a x, ((![v1156, v1186] : Fin 2 → IVec S16 32) a x).toNat < S128x200.size a)
instance k0_chk132.dec : ∀ (v1156 : IVec S16 32) (v1186 : IVec S16 32), Decidable (k0_chk132 v1156 v1186) := fun v1156 v1186 => decidable_of_iff' _ (Iff.of_eq (k0_chk132.eq_1 v1156 v1186))
theorem k0_idx132_inb : ∀ (v1156 : IVec S16 32) (v1186 : IVec S16 32) (k0_hw132 : k0_chk132 v1156 v1186), ∀ a x, ((![v1156, v1186] : Fin 2 → IVec S16 32) a x).toNat < S128x200.size a := fun v1156 v1186 k0_hw132 => k0_hw132

def k0_chk133 (v1156 : IVec S16 32) (v1191 : IVec S16 32) : Prop :=
  (∀ a x, ((![v1156, v1191] : Fin 2 → IVec S16 32) a x).toNat < S128x200.size a)
instance k0_chk133.dec : ∀ (v1156 : IVec S16 32) (v1191 : IVec S16 32), Decidable (k0_chk133 v1156 v1191) := fun v1156 v1191 => decidable_of_iff' _ (Iff.of_eq (k0_chk133.eq_1 v1156 v1191))
theorem k0_idx133_inb : ∀ (v1156 : IVec S16 32) (v1191 : IVec S16 32) (k0_hw133 : k0_chk133 v1156 v1191), ∀ a x, ((![v1156, v1191] : Fin 2 → IVec S16 32) a x).toNat < S128x200.size a := fun v1156 v1191 k0_hw133 => k0_hw133

def k0_chk134 (v1156 : IVec S16 32) (v1196 : IVec S16 32) : Prop :=
  (∀ a x, ((![v1156, v1196] : Fin 2 → IVec S16 32) a x).toNat < S128x200.size a)
instance k0_chk134.dec : ∀ (v1156 : IVec S16 32) (v1196 : IVec S16 32), Decidable (k0_chk134 v1156 v1196) := fun v1156 v1196 => decidable_of_iff' _ (Iff.of_eq (k0_chk134.eq_1 v1156 v1196))
theorem k0_idx134_inb : ∀ (v1156 : IVec S16 32) (v1196 : IVec S16 32) (k0_hw134 : k0_chk134 v1156 v1196), ∀ a x, ((![v1156, v1196] : Fin 2 → IVec S16 32) a x).toNat < S128x200.size a := fun v1156 v1196 k0_hw134 => k0_hw134

def k0_chk135 (v1156 : IVec S16 32) (v1201 : IVec S16 32) : Prop :=
  (∀ a x, ((![v1156, v1201] : Fin 2 → IVec S16 32) a x).toNat < S128x200.size a)
instance k0_chk135.dec : ∀ (v1156 : IVec S16 32) (v1201 : IVec S16 32), Decidable (k0_chk135 v1156 v1201) := fun v1156 v1201 => decidable_of_iff' _ (Iff.of_eq (k0_chk135.eq_1 v1156 v1201))
theorem k0_idx135_inb : ∀ (v1156 : IVec S16 32) (v1201 : IVec S16 32) (k0_hw135 : k0_chk135 v1156 v1201), ∀ a x, ((![v1156, v1201] : Fin 2 → IVec S16 32) a x).toNat < S128x200.size a := fun v1156 v1201 k0_hw135 => k0_hw135

def k0_chk136 (v1211 : IVec S16 32) : Prop :=
  (∀ a x, ((![v1211] : Fin 1 → IVec S16 32) a x).toNat < S4096.size a)
instance k0_chk136.dec : ∀ (v1211 : IVec S16 32), Decidable (k0_chk136 v1211) := fun v1211 => decidable_of_iff' _ (Iff.of_eq (k0_chk136.eq_1 v1211))
theorem k0_idx136_inb : ∀ (v1211 : IVec S16 32) (k0_hw136 : k0_chk136 v1211), ∀ a x, ((![v1211] : Fin 1 → IVec S16 32) a x).toNat < S4096.size a := fun v1211 k0_hw136 => k0_hw136

def k0_chk137 (v1156 : IVec S16 32) (v1215 : IVec S16 32) : Prop :=
  (∀ a x, ((![v1156, v1215] : Fin 2 → IVec S16 32) a x).toNat < S128x200.size a)
instance k0_chk137.dec : ∀ (v1156 : IVec S16 32) (v1215 : IVec S16 32), Decidable (k0_chk137 v1156 v1215) := fun v1156 v1215 => decidable_of_iff' _ (Iff.of_eq (k0_chk137.eq_1 v1156 v1215))
theorem k0_idx137_inb : ∀ (v1156 : IVec S16 32) (v1215 : IVec S16 32) (k0_hw137 : k0_chk137 v1156 v1215), ∀ a x, ((![v1156, v1215] : Fin 2 → IVec S16 32) a x).toNat < S128x200.size a := fun v1156 v1215 k0_hw137 => k0_hw137

def k0_chk138 (v1156 : IVec S16 32) (v1220 : IVec S16 32) : Prop :=
  (∀ a x, ((![v1156, v1220] : Fin 2 → IVec S16 32) a x).toNat < S128x200.size a)
instance k0_chk138.dec : ∀ (v1156 : IVec S16 32) (v1220 : IVec S16 32), Decidable (k0_chk138 v1156 v1220) := fun v1156 v1220 => decidable_of_iff' _ (Iff.of_eq (k0_chk138.eq_1 v1156 v1220))
theorem k0_idx138_inb : ∀ (v1156 : IVec S16 32) (v1220 : IVec S16 32) (k0_hw138 : k0_chk138 v1156 v1220), ∀ a x, ((![v1156, v1220] : Fin 2 → IVec S16 32) a x).toNat < S128x200.size a := fun v1156 v1220 k0_hw138 => k0_hw138

def k0_chk139 (v1156 : IVec S16 32) (v1225 : IVec S16 32) : Prop :=
  (∀ a x, ((![v1156, v1225] : Fin 2 → IVec S16 32) a x).toNat < S128x200.size a)
instance k0_chk139.dec : ∀ (v1156 : IVec S16 32) (v1225 : IVec S16 32), Decidable (k0_chk139 v1156 v1225) := fun v1156 v1225 => decidable_of_iff' _ (Iff.of_eq (k0_chk139.eq_1 v1156 v1225))
theorem k0_idx139_inb : ∀ (v1156 : IVec S16 32) (v1225 : IVec S16 32) (k0_hw139 : k0_chk139 v1156 v1225), ∀ a x, ((![v1156, v1225] : Fin 2 → IVec S16 32) a x).toNat < S128x200.size a := fun v1156 v1225 k0_hw139 => k0_hw139

def k0_chk140 (v1156 : IVec S16 32) (v1230 : IVec S16 32) : Prop :=
  (∀ a x, ((![v1156, v1230] : Fin 2 → IVec S16 32) a x).toNat < S128x200.size a)
instance k0_chk140.dec : ∀ (v1156 : IVec S16 32) (v1230 : IVec S16 32), Decidable (k0_chk140 v1156 v1230) := fun v1156 v1230 => decidable_of_iff' _ (Iff.of_eq (k0_chk140.eq_1 v1156 v1230))
theorem k0_idx140_inb : ∀ (v1156 : IVec S16 32) (v1230 : IVec S16 32) (k0_hw140 : k0_chk140 v1156 v1230), ∀ a x, ((![v1156, v1230] : Fin 2 → IVec S16 32) a x).toNat < S128x200.size a := fun v1156 v1230 k0_hw140 => k0_hw140

def k0_chk141 (v1240 : IVec S16 32) : Prop :=
  (∀ a x, ((![v1240] : Fin 1 → IVec S16 32) a x).toNat < S4096.size a)
instance k0_chk141.dec : ∀ (v1240 : IVec S16 32), Decidable (k0_chk141 v1240) := fun v1240 => decidable_of_iff' _ (Iff.of_eq (k0_chk141.eq_1 v1240))
theorem k0_idx141_inb : ∀ (v1240 : IVec S16 32) (k0_hw141 : k0_chk141 v1240), ∀ a x, ((![v1240] : Fin 1 → IVec S16 32) a x).toNat < S4096.size a := fun v1240 k0_hw141 => k0_hw141

def k0_chk142 (v1156 : IVec S16 32) (v1244 : IVec S16 32) : Prop :=
  (∀ a x, ((![v1156, v1244] : Fin 2 → IVec S16 32) a x).toNat < S128x200.size a)
instance k0_chk142.dec : ∀ (v1156 : IVec S16 32) (v1244 : IVec S16 32), Decidable (k0_chk142 v1156 v1244) := fun v1156 v1244 => decidable_of_iff' _ (Iff.of_eq (k0_chk142.eq_1 v1156 v1244))
theorem k0_idx142_inb : ∀ (v1156 : IVec S16 32) (v1244 : IVec S16 32) (k0_hw142 : k0_chk142 v1156 v1244), ∀ a x, ((![v1156, v1244] : Fin 2 → IVec S16 32) a x).toNat < S128x200.size a := fun v1156 v1244 k0_hw142 => k0_hw142

def k0_chk143 (v1248 : IVec S16 32) : Prop :=
  (∀ a x, ((![v1248] : Fin 1 → IVec S16 32) a x).toNat < S272.size a)
instance k0_chk143.dec : ∀ (v1248 : IVec S16 32), Decidable (k0_chk143 v1248) := fun v1248 => decidable_of_iff' _ (Iff.of_eq (k0_chk143.eq_1 v1248))
theorem k0_idx143_inb : ∀ (v1248 : IVec S16 32) (k0_hw143 : k0_chk143 v1248), ∀ a x, ((![v1248] : Fin 1 → IVec S16 32) a x).toNat < S272.size a := fun v1248 k0_hw143 => k0_hw143
def k0_off17 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c80_i32_423 : BitVec 32 := 80#32
  let v1252 : BitVec 32 := Scalar.addi v648 c80_i32_423
  let v1253 : Index := Scalar.indexCast v1252
  ![v1253.toNat]

def k0_chk144 (v1257 : IVec S16 32) (v1259 : IVec S16 32) : Prop :=
  (∀ a x, ((![v1257, v1259] : Fin 2 → IVec S16 32) a x).toNat < S128x200.size a)
instance k0_chk144.dec : ∀ (v1257 : IVec S16 32) (v1259 : IVec S16 32), Decidable (k0_chk144 v1257 v1259) := fun v1257 v1259 => decidable_of_iff' _ (Iff.of_eq (k0_chk144.eq_1 v1257 v1259))
theorem k0_idx144_inb : ∀ (v1257 : IVec S16 32) (v1259 : IVec S16 32) (k0_hw144 : k0_chk144 v1257 v1259), ∀ a x, ((![v1257, v1259] : Fin 2 → IVec S16 32) a x).toNat < S128x200.size a := fun v1257 v1259 k0_hw144 => k0_hw144

def k0_chk145 (v1257 : IVec S16 32) (v1264 : IVec S16 32) : Prop :=
  (∀ a x, ((![v1257, v1264] : Fin 2 → IVec S16 32) a x).toNat < S128x200.size a)
instance k0_chk145.dec : ∀ (v1257 : IVec S16 32) (v1264 : IVec S16 32), Decidable (k0_chk145 v1257 v1264) := fun v1257 v1264 => decidable_of_iff' _ (Iff.of_eq (k0_chk145.eq_1 v1257 v1264))
theorem k0_idx145_inb : ∀ (v1257 : IVec S16 32) (v1264 : IVec S16 32) (k0_hw145 : k0_chk145 v1257 v1264), ∀ a x, ((![v1257, v1264] : Fin 2 → IVec S16 32) a x).toNat < S128x200.size a := fun v1257 v1264 k0_hw145 => k0_hw145

def k0_chk146 (v1257 : IVec S16 32) (v1269 : IVec S16 32) : Prop :=
  (∀ a x, ((![v1257, v1269] : Fin 2 → IVec S16 32) a x).toNat < S128x200.size a)
instance k0_chk146.dec : ∀ (v1257 : IVec S16 32) (v1269 : IVec S16 32), Decidable (k0_chk146 v1257 v1269) := fun v1257 v1269 => decidable_of_iff' _ (Iff.of_eq (k0_chk146.eq_1 v1257 v1269))
theorem k0_idx146_inb : ∀ (v1257 : IVec S16 32) (v1269 : IVec S16 32) (k0_hw146 : k0_chk146 v1257 v1269), ∀ a x, ((![v1257, v1269] : Fin 2 → IVec S16 32) a x).toNat < S128x200.size a := fun v1257 v1269 k0_hw146 => k0_hw146

def k0_chk147 (v1257 : IVec S16 32) (v1274 : IVec S16 32) : Prop :=
  (∀ a x, ((![v1257, v1274] : Fin 2 → IVec S16 32) a x).toNat < S128x200.size a)
instance k0_chk147.dec : ∀ (v1257 : IVec S16 32) (v1274 : IVec S16 32), Decidable (k0_chk147 v1257 v1274) := fun v1257 v1274 => decidable_of_iff' _ (Iff.of_eq (k0_chk147.eq_1 v1257 v1274))
theorem k0_idx147_inb : ∀ (v1257 : IVec S16 32) (v1274 : IVec S16 32) (k0_hw147 : k0_chk147 v1257 v1274), ∀ a x, ((![v1257, v1274] : Fin 2 → IVec S16 32) a x).toNat < S128x200.size a := fun v1257 v1274 k0_hw147 => k0_hw147

def k0_chk148 (v1284 : IVec S16 32) : Prop :=
  (∀ a x, ((![v1284] : Fin 1 → IVec S16 32) a x).toNat < S4096.size a)
instance k0_chk148.dec : ∀ (v1284 : IVec S16 32), Decidable (k0_chk148 v1284) := fun v1284 => decidable_of_iff' _ (Iff.of_eq (k0_chk148.eq_1 v1284))
theorem k0_idx148_inb : ∀ (v1284 : IVec S16 32) (k0_hw148 : k0_chk148 v1284), ∀ a x, ((![v1284] : Fin 1 → IVec S16 32) a x).toNat < S4096.size a := fun v1284 k0_hw148 => k0_hw148

def k0_chk149 (v1257 : IVec S16 32) (v1287 : IVec S16 32) : Prop :=
  (∀ a x, ((![v1257, v1287] : Fin 2 → IVec S16 32) a x).toNat < S128x200.size a)
instance k0_chk149.dec : ∀ (v1257 : IVec S16 32) (v1287 : IVec S16 32), Decidable (k0_chk149 v1257 v1287) := fun v1257 v1287 => decidable_of_iff' _ (Iff.of_eq (k0_chk149.eq_1 v1257 v1287))
theorem k0_idx149_inb : ∀ (v1257 : IVec S16 32) (v1287 : IVec S16 32) (k0_hw149 : k0_chk149 v1257 v1287), ∀ a x, ((![v1257, v1287] : Fin 2 → IVec S16 32) a x).toNat < S128x200.size a := fun v1257 v1287 k0_hw149 => k0_hw149

def k0_chk150 (v1257 : IVec S16 32) (v1292 : IVec S16 32) : Prop :=
  (∀ a x, ((![v1257, v1292] : Fin 2 → IVec S16 32) a x).toNat < S128x200.size a)
instance k0_chk150.dec : ∀ (v1257 : IVec S16 32) (v1292 : IVec S16 32), Decidable (k0_chk150 v1257 v1292) := fun v1257 v1292 => decidable_of_iff' _ (Iff.of_eq (k0_chk150.eq_1 v1257 v1292))
theorem k0_idx150_inb : ∀ (v1257 : IVec S16 32) (v1292 : IVec S16 32) (k0_hw150 : k0_chk150 v1257 v1292), ∀ a x, ((![v1257, v1292] : Fin 2 → IVec S16 32) a x).toNat < S128x200.size a := fun v1257 v1292 k0_hw150 => k0_hw150

def k0_chk151 (v1257 : IVec S16 32) (v1297 : IVec S16 32) : Prop :=
  (∀ a x, ((![v1257, v1297] : Fin 2 → IVec S16 32) a x).toNat < S128x200.size a)
instance k0_chk151.dec : ∀ (v1257 : IVec S16 32) (v1297 : IVec S16 32), Decidable (k0_chk151 v1257 v1297) := fun v1257 v1297 => decidable_of_iff' _ (Iff.of_eq (k0_chk151.eq_1 v1257 v1297))
theorem k0_idx151_inb : ∀ (v1257 : IVec S16 32) (v1297 : IVec S16 32) (k0_hw151 : k0_chk151 v1257 v1297), ∀ a x, ((![v1257, v1297] : Fin 2 → IVec S16 32) a x).toNat < S128x200.size a := fun v1257 v1297 k0_hw151 => k0_hw151

def k0_chk152 (v1257 : IVec S16 32) (v1302 : IVec S16 32) : Prop :=
  (∀ a x, ((![v1257, v1302] : Fin 2 → IVec S16 32) a x).toNat < S128x200.size a)
instance k0_chk152.dec : ∀ (v1257 : IVec S16 32) (v1302 : IVec S16 32), Decidable (k0_chk152 v1257 v1302) := fun v1257 v1302 => decidable_of_iff' _ (Iff.of_eq (k0_chk152.eq_1 v1257 v1302))
theorem k0_idx152_inb : ∀ (v1257 : IVec S16 32) (v1302 : IVec S16 32) (k0_hw152 : k0_chk152 v1257 v1302), ∀ a x, ((![v1257, v1302] : Fin 2 → IVec S16 32) a x).toNat < S128x200.size a := fun v1257 v1302 k0_hw152 => k0_hw152

def k0_chk153 (v1312 : IVec S16 32) : Prop :=
  (∀ a x, ((![v1312] : Fin 1 → IVec S16 32) a x).toNat < S4096.size a)
instance k0_chk153.dec : ∀ (v1312 : IVec S16 32), Decidable (k0_chk153 v1312) := fun v1312 => decidable_of_iff' _ (Iff.of_eq (k0_chk153.eq_1 v1312))
theorem k0_idx153_inb : ∀ (v1312 : IVec S16 32) (k0_hw153 : k0_chk153 v1312), ∀ a x, ((![v1312] : Fin 1 → IVec S16 32) a x).toNat < S4096.size a := fun v1312 k0_hw153 => k0_hw153

def k0_chk154 (v1257 : IVec S16 32) (v1316 : IVec S16 32) : Prop :=
  (∀ a x, ((![v1257, v1316] : Fin 2 → IVec S16 32) a x).toNat < S128x200.size a)
instance k0_chk154.dec : ∀ (v1257 : IVec S16 32) (v1316 : IVec S16 32), Decidable (k0_chk154 v1257 v1316) := fun v1257 v1316 => decidable_of_iff' _ (Iff.of_eq (k0_chk154.eq_1 v1257 v1316))
theorem k0_idx154_inb : ∀ (v1257 : IVec S16 32) (v1316 : IVec S16 32) (k0_hw154 : k0_chk154 v1257 v1316), ∀ a x, ((![v1257, v1316] : Fin 2 → IVec S16 32) a x).toNat < S128x200.size a := fun v1257 v1316 k0_hw154 => k0_hw154

def k0_chk155 (v1257 : IVec S16 32) (v1321 : IVec S16 32) : Prop :=
  (∀ a x, ((![v1257, v1321] : Fin 2 → IVec S16 32) a x).toNat < S128x200.size a)
instance k0_chk155.dec : ∀ (v1257 : IVec S16 32) (v1321 : IVec S16 32), Decidable (k0_chk155 v1257 v1321) := fun v1257 v1321 => decidable_of_iff' _ (Iff.of_eq (k0_chk155.eq_1 v1257 v1321))
theorem k0_idx155_inb : ∀ (v1257 : IVec S16 32) (v1321 : IVec S16 32) (k0_hw155 : k0_chk155 v1257 v1321), ∀ a x, ((![v1257, v1321] : Fin 2 → IVec S16 32) a x).toNat < S128x200.size a := fun v1257 v1321 k0_hw155 => k0_hw155

def k0_chk156 (v1257 : IVec S16 32) (v1326 : IVec S16 32) : Prop :=
  (∀ a x, ((![v1257, v1326] : Fin 2 → IVec S16 32) a x).toNat < S128x200.size a)
instance k0_chk156.dec : ∀ (v1257 : IVec S16 32) (v1326 : IVec S16 32), Decidable (k0_chk156 v1257 v1326) := fun v1257 v1326 => decidable_of_iff' _ (Iff.of_eq (k0_chk156.eq_1 v1257 v1326))
theorem k0_idx156_inb : ∀ (v1257 : IVec S16 32) (v1326 : IVec S16 32) (k0_hw156 : k0_chk156 v1257 v1326), ∀ a x, ((![v1257, v1326] : Fin 2 → IVec S16 32) a x).toNat < S128x200.size a := fun v1257 v1326 k0_hw156 => k0_hw156

def k0_chk157 (v1257 : IVec S16 32) (v1331 : IVec S16 32) : Prop :=
  (∀ a x, ((![v1257, v1331] : Fin 2 → IVec S16 32) a x).toNat < S128x200.size a)
instance k0_chk157.dec : ∀ (v1257 : IVec S16 32) (v1331 : IVec S16 32), Decidable (k0_chk157 v1257 v1331) := fun v1257 v1331 => decidable_of_iff' _ (Iff.of_eq (k0_chk157.eq_1 v1257 v1331))
theorem k0_idx157_inb : ∀ (v1257 : IVec S16 32) (v1331 : IVec S16 32) (k0_hw157 : k0_chk157 v1257 v1331), ∀ a x, ((![v1257, v1331] : Fin 2 → IVec S16 32) a x).toNat < S128x200.size a := fun v1257 v1331 k0_hw157 => k0_hw157

def k0_chk158 (v1341 : IVec S16 32) : Prop :=
  (∀ a x, ((![v1341] : Fin 1 → IVec S16 32) a x).toNat < S4096.size a)
instance k0_chk158.dec : ∀ (v1341 : IVec S16 32), Decidable (k0_chk158 v1341) := fun v1341 => decidable_of_iff' _ (Iff.of_eq (k0_chk158.eq_1 v1341))
theorem k0_idx158_inb : ∀ (v1341 : IVec S16 32) (k0_hw158 : k0_chk158 v1341), ∀ a x, ((![v1341] : Fin 1 → IVec S16 32) a x).toNat < S4096.size a := fun v1341 k0_hw158 => k0_hw158

def k0_chk159 (v1257 : IVec S16 32) (v1345 : IVec S16 32) : Prop :=
  (∀ a x, ((![v1257, v1345] : Fin 2 → IVec S16 32) a x).toNat < S128x200.size a)
instance k0_chk159.dec : ∀ (v1257 : IVec S16 32) (v1345 : IVec S16 32), Decidable (k0_chk159 v1257 v1345) := fun v1257 v1345 => decidable_of_iff' _ (Iff.of_eq (k0_chk159.eq_1 v1257 v1345))
theorem k0_idx159_inb : ∀ (v1257 : IVec S16 32) (v1345 : IVec S16 32) (k0_hw159 : k0_chk159 v1257 v1345), ∀ a x, ((![v1257, v1345] : Fin 2 → IVec S16 32) a x).toNat < S128x200.size a := fun v1257 v1345 k0_hw159 => k0_hw159

def k0_chk160 (v1349 : IVec S16 32) : Prop :=
  (∀ a x, ((![v1349] : Fin 1 → IVec S16 32) a x).toNat < S272.size a)
instance k0_chk160.dec : ∀ (v1349 : IVec S16 32), Decidable (k0_chk160 v1349) := fun v1349 => decidable_of_iff' _ (Iff.of_eq (k0_chk160.eq_1 v1349))
theorem k0_idx160_inb : ∀ (v1349 : IVec S16 32) (k0_hw160 : k0_chk160 v1349), ∀ a x, ((![v1349] : Fin 1 → IVec S16 32) a x).toNat < S272.size a := fun v1349 k0_hw160 => k0_hw160
def k0_off18 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c96_i32_458 : BitVec 32 := 96#32
  let v1353 : BitVec 32 := Scalar.addi v648 c96_i32_458
  let v1354 : Index := Scalar.indexCast v1353
  ![v1354.toNat]

def k0_chk161 (v1358 : IVec S16 32) (v1360 : IVec S16 32) : Prop :=
  (∀ a x, ((![v1358, v1360] : Fin 2 → IVec S16 32) a x).toNat < S128x200.size a)
instance k0_chk161.dec : ∀ (v1358 : IVec S16 32) (v1360 : IVec S16 32), Decidable (k0_chk161 v1358 v1360) := fun v1358 v1360 => decidable_of_iff' _ (Iff.of_eq (k0_chk161.eq_1 v1358 v1360))
theorem k0_idx161_inb : ∀ (v1358 : IVec S16 32) (v1360 : IVec S16 32) (k0_hw161 : k0_chk161 v1358 v1360), ∀ a x, ((![v1358, v1360] : Fin 2 → IVec S16 32) a x).toNat < S128x200.size a := fun v1358 v1360 k0_hw161 => k0_hw161

def k0_chk162 (v1358 : IVec S16 32) (v1365 : IVec S16 32) : Prop :=
  (∀ a x, ((![v1358, v1365] : Fin 2 → IVec S16 32) a x).toNat < S128x200.size a)
instance k0_chk162.dec : ∀ (v1358 : IVec S16 32) (v1365 : IVec S16 32), Decidable (k0_chk162 v1358 v1365) := fun v1358 v1365 => decidable_of_iff' _ (Iff.of_eq (k0_chk162.eq_1 v1358 v1365))
theorem k0_idx162_inb : ∀ (v1358 : IVec S16 32) (v1365 : IVec S16 32) (k0_hw162 : k0_chk162 v1358 v1365), ∀ a x, ((![v1358, v1365] : Fin 2 → IVec S16 32) a x).toNat < S128x200.size a := fun v1358 v1365 k0_hw162 => k0_hw162

def k0_chk163 (v1358 : IVec S16 32) (v1370 : IVec S16 32) : Prop :=
  (∀ a x, ((![v1358, v1370] : Fin 2 → IVec S16 32) a x).toNat < S128x200.size a)
instance k0_chk163.dec : ∀ (v1358 : IVec S16 32) (v1370 : IVec S16 32), Decidable (k0_chk163 v1358 v1370) := fun v1358 v1370 => decidable_of_iff' _ (Iff.of_eq (k0_chk163.eq_1 v1358 v1370))
theorem k0_idx163_inb : ∀ (v1358 : IVec S16 32) (v1370 : IVec S16 32) (k0_hw163 : k0_chk163 v1358 v1370), ∀ a x, ((![v1358, v1370] : Fin 2 → IVec S16 32) a x).toNat < S128x200.size a := fun v1358 v1370 k0_hw163 => k0_hw163

def k0_chk164 (v1358 : IVec S16 32) (v1375 : IVec S16 32) : Prop :=
  (∀ a x, ((![v1358, v1375] : Fin 2 → IVec S16 32) a x).toNat < S128x200.size a)
instance k0_chk164.dec : ∀ (v1358 : IVec S16 32) (v1375 : IVec S16 32), Decidable (k0_chk164 v1358 v1375) := fun v1358 v1375 => decidable_of_iff' _ (Iff.of_eq (k0_chk164.eq_1 v1358 v1375))
theorem k0_idx164_inb : ∀ (v1358 : IVec S16 32) (v1375 : IVec S16 32) (k0_hw164 : k0_chk164 v1358 v1375), ∀ a x, ((![v1358, v1375] : Fin 2 → IVec S16 32) a x).toNat < S128x200.size a := fun v1358 v1375 k0_hw164 => k0_hw164

def k0_chk165 (v1385 : IVec S16 32) : Prop :=
  (∀ a x, ((![v1385] : Fin 1 → IVec S16 32) a x).toNat < S4096.size a)
instance k0_chk165.dec : ∀ (v1385 : IVec S16 32), Decidable (k0_chk165 v1385) := fun v1385 => decidable_of_iff' _ (Iff.of_eq (k0_chk165.eq_1 v1385))
theorem k0_idx165_inb : ∀ (v1385 : IVec S16 32) (k0_hw165 : k0_chk165 v1385), ∀ a x, ((![v1385] : Fin 1 → IVec S16 32) a x).toNat < S4096.size a := fun v1385 k0_hw165 => k0_hw165

def k0_chk166 (v1358 : IVec S16 32) (v1388 : IVec S16 32) : Prop :=
  (∀ a x, ((![v1358, v1388] : Fin 2 → IVec S16 32) a x).toNat < S128x200.size a)
instance k0_chk166.dec : ∀ (v1358 : IVec S16 32) (v1388 : IVec S16 32), Decidable (k0_chk166 v1358 v1388) := fun v1358 v1388 => decidable_of_iff' _ (Iff.of_eq (k0_chk166.eq_1 v1358 v1388))
theorem k0_idx166_inb : ∀ (v1358 : IVec S16 32) (v1388 : IVec S16 32) (k0_hw166 : k0_chk166 v1358 v1388), ∀ a x, ((![v1358, v1388] : Fin 2 → IVec S16 32) a x).toNat < S128x200.size a := fun v1358 v1388 k0_hw166 => k0_hw166

def k0_chk167 (v1358 : IVec S16 32) (v1393 : IVec S16 32) : Prop :=
  (∀ a x, ((![v1358, v1393] : Fin 2 → IVec S16 32) a x).toNat < S128x200.size a)
instance k0_chk167.dec : ∀ (v1358 : IVec S16 32) (v1393 : IVec S16 32), Decidable (k0_chk167 v1358 v1393) := fun v1358 v1393 => decidable_of_iff' _ (Iff.of_eq (k0_chk167.eq_1 v1358 v1393))
theorem k0_idx167_inb : ∀ (v1358 : IVec S16 32) (v1393 : IVec S16 32) (k0_hw167 : k0_chk167 v1358 v1393), ∀ a x, ((![v1358, v1393] : Fin 2 → IVec S16 32) a x).toNat < S128x200.size a := fun v1358 v1393 k0_hw167 => k0_hw167

def k0_chk168 (v1358 : IVec S16 32) (v1398 : IVec S16 32) : Prop :=
  (∀ a x, ((![v1358, v1398] : Fin 2 → IVec S16 32) a x).toNat < S128x200.size a)
instance k0_chk168.dec : ∀ (v1358 : IVec S16 32) (v1398 : IVec S16 32), Decidable (k0_chk168 v1358 v1398) := fun v1358 v1398 => decidable_of_iff' _ (Iff.of_eq (k0_chk168.eq_1 v1358 v1398))
theorem k0_idx168_inb : ∀ (v1358 : IVec S16 32) (v1398 : IVec S16 32) (k0_hw168 : k0_chk168 v1358 v1398), ∀ a x, ((![v1358, v1398] : Fin 2 → IVec S16 32) a x).toNat < S128x200.size a := fun v1358 v1398 k0_hw168 => k0_hw168

def k0_chk169 (v1358 : IVec S16 32) (v1403 : IVec S16 32) : Prop :=
  (∀ a x, ((![v1358, v1403] : Fin 2 → IVec S16 32) a x).toNat < S128x200.size a)
instance k0_chk169.dec : ∀ (v1358 : IVec S16 32) (v1403 : IVec S16 32), Decidable (k0_chk169 v1358 v1403) := fun v1358 v1403 => decidable_of_iff' _ (Iff.of_eq (k0_chk169.eq_1 v1358 v1403))
theorem k0_idx169_inb : ∀ (v1358 : IVec S16 32) (v1403 : IVec S16 32) (k0_hw169 : k0_chk169 v1358 v1403), ∀ a x, ((![v1358, v1403] : Fin 2 → IVec S16 32) a x).toNat < S128x200.size a := fun v1358 v1403 k0_hw169 => k0_hw169

def k0_chk170 (v1413 : IVec S16 32) : Prop :=
  (∀ a x, ((![v1413] : Fin 1 → IVec S16 32) a x).toNat < S4096.size a)
instance k0_chk170.dec : ∀ (v1413 : IVec S16 32), Decidable (k0_chk170 v1413) := fun v1413 => decidable_of_iff' _ (Iff.of_eq (k0_chk170.eq_1 v1413))
theorem k0_idx170_inb : ∀ (v1413 : IVec S16 32) (k0_hw170 : k0_chk170 v1413), ∀ a x, ((![v1413] : Fin 1 → IVec S16 32) a x).toNat < S4096.size a := fun v1413 k0_hw170 => k0_hw170

def k0_chk171 (v1358 : IVec S16 32) (v1417 : IVec S16 32) : Prop :=
  (∀ a x, ((![v1358, v1417] : Fin 2 → IVec S16 32) a x).toNat < S128x200.size a)
instance k0_chk171.dec : ∀ (v1358 : IVec S16 32) (v1417 : IVec S16 32), Decidable (k0_chk171 v1358 v1417) := fun v1358 v1417 => decidable_of_iff' _ (Iff.of_eq (k0_chk171.eq_1 v1358 v1417))
theorem k0_idx171_inb : ∀ (v1358 : IVec S16 32) (v1417 : IVec S16 32) (k0_hw171 : k0_chk171 v1358 v1417), ∀ a x, ((![v1358, v1417] : Fin 2 → IVec S16 32) a x).toNat < S128x200.size a := fun v1358 v1417 k0_hw171 => k0_hw171

def k0_chk172 (v1358 : IVec S16 32) (v1422 : IVec S16 32) : Prop :=
  (∀ a x, ((![v1358, v1422] : Fin 2 → IVec S16 32) a x).toNat < S128x200.size a)
instance k0_chk172.dec : ∀ (v1358 : IVec S16 32) (v1422 : IVec S16 32), Decidable (k0_chk172 v1358 v1422) := fun v1358 v1422 => decidable_of_iff' _ (Iff.of_eq (k0_chk172.eq_1 v1358 v1422))
theorem k0_idx172_inb : ∀ (v1358 : IVec S16 32) (v1422 : IVec S16 32) (k0_hw172 : k0_chk172 v1358 v1422), ∀ a x, ((![v1358, v1422] : Fin 2 → IVec S16 32) a x).toNat < S128x200.size a := fun v1358 v1422 k0_hw172 => k0_hw172

def k0_chk173 (v1358 : IVec S16 32) (v1427 : IVec S16 32) : Prop :=
  (∀ a x, ((![v1358, v1427] : Fin 2 → IVec S16 32) a x).toNat < S128x200.size a)
instance k0_chk173.dec : ∀ (v1358 : IVec S16 32) (v1427 : IVec S16 32), Decidable (k0_chk173 v1358 v1427) := fun v1358 v1427 => decidable_of_iff' _ (Iff.of_eq (k0_chk173.eq_1 v1358 v1427))
theorem k0_idx173_inb : ∀ (v1358 : IVec S16 32) (v1427 : IVec S16 32) (k0_hw173 : k0_chk173 v1358 v1427), ∀ a x, ((![v1358, v1427] : Fin 2 → IVec S16 32) a x).toNat < S128x200.size a := fun v1358 v1427 k0_hw173 => k0_hw173

def k0_chk174 (v1358 : IVec S16 32) (v1432 : IVec S16 32) : Prop :=
  (∀ a x, ((![v1358, v1432] : Fin 2 → IVec S16 32) a x).toNat < S128x200.size a)
instance k0_chk174.dec : ∀ (v1358 : IVec S16 32) (v1432 : IVec S16 32), Decidable (k0_chk174 v1358 v1432) := fun v1358 v1432 => decidable_of_iff' _ (Iff.of_eq (k0_chk174.eq_1 v1358 v1432))
theorem k0_idx174_inb : ∀ (v1358 : IVec S16 32) (v1432 : IVec S16 32) (k0_hw174 : k0_chk174 v1358 v1432), ∀ a x, ((![v1358, v1432] : Fin 2 → IVec S16 32) a x).toNat < S128x200.size a := fun v1358 v1432 k0_hw174 => k0_hw174

def k0_chk175 (v1442 : IVec S16 32) : Prop :=
  (∀ a x, ((![v1442] : Fin 1 → IVec S16 32) a x).toNat < S4096.size a)
instance k0_chk175.dec : ∀ (v1442 : IVec S16 32), Decidable (k0_chk175 v1442) := fun v1442 => decidable_of_iff' _ (Iff.of_eq (k0_chk175.eq_1 v1442))
theorem k0_idx175_inb : ∀ (v1442 : IVec S16 32) (k0_hw175 : k0_chk175 v1442), ∀ a x, ((![v1442] : Fin 1 → IVec S16 32) a x).toNat < S4096.size a := fun v1442 k0_hw175 => k0_hw175

def k0_chk176 (v1358 : IVec S16 32) (v1446 : IVec S16 32) : Prop :=
  (∀ a x, ((![v1358, v1446] : Fin 2 → IVec S16 32) a x).toNat < S128x200.size a)
instance k0_chk176.dec : ∀ (v1358 : IVec S16 32) (v1446 : IVec S16 32), Decidable (k0_chk176 v1358 v1446) := fun v1358 v1446 => decidable_of_iff' _ (Iff.of_eq (k0_chk176.eq_1 v1358 v1446))
theorem k0_idx176_inb : ∀ (v1358 : IVec S16 32) (v1446 : IVec S16 32) (k0_hw176 : k0_chk176 v1358 v1446), ∀ a x, ((![v1358, v1446] : Fin 2 → IVec S16 32) a x).toNat < S128x200.size a := fun v1358 v1446 k0_hw176 => k0_hw176

def k0_chk177 (v1450 : IVec S16 32) : Prop :=
  (∀ a x, ((![v1450] : Fin 1 → IVec S16 32) a x).toNat < S272.size a)
instance k0_chk177.dec : ∀ (v1450 : IVec S16 32), Decidable (k0_chk177 v1450) := fun v1450 => decidable_of_iff' _ (Iff.of_eq (k0_chk177.eq_1 v1450))
theorem k0_idx177_inb : ∀ (v1450 : IVec S16 32) (k0_hw177 : k0_chk177 v1450), ∀ a x, ((![v1450] : Fin 1 → IVec S16 32) a x).toNat < S272.size a := fun v1450 k0_hw177 => k0_hw177
def k0_off19 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c112_i32_493 : BitVec 32 := 112#32
  let v1454 : BitVec 32 := Scalar.addi v648 c112_i32_493
  let v1455 : Index := Scalar.indexCast v1454
  ![v1455.toNat]

def k0_chk178 (v1459 : IVec S16 32) (v1461 : IVec S16 32) : Prop :=
  (∀ a x, ((![v1459, v1461] : Fin 2 → IVec S16 32) a x).toNat < S128x200.size a)
instance k0_chk178.dec : ∀ (v1459 : IVec S16 32) (v1461 : IVec S16 32), Decidable (k0_chk178 v1459 v1461) := fun v1459 v1461 => decidable_of_iff' _ (Iff.of_eq (k0_chk178.eq_1 v1459 v1461))
theorem k0_idx178_inb : ∀ (v1459 : IVec S16 32) (v1461 : IVec S16 32) (k0_hw178 : k0_chk178 v1459 v1461), ∀ a x, ((![v1459, v1461] : Fin 2 → IVec S16 32) a x).toNat < S128x200.size a := fun v1459 v1461 k0_hw178 => k0_hw178

def k0_chk179 (v1459 : IVec S16 32) (v1466 : IVec S16 32) : Prop :=
  (∀ a x, ((![v1459, v1466] : Fin 2 → IVec S16 32) a x).toNat < S128x200.size a)
instance k0_chk179.dec : ∀ (v1459 : IVec S16 32) (v1466 : IVec S16 32), Decidable (k0_chk179 v1459 v1466) := fun v1459 v1466 => decidable_of_iff' _ (Iff.of_eq (k0_chk179.eq_1 v1459 v1466))
theorem k0_idx179_inb : ∀ (v1459 : IVec S16 32) (v1466 : IVec S16 32) (k0_hw179 : k0_chk179 v1459 v1466), ∀ a x, ((![v1459, v1466] : Fin 2 → IVec S16 32) a x).toNat < S128x200.size a := fun v1459 v1466 k0_hw179 => k0_hw179

def k0_chk180 (v1459 : IVec S16 32) (v1471 : IVec S16 32) : Prop :=
  (∀ a x, ((![v1459, v1471] : Fin 2 → IVec S16 32) a x).toNat < S128x200.size a)
instance k0_chk180.dec : ∀ (v1459 : IVec S16 32) (v1471 : IVec S16 32), Decidable (k0_chk180 v1459 v1471) := fun v1459 v1471 => decidable_of_iff' _ (Iff.of_eq (k0_chk180.eq_1 v1459 v1471))
theorem k0_idx180_inb : ∀ (v1459 : IVec S16 32) (v1471 : IVec S16 32) (k0_hw180 : k0_chk180 v1459 v1471), ∀ a x, ((![v1459, v1471] : Fin 2 → IVec S16 32) a x).toNat < S128x200.size a := fun v1459 v1471 k0_hw180 => k0_hw180

def k0_chk181 (v1459 : IVec S16 32) (v1476 : IVec S16 32) : Prop :=
  (∀ a x, ((![v1459, v1476] : Fin 2 → IVec S16 32) a x).toNat < S128x200.size a)
instance k0_chk181.dec : ∀ (v1459 : IVec S16 32) (v1476 : IVec S16 32), Decidable (k0_chk181 v1459 v1476) := fun v1459 v1476 => decidable_of_iff' _ (Iff.of_eq (k0_chk181.eq_1 v1459 v1476))
theorem k0_idx181_inb : ∀ (v1459 : IVec S16 32) (v1476 : IVec S16 32) (k0_hw181 : k0_chk181 v1459 v1476), ∀ a x, ((![v1459, v1476] : Fin 2 → IVec S16 32) a x).toNat < S128x200.size a := fun v1459 v1476 k0_hw181 => k0_hw181

def k0_chk182 (v1486 : IVec S16 32) : Prop :=
  (∀ a x, ((![v1486] : Fin 1 → IVec S16 32) a x).toNat < S4096.size a)
instance k0_chk182.dec : ∀ (v1486 : IVec S16 32), Decidable (k0_chk182 v1486) := fun v1486 => decidable_of_iff' _ (Iff.of_eq (k0_chk182.eq_1 v1486))
theorem k0_idx182_inb : ∀ (v1486 : IVec S16 32) (k0_hw182 : k0_chk182 v1486), ∀ a x, ((![v1486] : Fin 1 → IVec S16 32) a x).toNat < S4096.size a := fun v1486 k0_hw182 => k0_hw182

def k0_chk183 (v1459 : IVec S16 32) (v1489 : IVec S16 32) : Prop :=
  (∀ a x, ((![v1459, v1489] : Fin 2 → IVec S16 32) a x).toNat < S128x200.size a)
instance k0_chk183.dec : ∀ (v1459 : IVec S16 32) (v1489 : IVec S16 32), Decidable (k0_chk183 v1459 v1489) := fun v1459 v1489 => decidable_of_iff' _ (Iff.of_eq (k0_chk183.eq_1 v1459 v1489))
theorem k0_idx183_inb : ∀ (v1459 : IVec S16 32) (v1489 : IVec S16 32) (k0_hw183 : k0_chk183 v1459 v1489), ∀ a x, ((![v1459, v1489] : Fin 2 → IVec S16 32) a x).toNat < S128x200.size a := fun v1459 v1489 k0_hw183 => k0_hw183

def k0_chk184 (v1459 : IVec S16 32) (v1494 : IVec S16 32) : Prop :=
  (∀ a x, ((![v1459, v1494] : Fin 2 → IVec S16 32) a x).toNat < S128x200.size a)
instance k0_chk184.dec : ∀ (v1459 : IVec S16 32) (v1494 : IVec S16 32), Decidable (k0_chk184 v1459 v1494) := fun v1459 v1494 => decidable_of_iff' _ (Iff.of_eq (k0_chk184.eq_1 v1459 v1494))
theorem k0_idx184_inb : ∀ (v1459 : IVec S16 32) (v1494 : IVec S16 32) (k0_hw184 : k0_chk184 v1459 v1494), ∀ a x, ((![v1459, v1494] : Fin 2 → IVec S16 32) a x).toNat < S128x200.size a := fun v1459 v1494 k0_hw184 => k0_hw184

def k0_chk185 (v1459 : IVec S16 32) (v1499 : IVec S16 32) : Prop :=
  (∀ a x, ((![v1459, v1499] : Fin 2 → IVec S16 32) a x).toNat < S128x200.size a)
instance k0_chk185.dec : ∀ (v1459 : IVec S16 32) (v1499 : IVec S16 32), Decidable (k0_chk185 v1459 v1499) := fun v1459 v1499 => decidable_of_iff' _ (Iff.of_eq (k0_chk185.eq_1 v1459 v1499))
theorem k0_idx185_inb : ∀ (v1459 : IVec S16 32) (v1499 : IVec S16 32) (k0_hw185 : k0_chk185 v1459 v1499), ∀ a x, ((![v1459, v1499] : Fin 2 → IVec S16 32) a x).toNat < S128x200.size a := fun v1459 v1499 k0_hw185 => k0_hw185

def k0_chk186 (v1459 : IVec S16 32) (v1504 : IVec S16 32) : Prop :=
  (∀ a x, ((![v1459, v1504] : Fin 2 → IVec S16 32) a x).toNat < S128x200.size a)
instance k0_chk186.dec : ∀ (v1459 : IVec S16 32) (v1504 : IVec S16 32), Decidable (k0_chk186 v1459 v1504) := fun v1459 v1504 => decidable_of_iff' _ (Iff.of_eq (k0_chk186.eq_1 v1459 v1504))
theorem k0_idx186_inb : ∀ (v1459 : IVec S16 32) (v1504 : IVec S16 32) (k0_hw186 : k0_chk186 v1459 v1504), ∀ a x, ((![v1459, v1504] : Fin 2 → IVec S16 32) a x).toNat < S128x200.size a := fun v1459 v1504 k0_hw186 => k0_hw186

def k0_chk187 (v1514 : IVec S16 32) : Prop :=
  (∀ a x, ((![v1514] : Fin 1 → IVec S16 32) a x).toNat < S4096.size a)
instance k0_chk187.dec : ∀ (v1514 : IVec S16 32), Decidable (k0_chk187 v1514) := fun v1514 => decidable_of_iff' _ (Iff.of_eq (k0_chk187.eq_1 v1514))
theorem k0_idx187_inb : ∀ (v1514 : IVec S16 32) (k0_hw187 : k0_chk187 v1514), ∀ a x, ((![v1514] : Fin 1 → IVec S16 32) a x).toNat < S4096.size a := fun v1514 k0_hw187 => k0_hw187

def k0_chk188 (v1459 : IVec S16 32) (v1518 : IVec S16 32) : Prop :=
  (∀ a x, ((![v1459, v1518] : Fin 2 → IVec S16 32) a x).toNat < S128x200.size a)
instance k0_chk188.dec : ∀ (v1459 : IVec S16 32) (v1518 : IVec S16 32), Decidable (k0_chk188 v1459 v1518) := fun v1459 v1518 => decidable_of_iff' _ (Iff.of_eq (k0_chk188.eq_1 v1459 v1518))
theorem k0_idx188_inb : ∀ (v1459 : IVec S16 32) (v1518 : IVec S16 32) (k0_hw188 : k0_chk188 v1459 v1518), ∀ a x, ((![v1459, v1518] : Fin 2 → IVec S16 32) a x).toNat < S128x200.size a := fun v1459 v1518 k0_hw188 => k0_hw188

def k0_chk189 (v1459 : IVec S16 32) (v1523 : IVec S16 32) : Prop :=
  (∀ a x, ((![v1459, v1523] : Fin 2 → IVec S16 32) a x).toNat < S128x200.size a)
instance k0_chk189.dec : ∀ (v1459 : IVec S16 32) (v1523 : IVec S16 32), Decidable (k0_chk189 v1459 v1523) := fun v1459 v1523 => decidable_of_iff' _ (Iff.of_eq (k0_chk189.eq_1 v1459 v1523))
theorem k0_idx189_inb : ∀ (v1459 : IVec S16 32) (v1523 : IVec S16 32) (k0_hw189 : k0_chk189 v1459 v1523), ∀ a x, ((![v1459, v1523] : Fin 2 → IVec S16 32) a x).toNat < S128x200.size a := fun v1459 v1523 k0_hw189 => k0_hw189

def k0_chk190 (v1459 : IVec S16 32) (v1528 : IVec S16 32) : Prop :=
  (∀ a x, ((![v1459, v1528] : Fin 2 → IVec S16 32) a x).toNat < S128x200.size a)
instance k0_chk190.dec : ∀ (v1459 : IVec S16 32) (v1528 : IVec S16 32), Decidable (k0_chk190 v1459 v1528) := fun v1459 v1528 => decidable_of_iff' _ (Iff.of_eq (k0_chk190.eq_1 v1459 v1528))
theorem k0_idx190_inb : ∀ (v1459 : IVec S16 32) (v1528 : IVec S16 32) (k0_hw190 : k0_chk190 v1459 v1528), ∀ a x, ((![v1459, v1528] : Fin 2 → IVec S16 32) a x).toNat < S128x200.size a := fun v1459 v1528 k0_hw190 => k0_hw190

def k0_chk191 (v1459 : IVec S16 32) (v1533 : IVec S16 32) : Prop :=
  (∀ a x, ((![v1459, v1533] : Fin 2 → IVec S16 32) a x).toNat < S128x200.size a)
instance k0_chk191.dec : ∀ (v1459 : IVec S16 32) (v1533 : IVec S16 32), Decidable (k0_chk191 v1459 v1533) := fun v1459 v1533 => decidable_of_iff' _ (Iff.of_eq (k0_chk191.eq_1 v1459 v1533))
theorem k0_idx191_inb : ∀ (v1459 : IVec S16 32) (v1533 : IVec S16 32) (k0_hw191 : k0_chk191 v1459 v1533), ∀ a x, ((![v1459, v1533] : Fin 2 → IVec S16 32) a x).toNat < S128x200.size a := fun v1459 v1533 k0_hw191 => k0_hw191

def k0_chk192 (v1543 : IVec S16 32) : Prop :=
  (∀ a x, ((![v1543] : Fin 1 → IVec S16 32) a x).toNat < S4096.size a)
instance k0_chk192.dec : ∀ (v1543 : IVec S16 32), Decidable (k0_chk192 v1543) := fun v1543 => decidable_of_iff' _ (Iff.of_eq (k0_chk192.eq_1 v1543))
theorem k0_idx192_inb : ∀ (v1543 : IVec S16 32) (k0_hw192 : k0_chk192 v1543), ∀ a x, ((![v1543] : Fin 1 → IVec S16 32) a x).toNat < S4096.size a := fun v1543 k0_hw192 => k0_hw192

def k0_chk193 (v1459 : IVec S16 32) (v1547 : IVec S16 32) : Prop :=
  (∀ a x, ((![v1459, v1547] : Fin 2 → IVec S16 32) a x).toNat < S128x200.size a)
instance k0_chk193.dec : ∀ (v1459 : IVec S16 32) (v1547 : IVec S16 32), Decidable (k0_chk193 v1459 v1547) := fun v1459 v1547 => decidable_of_iff' _ (Iff.of_eq (k0_chk193.eq_1 v1459 v1547))
theorem k0_idx193_inb : ∀ (v1459 : IVec S16 32) (v1547 : IVec S16 32) (k0_hw193 : k0_chk193 v1459 v1547), ∀ a x, ((![v1459, v1547] : Fin 2 → IVec S16 32) a x).toNat < S128x200.size a := fun v1459 v1547 k0_hw193 => k0_hw193

def k0_chk194 (v1551 : IVec S16 32) : Prop :=
  (∀ a x, ((![v1551] : Fin 1 → IVec S16 32) a x).toNat < S272.size a)
instance k0_chk194.dec : ∀ (v1551 : IVec S16 32), Decidable (k0_chk194 v1551) := fun v1551 => decidable_of_iff' _ (Iff.of_eq (k0_chk194.eq_1 v1551))
theorem k0_idx194_inb : ∀ (v1551 : IVec S16 32) (k0_hw194 : k0_chk194 v1551), ∀ a x, ((![v1551] : Fin 1 → IVec S16 32) a x).toNat < S272.size a := fun v1551 k0_hw194 => k0_hw194
def k0_off20 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c128_i32_528 : BitVec 32 := 128#32
  let v1555 : BitVec 32 := Scalar.addi v648 c128_i32_528
  let v1556 : Index := Scalar.indexCast v1555
  ![v1556.toNat]

def k0_chk195 (v1560 : IVec S16 32) (v1562 : IVec S16 32) : Prop :=
  (∀ a x, ((![v1560, v1562] : Fin 2 → IVec S16 32) a x).toNat < S128x200.size a)
instance k0_chk195.dec : ∀ (v1560 : IVec S16 32) (v1562 : IVec S16 32), Decidable (k0_chk195 v1560 v1562) := fun v1560 v1562 => decidable_of_iff' _ (Iff.of_eq (k0_chk195.eq_1 v1560 v1562))
theorem k0_idx195_inb : ∀ (v1560 : IVec S16 32) (v1562 : IVec S16 32) (k0_hw195 : k0_chk195 v1560 v1562), ∀ a x, ((![v1560, v1562] : Fin 2 → IVec S16 32) a x).toNat < S128x200.size a := fun v1560 v1562 k0_hw195 => k0_hw195

def k0_chk196 (v1560 : IVec S16 32) (v1567 : IVec S16 32) : Prop :=
  (∀ a x, ((![v1560, v1567] : Fin 2 → IVec S16 32) a x).toNat < S128x200.size a)
instance k0_chk196.dec : ∀ (v1560 : IVec S16 32) (v1567 : IVec S16 32), Decidable (k0_chk196 v1560 v1567) := fun v1560 v1567 => decidable_of_iff' _ (Iff.of_eq (k0_chk196.eq_1 v1560 v1567))
theorem k0_idx196_inb : ∀ (v1560 : IVec S16 32) (v1567 : IVec S16 32) (k0_hw196 : k0_chk196 v1560 v1567), ∀ a x, ((![v1560, v1567] : Fin 2 → IVec S16 32) a x).toNat < S128x200.size a := fun v1560 v1567 k0_hw196 => k0_hw196

def k0_chk197 (v1560 : IVec S16 32) (v1572 : IVec S16 32) : Prop :=
  (∀ a x, ((![v1560, v1572] : Fin 2 → IVec S16 32) a x).toNat < S128x200.size a)
instance k0_chk197.dec : ∀ (v1560 : IVec S16 32) (v1572 : IVec S16 32), Decidable (k0_chk197 v1560 v1572) := fun v1560 v1572 => decidable_of_iff' _ (Iff.of_eq (k0_chk197.eq_1 v1560 v1572))
theorem k0_idx197_inb : ∀ (v1560 : IVec S16 32) (v1572 : IVec S16 32) (k0_hw197 : k0_chk197 v1560 v1572), ∀ a x, ((![v1560, v1572] : Fin 2 → IVec S16 32) a x).toNat < S128x200.size a := fun v1560 v1572 k0_hw197 => k0_hw197

def k0_chk198 (v1560 : IVec S16 32) (v1577 : IVec S16 32) : Prop :=
  (∀ a x, ((![v1560, v1577] : Fin 2 → IVec S16 32) a x).toNat < S128x200.size a)
instance k0_chk198.dec : ∀ (v1560 : IVec S16 32) (v1577 : IVec S16 32), Decidable (k0_chk198 v1560 v1577) := fun v1560 v1577 => decidable_of_iff' _ (Iff.of_eq (k0_chk198.eq_1 v1560 v1577))
theorem k0_idx198_inb : ∀ (v1560 : IVec S16 32) (v1577 : IVec S16 32) (k0_hw198 : k0_chk198 v1560 v1577), ∀ a x, ((![v1560, v1577] : Fin 2 → IVec S16 32) a x).toNat < S128x200.size a := fun v1560 v1577 k0_hw198 => k0_hw198

def k0_chk199 (v1587 : IVec S16 32) : Prop :=
  (∀ a x, ((![v1587] : Fin 1 → IVec S16 32) a x).toNat < S4096.size a)
instance k0_chk199.dec : ∀ (v1587 : IVec S16 32), Decidable (k0_chk199 v1587) := fun v1587 => decidable_of_iff' _ (Iff.of_eq (k0_chk199.eq_1 v1587))
theorem k0_idx199_inb : ∀ (v1587 : IVec S16 32) (k0_hw199 : k0_chk199 v1587), ∀ a x, ((![v1587] : Fin 1 → IVec S16 32) a x).toNat < S4096.size a := fun v1587 k0_hw199 => k0_hw199

def k0_chk200 (v1560 : IVec S16 32) (v1590 : IVec S16 32) : Prop :=
  (∀ a x, ((![v1560, v1590] : Fin 2 → IVec S16 32) a x).toNat < S128x200.size a)
instance k0_chk200.dec : ∀ (v1560 : IVec S16 32) (v1590 : IVec S16 32), Decidable (k0_chk200 v1560 v1590) := fun v1560 v1590 => decidable_of_iff' _ (Iff.of_eq (k0_chk200.eq_1 v1560 v1590))
theorem k0_idx200_inb : ∀ (v1560 : IVec S16 32) (v1590 : IVec S16 32) (k0_hw200 : k0_chk200 v1560 v1590), ∀ a x, ((![v1560, v1590] : Fin 2 → IVec S16 32) a x).toNat < S128x200.size a := fun v1560 v1590 k0_hw200 => k0_hw200

def k0_chk201 (v1560 : IVec S16 32) (v1595 : IVec S16 32) : Prop :=
  (∀ a x, ((![v1560, v1595] : Fin 2 → IVec S16 32) a x).toNat < S128x200.size a)
instance k0_chk201.dec : ∀ (v1560 : IVec S16 32) (v1595 : IVec S16 32), Decidable (k0_chk201 v1560 v1595) := fun v1560 v1595 => decidable_of_iff' _ (Iff.of_eq (k0_chk201.eq_1 v1560 v1595))
theorem k0_idx201_inb : ∀ (v1560 : IVec S16 32) (v1595 : IVec S16 32) (k0_hw201 : k0_chk201 v1560 v1595), ∀ a x, ((![v1560, v1595] : Fin 2 → IVec S16 32) a x).toNat < S128x200.size a := fun v1560 v1595 k0_hw201 => k0_hw201

def k0_chk202 (v1560 : IVec S16 32) (v1600 : IVec S16 32) : Prop :=
  (∀ a x, ((![v1560, v1600] : Fin 2 → IVec S16 32) a x).toNat < S128x200.size a)
instance k0_chk202.dec : ∀ (v1560 : IVec S16 32) (v1600 : IVec S16 32), Decidable (k0_chk202 v1560 v1600) := fun v1560 v1600 => decidable_of_iff' _ (Iff.of_eq (k0_chk202.eq_1 v1560 v1600))
theorem k0_idx202_inb : ∀ (v1560 : IVec S16 32) (v1600 : IVec S16 32) (k0_hw202 : k0_chk202 v1560 v1600), ∀ a x, ((![v1560, v1600] : Fin 2 → IVec S16 32) a x).toNat < S128x200.size a := fun v1560 v1600 k0_hw202 => k0_hw202

def k0_chk203 (v1560 : IVec S16 32) (v1605 : IVec S16 32) : Prop :=
  (∀ a x, ((![v1560, v1605] : Fin 2 → IVec S16 32) a x).toNat < S128x200.size a)
instance k0_chk203.dec : ∀ (v1560 : IVec S16 32) (v1605 : IVec S16 32), Decidable (k0_chk203 v1560 v1605) := fun v1560 v1605 => decidable_of_iff' _ (Iff.of_eq (k0_chk203.eq_1 v1560 v1605))
theorem k0_idx203_inb : ∀ (v1560 : IVec S16 32) (v1605 : IVec S16 32) (k0_hw203 : k0_chk203 v1560 v1605), ∀ a x, ((![v1560, v1605] : Fin 2 → IVec S16 32) a x).toNat < S128x200.size a := fun v1560 v1605 k0_hw203 => k0_hw203

def k0_chk204 (v1615 : IVec S16 32) : Prop :=
  (∀ a x, ((![v1615] : Fin 1 → IVec S16 32) a x).toNat < S4096.size a)
instance k0_chk204.dec : ∀ (v1615 : IVec S16 32), Decidable (k0_chk204 v1615) := fun v1615 => decidable_of_iff' _ (Iff.of_eq (k0_chk204.eq_1 v1615))
theorem k0_idx204_inb : ∀ (v1615 : IVec S16 32) (k0_hw204 : k0_chk204 v1615), ∀ a x, ((![v1615] : Fin 1 → IVec S16 32) a x).toNat < S4096.size a := fun v1615 k0_hw204 => k0_hw204

def k0_chk205 (v1560 : IVec S16 32) (v1619 : IVec S16 32) : Prop :=
  (∀ a x, ((![v1560, v1619] : Fin 2 → IVec S16 32) a x).toNat < S128x200.size a)
instance k0_chk205.dec : ∀ (v1560 : IVec S16 32) (v1619 : IVec S16 32), Decidable (k0_chk205 v1560 v1619) := fun v1560 v1619 => decidable_of_iff' _ (Iff.of_eq (k0_chk205.eq_1 v1560 v1619))
theorem k0_idx205_inb : ∀ (v1560 : IVec S16 32) (v1619 : IVec S16 32) (k0_hw205 : k0_chk205 v1560 v1619), ∀ a x, ((![v1560, v1619] : Fin 2 → IVec S16 32) a x).toNat < S128x200.size a := fun v1560 v1619 k0_hw205 => k0_hw205

def k0_chk206 (v1560 : IVec S16 32) (v1624 : IVec S16 32) : Prop :=
  (∀ a x, ((![v1560, v1624] : Fin 2 → IVec S16 32) a x).toNat < S128x200.size a)
instance k0_chk206.dec : ∀ (v1560 : IVec S16 32) (v1624 : IVec S16 32), Decidable (k0_chk206 v1560 v1624) := fun v1560 v1624 => decidable_of_iff' _ (Iff.of_eq (k0_chk206.eq_1 v1560 v1624))
theorem k0_idx206_inb : ∀ (v1560 : IVec S16 32) (v1624 : IVec S16 32) (k0_hw206 : k0_chk206 v1560 v1624), ∀ a x, ((![v1560, v1624] : Fin 2 → IVec S16 32) a x).toNat < S128x200.size a := fun v1560 v1624 k0_hw206 => k0_hw206

def k0_chk207 (v1560 : IVec S16 32) (v1629 : IVec S16 32) : Prop :=
  (∀ a x, ((![v1560, v1629] : Fin 2 → IVec S16 32) a x).toNat < S128x200.size a)
instance k0_chk207.dec : ∀ (v1560 : IVec S16 32) (v1629 : IVec S16 32), Decidable (k0_chk207 v1560 v1629) := fun v1560 v1629 => decidable_of_iff' _ (Iff.of_eq (k0_chk207.eq_1 v1560 v1629))
theorem k0_idx207_inb : ∀ (v1560 : IVec S16 32) (v1629 : IVec S16 32) (k0_hw207 : k0_chk207 v1560 v1629), ∀ a x, ((![v1560, v1629] : Fin 2 → IVec S16 32) a x).toNat < S128x200.size a := fun v1560 v1629 k0_hw207 => k0_hw207

def k0_chk208 (v1560 : IVec S16 32) (v1634 : IVec S16 32) : Prop :=
  (∀ a x, ((![v1560, v1634] : Fin 2 → IVec S16 32) a x).toNat < S128x200.size a)
instance k0_chk208.dec : ∀ (v1560 : IVec S16 32) (v1634 : IVec S16 32), Decidable (k0_chk208 v1560 v1634) := fun v1560 v1634 => decidable_of_iff' _ (Iff.of_eq (k0_chk208.eq_1 v1560 v1634))
theorem k0_idx208_inb : ∀ (v1560 : IVec S16 32) (v1634 : IVec S16 32) (k0_hw208 : k0_chk208 v1560 v1634), ∀ a x, ((![v1560, v1634] : Fin 2 → IVec S16 32) a x).toNat < S128x200.size a := fun v1560 v1634 k0_hw208 => k0_hw208

def k0_chk209 (v1644 : IVec S16 32) : Prop :=
  (∀ a x, ((![v1644] : Fin 1 → IVec S16 32) a x).toNat < S4096.size a)
instance k0_chk209.dec : ∀ (v1644 : IVec S16 32), Decidable (k0_chk209 v1644) := fun v1644 => decidable_of_iff' _ (Iff.of_eq (k0_chk209.eq_1 v1644))
theorem k0_idx209_inb : ∀ (v1644 : IVec S16 32) (k0_hw209 : k0_chk209 v1644), ∀ a x, ((![v1644] : Fin 1 → IVec S16 32) a x).toNat < S4096.size a := fun v1644 k0_hw209 => k0_hw209

def k0_chk210 (v1560 : IVec S16 32) (v1648 : IVec S16 32) : Prop :=
  (∀ a x, ((![v1560, v1648] : Fin 2 → IVec S16 32) a x).toNat < S128x200.size a)
instance k0_chk210.dec : ∀ (v1560 : IVec S16 32) (v1648 : IVec S16 32), Decidable (k0_chk210 v1560 v1648) := fun v1560 v1648 => decidable_of_iff' _ (Iff.of_eq (k0_chk210.eq_1 v1560 v1648))
theorem k0_idx210_inb : ∀ (v1560 : IVec S16 32) (v1648 : IVec S16 32) (k0_hw210 : k0_chk210 v1560 v1648), ∀ a x, ((![v1560, v1648] : Fin 2 → IVec S16 32) a x).toNat < S128x200.size a := fun v1560 v1648 k0_hw210 => k0_hw210

def k0_chk211 (v1652 : IVec S16 32) : Prop :=
  (∀ a x, ((![v1652] : Fin 1 → IVec S16 32) a x).toNat < S272.size a)
instance k0_chk211.dec : ∀ (v1652 : IVec S16 32), Decidable (k0_chk211 v1652) := fun v1652 => decidable_of_iff' _ (Iff.of_eq (k0_chk211.eq_1 v1652))
theorem k0_idx211_inb : ∀ (v1652 : IVec S16 32) (k0_hw211 : k0_chk211 v1652), ∀ a x, ((![v1652] : Fin 1 → IVec S16 32) a x).toNat < S272.size a := fun v1652 k0_hw211 => k0_hw211
def k0_off21 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c144_i32_563 : BitVec 32 := 144#32
  let v1656 : BitVec 32 := Scalar.addi v648 c144_i32_563
  let v1657 : Index := Scalar.indexCast v1656
  ![v1657.toNat]

def k0_chk212 (v1661 : IVec S16 32) (v1663 : IVec S16 32) : Prop :=
  (∀ a x, ((![v1661, v1663] : Fin 2 → IVec S16 32) a x).toNat < S128x200.size a)
instance k0_chk212.dec : ∀ (v1661 : IVec S16 32) (v1663 : IVec S16 32), Decidable (k0_chk212 v1661 v1663) := fun v1661 v1663 => decidable_of_iff' _ (Iff.of_eq (k0_chk212.eq_1 v1661 v1663))
theorem k0_idx212_inb : ∀ (v1661 : IVec S16 32) (v1663 : IVec S16 32) (k0_hw212 : k0_chk212 v1661 v1663), ∀ a x, ((![v1661, v1663] : Fin 2 → IVec S16 32) a x).toNat < S128x200.size a := fun v1661 v1663 k0_hw212 => k0_hw212

def k0_chk213 (v1661 : IVec S16 32) (v1668 : IVec S16 32) : Prop :=
  (∀ a x, ((![v1661, v1668] : Fin 2 → IVec S16 32) a x).toNat < S128x200.size a)
instance k0_chk213.dec : ∀ (v1661 : IVec S16 32) (v1668 : IVec S16 32), Decidable (k0_chk213 v1661 v1668) := fun v1661 v1668 => decidable_of_iff' _ (Iff.of_eq (k0_chk213.eq_1 v1661 v1668))
theorem k0_idx213_inb : ∀ (v1661 : IVec S16 32) (v1668 : IVec S16 32) (k0_hw213 : k0_chk213 v1661 v1668), ∀ a x, ((![v1661, v1668] : Fin 2 → IVec S16 32) a x).toNat < S128x200.size a := fun v1661 v1668 k0_hw213 => k0_hw213

def k0_chk214 (v1661 : IVec S16 32) (v1673 : IVec S16 32) : Prop :=
  (∀ a x, ((![v1661, v1673] : Fin 2 → IVec S16 32) a x).toNat < S128x200.size a)
instance k0_chk214.dec : ∀ (v1661 : IVec S16 32) (v1673 : IVec S16 32), Decidable (k0_chk214 v1661 v1673) := fun v1661 v1673 => decidable_of_iff' _ (Iff.of_eq (k0_chk214.eq_1 v1661 v1673))
theorem k0_idx214_inb : ∀ (v1661 : IVec S16 32) (v1673 : IVec S16 32) (k0_hw214 : k0_chk214 v1661 v1673), ∀ a x, ((![v1661, v1673] : Fin 2 → IVec S16 32) a x).toNat < S128x200.size a := fun v1661 v1673 k0_hw214 => k0_hw214

def k0_chk215 (v1661 : IVec S16 32) (v1678 : IVec S16 32) : Prop :=
  (∀ a x, ((![v1661, v1678] : Fin 2 → IVec S16 32) a x).toNat < S128x200.size a)
instance k0_chk215.dec : ∀ (v1661 : IVec S16 32) (v1678 : IVec S16 32), Decidable (k0_chk215 v1661 v1678) := fun v1661 v1678 => decidable_of_iff' _ (Iff.of_eq (k0_chk215.eq_1 v1661 v1678))
theorem k0_idx215_inb : ∀ (v1661 : IVec S16 32) (v1678 : IVec S16 32) (k0_hw215 : k0_chk215 v1661 v1678), ∀ a x, ((![v1661, v1678] : Fin 2 → IVec S16 32) a x).toNat < S128x200.size a := fun v1661 v1678 k0_hw215 => k0_hw215

def k0_chk216 (v1688 : IVec S16 32) : Prop :=
  (∀ a x, ((![v1688] : Fin 1 → IVec S16 32) a x).toNat < S4096.size a)
instance k0_chk216.dec : ∀ (v1688 : IVec S16 32), Decidable (k0_chk216 v1688) := fun v1688 => decidable_of_iff' _ (Iff.of_eq (k0_chk216.eq_1 v1688))
theorem k0_idx216_inb : ∀ (v1688 : IVec S16 32) (k0_hw216 : k0_chk216 v1688), ∀ a x, ((![v1688] : Fin 1 → IVec S16 32) a x).toNat < S4096.size a := fun v1688 k0_hw216 => k0_hw216

def k0_chk217 (v1661 : IVec S16 32) (v1691 : IVec S16 32) : Prop :=
  (∀ a x, ((![v1661, v1691] : Fin 2 → IVec S16 32) a x).toNat < S128x200.size a)
instance k0_chk217.dec : ∀ (v1661 : IVec S16 32) (v1691 : IVec S16 32), Decidable (k0_chk217 v1661 v1691) := fun v1661 v1691 => decidable_of_iff' _ (Iff.of_eq (k0_chk217.eq_1 v1661 v1691))
theorem k0_idx217_inb : ∀ (v1661 : IVec S16 32) (v1691 : IVec S16 32) (k0_hw217 : k0_chk217 v1661 v1691), ∀ a x, ((![v1661, v1691] : Fin 2 → IVec S16 32) a x).toNat < S128x200.size a := fun v1661 v1691 k0_hw217 => k0_hw217

def k0_chk218 (v1661 : IVec S16 32) (v1696 : IVec S16 32) : Prop :=
  (∀ a x, ((![v1661, v1696] : Fin 2 → IVec S16 32) a x).toNat < S128x200.size a)
instance k0_chk218.dec : ∀ (v1661 : IVec S16 32) (v1696 : IVec S16 32), Decidable (k0_chk218 v1661 v1696) := fun v1661 v1696 => decidable_of_iff' _ (Iff.of_eq (k0_chk218.eq_1 v1661 v1696))
theorem k0_idx218_inb : ∀ (v1661 : IVec S16 32) (v1696 : IVec S16 32) (k0_hw218 : k0_chk218 v1661 v1696), ∀ a x, ((![v1661, v1696] : Fin 2 → IVec S16 32) a x).toNat < S128x200.size a := fun v1661 v1696 k0_hw218 => k0_hw218

def k0_chk219 (v1661 : IVec S16 32) (v1701 : IVec S16 32) : Prop :=
  (∀ a x, ((![v1661, v1701] : Fin 2 → IVec S16 32) a x).toNat < S128x200.size a)
instance k0_chk219.dec : ∀ (v1661 : IVec S16 32) (v1701 : IVec S16 32), Decidable (k0_chk219 v1661 v1701) := fun v1661 v1701 => decidable_of_iff' _ (Iff.of_eq (k0_chk219.eq_1 v1661 v1701))
theorem k0_idx219_inb : ∀ (v1661 : IVec S16 32) (v1701 : IVec S16 32) (k0_hw219 : k0_chk219 v1661 v1701), ∀ a x, ((![v1661, v1701] : Fin 2 → IVec S16 32) a x).toNat < S128x200.size a := fun v1661 v1701 k0_hw219 => k0_hw219

def k0_chk220 (v1661 : IVec S16 32) (v1706 : IVec S16 32) : Prop :=
  (∀ a x, ((![v1661, v1706] : Fin 2 → IVec S16 32) a x).toNat < S128x200.size a)
instance k0_chk220.dec : ∀ (v1661 : IVec S16 32) (v1706 : IVec S16 32), Decidable (k0_chk220 v1661 v1706) := fun v1661 v1706 => decidable_of_iff' _ (Iff.of_eq (k0_chk220.eq_1 v1661 v1706))
theorem k0_idx220_inb : ∀ (v1661 : IVec S16 32) (v1706 : IVec S16 32) (k0_hw220 : k0_chk220 v1661 v1706), ∀ a x, ((![v1661, v1706] : Fin 2 → IVec S16 32) a x).toNat < S128x200.size a := fun v1661 v1706 k0_hw220 => k0_hw220

def k0_chk221 (v1716 : IVec S16 32) : Prop :=
  (∀ a x, ((![v1716] : Fin 1 → IVec S16 32) a x).toNat < S4096.size a)
instance k0_chk221.dec : ∀ (v1716 : IVec S16 32), Decidable (k0_chk221 v1716) := fun v1716 => decidable_of_iff' _ (Iff.of_eq (k0_chk221.eq_1 v1716))
theorem k0_idx221_inb : ∀ (v1716 : IVec S16 32) (k0_hw221 : k0_chk221 v1716), ∀ a x, ((![v1716] : Fin 1 → IVec S16 32) a x).toNat < S4096.size a := fun v1716 k0_hw221 => k0_hw221

def k0_chk222 (v1661 : IVec S16 32) (v1720 : IVec S16 32) : Prop :=
  (∀ a x, ((![v1661, v1720] : Fin 2 → IVec S16 32) a x).toNat < S128x200.size a)
instance k0_chk222.dec : ∀ (v1661 : IVec S16 32) (v1720 : IVec S16 32), Decidable (k0_chk222 v1661 v1720) := fun v1661 v1720 => decidable_of_iff' _ (Iff.of_eq (k0_chk222.eq_1 v1661 v1720))
theorem k0_idx222_inb : ∀ (v1661 : IVec S16 32) (v1720 : IVec S16 32) (k0_hw222 : k0_chk222 v1661 v1720), ∀ a x, ((![v1661, v1720] : Fin 2 → IVec S16 32) a x).toNat < S128x200.size a := fun v1661 v1720 k0_hw222 => k0_hw222

def k0_chk223 (v1661 : IVec S16 32) (v1725 : IVec S16 32) : Prop :=
  (∀ a x, ((![v1661, v1725] : Fin 2 → IVec S16 32) a x).toNat < S128x200.size a)
instance k0_chk223.dec : ∀ (v1661 : IVec S16 32) (v1725 : IVec S16 32), Decidable (k0_chk223 v1661 v1725) := fun v1661 v1725 => decidable_of_iff' _ (Iff.of_eq (k0_chk223.eq_1 v1661 v1725))
theorem k0_idx223_inb : ∀ (v1661 : IVec S16 32) (v1725 : IVec S16 32) (k0_hw223 : k0_chk223 v1661 v1725), ∀ a x, ((![v1661, v1725] : Fin 2 → IVec S16 32) a x).toNat < S128x200.size a := fun v1661 v1725 k0_hw223 => k0_hw223

def k0_chk224 (v1661 : IVec S16 32) (v1730 : IVec S16 32) : Prop :=
  (∀ a x, ((![v1661, v1730] : Fin 2 → IVec S16 32) a x).toNat < S128x200.size a)
instance k0_chk224.dec : ∀ (v1661 : IVec S16 32) (v1730 : IVec S16 32), Decidable (k0_chk224 v1661 v1730) := fun v1661 v1730 => decidable_of_iff' _ (Iff.of_eq (k0_chk224.eq_1 v1661 v1730))
theorem k0_idx224_inb : ∀ (v1661 : IVec S16 32) (v1730 : IVec S16 32) (k0_hw224 : k0_chk224 v1661 v1730), ∀ a x, ((![v1661, v1730] : Fin 2 → IVec S16 32) a x).toNat < S128x200.size a := fun v1661 v1730 k0_hw224 => k0_hw224

def k0_chk225 (v1661 : IVec S16 32) (v1735 : IVec S16 32) : Prop :=
  (∀ a x, ((![v1661, v1735] : Fin 2 → IVec S16 32) a x).toNat < S128x200.size a)
instance k0_chk225.dec : ∀ (v1661 : IVec S16 32) (v1735 : IVec S16 32), Decidable (k0_chk225 v1661 v1735) := fun v1661 v1735 => decidable_of_iff' _ (Iff.of_eq (k0_chk225.eq_1 v1661 v1735))
theorem k0_idx225_inb : ∀ (v1661 : IVec S16 32) (v1735 : IVec S16 32) (k0_hw225 : k0_chk225 v1661 v1735), ∀ a x, ((![v1661, v1735] : Fin 2 → IVec S16 32) a x).toNat < S128x200.size a := fun v1661 v1735 k0_hw225 => k0_hw225

def k0_chk226 (v1745 : IVec S16 32) : Prop :=
  (∀ a x, ((![v1745] : Fin 1 → IVec S16 32) a x).toNat < S4096.size a)
instance k0_chk226.dec : ∀ (v1745 : IVec S16 32), Decidable (k0_chk226 v1745) := fun v1745 => decidable_of_iff' _ (Iff.of_eq (k0_chk226.eq_1 v1745))
theorem k0_idx226_inb : ∀ (v1745 : IVec S16 32) (k0_hw226 : k0_chk226 v1745), ∀ a x, ((![v1745] : Fin 1 → IVec S16 32) a x).toNat < S4096.size a := fun v1745 k0_hw226 => k0_hw226

def k0_chk227 (v1661 : IVec S16 32) (v1749 : IVec S16 32) : Prop :=
  (∀ a x, ((![v1661, v1749] : Fin 2 → IVec S16 32) a x).toNat < S128x200.size a)
instance k0_chk227.dec : ∀ (v1661 : IVec S16 32) (v1749 : IVec S16 32), Decidable (k0_chk227 v1661 v1749) := fun v1661 v1749 => decidable_of_iff' _ (Iff.of_eq (k0_chk227.eq_1 v1661 v1749))
theorem k0_idx227_inb : ∀ (v1661 : IVec S16 32) (v1749 : IVec S16 32) (k0_hw227 : k0_chk227 v1661 v1749), ∀ a x, ((![v1661, v1749] : Fin 2 → IVec S16 32) a x).toNat < S128x200.size a := fun v1661 v1749 k0_hw227 => k0_hw227

def k0_chk228 (v1753 : IVec S16 32) : Prop :=
  (∀ a x, ((![v1753] : Fin 1 → IVec S16 32) a x).toNat < S272.size a)
instance k0_chk228.dec : ∀ (v1753 : IVec S16 32), Decidable (k0_chk228 v1753) := fun v1753 => decidable_of_iff' _ (Iff.of_eq (k0_chk228.eq_1 v1753))
theorem k0_idx228_inb : ∀ (v1753 : IVec S16 32) (k0_hw228 : k0_chk228 v1753), ∀ a x, ((![v1753] : Fin 1 → IVec S16 32) a x).toNat < S272.size a := fun v1753 k0_hw228 => k0_hw228
def k0_off22 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c160_i32_597 : BitVec 32 := 160#32
  let v1757 : BitVec 32 := Scalar.addi v648 c160_i32_597
  let v1758 : Index := Scalar.indexCast v1757
  ![v1758.toNat]

def k0_chk229 (v1762 : IVec S16 32) (v1764 : IVec S16 32) : Prop :=
  (∀ a x, ((![v1762, v1764] : Fin 2 → IVec S16 32) a x).toNat < S128x200.size a)
instance k0_chk229.dec : ∀ (v1762 : IVec S16 32) (v1764 : IVec S16 32), Decidable (k0_chk229 v1762 v1764) := fun v1762 v1764 => decidable_of_iff' _ (Iff.of_eq (k0_chk229.eq_1 v1762 v1764))
theorem k0_idx229_inb : ∀ (v1762 : IVec S16 32) (v1764 : IVec S16 32) (k0_hw229 : k0_chk229 v1762 v1764), ∀ a x, ((![v1762, v1764] : Fin 2 → IVec S16 32) a x).toNat < S128x200.size a := fun v1762 v1764 k0_hw229 => k0_hw229

def k0_chk230 (v1762 : IVec S16 32) (v1769 : IVec S16 32) : Prop :=
  (∀ a x, ((![v1762, v1769] : Fin 2 → IVec S16 32) a x).toNat < S128x200.size a)
instance k0_chk230.dec : ∀ (v1762 : IVec S16 32) (v1769 : IVec S16 32), Decidable (k0_chk230 v1762 v1769) := fun v1762 v1769 => decidable_of_iff' _ (Iff.of_eq (k0_chk230.eq_1 v1762 v1769))
theorem k0_idx230_inb : ∀ (v1762 : IVec S16 32) (v1769 : IVec S16 32) (k0_hw230 : k0_chk230 v1762 v1769), ∀ a x, ((![v1762, v1769] : Fin 2 → IVec S16 32) a x).toNat < S128x200.size a := fun v1762 v1769 k0_hw230 => k0_hw230

def k0_chk231 (v1762 : IVec S16 32) (v1774 : IVec S16 32) : Prop :=
  (∀ a x, ((![v1762, v1774] : Fin 2 → IVec S16 32) a x).toNat < S128x200.size a)
instance k0_chk231.dec : ∀ (v1762 : IVec S16 32) (v1774 : IVec S16 32), Decidable (k0_chk231 v1762 v1774) := fun v1762 v1774 => decidable_of_iff' _ (Iff.of_eq (k0_chk231.eq_1 v1762 v1774))
theorem k0_idx231_inb : ∀ (v1762 : IVec S16 32) (v1774 : IVec S16 32) (k0_hw231 : k0_chk231 v1762 v1774), ∀ a x, ((![v1762, v1774] : Fin 2 → IVec S16 32) a x).toNat < S128x200.size a := fun v1762 v1774 k0_hw231 => k0_hw231

def k0_chk232 (v1762 : IVec S16 32) (v1779 : IVec S16 32) : Prop :=
  (∀ a x, ((![v1762, v1779] : Fin 2 → IVec S16 32) a x).toNat < S128x200.size a)
instance k0_chk232.dec : ∀ (v1762 : IVec S16 32) (v1779 : IVec S16 32), Decidable (k0_chk232 v1762 v1779) := fun v1762 v1779 => decidable_of_iff' _ (Iff.of_eq (k0_chk232.eq_1 v1762 v1779))
theorem k0_idx232_inb : ∀ (v1762 : IVec S16 32) (v1779 : IVec S16 32) (k0_hw232 : k0_chk232 v1762 v1779), ∀ a x, ((![v1762, v1779] : Fin 2 → IVec S16 32) a x).toNat < S128x200.size a := fun v1762 v1779 k0_hw232 => k0_hw232

def k0_chk233 (v1789 : IVec S16 32) : Prop :=
  (∀ a x, ((![v1789] : Fin 1 → IVec S16 32) a x).toNat < S4096.size a)
instance k0_chk233.dec : ∀ (v1789 : IVec S16 32), Decidable (k0_chk233 v1789) := fun v1789 => decidable_of_iff' _ (Iff.of_eq (k0_chk233.eq_1 v1789))
theorem k0_idx233_inb : ∀ (v1789 : IVec S16 32) (k0_hw233 : k0_chk233 v1789), ∀ a x, ((![v1789] : Fin 1 → IVec S16 32) a x).toNat < S4096.size a := fun v1789 k0_hw233 => k0_hw233

def k0_chk234 (v1762 : IVec S16 32) (v1792 : IVec S16 32) : Prop :=
  (∀ a x, ((![v1762, v1792] : Fin 2 → IVec S16 32) a x).toNat < S128x200.size a)
instance k0_chk234.dec : ∀ (v1762 : IVec S16 32) (v1792 : IVec S16 32), Decidable (k0_chk234 v1762 v1792) := fun v1762 v1792 => decidable_of_iff' _ (Iff.of_eq (k0_chk234.eq_1 v1762 v1792))
theorem k0_idx234_inb : ∀ (v1762 : IVec S16 32) (v1792 : IVec S16 32) (k0_hw234 : k0_chk234 v1762 v1792), ∀ a x, ((![v1762, v1792] : Fin 2 → IVec S16 32) a x).toNat < S128x200.size a := fun v1762 v1792 k0_hw234 => k0_hw234

def k0_chk235 (v1762 : IVec S16 32) (v1797 : IVec S16 32) : Prop :=
  (∀ a x, ((![v1762, v1797] : Fin 2 → IVec S16 32) a x).toNat < S128x200.size a)
instance k0_chk235.dec : ∀ (v1762 : IVec S16 32) (v1797 : IVec S16 32), Decidable (k0_chk235 v1762 v1797) := fun v1762 v1797 => decidable_of_iff' _ (Iff.of_eq (k0_chk235.eq_1 v1762 v1797))
theorem k0_idx235_inb : ∀ (v1762 : IVec S16 32) (v1797 : IVec S16 32) (k0_hw235 : k0_chk235 v1762 v1797), ∀ a x, ((![v1762, v1797] : Fin 2 → IVec S16 32) a x).toNat < S128x200.size a := fun v1762 v1797 k0_hw235 => k0_hw235

def k0_chk236 (v1762 : IVec S16 32) (v1802 : IVec S16 32) : Prop :=
  (∀ a x, ((![v1762, v1802] : Fin 2 → IVec S16 32) a x).toNat < S128x200.size a)
instance k0_chk236.dec : ∀ (v1762 : IVec S16 32) (v1802 : IVec S16 32), Decidable (k0_chk236 v1762 v1802) := fun v1762 v1802 => decidable_of_iff' _ (Iff.of_eq (k0_chk236.eq_1 v1762 v1802))
theorem k0_idx236_inb : ∀ (v1762 : IVec S16 32) (v1802 : IVec S16 32) (k0_hw236 : k0_chk236 v1762 v1802), ∀ a x, ((![v1762, v1802] : Fin 2 → IVec S16 32) a x).toNat < S128x200.size a := fun v1762 v1802 k0_hw236 => k0_hw236

def k0_chk237 (v1762 : IVec S16 32) (v1807 : IVec S16 32) : Prop :=
  (∀ a x, ((![v1762, v1807] : Fin 2 → IVec S16 32) a x).toNat < S128x200.size a)
instance k0_chk237.dec : ∀ (v1762 : IVec S16 32) (v1807 : IVec S16 32), Decidable (k0_chk237 v1762 v1807) := fun v1762 v1807 => decidable_of_iff' _ (Iff.of_eq (k0_chk237.eq_1 v1762 v1807))
theorem k0_idx237_inb : ∀ (v1762 : IVec S16 32) (v1807 : IVec S16 32) (k0_hw237 : k0_chk237 v1762 v1807), ∀ a x, ((![v1762, v1807] : Fin 2 → IVec S16 32) a x).toNat < S128x200.size a := fun v1762 v1807 k0_hw237 => k0_hw237

def k0_chk238 (v1817 : IVec S16 32) : Prop :=
  (∀ a x, ((![v1817] : Fin 1 → IVec S16 32) a x).toNat < S4096.size a)
instance k0_chk238.dec : ∀ (v1817 : IVec S16 32), Decidable (k0_chk238 v1817) := fun v1817 => decidable_of_iff' _ (Iff.of_eq (k0_chk238.eq_1 v1817))
theorem k0_idx238_inb : ∀ (v1817 : IVec S16 32) (k0_hw238 : k0_chk238 v1817), ∀ a x, ((![v1817] : Fin 1 → IVec S16 32) a x).toNat < S4096.size a := fun v1817 k0_hw238 => k0_hw238

def k0_chk239 (v1762 : IVec S16 32) (v1821 : IVec S16 32) : Prop :=
  (∀ a x, ((![v1762, v1821] : Fin 2 → IVec S16 32) a x).toNat < S128x200.size a)
instance k0_chk239.dec : ∀ (v1762 : IVec S16 32) (v1821 : IVec S16 32), Decidable (k0_chk239 v1762 v1821) := fun v1762 v1821 => decidable_of_iff' _ (Iff.of_eq (k0_chk239.eq_1 v1762 v1821))
theorem k0_idx239_inb : ∀ (v1762 : IVec S16 32) (v1821 : IVec S16 32) (k0_hw239 : k0_chk239 v1762 v1821), ∀ a x, ((![v1762, v1821] : Fin 2 → IVec S16 32) a x).toNat < S128x200.size a := fun v1762 v1821 k0_hw239 => k0_hw239

def k0_chk240 (v1762 : IVec S16 32) (v1826 : IVec S16 32) : Prop :=
  (∀ a x, ((![v1762, v1826] : Fin 2 → IVec S16 32) a x).toNat < S128x200.size a)
instance k0_chk240.dec : ∀ (v1762 : IVec S16 32) (v1826 : IVec S16 32), Decidable (k0_chk240 v1762 v1826) := fun v1762 v1826 => decidable_of_iff' _ (Iff.of_eq (k0_chk240.eq_1 v1762 v1826))
theorem k0_idx240_inb : ∀ (v1762 : IVec S16 32) (v1826 : IVec S16 32) (k0_hw240 : k0_chk240 v1762 v1826), ∀ a x, ((![v1762, v1826] : Fin 2 → IVec S16 32) a x).toNat < S128x200.size a := fun v1762 v1826 k0_hw240 => k0_hw240

def k0_chk241 (v1762 : IVec S16 32) (v1831 : IVec S16 32) : Prop :=
  (∀ a x, ((![v1762, v1831] : Fin 2 → IVec S16 32) a x).toNat < S128x200.size a)
instance k0_chk241.dec : ∀ (v1762 : IVec S16 32) (v1831 : IVec S16 32), Decidable (k0_chk241 v1762 v1831) := fun v1762 v1831 => decidable_of_iff' _ (Iff.of_eq (k0_chk241.eq_1 v1762 v1831))
theorem k0_idx241_inb : ∀ (v1762 : IVec S16 32) (v1831 : IVec S16 32) (k0_hw241 : k0_chk241 v1762 v1831), ∀ a x, ((![v1762, v1831] : Fin 2 → IVec S16 32) a x).toNat < S128x200.size a := fun v1762 v1831 k0_hw241 => k0_hw241

def k0_chk242 (v1762 : IVec S16 32) (v1836 : IVec S16 32) : Prop :=
  (∀ a x, ((![v1762, v1836] : Fin 2 → IVec S16 32) a x).toNat < S128x200.size a)
instance k0_chk242.dec : ∀ (v1762 : IVec S16 32) (v1836 : IVec S16 32), Decidable (k0_chk242 v1762 v1836) := fun v1762 v1836 => decidable_of_iff' _ (Iff.of_eq (k0_chk242.eq_1 v1762 v1836))
theorem k0_idx242_inb : ∀ (v1762 : IVec S16 32) (v1836 : IVec S16 32) (k0_hw242 : k0_chk242 v1762 v1836), ∀ a x, ((![v1762, v1836] : Fin 2 → IVec S16 32) a x).toNat < S128x200.size a := fun v1762 v1836 k0_hw242 => k0_hw242

def k0_chk243 (v1846 : IVec S16 32) : Prop :=
  (∀ a x, ((![v1846] : Fin 1 → IVec S16 32) a x).toNat < S4096.size a)
instance k0_chk243.dec : ∀ (v1846 : IVec S16 32), Decidable (k0_chk243 v1846) := fun v1846 => decidable_of_iff' _ (Iff.of_eq (k0_chk243.eq_1 v1846))
theorem k0_idx243_inb : ∀ (v1846 : IVec S16 32) (k0_hw243 : k0_chk243 v1846), ∀ a x, ((![v1846] : Fin 1 → IVec S16 32) a x).toNat < S4096.size a := fun v1846 k0_hw243 => k0_hw243

def k0_chk244 (v1762 : IVec S16 32) (v1850 : IVec S16 32) : Prop :=
  (∀ a x, ((![v1762, v1850] : Fin 2 → IVec S16 32) a x).toNat < S128x200.size a)
instance k0_chk244.dec : ∀ (v1762 : IVec S16 32) (v1850 : IVec S16 32), Decidable (k0_chk244 v1762 v1850) := fun v1762 v1850 => decidable_of_iff' _ (Iff.of_eq (k0_chk244.eq_1 v1762 v1850))
theorem k0_idx244_inb : ∀ (v1762 : IVec S16 32) (v1850 : IVec S16 32) (k0_hw244 : k0_chk244 v1762 v1850), ∀ a x, ((![v1762, v1850] : Fin 2 → IVec S16 32) a x).toNat < S128x200.size a := fun v1762 v1850 k0_hw244 => k0_hw244

def k0_chk245 (v1854 : IVec S16 32) : Prop :=
  (∀ a x, ((![v1854] : Fin 1 → IVec S16 32) a x).toNat < S272.size a)
instance k0_chk245.dec : ∀ (v1854 : IVec S16 32), Decidable (k0_chk245 v1854) := fun v1854 => decidable_of_iff' _ (Iff.of_eq (k0_chk245.eq_1 v1854))
theorem k0_idx245_inb : ∀ (v1854 : IVec S16 32) (k0_hw245 : k0_chk245 v1854), ∀ a x, ((![v1854] : Fin 1 → IVec S16 32) a x).toNat < S272.size a := fun v1854 k0_hw245 => k0_hw245
def k0_off23 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c176_i32_631 : BitVec 32 := 176#32
  let v1858 : BitVec 32 := Scalar.addi v648 c176_i32_631
  let v1859 : Index := Scalar.indexCast v1858
  ![v1859.toNat]

def k0_chk246 (v1863 : IVec S16 32) (v1865 : IVec S16 32) : Prop :=
  (∀ a x, ((![v1863, v1865] : Fin 2 → IVec S16 32) a x).toNat < S128x200.size a)
instance k0_chk246.dec : ∀ (v1863 : IVec S16 32) (v1865 : IVec S16 32), Decidable (k0_chk246 v1863 v1865) := fun v1863 v1865 => decidable_of_iff' _ (Iff.of_eq (k0_chk246.eq_1 v1863 v1865))
theorem k0_idx246_inb : ∀ (v1863 : IVec S16 32) (v1865 : IVec S16 32) (k0_hw246 : k0_chk246 v1863 v1865), ∀ a x, ((![v1863, v1865] : Fin 2 → IVec S16 32) a x).toNat < S128x200.size a := fun v1863 v1865 k0_hw246 => k0_hw246

def k0_chk247 (v1863 : IVec S16 32) (v1870 : IVec S16 32) : Prop :=
  (∀ a x, ((![v1863, v1870] : Fin 2 → IVec S16 32) a x).toNat < S128x200.size a)
instance k0_chk247.dec : ∀ (v1863 : IVec S16 32) (v1870 : IVec S16 32), Decidable (k0_chk247 v1863 v1870) := fun v1863 v1870 => decidable_of_iff' _ (Iff.of_eq (k0_chk247.eq_1 v1863 v1870))
theorem k0_idx247_inb : ∀ (v1863 : IVec S16 32) (v1870 : IVec S16 32) (k0_hw247 : k0_chk247 v1863 v1870), ∀ a x, ((![v1863, v1870] : Fin 2 → IVec S16 32) a x).toNat < S128x200.size a := fun v1863 v1870 k0_hw247 => k0_hw247

def k0_chk248 (v1863 : IVec S16 32) (v1875 : IVec S16 32) : Prop :=
  (∀ a x, ((![v1863, v1875] : Fin 2 → IVec S16 32) a x).toNat < S128x200.size a)
instance k0_chk248.dec : ∀ (v1863 : IVec S16 32) (v1875 : IVec S16 32), Decidable (k0_chk248 v1863 v1875) := fun v1863 v1875 => decidable_of_iff' _ (Iff.of_eq (k0_chk248.eq_1 v1863 v1875))
theorem k0_idx248_inb : ∀ (v1863 : IVec S16 32) (v1875 : IVec S16 32) (k0_hw248 : k0_chk248 v1863 v1875), ∀ a x, ((![v1863, v1875] : Fin 2 → IVec S16 32) a x).toNat < S128x200.size a := fun v1863 v1875 k0_hw248 => k0_hw248

def k0_chk249 (v1863 : IVec S16 32) (v1880 : IVec S16 32) : Prop :=
  (∀ a x, ((![v1863, v1880] : Fin 2 → IVec S16 32) a x).toNat < S128x200.size a)
instance k0_chk249.dec : ∀ (v1863 : IVec S16 32) (v1880 : IVec S16 32), Decidable (k0_chk249 v1863 v1880) := fun v1863 v1880 => decidable_of_iff' _ (Iff.of_eq (k0_chk249.eq_1 v1863 v1880))
theorem k0_idx249_inb : ∀ (v1863 : IVec S16 32) (v1880 : IVec S16 32) (k0_hw249 : k0_chk249 v1863 v1880), ∀ a x, ((![v1863, v1880] : Fin 2 → IVec S16 32) a x).toNat < S128x200.size a := fun v1863 v1880 k0_hw249 => k0_hw249

def k0_chk250 (v1890 : IVec S16 32) : Prop :=
  (∀ a x, ((![v1890] : Fin 1 → IVec S16 32) a x).toNat < S4096.size a)
instance k0_chk250.dec : ∀ (v1890 : IVec S16 32), Decidable (k0_chk250 v1890) := fun v1890 => decidable_of_iff' _ (Iff.of_eq (k0_chk250.eq_1 v1890))
theorem k0_idx250_inb : ∀ (v1890 : IVec S16 32) (k0_hw250 : k0_chk250 v1890), ∀ a x, ((![v1890] : Fin 1 → IVec S16 32) a x).toNat < S4096.size a := fun v1890 k0_hw250 => k0_hw250

def k0_chk251 (v1863 : IVec S16 32) (v1893 : IVec S16 32) : Prop :=
  (∀ a x, ((![v1863, v1893] : Fin 2 → IVec S16 32) a x).toNat < S128x200.size a)
instance k0_chk251.dec : ∀ (v1863 : IVec S16 32) (v1893 : IVec S16 32), Decidable (k0_chk251 v1863 v1893) := fun v1863 v1893 => decidable_of_iff' _ (Iff.of_eq (k0_chk251.eq_1 v1863 v1893))
theorem k0_idx251_inb : ∀ (v1863 : IVec S16 32) (v1893 : IVec S16 32) (k0_hw251 : k0_chk251 v1863 v1893), ∀ a x, ((![v1863, v1893] : Fin 2 → IVec S16 32) a x).toNat < S128x200.size a := fun v1863 v1893 k0_hw251 => k0_hw251

def k0_chk252 (v1863 : IVec S16 32) (v1898 : IVec S16 32) : Prop :=
  (∀ a x, ((![v1863, v1898] : Fin 2 → IVec S16 32) a x).toNat < S128x200.size a)
instance k0_chk252.dec : ∀ (v1863 : IVec S16 32) (v1898 : IVec S16 32), Decidable (k0_chk252 v1863 v1898) := fun v1863 v1898 => decidable_of_iff' _ (Iff.of_eq (k0_chk252.eq_1 v1863 v1898))
theorem k0_idx252_inb : ∀ (v1863 : IVec S16 32) (v1898 : IVec S16 32) (k0_hw252 : k0_chk252 v1863 v1898), ∀ a x, ((![v1863, v1898] : Fin 2 → IVec S16 32) a x).toNat < S128x200.size a := fun v1863 v1898 k0_hw252 => k0_hw252

def k0_chk253 (v1863 : IVec S16 32) (v1903 : IVec S16 32) : Prop :=
  (∀ a x, ((![v1863, v1903] : Fin 2 → IVec S16 32) a x).toNat < S128x200.size a)
instance k0_chk253.dec : ∀ (v1863 : IVec S16 32) (v1903 : IVec S16 32), Decidable (k0_chk253 v1863 v1903) := fun v1863 v1903 => decidable_of_iff' _ (Iff.of_eq (k0_chk253.eq_1 v1863 v1903))
theorem k0_idx253_inb : ∀ (v1863 : IVec S16 32) (v1903 : IVec S16 32) (k0_hw253 : k0_chk253 v1863 v1903), ∀ a x, ((![v1863, v1903] : Fin 2 → IVec S16 32) a x).toNat < S128x200.size a := fun v1863 v1903 k0_hw253 => k0_hw253

def k0_chk254 (v1863 : IVec S16 32) (v1908 : IVec S16 32) : Prop :=
  (∀ a x, ((![v1863, v1908] : Fin 2 → IVec S16 32) a x).toNat < S128x200.size a)
instance k0_chk254.dec : ∀ (v1863 : IVec S16 32) (v1908 : IVec S16 32), Decidable (k0_chk254 v1863 v1908) := fun v1863 v1908 => decidable_of_iff' _ (Iff.of_eq (k0_chk254.eq_1 v1863 v1908))
theorem k0_idx254_inb : ∀ (v1863 : IVec S16 32) (v1908 : IVec S16 32) (k0_hw254 : k0_chk254 v1863 v1908), ∀ a x, ((![v1863, v1908] : Fin 2 → IVec S16 32) a x).toNat < S128x200.size a := fun v1863 v1908 k0_hw254 => k0_hw254

def k0_chk255 (v1918 : IVec S16 32) : Prop :=
  (∀ a x, ((![v1918] : Fin 1 → IVec S16 32) a x).toNat < S4096.size a)
instance k0_chk255.dec : ∀ (v1918 : IVec S16 32), Decidable (k0_chk255 v1918) := fun v1918 => decidable_of_iff' _ (Iff.of_eq (k0_chk255.eq_1 v1918))
theorem k0_idx255_inb : ∀ (v1918 : IVec S16 32) (k0_hw255 : k0_chk255 v1918), ∀ a x, ((![v1918] : Fin 1 → IVec S16 32) a x).toNat < S4096.size a := fun v1918 k0_hw255 => k0_hw255

def k0_chk256 (v1863 : IVec S16 32) (v1922 : IVec S16 32) : Prop :=
  (∀ a x, ((![v1863, v1922] : Fin 2 → IVec S16 32) a x).toNat < S128x200.size a)
instance k0_chk256.dec : ∀ (v1863 : IVec S16 32) (v1922 : IVec S16 32), Decidable (k0_chk256 v1863 v1922) := fun v1863 v1922 => decidable_of_iff' _ (Iff.of_eq (k0_chk256.eq_1 v1863 v1922))
theorem k0_idx256_inb : ∀ (v1863 : IVec S16 32) (v1922 : IVec S16 32) (k0_hw256 : k0_chk256 v1863 v1922), ∀ a x, ((![v1863, v1922] : Fin 2 → IVec S16 32) a x).toNat < S128x200.size a := fun v1863 v1922 k0_hw256 => k0_hw256

def k0_chk257 (v1863 : IVec S16 32) (v1927 : IVec S16 32) : Prop :=
  (∀ a x, ((![v1863, v1927] : Fin 2 → IVec S16 32) a x).toNat < S128x200.size a)
instance k0_chk257.dec : ∀ (v1863 : IVec S16 32) (v1927 : IVec S16 32), Decidable (k0_chk257 v1863 v1927) := fun v1863 v1927 => decidable_of_iff' _ (Iff.of_eq (k0_chk257.eq_1 v1863 v1927))
theorem k0_idx257_inb : ∀ (v1863 : IVec S16 32) (v1927 : IVec S16 32) (k0_hw257 : k0_chk257 v1863 v1927), ∀ a x, ((![v1863, v1927] : Fin 2 → IVec S16 32) a x).toNat < S128x200.size a := fun v1863 v1927 k0_hw257 => k0_hw257

def k0_chk258 (v1863 : IVec S16 32) (v1932 : IVec S16 32) : Prop :=
  (∀ a x, ((![v1863, v1932] : Fin 2 → IVec S16 32) a x).toNat < S128x200.size a)
instance k0_chk258.dec : ∀ (v1863 : IVec S16 32) (v1932 : IVec S16 32), Decidable (k0_chk258 v1863 v1932) := fun v1863 v1932 => decidable_of_iff' _ (Iff.of_eq (k0_chk258.eq_1 v1863 v1932))
theorem k0_idx258_inb : ∀ (v1863 : IVec S16 32) (v1932 : IVec S16 32) (k0_hw258 : k0_chk258 v1863 v1932), ∀ a x, ((![v1863, v1932] : Fin 2 → IVec S16 32) a x).toNat < S128x200.size a := fun v1863 v1932 k0_hw258 => k0_hw258

def k0_chk259 (v1863 : IVec S16 32) (v1937 : IVec S16 32) : Prop :=
  (∀ a x, ((![v1863, v1937] : Fin 2 → IVec S16 32) a x).toNat < S128x200.size a)
instance k0_chk259.dec : ∀ (v1863 : IVec S16 32) (v1937 : IVec S16 32), Decidable (k0_chk259 v1863 v1937) := fun v1863 v1937 => decidable_of_iff' _ (Iff.of_eq (k0_chk259.eq_1 v1863 v1937))
theorem k0_idx259_inb : ∀ (v1863 : IVec S16 32) (v1937 : IVec S16 32) (k0_hw259 : k0_chk259 v1863 v1937), ∀ a x, ((![v1863, v1937] : Fin 2 → IVec S16 32) a x).toNat < S128x200.size a := fun v1863 v1937 k0_hw259 => k0_hw259

def k0_chk260 (v1947 : IVec S16 32) : Prop :=
  (∀ a x, ((![v1947] : Fin 1 → IVec S16 32) a x).toNat < S4096.size a)
instance k0_chk260.dec : ∀ (v1947 : IVec S16 32), Decidable (k0_chk260 v1947) := fun v1947 => decidable_of_iff' _ (Iff.of_eq (k0_chk260.eq_1 v1947))
theorem k0_idx260_inb : ∀ (v1947 : IVec S16 32) (k0_hw260 : k0_chk260 v1947), ∀ a x, ((![v1947] : Fin 1 → IVec S16 32) a x).toNat < S4096.size a := fun v1947 k0_hw260 => k0_hw260

def k0_chk261 (v1863 : IVec S16 32) (v1951 : IVec S16 32) : Prop :=
  (∀ a x, ((![v1863, v1951] : Fin 2 → IVec S16 32) a x).toNat < S128x200.size a)
instance k0_chk261.dec : ∀ (v1863 : IVec S16 32) (v1951 : IVec S16 32), Decidable (k0_chk261 v1863 v1951) := fun v1863 v1951 => decidable_of_iff' _ (Iff.of_eq (k0_chk261.eq_1 v1863 v1951))
theorem k0_idx261_inb : ∀ (v1863 : IVec S16 32) (v1951 : IVec S16 32) (k0_hw261 : k0_chk261 v1863 v1951), ∀ a x, ((![v1863, v1951] : Fin 2 → IVec S16 32) a x).toNat < S128x200.size a := fun v1863 v1951 k0_hw261 => k0_hw261

def k0_chk262 (v1955 : IVec S16 32) : Prop :=
  (∀ a x, ((![v1955] : Fin 1 → IVec S16 32) a x).toNat < S272.size a)
instance k0_chk262.dec : ∀ (v1955 : IVec S16 32), Decidable (k0_chk262 v1955) := fun v1955 => decidable_of_iff' _ (Iff.of_eq (k0_chk262.eq_1 v1955))
theorem k0_idx262_inb : ∀ (v1955 : IVec S16 32) (k0_hw262 : k0_chk262 v1955), ∀ a x, ((![v1955] : Fin 1 → IVec S16 32) a x).toNat < S272.size a := fun v1955 k0_hw262 => k0_hw262
def k0_off24 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c192_i32_665 : BitVec 32 := 192#32
  let v1959 : BitVec 32 := Scalar.addi v648 c192_i32_665
  let v1960 : Index := Scalar.indexCast v1959
  ![v1960.toNat]

def k0_chk263 (v1964 : IVec S16 32) (v1966 : IVec S16 32) : Prop :=
  (∀ a x, ((![v1964, v1966] : Fin 2 → IVec S16 32) a x).toNat < S128x200.size a)
instance k0_chk263.dec : ∀ (v1964 : IVec S16 32) (v1966 : IVec S16 32), Decidable (k0_chk263 v1964 v1966) := fun v1964 v1966 => decidable_of_iff' _ (Iff.of_eq (k0_chk263.eq_1 v1964 v1966))
theorem k0_idx263_inb : ∀ (v1964 : IVec S16 32) (v1966 : IVec S16 32) (k0_hw263 : k0_chk263 v1964 v1966), ∀ a x, ((![v1964, v1966] : Fin 2 → IVec S16 32) a x).toNat < S128x200.size a := fun v1964 v1966 k0_hw263 => k0_hw263

def k0_chk264 (v1964 : IVec S16 32) (v1971 : IVec S16 32) : Prop :=
  (∀ a x, ((![v1964, v1971] : Fin 2 → IVec S16 32) a x).toNat < S128x200.size a)
instance k0_chk264.dec : ∀ (v1964 : IVec S16 32) (v1971 : IVec S16 32), Decidable (k0_chk264 v1964 v1971) := fun v1964 v1971 => decidable_of_iff' _ (Iff.of_eq (k0_chk264.eq_1 v1964 v1971))
theorem k0_idx264_inb : ∀ (v1964 : IVec S16 32) (v1971 : IVec S16 32) (k0_hw264 : k0_chk264 v1964 v1971), ∀ a x, ((![v1964, v1971] : Fin 2 → IVec S16 32) a x).toNat < S128x200.size a := fun v1964 v1971 k0_hw264 => k0_hw264

def k0_chk265 (v1964 : IVec S16 32) (v1976 : IVec S16 32) : Prop :=
  (∀ a x, ((![v1964, v1976] : Fin 2 → IVec S16 32) a x).toNat < S128x200.size a)
instance k0_chk265.dec : ∀ (v1964 : IVec S16 32) (v1976 : IVec S16 32), Decidable (k0_chk265 v1964 v1976) := fun v1964 v1976 => decidable_of_iff' _ (Iff.of_eq (k0_chk265.eq_1 v1964 v1976))
theorem k0_idx265_inb : ∀ (v1964 : IVec S16 32) (v1976 : IVec S16 32) (k0_hw265 : k0_chk265 v1964 v1976), ∀ a x, ((![v1964, v1976] : Fin 2 → IVec S16 32) a x).toNat < S128x200.size a := fun v1964 v1976 k0_hw265 => k0_hw265

def k0_chk266 (v1964 : IVec S16 32) (v1981 : IVec S16 32) : Prop :=
  (∀ a x, ((![v1964, v1981] : Fin 2 → IVec S16 32) a x).toNat < S128x200.size a)
instance k0_chk266.dec : ∀ (v1964 : IVec S16 32) (v1981 : IVec S16 32), Decidable (k0_chk266 v1964 v1981) := fun v1964 v1981 => decidable_of_iff' _ (Iff.of_eq (k0_chk266.eq_1 v1964 v1981))
theorem k0_idx266_inb : ∀ (v1964 : IVec S16 32) (v1981 : IVec S16 32) (k0_hw266 : k0_chk266 v1964 v1981), ∀ a x, ((![v1964, v1981] : Fin 2 → IVec S16 32) a x).toNat < S128x200.size a := fun v1964 v1981 k0_hw266 => k0_hw266

def k0_chk267 (v1991 : IVec S16 32) : Prop :=
  (∀ a x, ((![v1991] : Fin 1 → IVec S16 32) a x).toNat < S4096.size a)
instance k0_chk267.dec : ∀ (v1991 : IVec S16 32), Decidable (k0_chk267 v1991) := fun v1991 => decidable_of_iff' _ (Iff.of_eq (k0_chk267.eq_1 v1991))
theorem k0_idx267_inb : ∀ (v1991 : IVec S16 32) (k0_hw267 : k0_chk267 v1991), ∀ a x, ((![v1991] : Fin 1 → IVec S16 32) a x).toNat < S4096.size a := fun v1991 k0_hw267 => k0_hw267

def k0_chk268 (v1964 : IVec S16 32) (v1994 : IVec S16 32) : Prop :=
  (∀ a x, ((![v1964, v1994] : Fin 2 → IVec S16 32) a x).toNat < S128x200.size a)
instance k0_chk268.dec : ∀ (v1964 : IVec S16 32) (v1994 : IVec S16 32), Decidable (k0_chk268 v1964 v1994) := fun v1964 v1994 => decidable_of_iff' _ (Iff.of_eq (k0_chk268.eq_1 v1964 v1994))
theorem k0_idx268_inb : ∀ (v1964 : IVec S16 32) (v1994 : IVec S16 32) (k0_hw268 : k0_chk268 v1964 v1994), ∀ a x, ((![v1964, v1994] : Fin 2 → IVec S16 32) a x).toNat < S128x200.size a := fun v1964 v1994 k0_hw268 => k0_hw268

def k0_chk269 (v1964 : IVec S16 32) (v1999 : IVec S16 32) : Prop :=
  (∀ a x, ((![v1964, v1999] : Fin 2 → IVec S16 32) a x).toNat < S128x200.size a)
instance k0_chk269.dec : ∀ (v1964 : IVec S16 32) (v1999 : IVec S16 32), Decidable (k0_chk269 v1964 v1999) := fun v1964 v1999 => decidable_of_iff' _ (Iff.of_eq (k0_chk269.eq_1 v1964 v1999))
theorem k0_idx269_inb : ∀ (v1964 : IVec S16 32) (v1999 : IVec S16 32) (k0_hw269 : k0_chk269 v1964 v1999), ∀ a x, ((![v1964, v1999] : Fin 2 → IVec S16 32) a x).toNat < S128x200.size a := fun v1964 v1999 k0_hw269 => k0_hw269

def k0_chk270 (v1964 : IVec S16 32) (v2004 : IVec S16 32) : Prop :=
  (∀ a x, ((![v1964, v2004] : Fin 2 → IVec S16 32) a x).toNat < S128x200.size a)
instance k0_chk270.dec : ∀ (v1964 : IVec S16 32) (v2004 : IVec S16 32), Decidable (k0_chk270 v1964 v2004) := fun v1964 v2004 => decidable_of_iff' _ (Iff.of_eq (k0_chk270.eq_1 v1964 v2004))
theorem k0_idx270_inb : ∀ (v1964 : IVec S16 32) (v2004 : IVec S16 32) (k0_hw270 : k0_chk270 v1964 v2004), ∀ a x, ((![v1964, v2004] : Fin 2 → IVec S16 32) a x).toNat < S128x200.size a := fun v1964 v2004 k0_hw270 => k0_hw270

def k0_chk271 (v1964 : IVec S16 32) (v2009 : IVec S16 32) : Prop :=
  (∀ a x, ((![v1964, v2009] : Fin 2 → IVec S16 32) a x).toNat < S128x200.size a)
instance k0_chk271.dec : ∀ (v1964 : IVec S16 32) (v2009 : IVec S16 32), Decidable (k0_chk271 v1964 v2009) := fun v1964 v2009 => decidable_of_iff' _ (Iff.of_eq (k0_chk271.eq_1 v1964 v2009))
theorem k0_idx271_inb : ∀ (v1964 : IVec S16 32) (v2009 : IVec S16 32) (k0_hw271 : k0_chk271 v1964 v2009), ∀ a x, ((![v1964, v2009] : Fin 2 → IVec S16 32) a x).toNat < S128x200.size a := fun v1964 v2009 k0_hw271 => k0_hw271

def k0_chk272 (v2019 : IVec S16 32) : Prop :=
  (∀ a x, ((![v2019] : Fin 1 → IVec S16 32) a x).toNat < S4096.size a)
instance k0_chk272.dec : ∀ (v2019 : IVec S16 32), Decidable (k0_chk272 v2019) := fun v2019 => decidable_of_iff' _ (Iff.of_eq (k0_chk272.eq_1 v2019))
theorem k0_idx272_inb : ∀ (v2019 : IVec S16 32) (k0_hw272 : k0_chk272 v2019), ∀ a x, ((![v2019] : Fin 1 → IVec S16 32) a x).toNat < S4096.size a := fun v2019 k0_hw272 => k0_hw272

def k0_chk273 (v1964 : IVec S16 32) (v2023 : IVec S16 32) : Prop :=
  (∀ a x, ((![v1964, v2023] : Fin 2 → IVec S16 32) a x).toNat < S128x200.size a)
instance k0_chk273.dec : ∀ (v1964 : IVec S16 32) (v2023 : IVec S16 32), Decidable (k0_chk273 v1964 v2023) := fun v1964 v2023 => decidable_of_iff' _ (Iff.of_eq (k0_chk273.eq_1 v1964 v2023))
theorem k0_idx273_inb : ∀ (v1964 : IVec S16 32) (v2023 : IVec S16 32) (k0_hw273 : k0_chk273 v1964 v2023), ∀ a x, ((![v1964, v2023] : Fin 2 → IVec S16 32) a x).toNat < S128x200.size a := fun v1964 v2023 k0_hw273 => k0_hw273

def k0_chk274 (v1964 : IVec S16 32) (v2028 : IVec S16 32) : Prop :=
  (∀ a x, ((![v1964, v2028] : Fin 2 → IVec S16 32) a x).toNat < S128x200.size a)
instance k0_chk274.dec : ∀ (v1964 : IVec S16 32) (v2028 : IVec S16 32), Decidable (k0_chk274 v1964 v2028) := fun v1964 v2028 => decidable_of_iff' _ (Iff.of_eq (k0_chk274.eq_1 v1964 v2028))
theorem k0_idx274_inb : ∀ (v1964 : IVec S16 32) (v2028 : IVec S16 32) (k0_hw274 : k0_chk274 v1964 v2028), ∀ a x, ((![v1964, v2028] : Fin 2 → IVec S16 32) a x).toNat < S128x200.size a := fun v1964 v2028 k0_hw274 => k0_hw274

def k0_chk275 (v1964 : IVec S16 32) (v2033 : IVec S16 32) : Prop :=
  (∀ a x, ((![v1964, v2033] : Fin 2 → IVec S16 32) a x).toNat < S128x200.size a)
instance k0_chk275.dec : ∀ (v1964 : IVec S16 32) (v2033 : IVec S16 32), Decidable (k0_chk275 v1964 v2033) := fun v1964 v2033 => decidable_of_iff' _ (Iff.of_eq (k0_chk275.eq_1 v1964 v2033))
theorem k0_idx275_inb : ∀ (v1964 : IVec S16 32) (v2033 : IVec S16 32) (k0_hw275 : k0_chk275 v1964 v2033), ∀ a x, ((![v1964, v2033] : Fin 2 → IVec S16 32) a x).toNat < S128x200.size a := fun v1964 v2033 k0_hw275 => k0_hw275

def k0_chk276 (v1964 : IVec S16 32) (v2038 : IVec S16 32) : Prop :=
  (∀ a x, ((![v1964, v2038] : Fin 2 → IVec S16 32) a x).toNat < S128x200.size a)
instance k0_chk276.dec : ∀ (v1964 : IVec S16 32) (v2038 : IVec S16 32), Decidable (k0_chk276 v1964 v2038) := fun v1964 v2038 => decidable_of_iff' _ (Iff.of_eq (k0_chk276.eq_1 v1964 v2038))
theorem k0_idx276_inb : ∀ (v1964 : IVec S16 32) (v2038 : IVec S16 32) (k0_hw276 : k0_chk276 v1964 v2038), ∀ a x, ((![v1964, v2038] : Fin 2 → IVec S16 32) a x).toNat < S128x200.size a := fun v1964 v2038 k0_hw276 => k0_hw276

def k0_chk277 (v2048 : IVec S16 32) : Prop :=
  (∀ a x, ((![v2048] : Fin 1 → IVec S16 32) a x).toNat < S4096.size a)
instance k0_chk277.dec : ∀ (v2048 : IVec S16 32), Decidable (k0_chk277 v2048) := fun v2048 => decidable_of_iff' _ (Iff.of_eq (k0_chk277.eq_1 v2048))
theorem k0_idx277_inb : ∀ (v2048 : IVec S16 32) (k0_hw277 : k0_chk277 v2048), ∀ a x, ((![v2048] : Fin 1 → IVec S16 32) a x).toNat < S4096.size a := fun v2048 k0_hw277 => k0_hw277

def k0_chk278 (v1964 : IVec S16 32) (v2052 : IVec S16 32) : Prop :=
  (∀ a x, ((![v1964, v2052] : Fin 2 → IVec S16 32) a x).toNat < S128x200.size a)
instance k0_chk278.dec : ∀ (v1964 : IVec S16 32) (v2052 : IVec S16 32), Decidable (k0_chk278 v1964 v2052) := fun v1964 v2052 => decidable_of_iff' _ (Iff.of_eq (k0_chk278.eq_1 v1964 v2052))
theorem k0_idx278_inb : ∀ (v1964 : IVec S16 32) (v2052 : IVec S16 32) (k0_hw278 : k0_chk278 v1964 v2052), ∀ a x, ((![v1964, v2052] : Fin 2 → IVec S16 32) a x).toNat < S128x200.size a := fun v1964 v2052 k0_hw278 => k0_hw278

def k0_chk279 (v2056 : IVec S16 32) : Prop :=
  (∀ a x, ((![v2056] : Fin 1 → IVec S16 32) a x).toNat < S272.size a)
instance k0_chk279.dec : ∀ (v2056 : IVec S16 32), Decidable (k0_chk279 v2056) := fun v2056 => decidable_of_iff' _ (Iff.of_eq (k0_chk279.eq_1 v2056))
theorem k0_idx279_inb : ∀ (v2056 : IVec S16 32) (k0_hw279 : k0_chk279 v2056), ∀ a x, ((![v2056] : Fin 1 → IVec S16 32) a x).toNat < S272.size a := fun v2056 k0_hw279 => k0_hw279
def k0_off25 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c208_i32_699 : BitVec 32 := 208#32
  let v2060 : BitVec 32 := Scalar.addi v648 c208_i32_699
  let v2061 : Index := Scalar.indexCast v2060
  ![v2061.toNat]

def k0_chk280 (v2065 : IVec S16 32) (v2067 : IVec S16 32) : Prop :=
  (∀ a x, ((![v2065, v2067] : Fin 2 → IVec S16 32) a x).toNat < S128x200.size a)
instance k0_chk280.dec : ∀ (v2065 : IVec S16 32) (v2067 : IVec S16 32), Decidable (k0_chk280 v2065 v2067) := fun v2065 v2067 => decidable_of_iff' _ (Iff.of_eq (k0_chk280.eq_1 v2065 v2067))
theorem k0_idx280_inb : ∀ (v2065 : IVec S16 32) (v2067 : IVec S16 32) (k0_hw280 : k0_chk280 v2065 v2067), ∀ a x, ((![v2065, v2067] : Fin 2 → IVec S16 32) a x).toNat < S128x200.size a := fun v2065 v2067 k0_hw280 => k0_hw280

def k0_chk281 (v2065 : IVec S16 32) (v2072 : IVec S16 32) : Prop :=
  (∀ a x, ((![v2065, v2072] : Fin 2 → IVec S16 32) a x).toNat < S128x200.size a)
instance k0_chk281.dec : ∀ (v2065 : IVec S16 32) (v2072 : IVec S16 32), Decidable (k0_chk281 v2065 v2072) := fun v2065 v2072 => decidable_of_iff' _ (Iff.of_eq (k0_chk281.eq_1 v2065 v2072))
theorem k0_idx281_inb : ∀ (v2065 : IVec S16 32) (v2072 : IVec S16 32) (k0_hw281 : k0_chk281 v2065 v2072), ∀ a x, ((![v2065, v2072] : Fin 2 → IVec S16 32) a x).toNat < S128x200.size a := fun v2065 v2072 k0_hw281 => k0_hw281

def k0_chk282 (v2065 : IVec S16 32) (v2077 : IVec S16 32) : Prop :=
  (∀ a x, ((![v2065, v2077] : Fin 2 → IVec S16 32) a x).toNat < S128x200.size a)
instance k0_chk282.dec : ∀ (v2065 : IVec S16 32) (v2077 : IVec S16 32), Decidable (k0_chk282 v2065 v2077) := fun v2065 v2077 => decidable_of_iff' _ (Iff.of_eq (k0_chk282.eq_1 v2065 v2077))
theorem k0_idx282_inb : ∀ (v2065 : IVec S16 32) (v2077 : IVec S16 32) (k0_hw282 : k0_chk282 v2065 v2077), ∀ a x, ((![v2065, v2077] : Fin 2 → IVec S16 32) a x).toNat < S128x200.size a := fun v2065 v2077 k0_hw282 => k0_hw282

def k0_chk283 (v2065 : IVec S16 32) (v2082 : IVec S16 32) : Prop :=
  (∀ a x, ((![v2065, v2082] : Fin 2 → IVec S16 32) a x).toNat < S128x200.size a)
instance k0_chk283.dec : ∀ (v2065 : IVec S16 32) (v2082 : IVec S16 32), Decidable (k0_chk283 v2065 v2082) := fun v2065 v2082 => decidable_of_iff' _ (Iff.of_eq (k0_chk283.eq_1 v2065 v2082))
theorem k0_idx283_inb : ∀ (v2065 : IVec S16 32) (v2082 : IVec S16 32) (k0_hw283 : k0_chk283 v2065 v2082), ∀ a x, ((![v2065, v2082] : Fin 2 → IVec S16 32) a x).toNat < S128x200.size a := fun v2065 v2082 k0_hw283 => k0_hw283

def k0_chk284 (v2092 : IVec S16 32) : Prop :=
  (∀ a x, ((![v2092] : Fin 1 → IVec S16 32) a x).toNat < S4096.size a)
instance k0_chk284.dec : ∀ (v2092 : IVec S16 32), Decidable (k0_chk284 v2092) := fun v2092 => decidable_of_iff' _ (Iff.of_eq (k0_chk284.eq_1 v2092))
theorem k0_idx284_inb : ∀ (v2092 : IVec S16 32) (k0_hw284 : k0_chk284 v2092), ∀ a x, ((![v2092] : Fin 1 → IVec S16 32) a x).toNat < S4096.size a := fun v2092 k0_hw284 => k0_hw284

def k0_chk285 (v2065 : IVec S16 32) (v2095 : IVec S16 32) : Prop :=
  (∀ a x, ((![v2065, v2095] : Fin 2 → IVec S16 32) a x).toNat < S128x200.size a)
instance k0_chk285.dec : ∀ (v2065 : IVec S16 32) (v2095 : IVec S16 32), Decidable (k0_chk285 v2065 v2095) := fun v2065 v2095 => decidable_of_iff' _ (Iff.of_eq (k0_chk285.eq_1 v2065 v2095))
theorem k0_idx285_inb : ∀ (v2065 : IVec S16 32) (v2095 : IVec S16 32) (k0_hw285 : k0_chk285 v2065 v2095), ∀ a x, ((![v2065, v2095] : Fin 2 → IVec S16 32) a x).toNat < S128x200.size a := fun v2065 v2095 k0_hw285 => k0_hw285

def k0_chk286 (v2065 : IVec S16 32) (v2100 : IVec S16 32) : Prop :=
  (∀ a x, ((![v2065, v2100] : Fin 2 → IVec S16 32) a x).toNat < S128x200.size a)
instance k0_chk286.dec : ∀ (v2065 : IVec S16 32) (v2100 : IVec S16 32), Decidable (k0_chk286 v2065 v2100) := fun v2065 v2100 => decidable_of_iff' _ (Iff.of_eq (k0_chk286.eq_1 v2065 v2100))
theorem k0_idx286_inb : ∀ (v2065 : IVec S16 32) (v2100 : IVec S16 32) (k0_hw286 : k0_chk286 v2065 v2100), ∀ a x, ((![v2065, v2100] : Fin 2 → IVec S16 32) a x).toNat < S128x200.size a := fun v2065 v2100 k0_hw286 => k0_hw286

def k0_chk287 (v2065 : IVec S16 32) (v2105 : IVec S16 32) : Prop :=
  (∀ a x, ((![v2065, v2105] : Fin 2 → IVec S16 32) a x).toNat < S128x200.size a)
instance k0_chk287.dec : ∀ (v2065 : IVec S16 32) (v2105 : IVec S16 32), Decidable (k0_chk287 v2065 v2105) := fun v2065 v2105 => decidable_of_iff' _ (Iff.of_eq (k0_chk287.eq_1 v2065 v2105))
theorem k0_idx287_inb : ∀ (v2065 : IVec S16 32) (v2105 : IVec S16 32) (k0_hw287 : k0_chk287 v2065 v2105), ∀ a x, ((![v2065, v2105] : Fin 2 → IVec S16 32) a x).toNat < S128x200.size a := fun v2065 v2105 k0_hw287 => k0_hw287

def k0_chk288 (v2065 : IVec S16 32) (v2110 : IVec S16 32) : Prop :=
  (∀ a x, ((![v2065, v2110] : Fin 2 → IVec S16 32) a x).toNat < S128x200.size a)
instance k0_chk288.dec : ∀ (v2065 : IVec S16 32) (v2110 : IVec S16 32), Decidable (k0_chk288 v2065 v2110) := fun v2065 v2110 => decidable_of_iff' _ (Iff.of_eq (k0_chk288.eq_1 v2065 v2110))
theorem k0_idx288_inb : ∀ (v2065 : IVec S16 32) (v2110 : IVec S16 32) (k0_hw288 : k0_chk288 v2065 v2110), ∀ a x, ((![v2065, v2110] : Fin 2 → IVec S16 32) a x).toNat < S128x200.size a := fun v2065 v2110 k0_hw288 => k0_hw288

def k0_chk289 (v2120 : IVec S16 32) : Prop :=
  (∀ a x, ((![v2120] : Fin 1 → IVec S16 32) a x).toNat < S4096.size a)
instance k0_chk289.dec : ∀ (v2120 : IVec S16 32), Decidable (k0_chk289 v2120) := fun v2120 => decidable_of_iff' _ (Iff.of_eq (k0_chk289.eq_1 v2120))
theorem k0_idx289_inb : ∀ (v2120 : IVec S16 32) (k0_hw289 : k0_chk289 v2120), ∀ a x, ((![v2120] : Fin 1 → IVec S16 32) a x).toNat < S4096.size a := fun v2120 k0_hw289 => k0_hw289

def k0_chk290 (v2065 : IVec S16 32) (v2124 : IVec S16 32) : Prop :=
  (∀ a x, ((![v2065, v2124] : Fin 2 → IVec S16 32) a x).toNat < S128x200.size a)
instance k0_chk290.dec : ∀ (v2065 : IVec S16 32) (v2124 : IVec S16 32), Decidable (k0_chk290 v2065 v2124) := fun v2065 v2124 => decidable_of_iff' _ (Iff.of_eq (k0_chk290.eq_1 v2065 v2124))
theorem k0_idx290_inb : ∀ (v2065 : IVec S16 32) (v2124 : IVec S16 32) (k0_hw290 : k0_chk290 v2065 v2124), ∀ a x, ((![v2065, v2124] : Fin 2 → IVec S16 32) a x).toNat < S128x200.size a := fun v2065 v2124 k0_hw290 => k0_hw290

def k0_chk291 (v2065 : IVec S16 32) (v2129 : IVec S16 32) : Prop :=
  (∀ a x, ((![v2065, v2129] : Fin 2 → IVec S16 32) a x).toNat < S128x200.size a)
instance k0_chk291.dec : ∀ (v2065 : IVec S16 32) (v2129 : IVec S16 32), Decidable (k0_chk291 v2065 v2129) := fun v2065 v2129 => decidable_of_iff' _ (Iff.of_eq (k0_chk291.eq_1 v2065 v2129))
theorem k0_idx291_inb : ∀ (v2065 : IVec S16 32) (v2129 : IVec S16 32) (k0_hw291 : k0_chk291 v2065 v2129), ∀ a x, ((![v2065, v2129] : Fin 2 → IVec S16 32) a x).toNat < S128x200.size a := fun v2065 v2129 k0_hw291 => k0_hw291

def k0_chk292 (v2065 : IVec S16 32) (v2134 : IVec S16 32) : Prop :=
  (∀ a x, ((![v2065, v2134] : Fin 2 → IVec S16 32) a x).toNat < S128x200.size a)
instance k0_chk292.dec : ∀ (v2065 : IVec S16 32) (v2134 : IVec S16 32), Decidable (k0_chk292 v2065 v2134) := fun v2065 v2134 => decidable_of_iff' _ (Iff.of_eq (k0_chk292.eq_1 v2065 v2134))
theorem k0_idx292_inb : ∀ (v2065 : IVec S16 32) (v2134 : IVec S16 32) (k0_hw292 : k0_chk292 v2065 v2134), ∀ a x, ((![v2065, v2134] : Fin 2 → IVec S16 32) a x).toNat < S128x200.size a := fun v2065 v2134 k0_hw292 => k0_hw292

def k0_chk293 (v2065 : IVec S16 32) (v2139 : IVec S16 32) : Prop :=
  (∀ a x, ((![v2065, v2139] : Fin 2 → IVec S16 32) a x).toNat < S128x200.size a)
instance k0_chk293.dec : ∀ (v2065 : IVec S16 32) (v2139 : IVec S16 32), Decidable (k0_chk293 v2065 v2139) := fun v2065 v2139 => decidable_of_iff' _ (Iff.of_eq (k0_chk293.eq_1 v2065 v2139))
theorem k0_idx293_inb : ∀ (v2065 : IVec S16 32) (v2139 : IVec S16 32) (k0_hw293 : k0_chk293 v2065 v2139), ∀ a x, ((![v2065, v2139] : Fin 2 → IVec S16 32) a x).toNat < S128x200.size a := fun v2065 v2139 k0_hw293 => k0_hw293

def k0_chk294 (v2149 : IVec S16 32) : Prop :=
  (∀ a x, ((![v2149] : Fin 1 → IVec S16 32) a x).toNat < S4096.size a)
instance k0_chk294.dec : ∀ (v2149 : IVec S16 32), Decidable (k0_chk294 v2149) := fun v2149 => decidable_of_iff' _ (Iff.of_eq (k0_chk294.eq_1 v2149))
theorem k0_idx294_inb : ∀ (v2149 : IVec S16 32) (k0_hw294 : k0_chk294 v2149), ∀ a x, ((![v2149] : Fin 1 → IVec S16 32) a x).toNat < S4096.size a := fun v2149 k0_hw294 => k0_hw294

def k0_chk295 (v2065 : IVec S16 32) (v2153 : IVec S16 32) : Prop :=
  (∀ a x, ((![v2065, v2153] : Fin 2 → IVec S16 32) a x).toNat < S128x200.size a)
instance k0_chk295.dec : ∀ (v2065 : IVec S16 32) (v2153 : IVec S16 32), Decidable (k0_chk295 v2065 v2153) := fun v2065 v2153 => decidable_of_iff' _ (Iff.of_eq (k0_chk295.eq_1 v2065 v2153))
theorem k0_idx295_inb : ∀ (v2065 : IVec S16 32) (v2153 : IVec S16 32) (k0_hw295 : k0_chk295 v2065 v2153), ∀ a x, ((![v2065, v2153] : Fin 2 → IVec S16 32) a x).toNat < S128x200.size a := fun v2065 v2153 k0_hw295 => k0_hw295

def k0_chk296 (v2157 : IVec S16 32) : Prop :=
  (∀ a x, ((![v2157] : Fin 1 → IVec S16 32) a x).toNat < S272.size a)
instance k0_chk296.dec : ∀ (v2157 : IVec S16 32), Decidable (k0_chk296 v2157) := fun v2157 => decidable_of_iff' _ (Iff.of_eq (k0_chk296.eq_1 v2157))
theorem k0_idx296_inb : ∀ (v2157 : IVec S16 32) (k0_hw296 : k0_chk296 v2157), ∀ a x, ((![v2157] : Fin 1 → IVec S16 32) a x).toNat < S272.size a := fun v2157 k0_hw296 => k0_hw296
def k0_off26 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c224_i32_733 : BitVec 32 := 224#32
  let v2161 : BitVec 32 := Scalar.addi v648 c224_i32_733
  let v2162 : Index := Scalar.indexCast v2161
  ![v2162.toNat]

def k0_chk297 (v2166 : IVec S16 32) (v2168 : IVec S16 32) : Prop :=
  (∀ a x, ((![v2166, v2168] : Fin 2 → IVec S16 32) a x).toNat < S128x200.size a)
instance k0_chk297.dec : ∀ (v2166 : IVec S16 32) (v2168 : IVec S16 32), Decidable (k0_chk297 v2166 v2168) := fun v2166 v2168 => decidable_of_iff' _ (Iff.of_eq (k0_chk297.eq_1 v2166 v2168))
theorem k0_idx297_inb : ∀ (v2166 : IVec S16 32) (v2168 : IVec S16 32) (k0_hw297 : k0_chk297 v2166 v2168), ∀ a x, ((![v2166, v2168] : Fin 2 → IVec S16 32) a x).toNat < S128x200.size a := fun v2166 v2168 k0_hw297 => k0_hw297

def k0_chk298 (v2166 : IVec S16 32) (v2173 : IVec S16 32) : Prop :=
  (∀ a x, ((![v2166, v2173] : Fin 2 → IVec S16 32) a x).toNat < S128x200.size a)
instance k0_chk298.dec : ∀ (v2166 : IVec S16 32) (v2173 : IVec S16 32), Decidable (k0_chk298 v2166 v2173) := fun v2166 v2173 => decidable_of_iff' _ (Iff.of_eq (k0_chk298.eq_1 v2166 v2173))
theorem k0_idx298_inb : ∀ (v2166 : IVec S16 32) (v2173 : IVec S16 32) (k0_hw298 : k0_chk298 v2166 v2173), ∀ a x, ((![v2166, v2173] : Fin 2 → IVec S16 32) a x).toNat < S128x200.size a := fun v2166 v2173 k0_hw298 => k0_hw298

def k0_chk299 (v2166 : IVec S16 32) (v2178 : IVec S16 32) : Prop :=
  (∀ a x, ((![v2166, v2178] : Fin 2 → IVec S16 32) a x).toNat < S128x200.size a)
instance k0_chk299.dec : ∀ (v2166 : IVec S16 32) (v2178 : IVec S16 32), Decidable (k0_chk299 v2166 v2178) := fun v2166 v2178 => decidable_of_iff' _ (Iff.of_eq (k0_chk299.eq_1 v2166 v2178))
theorem k0_idx299_inb : ∀ (v2166 : IVec S16 32) (v2178 : IVec S16 32) (k0_hw299 : k0_chk299 v2166 v2178), ∀ a x, ((![v2166, v2178] : Fin 2 → IVec S16 32) a x).toNat < S128x200.size a := fun v2166 v2178 k0_hw299 => k0_hw299

def k0_chk300 (v2166 : IVec S16 32) (v2183 : IVec S16 32) : Prop :=
  (∀ a x, ((![v2166, v2183] : Fin 2 → IVec S16 32) a x).toNat < S128x200.size a)
instance k0_chk300.dec : ∀ (v2166 : IVec S16 32) (v2183 : IVec S16 32), Decidable (k0_chk300 v2166 v2183) := fun v2166 v2183 => decidable_of_iff' _ (Iff.of_eq (k0_chk300.eq_1 v2166 v2183))
theorem k0_idx300_inb : ∀ (v2166 : IVec S16 32) (v2183 : IVec S16 32) (k0_hw300 : k0_chk300 v2166 v2183), ∀ a x, ((![v2166, v2183] : Fin 2 → IVec S16 32) a x).toNat < S128x200.size a := fun v2166 v2183 k0_hw300 => k0_hw300

def k0_chk301 (v2193 : IVec S16 32) : Prop :=
  (∀ a x, ((![v2193] : Fin 1 → IVec S16 32) a x).toNat < S4096.size a)
instance k0_chk301.dec : ∀ (v2193 : IVec S16 32), Decidable (k0_chk301 v2193) := fun v2193 => decidable_of_iff' _ (Iff.of_eq (k0_chk301.eq_1 v2193))
theorem k0_idx301_inb : ∀ (v2193 : IVec S16 32) (k0_hw301 : k0_chk301 v2193), ∀ a x, ((![v2193] : Fin 1 → IVec S16 32) a x).toNat < S4096.size a := fun v2193 k0_hw301 => k0_hw301

def k0_chk302 (v2166 : IVec S16 32) (v2196 : IVec S16 32) : Prop :=
  (∀ a x, ((![v2166, v2196] : Fin 2 → IVec S16 32) a x).toNat < S128x200.size a)
instance k0_chk302.dec : ∀ (v2166 : IVec S16 32) (v2196 : IVec S16 32), Decidable (k0_chk302 v2166 v2196) := fun v2166 v2196 => decidable_of_iff' _ (Iff.of_eq (k0_chk302.eq_1 v2166 v2196))
theorem k0_idx302_inb : ∀ (v2166 : IVec S16 32) (v2196 : IVec S16 32) (k0_hw302 : k0_chk302 v2166 v2196), ∀ a x, ((![v2166, v2196] : Fin 2 → IVec S16 32) a x).toNat < S128x200.size a := fun v2166 v2196 k0_hw302 => k0_hw302

def k0_chk303 (v2166 : IVec S16 32) (v2201 : IVec S16 32) : Prop :=
  (∀ a x, ((![v2166, v2201] : Fin 2 → IVec S16 32) a x).toNat < S128x200.size a)
instance k0_chk303.dec : ∀ (v2166 : IVec S16 32) (v2201 : IVec S16 32), Decidable (k0_chk303 v2166 v2201) := fun v2166 v2201 => decidable_of_iff' _ (Iff.of_eq (k0_chk303.eq_1 v2166 v2201))
theorem k0_idx303_inb : ∀ (v2166 : IVec S16 32) (v2201 : IVec S16 32) (k0_hw303 : k0_chk303 v2166 v2201), ∀ a x, ((![v2166, v2201] : Fin 2 → IVec S16 32) a x).toNat < S128x200.size a := fun v2166 v2201 k0_hw303 => k0_hw303

def k0_chk304 (v2166 : IVec S16 32) (v2206 : IVec S16 32) : Prop :=
  (∀ a x, ((![v2166, v2206] : Fin 2 → IVec S16 32) a x).toNat < S128x200.size a)
instance k0_chk304.dec : ∀ (v2166 : IVec S16 32) (v2206 : IVec S16 32), Decidable (k0_chk304 v2166 v2206) := fun v2166 v2206 => decidable_of_iff' _ (Iff.of_eq (k0_chk304.eq_1 v2166 v2206))
theorem k0_idx304_inb : ∀ (v2166 : IVec S16 32) (v2206 : IVec S16 32) (k0_hw304 : k0_chk304 v2166 v2206), ∀ a x, ((![v2166, v2206] : Fin 2 → IVec S16 32) a x).toNat < S128x200.size a := fun v2166 v2206 k0_hw304 => k0_hw304

def k0_chk305 (v2166 : IVec S16 32) (v2211 : IVec S16 32) : Prop :=
  (∀ a x, ((![v2166, v2211] : Fin 2 → IVec S16 32) a x).toNat < S128x200.size a)
instance k0_chk305.dec : ∀ (v2166 : IVec S16 32) (v2211 : IVec S16 32), Decidable (k0_chk305 v2166 v2211) := fun v2166 v2211 => decidable_of_iff' _ (Iff.of_eq (k0_chk305.eq_1 v2166 v2211))
theorem k0_idx305_inb : ∀ (v2166 : IVec S16 32) (v2211 : IVec S16 32) (k0_hw305 : k0_chk305 v2166 v2211), ∀ a x, ((![v2166, v2211] : Fin 2 → IVec S16 32) a x).toNat < S128x200.size a := fun v2166 v2211 k0_hw305 => k0_hw305

def k0_chk306 (v2221 : IVec S16 32) : Prop :=
  (∀ a x, ((![v2221] : Fin 1 → IVec S16 32) a x).toNat < S4096.size a)
instance k0_chk306.dec : ∀ (v2221 : IVec S16 32), Decidable (k0_chk306 v2221) := fun v2221 => decidable_of_iff' _ (Iff.of_eq (k0_chk306.eq_1 v2221))
theorem k0_idx306_inb : ∀ (v2221 : IVec S16 32) (k0_hw306 : k0_chk306 v2221), ∀ a x, ((![v2221] : Fin 1 → IVec S16 32) a x).toNat < S4096.size a := fun v2221 k0_hw306 => k0_hw306

def k0_chk307 (v2166 : IVec S16 32) (v2225 : IVec S16 32) : Prop :=
  (∀ a x, ((![v2166, v2225] : Fin 2 → IVec S16 32) a x).toNat < S128x200.size a)
instance k0_chk307.dec : ∀ (v2166 : IVec S16 32) (v2225 : IVec S16 32), Decidable (k0_chk307 v2166 v2225) := fun v2166 v2225 => decidable_of_iff' _ (Iff.of_eq (k0_chk307.eq_1 v2166 v2225))
theorem k0_idx307_inb : ∀ (v2166 : IVec S16 32) (v2225 : IVec S16 32) (k0_hw307 : k0_chk307 v2166 v2225), ∀ a x, ((![v2166, v2225] : Fin 2 → IVec S16 32) a x).toNat < S128x200.size a := fun v2166 v2225 k0_hw307 => k0_hw307

def k0_chk308 (v2166 : IVec S16 32) (v2230 : IVec S16 32) : Prop :=
  (∀ a x, ((![v2166, v2230] : Fin 2 → IVec S16 32) a x).toNat < S128x200.size a)
instance k0_chk308.dec : ∀ (v2166 : IVec S16 32) (v2230 : IVec S16 32), Decidable (k0_chk308 v2166 v2230) := fun v2166 v2230 => decidable_of_iff' _ (Iff.of_eq (k0_chk308.eq_1 v2166 v2230))
theorem k0_idx308_inb : ∀ (v2166 : IVec S16 32) (v2230 : IVec S16 32) (k0_hw308 : k0_chk308 v2166 v2230), ∀ a x, ((![v2166, v2230] : Fin 2 → IVec S16 32) a x).toNat < S128x200.size a := fun v2166 v2230 k0_hw308 => k0_hw308

def k0_chk309 (v2166 : IVec S16 32) (v2235 : IVec S16 32) : Prop :=
  (∀ a x, ((![v2166, v2235] : Fin 2 → IVec S16 32) a x).toNat < S128x200.size a)
instance k0_chk309.dec : ∀ (v2166 : IVec S16 32) (v2235 : IVec S16 32), Decidable (k0_chk309 v2166 v2235) := fun v2166 v2235 => decidable_of_iff' _ (Iff.of_eq (k0_chk309.eq_1 v2166 v2235))
theorem k0_idx309_inb : ∀ (v2166 : IVec S16 32) (v2235 : IVec S16 32) (k0_hw309 : k0_chk309 v2166 v2235), ∀ a x, ((![v2166, v2235] : Fin 2 → IVec S16 32) a x).toNat < S128x200.size a := fun v2166 v2235 k0_hw309 => k0_hw309

def k0_chk310 (v2166 : IVec S16 32) (v2240 : IVec S16 32) : Prop :=
  (∀ a x, ((![v2166, v2240] : Fin 2 → IVec S16 32) a x).toNat < S128x200.size a)
instance k0_chk310.dec : ∀ (v2166 : IVec S16 32) (v2240 : IVec S16 32), Decidable (k0_chk310 v2166 v2240) := fun v2166 v2240 => decidable_of_iff' _ (Iff.of_eq (k0_chk310.eq_1 v2166 v2240))
theorem k0_idx310_inb : ∀ (v2166 : IVec S16 32) (v2240 : IVec S16 32) (k0_hw310 : k0_chk310 v2166 v2240), ∀ a x, ((![v2166, v2240] : Fin 2 → IVec S16 32) a x).toNat < S128x200.size a := fun v2166 v2240 k0_hw310 => k0_hw310

def k0_chk311 (v2250 : IVec S16 32) : Prop :=
  (∀ a x, ((![v2250] : Fin 1 → IVec S16 32) a x).toNat < S4096.size a)
instance k0_chk311.dec : ∀ (v2250 : IVec S16 32), Decidable (k0_chk311 v2250) := fun v2250 => decidable_of_iff' _ (Iff.of_eq (k0_chk311.eq_1 v2250))
theorem k0_idx311_inb : ∀ (v2250 : IVec S16 32) (k0_hw311 : k0_chk311 v2250), ∀ a x, ((![v2250] : Fin 1 → IVec S16 32) a x).toNat < S4096.size a := fun v2250 k0_hw311 => k0_hw311

def k0_chk312 (v2166 : IVec S16 32) (v2254 : IVec S16 32) : Prop :=
  (∀ a x, ((![v2166, v2254] : Fin 2 → IVec S16 32) a x).toNat < S128x200.size a)
instance k0_chk312.dec : ∀ (v2166 : IVec S16 32) (v2254 : IVec S16 32), Decidable (k0_chk312 v2166 v2254) := fun v2166 v2254 => decidable_of_iff' _ (Iff.of_eq (k0_chk312.eq_1 v2166 v2254))
theorem k0_idx312_inb : ∀ (v2166 : IVec S16 32) (v2254 : IVec S16 32) (k0_hw312 : k0_chk312 v2166 v2254), ∀ a x, ((![v2166, v2254] : Fin 2 → IVec S16 32) a x).toNat < S128x200.size a := fun v2166 v2254 k0_hw312 => k0_hw312

def k0_chk313 (v2258 : IVec S16 32) : Prop :=
  (∀ a x, ((![v2258] : Fin 1 → IVec S16 32) a x).toNat < S272.size a)
instance k0_chk313.dec : ∀ (v2258 : IVec S16 32), Decidable (k0_chk313 v2258) := fun v2258 => decidable_of_iff' _ (Iff.of_eq (k0_chk313.eq_1 v2258))
theorem k0_idx313_inb : ∀ (v2258 : IVec S16 32) (k0_hw313 : k0_chk313 v2258), ∀ a x, ((![v2258] : Fin 1 → IVec S16 32) a x).toNat < S272.size a := fun v2258 k0_hw313 => k0_hw313
def k0_off27 (k0_t2 : Fin k0_t2_loop.trips) : Fin 1 → Nat :=
  let c0_i32_185 : BitVec 32 := 0#32
  let c1_i32_187 : BitVec 32 := 1#32
  let arg17 : BitVec 32 := Scf.iv c0_i32_185 c1_i32_187 k0_t2
  let c1_i32_217 : BitVec 32 := 1#32
  let v647 : BitVec 32 := Scalar.andi arg17 c1_i32_217
  let c256_i32_218 : BitVec 32 := 256#32
  let v648 : BitVec 32 := Scalar.muli v647 c256_i32_218
  let c240_i32_767 : BitVec 32 := 240#32
  let v2262 : BitVec 32 := Scalar.addi v648 c240_i32_767
  let v2263 : Index := Scalar.indexCast v2262
  ![v2263.toNat]
def k0_off28 (k0_t2 : Fin k0_t2_loop.trips) : Fin 1 → Nat :=
  let c0_i32_216 : BitVec 32 := 0#32
  let c0_i32_185 : BitVec 32 := 0#32
  let c1_i32_187 : BitVec 32 := 1#32
  let arg17 : BitVec 32 := Scf.iv c0_i32_185 c1_i32_187 k0_t2
  let c16_i32_215 : BitVec 32 := 16#32
  let v645 : BitVec 32 := Scalar.muli arg17 c16_i32_215
  let v646 : BitVec 32 := Scalar.addi c0_i32_216 v645
  let v2265 : Index := Scalar.indexCast v646
  ![v2265.toNat]

def k0_chk314 (v2273 : IVec S16 32) : Prop :=
  (∀ a x, ((![v2273] : Fin 1 → IVec S16 32) a x).toNat < S512.size a)
instance k0_chk314.dec : ∀ (v2273 : IVec S16 32), Decidable (k0_chk314 v2273) := fun v2273 => decidable_of_iff' _ (Iff.of_eq (k0_chk314.eq_1 v2273))
theorem k0_idx314_inb : ∀ (v2273 : IVec S16 32) (k0_hw314 : k0_chk314 v2273), ∀ a x, ((![v2273] : Fin 1 → IVec S16 32) a x).toNat < S512.size a := fun v2273 k0_hw314 => k0_hw314

def k0_chk315 (v2282 : IVec S16 32) : Prop :=
  (∀ a x, ((![v2282] : Fin 1 → IVec S16 32) a x).toNat < S512.size a)
instance k0_chk315.dec : ∀ (v2282 : IVec S16 32), Decidable (k0_chk315 v2282) := fun v2282 => decidable_of_iff' _ (Iff.of_eq (k0_chk315.eq_1 v2282))
theorem k0_idx315_inb : ∀ (v2282 : IVec S16 32) (k0_hw315 : k0_chk315 v2282), ∀ a x, ((![v2282] : Fin 1 → IVec S16 32) a x).toNat < S512.size a := fun v2282 k0_hw315 => k0_hw315

def k0_chk316 (v2291 : IVec S16 32) : Prop :=
  (∀ a x, ((![v2291] : Fin 1 → IVec S16 32) a x).toNat < S512.size a)
instance k0_chk316.dec : ∀ (v2291 : IVec S16 32), Decidable (k0_chk316 v2291) := fun v2291 => decidable_of_iff' _ (Iff.of_eq (k0_chk316.eq_1 v2291))
theorem k0_idx316_inb : ∀ (v2291 : IVec S16 32) (k0_hw316 : k0_chk316 v2291), ∀ a x, ((![v2291] : Fin 1 → IVec S16 32) a x).toNat < S512.size a := fun v2291 k0_hw316 => k0_hw316

def k0_chk317 (v2300 : IVec S16 32) : Prop :=
  (∀ a x, ((![v2300] : Fin 1 → IVec S16 32) a x).toNat < S512.size a)
instance k0_chk317.dec : ∀ (v2300 : IVec S16 32), Decidable (k0_chk317 v2300) := fun v2300 => decidable_of_iff' _ (Iff.of_eq (k0_chk317.eq_1 v2300))
theorem k0_idx317_inb : ∀ (v2300 : IVec S16 32) (k0_hw317 : k0_chk317 v2300), ∀ a x, ((![v2300] : Fin 1 → IVec S16 32) a x).toNat < S512.size a := fun v2300 k0_hw317 => k0_hw317

def k0_chk318 (v2309 : IVec S16 32) : Prop :=
  (∀ a x, ((![v2309] : Fin 1 → IVec S16 32) a x).toNat < S512.size a)
instance k0_chk318.dec : ∀ (v2309 : IVec S16 32), Decidable (k0_chk318 v2309) := fun v2309 => decidable_of_iff' _ (Iff.of_eq (k0_chk318.eq_1 v2309))
theorem k0_idx318_inb : ∀ (v2309 : IVec S16 32) (k0_hw318 : k0_chk318 v2309), ∀ a x, ((![v2309] : Fin 1 → IVec S16 32) a x).toNat < S512.size a := fun v2309 k0_hw318 => k0_hw318

def k0_chk319 (v2318 : IVec S16 32) : Prop :=
  (∀ a x, ((![v2318] : Fin 1 → IVec S16 32) a x).toNat < S512.size a)
instance k0_chk319.dec : ∀ (v2318 : IVec S16 32), Decidable (k0_chk319 v2318) := fun v2318 => decidable_of_iff' _ (Iff.of_eq (k0_chk319.eq_1 v2318))
theorem k0_idx319_inb : ∀ (v2318 : IVec S16 32) (k0_hw319 : k0_chk319 v2318), ∀ a x, ((![v2318] : Fin 1 → IVec S16 32) a x).toNat < S512.size a := fun v2318 k0_hw319 => k0_hw319

def k0_chk320 (v2327 : IVec S16 32) : Prop :=
  (∀ a x, ((![v2327] : Fin 1 → IVec S16 32) a x).toNat < S512.size a)
instance k0_chk320.dec : ∀ (v2327 : IVec S16 32), Decidable (k0_chk320 v2327) := fun v2327 => decidable_of_iff' _ (Iff.of_eq (k0_chk320.eq_1 v2327))
theorem k0_idx320_inb : ∀ (v2327 : IVec S16 32) (k0_hw320 : k0_chk320 v2327), ∀ a x, ((![v2327] : Fin 1 → IVec S16 32) a x).toNat < S512.size a := fun v2327 k0_hw320 => k0_hw320

def k0_chk321 (v2336 : IVec S16 32) : Prop :=
  (∀ a x, ((![v2336] : Fin 1 → IVec S16 32) a x).toNat < S512.size a)
instance k0_chk321.dec : ∀ (v2336 : IVec S16 32), Decidable (k0_chk321 v2336) := fun v2336 => decidable_of_iff' _ (Iff.of_eq (k0_chk321.eq_1 v2336))
theorem k0_idx321_inb : ∀ (v2336 : IVec S16 32) (k0_hw321 : k0_chk321 v2336), ∀ a x, ((![v2336] : Fin 1 → IVec S16 32) a x).toNat < S512.size a := fun v2336 k0_hw321 => k0_hw321

def k0_chk322 (v2345 : IVec S16 32) : Prop :=
  (∀ a x, ((![v2345] : Fin 1 → IVec S16 32) a x).toNat < S512.size a)
instance k0_chk322.dec : ∀ (v2345 : IVec S16 32), Decidable (k0_chk322 v2345) := fun v2345 => decidable_of_iff' _ (Iff.of_eq (k0_chk322.eq_1 v2345))
theorem k0_idx322_inb : ∀ (v2345 : IVec S16 32) (k0_hw322 : k0_chk322 v2345), ∀ a x, ((![v2345] : Fin 1 → IVec S16 32) a x).toNat < S512.size a := fun v2345 k0_hw322 => k0_hw322

def k0_chk323 (v2354 : IVec S16 32) : Prop :=
  (∀ a x, ((![v2354] : Fin 1 → IVec S16 32) a x).toNat < S512.size a)
instance k0_chk323.dec : ∀ (v2354 : IVec S16 32), Decidable (k0_chk323 v2354) := fun v2354 => decidable_of_iff' _ (Iff.of_eq (k0_chk323.eq_1 v2354))
theorem k0_idx323_inb : ∀ (v2354 : IVec S16 32) (k0_hw323 : k0_chk323 v2354), ∀ a x, ((![v2354] : Fin 1 → IVec S16 32) a x).toNat < S512.size a := fun v2354 k0_hw323 => k0_hw323

def k0_chk324 (v2363 : IVec S16 32) : Prop :=
  (∀ a x, ((![v2363] : Fin 1 → IVec S16 32) a x).toNat < S512.size a)
instance k0_chk324.dec : ∀ (v2363 : IVec S16 32), Decidable (k0_chk324 v2363) := fun v2363 => decidable_of_iff' _ (Iff.of_eq (k0_chk324.eq_1 v2363))
theorem k0_idx324_inb : ∀ (v2363 : IVec S16 32) (k0_hw324 : k0_chk324 v2363), ∀ a x, ((![v2363] : Fin 1 → IVec S16 32) a x).toNat < S512.size a := fun v2363 k0_hw324 => k0_hw324

def k0_chk325 (v2372 : IVec S16 32) : Prop :=
  (∀ a x, ((![v2372] : Fin 1 → IVec S16 32) a x).toNat < S512.size a)
instance k0_chk325.dec : ∀ (v2372 : IVec S16 32), Decidable (k0_chk325 v2372) := fun v2372 => decidable_of_iff' _ (Iff.of_eq (k0_chk325.eq_1 v2372))
theorem k0_idx325_inb : ∀ (v2372 : IVec S16 32) (k0_hw325 : k0_chk325 v2372), ∀ a x, ((![v2372] : Fin 1 → IVec S16 32) a x).toNat < S512.size a := fun v2372 k0_hw325 => k0_hw325

def k0_chk326 (v2381 : IVec S16 32) : Prop :=
  (∀ a x, ((![v2381] : Fin 1 → IVec S16 32) a x).toNat < S512.size a)
instance k0_chk326.dec : ∀ (v2381 : IVec S16 32), Decidable (k0_chk326 v2381) := fun v2381 => decidable_of_iff' _ (Iff.of_eq (k0_chk326.eq_1 v2381))
theorem k0_idx326_inb : ∀ (v2381 : IVec S16 32) (k0_hw326 : k0_chk326 v2381), ∀ a x, ((![v2381] : Fin 1 → IVec S16 32) a x).toNat < S512.size a := fun v2381 k0_hw326 => k0_hw326

def k0_chk327 (v2390 : IVec S16 32) : Prop :=
  (∀ a x, ((![v2390] : Fin 1 → IVec S16 32) a x).toNat < S512.size a)
instance k0_chk327.dec : ∀ (v2390 : IVec S16 32), Decidable (k0_chk327 v2390) := fun v2390 => decidable_of_iff' _ (Iff.of_eq (k0_chk327.eq_1 v2390))
theorem k0_idx327_inb : ∀ (v2390 : IVec S16 32) (k0_hw327 : k0_chk327 v2390), ∀ a x, ((![v2390] : Fin 1 → IVec S16 32) a x).toNat < S512.size a := fun v2390 k0_hw327 => k0_hw327

def k0_chk328 (v2399 : IVec S16 32) : Prop :=
  (∀ a x, ((![v2399] : Fin 1 → IVec S16 32) a x).toNat < S512.size a)
instance k0_chk328.dec : ∀ (v2399 : IVec S16 32), Decidable (k0_chk328 v2399) := fun v2399 => decidable_of_iff' _ (Iff.of_eq (k0_chk328.eq_1 v2399))
theorem k0_idx328_inb : ∀ (v2399 : IVec S16 32) (k0_hw328 : k0_chk328 v2399), ∀ a x, ((![v2399] : Fin 1 → IVec S16 32) a x).toNat < S512.size a := fun v2399 k0_hw328 => k0_hw328

def k0_chk329 (v2408 : IVec S16 32) : Prop :=
  (∀ a x, ((![v2408] : Fin 1 → IVec S16 32) a x).toNat < S512.size a)
instance k0_chk329.dec : ∀ (v2408 : IVec S16 32), Decidable (k0_chk329 v2408) := fun v2408 => decidable_of_iff' _ (Iff.of_eq (k0_chk329.eq_1 v2408))
theorem k0_idx329_inb : ∀ (v2408 : IVec S16 32) (k0_hw329 : k0_chk329 v2408), ∀ a x, ((![v2408] : Fin 1 → IVec S16 32) a x).toNat < S512.size a := fun v2408 k0_hw329 => k0_hw329
def k0_off29 (k0_t2 : Fin k0_t2_loop.trips) : Fin 1 → Nat :=
  let c0_i32_216 : BitVec 32 := 0#32
  let c0_i32_185 : BitVec 32 := 0#32
  let c1_i32_187 : BitVec 32 := 1#32
  let arg17 : BitVec 32 := Scf.iv c0_i32_185 c1_i32_187 k0_t2
  let c16_i32_215 : BitVec 32 := 16#32
  let v645 : BitVec 32 := Scalar.muli arg17 c16_i32_215
  let v646 : BitVec 32 := Scalar.addi c0_i32_216 v645
  let v2412 : Index := Scalar.indexCast v646
  ![v2412.toNat]
@[reducible] def k0_t3_loop : Scf.Loop 32 :=
  let c0_i32_195 : BitVec 32 := 0#32
  let c8_i32_196 : BitVec 32 := 8#32
  let v635 : BitVec 32 := Scalar.addi c0_i32_195 c8_i32_196
  let c1_i32_197 : BitVec 32 := 1#32
  ⟨c0_i32_195, v635, c1_i32_197⟩

def k0_chk330 (v651 : IVec S16 32) (v653 : IVec S16 32) : Prop :=
  (∀ a x, ((![v651, v653] : Fin 2 → IVec S16 32) a x).toNat < S128x200.size a)
instance k0_chk330.dec : ∀ (v651 : IVec S16 32) (v653 : IVec S16 32), Decidable (k0_chk330 v651 v653) := fun v651 v653 => decidable_of_iff' _ (Iff.of_eq (k0_chk330.eq_1 v651 v653))
theorem k0_idx330_inb : ∀ (v651 : IVec S16 32) (v653 : IVec S16 32) (k0_hw330 : k0_chk330 v651 v653), ∀ a x, ((![v651, v653] : Fin 2 → IVec S16 32) a x).toNat < S128x200.size a := fun v651 v653 k0_hw330 => k0_hw330

def k0_chk331 (v651 : IVec S16 32) (v658 : IVec S16 32) : Prop :=
  (∀ a x, ((![v651, v658] : Fin 2 → IVec S16 32) a x).toNat < S128x200.size a)
instance k0_chk331.dec : ∀ (v651 : IVec S16 32) (v658 : IVec S16 32), Decidable (k0_chk331 v651 v658) := fun v651 v658 => decidable_of_iff' _ (Iff.of_eq (k0_chk331.eq_1 v651 v658))
theorem k0_idx331_inb : ∀ (v651 : IVec S16 32) (v658 : IVec S16 32) (k0_hw331 : k0_chk331 v651 v658), ∀ a x, ((![v651, v658] : Fin 2 → IVec S16 32) a x).toNat < S128x200.size a := fun v651 v658 k0_hw331 => k0_hw331

def k0_chk332 (v651 : IVec S16 32) (v663 : IVec S16 32) : Prop :=
  (∀ a x, ((![v651, v663] : Fin 2 → IVec S16 32) a x).toNat < S128x200.size a)
instance k0_chk332.dec : ∀ (v651 : IVec S16 32) (v663 : IVec S16 32), Decidable (k0_chk332 v651 v663) := fun v651 v663 => decidable_of_iff' _ (Iff.of_eq (k0_chk332.eq_1 v651 v663))
theorem k0_idx332_inb : ∀ (v651 : IVec S16 32) (v663 : IVec S16 32) (k0_hw332 : k0_chk332 v651 v663), ∀ a x, ((![v651, v663] : Fin 2 → IVec S16 32) a x).toNat < S128x200.size a := fun v651 v663 k0_hw332 => k0_hw332

def k0_chk333 (v651 : IVec S16 32) (v668 : IVec S16 32) : Prop :=
  (∀ a x, ((![v651, v668] : Fin 2 → IVec S16 32) a x).toNat < S128x200.size a)
instance k0_chk333.dec : ∀ (v651 : IVec S16 32) (v668 : IVec S16 32), Decidable (k0_chk333 v651 v668) := fun v651 v668 => decidable_of_iff' _ (Iff.of_eq (k0_chk333.eq_1 v651 v668))
theorem k0_idx333_inb : ∀ (v651 : IVec S16 32) (v668 : IVec S16 32) (k0_hw333 : k0_chk333 v651 v668), ∀ a x, ((![v651, v668] : Fin 2 → IVec S16 32) a x).toNat < S128x200.size a := fun v651 v668 k0_hw333 => k0_hw333

def k0_chk334 (v678 : IVec S16 32) : Prop :=
  (∀ a x, ((![v678] : Fin 1 → IVec S16 32) a x).toNat < S4096.size a)
instance k0_chk334.dec : ∀ (v678 : IVec S16 32), Decidable (k0_chk334 v678) := fun v678 => decidable_of_iff' _ (Iff.of_eq (k0_chk334.eq_1 v678))
theorem k0_idx334_inb : ∀ (v678 : IVec S16 32) (k0_hw334 : k0_chk334 v678), ∀ a x, ((![v678] : Fin 1 → IVec S16 32) a x).toNat < S4096.size a := fun v678 k0_hw334 => k0_hw334

def k0_chk335 (v651 : IVec S16 32) (v681 : IVec S16 32) : Prop :=
  (∀ a x, ((![v651, v681] : Fin 2 → IVec S16 32) a x).toNat < S128x200.size a)
instance k0_chk335.dec : ∀ (v651 : IVec S16 32) (v681 : IVec S16 32), Decidable (k0_chk335 v651 v681) := fun v651 v681 => decidable_of_iff' _ (Iff.of_eq (k0_chk335.eq_1 v651 v681))
theorem k0_idx335_inb : ∀ (v651 : IVec S16 32) (v681 : IVec S16 32) (k0_hw335 : k0_chk335 v651 v681), ∀ a x, ((![v651, v681] : Fin 2 → IVec S16 32) a x).toNat < S128x200.size a := fun v651 v681 k0_hw335 => k0_hw335

def k0_chk336 (v651 : IVec S16 32) (v686 : IVec S16 32) : Prop :=
  (∀ a x, ((![v651, v686] : Fin 2 → IVec S16 32) a x).toNat < S128x200.size a)
instance k0_chk336.dec : ∀ (v651 : IVec S16 32) (v686 : IVec S16 32), Decidable (k0_chk336 v651 v686) := fun v651 v686 => decidable_of_iff' _ (Iff.of_eq (k0_chk336.eq_1 v651 v686))
theorem k0_idx336_inb : ∀ (v651 : IVec S16 32) (v686 : IVec S16 32) (k0_hw336 : k0_chk336 v651 v686), ∀ a x, ((![v651, v686] : Fin 2 → IVec S16 32) a x).toNat < S128x200.size a := fun v651 v686 k0_hw336 => k0_hw336

def k0_chk337 (v651 : IVec S16 32) (v691 : IVec S16 32) : Prop :=
  (∀ a x, ((![v651, v691] : Fin 2 → IVec S16 32) a x).toNat < S128x200.size a)
instance k0_chk337.dec : ∀ (v651 : IVec S16 32) (v691 : IVec S16 32), Decidable (k0_chk337 v651 v691) := fun v651 v691 => decidable_of_iff' _ (Iff.of_eq (k0_chk337.eq_1 v651 v691))
theorem k0_idx337_inb : ∀ (v651 : IVec S16 32) (v691 : IVec S16 32) (k0_hw337 : k0_chk337 v651 v691), ∀ a x, ((![v651, v691] : Fin 2 → IVec S16 32) a x).toNat < S128x200.size a := fun v651 v691 k0_hw337 => k0_hw337

def k0_chk338 (v651 : IVec S16 32) (v696 : IVec S16 32) : Prop :=
  (∀ a x, ((![v651, v696] : Fin 2 → IVec S16 32) a x).toNat < S128x200.size a)
instance k0_chk338.dec : ∀ (v651 : IVec S16 32) (v696 : IVec S16 32), Decidable (k0_chk338 v651 v696) := fun v651 v696 => decidable_of_iff' _ (Iff.of_eq (k0_chk338.eq_1 v651 v696))
theorem k0_idx338_inb : ∀ (v651 : IVec S16 32) (v696 : IVec S16 32) (k0_hw338 : k0_chk338 v651 v696), ∀ a x, ((![v651, v696] : Fin 2 → IVec S16 32) a x).toNat < S128x200.size a := fun v651 v696 k0_hw338 => k0_hw338

def k0_chk339 (v706 : IVec S16 32) : Prop :=
  (∀ a x, ((![v706] : Fin 1 → IVec S16 32) a x).toNat < S4096.size a)
instance k0_chk339.dec : ∀ (v706 : IVec S16 32), Decidable (k0_chk339 v706) := fun v706 => decidable_of_iff' _ (Iff.of_eq (k0_chk339.eq_1 v706))
theorem k0_idx339_inb : ∀ (v706 : IVec S16 32) (k0_hw339 : k0_chk339 v706), ∀ a x, ((![v706] : Fin 1 → IVec S16 32) a x).toNat < S4096.size a := fun v706 k0_hw339 => k0_hw339

def k0_chk340 (v651 : IVec S16 32) (v710 : IVec S16 32) : Prop :=
  (∀ a x, ((![v651, v710] : Fin 2 → IVec S16 32) a x).toNat < S128x200.size a)
instance k0_chk340.dec : ∀ (v651 : IVec S16 32) (v710 : IVec S16 32), Decidable (k0_chk340 v651 v710) := fun v651 v710 => decidable_of_iff' _ (Iff.of_eq (k0_chk340.eq_1 v651 v710))
theorem k0_idx340_inb : ∀ (v651 : IVec S16 32) (v710 : IVec S16 32) (k0_hw340 : k0_chk340 v651 v710), ∀ a x, ((![v651, v710] : Fin 2 → IVec S16 32) a x).toNat < S128x200.size a := fun v651 v710 k0_hw340 => k0_hw340

def k0_chk341 (v651 : IVec S16 32) (v715 : IVec S16 32) : Prop :=
  (∀ a x, ((![v651, v715] : Fin 2 → IVec S16 32) a x).toNat < S128x200.size a)
instance k0_chk341.dec : ∀ (v651 : IVec S16 32) (v715 : IVec S16 32), Decidable (k0_chk341 v651 v715) := fun v651 v715 => decidable_of_iff' _ (Iff.of_eq (k0_chk341.eq_1 v651 v715))
theorem k0_idx341_inb : ∀ (v651 : IVec S16 32) (v715 : IVec S16 32) (k0_hw341 : k0_chk341 v651 v715), ∀ a x, ((![v651, v715] : Fin 2 → IVec S16 32) a x).toNat < S128x200.size a := fun v651 v715 k0_hw341 => k0_hw341

def k0_chk342 (v651 : IVec S16 32) (v720 : IVec S16 32) : Prop :=
  (∀ a x, ((![v651, v720] : Fin 2 → IVec S16 32) a x).toNat < S128x200.size a)
instance k0_chk342.dec : ∀ (v651 : IVec S16 32) (v720 : IVec S16 32), Decidable (k0_chk342 v651 v720) := fun v651 v720 => decidable_of_iff' _ (Iff.of_eq (k0_chk342.eq_1 v651 v720))
theorem k0_idx342_inb : ∀ (v651 : IVec S16 32) (v720 : IVec S16 32) (k0_hw342 : k0_chk342 v651 v720), ∀ a x, ((![v651, v720] : Fin 2 → IVec S16 32) a x).toNat < S128x200.size a := fun v651 v720 k0_hw342 => k0_hw342

def k0_chk343 (v651 : IVec S16 32) (v725 : IVec S16 32) : Prop :=
  (∀ a x, ((![v651, v725] : Fin 2 → IVec S16 32) a x).toNat < S128x200.size a)
instance k0_chk343.dec : ∀ (v651 : IVec S16 32) (v725 : IVec S16 32), Decidable (k0_chk343 v651 v725) := fun v651 v725 => decidable_of_iff' _ (Iff.of_eq (k0_chk343.eq_1 v651 v725))
theorem k0_idx343_inb : ∀ (v651 : IVec S16 32) (v725 : IVec S16 32) (k0_hw343 : k0_chk343 v651 v725), ∀ a x, ((![v651, v725] : Fin 2 → IVec S16 32) a x).toNat < S128x200.size a := fun v651 v725 k0_hw343 => k0_hw343

def k0_chk344 (v735 : IVec S16 32) : Prop :=
  (∀ a x, ((![v735] : Fin 1 → IVec S16 32) a x).toNat < S4096.size a)
instance k0_chk344.dec : ∀ (v735 : IVec S16 32), Decidable (k0_chk344 v735) := fun v735 => decidable_of_iff' _ (Iff.of_eq (k0_chk344.eq_1 v735))
theorem k0_idx344_inb : ∀ (v735 : IVec S16 32) (k0_hw344 : k0_chk344 v735), ∀ a x, ((![v735] : Fin 1 → IVec S16 32) a x).toNat < S4096.size a := fun v735 k0_hw344 => k0_hw344

def k0_chk345 (v651 : IVec S16 32) (v739 : IVec S16 32) : Prop :=
  (∀ a x, ((![v651, v739] : Fin 2 → IVec S16 32) a x).toNat < S128x200.size a)
instance k0_chk345.dec : ∀ (v651 : IVec S16 32) (v739 : IVec S16 32), Decidable (k0_chk345 v651 v739) := fun v651 v739 => decidable_of_iff' _ (Iff.of_eq (k0_chk345.eq_1 v651 v739))
theorem k0_idx345_inb : ∀ (v651 : IVec S16 32) (v739 : IVec S16 32) (k0_hw345 : k0_chk345 v651 v739), ∀ a x, ((![v651, v739] : Fin 2 → IVec S16 32) a x).toNat < S128x200.size a := fun v651 v739 k0_hw345 => k0_hw345

def k0_chk346 (v743 : IVec S16 32) : Prop :=
  (∀ a x, ((![v743] : Fin 1 → IVec S16 32) a x).toNat < S272.size a)
instance k0_chk346.dec : ∀ (v743 : IVec S16 32), Decidable (k0_chk346 v743) := fun v743 => decidable_of_iff' _ (Iff.of_eq (k0_chk346.eq_1 v743))
theorem k0_idx346_inb : ∀ (v743 : IVec S16 32) (k0_hw346 : k0_chk346 v743), ∀ a x, ((![v743] : Fin 1 → IVec S16 32) a x).toNat < S272.size a := fun v743 k0_hw346 => k0_hw346
def k0_off30 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c0_i32_250 : BitVec 32 := 0#32
  let v747 : BitVec 32 := Scalar.addi v648 c0_i32_250
  let v748 : Index := Scalar.indexCast v747
  ![v748.toNat]

def k0_chk347 (v752 : IVec S16 32) (v754 : IVec S16 32) : Prop :=
  (∀ a x, ((![v752, v754] : Fin 2 → IVec S16 32) a x).toNat < S128x200.size a)
instance k0_chk347.dec : ∀ (v752 : IVec S16 32) (v754 : IVec S16 32), Decidable (k0_chk347 v752 v754) := fun v752 v754 => decidable_of_iff' _ (Iff.of_eq (k0_chk347.eq_1 v752 v754))
theorem k0_idx347_inb : ∀ (v752 : IVec S16 32) (v754 : IVec S16 32) (k0_hw347 : k0_chk347 v752 v754), ∀ a x, ((![v752, v754] : Fin 2 → IVec S16 32) a x).toNat < S128x200.size a := fun v752 v754 k0_hw347 => k0_hw347

def k0_chk348 (v752 : IVec S16 32) (v759 : IVec S16 32) : Prop :=
  (∀ a x, ((![v752, v759] : Fin 2 → IVec S16 32) a x).toNat < S128x200.size a)
instance k0_chk348.dec : ∀ (v752 : IVec S16 32) (v759 : IVec S16 32), Decidable (k0_chk348 v752 v759) := fun v752 v759 => decidable_of_iff' _ (Iff.of_eq (k0_chk348.eq_1 v752 v759))
theorem k0_idx348_inb : ∀ (v752 : IVec S16 32) (v759 : IVec S16 32) (k0_hw348 : k0_chk348 v752 v759), ∀ a x, ((![v752, v759] : Fin 2 → IVec S16 32) a x).toNat < S128x200.size a := fun v752 v759 k0_hw348 => k0_hw348

def k0_chk349 (v752 : IVec S16 32) (v764 : IVec S16 32) : Prop :=
  (∀ a x, ((![v752, v764] : Fin 2 → IVec S16 32) a x).toNat < S128x200.size a)
instance k0_chk349.dec : ∀ (v752 : IVec S16 32) (v764 : IVec S16 32), Decidable (k0_chk349 v752 v764) := fun v752 v764 => decidable_of_iff' _ (Iff.of_eq (k0_chk349.eq_1 v752 v764))
theorem k0_idx349_inb : ∀ (v752 : IVec S16 32) (v764 : IVec S16 32) (k0_hw349 : k0_chk349 v752 v764), ∀ a x, ((![v752, v764] : Fin 2 → IVec S16 32) a x).toNat < S128x200.size a := fun v752 v764 k0_hw349 => k0_hw349

def k0_chk350 (v752 : IVec S16 32) (v769 : IVec S16 32) : Prop :=
  (∀ a x, ((![v752, v769] : Fin 2 → IVec S16 32) a x).toNat < S128x200.size a)
instance k0_chk350.dec : ∀ (v752 : IVec S16 32) (v769 : IVec S16 32), Decidable (k0_chk350 v752 v769) := fun v752 v769 => decidable_of_iff' _ (Iff.of_eq (k0_chk350.eq_1 v752 v769))
theorem k0_idx350_inb : ∀ (v752 : IVec S16 32) (v769 : IVec S16 32) (k0_hw350 : k0_chk350 v752 v769), ∀ a x, ((![v752, v769] : Fin 2 → IVec S16 32) a x).toNat < S128x200.size a := fun v752 v769 k0_hw350 => k0_hw350

def k0_chk351 (v779 : IVec S16 32) : Prop :=
  (∀ a x, ((![v779] : Fin 1 → IVec S16 32) a x).toNat < S4096.size a)
instance k0_chk351.dec : ∀ (v779 : IVec S16 32), Decidable (k0_chk351 v779) := fun v779 => decidable_of_iff' _ (Iff.of_eq (k0_chk351.eq_1 v779))
theorem k0_idx351_inb : ∀ (v779 : IVec S16 32) (k0_hw351 : k0_chk351 v779), ∀ a x, ((![v779] : Fin 1 → IVec S16 32) a x).toNat < S4096.size a := fun v779 k0_hw351 => k0_hw351

def k0_chk352 (v752 : IVec S16 32) (v782 : IVec S16 32) : Prop :=
  (∀ a x, ((![v752, v782] : Fin 2 → IVec S16 32) a x).toNat < S128x200.size a)
instance k0_chk352.dec : ∀ (v752 : IVec S16 32) (v782 : IVec S16 32), Decidable (k0_chk352 v752 v782) := fun v752 v782 => decidable_of_iff' _ (Iff.of_eq (k0_chk352.eq_1 v752 v782))
theorem k0_idx352_inb : ∀ (v752 : IVec S16 32) (v782 : IVec S16 32) (k0_hw352 : k0_chk352 v752 v782), ∀ a x, ((![v752, v782] : Fin 2 → IVec S16 32) a x).toNat < S128x200.size a := fun v752 v782 k0_hw352 => k0_hw352

def k0_chk353 (v752 : IVec S16 32) (v787 : IVec S16 32) : Prop :=
  (∀ a x, ((![v752, v787] : Fin 2 → IVec S16 32) a x).toNat < S128x200.size a)
instance k0_chk353.dec : ∀ (v752 : IVec S16 32) (v787 : IVec S16 32), Decidable (k0_chk353 v752 v787) := fun v752 v787 => decidable_of_iff' _ (Iff.of_eq (k0_chk353.eq_1 v752 v787))
theorem k0_idx353_inb : ∀ (v752 : IVec S16 32) (v787 : IVec S16 32) (k0_hw353 : k0_chk353 v752 v787), ∀ a x, ((![v752, v787] : Fin 2 → IVec S16 32) a x).toNat < S128x200.size a := fun v752 v787 k0_hw353 => k0_hw353

def k0_chk354 (v752 : IVec S16 32) (v792 : IVec S16 32) : Prop :=
  (∀ a x, ((![v752, v792] : Fin 2 → IVec S16 32) a x).toNat < S128x200.size a)
instance k0_chk354.dec : ∀ (v752 : IVec S16 32) (v792 : IVec S16 32), Decidable (k0_chk354 v752 v792) := fun v752 v792 => decidable_of_iff' _ (Iff.of_eq (k0_chk354.eq_1 v752 v792))
theorem k0_idx354_inb : ∀ (v752 : IVec S16 32) (v792 : IVec S16 32) (k0_hw354 : k0_chk354 v752 v792), ∀ a x, ((![v752, v792] : Fin 2 → IVec S16 32) a x).toNat < S128x200.size a := fun v752 v792 k0_hw354 => k0_hw354

def k0_chk355 (v752 : IVec S16 32) (v797 : IVec S16 32) : Prop :=
  (∀ a x, ((![v752, v797] : Fin 2 → IVec S16 32) a x).toNat < S128x200.size a)
instance k0_chk355.dec : ∀ (v752 : IVec S16 32) (v797 : IVec S16 32), Decidable (k0_chk355 v752 v797) := fun v752 v797 => decidable_of_iff' _ (Iff.of_eq (k0_chk355.eq_1 v752 v797))
theorem k0_idx355_inb : ∀ (v752 : IVec S16 32) (v797 : IVec S16 32) (k0_hw355 : k0_chk355 v752 v797), ∀ a x, ((![v752, v797] : Fin 2 → IVec S16 32) a x).toNat < S128x200.size a := fun v752 v797 k0_hw355 => k0_hw355

def k0_chk356 (v807 : IVec S16 32) : Prop :=
  (∀ a x, ((![v807] : Fin 1 → IVec S16 32) a x).toNat < S4096.size a)
instance k0_chk356.dec : ∀ (v807 : IVec S16 32), Decidable (k0_chk356 v807) := fun v807 => decidable_of_iff' _ (Iff.of_eq (k0_chk356.eq_1 v807))
theorem k0_idx356_inb : ∀ (v807 : IVec S16 32) (k0_hw356 : k0_chk356 v807), ∀ a x, ((![v807] : Fin 1 → IVec S16 32) a x).toNat < S4096.size a := fun v807 k0_hw356 => k0_hw356

def k0_chk357 (v752 : IVec S16 32) (v811 : IVec S16 32) : Prop :=
  (∀ a x, ((![v752, v811] : Fin 2 → IVec S16 32) a x).toNat < S128x200.size a)
instance k0_chk357.dec : ∀ (v752 : IVec S16 32) (v811 : IVec S16 32), Decidable (k0_chk357 v752 v811) := fun v752 v811 => decidable_of_iff' _ (Iff.of_eq (k0_chk357.eq_1 v752 v811))
theorem k0_idx357_inb : ∀ (v752 : IVec S16 32) (v811 : IVec S16 32) (k0_hw357 : k0_chk357 v752 v811), ∀ a x, ((![v752, v811] : Fin 2 → IVec S16 32) a x).toNat < S128x200.size a := fun v752 v811 k0_hw357 => k0_hw357

def k0_chk358 (v752 : IVec S16 32) (v816 : IVec S16 32) : Prop :=
  (∀ a x, ((![v752, v816] : Fin 2 → IVec S16 32) a x).toNat < S128x200.size a)
instance k0_chk358.dec : ∀ (v752 : IVec S16 32) (v816 : IVec S16 32), Decidable (k0_chk358 v752 v816) := fun v752 v816 => decidable_of_iff' _ (Iff.of_eq (k0_chk358.eq_1 v752 v816))
theorem k0_idx358_inb : ∀ (v752 : IVec S16 32) (v816 : IVec S16 32) (k0_hw358 : k0_chk358 v752 v816), ∀ a x, ((![v752, v816] : Fin 2 → IVec S16 32) a x).toNat < S128x200.size a := fun v752 v816 k0_hw358 => k0_hw358

def k0_chk359 (v752 : IVec S16 32) (v821 : IVec S16 32) : Prop :=
  (∀ a x, ((![v752, v821] : Fin 2 → IVec S16 32) a x).toNat < S128x200.size a)
instance k0_chk359.dec : ∀ (v752 : IVec S16 32) (v821 : IVec S16 32), Decidable (k0_chk359 v752 v821) := fun v752 v821 => decidable_of_iff' _ (Iff.of_eq (k0_chk359.eq_1 v752 v821))
theorem k0_idx359_inb : ∀ (v752 : IVec S16 32) (v821 : IVec S16 32) (k0_hw359 : k0_chk359 v752 v821), ∀ a x, ((![v752, v821] : Fin 2 → IVec S16 32) a x).toNat < S128x200.size a := fun v752 v821 k0_hw359 => k0_hw359

def k0_chk360 (v752 : IVec S16 32) (v826 : IVec S16 32) : Prop :=
  (∀ a x, ((![v752, v826] : Fin 2 → IVec S16 32) a x).toNat < S128x200.size a)
instance k0_chk360.dec : ∀ (v752 : IVec S16 32) (v826 : IVec S16 32), Decidable (k0_chk360 v752 v826) := fun v752 v826 => decidable_of_iff' _ (Iff.of_eq (k0_chk360.eq_1 v752 v826))
theorem k0_idx360_inb : ∀ (v752 : IVec S16 32) (v826 : IVec S16 32) (k0_hw360 : k0_chk360 v752 v826), ∀ a x, ((![v752, v826] : Fin 2 → IVec S16 32) a x).toNat < S128x200.size a := fun v752 v826 k0_hw360 => k0_hw360

def k0_chk361 (v836 : IVec S16 32) : Prop :=
  (∀ a x, ((![v836] : Fin 1 → IVec S16 32) a x).toNat < S4096.size a)
instance k0_chk361.dec : ∀ (v836 : IVec S16 32), Decidable (k0_chk361 v836) := fun v836 => decidable_of_iff' _ (Iff.of_eq (k0_chk361.eq_1 v836))
theorem k0_idx361_inb : ∀ (v836 : IVec S16 32) (k0_hw361 : k0_chk361 v836), ∀ a x, ((![v836] : Fin 1 → IVec S16 32) a x).toNat < S4096.size a := fun v836 k0_hw361 => k0_hw361

def k0_chk362 (v752 : IVec S16 32) (v840 : IVec S16 32) : Prop :=
  (∀ a x, ((![v752, v840] : Fin 2 → IVec S16 32) a x).toNat < S128x200.size a)
instance k0_chk362.dec : ∀ (v752 : IVec S16 32) (v840 : IVec S16 32), Decidable (k0_chk362 v752 v840) := fun v752 v840 => decidable_of_iff' _ (Iff.of_eq (k0_chk362.eq_1 v752 v840))
theorem k0_idx362_inb : ∀ (v752 : IVec S16 32) (v840 : IVec S16 32) (k0_hw362 : k0_chk362 v752 v840), ∀ a x, ((![v752, v840] : Fin 2 → IVec S16 32) a x).toNat < S128x200.size a := fun v752 v840 k0_hw362 => k0_hw362

def k0_chk363 (v844 : IVec S16 32) : Prop :=
  (∀ a x, ((![v844] : Fin 1 → IVec S16 32) a x).toNat < S272.size a)
instance k0_chk363.dec : ∀ (v844 : IVec S16 32), Decidable (k0_chk363 v844) := fun v844 => decidable_of_iff' _ (Iff.of_eq (k0_chk363.eq_1 v844))
theorem k0_idx363_inb : ∀ (v844 : IVec S16 32) (k0_hw363 : k0_chk363 v844), ∀ a x, ((![v844] : Fin 1 → IVec S16 32) a x).toNat < S272.size a := fun v844 k0_hw363 => k0_hw363
def k0_off31 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c16_i32_285 : BitVec 32 := 16#32
  let v848 : BitVec 32 := Scalar.addi v648 c16_i32_285
  let v849 : Index := Scalar.indexCast v848
  ![v849.toNat]

def k0_chk364 (v853 : IVec S16 32) (v855 : IVec S16 32) : Prop :=
  (∀ a x, ((![v853, v855] : Fin 2 → IVec S16 32) a x).toNat < S128x200.size a)
instance k0_chk364.dec : ∀ (v853 : IVec S16 32) (v855 : IVec S16 32), Decidable (k0_chk364 v853 v855) := fun v853 v855 => decidable_of_iff' _ (Iff.of_eq (k0_chk364.eq_1 v853 v855))
theorem k0_idx364_inb : ∀ (v853 : IVec S16 32) (v855 : IVec S16 32) (k0_hw364 : k0_chk364 v853 v855), ∀ a x, ((![v853, v855] : Fin 2 → IVec S16 32) a x).toNat < S128x200.size a := fun v853 v855 k0_hw364 => k0_hw364

def k0_chk365 (v853 : IVec S16 32) (v860 : IVec S16 32) : Prop :=
  (∀ a x, ((![v853, v860] : Fin 2 → IVec S16 32) a x).toNat < S128x200.size a)
instance k0_chk365.dec : ∀ (v853 : IVec S16 32) (v860 : IVec S16 32), Decidable (k0_chk365 v853 v860) := fun v853 v860 => decidable_of_iff' _ (Iff.of_eq (k0_chk365.eq_1 v853 v860))
theorem k0_idx365_inb : ∀ (v853 : IVec S16 32) (v860 : IVec S16 32) (k0_hw365 : k0_chk365 v853 v860), ∀ a x, ((![v853, v860] : Fin 2 → IVec S16 32) a x).toNat < S128x200.size a := fun v853 v860 k0_hw365 => k0_hw365

def k0_chk366 (v853 : IVec S16 32) (v865 : IVec S16 32) : Prop :=
  (∀ a x, ((![v853, v865] : Fin 2 → IVec S16 32) a x).toNat < S128x200.size a)
instance k0_chk366.dec : ∀ (v853 : IVec S16 32) (v865 : IVec S16 32), Decidable (k0_chk366 v853 v865) := fun v853 v865 => decidable_of_iff' _ (Iff.of_eq (k0_chk366.eq_1 v853 v865))
theorem k0_idx366_inb : ∀ (v853 : IVec S16 32) (v865 : IVec S16 32) (k0_hw366 : k0_chk366 v853 v865), ∀ a x, ((![v853, v865] : Fin 2 → IVec S16 32) a x).toNat < S128x200.size a := fun v853 v865 k0_hw366 => k0_hw366

def k0_chk367 (v853 : IVec S16 32) (v870 : IVec S16 32) : Prop :=
  (∀ a x, ((![v853, v870] : Fin 2 → IVec S16 32) a x).toNat < S128x200.size a)
instance k0_chk367.dec : ∀ (v853 : IVec S16 32) (v870 : IVec S16 32), Decidable (k0_chk367 v853 v870) := fun v853 v870 => decidable_of_iff' _ (Iff.of_eq (k0_chk367.eq_1 v853 v870))
theorem k0_idx367_inb : ∀ (v853 : IVec S16 32) (v870 : IVec S16 32) (k0_hw367 : k0_chk367 v853 v870), ∀ a x, ((![v853, v870] : Fin 2 → IVec S16 32) a x).toNat < S128x200.size a := fun v853 v870 k0_hw367 => k0_hw367

def k0_chk368 (v880 : IVec S16 32) : Prop :=
  (∀ a x, ((![v880] : Fin 1 → IVec S16 32) a x).toNat < S4096.size a)
instance k0_chk368.dec : ∀ (v880 : IVec S16 32), Decidable (k0_chk368 v880) := fun v880 => decidable_of_iff' _ (Iff.of_eq (k0_chk368.eq_1 v880))
theorem k0_idx368_inb : ∀ (v880 : IVec S16 32) (k0_hw368 : k0_chk368 v880), ∀ a x, ((![v880] : Fin 1 → IVec S16 32) a x).toNat < S4096.size a := fun v880 k0_hw368 => k0_hw368

def k0_chk369 (v853 : IVec S16 32) (v883 : IVec S16 32) : Prop :=
  (∀ a x, ((![v853, v883] : Fin 2 → IVec S16 32) a x).toNat < S128x200.size a)
instance k0_chk369.dec : ∀ (v853 : IVec S16 32) (v883 : IVec S16 32), Decidable (k0_chk369 v853 v883) := fun v853 v883 => decidable_of_iff' _ (Iff.of_eq (k0_chk369.eq_1 v853 v883))
theorem k0_idx369_inb : ∀ (v853 : IVec S16 32) (v883 : IVec S16 32) (k0_hw369 : k0_chk369 v853 v883), ∀ a x, ((![v853, v883] : Fin 2 → IVec S16 32) a x).toNat < S128x200.size a := fun v853 v883 k0_hw369 => k0_hw369

def k0_chk370 (v853 : IVec S16 32) (v888 : IVec S16 32) : Prop :=
  (∀ a x, ((![v853, v888] : Fin 2 → IVec S16 32) a x).toNat < S128x200.size a)
instance k0_chk370.dec : ∀ (v853 : IVec S16 32) (v888 : IVec S16 32), Decidable (k0_chk370 v853 v888) := fun v853 v888 => decidable_of_iff' _ (Iff.of_eq (k0_chk370.eq_1 v853 v888))
theorem k0_idx370_inb : ∀ (v853 : IVec S16 32) (v888 : IVec S16 32) (k0_hw370 : k0_chk370 v853 v888), ∀ a x, ((![v853, v888] : Fin 2 → IVec S16 32) a x).toNat < S128x200.size a := fun v853 v888 k0_hw370 => k0_hw370

def k0_chk371 (v853 : IVec S16 32) (v893 : IVec S16 32) : Prop :=
  (∀ a x, ((![v853, v893] : Fin 2 → IVec S16 32) a x).toNat < S128x200.size a)
instance k0_chk371.dec : ∀ (v853 : IVec S16 32) (v893 : IVec S16 32), Decidable (k0_chk371 v853 v893) := fun v853 v893 => decidable_of_iff' _ (Iff.of_eq (k0_chk371.eq_1 v853 v893))
theorem k0_idx371_inb : ∀ (v853 : IVec S16 32) (v893 : IVec S16 32) (k0_hw371 : k0_chk371 v853 v893), ∀ a x, ((![v853, v893] : Fin 2 → IVec S16 32) a x).toNat < S128x200.size a := fun v853 v893 k0_hw371 => k0_hw371

def k0_chk372 (v853 : IVec S16 32) (v898 : IVec S16 32) : Prop :=
  (∀ a x, ((![v853, v898] : Fin 2 → IVec S16 32) a x).toNat < S128x200.size a)
instance k0_chk372.dec : ∀ (v853 : IVec S16 32) (v898 : IVec S16 32), Decidable (k0_chk372 v853 v898) := fun v853 v898 => decidable_of_iff' _ (Iff.of_eq (k0_chk372.eq_1 v853 v898))
theorem k0_idx372_inb : ∀ (v853 : IVec S16 32) (v898 : IVec S16 32) (k0_hw372 : k0_chk372 v853 v898), ∀ a x, ((![v853, v898] : Fin 2 → IVec S16 32) a x).toNat < S128x200.size a := fun v853 v898 k0_hw372 => k0_hw372

def k0_chk373 (v908 : IVec S16 32) : Prop :=
  (∀ a x, ((![v908] : Fin 1 → IVec S16 32) a x).toNat < S4096.size a)
instance k0_chk373.dec : ∀ (v908 : IVec S16 32), Decidable (k0_chk373 v908) := fun v908 => decidable_of_iff' _ (Iff.of_eq (k0_chk373.eq_1 v908))
theorem k0_idx373_inb : ∀ (v908 : IVec S16 32) (k0_hw373 : k0_chk373 v908), ∀ a x, ((![v908] : Fin 1 → IVec S16 32) a x).toNat < S4096.size a := fun v908 k0_hw373 => k0_hw373

def k0_chk374 (v853 : IVec S16 32) (v912 : IVec S16 32) : Prop :=
  (∀ a x, ((![v853, v912] : Fin 2 → IVec S16 32) a x).toNat < S128x200.size a)
instance k0_chk374.dec : ∀ (v853 : IVec S16 32) (v912 : IVec S16 32), Decidable (k0_chk374 v853 v912) := fun v853 v912 => decidable_of_iff' _ (Iff.of_eq (k0_chk374.eq_1 v853 v912))
theorem k0_idx374_inb : ∀ (v853 : IVec S16 32) (v912 : IVec S16 32) (k0_hw374 : k0_chk374 v853 v912), ∀ a x, ((![v853, v912] : Fin 2 → IVec S16 32) a x).toNat < S128x200.size a := fun v853 v912 k0_hw374 => k0_hw374

def k0_chk375 (v853 : IVec S16 32) (v917 : IVec S16 32) : Prop :=
  (∀ a x, ((![v853, v917] : Fin 2 → IVec S16 32) a x).toNat < S128x200.size a)
instance k0_chk375.dec : ∀ (v853 : IVec S16 32) (v917 : IVec S16 32), Decidable (k0_chk375 v853 v917) := fun v853 v917 => decidable_of_iff' _ (Iff.of_eq (k0_chk375.eq_1 v853 v917))
theorem k0_idx375_inb : ∀ (v853 : IVec S16 32) (v917 : IVec S16 32) (k0_hw375 : k0_chk375 v853 v917), ∀ a x, ((![v853, v917] : Fin 2 → IVec S16 32) a x).toNat < S128x200.size a := fun v853 v917 k0_hw375 => k0_hw375

def k0_chk376 (v853 : IVec S16 32) (v922 : IVec S16 32) : Prop :=
  (∀ a x, ((![v853, v922] : Fin 2 → IVec S16 32) a x).toNat < S128x200.size a)
instance k0_chk376.dec : ∀ (v853 : IVec S16 32) (v922 : IVec S16 32), Decidable (k0_chk376 v853 v922) := fun v853 v922 => decidable_of_iff' _ (Iff.of_eq (k0_chk376.eq_1 v853 v922))
theorem k0_idx376_inb : ∀ (v853 : IVec S16 32) (v922 : IVec S16 32) (k0_hw376 : k0_chk376 v853 v922), ∀ a x, ((![v853, v922] : Fin 2 → IVec S16 32) a x).toNat < S128x200.size a := fun v853 v922 k0_hw376 => k0_hw376

def k0_chk377 (v853 : IVec S16 32) (v927 : IVec S16 32) : Prop :=
  (∀ a x, ((![v853, v927] : Fin 2 → IVec S16 32) a x).toNat < S128x200.size a)
instance k0_chk377.dec : ∀ (v853 : IVec S16 32) (v927 : IVec S16 32), Decidable (k0_chk377 v853 v927) := fun v853 v927 => decidable_of_iff' _ (Iff.of_eq (k0_chk377.eq_1 v853 v927))
theorem k0_idx377_inb : ∀ (v853 : IVec S16 32) (v927 : IVec S16 32) (k0_hw377 : k0_chk377 v853 v927), ∀ a x, ((![v853, v927] : Fin 2 → IVec S16 32) a x).toNat < S128x200.size a := fun v853 v927 k0_hw377 => k0_hw377

def k0_chk378 (v937 : IVec S16 32) : Prop :=
  (∀ a x, ((![v937] : Fin 1 → IVec S16 32) a x).toNat < S4096.size a)
instance k0_chk378.dec : ∀ (v937 : IVec S16 32), Decidable (k0_chk378 v937) := fun v937 => decidable_of_iff' _ (Iff.of_eq (k0_chk378.eq_1 v937))
theorem k0_idx378_inb : ∀ (v937 : IVec S16 32) (k0_hw378 : k0_chk378 v937), ∀ a x, ((![v937] : Fin 1 → IVec S16 32) a x).toNat < S4096.size a := fun v937 k0_hw378 => k0_hw378

def k0_chk379 (v853 : IVec S16 32) (v941 : IVec S16 32) : Prop :=
  (∀ a x, ((![v853, v941] : Fin 2 → IVec S16 32) a x).toNat < S128x200.size a)
instance k0_chk379.dec : ∀ (v853 : IVec S16 32) (v941 : IVec S16 32), Decidable (k0_chk379 v853 v941) := fun v853 v941 => decidable_of_iff' _ (Iff.of_eq (k0_chk379.eq_1 v853 v941))
theorem k0_idx379_inb : ∀ (v853 : IVec S16 32) (v941 : IVec S16 32) (k0_hw379 : k0_chk379 v853 v941), ∀ a x, ((![v853, v941] : Fin 2 → IVec S16 32) a x).toNat < S128x200.size a := fun v853 v941 k0_hw379 => k0_hw379

def k0_chk380 (v945 : IVec S16 32) : Prop :=
  (∀ a x, ((![v945] : Fin 1 → IVec S16 32) a x).toNat < S272.size a)
instance k0_chk380.dec : ∀ (v945 : IVec S16 32), Decidable (k0_chk380 v945) := fun v945 => decidable_of_iff' _ (Iff.of_eq (k0_chk380.eq_1 v945))
theorem k0_idx380_inb : ∀ (v945 : IVec S16 32) (k0_hw380 : k0_chk380 v945), ∀ a x, ((![v945] : Fin 1 → IVec S16 32) a x).toNat < S272.size a := fun v945 k0_hw380 => k0_hw380
def k0_off32 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c32_i32_320 : BitVec 32 := 32#32
  let v949 : BitVec 32 := Scalar.addi v648 c32_i32_320
  let v950 : Index := Scalar.indexCast v949
  ![v950.toNat]

def k0_chk381 (v954 : IVec S16 32) (v956 : IVec S16 32) : Prop :=
  (∀ a x, ((![v954, v956] : Fin 2 → IVec S16 32) a x).toNat < S128x200.size a)
instance k0_chk381.dec : ∀ (v954 : IVec S16 32) (v956 : IVec S16 32), Decidable (k0_chk381 v954 v956) := fun v954 v956 => decidable_of_iff' _ (Iff.of_eq (k0_chk381.eq_1 v954 v956))
theorem k0_idx381_inb : ∀ (v954 : IVec S16 32) (v956 : IVec S16 32) (k0_hw381 : k0_chk381 v954 v956), ∀ a x, ((![v954, v956] : Fin 2 → IVec S16 32) a x).toNat < S128x200.size a := fun v954 v956 k0_hw381 => k0_hw381

def k0_chk382 (v954 : IVec S16 32) (v961 : IVec S16 32) : Prop :=
  (∀ a x, ((![v954, v961] : Fin 2 → IVec S16 32) a x).toNat < S128x200.size a)
instance k0_chk382.dec : ∀ (v954 : IVec S16 32) (v961 : IVec S16 32), Decidable (k0_chk382 v954 v961) := fun v954 v961 => decidable_of_iff' _ (Iff.of_eq (k0_chk382.eq_1 v954 v961))
theorem k0_idx382_inb : ∀ (v954 : IVec S16 32) (v961 : IVec S16 32) (k0_hw382 : k0_chk382 v954 v961), ∀ a x, ((![v954, v961] : Fin 2 → IVec S16 32) a x).toNat < S128x200.size a := fun v954 v961 k0_hw382 => k0_hw382

def k0_chk383 (v954 : IVec S16 32) (v966 : IVec S16 32) : Prop :=
  (∀ a x, ((![v954, v966] : Fin 2 → IVec S16 32) a x).toNat < S128x200.size a)
instance k0_chk383.dec : ∀ (v954 : IVec S16 32) (v966 : IVec S16 32), Decidable (k0_chk383 v954 v966) := fun v954 v966 => decidable_of_iff' _ (Iff.of_eq (k0_chk383.eq_1 v954 v966))
theorem k0_idx383_inb : ∀ (v954 : IVec S16 32) (v966 : IVec S16 32) (k0_hw383 : k0_chk383 v954 v966), ∀ a x, ((![v954, v966] : Fin 2 → IVec S16 32) a x).toNat < S128x200.size a := fun v954 v966 k0_hw383 => k0_hw383

def k0_chk384 (v954 : IVec S16 32) (v971 : IVec S16 32) : Prop :=
  (∀ a x, ((![v954, v971] : Fin 2 → IVec S16 32) a x).toNat < S128x200.size a)
instance k0_chk384.dec : ∀ (v954 : IVec S16 32) (v971 : IVec S16 32), Decidable (k0_chk384 v954 v971) := fun v954 v971 => decidable_of_iff' _ (Iff.of_eq (k0_chk384.eq_1 v954 v971))
theorem k0_idx384_inb : ∀ (v954 : IVec S16 32) (v971 : IVec S16 32) (k0_hw384 : k0_chk384 v954 v971), ∀ a x, ((![v954, v971] : Fin 2 → IVec S16 32) a x).toNat < S128x200.size a := fun v954 v971 k0_hw384 => k0_hw384

def k0_chk385 (v981 : IVec S16 32) : Prop :=
  (∀ a x, ((![v981] : Fin 1 → IVec S16 32) a x).toNat < S4096.size a)
instance k0_chk385.dec : ∀ (v981 : IVec S16 32), Decidable (k0_chk385 v981) := fun v981 => decidable_of_iff' _ (Iff.of_eq (k0_chk385.eq_1 v981))
theorem k0_idx385_inb : ∀ (v981 : IVec S16 32) (k0_hw385 : k0_chk385 v981), ∀ a x, ((![v981] : Fin 1 → IVec S16 32) a x).toNat < S4096.size a := fun v981 k0_hw385 => k0_hw385

def k0_chk386 (v954 : IVec S16 32) (v984 : IVec S16 32) : Prop :=
  (∀ a x, ((![v954, v984] : Fin 2 → IVec S16 32) a x).toNat < S128x200.size a)
instance k0_chk386.dec : ∀ (v954 : IVec S16 32) (v984 : IVec S16 32), Decidable (k0_chk386 v954 v984) := fun v954 v984 => decidable_of_iff' _ (Iff.of_eq (k0_chk386.eq_1 v954 v984))
theorem k0_idx386_inb : ∀ (v954 : IVec S16 32) (v984 : IVec S16 32) (k0_hw386 : k0_chk386 v954 v984), ∀ a x, ((![v954, v984] : Fin 2 → IVec S16 32) a x).toNat < S128x200.size a := fun v954 v984 k0_hw386 => k0_hw386

def k0_chk387 (v954 : IVec S16 32) (v989 : IVec S16 32) : Prop :=
  (∀ a x, ((![v954, v989] : Fin 2 → IVec S16 32) a x).toNat < S128x200.size a)
instance k0_chk387.dec : ∀ (v954 : IVec S16 32) (v989 : IVec S16 32), Decidable (k0_chk387 v954 v989) := fun v954 v989 => decidable_of_iff' _ (Iff.of_eq (k0_chk387.eq_1 v954 v989))
theorem k0_idx387_inb : ∀ (v954 : IVec S16 32) (v989 : IVec S16 32) (k0_hw387 : k0_chk387 v954 v989), ∀ a x, ((![v954, v989] : Fin 2 → IVec S16 32) a x).toNat < S128x200.size a := fun v954 v989 k0_hw387 => k0_hw387

def k0_chk388 (v954 : IVec S16 32) (v994 : IVec S16 32) : Prop :=
  (∀ a x, ((![v954, v994] : Fin 2 → IVec S16 32) a x).toNat < S128x200.size a)
instance k0_chk388.dec : ∀ (v954 : IVec S16 32) (v994 : IVec S16 32), Decidable (k0_chk388 v954 v994) := fun v954 v994 => decidable_of_iff' _ (Iff.of_eq (k0_chk388.eq_1 v954 v994))
theorem k0_idx388_inb : ∀ (v954 : IVec S16 32) (v994 : IVec S16 32) (k0_hw388 : k0_chk388 v954 v994), ∀ a x, ((![v954, v994] : Fin 2 → IVec S16 32) a x).toNat < S128x200.size a := fun v954 v994 k0_hw388 => k0_hw388

def k0_chk389 (v954 : IVec S16 32) (v999 : IVec S16 32) : Prop :=
  (∀ a x, ((![v954, v999] : Fin 2 → IVec S16 32) a x).toNat < S128x200.size a)
instance k0_chk389.dec : ∀ (v954 : IVec S16 32) (v999 : IVec S16 32), Decidable (k0_chk389 v954 v999) := fun v954 v999 => decidable_of_iff' _ (Iff.of_eq (k0_chk389.eq_1 v954 v999))
theorem k0_idx389_inb : ∀ (v954 : IVec S16 32) (v999 : IVec S16 32) (k0_hw389 : k0_chk389 v954 v999), ∀ a x, ((![v954, v999] : Fin 2 → IVec S16 32) a x).toNat < S128x200.size a := fun v954 v999 k0_hw389 => k0_hw389

def k0_chk390 (v1009 : IVec S16 32) : Prop :=
  (∀ a x, ((![v1009] : Fin 1 → IVec S16 32) a x).toNat < S4096.size a)
instance k0_chk390.dec : ∀ (v1009 : IVec S16 32), Decidable (k0_chk390 v1009) := fun v1009 => decidable_of_iff' _ (Iff.of_eq (k0_chk390.eq_1 v1009))
theorem k0_idx390_inb : ∀ (v1009 : IVec S16 32) (k0_hw390 : k0_chk390 v1009), ∀ a x, ((![v1009] : Fin 1 → IVec S16 32) a x).toNat < S4096.size a := fun v1009 k0_hw390 => k0_hw390

def k0_chk391 (v954 : IVec S16 32) (v1013 : IVec S16 32) : Prop :=
  (∀ a x, ((![v954, v1013] : Fin 2 → IVec S16 32) a x).toNat < S128x200.size a)
instance k0_chk391.dec : ∀ (v954 : IVec S16 32) (v1013 : IVec S16 32), Decidable (k0_chk391 v954 v1013) := fun v954 v1013 => decidable_of_iff' _ (Iff.of_eq (k0_chk391.eq_1 v954 v1013))
theorem k0_idx391_inb : ∀ (v954 : IVec S16 32) (v1013 : IVec S16 32) (k0_hw391 : k0_chk391 v954 v1013), ∀ a x, ((![v954, v1013] : Fin 2 → IVec S16 32) a x).toNat < S128x200.size a := fun v954 v1013 k0_hw391 => k0_hw391

def k0_chk392 (v954 : IVec S16 32) (v1018 : IVec S16 32) : Prop :=
  (∀ a x, ((![v954, v1018] : Fin 2 → IVec S16 32) a x).toNat < S128x200.size a)
instance k0_chk392.dec : ∀ (v954 : IVec S16 32) (v1018 : IVec S16 32), Decidable (k0_chk392 v954 v1018) := fun v954 v1018 => decidable_of_iff' _ (Iff.of_eq (k0_chk392.eq_1 v954 v1018))
theorem k0_idx392_inb : ∀ (v954 : IVec S16 32) (v1018 : IVec S16 32) (k0_hw392 : k0_chk392 v954 v1018), ∀ a x, ((![v954, v1018] : Fin 2 → IVec S16 32) a x).toNat < S128x200.size a := fun v954 v1018 k0_hw392 => k0_hw392

def k0_chk393 (v954 : IVec S16 32) (v1023 : IVec S16 32) : Prop :=
  (∀ a x, ((![v954, v1023] : Fin 2 → IVec S16 32) a x).toNat < S128x200.size a)
instance k0_chk393.dec : ∀ (v954 : IVec S16 32) (v1023 : IVec S16 32), Decidable (k0_chk393 v954 v1023) := fun v954 v1023 => decidable_of_iff' _ (Iff.of_eq (k0_chk393.eq_1 v954 v1023))
theorem k0_idx393_inb : ∀ (v954 : IVec S16 32) (v1023 : IVec S16 32) (k0_hw393 : k0_chk393 v954 v1023), ∀ a x, ((![v954, v1023] : Fin 2 → IVec S16 32) a x).toNat < S128x200.size a := fun v954 v1023 k0_hw393 => k0_hw393

def k0_chk394 (v954 : IVec S16 32) (v1028 : IVec S16 32) : Prop :=
  (∀ a x, ((![v954, v1028] : Fin 2 → IVec S16 32) a x).toNat < S128x200.size a)
instance k0_chk394.dec : ∀ (v954 : IVec S16 32) (v1028 : IVec S16 32), Decidable (k0_chk394 v954 v1028) := fun v954 v1028 => decidable_of_iff' _ (Iff.of_eq (k0_chk394.eq_1 v954 v1028))
theorem k0_idx394_inb : ∀ (v954 : IVec S16 32) (v1028 : IVec S16 32) (k0_hw394 : k0_chk394 v954 v1028), ∀ a x, ((![v954, v1028] : Fin 2 → IVec S16 32) a x).toNat < S128x200.size a := fun v954 v1028 k0_hw394 => k0_hw394

def k0_chk395 (v1038 : IVec S16 32) : Prop :=
  (∀ a x, ((![v1038] : Fin 1 → IVec S16 32) a x).toNat < S4096.size a)
instance k0_chk395.dec : ∀ (v1038 : IVec S16 32), Decidable (k0_chk395 v1038) := fun v1038 => decidable_of_iff' _ (Iff.of_eq (k0_chk395.eq_1 v1038))
theorem k0_idx395_inb : ∀ (v1038 : IVec S16 32) (k0_hw395 : k0_chk395 v1038), ∀ a x, ((![v1038] : Fin 1 → IVec S16 32) a x).toNat < S4096.size a := fun v1038 k0_hw395 => k0_hw395

def k0_chk396 (v954 : IVec S16 32) (v1042 : IVec S16 32) : Prop :=
  (∀ a x, ((![v954, v1042] : Fin 2 → IVec S16 32) a x).toNat < S128x200.size a)
instance k0_chk396.dec : ∀ (v954 : IVec S16 32) (v1042 : IVec S16 32), Decidable (k0_chk396 v954 v1042) := fun v954 v1042 => decidable_of_iff' _ (Iff.of_eq (k0_chk396.eq_1 v954 v1042))
theorem k0_idx396_inb : ∀ (v954 : IVec S16 32) (v1042 : IVec S16 32) (k0_hw396 : k0_chk396 v954 v1042), ∀ a x, ((![v954, v1042] : Fin 2 → IVec S16 32) a x).toNat < S128x200.size a := fun v954 v1042 k0_hw396 => k0_hw396

def k0_chk397 (v1046 : IVec S16 32) : Prop :=
  (∀ a x, ((![v1046] : Fin 1 → IVec S16 32) a x).toNat < S272.size a)
instance k0_chk397.dec : ∀ (v1046 : IVec S16 32), Decidable (k0_chk397 v1046) := fun v1046 => decidable_of_iff' _ (Iff.of_eq (k0_chk397.eq_1 v1046))
theorem k0_idx397_inb : ∀ (v1046 : IVec S16 32) (k0_hw397 : k0_chk397 v1046), ∀ a x, ((![v1046] : Fin 1 → IVec S16 32) a x).toNat < S272.size a := fun v1046 k0_hw397 => k0_hw397
def k0_off33 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c48_i32_355 : BitVec 32 := 48#32
  let v1050 : BitVec 32 := Scalar.addi v648 c48_i32_355
  let v1051 : Index := Scalar.indexCast v1050
  ![v1051.toNat]

def k0_chk398 (v1055 : IVec S16 32) (v1057 : IVec S16 32) : Prop :=
  (∀ a x, ((![v1055, v1057] : Fin 2 → IVec S16 32) a x).toNat < S128x200.size a)
instance k0_chk398.dec : ∀ (v1055 : IVec S16 32) (v1057 : IVec S16 32), Decidable (k0_chk398 v1055 v1057) := fun v1055 v1057 => decidable_of_iff' _ (Iff.of_eq (k0_chk398.eq_1 v1055 v1057))
theorem k0_idx398_inb : ∀ (v1055 : IVec S16 32) (v1057 : IVec S16 32) (k0_hw398 : k0_chk398 v1055 v1057), ∀ a x, ((![v1055, v1057] : Fin 2 → IVec S16 32) a x).toNat < S128x200.size a := fun v1055 v1057 k0_hw398 => k0_hw398

def k0_chk399 (v1055 : IVec S16 32) (v1062 : IVec S16 32) : Prop :=
  (∀ a x, ((![v1055, v1062] : Fin 2 → IVec S16 32) a x).toNat < S128x200.size a)
instance k0_chk399.dec : ∀ (v1055 : IVec S16 32) (v1062 : IVec S16 32), Decidable (k0_chk399 v1055 v1062) := fun v1055 v1062 => decidable_of_iff' _ (Iff.of_eq (k0_chk399.eq_1 v1055 v1062))
theorem k0_idx399_inb : ∀ (v1055 : IVec S16 32) (v1062 : IVec S16 32) (k0_hw399 : k0_chk399 v1055 v1062), ∀ a x, ((![v1055, v1062] : Fin 2 → IVec S16 32) a x).toNat < S128x200.size a := fun v1055 v1062 k0_hw399 => k0_hw399

def k0_chk400 (v1055 : IVec S16 32) (v1067 : IVec S16 32) : Prop :=
  (∀ a x, ((![v1055, v1067] : Fin 2 → IVec S16 32) a x).toNat < S128x200.size a)
instance k0_chk400.dec : ∀ (v1055 : IVec S16 32) (v1067 : IVec S16 32), Decidable (k0_chk400 v1055 v1067) := fun v1055 v1067 => decidable_of_iff' _ (Iff.of_eq (k0_chk400.eq_1 v1055 v1067))
theorem k0_idx400_inb : ∀ (v1055 : IVec S16 32) (v1067 : IVec S16 32) (k0_hw400 : k0_chk400 v1055 v1067), ∀ a x, ((![v1055, v1067] : Fin 2 → IVec S16 32) a x).toNat < S128x200.size a := fun v1055 v1067 k0_hw400 => k0_hw400

def k0_chk401 (v1055 : IVec S16 32) (v1072 : IVec S16 32) : Prop :=
  (∀ a x, ((![v1055, v1072] : Fin 2 → IVec S16 32) a x).toNat < S128x200.size a)
instance k0_chk401.dec : ∀ (v1055 : IVec S16 32) (v1072 : IVec S16 32), Decidable (k0_chk401 v1055 v1072) := fun v1055 v1072 => decidable_of_iff' _ (Iff.of_eq (k0_chk401.eq_1 v1055 v1072))
theorem k0_idx401_inb : ∀ (v1055 : IVec S16 32) (v1072 : IVec S16 32) (k0_hw401 : k0_chk401 v1055 v1072), ∀ a x, ((![v1055, v1072] : Fin 2 → IVec S16 32) a x).toNat < S128x200.size a := fun v1055 v1072 k0_hw401 => k0_hw401

def k0_chk402 (v1082 : IVec S16 32) : Prop :=
  (∀ a x, ((![v1082] : Fin 1 → IVec S16 32) a x).toNat < S4096.size a)
instance k0_chk402.dec : ∀ (v1082 : IVec S16 32), Decidable (k0_chk402 v1082) := fun v1082 => decidable_of_iff' _ (Iff.of_eq (k0_chk402.eq_1 v1082))
theorem k0_idx402_inb : ∀ (v1082 : IVec S16 32) (k0_hw402 : k0_chk402 v1082), ∀ a x, ((![v1082] : Fin 1 → IVec S16 32) a x).toNat < S4096.size a := fun v1082 k0_hw402 => k0_hw402

def k0_chk403 (v1055 : IVec S16 32) (v1085 : IVec S16 32) : Prop :=
  (∀ a x, ((![v1055, v1085] : Fin 2 → IVec S16 32) a x).toNat < S128x200.size a)
instance k0_chk403.dec : ∀ (v1055 : IVec S16 32) (v1085 : IVec S16 32), Decidable (k0_chk403 v1055 v1085) := fun v1055 v1085 => decidable_of_iff' _ (Iff.of_eq (k0_chk403.eq_1 v1055 v1085))
theorem k0_idx403_inb : ∀ (v1055 : IVec S16 32) (v1085 : IVec S16 32) (k0_hw403 : k0_chk403 v1055 v1085), ∀ a x, ((![v1055, v1085] : Fin 2 → IVec S16 32) a x).toNat < S128x200.size a := fun v1055 v1085 k0_hw403 => k0_hw403

def k0_chk404 (v1055 : IVec S16 32) (v1090 : IVec S16 32) : Prop :=
  (∀ a x, ((![v1055, v1090] : Fin 2 → IVec S16 32) a x).toNat < S128x200.size a)
instance k0_chk404.dec : ∀ (v1055 : IVec S16 32) (v1090 : IVec S16 32), Decidable (k0_chk404 v1055 v1090) := fun v1055 v1090 => decidable_of_iff' _ (Iff.of_eq (k0_chk404.eq_1 v1055 v1090))
theorem k0_idx404_inb : ∀ (v1055 : IVec S16 32) (v1090 : IVec S16 32) (k0_hw404 : k0_chk404 v1055 v1090), ∀ a x, ((![v1055, v1090] : Fin 2 → IVec S16 32) a x).toNat < S128x200.size a := fun v1055 v1090 k0_hw404 => k0_hw404

def k0_chk405 (v1055 : IVec S16 32) (v1095 : IVec S16 32) : Prop :=
  (∀ a x, ((![v1055, v1095] : Fin 2 → IVec S16 32) a x).toNat < S128x200.size a)
instance k0_chk405.dec : ∀ (v1055 : IVec S16 32) (v1095 : IVec S16 32), Decidable (k0_chk405 v1055 v1095) := fun v1055 v1095 => decidable_of_iff' _ (Iff.of_eq (k0_chk405.eq_1 v1055 v1095))
theorem k0_idx405_inb : ∀ (v1055 : IVec S16 32) (v1095 : IVec S16 32) (k0_hw405 : k0_chk405 v1055 v1095), ∀ a x, ((![v1055, v1095] : Fin 2 → IVec S16 32) a x).toNat < S128x200.size a := fun v1055 v1095 k0_hw405 => k0_hw405

def k0_chk406 (v1055 : IVec S16 32) (v1100 : IVec S16 32) : Prop :=
  (∀ a x, ((![v1055, v1100] : Fin 2 → IVec S16 32) a x).toNat < S128x200.size a)
instance k0_chk406.dec : ∀ (v1055 : IVec S16 32) (v1100 : IVec S16 32), Decidable (k0_chk406 v1055 v1100) := fun v1055 v1100 => decidable_of_iff' _ (Iff.of_eq (k0_chk406.eq_1 v1055 v1100))
theorem k0_idx406_inb : ∀ (v1055 : IVec S16 32) (v1100 : IVec S16 32) (k0_hw406 : k0_chk406 v1055 v1100), ∀ a x, ((![v1055, v1100] : Fin 2 → IVec S16 32) a x).toNat < S128x200.size a := fun v1055 v1100 k0_hw406 => k0_hw406

def k0_chk407 (v1110 : IVec S16 32) : Prop :=
  (∀ a x, ((![v1110] : Fin 1 → IVec S16 32) a x).toNat < S4096.size a)
instance k0_chk407.dec : ∀ (v1110 : IVec S16 32), Decidable (k0_chk407 v1110) := fun v1110 => decidable_of_iff' _ (Iff.of_eq (k0_chk407.eq_1 v1110))
theorem k0_idx407_inb : ∀ (v1110 : IVec S16 32) (k0_hw407 : k0_chk407 v1110), ∀ a x, ((![v1110] : Fin 1 → IVec S16 32) a x).toNat < S4096.size a := fun v1110 k0_hw407 => k0_hw407

def k0_chk408 (v1055 : IVec S16 32) (v1114 : IVec S16 32) : Prop :=
  (∀ a x, ((![v1055, v1114] : Fin 2 → IVec S16 32) a x).toNat < S128x200.size a)
instance k0_chk408.dec : ∀ (v1055 : IVec S16 32) (v1114 : IVec S16 32), Decidable (k0_chk408 v1055 v1114) := fun v1055 v1114 => decidable_of_iff' _ (Iff.of_eq (k0_chk408.eq_1 v1055 v1114))
theorem k0_idx408_inb : ∀ (v1055 : IVec S16 32) (v1114 : IVec S16 32) (k0_hw408 : k0_chk408 v1055 v1114), ∀ a x, ((![v1055, v1114] : Fin 2 → IVec S16 32) a x).toNat < S128x200.size a := fun v1055 v1114 k0_hw408 => k0_hw408

def k0_chk409 (v1055 : IVec S16 32) (v1119 : IVec S16 32) : Prop :=
  (∀ a x, ((![v1055, v1119] : Fin 2 → IVec S16 32) a x).toNat < S128x200.size a)
instance k0_chk409.dec : ∀ (v1055 : IVec S16 32) (v1119 : IVec S16 32), Decidable (k0_chk409 v1055 v1119) := fun v1055 v1119 => decidable_of_iff' _ (Iff.of_eq (k0_chk409.eq_1 v1055 v1119))
theorem k0_idx409_inb : ∀ (v1055 : IVec S16 32) (v1119 : IVec S16 32) (k0_hw409 : k0_chk409 v1055 v1119), ∀ a x, ((![v1055, v1119] : Fin 2 → IVec S16 32) a x).toNat < S128x200.size a := fun v1055 v1119 k0_hw409 => k0_hw409

def k0_chk410 (v1055 : IVec S16 32) (v1124 : IVec S16 32) : Prop :=
  (∀ a x, ((![v1055, v1124] : Fin 2 → IVec S16 32) a x).toNat < S128x200.size a)
instance k0_chk410.dec : ∀ (v1055 : IVec S16 32) (v1124 : IVec S16 32), Decidable (k0_chk410 v1055 v1124) := fun v1055 v1124 => decidable_of_iff' _ (Iff.of_eq (k0_chk410.eq_1 v1055 v1124))
theorem k0_idx410_inb : ∀ (v1055 : IVec S16 32) (v1124 : IVec S16 32) (k0_hw410 : k0_chk410 v1055 v1124), ∀ a x, ((![v1055, v1124] : Fin 2 → IVec S16 32) a x).toNat < S128x200.size a := fun v1055 v1124 k0_hw410 => k0_hw410

def k0_chk411 (v1055 : IVec S16 32) (v1129 : IVec S16 32) : Prop :=
  (∀ a x, ((![v1055, v1129] : Fin 2 → IVec S16 32) a x).toNat < S128x200.size a)
instance k0_chk411.dec : ∀ (v1055 : IVec S16 32) (v1129 : IVec S16 32), Decidable (k0_chk411 v1055 v1129) := fun v1055 v1129 => decidable_of_iff' _ (Iff.of_eq (k0_chk411.eq_1 v1055 v1129))
theorem k0_idx411_inb : ∀ (v1055 : IVec S16 32) (v1129 : IVec S16 32) (k0_hw411 : k0_chk411 v1055 v1129), ∀ a x, ((![v1055, v1129] : Fin 2 → IVec S16 32) a x).toNat < S128x200.size a := fun v1055 v1129 k0_hw411 => k0_hw411

def k0_chk412 (v1139 : IVec S16 32) : Prop :=
  (∀ a x, ((![v1139] : Fin 1 → IVec S16 32) a x).toNat < S4096.size a)
instance k0_chk412.dec : ∀ (v1139 : IVec S16 32), Decidable (k0_chk412 v1139) := fun v1139 => decidable_of_iff' _ (Iff.of_eq (k0_chk412.eq_1 v1139))
theorem k0_idx412_inb : ∀ (v1139 : IVec S16 32) (k0_hw412 : k0_chk412 v1139), ∀ a x, ((![v1139] : Fin 1 → IVec S16 32) a x).toNat < S4096.size a := fun v1139 k0_hw412 => k0_hw412

def k0_chk413 (v1055 : IVec S16 32) (v1143 : IVec S16 32) : Prop :=
  (∀ a x, ((![v1055, v1143] : Fin 2 → IVec S16 32) a x).toNat < S128x200.size a)
instance k0_chk413.dec : ∀ (v1055 : IVec S16 32) (v1143 : IVec S16 32), Decidable (k0_chk413 v1055 v1143) := fun v1055 v1143 => decidable_of_iff' _ (Iff.of_eq (k0_chk413.eq_1 v1055 v1143))
theorem k0_idx413_inb : ∀ (v1055 : IVec S16 32) (v1143 : IVec S16 32) (k0_hw413 : k0_chk413 v1055 v1143), ∀ a x, ((![v1055, v1143] : Fin 2 → IVec S16 32) a x).toNat < S128x200.size a := fun v1055 v1143 k0_hw413 => k0_hw413

def k0_chk414 (v1147 : IVec S16 32) : Prop :=
  (∀ a x, ((![v1147] : Fin 1 → IVec S16 32) a x).toNat < S272.size a)
instance k0_chk414.dec : ∀ (v1147 : IVec S16 32), Decidable (k0_chk414 v1147) := fun v1147 => decidable_of_iff' _ (Iff.of_eq (k0_chk414.eq_1 v1147))
theorem k0_idx414_inb : ∀ (v1147 : IVec S16 32) (k0_hw414 : k0_chk414 v1147), ∀ a x, ((![v1147] : Fin 1 → IVec S16 32) a x).toNat < S272.size a := fun v1147 k0_hw414 => k0_hw414
def k0_off34 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c64_i32_389 : BitVec 32 := 64#32
  let v1151 : BitVec 32 := Scalar.addi v648 c64_i32_389
  let v1152 : Index := Scalar.indexCast v1151
  ![v1152.toNat]

def k0_chk415 (v1156 : IVec S16 32) (v1158 : IVec S16 32) : Prop :=
  (∀ a x, ((![v1156, v1158] : Fin 2 → IVec S16 32) a x).toNat < S128x200.size a)
instance k0_chk415.dec : ∀ (v1156 : IVec S16 32) (v1158 : IVec S16 32), Decidable (k0_chk415 v1156 v1158) := fun v1156 v1158 => decidable_of_iff' _ (Iff.of_eq (k0_chk415.eq_1 v1156 v1158))
theorem k0_idx415_inb : ∀ (v1156 : IVec S16 32) (v1158 : IVec S16 32) (k0_hw415 : k0_chk415 v1156 v1158), ∀ a x, ((![v1156, v1158] : Fin 2 → IVec S16 32) a x).toNat < S128x200.size a := fun v1156 v1158 k0_hw415 => k0_hw415

def k0_chk416 (v1156 : IVec S16 32) (v1163 : IVec S16 32) : Prop :=
  (∀ a x, ((![v1156, v1163] : Fin 2 → IVec S16 32) a x).toNat < S128x200.size a)
instance k0_chk416.dec : ∀ (v1156 : IVec S16 32) (v1163 : IVec S16 32), Decidable (k0_chk416 v1156 v1163) := fun v1156 v1163 => decidable_of_iff' _ (Iff.of_eq (k0_chk416.eq_1 v1156 v1163))
theorem k0_idx416_inb : ∀ (v1156 : IVec S16 32) (v1163 : IVec S16 32) (k0_hw416 : k0_chk416 v1156 v1163), ∀ a x, ((![v1156, v1163] : Fin 2 → IVec S16 32) a x).toNat < S128x200.size a := fun v1156 v1163 k0_hw416 => k0_hw416

def k0_chk417 (v1156 : IVec S16 32) (v1168 : IVec S16 32) : Prop :=
  (∀ a x, ((![v1156, v1168] : Fin 2 → IVec S16 32) a x).toNat < S128x200.size a)
instance k0_chk417.dec : ∀ (v1156 : IVec S16 32) (v1168 : IVec S16 32), Decidable (k0_chk417 v1156 v1168) := fun v1156 v1168 => decidable_of_iff' _ (Iff.of_eq (k0_chk417.eq_1 v1156 v1168))
theorem k0_idx417_inb : ∀ (v1156 : IVec S16 32) (v1168 : IVec S16 32) (k0_hw417 : k0_chk417 v1156 v1168), ∀ a x, ((![v1156, v1168] : Fin 2 → IVec S16 32) a x).toNat < S128x200.size a := fun v1156 v1168 k0_hw417 => k0_hw417

def k0_chk418 (v1156 : IVec S16 32) (v1173 : IVec S16 32) : Prop :=
  (∀ a x, ((![v1156, v1173] : Fin 2 → IVec S16 32) a x).toNat < S128x200.size a)
instance k0_chk418.dec : ∀ (v1156 : IVec S16 32) (v1173 : IVec S16 32), Decidable (k0_chk418 v1156 v1173) := fun v1156 v1173 => decidable_of_iff' _ (Iff.of_eq (k0_chk418.eq_1 v1156 v1173))
theorem k0_idx418_inb : ∀ (v1156 : IVec S16 32) (v1173 : IVec S16 32) (k0_hw418 : k0_chk418 v1156 v1173), ∀ a x, ((![v1156, v1173] : Fin 2 → IVec S16 32) a x).toNat < S128x200.size a := fun v1156 v1173 k0_hw418 => k0_hw418

def k0_chk419 (v1183 : IVec S16 32) : Prop :=
  (∀ a x, ((![v1183] : Fin 1 → IVec S16 32) a x).toNat < S4096.size a)
instance k0_chk419.dec : ∀ (v1183 : IVec S16 32), Decidable (k0_chk419 v1183) := fun v1183 => decidable_of_iff' _ (Iff.of_eq (k0_chk419.eq_1 v1183))
theorem k0_idx419_inb : ∀ (v1183 : IVec S16 32) (k0_hw419 : k0_chk419 v1183), ∀ a x, ((![v1183] : Fin 1 → IVec S16 32) a x).toNat < S4096.size a := fun v1183 k0_hw419 => k0_hw419

def k0_chk420 (v1156 : IVec S16 32) (v1186 : IVec S16 32) : Prop :=
  (∀ a x, ((![v1156, v1186] : Fin 2 → IVec S16 32) a x).toNat < S128x200.size a)
instance k0_chk420.dec : ∀ (v1156 : IVec S16 32) (v1186 : IVec S16 32), Decidable (k0_chk420 v1156 v1186) := fun v1156 v1186 => decidable_of_iff' _ (Iff.of_eq (k0_chk420.eq_1 v1156 v1186))
theorem k0_idx420_inb : ∀ (v1156 : IVec S16 32) (v1186 : IVec S16 32) (k0_hw420 : k0_chk420 v1156 v1186), ∀ a x, ((![v1156, v1186] : Fin 2 → IVec S16 32) a x).toNat < S128x200.size a := fun v1156 v1186 k0_hw420 => k0_hw420

def k0_chk421 (v1156 : IVec S16 32) (v1191 : IVec S16 32) : Prop :=
  (∀ a x, ((![v1156, v1191] : Fin 2 → IVec S16 32) a x).toNat < S128x200.size a)
instance k0_chk421.dec : ∀ (v1156 : IVec S16 32) (v1191 : IVec S16 32), Decidable (k0_chk421 v1156 v1191) := fun v1156 v1191 => decidable_of_iff' _ (Iff.of_eq (k0_chk421.eq_1 v1156 v1191))
theorem k0_idx421_inb : ∀ (v1156 : IVec S16 32) (v1191 : IVec S16 32) (k0_hw421 : k0_chk421 v1156 v1191), ∀ a x, ((![v1156, v1191] : Fin 2 → IVec S16 32) a x).toNat < S128x200.size a := fun v1156 v1191 k0_hw421 => k0_hw421

def k0_chk422 (v1156 : IVec S16 32) (v1196 : IVec S16 32) : Prop :=
  (∀ a x, ((![v1156, v1196] : Fin 2 → IVec S16 32) a x).toNat < S128x200.size a)
instance k0_chk422.dec : ∀ (v1156 : IVec S16 32) (v1196 : IVec S16 32), Decidable (k0_chk422 v1156 v1196) := fun v1156 v1196 => decidable_of_iff' _ (Iff.of_eq (k0_chk422.eq_1 v1156 v1196))
theorem k0_idx422_inb : ∀ (v1156 : IVec S16 32) (v1196 : IVec S16 32) (k0_hw422 : k0_chk422 v1156 v1196), ∀ a x, ((![v1156, v1196] : Fin 2 → IVec S16 32) a x).toNat < S128x200.size a := fun v1156 v1196 k0_hw422 => k0_hw422

def k0_chk423 (v1156 : IVec S16 32) (v1201 : IVec S16 32) : Prop :=
  (∀ a x, ((![v1156, v1201] : Fin 2 → IVec S16 32) a x).toNat < S128x200.size a)
instance k0_chk423.dec : ∀ (v1156 : IVec S16 32) (v1201 : IVec S16 32), Decidable (k0_chk423 v1156 v1201) := fun v1156 v1201 => decidable_of_iff' _ (Iff.of_eq (k0_chk423.eq_1 v1156 v1201))
theorem k0_idx423_inb : ∀ (v1156 : IVec S16 32) (v1201 : IVec S16 32) (k0_hw423 : k0_chk423 v1156 v1201), ∀ a x, ((![v1156, v1201] : Fin 2 → IVec S16 32) a x).toNat < S128x200.size a := fun v1156 v1201 k0_hw423 => k0_hw423

def k0_chk424 (v1211 : IVec S16 32) : Prop :=
  (∀ a x, ((![v1211] : Fin 1 → IVec S16 32) a x).toNat < S4096.size a)
instance k0_chk424.dec : ∀ (v1211 : IVec S16 32), Decidable (k0_chk424 v1211) := fun v1211 => decidable_of_iff' _ (Iff.of_eq (k0_chk424.eq_1 v1211))
theorem k0_idx424_inb : ∀ (v1211 : IVec S16 32) (k0_hw424 : k0_chk424 v1211), ∀ a x, ((![v1211] : Fin 1 → IVec S16 32) a x).toNat < S4096.size a := fun v1211 k0_hw424 => k0_hw424

def k0_chk425 (v1156 : IVec S16 32) (v1215 : IVec S16 32) : Prop :=
  (∀ a x, ((![v1156, v1215] : Fin 2 → IVec S16 32) a x).toNat < S128x200.size a)
instance k0_chk425.dec : ∀ (v1156 : IVec S16 32) (v1215 : IVec S16 32), Decidable (k0_chk425 v1156 v1215) := fun v1156 v1215 => decidable_of_iff' _ (Iff.of_eq (k0_chk425.eq_1 v1156 v1215))
theorem k0_idx425_inb : ∀ (v1156 : IVec S16 32) (v1215 : IVec S16 32) (k0_hw425 : k0_chk425 v1156 v1215), ∀ a x, ((![v1156, v1215] : Fin 2 → IVec S16 32) a x).toNat < S128x200.size a := fun v1156 v1215 k0_hw425 => k0_hw425

def k0_chk426 (v1156 : IVec S16 32) (v1220 : IVec S16 32) : Prop :=
  (∀ a x, ((![v1156, v1220] : Fin 2 → IVec S16 32) a x).toNat < S128x200.size a)
instance k0_chk426.dec : ∀ (v1156 : IVec S16 32) (v1220 : IVec S16 32), Decidable (k0_chk426 v1156 v1220) := fun v1156 v1220 => decidable_of_iff' _ (Iff.of_eq (k0_chk426.eq_1 v1156 v1220))
theorem k0_idx426_inb : ∀ (v1156 : IVec S16 32) (v1220 : IVec S16 32) (k0_hw426 : k0_chk426 v1156 v1220), ∀ a x, ((![v1156, v1220] : Fin 2 → IVec S16 32) a x).toNat < S128x200.size a := fun v1156 v1220 k0_hw426 => k0_hw426

def k0_chk427 (v1156 : IVec S16 32) (v1225 : IVec S16 32) : Prop :=
  (∀ a x, ((![v1156, v1225] : Fin 2 → IVec S16 32) a x).toNat < S128x200.size a)
instance k0_chk427.dec : ∀ (v1156 : IVec S16 32) (v1225 : IVec S16 32), Decidable (k0_chk427 v1156 v1225) := fun v1156 v1225 => decidable_of_iff' _ (Iff.of_eq (k0_chk427.eq_1 v1156 v1225))
theorem k0_idx427_inb : ∀ (v1156 : IVec S16 32) (v1225 : IVec S16 32) (k0_hw427 : k0_chk427 v1156 v1225), ∀ a x, ((![v1156, v1225] : Fin 2 → IVec S16 32) a x).toNat < S128x200.size a := fun v1156 v1225 k0_hw427 => k0_hw427

def k0_chk428 (v1156 : IVec S16 32) (v1230 : IVec S16 32) : Prop :=
  (∀ a x, ((![v1156, v1230] : Fin 2 → IVec S16 32) a x).toNat < S128x200.size a)
instance k0_chk428.dec : ∀ (v1156 : IVec S16 32) (v1230 : IVec S16 32), Decidable (k0_chk428 v1156 v1230) := fun v1156 v1230 => decidable_of_iff' _ (Iff.of_eq (k0_chk428.eq_1 v1156 v1230))
theorem k0_idx428_inb : ∀ (v1156 : IVec S16 32) (v1230 : IVec S16 32) (k0_hw428 : k0_chk428 v1156 v1230), ∀ a x, ((![v1156, v1230] : Fin 2 → IVec S16 32) a x).toNat < S128x200.size a := fun v1156 v1230 k0_hw428 => k0_hw428

def k0_chk429 (v1240 : IVec S16 32) : Prop :=
  (∀ a x, ((![v1240] : Fin 1 → IVec S16 32) a x).toNat < S4096.size a)
instance k0_chk429.dec : ∀ (v1240 : IVec S16 32), Decidable (k0_chk429 v1240) := fun v1240 => decidable_of_iff' _ (Iff.of_eq (k0_chk429.eq_1 v1240))
theorem k0_idx429_inb : ∀ (v1240 : IVec S16 32) (k0_hw429 : k0_chk429 v1240), ∀ a x, ((![v1240] : Fin 1 → IVec S16 32) a x).toNat < S4096.size a := fun v1240 k0_hw429 => k0_hw429

def k0_chk430 (v1156 : IVec S16 32) (v1244 : IVec S16 32) : Prop :=
  (∀ a x, ((![v1156, v1244] : Fin 2 → IVec S16 32) a x).toNat < S128x200.size a)
instance k0_chk430.dec : ∀ (v1156 : IVec S16 32) (v1244 : IVec S16 32), Decidable (k0_chk430 v1156 v1244) := fun v1156 v1244 => decidable_of_iff' _ (Iff.of_eq (k0_chk430.eq_1 v1156 v1244))
theorem k0_idx430_inb : ∀ (v1156 : IVec S16 32) (v1244 : IVec S16 32) (k0_hw430 : k0_chk430 v1156 v1244), ∀ a x, ((![v1156, v1244] : Fin 2 → IVec S16 32) a x).toNat < S128x200.size a := fun v1156 v1244 k0_hw430 => k0_hw430

def k0_chk431 (v1248 : IVec S16 32) : Prop :=
  (∀ a x, ((![v1248] : Fin 1 → IVec S16 32) a x).toNat < S272.size a)
instance k0_chk431.dec : ∀ (v1248 : IVec S16 32), Decidable (k0_chk431 v1248) := fun v1248 => decidable_of_iff' _ (Iff.of_eq (k0_chk431.eq_1 v1248))
theorem k0_idx431_inb : ∀ (v1248 : IVec S16 32) (k0_hw431 : k0_chk431 v1248), ∀ a x, ((![v1248] : Fin 1 → IVec S16 32) a x).toNat < S272.size a := fun v1248 k0_hw431 => k0_hw431
def k0_off35 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c80_i32_423 : BitVec 32 := 80#32
  let v1252 : BitVec 32 := Scalar.addi v648 c80_i32_423
  let v1253 : Index := Scalar.indexCast v1252
  ![v1253.toNat]

def k0_chk432 (v1257 : IVec S16 32) (v1259 : IVec S16 32) : Prop :=
  (∀ a x, ((![v1257, v1259] : Fin 2 → IVec S16 32) a x).toNat < S128x200.size a)
instance k0_chk432.dec : ∀ (v1257 : IVec S16 32) (v1259 : IVec S16 32), Decidable (k0_chk432 v1257 v1259) := fun v1257 v1259 => decidable_of_iff' _ (Iff.of_eq (k0_chk432.eq_1 v1257 v1259))
theorem k0_idx432_inb : ∀ (v1257 : IVec S16 32) (v1259 : IVec S16 32) (k0_hw432 : k0_chk432 v1257 v1259), ∀ a x, ((![v1257, v1259] : Fin 2 → IVec S16 32) a x).toNat < S128x200.size a := fun v1257 v1259 k0_hw432 => k0_hw432

def k0_chk433 (v1257 : IVec S16 32) (v1264 : IVec S16 32) : Prop :=
  (∀ a x, ((![v1257, v1264] : Fin 2 → IVec S16 32) a x).toNat < S128x200.size a)
instance k0_chk433.dec : ∀ (v1257 : IVec S16 32) (v1264 : IVec S16 32), Decidable (k0_chk433 v1257 v1264) := fun v1257 v1264 => decidable_of_iff' _ (Iff.of_eq (k0_chk433.eq_1 v1257 v1264))
theorem k0_idx433_inb : ∀ (v1257 : IVec S16 32) (v1264 : IVec S16 32) (k0_hw433 : k0_chk433 v1257 v1264), ∀ a x, ((![v1257, v1264] : Fin 2 → IVec S16 32) a x).toNat < S128x200.size a := fun v1257 v1264 k0_hw433 => k0_hw433

def k0_chk434 (v1257 : IVec S16 32) (v1269 : IVec S16 32) : Prop :=
  (∀ a x, ((![v1257, v1269] : Fin 2 → IVec S16 32) a x).toNat < S128x200.size a)
instance k0_chk434.dec : ∀ (v1257 : IVec S16 32) (v1269 : IVec S16 32), Decidable (k0_chk434 v1257 v1269) := fun v1257 v1269 => decidable_of_iff' _ (Iff.of_eq (k0_chk434.eq_1 v1257 v1269))
theorem k0_idx434_inb : ∀ (v1257 : IVec S16 32) (v1269 : IVec S16 32) (k0_hw434 : k0_chk434 v1257 v1269), ∀ a x, ((![v1257, v1269] : Fin 2 → IVec S16 32) a x).toNat < S128x200.size a := fun v1257 v1269 k0_hw434 => k0_hw434

def k0_chk435 (v1257 : IVec S16 32) (v1274 : IVec S16 32) : Prop :=
  (∀ a x, ((![v1257, v1274] : Fin 2 → IVec S16 32) a x).toNat < S128x200.size a)
instance k0_chk435.dec : ∀ (v1257 : IVec S16 32) (v1274 : IVec S16 32), Decidable (k0_chk435 v1257 v1274) := fun v1257 v1274 => decidable_of_iff' _ (Iff.of_eq (k0_chk435.eq_1 v1257 v1274))
theorem k0_idx435_inb : ∀ (v1257 : IVec S16 32) (v1274 : IVec S16 32) (k0_hw435 : k0_chk435 v1257 v1274), ∀ a x, ((![v1257, v1274] : Fin 2 → IVec S16 32) a x).toNat < S128x200.size a := fun v1257 v1274 k0_hw435 => k0_hw435

def k0_chk436 (v1284 : IVec S16 32) : Prop :=
  (∀ a x, ((![v1284] : Fin 1 → IVec S16 32) a x).toNat < S4096.size a)
instance k0_chk436.dec : ∀ (v1284 : IVec S16 32), Decidable (k0_chk436 v1284) := fun v1284 => decidable_of_iff' _ (Iff.of_eq (k0_chk436.eq_1 v1284))
theorem k0_idx436_inb : ∀ (v1284 : IVec S16 32) (k0_hw436 : k0_chk436 v1284), ∀ a x, ((![v1284] : Fin 1 → IVec S16 32) a x).toNat < S4096.size a := fun v1284 k0_hw436 => k0_hw436

def k0_chk437 (v1257 : IVec S16 32) (v1287 : IVec S16 32) : Prop :=
  (∀ a x, ((![v1257, v1287] : Fin 2 → IVec S16 32) a x).toNat < S128x200.size a)
instance k0_chk437.dec : ∀ (v1257 : IVec S16 32) (v1287 : IVec S16 32), Decidable (k0_chk437 v1257 v1287) := fun v1257 v1287 => decidable_of_iff' _ (Iff.of_eq (k0_chk437.eq_1 v1257 v1287))
theorem k0_idx437_inb : ∀ (v1257 : IVec S16 32) (v1287 : IVec S16 32) (k0_hw437 : k0_chk437 v1257 v1287), ∀ a x, ((![v1257, v1287] : Fin 2 → IVec S16 32) a x).toNat < S128x200.size a := fun v1257 v1287 k0_hw437 => k0_hw437

def k0_chk438 (v1257 : IVec S16 32) (v1292 : IVec S16 32) : Prop :=
  (∀ a x, ((![v1257, v1292] : Fin 2 → IVec S16 32) a x).toNat < S128x200.size a)
instance k0_chk438.dec : ∀ (v1257 : IVec S16 32) (v1292 : IVec S16 32), Decidable (k0_chk438 v1257 v1292) := fun v1257 v1292 => decidable_of_iff' _ (Iff.of_eq (k0_chk438.eq_1 v1257 v1292))
theorem k0_idx438_inb : ∀ (v1257 : IVec S16 32) (v1292 : IVec S16 32) (k0_hw438 : k0_chk438 v1257 v1292), ∀ a x, ((![v1257, v1292] : Fin 2 → IVec S16 32) a x).toNat < S128x200.size a := fun v1257 v1292 k0_hw438 => k0_hw438

def k0_chk439 (v1257 : IVec S16 32) (v1297 : IVec S16 32) : Prop :=
  (∀ a x, ((![v1257, v1297] : Fin 2 → IVec S16 32) a x).toNat < S128x200.size a)
instance k0_chk439.dec : ∀ (v1257 : IVec S16 32) (v1297 : IVec S16 32), Decidable (k0_chk439 v1257 v1297) := fun v1257 v1297 => decidable_of_iff' _ (Iff.of_eq (k0_chk439.eq_1 v1257 v1297))
theorem k0_idx439_inb : ∀ (v1257 : IVec S16 32) (v1297 : IVec S16 32) (k0_hw439 : k0_chk439 v1257 v1297), ∀ a x, ((![v1257, v1297] : Fin 2 → IVec S16 32) a x).toNat < S128x200.size a := fun v1257 v1297 k0_hw439 => k0_hw439

def k0_chk440 (v1257 : IVec S16 32) (v1302 : IVec S16 32) : Prop :=
  (∀ a x, ((![v1257, v1302] : Fin 2 → IVec S16 32) a x).toNat < S128x200.size a)
instance k0_chk440.dec : ∀ (v1257 : IVec S16 32) (v1302 : IVec S16 32), Decidable (k0_chk440 v1257 v1302) := fun v1257 v1302 => decidable_of_iff' _ (Iff.of_eq (k0_chk440.eq_1 v1257 v1302))
theorem k0_idx440_inb : ∀ (v1257 : IVec S16 32) (v1302 : IVec S16 32) (k0_hw440 : k0_chk440 v1257 v1302), ∀ a x, ((![v1257, v1302] : Fin 2 → IVec S16 32) a x).toNat < S128x200.size a := fun v1257 v1302 k0_hw440 => k0_hw440

def k0_chk441 (v1312 : IVec S16 32) : Prop :=
  (∀ a x, ((![v1312] : Fin 1 → IVec S16 32) a x).toNat < S4096.size a)
instance k0_chk441.dec : ∀ (v1312 : IVec S16 32), Decidable (k0_chk441 v1312) := fun v1312 => decidable_of_iff' _ (Iff.of_eq (k0_chk441.eq_1 v1312))
theorem k0_idx441_inb : ∀ (v1312 : IVec S16 32) (k0_hw441 : k0_chk441 v1312), ∀ a x, ((![v1312] : Fin 1 → IVec S16 32) a x).toNat < S4096.size a := fun v1312 k0_hw441 => k0_hw441

def k0_chk442 (v1257 : IVec S16 32) (v1316 : IVec S16 32) : Prop :=
  (∀ a x, ((![v1257, v1316] : Fin 2 → IVec S16 32) a x).toNat < S128x200.size a)
instance k0_chk442.dec : ∀ (v1257 : IVec S16 32) (v1316 : IVec S16 32), Decidable (k0_chk442 v1257 v1316) := fun v1257 v1316 => decidable_of_iff' _ (Iff.of_eq (k0_chk442.eq_1 v1257 v1316))
theorem k0_idx442_inb : ∀ (v1257 : IVec S16 32) (v1316 : IVec S16 32) (k0_hw442 : k0_chk442 v1257 v1316), ∀ a x, ((![v1257, v1316] : Fin 2 → IVec S16 32) a x).toNat < S128x200.size a := fun v1257 v1316 k0_hw442 => k0_hw442

def k0_chk443 (v1257 : IVec S16 32) (v1321 : IVec S16 32) : Prop :=
  (∀ a x, ((![v1257, v1321] : Fin 2 → IVec S16 32) a x).toNat < S128x200.size a)
instance k0_chk443.dec : ∀ (v1257 : IVec S16 32) (v1321 : IVec S16 32), Decidable (k0_chk443 v1257 v1321) := fun v1257 v1321 => decidable_of_iff' _ (Iff.of_eq (k0_chk443.eq_1 v1257 v1321))
theorem k0_idx443_inb : ∀ (v1257 : IVec S16 32) (v1321 : IVec S16 32) (k0_hw443 : k0_chk443 v1257 v1321), ∀ a x, ((![v1257, v1321] : Fin 2 → IVec S16 32) a x).toNat < S128x200.size a := fun v1257 v1321 k0_hw443 => k0_hw443

def k0_chk444 (v1257 : IVec S16 32) (v1326 : IVec S16 32) : Prop :=
  (∀ a x, ((![v1257, v1326] : Fin 2 → IVec S16 32) a x).toNat < S128x200.size a)
instance k0_chk444.dec : ∀ (v1257 : IVec S16 32) (v1326 : IVec S16 32), Decidable (k0_chk444 v1257 v1326) := fun v1257 v1326 => decidable_of_iff' _ (Iff.of_eq (k0_chk444.eq_1 v1257 v1326))
theorem k0_idx444_inb : ∀ (v1257 : IVec S16 32) (v1326 : IVec S16 32) (k0_hw444 : k0_chk444 v1257 v1326), ∀ a x, ((![v1257, v1326] : Fin 2 → IVec S16 32) a x).toNat < S128x200.size a := fun v1257 v1326 k0_hw444 => k0_hw444

def k0_chk445 (v1257 : IVec S16 32) (v1331 : IVec S16 32) : Prop :=
  (∀ a x, ((![v1257, v1331] : Fin 2 → IVec S16 32) a x).toNat < S128x200.size a)
instance k0_chk445.dec : ∀ (v1257 : IVec S16 32) (v1331 : IVec S16 32), Decidable (k0_chk445 v1257 v1331) := fun v1257 v1331 => decidable_of_iff' _ (Iff.of_eq (k0_chk445.eq_1 v1257 v1331))
theorem k0_idx445_inb : ∀ (v1257 : IVec S16 32) (v1331 : IVec S16 32) (k0_hw445 : k0_chk445 v1257 v1331), ∀ a x, ((![v1257, v1331] : Fin 2 → IVec S16 32) a x).toNat < S128x200.size a := fun v1257 v1331 k0_hw445 => k0_hw445

def k0_chk446 (v1341 : IVec S16 32) : Prop :=
  (∀ a x, ((![v1341] : Fin 1 → IVec S16 32) a x).toNat < S4096.size a)
instance k0_chk446.dec : ∀ (v1341 : IVec S16 32), Decidable (k0_chk446 v1341) := fun v1341 => decidable_of_iff' _ (Iff.of_eq (k0_chk446.eq_1 v1341))
theorem k0_idx446_inb : ∀ (v1341 : IVec S16 32) (k0_hw446 : k0_chk446 v1341), ∀ a x, ((![v1341] : Fin 1 → IVec S16 32) a x).toNat < S4096.size a := fun v1341 k0_hw446 => k0_hw446

def k0_chk447 (v1257 : IVec S16 32) (v1345 : IVec S16 32) : Prop :=
  (∀ a x, ((![v1257, v1345] : Fin 2 → IVec S16 32) a x).toNat < S128x200.size a)
instance k0_chk447.dec : ∀ (v1257 : IVec S16 32) (v1345 : IVec S16 32), Decidable (k0_chk447 v1257 v1345) := fun v1257 v1345 => decidable_of_iff' _ (Iff.of_eq (k0_chk447.eq_1 v1257 v1345))
theorem k0_idx447_inb : ∀ (v1257 : IVec S16 32) (v1345 : IVec S16 32) (k0_hw447 : k0_chk447 v1257 v1345), ∀ a x, ((![v1257, v1345] : Fin 2 → IVec S16 32) a x).toNat < S128x200.size a := fun v1257 v1345 k0_hw447 => k0_hw447

def k0_chk448 (v1349 : IVec S16 32) : Prop :=
  (∀ a x, ((![v1349] : Fin 1 → IVec S16 32) a x).toNat < S272.size a)
instance k0_chk448.dec : ∀ (v1349 : IVec S16 32), Decidable (k0_chk448 v1349) := fun v1349 => decidable_of_iff' _ (Iff.of_eq (k0_chk448.eq_1 v1349))
theorem k0_idx448_inb : ∀ (v1349 : IVec S16 32) (k0_hw448 : k0_chk448 v1349), ∀ a x, ((![v1349] : Fin 1 → IVec S16 32) a x).toNat < S272.size a := fun v1349 k0_hw448 => k0_hw448
def k0_off36 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c96_i32_458 : BitVec 32 := 96#32
  let v1353 : BitVec 32 := Scalar.addi v648 c96_i32_458
  let v1354 : Index := Scalar.indexCast v1353
  ![v1354.toNat]

def k0_chk449 (v1358 : IVec S16 32) (v1360 : IVec S16 32) : Prop :=
  (∀ a x, ((![v1358, v1360] : Fin 2 → IVec S16 32) a x).toNat < S128x200.size a)
instance k0_chk449.dec : ∀ (v1358 : IVec S16 32) (v1360 : IVec S16 32), Decidable (k0_chk449 v1358 v1360) := fun v1358 v1360 => decidable_of_iff' _ (Iff.of_eq (k0_chk449.eq_1 v1358 v1360))
theorem k0_idx449_inb : ∀ (v1358 : IVec S16 32) (v1360 : IVec S16 32) (k0_hw449 : k0_chk449 v1358 v1360), ∀ a x, ((![v1358, v1360] : Fin 2 → IVec S16 32) a x).toNat < S128x200.size a := fun v1358 v1360 k0_hw449 => k0_hw449

def k0_chk450 (v1358 : IVec S16 32) (v1365 : IVec S16 32) : Prop :=
  (∀ a x, ((![v1358, v1365] : Fin 2 → IVec S16 32) a x).toNat < S128x200.size a)
instance k0_chk450.dec : ∀ (v1358 : IVec S16 32) (v1365 : IVec S16 32), Decidable (k0_chk450 v1358 v1365) := fun v1358 v1365 => decidable_of_iff' _ (Iff.of_eq (k0_chk450.eq_1 v1358 v1365))
theorem k0_idx450_inb : ∀ (v1358 : IVec S16 32) (v1365 : IVec S16 32) (k0_hw450 : k0_chk450 v1358 v1365), ∀ a x, ((![v1358, v1365] : Fin 2 → IVec S16 32) a x).toNat < S128x200.size a := fun v1358 v1365 k0_hw450 => k0_hw450

def k0_chk451 (v1358 : IVec S16 32) (v1370 : IVec S16 32) : Prop :=
  (∀ a x, ((![v1358, v1370] : Fin 2 → IVec S16 32) a x).toNat < S128x200.size a)
instance k0_chk451.dec : ∀ (v1358 : IVec S16 32) (v1370 : IVec S16 32), Decidable (k0_chk451 v1358 v1370) := fun v1358 v1370 => decidable_of_iff' _ (Iff.of_eq (k0_chk451.eq_1 v1358 v1370))
theorem k0_idx451_inb : ∀ (v1358 : IVec S16 32) (v1370 : IVec S16 32) (k0_hw451 : k0_chk451 v1358 v1370), ∀ a x, ((![v1358, v1370] : Fin 2 → IVec S16 32) a x).toNat < S128x200.size a := fun v1358 v1370 k0_hw451 => k0_hw451

def k0_chk452 (v1358 : IVec S16 32) (v1375 : IVec S16 32) : Prop :=
  (∀ a x, ((![v1358, v1375] : Fin 2 → IVec S16 32) a x).toNat < S128x200.size a)
instance k0_chk452.dec : ∀ (v1358 : IVec S16 32) (v1375 : IVec S16 32), Decidable (k0_chk452 v1358 v1375) := fun v1358 v1375 => decidable_of_iff' _ (Iff.of_eq (k0_chk452.eq_1 v1358 v1375))
theorem k0_idx452_inb : ∀ (v1358 : IVec S16 32) (v1375 : IVec S16 32) (k0_hw452 : k0_chk452 v1358 v1375), ∀ a x, ((![v1358, v1375] : Fin 2 → IVec S16 32) a x).toNat < S128x200.size a := fun v1358 v1375 k0_hw452 => k0_hw452

def k0_chk453 (v1385 : IVec S16 32) : Prop :=
  (∀ a x, ((![v1385] : Fin 1 → IVec S16 32) a x).toNat < S4096.size a)
instance k0_chk453.dec : ∀ (v1385 : IVec S16 32), Decidable (k0_chk453 v1385) := fun v1385 => decidable_of_iff' _ (Iff.of_eq (k0_chk453.eq_1 v1385))
theorem k0_idx453_inb : ∀ (v1385 : IVec S16 32) (k0_hw453 : k0_chk453 v1385), ∀ a x, ((![v1385] : Fin 1 → IVec S16 32) a x).toNat < S4096.size a := fun v1385 k0_hw453 => k0_hw453

def k0_chk454 (v1358 : IVec S16 32) (v1388 : IVec S16 32) : Prop :=
  (∀ a x, ((![v1358, v1388] : Fin 2 → IVec S16 32) a x).toNat < S128x200.size a)
instance k0_chk454.dec : ∀ (v1358 : IVec S16 32) (v1388 : IVec S16 32), Decidable (k0_chk454 v1358 v1388) := fun v1358 v1388 => decidable_of_iff' _ (Iff.of_eq (k0_chk454.eq_1 v1358 v1388))
theorem k0_idx454_inb : ∀ (v1358 : IVec S16 32) (v1388 : IVec S16 32) (k0_hw454 : k0_chk454 v1358 v1388), ∀ a x, ((![v1358, v1388] : Fin 2 → IVec S16 32) a x).toNat < S128x200.size a := fun v1358 v1388 k0_hw454 => k0_hw454

def k0_chk455 (v1358 : IVec S16 32) (v1393 : IVec S16 32) : Prop :=
  (∀ a x, ((![v1358, v1393] : Fin 2 → IVec S16 32) a x).toNat < S128x200.size a)
instance k0_chk455.dec : ∀ (v1358 : IVec S16 32) (v1393 : IVec S16 32), Decidable (k0_chk455 v1358 v1393) := fun v1358 v1393 => decidable_of_iff' _ (Iff.of_eq (k0_chk455.eq_1 v1358 v1393))
theorem k0_idx455_inb : ∀ (v1358 : IVec S16 32) (v1393 : IVec S16 32) (k0_hw455 : k0_chk455 v1358 v1393), ∀ a x, ((![v1358, v1393] : Fin 2 → IVec S16 32) a x).toNat < S128x200.size a := fun v1358 v1393 k0_hw455 => k0_hw455

def k0_chk456 (v1358 : IVec S16 32) (v1398 : IVec S16 32) : Prop :=
  (∀ a x, ((![v1358, v1398] : Fin 2 → IVec S16 32) a x).toNat < S128x200.size a)
instance k0_chk456.dec : ∀ (v1358 : IVec S16 32) (v1398 : IVec S16 32), Decidable (k0_chk456 v1358 v1398) := fun v1358 v1398 => decidable_of_iff' _ (Iff.of_eq (k0_chk456.eq_1 v1358 v1398))
theorem k0_idx456_inb : ∀ (v1358 : IVec S16 32) (v1398 : IVec S16 32) (k0_hw456 : k0_chk456 v1358 v1398), ∀ a x, ((![v1358, v1398] : Fin 2 → IVec S16 32) a x).toNat < S128x200.size a := fun v1358 v1398 k0_hw456 => k0_hw456

def k0_chk457 (v1358 : IVec S16 32) (v1403 : IVec S16 32) : Prop :=
  (∀ a x, ((![v1358, v1403] : Fin 2 → IVec S16 32) a x).toNat < S128x200.size a)
instance k0_chk457.dec : ∀ (v1358 : IVec S16 32) (v1403 : IVec S16 32), Decidable (k0_chk457 v1358 v1403) := fun v1358 v1403 => decidable_of_iff' _ (Iff.of_eq (k0_chk457.eq_1 v1358 v1403))
theorem k0_idx457_inb : ∀ (v1358 : IVec S16 32) (v1403 : IVec S16 32) (k0_hw457 : k0_chk457 v1358 v1403), ∀ a x, ((![v1358, v1403] : Fin 2 → IVec S16 32) a x).toNat < S128x200.size a := fun v1358 v1403 k0_hw457 => k0_hw457

def k0_chk458 (v1413 : IVec S16 32) : Prop :=
  (∀ a x, ((![v1413] : Fin 1 → IVec S16 32) a x).toNat < S4096.size a)
instance k0_chk458.dec : ∀ (v1413 : IVec S16 32), Decidable (k0_chk458 v1413) := fun v1413 => decidable_of_iff' _ (Iff.of_eq (k0_chk458.eq_1 v1413))
theorem k0_idx458_inb : ∀ (v1413 : IVec S16 32) (k0_hw458 : k0_chk458 v1413), ∀ a x, ((![v1413] : Fin 1 → IVec S16 32) a x).toNat < S4096.size a := fun v1413 k0_hw458 => k0_hw458

def k0_chk459 (v1358 : IVec S16 32) (v1417 : IVec S16 32) : Prop :=
  (∀ a x, ((![v1358, v1417] : Fin 2 → IVec S16 32) a x).toNat < S128x200.size a)
instance k0_chk459.dec : ∀ (v1358 : IVec S16 32) (v1417 : IVec S16 32), Decidable (k0_chk459 v1358 v1417) := fun v1358 v1417 => decidable_of_iff' _ (Iff.of_eq (k0_chk459.eq_1 v1358 v1417))
theorem k0_idx459_inb : ∀ (v1358 : IVec S16 32) (v1417 : IVec S16 32) (k0_hw459 : k0_chk459 v1358 v1417), ∀ a x, ((![v1358, v1417] : Fin 2 → IVec S16 32) a x).toNat < S128x200.size a := fun v1358 v1417 k0_hw459 => k0_hw459

def k0_chk460 (v1358 : IVec S16 32) (v1422 : IVec S16 32) : Prop :=
  (∀ a x, ((![v1358, v1422] : Fin 2 → IVec S16 32) a x).toNat < S128x200.size a)
instance k0_chk460.dec : ∀ (v1358 : IVec S16 32) (v1422 : IVec S16 32), Decidable (k0_chk460 v1358 v1422) := fun v1358 v1422 => decidable_of_iff' _ (Iff.of_eq (k0_chk460.eq_1 v1358 v1422))
theorem k0_idx460_inb : ∀ (v1358 : IVec S16 32) (v1422 : IVec S16 32) (k0_hw460 : k0_chk460 v1358 v1422), ∀ a x, ((![v1358, v1422] : Fin 2 → IVec S16 32) a x).toNat < S128x200.size a := fun v1358 v1422 k0_hw460 => k0_hw460

def k0_chk461 (v1358 : IVec S16 32) (v1427 : IVec S16 32) : Prop :=
  (∀ a x, ((![v1358, v1427] : Fin 2 → IVec S16 32) a x).toNat < S128x200.size a)
instance k0_chk461.dec : ∀ (v1358 : IVec S16 32) (v1427 : IVec S16 32), Decidable (k0_chk461 v1358 v1427) := fun v1358 v1427 => decidable_of_iff' _ (Iff.of_eq (k0_chk461.eq_1 v1358 v1427))
theorem k0_idx461_inb : ∀ (v1358 : IVec S16 32) (v1427 : IVec S16 32) (k0_hw461 : k0_chk461 v1358 v1427), ∀ a x, ((![v1358, v1427] : Fin 2 → IVec S16 32) a x).toNat < S128x200.size a := fun v1358 v1427 k0_hw461 => k0_hw461

def k0_chk462 (v1358 : IVec S16 32) (v1432 : IVec S16 32) : Prop :=
  (∀ a x, ((![v1358, v1432] : Fin 2 → IVec S16 32) a x).toNat < S128x200.size a)
instance k0_chk462.dec : ∀ (v1358 : IVec S16 32) (v1432 : IVec S16 32), Decidable (k0_chk462 v1358 v1432) := fun v1358 v1432 => decidable_of_iff' _ (Iff.of_eq (k0_chk462.eq_1 v1358 v1432))
theorem k0_idx462_inb : ∀ (v1358 : IVec S16 32) (v1432 : IVec S16 32) (k0_hw462 : k0_chk462 v1358 v1432), ∀ a x, ((![v1358, v1432] : Fin 2 → IVec S16 32) a x).toNat < S128x200.size a := fun v1358 v1432 k0_hw462 => k0_hw462

def k0_chk463 (v1442 : IVec S16 32) : Prop :=
  (∀ a x, ((![v1442] : Fin 1 → IVec S16 32) a x).toNat < S4096.size a)
instance k0_chk463.dec : ∀ (v1442 : IVec S16 32), Decidable (k0_chk463 v1442) := fun v1442 => decidable_of_iff' _ (Iff.of_eq (k0_chk463.eq_1 v1442))
theorem k0_idx463_inb : ∀ (v1442 : IVec S16 32) (k0_hw463 : k0_chk463 v1442), ∀ a x, ((![v1442] : Fin 1 → IVec S16 32) a x).toNat < S4096.size a := fun v1442 k0_hw463 => k0_hw463

def k0_chk464 (v1358 : IVec S16 32) (v1446 : IVec S16 32) : Prop :=
  (∀ a x, ((![v1358, v1446] : Fin 2 → IVec S16 32) a x).toNat < S128x200.size a)
instance k0_chk464.dec : ∀ (v1358 : IVec S16 32) (v1446 : IVec S16 32), Decidable (k0_chk464 v1358 v1446) := fun v1358 v1446 => decidable_of_iff' _ (Iff.of_eq (k0_chk464.eq_1 v1358 v1446))
theorem k0_idx464_inb : ∀ (v1358 : IVec S16 32) (v1446 : IVec S16 32) (k0_hw464 : k0_chk464 v1358 v1446), ∀ a x, ((![v1358, v1446] : Fin 2 → IVec S16 32) a x).toNat < S128x200.size a := fun v1358 v1446 k0_hw464 => k0_hw464

def k0_chk465 (v1450 : IVec S16 32) : Prop :=
  (∀ a x, ((![v1450] : Fin 1 → IVec S16 32) a x).toNat < S272.size a)
instance k0_chk465.dec : ∀ (v1450 : IVec S16 32), Decidable (k0_chk465 v1450) := fun v1450 => decidable_of_iff' _ (Iff.of_eq (k0_chk465.eq_1 v1450))
theorem k0_idx465_inb : ∀ (v1450 : IVec S16 32) (k0_hw465 : k0_chk465 v1450), ∀ a x, ((![v1450] : Fin 1 → IVec S16 32) a x).toNat < S272.size a := fun v1450 k0_hw465 => k0_hw465
def k0_off37 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c112_i32_493 : BitVec 32 := 112#32
  let v1454 : BitVec 32 := Scalar.addi v648 c112_i32_493
  let v1455 : Index := Scalar.indexCast v1454
  ![v1455.toNat]

def k0_chk466 (v1459 : IVec S16 32) (v1461 : IVec S16 32) : Prop :=
  (∀ a x, ((![v1459, v1461] : Fin 2 → IVec S16 32) a x).toNat < S128x200.size a)
instance k0_chk466.dec : ∀ (v1459 : IVec S16 32) (v1461 : IVec S16 32), Decidable (k0_chk466 v1459 v1461) := fun v1459 v1461 => decidable_of_iff' _ (Iff.of_eq (k0_chk466.eq_1 v1459 v1461))
theorem k0_idx466_inb : ∀ (v1459 : IVec S16 32) (v1461 : IVec S16 32) (k0_hw466 : k0_chk466 v1459 v1461), ∀ a x, ((![v1459, v1461] : Fin 2 → IVec S16 32) a x).toNat < S128x200.size a := fun v1459 v1461 k0_hw466 => k0_hw466

def k0_chk467 (v1459 : IVec S16 32) (v1466 : IVec S16 32) : Prop :=
  (∀ a x, ((![v1459, v1466] : Fin 2 → IVec S16 32) a x).toNat < S128x200.size a)
instance k0_chk467.dec : ∀ (v1459 : IVec S16 32) (v1466 : IVec S16 32), Decidable (k0_chk467 v1459 v1466) := fun v1459 v1466 => decidable_of_iff' _ (Iff.of_eq (k0_chk467.eq_1 v1459 v1466))
theorem k0_idx467_inb : ∀ (v1459 : IVec S16 32) (v1466 : IVec S16 32) (k0_hw467 : k0_chk467 v1459 v1466), ∀ a x, ((![v1459, v1466] : Fin 2 → IVec S16 32) a x).toNat < S128x200.size a := fun v1459 v1466 k0_hw467 => k0_hw467

def k0_chk468 (v1459 : IVec S16 32) (v1471 : IVec S16 32) : Prop :=
  (∀ a x, ((![v1459, v1471] : Fin 2 → IVec S16 32) a x).toNat < S128x200.size a)
instance k0_chk468.dec : ∀ (v1459 : IVec S16 32) (v1471 : IVec S16 32), Decidable (k0_chk468 v1459 v1471) := fun v1459 v1471 => decidable_of_iff' _ (Iff.of_eq (k0_chk468.eq_1 v1459 v1471))
theorem k0_idx468_inb : ∀ (v1459 : IVec S16 32) (v1471 : IVec S16 32) (k0_hw468 : k0_chk468 v1459 v1471), ∀ a x, ((![v1459, v1471] : Fin 2 → IVec S16 32) a x).toNat < S128x200.size a := fun v1459 v1471 k0_hw468 => k0_hw468

def k0_chk469 (v1459 : IVec S16 32) (v1476 : IVec S16 32) : Prop :=
  (∀ a x, ((![v1459, v1476] : Fin 2 → IVec S16 32) a x).toNat < S128x200.size a)
instance k0_chk469.dec : ∀ (v1459 : IVec S16 32) (v1476 : IVec S16 32), Decidable (k0_chk469 v1459 v1476) := fun v1459 v1476 => decidable_of_iff' _ (Iff.of_eq (k0_chk469.eq_1 v1459 v1476))
theorem k0_idx469_inb : ∀ (v1459 : IVec S16 32) (v1476 : IVec S16 32) (k0_hw469 : k0_chk469 v1459 v1476), ∀ a x, ((![v1459, v1476] : Fin 2 → IVec S16 32) a x).toNat < S128x200.size a := fun v1459 v1476 k0_hw469 => k0_hw469

def k0_chk470 (v1486 : IVec S16 32) : Prop :=
  (∀ a x, ((![v1486] : Fin 1 → IVec S16 32) a x).toNat < S4096.size a)
instance k0_chk470.dec : ∀ (v1486 : IVec S16 32), Decidable (k0_chk470 v1486) := fun v1486 => decidable_of_iff' _ (Iff.of_eq (k0_chk470.eq_1 v1486))
theorem k0_idx470_inb : ∀ (v1486 : IVec S16 32) (k0_hw470 : k0_chk470 v1486), ∀ a x, ((![v1486] : Fin 1 → IVec S16 32) a x).toNat < S4096.size a := fun v1486 k0_hw470 => k0_hw470

def k0_chk471 (v1459 : IVec S16 32) (v1489 : IVec S16 32) : Prop :=
  (∀ a x, ((![v1459, v1489] : Fin 2 → IVec S16 32) a x).toNat < S128x200.size a)
instance k0_chk471.dec : ∀ (v1459 : IVec S16 32) (v1489 : IVec S16 32), Decidable (k0_chk471 v1459 v1489) := fun v1459 v1489 => decidable_of_iff' _ (Iff.of_eq (k0_chk471.eq_1 v1459 v1489))
theorem k0_idx471_inb : ∀ (v1459 : IVec S16 32) (v1489 : IVec S16 32) (k0_hw471 : k0_chk471 v1459 v1489), ∀ a x, ((![v1459, v1489] : Fin 2 → IVec S16 32) a x).toNat < S128x200.size a := fun v1459 v1489 k0_hw471 => k0_hw471

def k0_chk472 (v1459 : IVec S16 32) (v1494 : IVec S16 32) : Prop :=
  (∀ a x, ((![v1459, v1494] : Fin 2 → IVec S16 32) a x).toNat < S128x200.size a)
instance k0_chk472.dec : ∀ (v1459 : IVec S16 32) (v1494 : IVec S16 32), Decidable (k0_chk472 v1459 v1494) := fun v1459 v1494 => decidable_of_iff' _ (Iff.of_eq (k0_chk472.eq_1 v1459 v1494))
theorem k0_idx472_inb : ∀ (v1459 : IVec S16 32) (v1494 : IVec S16 32) (k0_hw472 : k0_chk472 v1459 v1494), ∀ a x, ((![v1459, v1494] : Fin 2 → IVec S16 32) a x).toNat < S128x200.size a := fun v1459 v1494 k0_hw472 => k0_hw472

def k0_chk473 (v1459 : IVec S16 32) (v1499 : IVec S16 32) : Prop :=
  (∀ a x, ((![v1459, v1499] : Fin 2 → IVec S16 32) a x).toNat < S128x200.size a)
instance k0_chk473.dec : ∀ (v1459 : IVec S16 32) (v1499 : IVec S16 32), Decidable (k0_chk473 v1459 v1499) := fun v1459 v1499 => decidable_of_iff' _ (Iff.of_eq (k0_chk473.eq_1 v1459 v1499))
theorem k0_idx473_inb : ∀ (v1459 : IVec S16 32) (v1499 : IVec S16 32) (k0_hw473 : k0_chk473 v1459 v1499), ∀ a x, ((![v1459, v1499] : Fin 2 → IVec S16 32) a x).toNat < S128x200.size a := fun v1459 v1499 k0_hw473 => k0_hw473

def k0_chk474 (v1459 : IVec S16 32) (v1504 : IVec S16 32) : Prop :=
  (∀ a x, ((![v1459, v1504] : Fin 2 → IVec S16 32) a x).toNat < S128x200.size a)
instance k0_chk474.dec : ∀ (v1459 : IVec S16 32) (v1504 : IVec S16 32), Decidable (k0_chk474 v1459 v1504) := fun v1459 v1504 => decidable_of_iff' _ (Iff.of_eq (k0_chk474.eq_1 v1459 v1504))
theorem k0_idx474_inb : ∀ (v1459 : IVec S16 32) (v1504 : IVec S16 32) (k0_hw474 : k0_chk474 v1459 v1504), ∀ a x, ((![v1459, v1504] : Fin 2 → IVec S16 32) a x).toNat < S128x200.size a := fun v1459 v1504 k0_hw474 => k0_hw474

def k0_chk475 (v1514 : IVec S16 32) : Prop :=
  (∀ a x, ((![v1514] : Fin 1 → IVec S16 32) a x).toNat < S4096.size a)
instance k0_chk475.dec : ∀ (v1514 : IVec S16 32), Decidable (k0_chk475 v1514) := fun v1514 => decidable_of_iff' _ (Iff.of_eq (k0_chk475.eq_1 v1514))
theorem k0_idx475_inb : ∀ (v1514 : IVec S16 32) (k0_hw475 : k0_chk475 v1514), ∀ a x, ((![v1514] : Fin 1 → IVec S16 32) a x).toNat < S4096.size a := fun v1514 k0_hw475 => k0_hw475

def k0_chk476 (v1459 : IVec S16 32) (v1518 : IVec S16 32) : Prop :=
  (∀ a x, ((![v1459, v1518] : Fin 2 → IVec S16 32) a x).toNat < S128x200.size a)
instance k0_chk476.dec : ∀ (v1459 : IVec S16 32) (v1518 : IVec S16 32), Decidable (k0_chk476 v1459 v1518) := fun v1459 v1518 => decidable_of_iff' _ (Iff.of_eq (k0_chk476.eq_1 v1459 v1518))
theorem k0_idx476_inb : ∀ (v1459 : IVec S16 32) (v1518 : IVec S16 32) (k0_hw476 : k0_chk476 v1459 v1518), ∀ a x, ((![v1459, v1518] : Fin 2 → IVec S16 32) a x).toNat < S128x200.size a := fun v1459 v1518 k0_hw476 => k0_hw476

def k0_chk477 (v1459 : IVec S16 32) (v1523 : IVec S16 32) : Prop :=
  (∀ a x, ((![v1459, v1523] : Fin 2 → IVec S16 32) a x).toNat < S128x200.size a)
instance k0_chk477.dec : ∀ (v1459 : IVec S16 32) (v1523 : IVec S16 32), Decidable (k0_chk477 v1459 v1523) := fun v1459 v1523 => decidable_of_iff' _ (Iff.of_eq (k0_chk477.eq_1 v1459 v1523))
theorem k0_idx477_inb : ∀ (v1459 : IVec S16 32) (v1523 : IVec S16 32) (k0_hw477 : k0_chk477 v1459 v1523), ∀ a x, ((![v1459, v1523] : Fin 2 → IVec S16 32) a x).toNat < S128x200.size a := fun v1459 v1523 k0_hw477 => k0_hw477

def k0_chk478 (v1459 : IVec S16 32) (v1528 : IVec S16 32) : Prop :=
  (∀ a x, ((![v1459, v1528] : Fin 2 → IVec S16 32) a x).toNat < S128x200.size a)
instance k0_chk478.dec : ∀ (v1459 : IVec S16 32) (v1528 : IVec S16 32), Decidable (k0_chk478 v1459 v1528) := fun v1459 v1528 => decidable_of_iff' _ (Iff.of_eq (k0_chk478.eq_1 v1459 v1528))
theorem k0_idx478_inb : ∀ (v1459 : IVec S16 32) (v1528 : IVec S16 32) (k0_hw478 : k0_chk478 v1459 v1528), ∀ a x, ((![v1459, v1528] : Fin 2 → IVec S16 32) a x).toNat < S128x200.size a := fun v1459 v1528 k0_hw478 => k0_hw478

def k0_chk479 (v1459 : IVec S16 32) (v1533 : IVec S16 32) : Prop :=
  (∀ a x, ((![v1459, v1533] : Fin 2 → IVec S16 32) a x).toNat < S128x200.size a)
instance k0_chk479.dec : ∀ (v1459 : IVec S16 32) (v1533 : IVec S16 32), Decidable (k0_chk479 v1459 v1533) := fun v1459 v1533 => decidable_of_iff' _ (Iff.of_eq (k0_chk479.eq_1 v1459 v1533))
theorem k0_idx479_inb : ∀ (v1459 : IVec S16 32) (v1533 : IVec S16 32) (k0_hw479 : k0_chk479 v1459 v1533), ∀ a x, ((![v1459, v1533] : Fin 2 → IVec S16 32) a x).toNat < S128x200.size a := fun v1459 v1533 k0_hw479 => k0_hw479

def k0_chk480 (v1543 : IVec S16 32) : Prop :=
  (∀ a x, ((![v1543] : Fin 1 → IVec S16 32) a x).toNat < S4096.size a)
instance k0_chk480.dec : ∀ (v1543 : IVec S16 32), Decidable (k0_chk480 v1543) := fun v1543 => decidable_of_iff' _ (Iff.of_eq (k0_chk480.eq_1 v1543))
theorem k0_idx480_inb : ∀ (v1543 : IVec S16 32) (k0_hw480 : k0_chk480 v1543), ∀ a x, ((![v1543] : Fin 1 → IVec S16 32) a x).toNat < S4096.size a := fun v1543 k0_hw480 => k0_hw480

def k0_chk481 (v1459 : IVec S16 32) (v1547 : IVec S16 32) : Prop :=
  (∀ a x, ((![v1459, v1547] : Fin 2 → IVec S16 32) a x).toNat < S128x200.size a)
instance k0_chk481.dec : ∀ (v1459 : IVec S16 32) (v1547 : IVec S16 32), Decidable (k0_chk481 v1459 v1547) := fun v1459 v1547 => decidable_of_iff' _ (Iff.of_eq (k0_chk481.eq_1 v1459 v1547))
theorem k0_idx481_inb : ∀ (v1459 : IVec S16 32) (v1547 : IVec S16 32) (k0_hw481 : k0_chk481 v1459 v1547), ∀ a x, ((![v1459, v1547] : Fin 2 → IVec S16 32) a x).toNat < S128x200.size a := fun v1459 v1547 k0_hw481 => k0_hw481

def k0_chk482 (v1551 : IVec S16 32) : Prop :=
  (∀ a x, ((![v1551] : Fin 1 → IVec S16 32) a x).toNat < S272.size a)
instance k0_chk482.dec : ∀ (v1551 : IVec S16 32), Decidable (k0_chk482 v1551) := fun v1551 => decidable_of_iff' _ (Iff.of_eq (k0_chk482.eq_1 v1551))
theorem k0_idx482_inb : ∀ (v1551 : IVec S16 32) (k0_hw482 : k0_chk482 v1551), ∀ a x, ((![v1551] : Fin 1 → IVec S16 32) a x).toNat < S272.size a := fun v1551 k0_hw482 => k0_hw482
def k0_off38 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c128_i32_528 : BitVec 32 := 128#32
  let v1555 : BitVec 32 := Scalar.addi v648 c128_i32_528
  let v1556 : Index := Scalar.indexCast v1555
  ![v1556.toNat]

def k0_chk483 (v1560 : IVec S16 32) (v1562 : IVec S16 32) : Prop :=
  (∀ a x, ((![v1560, v1562] : Fin 2 → IVec S16 32) a x).toNat < S128x200.size a)
instance k0_chk483.dec : ∀ (v1560 : IVec S16 32) (v1562 : IVec S16 32), Decidable (k0_chk483 v1560 v1562) := fun v1560 v1562 => decidable_of_iff' _ (Iff.of_eq (k0_chk483.eq_1 v1560 v1562))
theorem k0_idx483_inb : ∀ (v1560 : IVec S16 32) (v1562 : IVec S16 32) (k0_hw483 : k0_chk483 v1560 v1562), ∀ a x, ((![v1560, v1562] : Fin 2 → IVec S16 32) a x).toNat < S128x200.size a := fun v1560 v1562 k0_hw483 => k0_hw483

def k0_chk484 (v1560 : IVec S16 32) (v1567 : IVec S16 32) : Prop :=
  (∀ a x, ((![v1560, v1567] : Fin 2 → IVec S16 32) a x).toNat < S128x200.size a)
instance k0_chk484.dec : ∀ (v1560 : IVec S16 32) (v1567 : IVec S16 32), Decidable (k0_chk484 v1560 v1567) := fun v1560 v1567 => decidable_of_iff' _ (Iff.of_eq (k0_chk484.eq_1 v1560 v1567))
theorem k0_idx484_inb : ∀ (v1560 : IVec S16 32) (v1567 : IVec S16 32) (k0_hw484 : k0_chk484 v1560 v1567), ∀ a x, ((![v1560, v1567] : Fin 2 → IVec S16 32) a x).toNat < S128x200.size a := fun v1560 v1567 k0_hw484 => k0_hw484

def k0_chk485 (v1560 : IVec S16 32) (v1572 : IVec S16 32) : Prop :=
  (∀ a x, ((![v1560, v1572] : Fin 2 → IVec S16 32) a x).toNat < S128x200.size a)
instance k0_chk485.dec : ∀ (v1560 : IVec S16 32) (v1572 : IVec S16 32), Decidable (k0_chk485 v1560 v1572) := fun v1560 v1572 => decidable_of_iff' _ (Iff.of_eq (k0_chk485.eq_1 v1560 v1572))
theorem k0_idx485_inb : ∀ (v1560 : IVec S16 32) (v1572 : IVec S16 32) (k0_hw485 : k0_chk485 v1560 v1572), ∀ a x, ((![v1560, v1572] : Fin 2 → IVec S16 32) a x).toNat < S128x200.size a := fun v1560 v1572 k0_hw485 => k0_hw485

def k0_chk486 (v1560 : IVec S16 32) (v1577 : IVec S16 32) : Prop :=
  (∀ a x, ((![v1560, v1577] : Fin 2 → IVec S16 32) a x).toNat < S128x200.size a)
instance k0_chk486.dec : ∀ (v1560 : IVec S16 32) (v1577 : IVec S16 32), Decidable (k0_chk486 v1560 v1577) := fun v1560 v1577 => decidable_of_iff' _ (Iff.of_eq (k0_chk486.eq_1 v1560 v1577))
theorem k0_idx486_inb : ∀ (v1560 : IVec S16 32) (v1577 : IVec S16 32) (k0_hw486 : k0_chk486 v1560 v1577), ∀ a x, ((![v1560, v1577] : Fin 2 → IVec S16 32) a x).toNat < S128x200.size a := fun v1560 v1577 k0_hw486 => k0_hw486

def k0_chk487 (v1587 : IVec S16 32) : Prop :=
  (∀ a x, ((![v1587] : Fin 1 → IVec S16 32) a x).toNat < S4096.size a)
instance k0_chk487.dec : ∀ (v1587 : IVec S16 32), Decidable (k0_chk487 v1587) := fun v1587 => decidable_of_iff' _ (Iff.of_eq (k0_chk487.eq_1 v1587))
theorem k0_idx487_inb : ∀ (v1587 : IVec S16 32) (k0_hw487 : k0_chk487 v1587), ∀ a x, ((![v1587] : Fin 1 → IVec S16 32) a x).toNat < S4096.size a := fun v1587 k0_hw487 => k0_hw487

def k0_chk488 (v1560 : IVec S16 32) (v1590 : IVec S16 32) : Prop :=
  (∀ a x, ((![v1560, v1590] : Fin 2 → IVec S16 32) a x).toNat < S128x200.size a)
instance k0_chk488.dec : ∀ (v1560 : IVec S16 32) (v1590 : IVec S16 32), Decidable (k0_chk488 v1560 v1590) := fun v1560 v1590 => decidable_of_iff' _ (Iff.of_eq (k0_chk488.eq_1 v1560 v1590))
theorem k0_idx488_inb : ∀ (v1560 : IVec S16 32) (v1590 : IVec S16 32) (k0_hw488 : k0_chk488 v1560 v1590), ∀ a x, ((![v1560, v1590] : Fin 2 → IVec S16 32) a x).toNat < S128x200.size a := fun v1560 v1590 k0_hw488 => k0_hw488

def k0_chk489 (v1560 : IVec S16 32) (v1595 : IVec S16 32) : Prop :=
  (∀ a x, ((![v1560, v1595] : Fin 2 → IVec S16 32) a x).toNat < S128x200.size a)
instance k0_chk489.dec : ∀ (v1560 : IVec S16 32) (v1595 : IVec S16 32), Decidable (k0_chk489 v1560 v1595) := fun v1560 v1595 => decidable_of_iff' _ (Iff.of_eq (k0_chk489.eq_1 v1560 v1595))
theorem k0_idx489_inb : ∀ (v1560 : IVec S16 32) (v1595 : IVec S16 32) (k0_hw489 : k0_chk489 v1560 v1595), ∀ a x, ((![v1560, v1595] : Fin 2 → IVec S16 32) a x).toNat < S128x200.size a := fun v1560 v1595 k0_hw489 => k0_hw489

def k0_chk490 (v1560 : IVec S16 32) (v1600 : IVec S16 32) : Prop :=
  (∀ a x, ((![v1560, v1600] : Fin 2 → IVec S16 32) a x).toNat < S128x200.size a)
instance k0_chk490.dec : ∀ (v1560 : IVec S16 32) (v1600 : IVec S16 32), Decidable (k0_chk490 v1560 v1600) := fun v1560 v1600 => decidable_of_iff' _ (Iff.of_eq (k0_chk490.eq_1 v1560 v1600))
theorem k0_idx490_inb : ∀ (v1560 : IVec S16 32) (v1600 : IVec S16 32) (k0_hw490 : k0_chk490 v1560 v1600), ∀ a x, ((![v1560, v1600] : Fin 2 → IVec S16 32) a x).toNat < S128x200.size a := fun v1560 v1600 k0_hw490 => k0_hw490

def k0_chk491 (v1560 : IVec S16 32) (v1605 : IVec S16 32) : Prop :=
  (∀ a x, ((![v1560, v1605] : Fin 2 → IVec S16 32) a x).toNat < S128x200.size a)
instance k0_chk491.dec : ∀ (v1560 : IVec S16 32) (v1605 : IVec S16 32), Decidable (k0_chk491 v1560 v1605) := fun v1560 v1605 => decidable_of_iff' _ (Iff.of_eq (k0_chk491.eq_1 v1560 v1605))
theorem k0_idx491_inb : ∀ (v1560 : IVec S16 32) (v1605 : IVec S16 32) (k0_hw491 : k0_chk491 v1560 v1605), ∀ a x, ((![v1560, v1605] : Fin 2 → IVec S16 32) a x).toNat < S128x200.size a := fun v1560 v1605 k0_hw491 => k0_hw491

def k0_chk492 (v1615 : IVec S16 32) : Prop :=
  (∀ a x, ((![v1615] : Fin 1 → IVec S16 32) a x).toNat < S4096.size a)
instance k0_chk492.dec : ∀ (v1615 : IVec S16 32), Decidable (k0_chk492 v1615) := fun v1615 => decidable_of_iff' _ (Iff.of_eq (k0_chk492.eq_1 v1615))
theorem k0_idx492_inb : ∀ (v1615 : IVec S16 32) (k0_hw492 : k0_chk492 v1615), ∀ a x, ((![v1615] : Fin 1 → IVec S16 32) a x).toNat < S4096.size a := fun v1615 k0_hw492 => k0_hw492

def k0_chk493 (v1560 : IVec S16 32) (v1619 : IVec S16 32) : Prop :=
  (∀ a x, ((![v1560, v1619] : Fin 2 → IVec S16 32) a x).toNat < S128x200.size a)
instance k0_chk493.dec : ∀ (v1560 : IVec S16 32) (v1619 : IVec S16 32), Decidable (k0_chk493 v1560 v1619) := fun v1560 v1619 => decidable_of_iff' _ (Iff.of_eq (k0_chk493.eq_1 v1560 v1619))
theorem k0_idx493_inb : ∀ (v1560 : IVec S16 32) (v1619 : IVec S16 32) (k0_hw493 : k0_chk493 v1560 v1619), ∀ a x, ((![v1560, v1619] : Fin 2 → IVec S16 32) a x).toNat < S128x200.size a := fun v1560 v1619 k0_hw493 => k0_hw493

def k0_chk494 (v1560 : IVec S16 32) (v1624 : IVec S16 32) : Prop :=
  (∀ a x, ((![v1560, v1624] : Fin 2 → IVec S16 32) a x).toNat < S128x200.size a)
instance k0_chk494.dec : ∀ (v1560 : IVec S16 32) (v1624 : IVec S16 32), Decidable (k0_chk494 v1560 v1624) := fun v1560 v1624 => decidable_of_iff' _ (Iff.of_eq (k0_chk494.eq_1 v1560 v1624))
theorem k0_idx494_inb : ∀ (v1560 : IVec S16 32) (v1624 : IVec S16 32) (k0_hw494 : k0_chk494 v1560 v1624), ∀ a x, ((![v1560, v1624] : Fin 2 → IVec S16 32) a x).toNat < S128x200.size a := fun v1560 v1624 k0_hw494 => k0_hw494

def k0_chk495 (v1560 : IVec S16 32) (v1629 : IVec S16 32) : Prop :=
  (∀ a x, ((![v1560, v1629] : Fin 2 → IVec S16 32) a x).toNat < S128x200.size a)
instance k0_chk495.dec : ∀ (v1560 : IVec S16 32) (v1629 : IVec S16 32), Decidable (k0_chk495 v1560 v1629) := fun v1560 v1629 => decidable_of_iff' _ (Iff.of_eq (k0_chk495.eq_1 v1560 v1629))
theorem k0_idx495_inb : ∀ (v1560 : IVec S16 32) (v1629 : IVec S16 32) (k0_hw495 : k0_chk495 v1560 v1629), ∀ a x, ((![v1560, v1629] : Fin 2 → IVec S16 32) a x).toNat < S128x200.size a := fun v1560 v1629 k0_hw495 => k0_hw495

def k0_chk496 (v1560 : IVec S16 32) (v1634 : IVec S16 32) : Prop :=
  (∀ a x, ((![v1560, v1634] : Fin 2 → IVec S16 32) a x).toNat < S128x200.size a)
instance k0_chk496.dec : ∀ (v1560 : IVec S16 32) (v1634 : IVec S16 32), Decidable (k0_chk496 v1560 v1634) := fun v1560 v1634 => decidable_of_iff' _ (Iff.of_eq (k0_chk496.eq_1 v1560 v1634))
theorem k0_idx496_inb : ∀ (v1560 : IVec S16 32) (v1634 : IVec S16 32) (k0_hw496 : k0_chk496 v1560 v1634), ∀ a x, ((![v1560, v1634] : Fin 2 → IVec S16 32) a x).toNat < S128x200.size a := fun v1560 v1634 k0_hw496 => k0_hw496

def k0_chk497 (v1644 : IVec S16 32) : Prop :=
  (∀ a x, ((![v1644] : Fin 1 → IVec S16 32) a x).toNat < S4096.size a)
instance k0_chk497.dec : ∀ (v1644 : IVec S16 32), Decidable (k0_chk497 v1644) := fun v1644 => decidable_of_iff' _ (Iff.of_eq (k0_chk497.eq_1 v1644))
theorem k0_idx497_inb : ∀ (v1644 : IVec S16 32) (k0_hw497 : k0_chk497 v1644), ∀ a x, ((![v1644] : Fin 1 → IVec S16 32) a x).toNat < S4096.size a := fun v1644 k0_hw497 => k0_hw497

def k0_chk498 (v1560 : IVec S16 32) (v1648 : IVec S16 32) : Prop :=
  (∀ a x, ((![v1560, v1648] : Fin 2 → IVec S16 32) a x).toNat < S128x200.size a)
instance k0_chk498.dec : ∀ (v1560 : IVec S16 32) (v1648 : IVec S16 32), Decidable (k0_chk498 v1560 v1648) := fun v1560 v1648 => decidable_of_iff' _ (Iff.of_eq (k0_chk498.eq_1 v1560 v1648))
theorem k0_idx498_inb : ∀ (v1560 : IVec S16 32) (v1648 : IVec S16 32) (k0_hw498 : k0_chk498 v1560 v1648), ∀ a x, ((![v1560, v1648] : Fin 2 → IVec S16 32) a x).toNat < S128x200.size a := fun v1560 v1648 k0_hw498 => k0_hw498

def k0_chk499 (v1652 : IVec S16 32) : Prop :=
  (∀ a x, ((![v1652] : Fin 1 → IVec S16 32) a x).toNat < S272.size a)
instance k0_chk499.dec : ∀ (v1652 : IVec S16 32), Decidable (k0_chk499 v1652) := fun v1652 => decidable_of_iff' _ (Iff.of_eq (k0_chk499.eq_1 v1652))
theorem k0_idx499_inb : ∀ (v1652 : IVec S16 32) (k0_hw499 : k0_chk499 v1652), ∀ a x, ((![v1652] : Fin 1 → IVec S16 32) a x).toNat < S272.size a := fun v1652 k0_hw499 => k0_hw499
def k0_off39 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c144_i32_563 : BitVec 32 := 144#32
  let v1656 : BitVec 32 := Scalar.addi v648 c144_i32_563
  let v1657 : Index := Scalar.indexCast v1656
  ![v1657.toNat]

def k0_chk500 (v1661 : IVec S16 32) (v1663 : IVec S16 32) : Prop :=
  (∀ a x, ((![v1661, v1663] : Fin 2 → IVec S16 32) a x).toNat < S128x200.size a)
instance k0_chk500.dec : ∀ (v1661 : IVec S16 32) (v1663 : IVec S16 32), Decidable (k0_chk500 v1661 v1663) := fun v1661 v1663 => decidable_of_iff' _ (Iff.of_eq (k0_chk500.eq_1 v1661 v1663))
theorem k0_idx500_inb : ∀ (v1661 : IVec S16 32) (v1663 : IVec S16 32) (k0_hw500 : k0_chk500 v1661 v1663), ∀ a x, ((![v1661, v1663] : Fin 2 → IVec S16 32) a x).toNat < S128x200.size a := fun v1661 v1663 k0_hw500 => k0_hw500

def k0_chk501 (v1661 : IVec S16 32) (v1668 : IVec S16 32) : Prop :=
  (∀ a x, ((![v1661, v1668] : Fin 2 → IVec S16 32) a x).toNat < S128x200.size a)
instance k0_chk501.dec : ∀ (v1661 : IVec S16 32) (v1668 : IVec S16 32), Decidable (k0_chk501 v1661 v1668) := fun v1661 v1668 => decidable_of_iff' _ (Iff.of_eq (k0_chk501.eq_1 v1661 v1668))
theorem k0_idx501_inb : ∀ (v1661 : IVec S16 32) (v1668 : IVec S16 32) (k0_hw501 : k0_chk501 v1661 v1668), ∀ a x, ((![v1661, v1668] : Fin 2 → IVec S16 32) a x).toNat < S128x200.size a := fun v1661 v1668 k0_hw501 => k0_hw501

def k0_chk502 (v1661 : IVec S16 32) (v1673 : IVec S16 32) : Prop :=
  (∀ a x, ((![v1661, v1673] : Fin 2 → IVec S16 32) a x).toNat < S128x200.size a)
instance k0_chk502.dec : ∀ (v1661 : IVec S16 32) (v1673 : IVec S16 32), Decidable (k0_chk502 v1661 v1673) := fun v1661 v1673 => decidable_of_iff' _ (Iff.of_eq (k0_chk502.eq_1 v1661 v1673))
theorem k0_idx502_inb : ∀ (v1661 : IVec S16 32) (v1673 : IVec S16 32) (k0_hw502 : k0_chk502 v1661 v1673), ∀ a x, ((![v1661, v1673] : Fin 2 → IVec S16 32) a x).toNat < S128x200.size a := fun v1661 v1673 k0_hw502 => k0_hw502

def k0_chk503 (v1661 : IVec S16 32) (v1678 : IVec S16 32) : Prop :=
  (∀ a x, ((![v1661, v1678] : Fin 2 → IVec S16 32) a x).toNat < S128x200.size a)
instance k0_chk503.dec : ∀ (v1661 : IVec S16 32) (v1678 : IVec S16 32), Decidable (k0_chk503 v1661 v1678) := fun v1661 v1678 => decidable_of_iff' _ (Iff.of_eq (k0_chk503.eq_1 v1661 v1678))
theorem k0_idx503_inb : ∀ (v1661 : IVec S16 32) (v1678 : IVec S16 32) (k0_hw503 : k0_chk503 v1661 v1678), ∀ a x, ((![v1661, v1678] : Fin 2 → IVec S16 32) a x).toNat < S128x200.size a := fun v1661 v1678 k0_hw503 => k0_hw503

def k0_chk504 (v1688 : IVec S16 32) : Prop :=
  (∀ a x, ((![v1688] : Fin 1 → IVec S16 32) a x).toNat < S4096.size a)
instance k0_chk504.dec : ∀ (v1688 : IVec S16 32), Decidable (k0_chk504 v1688) := fun v1688 => decidable_of_iff' _ (Iff.of_eq (k0_chk504.eq_1 v1688))
theorem k0_idx504_inb : ∀ (v1688 : IVec S16 32) (k0_hw504 : k0_chk504 v1688), ∀ a x, ((![v1688] : Fin 1 → IVec S16 32) a x).toNat < S4096.size a := fun v1688 k0_hw504 => k0_hw504

def k0_chk505 (v1661 : IVec S16 32) (v1691 : IVec S16 32) : Prop :=
  (∀ a x, ((![v1661, v1691] : Fin 2 → IVec S16 32) a x).toNat < S128x200.size a)
instance k0_chk505.dec : ∀ (v1661 : IVec S16 32) (v1691 : IVec S16 32), Decidable (k0_chk505 v1661 v1691) := fun v1661 v1691 => decidable_of_iff' _ (Iff.of_eq (k0_chk505.eq_1 v1661 v1691))
theorem k0_idx505_inb : ∀ (v1661 : IVec S16 32) (v1691 : IVec S16 32) (k0_hw505 : k0_chk505 v1661 v1691), ∀ a x, ((![v1661, v1691] : Fin 2 → IVec S16 32) a x).toNat < S128x200.size a := fun v1661 v1691 k0_hw505 => k0_hw505

def k0_chk506 (v1661 : IVec S16 32) (v1696 : IVec S16 32) : Prop :=
  (∀ a x, ((![v1661, v1696] : Fin 2 → IVec S16 32) a x).toNat < S128x200.size a)
instance k0_chk506.dec : ∀ (v1661 : IVec S16 32) (v1696 : IVec S16 32), Decidable (k0_chk506 v1661 v1696) := fun v1661 v1696 => decidable_of_iff' _ (Iff.of_eq (k0_chk506.eq_1 v1661 v1696))
theorem k0_idx506_inb : ∀ (v1661 : IVec S16 32) (v1696 : IVec S16 32) (k0_hw506 : k0_chk506 v1661 v1696), ∀ a x, ((![v1661, v1696] : Fin 2 → IVec S16 32) a x).toNat < S128x200.size a := fun v1661 v1696 k0_hw506 => k0_hw506

def k0_chk507 (v1661 : IVec S16 32) (v1701 : IVec S16 32) : Prop :=
  (∀ a x, ((![v1661, v1701] : Fin 2 → IVec S16 32) a x).toNat < S128x200.size a)
instance k0_chk507.dec : ∀ (v1661 : IVec S16 32) (v1701 : IVec S16 32), Decidable (k0_chk507 v1661 v1701) := fun v1661 v1701 => decidable_of_iff' _ (Iff.of_eq (k0_chk507.eq_1 v1661 v1701))
theorem k0_idx507_inb : ∀ (v1661 : IVec S16 32) (v1701 : IVec S16 32) (k0_hw507 : k0_chk507 v1661 v1701), ∀ a x, ((![v1661, v1701] : Fin 2 → IVec S16 32) a x).toNat < S128x200.size a := fun v1661 v1701 k0_hw507 => k0_hw507

def k0_chk508 (v1661 : IVec S16 32) (v1706 : IVec S16 32) : Prop :=
  (∀ a x, ((![v1661, v1706] : Fin 2 → IVec S16 32) a x).toNat < S128x200.size a)
instance k0_chk508.dec : ∀ (v1661 : IVec S16 32) (v1706 : IVec S16 32), Decidable (k0_chk508 v1661 v1706) := fun v1661 v1706 => decidable_of_iff' _ (Iff.of_eq (k0_chk508.eq_1 v1661 v1706))
theorem k0_idx508_inb : ∀ (v1661 : IVec S16 32) (v1706 : IVec S16 32) (k0_hw508 : k0_chk508 v1661 v1706), ∀ a x, ((![v1661, v1706] : Fin 2 → IVec S16 32) a x).toNat < S128x200.size a := fun v1661 v1706 k0_hw508 => k0_hw508

def k0_chk509 (v1716 : IVec S16 32) : Prop :=
  (∀ a x, ((![v1716] : Fin 1 → IVec S16 32) a x).toNat < S4096.size a)
instance k0_chk509.dec : ∀ (v1716 : IVec S16 32), Decidable (k0_chk509 v1716) := fun v1716 => decidable_of_iff' _ (Iff.of_eq (k0_chk509.eq_1 v1716))
theorem k0_idx509_inb : ∀ (v1716 : IVec S16 32) (k0_hw509 : k0_chk509 v1716), ∀ a x, ((![v1716] : Fin 1 → IVec S16 32) a x).toNat < S4096.size a := fun v1716 k0_hw509 => k0_hw509

def k0_chk510 (v1661 : IVec S16 32) (v1720 : IVec S16 32) : Prop :=
  (∀ a x, ((![v1661, v1720] : Fin 2 → IVec S16 32) a x).toNat < S128x200.size a)
instance k0_chk510.dec : ∀ (v1661 : IVec S16 32) (v1720 : IVec S16 32), Decidable (k0_chk510 v1661 v1720) := fun v1661 v1720 => decidable_of_iff' _ (Iff.of_eq (k0_chk510.eq_1 v1661 v1720))
theorem k0_idx510_inb : ∀ (v1661 : IVec S16 32) (v1720 : IVec S16 32) (k0_hw510 : k0_chk510 v1661 v1720), ∀ a x, ((![v1661, v1720] : Fin 2 → IVec S16 32) a x).toNat < S128x200.size a := fun v1661 v1720 k0_hw510 => k0_hw510

def k0_chk511 (v1661 : IVec S16 32) (v1725 : IVec S16 32) : Prop :=
  (∀ a x, ((![v1661, v1725] : Fin 2 → IVec S16 32) a x).toNat < S128x200.size a)
instance k0_chk511.dec : ∀ (v1661 : IVec S16 32) (v1725 : IVec S16 32), Decidable (k0_chk511 v1661 v1725) := fun v1661 v1725 => decidable_of_iff' _ (Iff.of_eq (k0_chk511.eq_1 v1661 v1725))
theorem k0_idx511_inb : ∀ (v1661 : IVec S16 32) (v1725 : IVec S16 32) (k0_hw511 : k0_chk511 v1661 v1725), ∀ a x, ((![v1661, v1725] : Fin 2 → IVec S16 32) a x).toNat < S128x200.size a := fun v1661 v1725 k0_hw511 => k0_hw511

def k0_chk512 (v1661 : IVec S16 32) (v1730 : IVec S16 32) : Prop :=
  (∀ a x, ((![v1661, v1730] : Fin 2 → IVec S16 32) a x).toNat < S128x200.size a)
instance k0_chk512.dec : ∀ (v1661 : IVec S16 32) (v1730 : IVec S16 32), Decidable (k0_chk512 v1661 v1730) := fun v1661 v1730 => decidable_of_iff' _ (Iff.of_eq (k0_chk512.eq_1 v1661 v1730))
theorem k0_idx512_inb : ∀ (v1661 : IVec S16 32) (v1730 : IVec S16 32) (k0_hw512 : k0_chk512 v1661 v1730), ∀ a x, ((![v1661, v1730] : Fin 2 → IVec S16 32) a x).toNat < S128x200.size a := fun v1661 v1730 k0_hw512 => k0_hw512

def k0_chk513 (v1661 : IVec S16 32) (v1735 : IVec S16 32) : Prop :=
  (∀ a x, ((![v1661, v1735] : Fin 2 → IVec S16 32) a x).toNat < S128x200.size a)
instance k0_chk513.dec : ∀ (v1661 : IVec S16 32) (v1735 : IVec S16 32), Decidable (k0_chk513 v1661 v1735) := fun v1661 v1735 => decidable_of_iff' _ (Iff.of_eq (k0_chk513.eq_1 v1661 v1735))
theorem k0_idx513_inb : ∀ (v1661 : IVec S16 32) (v1735 : IVec S16 32) (k0_hw513 : k0_chk513 v1661 v1735), ∀ a x, ((![v1661, v1735] : Fin 2 → IVec S16 32) a x).toNat < S128x200.size a := fun v1661 v1735 k0_hw513 => k0_hw513

def k0_chk514 (v1745 : IVec S16 32) : Prop :=
  (∀ a x, ((![v1745] : Fin 1 → IVec S16 32) a x).toNat < S4096.size a)
instance k0_chk514.dec : ∀ (v1745 : IVec S16 32), Decidable (k0_chk514 v1745) := fun v1745 => decidable_of_iff' _ (Iff.of_eq (k0_chk514.eq_1 v1745))
theorem k0_idx514_inb : ∀ (v1745 : IVec S16 32) (k0_hw514 : k0_chk514 v1745), ∀ a x, ((![v1745] : Fin 1 → IVec S16 32) a x).toNat < S4096.size a := fun v1745 k0_hw514 => k0_hw514

def k0_chk515 (v1661 : IVec S16 32) (v1749 : IVec S16 32) : Prop :=
  (∀ a x, ((![v1661, v1749] : Fin 2 → IVec S16 32) a x).toNat < S128x200.size a)
instance k0_chk515.dec : ∀ (v1661 : IVec S16 32) (v1749 : IVec S16 32), Decidable (k0_chk515 v1661 v1749) := fun v1661 v1749 => decidable_of_iff' _ (Iff.of_eq (k0_chk515.eq_1 v1661 v1749))
theorem k0_idx515_inb : ∀ (v1661 : IVec S16 32) (v1749 : IVec S16 32) (k0_hw515 : k0_chk515 v1661 v1749), ∀ a x, ((![v1661, v1749] : Fin 2 → IVec S16 32) a x).toNat < S128x200.size a := fun v1661 v1749 k0_hw515 => k0_hw515

def k0_chk516 (v1753 : IVec S16 32) : Prop :=
  (∀ a x, ((![v1753] : Fin 1 → IVec S16 32) a x).toNat < S272.size a)
instance k0_chk516.dec : ∀ (v1753 : IVec S16 32), Decidable (k0_chk516 v1753) := fun v1753 => decidable_of_iff' _ (Iff.of_eq (k0_chk516.eq_1 v1753))
theorem k0_idx516_inb : ∀ (v1753 : IVec S16 32) (k0_hw516 : k0_chk516 v1753), ∀ a x, ((![v1753] : Fin 1 → IVec S16 32) a x).toNat < S272.size a := fun v1753 k0_hw516 => k0_hw516
def k0_off40 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c160_i32_597 : BitVec 32 := 160#32
  let v1757 : BitVec 32 := Scalar.addi v648 c160_i32_597
  let v1758 : Index := Scalar.indexCast v1757
  ![v1758.toNat]

def k0_chk517 (v1762 : IVec S16 32) (v1764 : IVec S16 32) : Prop :=
  (∀ a x, ((![v1762, v1764] : Fin 2 → IVec S16 32) a x).toNat < S128x200.size a)
instance k0_chk517.dec : ∀ (v1762 : IVec S16 32) (v1764 : IVec S16 32), Decidable (k0_chk517 v1762 v1764) := fun v1762 v1764 => decidable_of_iff' _ (Iff.of_eq (k0_chk517.eq_1 v1762 v1764))
theorem k0_idx517_inb : ∀ (v1762 : IVec S16 32) (v1764 : IVec S16 32) (k0_hw517 : k0_chk517 v1762 v1764), ∀ a x, ((![v1762, v1764] : Fin 2 → IVec S16 32) a x).toNat < S128x200.size a := fun v1762 v1764 k0_hw517 => k0_hw517

def k0_chk518 (v1762 : IVec S16 32) (v1769 : IVec S16 32) : Prop :=
  (∀ a x, ((![v1762, v1769] : Fin 2 → IVec S16 32) a x).toNat < S128x200.size a)
instance k0_chk518.dec : ∀ (v1762 : IVec S16 32) (v1769 : IVec S16 32), Decidable (k0_chk518 v1762 v1769) := fun v1762 v1769 => decidable_of_iff' _ (Iff.of_eq (k0_chk518.eq_1 v1762 v1769))
theorem k0_idx518_inb : ∀ (v1762 : IVec S16 32) (v1769 : IVec S16 32) (k0_hw518 : k0_chk518 v1762 v1769), ∀ a x, ((![v1762, v1769] : Fin 2 → IVec S16 32) a x).toNat < S128x200.size a := fun v1762 v1769 k0_hw518 => k0_hw518

def k0_chk519 (v1762 : IVec S16 32) (v1774 : IVec S16 32) : Prop :=
  (∀ a x, ((![v1762, v1774] : Fin 2 → IVec S16 32) a x).toNat < S128x200.size a)
instance k0_chk519.dec : ∀ (v1762 : IVec S16 32) (v1774 : IVec S16 32), Decidable (k0_chk519 v1762 v1774) := fun v1762 v1774 => decidable_of_iff' _ (Iff.of_eq (k0_chk519.eq_1 v1762 v1774))
theorem k0_idx519_inb : ∀ (v1762 : IVec S16 32) (v1774 : IVec S16 32) (k0_hw519 : k0_chk519 v1762 v1774), ∀ a x, ((![v1762, v1774] : Fin 2 → IVec S16 32) a x).toNat < S128x200.size a := fun v1762 v1774 k0_hw519 => k0_hw519

def k0_chk520 (v1762 : IVec S16 32) (v1779 : IVec S16 32) : Prop :=
  (∀ a x, ((![v1762, v1779] : Fin 2 → IVec S16 32) a x).toNat < S128x200.size a)
instance k0_chk520.dec : ∀ (v1762 : IVec S16 32) (v1779 : IVec S16 32), Decidable (k0_chk520 v1762 v1779) := fun v1762 v1779 => decidable_of_iff' _ (Iff.of_eq (k0_chk520.eq_1 v1762 v1779))
theorem k0_idx520_inb : ∀ (v1762 : IVec S16 32) (v1779 : IVec S16 32) (k0_hw520 : k0_chk520 v1762 v1779), ∀ a x, ((![v1762, v1779] : Fin 2 → IVec S16 32) a x).toNat < S128x200.size a := fun v1762 v1779 k0_hw520 => k0_hw520

def k0_chk521 (v1789 : IVec S16 32) : Prop :=
  (∀ a x, ((![v1789] : Fin 1 → IVec S16 32) a x).toNat < S4096.size a)
instance k0_chk521.dec : ∀ (v1789 : IVec S16 32), Decidable (k0_chk521 v1789) := fun v1789 => decidable_of_iff' _ (Iff.of_eq (k0_chk521.eq_1 v1789))
theorem k0_idx521_inb : ∀ (v1789 : IVec S16 32) (k0_hw521 : k0_chk521 v1789), ∀ a x, ((![v1789] : Fin 1 → IVec S16 32) a x).toNat < S4096.size a := fun v1789 k0_hw521 => k0_hw521

def k0_chk522 (v1762 : IVec S16 32) (v1792 : IVec S16 32) : Prop :=
  (∀ a x, ((![v1762, v1792] : Fin 2 → IVec S16 32) a x).toNat < S128x200.size a)
instance k0_chk522.dec : ∀ (v1762 : IVec S16 32) (v1792 : IVec S16 32), Decidable (k0_chk522 v1762 v1792) := fun v1762 v1792 => decidable_of_iff' _ (Iff.of_eq (k0_chk522.eq_1 v1762 v1792))
theorem k0_idx522_inb : ∀ (v1762 : IVec S16 32) (v1792 : IVec S16 32) (k0_hw522 : k0_chk522 v1762 v1792), ∀ a x, ((![v1762, v1792] : Fin 2 → IVec S16 32) a x).toNat < S128x200.size a := fun v1762 v1792 k0_hw522 => k0_hw522

def k0_chk523 (v1762 : IVec S16 32) (v1797 : IVec S16 32) : Prop :=
  (∀ a x, ((![v1762, v1797] : Fin 2 → IVec S16 32) a x).toNat < S128x200.size a)
instance k0_chk523.dec : ∀ (v1762 : IVec S16 32) (v1797 : IVec S16 32), Decidable (k0_chk523 v1762 v1797) := fun v1762 v1797 => decidable_of_iff' _ (Iff.of_eq (k0_chk523.eq_1 v1762 v1797))
theorem k0_idx523_inb : ∀ (v1762 : IVec S16 32) (v1797 : IVec S16 32) (k0_hw523 : k0_chk523 v1762 v1797), ∀ a x, ((![v1762, v1797] : Fin 2 → IVec S16 32) a x).toNat < S128x200.size a := fun v1762 v1797 k0_hw523 => k0_hw523

def k0_chk524 (v1762 : IVec S16 32) (v1802 : IVec S16 32) : Prop :=
  (∀ a x, ((![v1762, v1802] : Fin 2 → IVec S16 32) a x).toNat < S128x200.size a)
instance k0_chk524.dec : ∀ (v1762 : IVec S16 32) (v1802 : IVec S16 32), Decidable (k0_chk524 v1762 v1802) := fun v1762 v1802 => decidable_of_iff' _ (Iff.of_eq (k0_chk524.eq_1 v1762 v1802))
theorem k0_idx524_inb : ∀ (v1762 : IVec S16 32) (v1802 : IVec S16 32) (k0_hw524 : k0_chk524 v1762 v1802), ∀ a x, ((![v1762, v1802] : Fin 2 → IVec S16 32) a x).toNat < S128x200.size a := fun v1762 v1802 k0_hw524 => k0_hw524

def k0_chk525 (v1762 : IVec S16 32) (v1807 : IVec S16 32) : Prop :=
  (∀ a x, ((![v1762, v1807] : Fin 2 → IVec S16 32) a x).toNat < S128x200.size a)
instance k0_chk525.dec : ∀ (v1762 : IVec S16 32) (v1807 : IVec S16 32), Decidable (k0_chk525 v1762 v1807) := fun v1762 v1807 => decidable_of_iff' _ (Iff.of_eq (k0_chk525.eq_1 v1762 v1807))
theorem k0_idx525_inb : ∀ (v1762 : IVec S16 32) (v1807 : IVec S16 32) (k0_hw525 : k0_chk525 v1762 v1807), ∀ a x, ((![v1762, v1807] : Fin 2 → IVec S16 32) a x).toNat < S128x200.size a := fun v1762 v1807 k0_hw525 => k0_hw525

def k0_chk526 (v1817 : IVec S16 32) : Prop :=
  (∀ a x, ((![v1817] : Fin 1 → IVec S16 32) a x).toNat < S4096.size a)
instance k0_chk526.dec : ∀ (v1817 : IVec S16 32), Decidable (k0_chk526 v1817) := fun v1817 => decidable_of_iff' _ (Iff.of_eq (k0_chk526.eq_1 v1817))
theorem k0_idx526_inb : ∀ (v1817 : IVec S16 32) (k0_hw526 : k0_chk526 v1817), ∀ a x, ((![v1817] : Fin 1 → IVec S16 32) a x).toNat < S4096.size a := fun v1817 k0_hw526 => k0_hw526

def k0_chk527 (v1762 : IVec S16 32) (v1821 : IVec S16 32) : Prop :=
  (∀ a x, ((![v1762, v1821] : Fin 2 → IVec S16 32) a x).toNat < S128x200.size a)
instance k0_chk527.dec : ∀ (v1762 : IVec S16 32) (v1821 : IVec S16 32), Decidable (k0_chk527 v1762 v1821) := fun v1762 v1821 => decidable_of_iff' _ (Iff.of_eq (k0_chk527.eq_1 v1762 v1821))
theorem k0_idx527_inb : ∀ (v1762 : IVec S16 32) (v1821 : IVec S16 32) (k0_hw527 : k0_chk527 v1762 v1821), ∀ a x, ((![v1762, v1821] : Fin 2 → IVec S16 32) a x).toNat < S128x200.size a := fun v1762 v1821 k0_hw527 => k0_hw527

def k0_chk528 (v1762 : IVec S16 32) (v1826 : IVec S16 32) : Prop :=
  (∀ a x, ((![v1762, v1826] : Fin 2 → IVec S16 32) a x).toNat < S128x200.size a)
instance k0_chk528.dec : ∀ (v1762 : IVec S16 32) (v1826 : IVec S16 32), Decidable (k0_chk528 v1762 v1826) := fun v1762 v1826 => decidable_of_iff' _ (Iff.of_eq (k0_chk528.eq_1 v1762 v1826))
theorem k0_idx528_inb : ∀ (v1762 : IVec S16 32) (v1826 : IVec S16 32) (k0_hw528 : k0_chk528 v1762 v1826), ∀ a x, ((![v1762, v1826] : Fin 2 → IVec S16 32) a x).toNat < S128x200.size a := fun v1762 v1826 k0_hw528 => k0_hw528

def k0_chk529 (v1762 : IVec S16 32) (v1831 : IVec S16 32) : Prop :=
  (∀ a x, ((![v1762, v1831] : Fin 2 → IVec S16 32) a x).toNat < S128x200.size a)
instance k0_chk529.dec : ∀ (v1762 : IVec S16 32) (v1831 : IVec S16 32), Decidable (k0_chk529 v1762 v1831) := fun v1762 v1831 => decidable_of_iff' _ (Iff.of_eq (k0_chk529.eq_1 v1762 v1831))
theorem k0_idx529_inb : ∀ (v1762 : IVec S16 32) (v1831 : IVec S16 32) (k0_hw529 : k0_chk529 v1762 v1831), ∀ a x, ((![v1762, v1831] : Fin 2 → IVec S16 32) a x).toNat < S128x200.size a := fun v1762 v1831 k0_hw529 => k0_hw529

def k0_chk530 (v1762 : IVec S16 32) (v1836 : IVec S16 32) : Prop :=
  (∀ a x, ((![v1762, v1836] : Fin 2 → IVec S16 32) a x).toNat < S128x200.size a)
instance k0_chk530.dec : ∀ (v1762 : IVec S16 32) (v1836 : IVec S16 32), Decidable (k0_chk530 v1762 v1836) := fun v1762 v1836 => decidable_of_iff' _ (Iff.of_eq (k0_chk530.eq_1 v1762 v1836))
theorem k0_idx530_inb : ∀ (v1762 : IVec S16 32) (v1836 : IVec S16 32) (k0_hw530 : k0_chk530 v1762 v1836), ∀ a x, ((![v1762, v1836] : Fin 2 → IVec S16 32) a x).toNat < S128x200.size a := fun v1762 v1836 k0_hw530 => k0_hw530

def k0_chk531 (v1846 : IVec S16 32) : Prop :=
  (∀ a x, ((![v1846] : Fin 1 → IVec S16 32) a x).toNat < S4096.size a)
instance k0_chk531.dec : ∀ (v1846 : IVec S16 32), Decidable (k0_chk531 v1846) := fun v1846 => decidable_of_iff' _ (Iff.of_eq (k0_chk531.eq_1 v1846))
theorem k0_idx531_inb : ∀ (v1846 : IVec S16 32) (k0_hw531 : k0_chk531 v1846), ∀ a x, ((![v1846] : Fin 1 → IVec S16 32) a x).toNat < S4096.size a := fun v1846 k0_hw531 => k0_hw531

def k0_chk532 (v1762 : IVec S16 32) (v1850 : IVec S16 32) : Prop :=
  (∀ a x, ((![v1762, v1850] : Fin 2 → IVec S16 32) a x).toNat < S128x200.size a)
instance k0_chk532.dec : ∀ (v1762 : IVec S16 32) (v1850 : IVec S16 32), Decidable (k0_chk532 v1762 v1850) := fun v1762 v1850 => decidable_of_iff' _ (Iff.of_eq (k0_chk532.eq_1 v1762 v1850))
theorem k0_idx532_inb : ∀ (v1762 : IVec S16 32) (v1850 : IVec S16 32) (k0_hw532 : k0_chk532 v1762 v1850), ∀ a x, ((![v1762, v1850] : Fin 2 → IVec S16 32) a x).toNat < S128x200.size a := fun v1762 v1850 k0_hw532 => k0_hw532

def k0_chk533 (v1854 : IVec S16 32) : Prop :=
  (∀ a x, ((![v1854] : Fin 1 → IVec S16 32) a x).toNat < S272.size a)
instance k0_chk533.dec : ∀ (v1854 : IVec S16 32), Decidable (k0_chk533 v1854) := fun v1854 => decidable_of_iff' _ (Iff.of_eq (k0_chk533.eq_1 v1854))
theorem k0_idx533_inb : ∀ (v1854 : IVec S16 32) (k0_hw533 : k0_chk533 v1854), ∀ a x, ((![v1854] : Fin 1 → IVec S16 32) a x).toNat < S272.size a := fun v1854 k0_hw533 => k0_hw533
def k0_off41 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c176_i32_631 : BitVec 32 := 176#32
  let v1858 : BitVec 32 := Scalar.addi v648 c176_i32_631
  let v1859 : Index := Scalar.indexCast v1858
  ![v1859.toNat]

def k0_chk534 (v1863 : IVec S16 32) (v1865 : IVec S16 32) : Prop :=
  (∀ a x, ((![v1863, v1865] : Fin 2 → IVec S16 32) a x).toNat < S128x200.size a)
instance k0_chk534.dec : ∀ (v1863 : IVec S16 32) (v1865 : IVec S16 32), Decidable (k0_chk534 v1863 v1865) := fun v1863 v1865 => decidable_of_iff' _ (Iff.of_eq (k0_chk534.eq_1 v1863 v1865))
theorem k0_idx534_inb : ∀ (v1863 : IVec S16 32) (v1865 : IVec S16 32) (k0_hw534 : k0_chk534 v1863 v1865), ∀ a x, ((![v1863, v1865] : Fin 2 → IVec S16 32) a x).toNat < S128x200.size a := fun v1863 v1865 k0_hw534 => k0_hw534

def k0_chk535 (v1863 : IVec S16 32) (v1870 : IVec S16 32) : Prop :=
  (∀ a x, ((![v1863, v1870] : Fin 2 → IVec S16 32) a x).toNat < S128x200.size a)
instance k0_chk535.dec : ∀ (v1863 : IVec S16 32) (v1870 : IVec S16 32), Decidable (k0_chk535 v1863 v1870) := fun v1863 v1870 => decidable_of_iff' _ (Iff.of_eq (k0_chk535.eq_1 v1863 v1870))
theorem k0_idx535_inb : ∀ (v1863 : IVec S16 32) (v1870 : IVec S16 32) (k0_hw535 : k0_chk535 v1863 v1870), ∀ a x, ((![v1863, v1870] : Fin 2 → IVec S16 32) a x).toNat < S128x200.size a := fun v1863 v1870 k0_hw535 => k0_hw535

def k0_chk536 (v1863 : IVec S16 32) (v1875 : IVec S16 32) : Prop :=
  (∀ a x, ((![v1863, v1875] : Fin 2 → IVec S16 32) a x).toNat < S128x200.size a)
instance k0_chk536.dec : ∀ (v1863 : IVec S16 32) (v1875 : IVec S16 32), Decidable (k0_chk536 v1863 v1875) := fun v1863 v1875 => decidable_of_iff' _ (Iff.of_eq (k0_chk536.eq_1 v1863 v1875))
theorem k0_idx536_inb : ∀ (v1863 : IVec S16 32) (v1875 : IVec S16 32) (k0_hw536 : k0_chk536 v1863 v1875), ∀ a x, ((![v1863, v1875] : Fin 2 → IVec S16 32) a x).toNat < S128x200.size a := fun v1863 v1875 k0_hw536 => k0_hw536

def k0_chk537 (v1863 : IVec S16 32) (v1880 : IVec S16 32) : Prop :=
  (∀ a x, ((![v1863, v1880] : Fin 2 → IVec S16 32) a x).toNat < S128x200.size a)
instance k0_chk537.dec : ∀ (v1863 : IVec S16 32) (v1880 : IVec S16 32), Decidable (k0_chk537 v1863 v1880) := fun v1863 v1880 => decidable_of_iff' _ (Iff.of_eq (k0_chk537.eq_1 v1863 v1880))
theorem k0_idx537_inb : ∀ (v1863 : IVec S16 32) (v1880 : IVec S16 32) (k0_hw537 : k0_chk537 v1863 v1880), ∀ a x, ((![v1863, v1880] : Fin 2 → IVec S16 32) a x).toNat < S128x200.size a := fun v1863 v1880 k0_hw537 => k0_hw537

def k0_chk538 (v1890 : IVec S16 32) : Prop :=
  (∀ a x, ((![v1890] : Fin 1 → IVec S16 32) a x).toNat < S4096.size a)
instance k0_chk538.dec : ∀ (v1890 : IVec S16 32), Decidable (k0_chk538 v1890) := fun v1890 => decidable_of_iff' _ (Iff.of_eq (k0_chk538.eq_1 v1890))
theorem k0_idx538_inb : ∀ (v1890 : IVec S16 32) (k0_hw538 : k0_chk538 v1890), ∀ a x, ((![v1890] : Fin 1 → IVec S16 32) a x).toNat < S4096.size a := fun v1890 k0_hw538 => k0_hw538

def k0_chk539 (v1863 : IVec S16 32) (v1893 : IVec S16 32) : Prop :=
  (∀ a x, ((![v1863, v1893] : Fin 2 → IVec S16 32) a x).toNat < S128x200.size a)
instance k0_chk539.dec : ∀ (v1863 : IVec S16 32) (v1893 : IVec S16 32), Decidable (k0_chk539 v1863 v1893) := fun v1863 v1893 => decidable_of_iff' _ (Iff.of_eq (k0_chk539.eq_1 v1863 v1893))
theorem k0_idx539_inb : ∀ (v1863 : IVec S16 32) (v1893 : IVec S16 32) (k0_hw539 : k0_chk539 v1863 v1893), ∀ a x, ((![v1863, v1893] : Fin 2 → IVec S16 32) a x).toNat < S128x200.size a := fun v1863 v1893 k0_hw539 => k0_hw539

def k0_chk540 (v1863 : IVec S16 32) (v1898 : IVec S16 32) : Prop :=
  (∀ a x, ((![v1863, v1898] : Fin 2 → IVec S16 32) a x).toNat < S128x200.size a)
instance k0_chk540.dec : ∀ (v1863 : IVec S16 32) (v1898 : IVec S16 32), Decidable (k0_chk540 v1863 v1898) := fun v1863 v1898 => decidable_of_iff' _ (Iff.of_eq (k0_chk540.eq_1 v1863 v1898))
theorem k0_idx540_inb : ∀ (v1863 : IVec S16 32) (v1898 : IVec S16 32) (k0_hw540 : k0_chk540 v1863 v1898), ∀ a x, ((![v1863, v1898] : Fin 2 → IVec S16 32) a x).toNat < S128x200.size a := fun v1863 v1898 k0_hw540 => k0_hw540

def k0_chk541 (v1863 : IVec S16 32) (v1903 : IVec S16 32) : Prop :=
  (∀ a x, ((![v1863, v1903] : Fin 2 → IVec S16 32) a x).toNat < S128x200.size a)
instance k0_chk541.dec : ∀ (v1863 : IVec S16 32) (v1903 : IVec S16 32), Decidable (k0_chk541 v1863 v1903) := fun v1863 v1903 => decidable_of_iff' _ (Iff.of_eq (k0_chk541.eq_1 v1863 v1903))
theorem k0_idx541_inb : ∀ (v1863 : IVec S16 32) (v1903 : IVec S16 32) (k0_hw541 : k0_chk541 v1863 v1903), ∀ a x, ((![v1863, v1903] : Fin 2 → IVec S16 32) a x).toNat < S128x200.size a := fun v1863 v1903 k0_hw541 => k0_hw541

def k0_chk542 (v1863 : IVec S16 32) (v1908 : IVec S16 32) : Prop :=
  (∀ a x, ((![v1863, v1908] : Fin 2 → IVec S16 32) a x).toNat < S128x200.size a)
instance k0_chk542.dec : ∀ (v1863 : IVec S16 32) (v1908 : IVec S16 32), Decidable (k0_chk542 v1863 v1908) := fun v1863 v1908 => decidable_of_iff' _ (Iff.of_eq (k0_chk542.eq_1 v1863 v1908))
theorem k0_idx542_inb : ∀ (v1863 : IVec S16 32) (v1908 : IVec S16 32) (k0_hw542 : k0_chk542 v1863 v1908), ∀ a x, ((![v1863, v1908] : Fin 2 → IVec S16 32) a x).toNat < S128x200.size a := fun v1863 v1908 k0_hw542 => k0_hw542

def k0_chk543 (v1918 : IVec S16 32) : Prop :=
  (∀ a x, ((![v1918] : Fin 1 → IVec S16 32) a x).toNat < S4096.size a)
instance k0_chk543.dec : ∀ (v1918 : IVec S16 32), Decidable (k0_chk543 v1918) := fun v1918 => decidable_of_iff' _ (Iff.of_eq (k0_chk543.eq_1 v1918))
theorem k0_idx543_inb : ∀ (v1918 : IVec S16 32) (k0_hw543 : k0_chk543 v1918), ∀ a x, ((![v1918] : Fin 1 → IVec S16 32) a x).toNat < S4096.size a := fun v1918 k0_hw543 => k0_hw543

def k0_chk544 (v1863 : IVec S16 32) (v1922 : IVec S16 32) : Prop :=
  (∀ a x, ((![v1863, v1922] : Fin 2 → IVec S16 32) a x).toNat < S128x200.size a)
instance k0_chk544.dec : ∀ (v1863 : IVec S16 32) (v1922 : IVec S16 32), Decidable (k0_chk544 v1863 v1922) := fun v1863 v1922 => decidable_of_iff' _ (Iff.of_eq (k0_chk544.eq_1 v1863 v1922))
theorem k0_idx544_inb : ∀ (v1863 : IVec S16 32) (v1922 : IVec S16 32) (k0_hw544 : k0_chk544 v1863 v1922), ∀ a x, ((![v1863, v1922] : Fin 2 → IVec S16 32) a x).toNat < S128x200.size a := fun v1863 v1922 k0_hw544 => k0_hw544

def k0_chk545 (v1863 : IVec S16 32) (v1927 : IVec S16 32) : Prop :=
  (∀ a x, ((![v1863, v1927] : Fin 2 → IVec S16 32) a x).toNat < S128x200.size a)
instance k0_chk545.dec : ∀ (v1863 : IVec S16 32) (v1927 : IVec S16 32), Decidable (k0_chk545 v1863 v1927) := fun v1863 v1927 => decidable_of_iff' _ (Iff.of_eq (k0_chk545.eq_1 v1863 v1927))
theorem k0_idx545_inb : ∀ (v1863 : IVec S16 32) (v1927 : IVec S16 32) (k0_hw545 : k0_chk545 v1863 v1927), ∀ a x, ((![v1863, v1927] : Fin 2 → IVec S16 32) a x).toNat < S128x200.size a := fun v1863 v1927 k0_hw545 => k0_hw545

def k0_chk546 (v1863 : IVec S16 32) (v1932 : IVec S16 32) : Prop :=
  (∀ a x, ((![v1863, v1932] : Fin 2 → IVec S16 32) a x).toNat < S128x200.size a)
instance k0_chk546.dec : ∀ (v1863 : IVec S16 32) (v1932 : IVec S16 32), Decidable (k0_chk546 v1863 v1932) := fun v1863 v1932 => decidable_of_iff' _ (Iff.of_eq (k0_chk546.eq_1 v1863 v1932))
theorem k0_idx546_inb : ∀ (v1863 : IVec S16 32) (v1932 : IVec S16 32) (k0_hw546 : k0_chk546 v1863 v1932), ∀ a x, ((![v1863, v1932] : Fin 2 → IVec S16 32) a x).toNat < S128x200.size a := fun v1863 v1932 k0_hw546 => k0_hw546

def k0_chk547 (v1863 : IVec S16 32) (v1937 : IVec S16 32) : Prop :=
  (∀ a x, ((![v1863, v1937] : Fin 2 → IVec S16 32) a x).toNat < S128x200.size a)
instance k0_chk547.dec : ∀ (v1863 : IVec S16 32) (v1937 : IVec S16 32), Decidable (k0_chk547 v1863 v1937) := fun v1863 v1937 => decidable_of_iff' _ (Iff.of_eq (k0_chk547.eq_1 v1863 v1937))
theorem k0_idx547_inb : ∀ (v1863 : IVec S16 32) (v1937 : IVec S16 32) (k0_hw547 : k0_chk547 v1863 v1937), ∀ a x, ((![v1863, v1937] : Fin 2 → IVec S16 32) a x).toNat < S128x200.size a := fun v1863 v1937 k0_hw547 => k0_hw547

def k0_chk548 (v1947 : IVec S16 32) : Prop :=
  (∀ a x, ((![v1947] : Fin 1 → IVec S16 32) a x).toNat < S4096.size a)
instance k0_chk548.dec : ∀ (v1947 : IVec S16 32), Decidable (k0_chk548 v1947) := fun v1947 => decidable_of_iff' _ (Iff.of_eq (k0_chk548.eq_1 v1947))
theorem k0_idx548_inb : ∀ (v1947 : IVec S16 32) (k0_hw548 : k0_chk548 v1947), ∀ a x, ((![v1947] : Fin 1 → IVec S16 32) a x).toNat < S4096.size a := fun v1947 k0_hw548 => k0_hw548

def k0_chk549 (v1863 : IVec S16 32) (v1951 : IVec S16 32) : Prop :=
  (∀ a x, ((![v1863, v1951] : Fin 2 → IVec S16 32) a x).toNat < S128x200.size a)
instance k0_chk549.dec : ∀ (v1863 : IVec S16 32) (v1951 : IVec S16 32), Decidable (k0_chk549 v1863 v1951) := fun v1863 v1951 => decidable_of_iff' _ (Iff.of_eq (k0_chk549.eq_1 v1863 v1951))
theorem k0_idx549_inb : ∀ (v1863 : IVec S16 32) (v1951 : IVec S16 32) (k0_hw549 : k0_chk549 v1863 v1951), ∀ a x, ((![v1863, v1951] : Fin 2 → IVec S16 32) a x).toNat < S128x200.size a := fun v1863 v1951 k0_hw549 => k0_hw549

def k0_chk550 (v1955 : IVec S16 32) : Prop :=
  (∀ a x, ((![v1955] : Fin 1 → IVec S16 32) a x).toNat < S272.size a)
instance k0_chk550.dec : ∀ (v1955 : IVec S16 32), Decidable (k0_chk550 v1955) := fun v1955 => decidable_of_iff' _ (Iff.of_eq (k0_chk550.eq_1 v1955))
theorem k0_idx550_inb : ∀ (v1955 : IVec S16 32) (k0_hw550 : k0_chk550 v1955), ∀ a x, ((![v1955] : Fin 1 → IVec S16 32) a x).toNat < S272.size a := fun v1955 k0_hw550 => k0_hw550
def k0_off42 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c192_i32_665 : BitVec 32 := 192#32
  let v1959 : BitVec 32 := Scalar.addi v648 c192_i32_665
  let v1960 : Index := Scalar.indexCast v1959
  ![v1960.toNat]

def k0_chk551 (v1964 : IVec S16 32) (v1966 : IVec S16 32) : Prop :=
  (∀ a x, ((![v1964, v1966] : Fin 2 → IVec S16 32) a x).toNat < S128x200.size a)
instance k0_chk551.dec : ∀ (v1964 : IVec S16 32) (v1966 : IVec S16 32), Decidable (k0_chk551 v1964 v1966) := fun v1964 v1966 => decidable_of_iff' _ (Iff.of_eq (k0_chk551.eq_1 v1964 v1966))
theorem k0_idx551_inb : ∀ (v1964 : IVec S16 32) (v1966 : IVec S16 32) (k0_hw551 : k0_chk551 v1964 v1966), ∀ a x, ((![v1964, v1966] : Fin 2 → IVec S16 32) a x).toNat < S128x200.size a := fun v1964 v1966 k0_hw551 => k0_hw551

def k0_chk552 (v1964 : IVec S16 32) (v1971 : IVec S16 32) : Prop :=
  (∀ a x, ((![v1964, v1971] : Fin 2 → IVec S16 32) a x).toNat < S128x200.size a)
instance k0_chk552.dec : ∀ (v1964 : IVec S16 32) (v1971 : IVec S16 32), Decidable (k0_chk552 v1964 v1971) := fun v1964 v1971 => decidable_of_iff' _ (Iff.of_eq (k0_chk552.eq_1 v1964 v1971))
theorem k0_idx552_inb : ∀ (v1964 : IVec S16 32) (v1971 : IVec S16 32) (k0_hw552 : k0_chk552 v1964 v1971), ∀ a x, ((![v1964, v1971] : Fin 2 → IVec S16 32) a x).toNat < S128x200.size a := fun v1964 v1971 k0_hw552 => k0_hw552

def k0_chk553 (v1964 : IVec S16 32) (v1976 : IVec S16 32) : Prop :=
  (∀ a x, ((![v1964, v1976] : Fin 2 → IVec S16 32) a x).toNat < S128x200.size a)
instance k0_chk553.dec : ∀ (v1964 : IVec S16 32) (v1976 : IVec S16 32), Decidable (k0_chk553 v1964 v1976) := fun v1964 v1976 => decidable_of_iff' _ (Iff.of_eq (k0_chk553.eq_1 v1964 v1976))
theorem k0_idx553_inb : ∀ (v1964 : IVec S16 32) (v1976 : IVec S16 32) (k0_hw553 : k0_chk553 v1964 v1976), ∀ a x, ((![v1964, v1976] : Fin 2 → IVec S16 32) a x).toNat < S128x200.size a := fun v1964 v1976 k0_hw553 => k0_hw553

def k0_chk554 (v1964 : IVec S16 32) (v1981 : IVec S16 32) : Prop :=
  (∀ a x, ((![v1964, v1981] : Fin 2 → IVec S16 32) a x).toNat < S128x200.size a)
instance k0_chk554.dec : ∀ (v1964 : IVec S16 32) (v1981 : IVec S16 32), Decidable (k0_chk554 v1964 v1981) := fun v1964 v1981 => decidable_of_iff' _ (Iff.of_eq (k0_chk554.eq_1 v1964 v1981))
theorem k0_idx554_inb : ∀ (v1964 : IVec S16 32) (v1981 : IVec S16 32) (k0_hw554 : k0_chk554 v1964 v1981), ∀ a x, ((![v1964, v1981] : Fin 2 → IVec S16 32) a x).toNat < S128x200.size a := fun v1964 v1981 k0_hw554 => k0_hw554

def k0_chk555 (v1991 : IVec S16 32) : Prop :=
  (∀ a x, ((![v1991] : Fin 1 → IVec S16 32) a x).toNat < S4096.size a)
instance k0_chk555.dec : ∀ (v1991 : IVec S16 32), Decidable (k0_chk555 v1991) := fun v1991 => decidable_of_iff' _ (Iff.of_eq (k0_chk555.eq_1 v1991))
theorem k0_idx555_inb : ∀ (v1991 : IVec S16 32) (k0_hw555 : k0_chk555 v1991), ∀ a x, ((![v1991] : Fin 1 → IVec S16 32) a x).toNat < S4096.size a := fun v1991 k0_hw555 => k0_hw555

def k0_chk556 (v1964 : IVec S16 32) (v1994 : IVec S16 32) : Prop :=
  (∀ a x, ((![v1964, v1994] : Fin 2 → IVec S16 32) a x).toNat < S128x200.size a)
instance k0_chk556.dec : ∀ (v1964 : IVec S16 32) (v1994 : IVec S16 32), Decidable (k0_chk556 v1964 v1994) := fun v1964 v1994 => decidable_of_iff' _ (Iff.of_eq (k0_chk556.eq_1 v1964 v1994))
theorem k0_idx556_inb : ∀ (v1964 : IVec S16 32) (v1994 : IVec S16 32) (k0_hw556 : k0_chk556 v1964 v1994), ∀ a x, ((![v1964, v1994] : Fin 2 → IVec S16 32) a x).toNat < S128x200.size a := fun v1964 v1994 k0_hw556 => k0_hw556

def k0_chk557 (v1964 : IVec S16 32) (v1999 : IVec S16 32) : Prop :=
  (∀ a x, ((![v1964, v1999] : Fin 2 → IVec S16 32) a x).toNat < S128x200.size a)
instance k0_chk557.dec : ∀ (v1964 : IVec S16 32) (v1999 : IVec S16 32), Decidable (k0_chk557 v1964 v1999) := fun v1964 v1999 => decidable_of_iff' _ (Iff.of_eq (k0_chk557.eq_1 v1964 v1999))
theorem k0_idx557_inb : ∀ (v1964 : IVec S16 32) (v1999 : IVec S16 32) (k0_hw557 : k0_chk557 v1964 v1999), ∀ a x, ((![v1964, v1999] : Fin 2 → IVec S16 32) a x).toNat < S128x200.size a := fun v1964 v1999 k0_hw557 => k0_hw557

def k0_chk558 (v1964 : IVec S16 32) (v2004 : IVec S16 32) : Prop :=
  (∀ a x, ((![v1964, v2004] : Fin 2 → IVec S16 32) a x).toNat < S128x200.size a)
instance k0_chk558.dec : ∀ (v1964 : IVec S16 32) (v2004 : IVec S16 32), Decidable (k0_chk558 v1964 v2004) := fun v1964 v2004 => decidable_of_iff' _ (Iff.of_eq (k0_chk558.eq_1 v1964 v2004))
theorem k0_idx558_inb : ∀ (v1964 : IVec S16 32) (v2004 : IVec S16 32) (k0_hw558 : k0_chk558 v1964 v2004), ∀ a x, ((![v1964, v2004] : Fin 2 → IVec S16 32) a x).toNat < S128x200.size a := fun v1964 v2004 k0_hw558 => k0_hw558

def k0_chk559 (v1964 : IVec S16 32) (v2009 : IVec S16 32) : Prop :=
  (∀ a x, ((![v1964, v2009] : Fin 2 → IVec S16 32) a x).toNat < S128x200.size a)
instance k0_chk559.dec : ∀ (v1964 : IVec S16 32) (v2009 : IVec S16 32), Decidable (k0_chk559 v1964 v2009) := fun v1964 v2009 => decidable_of_iff' _ (Iff.of_eq (k0_chk559.eq_1 v1964 v2009))
theorem k0_idx559_inb : ∀ (v1964 : IVec S16 32) (v2009 : IVec S16 32) (k0_hw559 : k0_chk559 v1964 v2009), ∀ a x, ((![v1964, v2009] : Fin 2 → IVec S16 32) a x).toNat < S128x200.size a := fun v1964 v2009 k0_hw559 => k0_hw559

def k0_chk560 (v2019 : IVec S16 32) : Prop :=
  (∀ a x, ((![v2019] : Fin 1 → IVec S16 32) a x).toNat < S4096.size a)
instance k0_chk560.dec : ∀ (v2019 : IVec S16 32), Decidable (k0_chk560 v2019) := fun v2019 => decidable_of_iff' _ (Iff.of_eq (k0_chk560.eq_1 v2019))
theorem k0_idx560_inb : ∀ (v2019 : IVec S16 32) (k0_hw560 : k0_chk560 v2019), ∀ a x, ((![v2019] : Fin 1 → IVec S16 32) a x).toNat < S4096.size a := fun v2019 k0_hw560 => k0_hw560

def k0_chk561 (v1964 : IVec S16 32) (v2023 : IVec S16 32) : Prop :=
  (∀ a x, ((![v1964, v2023] : Fin 2 → IVec S16 32) a x).toNat < S128x200.size a)
instance k0_chk561.dec : ∀ (v1964 : IVec S16 32) (v2023 : IVec S16 32), Decidable (k0_chk561 v1964 v2023) := fun v1964 v2023 => decidable_of_iff' _ (Iff.of_eq (k0_chk561.eq_1 v1964 v2023))
theorem k0_idx561_inb : ∀ (v1964 : IVec S16 32) (v2023 : IVec S16 32) (k0_hw561 : k0_chk561 v1964 v2023), ∀ a x, ((![v1964, v2023] : Fin 2 → IVec S16 32) a x).toNat < S128x200.size a := fun v1964 v2023 k0_hw561 => k0_hw561

def k0_chk562 (v1964 : IVec S16 32) (v2028 : IVec S16 32) : Prop :=
  (∀ a x, ((![v1964, v2028] : Fin 2 → IVec S16 32) a x).toNat < S128x200.size a)
instance k0_chk562.dec : ∀ (v1964 : IVec S16 32) (v2028 : IVec S16 32), Decidable (k0_chk562 v1964 v2028) := fun v1964 v2028 => decidable_of_iff' _ (Iff.of_eq (k0_chk562.eq_1 v1964 v2028))
theorem k0_idx562_inb : ∀ (v1964 : IVec S16 32) (v2028 : IVec S16 32) (k0_hw562 : k0_chk562 v1964 v2028), ∀ a x, ((![v1964, v2028] : Fin 2 → IVec S16 32) a x).toNat < S128x200.size a := fun v1964 v2028 k0_hw562 => k0_hw562

def k0_chk563 (v1964 : IVec S16 32) (v2033 : IVec S16 32) : Prop :=
  (∀ a x, ((![v1964, v2033] : Fin 2 → IVec S16 32) a x).toNat < S128x200.size a)
instance k0_chk563.dec : ∀ (v1964 : IVec S16 32) (v2033 : IVec S16 32), Decidable (k0_chk563 v1964 v2033) := fun v1964 v2033 => decidable_of_iff' _ (Iff.of_eq (k0_chk563.eq_1 v1964 v2033))
theorem k0_idx563_inb : ∀ (v1964 : IVec S16 32) (v2033 : IVec S16 32) (k0_hw563 : k0_chk563 v1964 v2033), ∀ a x, ((![v1964, v2033] : Fin 2 → IVec S16 32) a x).toNat < S128x200.size a := fun v1964 v2033 k0_hw563 => k0_hw563

def k0_chk564 (v1964 : IVec S16 32) (v2038 : IVec S16 32) : Prop :=
  (∀ a x, ((![v1964, v2038] : Fin 2 → IVec S16 32) a x).toNat < S128x200.size a)
instance k0_chk564.dec : ∀ (v1964 : IVec S16 32) (v2038 : IVec S16 32), Decidable (k0_chk564 v1964 v2038) := fun v1964 v2038 => decidable_of_iff' _ (Iff.of_eq (k0_chk564.eq_1 v1964 v2038))
theorem k0_idx564_inb : ∀ (v1964 : IVec S16 32) (v2038 : IVec S16 32) (k0_hw564 : k0_chk564 v1964 v2038), ∀ a x, ((![v1964, v2038] : Fin 2 → IVec S16 32) a x).toNat < S128x200.size a := fun v1964 v2038 k0_hw564 => k0_hw564

def k0_chk565 (v2048 : IVec S16 32) : Prop :=
  (∀ a x, ((![v2048] : Fin 1 → IVec S16 32) a x).toNat < S4096.size a)
instance k0_chk565.dec : ∀ (v2048 : IVec S16 32), Decidable (k0_chk565 v2048) := fun v2048 => decidable_of_iff' _ (Iff.of_eq (k0_chk565.eq_1 v2048))
theorem k0_idx565_inb : ∀ (v2048 : IVec S16 32) (k0_hw565 : k0_chk565 v2048), ∀ a x, ((![v2048] : Fin 1 → IVec S16 32) a x).toNat < S4096.size a := fun v2048 k0_hw565 => k0_hw565

def k0_chk566 (v1964 : IVec S16 32) (v2052 : IVec S16 32) : Prop :=
  (∀ a x, ((![v1964, v2052] : Fin 2 → IVec S16 32) a x).toNat < S128x200.size a)
instance k0_chk566.dec : ∀ (v1964 : IVec S16 32) (v2052 : IVec S16 32), Decidable (k0_chk566 v1964 v2052) := fun v1964 v2052 => decidable_of_iff' _ (Iff.of_eq (k0_chk566.eq_1 v1964 v2052))
theorem k0_idx566_inb : ∀ (v1964 : IVec S16 32) (v2052 : IVec S16 32) (k0_hw566 : k0_chk566 v1964 v2052), ∀ a x, ((![v1964, v2052] : Fin 2 → IVec S16 32) a x).toNat < S128x200.size a := fun v1964 v2052 k0_hw566 => k0_hw566

def k0_chk567 (v2056 : IVec S16 32) : Prop :=
  (∀ a x, ((![v2056] : Fin 1 → IVec S16 32) a x).toNat < S272.size a)
instance k0_chk567.dec : ∀ (v2056 : IVec S16 32), Decidable (k0_chk567 v2056) := fun v2056 => decidable_of_iff' _ (Iff.of_eq (k0_chk567.eq_1 v2056))
theorem k0_idx567_inb : ∀ (v2056 : IVec S16 32) (k0_hw567 : k0_chk567 v2056), ∀ a x, ((![v2056] : Fin 1 → IVec S16 32) a x).toNat < S272.size a := fun v2056 k0_hw567 => k0_hw567
def k0_off43 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c208_i32_699 : BitVec 32 := 208#32
  let v2060 : BitVec 32 := Scalar.addi v648 c208_i32_699
  let v2061 : Index := Scalar.indexCast v2060
  ![v2061.toNat]

def k0_chk568 (v2065 : IVec S16 32) (v2067 : IVec S16 32) : Prop :=
  (∀ a x, ((![v2065, v2067] : Fin 2 → IVec S16 32) a x).toNat < S128x200.size a)
instance k0_chk568.dec : ∀ (v2065 : IVec S16 32) (v2067 : IVec S16 32), Decidable (k0_chk568 v2065 v2067) := fun v2065 v2067 => decidable_of_iff' _ (Iff.of_eq (k0_chk568.eq_1 v2065 v2067))
theorem k0_idx568_inb : ∀ (v2065 : IVec S16 32) (v2067 : IVec S16 32) (k0_hw568 : k0_chk568 v2065 v2067), ∀ a x, ((![v2065, v2067] : Fin 2 → IVec S16 32) a x).toNat < S128x200.size a := fun v2065 v2067 k0_hw568 => k0_hw568

def k0_chk569 (v2065 : IVec S16 32) (v2072 : IVec S16 32) : Prop :=
  (∀ a x, ((![v2065, v2072] : Fin 2 → IVec S16 32) a x).toNat < S128x200.size a)
instance k0_chk569.dec : ∀ (v2065 : IVec S16 32) (v2072 : IVec S16 32), Decidable (k0_chk569 v2065 v2072) := fun v2065 v2072 => decidable_of_iff' _ (Iff.of_eq (k0_chk569.eq_1 v2065 v2072))
theorem k0_idx569_inb : ∀ (v2065 : IVec S16 32) (v2072 : IVec S16 32) (k0_hw569 : k0_chk569 v2065 v2072), ∀ a x, ((![v2065, v2072] : Fin 2 → IVec S16 32) a x).toNat < S128x200.size a := fun v2065 v2072 k0_hw569 => k0_hw569

def k0_chk570 (v2065 : IVec S16 32) (v2077 : IVec S16 32) : Prop :=
  (∀ a x, ((![v2065, v2077] : Fin 2 → IVec S16 32) a x).toNat < S128x200.size a)
instance k0_chk570.dec : ∀ (v2065 : IVec S16 32) (v2077 : IVec S16 32), Decidable (k0_chk570 v2065 v2077) := fun v2065 v2077 => decidable_of_iff' _ (Iff.of_eq (k0_chk570.eq_1 v2065 v2077))
theorem k0_idx570_inb : ∀ (v2065 : IVec S16 32) (v2077 : IVec S16 32) (k0_hw570 : k0_chk570 v2065 v2077), ∀ a x, ((![v2065, v2077] : Fin 2 → IVec S16 32) a x).toNat < S128x200.size a := fun v2065 v2077 k0_hw570 => k0_hw570

def k0_chk571 (v2065 : IVec S16 32) (v2082 : IVec S16 32) : Prop :=
  (∀ a x, ((![v2065, v2082] : Fin 2 → IVec S16 32) a x).toNat < S128x200.size a)
instance k0_chk571.dec : ∀ (v2065 : IVec S16 32) (v2082 : IVec S16 32), Decidable (k0_chk571 v2065 v2082) := fun v2065 v2082 => decidable_of_iff' _ (Iff.of_eq (k0_chk571.eq_1 v2065 v2082))
theorem k0_idx571_inb : ∀ (v2065 : IVec S16 32) (v2082 : IVec S16 32) (k0_hw571 : k0_chk571 v2065 v2082), ∀ a x, ((![v2065, v2082] : Fin 2 → IVec S16 32) a x).toNat < S128x200.size a := fun v2065 v2082 k0_hw571 => k0_hw571

def k0_chk572 (v2092 : IVec S16 32) : Prop :=
  (∀ a x, ((![v2092] : Fin 1 → IVec S16 32) a x).toNat < S4096.size a)
instance k0_chk572.dec : ∀ (v2092 : IVec S16 32), Decidable (k0_chk572 v2092) := fun v2092 => decidable_of_iff' _ (Iff.of_eq (k0_chk572.eq_1 v2092))
theorem k0_idx572_inb : ∀ (v2092 : IVec S16 32) (k0_hw572 : k0_chk572 v2092), ∀ a x, ((![v2092] : Fin 1 → IVec S16 32) a x).toNat < S4096.size a := fun v2092 k0_hw572 => k0_hw572

def k0_chk573 (v2065 : IVec S16 32) (v2095 : IVec S16 32) : Prop :=
  (∀ a x, ((![v2065, v2095] : Fin 2 → IVec S16 32) a x).toNat < S128x200.size a)
instance k0_chk573.dec : ∀ (v2065 : IVec S16 32) (v2095 : IVec S16 32), Decidable (k0_chk573 v2065 v2095) := fun v2065 v2095 => decidable_of_iff' _ (Iff.of_eq (k0_chk573.eq_1 v2065 v2095))
theorem k0_idx573_inb : ∀ (v2065 : IVec S16 32) (v2095 : IVec S16 32) (k0_hw573 : k0_chk573 v2065 v2095), ∀ a x, ((![v2065, v2095] : Fin 2 → IVec S16 32) a x).toNat < S128x200.size a := fun v2065 v2095 k0_hw573 => k0_hw573

def k0_chk574 (v2065 : IVec S16 32) (v2100 : IVec S16 32) : Prop :=
  (∀ a x, ((![v2065, v2100] : Fin 2 → IVec S16 32) a x).toNat < S128x200.size a)
instance k0_chk574.dec : ∀ (v2065 : IVec S16 32) (v2100 : IVec S16 32), Decidable (k0_chk574 v2065 v2100) := fun v2065 v2100 => decidable_of_iff' _ (Iff.of_eq (k0_chk574.eq_1 v2065 v2100))
theorem k0_idx574_inb : ∀ (v2065 : IVec S16 32) (v2100 : IVec S16 32) (k0_hw574 : k0_chk574 v2065 v2100), ∀ a x, ((![v2065, v2100] : Fin 2 → IVec S16 32) a x).toNat < S128x200.size a := fun v2065 v2100 k0_hw574 => k0_hw574

def k0_chk575 (v2065 : IVec S16 32) (v2105 : IVec S16 32) : Prop :=
  (∀ a x, ((![v2065, v2105] : Fin 2 → IVec S16 32) a x).toNat < S128x200.size a)
instance k0_chk575.dec : ∀ (v2065 : IVec S16 32) (v2105 : IVec S16 32), Decidable (k0_chk575 v2065 v2105) := fun v2065 v2105 => decidable_of_iff' _ (Iff.of_eq (k0_chk575.eq_1 v2065 v2105))
theorem k0_idx575_inb : ∀ (v2065 : IVec S16 32) (v2105 : IVec S16 32) (k0_hw575 : k0_chk575 v2065 v2105), ∀ a x, ((![v2065, v2105] : Fin 2 → IVec S16 32) a x).toNat < S128x200.size a := fun v2065 v2105 k0_hw575 => k0_hw575

def k0_chk576 (v2065 : IVec S16 32) (v2110 : IVec S16 32) : Prop :=
  (∀ a x, ((![v2065, v2110] : Fin 2 → IVec S16 32) a x).toNat < S128x200.size a)
instance k0_chk576.dec : ∀ (v2065 : IVec S16 32) (v2110 : IVec S16 32), Decidable (k0_chk576 v2065 v2110) := fun v2065 v2110 => decidable_of_iff' _ (Iff.of_eq (k0_chk576.eq_1 v2065 v2110))
theorem k0_idx576_inb : ∀ (v2065 : IVec S16 32) (v2110 : IVec S16 32) (k0_hw576 : k0_chk576 v2065 v2110), ∀ a x, ((![v2065, v2110] : Fin 2 → IVec S16 32) a x).toNat < S128x200.size a := fun v2065 v2110 k0_hw576 => k0_hw576

def k0_chk577 (v2120 : IVec S16 32) : Prop :=
  (∀ a x, ((![v2120] : Fin 1 → IVec S16 32) a x).toNat < S4096.size a)
instance k0_chk577.dec : ∀ (v2120 : IVec S16 32), Decidable (k0_chk577 v2120) := fun v2120 => decidable_of_iff' _ (Iff.of_eq (k0_chk577.eq_1 v2120))
theorem k0_idx577_inb : ∀ (v2120 : IVec S16 32) (k0_hw577 : k0_chk577 v2120), ∀ a x, ((![v2120] : Fin 1 → IVec S16 32) a x).toNat < S4096.size a := fun v2120 k0_hw577 => k0_hw577

def k0_chk578 (v2065 : IVec S16 32) (v2124 : IVec S16 32) : Prop :=
  (∀ a x, ((![v2065, v2124] : Fin 2 → IVec S16 32) a x).toNat < S128x200.size a)
instance k0_chk578.dec : ∀ (v2065 : IVec S16 32) (v2124 : IVec S16 32), Decidable (k0_chk578 v2065 v2124) := fun v2065 v2124 => decidable_of_iff' _ (Iff.of_eq (k0_chk578.eq_1 v2065 v2124))
theorem k0_idx578_inb : ∀ (v2065 : IVec S16 32) (v2124 : IVec S16 32) (k0_hw578 : k0_chk578 v2065 v2124), ∀ a x, ((![v2065, v2124] : Fin 2 → IVec S16 32) a x).toNat < S128x200.size a := fun v2065 v2124 k0_hw578 => k0_hw578

def k0_chk579 (v2065 : IVec S16 32) (v2129 : IVec S16 32) : Prop :=
  (∀ a x, ((![v2065, v2129] : Fin 2 → IVec S16 32) a x).toNat < S128x200.size a)
instance k0_chk579.dec : ∀ (v2065 : IVec S16 32) (v2129 : IVec S16 32), Decidable (k0_chk579 v2065 v2129) := fun v2065 v2129 => decidable_of_iff' _ (Iff.of_eq (k0_chk579.eq_1 v2065 v2129))
theorem k0_idx579_inb : ∀ (v2065 : IVec S16 32) (v2129 : IVec S16 32) (k0_hw579 : k0_chk579 v2065 v2129), ∀ a x, ((![v2065, v2129] : Fin 2 → IVec S16 32) a x).toNat < S128x200.size a := fun v2065 v2129 k0_hw579 => k0_hw579

def k0_chk580 (v2065 : IVec S16 32) (v2134 : IVec S16 32) : Prop :=
  (∀ a x, ((![v2065, v2134] : Fin 2 → IVec S16 32) a x).toNat < S128x200.size a)
instance k0_chk580.dec : ∀ (v2065 : IVec S16 32) (v2134 : IVec S16 32), Decidable (k0_chk580 v2065 v2134) := fun v2065 v2134 => decidable_of_iff' _ (Iff.of_eq (k0_chk580.eq_1 v2065 v2134))
theorem k0_idx580_inb : ∀ (v2065 : IVec S16 32) (v2134 : IVec S16 32) (k0_hw580 : k0_chk580 v2065 v2134), ∀ a x, ((![v2065, v2134] : Fin 2 → IVec S16 32) a x).toNat < S128x200.size a := fun v2065 v2134 k0_hw580 => k0_hw580

def k0_chk581 (v2065 : IVec S16 32) (v2139 : IVec S16 32) : Prop :=
  (∀ a x, ((![v2065, v2139] : Fin 2 → IVec S16 32) a x).toNat < S128x200.size a)
instance k0_chk581.dec : ∀ (v2065 : IVec S16 32) (v2139 : IVec S16 32), Decidable (k0_chk581 v2065 v2139) := fun v2065 v2139 => decidable_of_iff' _ (Iff.of_eq (k0_chk581.eq_1 v2065 v2139))
theorem k0_idx581_inb : ∀ (v2065 : IVec S16 32) (v2139 : IVec S16 32) (k0_hw581 : k0_chk581 v2065 v2139), ∀ a x, ((![v2065, v2139] : Fin 2 → IVec S16 32) a x).toNat < S128x200.size a := fun v2065 v2139 k0_hw581 => k0_hw581

def k0_chk582 (v2149 : IVec S16 32) : Prop :=
  (∀ a x, ((![v2149] : Fin 1 → IVec S16 32) a x).toNat < S4096.size a)
instance k0_chk582.dec : ∀ (v2149 : IVec S16 32), Decidable (k0_chk582 v2149) := fun v2149 => decidable_of_iff' _ (Iff.of_eq (k0_chk582.eq_1 v2149))
theorem k0_idx582_inb : ∀ (v2149 : IVec S16 32) (k0_hw582 : k0_chk582 v2149), ∀ a x, ((![v2149] : Fin 1 → IVec S16 32) a x).toNat < S4096.size a := fun v2149 k0_hw582 => k0_hw582

def k0_chk583 (v2065 : IVec S16 32) (v2153 : IVec S16 32) : Prop :=
  (∀ a x, ((![v2065, v2153] : Fin 2 → IVec S16 32) a x).toNat < S128x200.size a)
instance k0_chk583.dec : ∀ (v2065 : IVec S16 32) (v2153 : IVec S16 32), Decidable (k0_chk583 v2065 v2153) := fun v2065 v2153 => decidable_of_iff' _ (Iff.of_eq (k0_chk583.eq_1 v2065 v2153))
theorem k0_idx583_inb : ∀ (v2065 : IVec S16 32) (v2153 : IVec S16 32) (k0_hw583 : k0_chk583 v2065 v2153), ∀ a x, ((![v2065, v2153] : Fin 2 → IVec S16 32) a x).toNat < S128x200.size a := fun v2065 v2153 k0_hw583 => k0_hw583

def k0_chk584 (v2157 : IVec S16 32) : Prop :=
  (∀ a x, ((![v2157] : Fin 1 → IVec S16 32) a x).toNat < S272.size a)
instance k0_chk584.dec : ∀ (v2157 : IVec S16 32), Decidable (k0_chk584 v2157) := fun v2157 => decidable_of_iff' _ (Iff.of_eq (k0_chk584.eq_1 v2157))
theorem k0_idx584_inb : ∀ (v2157 : IVec S16 32) (k0_hw584 : k0_chk584 v2157), ∀ a x, ((![v2157] : Fin 1 → IVec S16 32) a x).toNat < S272.size a := fun v2157 k0_hw584 => k0_hw584
def k0_off44 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c224_i32_733 : BitVec 32 := 224#32
  let v2161 : BitVec 32 := Scalar.addi v648 c224_i32_733
  let v2162 : Index := Scalar.indexCast v2161
  ![v2162.toNat]

def k0_chk585 (v2166 : IVec S16 32) (v2168 : IVec S16 32) : Prop :=
  (∀ a x, ((![v2166, v2168] : Fin 2 → IVec S16 32) a x).toNat < S128x200.size a)
instance k0_chk585.dec : ∀ (v2166 : IVec S16 32) (v2168 : IVec S16 32), Decidable (k0_chk585 v2166 v2168) := fun v2166 v2168 => decidable_of_iff' _ (Iff.of_eq (k0_chk585.eq_1 v2166 v2168))
theorem k0_idx585_inb : ∀ (v2166 : IVec S16 32) (v2168 : IVec S16 32) (k0_hw585 : k0_chk585 v2166 v2168), ∀ a x, ((![v2166, v2168] : Fin 2 → IVec S16 32) a x).toNat < S128x200.size a := fun v2166 v2168 k0_hw585 => k0_hw585

def k0_chk586 (v2166 : IVec S16 32) (v2173 : IVec S16 32) : Prop :=
  (∀ a x, ((![v2166, v2173] : Fin 2 → IVec S16 32) a x).toNat < S128x200.size a)
instance k0_chk586.dec : ∀ (v2166 : IVec S16 32) (v2173 : IVec S16 32), Decidable (k0_chk586 v2166 v2173) := fun v2166 v2173 => decidable_of_iff' _ (Iff.of_eq (k0_chk586.eq_1 v2166 v2173))
theorem k0_idx586_inb : ∀ (v2166 : IVec S16 32) (v2173 : IVec S16 32) (k0_hw586 : k0_chk586 v2166 v2173), ∀ a x, ((![v2166, v2173] : Fin 2 → IVec S16 32) a x).toNat < S128x200.size a := fun v2166 v2173 k0_hw586 => k0_hw586

def k0_chk587 (v2166 : IVec S16 32) (v2178 : IVec S16 32) : Prop :=
  (∀ a x, ((![v2166, v2178] : Fin 2 → IVec S16 32) a x).toNat < S128x200.size a)
instance k0_chk587.dec : ∀ (v2166 : IVec S16 32) (v2178 : IVec S16 32), Decidable (k0_chk587 v2166 v2178) := fun v2166 v2178 => decidable_of_iff' _ (Iff.of_eq (k0_chk587.eq_1 v2166 v2178))
theorem k0_idx587_inb : ∀ (v2166 : IVec S16 32) (v2178 : IVec S16 32) (k0_hw587 : k0_chk587 v2166 v2178), ∀ a x, ((![v2166, v2178] : Fin 2 → IVec S16 32) a x).toNat < S128x200.size a := fun v2166 v2178 k0_hw587 => k0_hw587

def k0_chk588 (v2166 : IVec S16 32) (v2183 : IVec S16 32) : Prop :=
  (∀ a x, ((![v2166, v2183] : Fin 2 → IVec S16 32) a x).toNat < S128x200.size a)
instance k0_chk588.dec : ∀ (v2166 : IVec S16 32) (v2183 : IVec S16 32), Decidable (k0_chk588 v2166 v2183) := fun v2166 v2183 => decidable_of_iff' _ (Iff.of_eq (k0_chk588.eq_1 v2166 v2183))
theorem k0_idx588_inb : ∀ (v2166 : IVec S16 32) (v2183 : IVec S16 32) (k0_hw588 : k0_chk588 v2166 v2183), ∀ a x, ((![v2166, v2183] : Fin 2 → IVec S16 32) a x).toNat < S128x200.size a := fun v2166 v2183 k0_hw588 => k0_hw588

def k0_chk589 (v2193 : IVec S16 32) : Prop :=
  (∀ a x, ((![v2193] : Fin 1 → IVec S16 32) a x).toNat < S4096.size a)
instance k0_chk589.dec : ∀ (v2193 : IVec S16 32), Decidable (k0_chk589 v2193) := fun v2193 => decidable_of_iff' _ (Iff.of_eq (k0_chk589.eq_1 v2193))
theorem k0_idx589_inb : ∀ (v2193 : IVec S16 32) (k0_hw589 : k0_chk589 v2193), ∀ a x, ((![v2193] : Fin 1 → IVec S16 32) a x).toNat < S4096.size a := fun v2193 k0_hw589 => k0_hw589

def k0_chk590 (v2166 : IVec S16 32) (v2196 : IVec S16 32) : Prop :=
  (∀ a x, ((![v2166, v2196] : Fin 2 → IVec S16 32) a x).toNat < S128x200.size a)
instance k0_chk590.dec : ∀ (v2166 : IVec S16 32) (v2196 : IVec S16 32), Decidable (k0_chk590 v2166 v2196) := fun v2166 v2196 => decidable_of_iff' _ (Iff.of_eq (k0_chk590.eq_1 v2166 v2196))
theorem k0_idx590_inb : ∀ (v2166 : IVec S16 32) (v2196 : IVec S16 32) (k0_hw590 : k0_chk590 v2166 v2196), ∀ a x, ((![v2166, v2196] : Fin 2 → IVec S16 32) a x).toNat < S128x200.size a := fun v2166 v2196 k0_hw590 => k0_hw590

def k0_chk591 (v2166 : IVec S16 32) (v2201 : IVec S16 32) : Prop :=
  (∀ a x, ((![v2166, v2201] : Fin 2 → IVec S16 32) a x).toNat < S128x200.size a)
instance k0_chk591.dec : ∀ (v2166 : IVec S16 32) (v2201 : IVec S16 32), Decidable (k0_chk591 v2166 v2201) := fun v2166 v2201 => decidable_of_iff' _ (Iff.of_eq (k0_chk591.eq_1 v2166 v2201))
theorem k0_idx591_inb : ∀ (v2166 : IVec S16 32) (v2201 : IVec S16 32) (k0_hw591 : k0_chk591 v2166 v2201), ∀ a x, ((![v2166, v2201] : Fin 2 → IVec S16 32) a x).toNat < S128x200.size a := fun v2166 v2201 k0_hw591 => k0_hw591

def k0_chk592 (v2166 : IVec S16 32) (v2206 : IVec S16 32) : Prop :=
  (∀ a x, ((![v2166, v2206] : Fin 2 → IVec S16 32) a x).toNat < S128x200.size a)
instance k0_chk592.dec : ∀ (v2166 : IVec S16 32) (v2206 : IVec S16 32), Decidable (k0_chk592 v2166 v2206) := fun v2166 v2206 => decidable_of_iff' _ (Iff.of_eq (k0_chk592.eq_1 v2166 v2206))
theorem k0_idx592_inb : ∀ (v2166 : IVec S16 32) (v2206 : IVec S16 32) (k0_hw592 : k0_chk592 v2166 v2206), ∀ a x, ((![v2166, v2206] : Fin 2 → IVec S16 32) a x).toNat < S128x200.size a := fun v2166 v2206 k0_hw592 => k0_hw592

def k0_chk593 (v2166 : IVec S16 32) (v2211 : IVec S16 32) : Prop :=
  (∀ a x, ((![v2166, v2211] : Fin 2 → IVec S16 32) a x).toNat < S128x200.size a)
instance k0_chk593.dec : ∀ (v2166 : IVec S16 32) (v2211 : IVec S16 32), Decidable (k0_chk593 v2166 v2211) := fun v2166 v2211 => decidable_of_iff' _ (Iff.of_eq (k0_chk593.eq_1 v2166 v2211))
theorem k0_idx593_inb : ∀ (v2166 : IVec S16 32) (v2211 : IVec S16 32) (k0_hw593 : k0_chk593 v2166 v2211), ∀ a x, ((![v2166, v2211] : Fin 2 → IVec S16 32) a x).toNat < S128x200.size a := fun v2166 v2211 k0_hw593 => k0_hw593

def k0_chk594 (v2221 : IVec S16 32) : Prop :=
  (∀ a x, ((![v2221] : Fin 1 → IVec S16 32) a x).toNat < S4096.size a)
instance k0_chk594.dec : ∀ (v2221 : IVec S16 32), Decidable (k0_chk594 v2221) := fun v2221 => decidable_of_iff' _ (Iff.of_eq (k0_chk594.eq_1 v2221))
theorem k0_idx594_inb : ∀ (v2221 : IVec S16 32) (k0_hw594 : k0_chk594 v2221), ∀ a x, ((![v2221] : Fin 1 → IVec S16 32) a x).toNat < S4096.size a := fun v2221 k0_hw594 => k0_hw594

def k0_chk595 (v2166 : IVec S16 32) (v2225 : IVec S16 32) : Prop :=
  (∀ a x, ((![v2166, v2225] : Fin 2 → IVec S16 32) a x).toNat < S128x200.size a)
instance k0_chk595.dec : ∀ (v2166 : IVec S16 32) (v2225 : IVec S16 32), Decidable (k0_chk595 v2166 v2225) := fun v2166 v2225 => decidable_of_iff' _ (Iff.of_eq (k0_chk595.eq_1 v2166 v2225))
theorem k0_idx595_inb : ∀ (v2166 : IVec S16 32) (v2225 : IVec S16 32) (k0_hw595 : k0_chk595 v2166 v2225), ∀ a x, ((![v2166, v2225] : Fin 2 → IVec S16 32) a x).toNat < S128x200.size a := fun v2166 v2225 k0_hw595 => k0_hw595

def k0_chk596 (v2166 : IVec S16 32) (v2230 : IVec S16 32) : Prop :=
  (∀ a x, ((![v2166, v2230] : Fin 2 → IVec S16 32) a x).toNat < S128x200.size a)
instance k0_chk596.dec : ∀ (v2166 : IVec S16 32) (v2230 : IVec S16 32), Decidable (k0_chk596 v2166 v2230) := fun v2166 v2230 => decidable_of_iff' _ (Iff.of_eq (k0_chk596.eq_1 v2166 v2230))
theorem k0_idx596_inb : ∀ (v2166 : IVec S16 32) (v2230 : IVec S16 32) (k0_hw596 : k0_chk596 v2166 v2230), ∀ a x, ((![v2166, v2230] : Fin 2 → IVec S16 32) a x).toNat < S128x200.size a := fun v2166 v2230 k0_hw596 => k0_hw596

def k0_chk597 (v2166 : IVec S16 32) (v2235 : IVec S16 32) : Prop :=
  (∀ a x, ((![v2166, v2235] : Fin 2 → IVec S16 32) a x).toNat < S128x200.size a)
instance k0_chk597.dec : ∀ (v2166 : IVec S16 32) (v2235 : IVec S16 32), Decidable (k0_chk597 v2166 v2235) := fun v2166 v2235 => decidable_of_iff' _ (Iff.of_eq (k0_chk597.eq_1 v2166 v2235))
theorem k0_idx597_inb : ∀ (v2166 : IVec S16 32) (v2235 : IVec S16 32) (k0_hw597 : k0_chk597 v2166 v2235), ∀ a x, ((![v2166, v2235] : Fin 2 → IVec S16 32) a x).toNat < S128x200.size a := fun v2166 v2235 k0_hw597 => k0_hw597

def k0_chk598 (v2166 : IVec S16 32) (v2240 : IVec S16 32) : Prop :=
  (∀ a x, ((![v2166, v2240] : Fin 2 → IVec S16 32) a x).toNat < S128x200.size a)
instance k0_chk598.dec : ∀ (v2166 : IVec S16 32) (v2240 : IVec S16 32), Decidable (k0_chk598 v2166 v2240) := fun v2166 v2240 => decidable_of_iff' _ (Iff.of_eq (k0_chk598.eq_1 v2166 v2240))
theorem k0_idx598_inb : ∀ (v2166 : IVec S16 32) (v2240 : IVec S16 32) (k0_hw598 : k0_chk598 v2166 v2240), ∀ a x, ((![v2166, v2240] : Fin 2 → IVec S16 32) a x).toNat < S128x200.size a := fun v2166 v2240 k0_hw598 => k0_hw598

def k0_chk599 (v2250 : IVec S16 32) : Prop :=
  (∀ a x, ((![v2250] : Fin 1 → IVec S16 32) a x).toNat < S4096.size a)
instance k0_chk599.dec : ∀ (v2250 : IVec S16 32), Decidable (k0_chk599 v2250) := fun v2250 => decidable_of_iff' _ (Iff.of_eq (k0_chk599.eq_1 v2250))
theorem k0_idx599_inb : ∀ (v2250 : IVec S16 32) (k0_hw599 : k0_chk599 v2250), ∀ a x, ((![v2250] : Fin 1 → IVec S16 32) a x).toNat < S4096.size a := fun v2250 k0_hw599 => k0_hw599

def k0_chk600 (v2166 : IVec S16 32) (v2254 : IVec S16 32) : Prop :=
  (∀ a x, ((![v2166, v2254] : Fin 2 → IVec S16 32) a x).toNat < S128x200.size a)
instance k0_chk600.dec : ∀ (v2166 : IVec S16 32) (v2254 : IVec S16 32), Decidable (k0_chk600 v2166 v2254) := fun v2166 v2254 => decidable_of_iff' _ (Iff.of_eq (k0_chk600.eq_1 v2166 v2254))
theorem k0_idx600_inb : ∀ (v2166 : IVec S16 32) (v2254 : IVec S16 32) (k0_hw600 : k0_chk600 v2166 v2254), ∀ a x, ((![v2166, v2254] : Fin 2 → IVec S16 32) a x).toNat < S128x200.size a := fun v2166 v2254 k0_hw600 => k0_hw600

def k0_chk601 (v2258 : IVec S16 32) : Prop :=
  (∀ a x, ((![v2258] : Fin 1 → IVec S16 32) a x).toNat < S272.size a)
instance k0_chk601.dec : ∀ (v2258 : IVec S16 32), Decidable (k0_chk601 v2258) := fun v2258 => decidable_of_iff' _ (Iff.of_eq (k0_chk601.eq_1 v2258))
theorem k0_idx601_inb : ∀ (v2258 : IVec S16 32) (k0_hw601 : k0_chk601 v2258), ∀ a x, ((![v2258] : Fin 1 → IVec S16 32) a x).toNat < S272.size a := fun v2258 k0_hw601 => k0_hw601
def k0_off45 (k0_t3 : Fin k0_t3_loop.trips) : Fin 1 → Nat :=
  let c0_i32_195 : BitVec 32 := 0#32
  let c1_i32_197 : BitVec 32 := 1#32
  let arg17 : BitVec 32 := Scf.iv c0_i32_195 c1_i32_197 k0_t3
  let c1_i32_217 : BitVec 32 := 1#32
  let v647 : BitVec 32 := Scalar.andi arg17 c1_i32_217
  let c256_i32_218 : BitVec 32 := 256#32
  let v648 : BitVec 32 := Scalar.muli v647 c256_i32_218
  let c240_i32_767 : BitVec 32 := 240#32
  let v2262 : BitVec 32 := Scalar.addi v648 c240_i32_767
  let v2263 : Index := Scalar.indexCast v2262
  ![v2263.toNat]
def k0_off46 (k0_t3 : Fin k0_t3_loop.trips) : Fin 1 → Nat :=
  let c128_i32_216 : BitVec 32 := 128#32
  let c0_i32_195 : BitVec 32 := 0#32
  let c1_i32_197 : BitVec 32 := 1#32
  let arg17 : BitVec 32 := Scf.iv c0_i32_195 c1_i32_197 k0_t3
  let c16_i32_215 : BitVec 32 := 16#32
  let v645 : BitVec 32 := Scalar.muli arg17 c16_i32_215
  let v646 : BitVec 32 := Scalar.addi c128_i32_216 v645
  let v2265 : Index := Scalar.indexCast v646
  ![v2265.toNat]

def k0_chk602 (v2273 : IVec S16 32) : Prop :=
  (∀ a x, ((![v2273] : Fin 1 → IVec S16 32) a x).toNat < S512.size a)
instance k0_chk602.dec : ∀ (v2273 : IVec S16 32), Decidable (k0_chk602 v2273) := fun v2273 => decidable_of_iff' _ (Iff.of_eq (k0_chk602.eq_1 v2273))
theorem k0_idx602_inb : ∀ (v2273 : IVec S16 32) (k0_hw602 : k0_chk602 v2273), ∀ a x, ((![v2273] : Fin 1 → IVec S16 32) a x).toNat < S512.size a := fun v2273 k0_hw602 => k0_hw602

def k0_chk603 (v2282 : IVec S16 32) : Prop :=
  (∀ a x, ((![v2282] : Fin 1 → IVec S16 32) a x).toNat < S512.size a)
instance k0_chk603.dec : ∀ (v2282 : IVec S16 32), Decidable (k0_chk603 v2282) := fun v2282 => decidable_of_iff' _ (Iff.of_eq (k0_chk603.eq_1 v2282))
theorem k0_idx603_inb : ∀ (v2282 : IVec S16 32) (k0_hw603 : k0_chk603 v2282), ∀ a x, ((![v2282] : Fin 1 → IVec S16 32) a x).toNat < S512.size a := fun v2282 k0_hw603 => k0_hw603

def k0_chk604 (v2291 : IVec S16 32) : Prop :=
  (∀ a x, ((![v2291] : Fin 1 → IVec S16 32) a x).toNat < S512.size a)
instance k0_chk604.dec : ∀ (v2291 : IVec S16 32), Decidable (k0_chk604 v2291) := fun v2291 => decidable_of_iff' _ (Iff.of_eq (k0_chk604.eq_1 v2291))
theorem k0_idx604_inb : ∀ (v2291 : IVec S16 32) (k0_hw604 : k0_chk604 v2291), ∀ a x, ((![v2291] : Fin 1 → IVec S16 32) a x).toNat < S512.size a := fun v2291 k0_hw604 => k0_hw604

def k0_chk605 (v2300 : IVec S16 32) : Prop :=
  (∀ a x, ((![v2300] : Fin 1 → IVec S16 32) a x).toNat < S512.size a)
instance k0_chk605.dec : ∀ (v2300 : IVec S16 32), Decidable (k0_chk605 v2300) := fun v2300 => decidable_of_iff' _ (Iff.of_eq (k0_chk605.eq_1 v2300))
theorem k0_idx605_inb : ∀ (v2300 : IVec S16 32) (k0_hw605 : k0_chk605 v2300), ∀ a x, ((![v2300] : Fin 1 → IVec S16 32) a x).toNat < S512.size a := fun v2300 k0_hw605 => k0_hw605

def k0_chk606 (v2309 : IVec S16 32) : Prop :=
  (∀ a x, ((![v2309] : Fin 1 → IVec S16 32) a x).toNat < S512.size a)
instance k0_chk606.dec : ∀ (v2309 : IVec S16 32), Decidable (k0_chk606 v2309) := fun v2309 => decidable_of_iff' _ (Iff.of_eq (k0_chk606.eq_1 v2309))
theorem k0_idx606_inb : ∀ (v2309 : IVec S16 32) (k0_hw606 : k0_chk606 v2309), ∀ a x, ((![v2309] : Fin 1 → IVec S16 32) a x).toNat < S512.size a := fun v2309 k0_hw606 => k0_hw606

def k0_chk607 (v2318 : IVec S16 32) : Prop :=
  (∀ a x, ((![v2318] : Fin 1 → IVec S16 32) a x).toNat < S512.size a)
instance k0_chk607.dec : ∀ (v2318 : IVec S16 32), Decidable (k0_chk607 v2318) := fun v2318 => decidable_of_iff' _ (Iff.of_eq (k0_chk607.eq_1 v2318))
theorem k0_idx607_inb : ∀ (v2318 : IVec S16 32) (k0_hw607 : k0_chk607 v2318), ∀ a x, ((![v2318] : Fin 1 → IVec S16 32) a x).toNat < S512.size a := fun v2318 k0_hw607 => k0_hw607

def k0_chk608 (v2327 : IVec S16 32) : Prop :=
  (∀ a x, ((![v2327] : Fin 1 → IVec S16 32) a x).toNat < S512.size a)
instance k0_chk608.dec : ∀ (v2327 : IVec S16 32), Decidable (k0_chk608 v2327) := fun v2327 => decidable_of_iff' _ (Iff.of_eq (k0_chk608.eq_1 v2327))
theorem k0_idx608_inb : ∀ (v2327 : IVec S16 32) (k0_hw608 : k0_chk608 v2327), ∀ a x, ((![v2327] : Fin 1 → IVec S16 32) a x).toNat < S512.size a := fun v2327 k0_hw608 => k0_hw608

def k0_chk609 (v2336 : IVec S16 32) : Prop :=
  (∀ a x, ((![v2336] : Fin 1 → IVec S16 32) a x).toNat < S512.size a)
instance k0_chk609.dec : ∀ (v2336 : IVec S16 32), Decidable (k0_chk609 v2336) := fun v2336 => decidable_of_iff' _ (Iff.of_eq (k0_chk609.eq_1 v2336))
theorem k0_idx609_inb : ∀ (v2336 : IVec S16 32) (k0_hw609 : k0_chk609 v2336), ∀ a x, ((![v2336] : Fin 1 → IVec S16 32) a x).toNat < S512.size a := fun v2336 k0_hw609 => k0_hw609

def k0_chk610 (v2345 : IVec S16 32) : Prop :=
  (∀ a x, ((![v2345] : Fin 1 → IVec S16 32) a x).toNat < S512.size a)
instance k0_chk610.dec : ∀ (v2345 : IVec S16 32), Decidable (k0_chk610 v2345) := fun v2345 => decidable_of_iff' _ (Iff.of_eq (k0_chk610.eq_1 v2345))
theorem k0_idx610_inb : ∀ (v2345 : IVec S16 32) (k0_hw610 : k0_chk610 v2345), ∀ a x, ((![v2345] : Fin 1 → IVec S16 32) a x).toNat < S512.size a := fun v2345 k0_hw610 => k0_hw610

def k0_chk611 (v2354 : IVec S16 32) : Prop :=
  (∀ a x, ((![v2354] : Fin 1 → IVec S16 32) a x).toNat < S512.size a)
instance k0_chk611.dec : ∀ (v2354 : IVec S16 32), Decidable (k0_chk611 v2354) := fun v2354 => decidable_of_iff' _ (Iff.of_eq (k0_chk611.eq_1 v2354))
theorem k0_idx611_inb : ∀ (v2354 : IVec S16 32) (k0_hw611 : k0_chk611 v2354), ∀ a x, ((![v2354] : Fin 1 → IVec S16 32) a x).toNat < S512.size a := fun v2354 k0_hw611 => k0_hw611

def k0_chk612 (v2363 : IVec S16 32) : Prop :=
  (∀ a x, ((![v2363] : Fin 1 → IVec S16 32) a x).toNat < S512.size a)
instance k0_chk612.dec : ∀ (v2363 : IVec S16 32), Decidable (k0_chk612 v2363) := fun v2363 => decidable_of_iff' _ (Iff.of_eq (k0_chk612.eq_1 v2363))
theorem k0_idx612_inb : ∀ (v2363 : IVec S16 32) (k0_hw612 : k0_chk612 v2363), ∀ a x, ((![v2363] : Fin 1 → IVec S16 32) a x).toNat < S512.size a := fun v2363 k0_hw612 => k0_hw612

def k0_chk613 (v2372 : IVec S16 32) : Prop :=
  (∀ a x, ((![v2372] : Fin 1 → IVec S16 32) a x).toNat < S512.size a)
instance k0_chk613.dec : ∀ (v2372 : IVec S16 32), Decidable (k0_chk613 v2372) := fun v2372 => decidable_of_iff' _ (Iff.of_eq (k0_chk613.eq_1 v2372))
theorem k0_idx613_inb : ∀ (v2372 : IVec S16 32) (k0_hw613 : k0_chk613 v2372), ∀ a x, ((![v2372] : Fin 1 → IVec S16 32) a x).toNat < S512.size a := fun v2372 k0_hw613 => k0_hw613

def k0_chk614 (v2381 : IVec S16 32) : Prop :=
  (∀ a x, ((![v2381] : Fin 1 → IVec S16 32) a x).toNat < S512.size a)
instance k0_chk614.dec : ∀ (v2381 : IVec S16 32), Decidable (k0_chk614 v2381) := fun v2381 => decidable_of_iff' _ (Iff.of_eq (k0_chk614.eq_1 v2381))
theorem k0_idx614_inb : ∀ (v2381 : IVec S16 32) (k0_hw614 : k0_chk614 v2381), ∀ a x, ((![v2381] : Fin 1 → IVec S16 32) a x).toNat < S512.size a := fun v2381 k0_hw614 => k0_hw614

def k0_chk615 (v2390 : IVec S16 32) : Prop :=
  (∀ a x, ((![v2390] : Fin 1 → IVec S16 32) a x).toNat < S512.size a)
instance k0_chk615.dec : ∀ (v2390 : IVec S16 32), Decidable (k0_chk615 v2390) := fun v2390 => decidable_of_iff' _ (Iff.of_eq (k0_chk615.eq_1 v2390))
theorem k0_idx615_inb : ∀ (v2390 : IVec S16 32) (k0_hw615 : k0_chk615 v2390), ∀ a x, ((![v2390] : Fin 1 → IVec S16 32) a x).toNat < S512.size a := fun v2390 k0_hw615 => k0_hw615

def k0_chk616 (v2399 : IVec S16 32) : Prop :=
  (∀ a x, ((![v2399] : Fin 1 → IVec S16 32) a x).toNat < S512.size a)
instance k0_chk616.dec : ∀ (v2399 : IVec S16 32), Decidable (k0_chk616 v2399) := fun v2399 => decidable_of_iff' _ (Iff.of_eq (k0_chk616.eq_1 v2399))
theorem k0_idx616_inb : ∀ (v2399 : IVec S16 32) (k0_hw616 : k0_chk616 v2399), ∀ a x, ((![v2399] : Fin 1 → IVec S16 32) a x).toNat < S512.size a := fun v2399 k0_hw616 => k0_hw616

def k0_chk617 (v2408 : IVec S16 32) : Prop :=
  (∀ a x, ((![v2408] : Fin 1 → IVec S16 32) a x).toNat < S512.size a)
instance k0_chk617.dec : ∀ (v2408 : IVec S16 32), Decidable (k0_chk617 v2408) := fun v2408 => decidable_of_iff' _ (Iff.of_eq (k0_chk617.eq_1 v2408))
theorem k0_idx617_inb : ∀ (v2408 : IVec S16 32) (k0_hw617 : k0_chk617 v2408), ∀ a x, ((![v2408] : Fin 1 → IVec S16 32) a x).toNat < S512.size a := fun v2408 k0_hw617 => k0_hw617
def k0_off47 (k0_t3 : Fin k0_t3_loop.trips) : Fin 1 → Nat :=
  let c128_i32_216 : BitVec 32 := 128#32
  let c0_i32_195 : BitVec 32 := 0#32
  let c1_i32_197 : BitVec 32 := 1#32
  let arg17 : BitVec 32 := Scf.iv c0_i32_195 c1_i32_197 k0_t3
  let c16_i32_215 : BitVec 32 := 16#32
  let v645 : BitVec 32 := Scalar.muli arg17 c16_i32_215
  let v646 : BitVec 32 := Scalar.addi c128_i32_216 v645
  let v2412 : Index := Scalar.indexCast v646
  ![v2412.toNat]
@[reducible] def k0_t4_loop : Scf.Loop 32 :=
  let c0_i32_204 : BitVec 32 := 0#32
  let c8_i32_205 : BitVec 32 := 8#32
  let v641 : BitVec 32 := Scalar.addi c0_i32_204 c8_i32_205
  let c1_i32_206 : BitVec 32 := 1#32
  ⟨c0_i32_204, v641, c1_i32_206⟩

def k0_chk618 (v651 : IVec S16 32) (v653 : IVec S16 32) : Prop :=
  (∀ a x, ((![v651, v653] : Fin 2 → IVec S16 32) a x).toNat < S128x200.size a)
instance k0_chk618.dec : ∀ (v651 : IVec S16 32) (v653 : IVec S16 32), Decidable (k0_chk618 v651 v653) := fun v651 v653 => decidable_of_iff' _ (Iff.of_eq (k0_chk618.eq_1 v651 v653))
theorem k0_idx618_inb : ∀ (v651 : IVec S16 32) (v653 : IVec S16 32) (k0_hw618 : k0_chk618 v651 v653), ∀ a x, ((![v651, v653] : Fin 2 → IVec S16 32) a x).toNat < S128x200.size a := fun v651 v653 k0_hw618 => k0_hw618

def k0_chk619 (v651 : IVec S16 32) (v658 : IVec S16 32) : Prop :=
  (∀ a x, ((![v651, v658] : Fin 2 → IVec S16 32) a x).toNat < S128x200.size a)
instance k0_chk619.dec : ∀ (v651 : IVec S16 32) (v658 : IVec S16 32), Decidable (k0_chk619 v651 v658) := fun v651 v658 => decidable_of_iff' _ (Iff.of_eq (k0_chk619.eq_1 v651 v658))
theorem k0_idx619_inb : ∀ (v651 : IVec S16 32) (v658 : IVec S16 32) (k0_hw619 : k0_chk619 v651 v658), ∀ a x, ((![v651, v658] : Fin 2 → IVec S16 32) a x).toNat < S128x200.size a := fun v651 v658 k0_hw619 => k0_hw619

def k0_chk620 (v651 : IVec S16 32) (v663 : IVec S16 32) : Prop :=
  (∀ a x, ((![v651, v663] : Fin 2 → IVec S16 32) a x).toNat < S128x200.size a)
instance k0_chk620.dec : ∀ (v651 : IVec S16 32) (v663 : IVec S16 32), Decidable (k0_chk620 v651 v663) := fun v651 v663 => decidable_of_iff' _ (Iff.of_eq (k0_chk620.eq_1 v651 v663))
theorem k0_idx620_inb : ∀ (v651 : IVec S16 32) (v663 : IVec S16 32) (k0_hw620 : k0_chk620 v651 v663), ∀ a x, ((![v651, v663] : Fin 2 → IVec S16 32) a x).toNat < S128x200.size a := fun v651 v663 k0_hw620 => k0_hw620

def k0_chk621 (v651 : IVec S16 32) (v668 : IVec S16 32) : Prop :=
  (∀ a x, ((![v651, v668] : Fin 2 → IVec S16 32) a x).toNat < S128x200.size a)
instance k0_chk621.dec : ∀ (v651 : IVec S16 32) (v668 : IVec S16 32), Decidable (k0_chk621 v651 v668) := fun v651 v668 => decidable_of_iff' _ (Iff.of_eq (k0_chk621.eq_1 v651 v668))
theorem k0_idx621_inb : ∀ (v651 : IVec S16 32) (v668 : IVec S16 32) (k0_hw621 : k0_chk621 v651 v668), ∀ a x, ((![v651, v668] : Fin 2 → IVec S16 32) a x).toNat < S128x200.size a := fun v651 v668 k0_hw621 => k0_hw621

def k0_chk622 (v678 : IVec S16 32) : Prop :=
  (∀ a x, ((![v678] : Fin 1 → IVec S16 32) a x).toNat < S4096.size a)
instance k0_chk622.dec : ∀ (v678 : IVec S16 32), Decidable (k0_chk622 v678) := fun v678 => decidable_of_iff' _ (Iff.of_eq (k0_chk622.eq_1 v678))
theorem k0_idx622_inb : ∀ (v678 : IVec S16 32) (k0_hw622 : k0_chk622 v678), ∀ a x, ((![v678] : Fin 1 → IVec S16 32) a x).toNat < S4096.size a := fun v678 k0_hw622 => k0_hw622

def k0_chk623 (v651 : IVec S16 32) (v681 : IVec S16 32) : Prop :=
  (∀ a x, ((![v651, v681] : Fin 2 → IVec S16 32) a x).toNat < S128x200.size a)
instance k0_chk623.dec : ∀ (v651 : IVec S16 32) (v681 : IVec S16 32), Decidable (k0_chk623 v651 v681) := fun v651 v681 => decidable_of_iff' _ (Iff.of_eq (k0_chk623.eq_1 v651 v681))
theorem k0_idx623_inb : ∀ (v651 : IVec S16 32) (v681 : IVec S16 32) (k0_hw623 : k0_chk623 v651 v681), ∀ a x, ((![v651, v681] : Fin 2 → IVec S16 32) a x).toNat < S128x200.size a := fun v651 v681 k0_hw623 => k0_hw623

def k0_chk624 (v651 : IVec S16 32) (v686 : IVec S16 32) : Prop :=
  (∀ a x, ((![v651, v686] : Fin 2 → IVec S16 32) a x).toNat < S128x200.size a)
instance k0_chk624.dec : ∀ (v651 : IVec S16 32) (v686 : IVec S16 32), Decidable (k0_chk624 v651 v686) := fun v651 v686 => decidable_of_iff' _ (Iff.of_eq (k0_chk624.eq_1 v651 v686))
theorem k0_idx624_inb : ∀ (v651 : IVec S16 32) (v686 : IVec S16 32) (k0_hw624 : k0_chk624 v651 v686), ∀ a x, ((![v651, v686] : Fin 2 → IVec S16 32) a x).toNat < S128x200.size a := fun v651 v686 k0_hw624 => k0_hw624

def k0_chk625 (v651 : IVec S16 32) (v691 : IVec S16 32) : Prop :=
  (∀ a x, ((![v651, v691] : Fin 2 → IVec S16 32) a x).toNat < S128x200.size a)
instance k0_chk625.dec : ∀ (v651 : IVec S16 32) (v691 : IVec S16 32), Decidable (k0_chk625 v651 v691) := fun v651 v691 => decidable_of_iff' _ (Iff.of_eq (k0_chk625.eq_1 v651 v691))
theorem k0_idx625_inb : ∀ (v651 : IVec S16 32) (v691 : IVec S16 32) (k0_hw625 : k0_chk625 v651 v691), ∀ a x, ((![v651, v691] : Fin 2 → IVec S16 32) a x).toNat < S128x200.size a := fun v651 v691 k0_hw625 => k0_hw625

def k0_chk626 (v651 : IVec S16 32) (v696 : IVec S16 32) : Prop :=
  (∀ a x, ((![v651, v696] : Fin 2 → IVec S16 32) a x).toNat < S128x200.size a)
instance k0_chk626.dec : ∀ (v651 : IVec S16 32) (v696 : IVec S16 32), Decidable (k0_chk626 v651 v696) := fun v651 v696 => decidable_of_iff' _ (Iff.of_eq (k0_chk626.eq_1 v651 v696))
theorem k0_idx626_inb : ∀ (v651 : IVec S16 32) (v696 : IVec S16 32) (k0_hw626 : k0_chk626 v651 v696), ∀ a x, ((![v651, v696] : Fin 2 → IVec S16 32) a x).toNat < S128x200.size a := fun v651 v696 k0_hw626 => k0_hw626

def k0_chk627 (v706 : IVec S16 32) : Prop :=
  (∀ a x, ((![v706] : Fin 1 → IVec S16 32) a x).toNat < S4096.size a)
instance k0_chk627.dec : ∀ (v706 : IVec S16 32), Decidable (k0_chk627 v706) := fun v706 => decidable_of_iff' _ (Iff.of_eq (k0_chk627.eq_1 v706))
theorem k0_idx627_inb : ∀ (v706 : IVec S16 32) (k0_hw627 : k0_chk627 v706), ∀ a x, ((![v706] : Fin 1 → IVec S16 32) a x).toNat < S4096.size a := fun v706 k0_hw627 => k0_hw627

def k0_chk628 (v651 : IVec S16 32) (v710 : IVec S16 32) : Prop :=
  (∀ a x, ((![v651, v710] : Fin 2 → IVec S16 32) a x).toNat < S128x200.size a)
instance k0_chk628.dec : ∀ (v651 : IVec S16 32) (v710 : IVec S16 32), Decidable (k0_chk628 v651 v710) := fun v651 v710 => decidable_of_iff' _ (Iff.of_eq (k0_chk628.eq_1 v651 v710))
theorem k0_idx628_inb : ∀ (v651 : IVec S16 32) (v710 : IVec S16 32) (k0_hw628 : k0_chk628 v651 v710), ∀ a x, ((![v651, v710] : Fin 2 → IVec S16 32) a x).toNat < S128x200.size a := fun v651 v710 k0_hw628 => k0_hw628

def k0_chk629 (v651 : IVec S16 32) (v715 : IVec S16 32) : Prop :=
  (∀ a x, ((![v651, v715] : Fin 2 → IVec S16 32) a x).toNat < S128x200.size a)
instance k0_chk629.dec : ∀ (v651 : IVec S16 32) (v715 : IVec S16 32), Decidable (k0_chk629 v651 v715) := fun v651 v715 => decidable_of_iff' _ (Iff.of_eq (k0_chk629.eq_1 v651 v715))
theorem k0_idx629_inb : ∀ (v651 : IVec S16 32) (v715 : IVec S16 32) (k0_hw629 : k0_chk629 v651 v715), ∀ a x, ((![v651, v715] : Fin 2 → IVec S16 32) a x).toNat < S128x200.size a := fun v651 v715 k0_hw629 => k0_hw629

def k0_chk630 (v651 : IVec S16 32) (v720 : IVec S16 32) : Prop :=
  (∀ a x, ((![v651, v720] : Fin 2 → IVec S16 32) a x).toNat < S128x200.size a)
instance k0_chk630.dec : ∀ (v651 : IVec S16 32) (v720 : IVec S16 32), Decidable (k0_chk630 v651 v720) := fun v651 v720 => decidable_of_iff' _ (Iff.of_eq (k0_chk630.eq_1 v651 v720))
theorem k0_idx630_inb : ∀ (v651 : IVec S16 32) (v720 : IVec S16 32) (k0_hw630 : k0_chk630 v651 v720), ∀ a x, ((![v651, v720] : Fin 2 → IVec S16 32) a x).toNat < S128x200.size a := fun v651 v720 k0_hw630 => k0_hw630

def k0_chk631 (v651 : IVec S16 32) (v725 : IVec S16 32) : Prop :=
  (∀ a x, ((![v651, v725] : Fin 2 → IVec S16 32) a x).toNat < S128x200.size a)
instance k0_chk631.dec : ∀ (v651 : IVec S16 32) (v725 : IVec S16 32), Decidable (k0_chk631 v651 v725) := fun v651 v725 => decidable_of_iff' _ (Iff.of_eq (k0_chk631.eq_1 v651 v725))
theorem k0_idx631_inb : ∀ (v651 : IVec S16 32) (v725 : IVec S16 32) (k0_hw631 : k0_chk631 v651 v725), ∀ a x, ((![v651, v725] : Fin 2 → IVec S16 32) a x).toNat < S128x200.size a := fun v651 v725 k0_hw631 => k0_hw631

def k0_chk632 (v735 : IVec S16 32) : Prop :=
  (∀ a x, ((![v735] : Fin 1 → IVec S16 32) a x).toNat < S4096.size a)
instance k0_chk632.dec : ∀ (v735 : IVec S16 32), Decidable (k0_chk632 v735) := fun v735 => decidable_of_iff' _ (Iff.of_eq (k0_chk632.eq_1 v735))
theorem k0_idx632_inb : ∀ (v735 : IVec S16 32) (k0_hw632 : k0_chk632 v735), ∀ a x, ((![v735] : Fin 1 → IVec S16 32) a x).toNat < S4096.size a := fun v735 k0_hw632 => k0_hw632

def k0_chk633 (v651 : IVec S16 32) (v739 : IVec S16 32) : Prop :=
  (∀ a x, ((![v651, v739] : Fin 2 → IVec S16 32) a x).toNat < S128x200.size a)
instance k0_chk633.dec : ∀ (v651 : IVec S16 32) (v739 : IVec S16 32), Decidable (k0_chk633 v651 v739) := fun v651 v739 => decidable_of_iff' _ (Iff.of_eq (k0_chk633.eq_1 v651 v739))
theorem k0_idx633_inb : ∀ (v651 : IVec S16 32) (v739 : IVec S16 32) (k0_hw633 : k0_chk633 v651 v739), ∀ a x, ((![v651, v739] : Fin 2 → IVec S16 32) a x).toNat < S128x200.size a := fun v651 v739 k0_hw633 => k0_hw633

def k0_chk634 (v743 : IVec S16 32) : Prop :=
  (∀ a x, ((![v743] : Fin 1 → IVec S16 32) a x).toNat < S272.size a)
instance k0_chk634.dec : ∀ (v743 : IVec S16 32), Decidable (k0_chk634 v743) := fun v743 => decidable_of_iff' _ (Iff.of_eq (k0_chk634.eq_1 v743))
theorem k0_idx634_inb : ∀ (v743 : IVec S16 32) (k0_hw634 : k0_chk634 v743), ∀ a x, ((![v743] : Fin 1 → IVec S16 32) a x).toNat < S272.size a := fun v743 k0_hw634 => k0_hw634
def k0_off48 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c0_i32_250 : BitVec 32 := 0#32
  let v747 : BitVec 32 := Scalar.addi v648 c0_i32_250
  let v748 : Index := Scalar.indexCast v747
  ![v748.toNat]

def k0_chk635 (v752 : IVec S16 32) (v754 : IVec S16 32) : Prop :=
  (∀ a x, ((![v752, v754] : Fin 2 → IVec S16 32) a x).toNat < S128x200.size a)
instance k0_chk635.dec : ∀ (v752 : IVec S16 32) (v754 : IVec S16 32), Decidable (k0_chk635 v752 v754) := fun v752 v754 => decidable_of_iff' _ (Iff.of_eq (k0_chk635.eq_1 v752 v754))
theorem k0_idx635_inb : ∀ (v752 : IVec S16 32) (v754 : IVec S16 32) (k0_hw635 : k0_chk635 v752 v754), ∀ a x, ((![v752, v754] : Fin 2 → IVec S16 32) a x).toNat < S128x200.size a := fun v752 v754 k0_hw635 => k0_hw635

def k0_chk636 (v752 : IVec S16 32) (v759 : IVec S16 32) : Prop :=
  (∀ a x, ((![v752, v759] : Fin 2 → IVec S16 32) a x).toNat < S128x200.size a)
instance k0_chk636.dec : ∀ (v752 : IVec S16 32) (v759 : IVec S16 32), Decidable (k0_chk636 v752 v759) := fun v752 v759 => decidable_of_iff' _ (Iff.of_eq (k0_chk636.eq_1 v752 v759))
theorem k0_idx636_inb : ∀ (v752 : IVec S16 32) (v759 : IVec S16 32) (k0_hw636 : k0_chk636 v752 v759), ∀ a x, ((![v752, v759] : Fin 2 → IVec S16 32) a x).toNat < S128x200.size a := fun v752 v759 k0_hw636 => k0_hw636

def k0_chk637 (v752 : IVec S16 32) (v764 : IVec S16 32) : Prop :=
  (∀ a x, ((![v752, v764] : Fin 2 → IVec S16 32) a x).toNat < S128x200.size a)
instance k0_chk637.dec : ∀ (v752 : IVec S16 32) (v764 : IVec S16 32), Decidable (k0_chk637 v752 v764) := fun v752 v764 => decidable_of_iff' _ (Iff.of_eq (k0_chk637.eq_1 v752 v764))
theorem k0_idx637_inb : ∀ (v752 : IVec S16 32) (v764 : IVec S16 32) (k0_hw637 : k0_chk637 v752 v764), ∀ a x, ((![v752, v764] : Fin 2 → IVec S16 32) a x).toNat < S128x200.size a := fun v752 v764 k0_hw637 => k0_hw637

def k0_chk638 (v752 : IVec S16 32) (v769 : IVec S16 32) : Prop :=
  (∀ a x, ((![v752, v769] : Fin 2 → IVec S16 32) a x).toNat < S128x200.size a)
instance k0_chk638.dec : ∀ (v752 : IVec S16 32) (v769 : IVec S16 32), Decidable (k0_chk638 v752 v769) := fun v752 v769 => decidable_of_iff' _ (Iff.of_eq (k0_chk638.eq_1 v752 v769))
theorem k0_idx638_inb : ∀ (v752 : IVec S16 32) (v769 : IVec S16 32) (k0_hw638 : k0_chk638 v752 v769), ∀ a x, ((![v752, v769] : Fin 2 → IVec S16 32) a x).toNat < S128x200.size a := fun v752 v769 k0_hw638 => k0_hw638

def k0_chk639 (v779 : IVec S16 32) : Prop :=
  (∀ a x, ((![v779] : Fin 1 → IVec S16 32) a x).toNat < S4096.size a)
instance k0_chk639.dec : ∀ (v779 : IVec S16 32), Decidable (k0_chk639 v779) := fun v779 => decidable_of_iff' _ (Iff.of_eq (k0_chk639.eq_1 v779))
theorem k0_idx639_inb : ∀ (v779 : IVec S16 32) (k0_hw639 : k0_chk639 v779), ∀ a x, ((![v779] : Fin 1 → IVec S16 32) a x).toNat < S4096.size a := fun v779 k0_hw639 => k0_hw639

def k0_chk640 (v752 : IVec S16 32) (v782 : IVec S16 32) : Prop :=
  (∀ a x, ((![v752, v782] : Fin 2 → IVec S16 32) a x).toNat < S128x200.size a)
instance k0_chk640.dec : ∀ (v752 : IVec S16 32) (v782 : IVec S16 32), Decidable (k0_chk640 v752 v782) := fun v752 v782 => decidable_of_iff' _ (Iff.of_eq (k0_chk640.eq_1 v752 v782))
theorem k0_idx640_inb : ∀ (v752 : IVec S16 32) (v782 : IVec S16 32) (k0_hw640 : k0_chk640 v752 v782), ∀ a x, ((![v752, v782] : Fin 2 → IVec S16 32) a x).toNat < S128x200.size a := fun v752 v782 k0_hw640 => k0_hw640

def k0_chk641 (v752 : IVec S16 32) (v787 : IVec S16 32) : Prop :=
  (∀ a x, ((![v752, v787] : Fin 2 → IVec S16 32) a x).toNat < S128x200.size a)
instance k0_chk641.dec : ∀ (v752 : IVec S16 32) (v787 : IVec S16 32), Decidable (k0_chk641 v752 v787) := fun v752 v787 => decidable_of_iff' _ (Iff.of_eq (k0_chk641.eq_1 v752 v787))
theorem k0_idx641_inb : ∀ (v752 : IVec S16 32) (v787 : IVec S16 32) (k0_hw641 : k0_chk641 v752 v787), ∀ a x, ((![v752, v787] : Fin 2 → IVec S16 32) a x).toNat < S128x200.size a := fun v752 v787 k0_hw641 => k0_hw641

def k0_chk642 (v752 : IVec S16 32) (v792 : IVec S16 32) : Prop :=
  (∀ a x, ((![v752, v792] : Fin 2 → IVec S16 32) a x).toNat < S128x200.size a)
instance k0_chk642.dec : ∀ (v752 : IVec S16 32) (v792 : IVec S16 32), Decidable (k0_chk642 v752 v792) := fun v752 v792 => decidable_of_iff' _ (Iff.of_eq (k0_chk642.eq_1 v752 v792))
theorem k0_idx642_inb : ∀ (v752 : IVec S16 32) (v792 : IVec S16 32) (k0_hw642 : k0_chk642 v752 v792), ∀ a x, ((![v752, v792] : Fin 2 → IVec S16 32) a x).toNat < S128x200.size a := fun v752 v792 k0_hw642 => k0_hw642

def k0_chk643 (v752 : IVec S16 32) (v797 : IVec S16 32) : Prop :=
  (∀ a x, ((![v752, v797] : Fin 2 → IVec S16 32) a x).toNat < S128x200.size a)
instance k0_chk643.dec : ∀ (v752 : IVec S16 32) (v797 : IVec S16 32), Decidable (k0_chk643 v752 v797) := fun v752 v797 => decidable_of_iff' _ (Iff.of_eq (k0_chk643.eq_1 v752 v797))
theorem k0_idx643_inb : ∀ (v752 : IVec S16 32) (v797 : IVec S16 32) (k0_hw643 : k0_chk643 v752 v797), ∀ a x, ((![v752, v797] : Fin 2 → IVec S16 32) a x).toNat < S128x200.size a := fun v752 v797 k0_hw643 => k0_hw643

def k0_chk644 (v807 : IVec S16 32) : Prop :=
  (∀ a x, ((![v807] : Fin 1 → IVec S16 32) a x).toNat < S4096.size a)
instance k0_chk644.dec : ∀ (v807 : IVec S16 32), Decidable (k0_chk644 v807) := fun v807 => decidable_of_iff' _ (Iff.of_eq (k0_chk644.eq_1 v807))
theorem k0_idx644_inb : ∀ (v807 : IVec S16 32) (k0_hw644 : k0_chk644 v807), ∀ a x, ((![v807] : Fin 1 → IVec S16 32) a x).toNat < S4096.size a := fun v807 k0_hw644 => k0_hw644

def k0_chk645 (v752 : IVec S16 32) (v811 : IVec S16 32) : Prop :=
  (∀ a x, ((![v752, v811] : Fin 2 → IVec S16 32) a x).toNat < S128x200.size a)
instance k0_chk645.dec : ∀ (v752 : IVec S16 32) (v811 : IVec S16 32), Decidable (k0_chk645 v752 v811) := fun v752 v811 => decidable_of_iff' _ (Iff.of_eq (k0_chk645.eq_1 v752 v811))
theorem k0_idx645_inb : ∀ (v752 : IVec S16 32) (v811 : IVec S16 32) (k0_hw645 : k0_chk645 v752 v811), ∀ a x, ((![v752, v811] : Fin 2 → IVec S16 32) a x).toNat < S128x200.size a := fun v752 v811 k0_hw645 => k0_hw645

def k0_chk646 (v752 : IVec S16 32) (v816 : IVec S16 32) : Prop :=
  (∀ a x, ((![v752, v816] : Fin 2 → IVec S16 32) a x).toNat < S128x200.size a)
instance k0_chk646.dec : ∀ (v752 : IVec S16 32) (v816 : IVec S16 32), Decidable (k0_chk646 v752 v816) := fun v752 v816 => decidable_of_iff' _ (Iff.of_eq (k0_chk646.eq_1 v752 v816))
theorem k0_idx646_inb : ∀ (v752 : IVec S16 32) (v816 : IVec S16 32) (k0_hw646 : k0_chk646 v752 v816), ∀ a x, ((![v752, v816] : Fin 2 → IVec S16 32) a x).toNat < S128x200.size a := fun v752 v816 k0_hw646 => k0_hw646

def k0_chk647 (v752 : IVec S16 32) (v821 : IVec S16 32) : Prop :=
  (∀ a x, ((![v752, v821] : Fin 2 → IVec S16 32) a x).toNat < S128x200.size a)
instance k0_chk647.dec : ∀ (v752 : IVec S16 32) (v821 : IVec S16 32), Decidable (k0_chk647 v752 v821) := fun v752 v821 => decidable_of_iff' _ (Iff.of_eq (k0_chk647.eq_1 v752 v821))
theorem k0_idx647_inb : ∀ (v752 : IVec S16 32) (v821 : IVec S16 32) (k0_hw647 : k0_chk647 v752 v821), ∀ a x, ((![v752, v821] : Fin 2 → IVec S16 32) a x).toNat < S128x200.size a := fun v752 v821 k0_hw647 => k0_hw647

def k0_chk648 (v752 : IVec S16 32) (v826 : IVec S16 32) : Prop :=
  (∀ a x, ((![v752, v826] : Fin 2 → IVec S16 32) a x).toNat < S128x200.size a)
instance k0_chk648.dec : ∀ (v752 : IVec S16 32) (v826 : IVec S16 32), Decidable (k0_chk648 v752 v826) := fun v752 v826 => decidable_of_iff' _ (Iff.of_eq (k0_chk648.eq_1 v752 v826))
theorem k0_idx648_inb : ∀ (v752 : IVec S16 32) (v826 : IVec S16 32) (k0_hw648 : k0_chk648 v752 v826), ∀ a x, ((![v752, v826] : Fin 2 → IVec S16 32) a x).toNat < S128x200.size a := fun v752 v826 k0_hw648 => k0_hw648

def k0_chk649 (v836 : IVec S16 32) : Prop :=
  (∀ a x, ((![v836] : Fin 1 → IVec S16 32) a x).toNat < S4096.size a)
instance k0_chk649.dec : ∀ (v836 : IVec S16 32), Decidable (k0_chk649 v836) := fun v836 => decidable_of_iff' _ (Iff.of_eq (k0_chk649.eq_1 v836))
theorem k0_idx649_inb : ∀ (v836 : IVec S16 32) (k0_hw649 : k0_chk649 v836), ∀ a x, ((![v836] : Fin 1 → IVec S16 32) a x).toNat < S4096.size a := fun v836 k0_hw649 => k0_hw649

def k0_chk650 (v752 : IVec S16 32) (v840 : IVec S16 32) : Prop :=
  (∀ a x, ((![v752, v840] : Fin 2 → IVec S16 32) a x).toNat < S128x200.size a)
instance k0_chk650.dec : ∀ (v752 : IVec S16 32) (v840 : IVec S16 32), Decidable (k0_chk650 v752 v840) := fun v752 v840 => decidable_of_iff' _ (Iff.of_eq (k0_chk650.eq_1 v752 v840))
theorem k0_idx650_inb : ∀ (v752 : IVec S16 32) (v840 : IVec S16 32) (k0_hw650 : k0_chk650 v752 v840), ∀ a x, ((![v752, v840] : Fin 2 → IVec S16 32) a x).toNat < S128x200.size a := fun v752 v840 k0_hw650 => k0_hw650

def k0_chk651 (v844 : IVec S16 32) : Prop :=
  (∀ a x, ((![v844] : Fin 1 → IVec S16 32) a x).toNat < S272.size a)
instance k0_chk651.dec : ∀ (v844 : IVec S16 32), Decidable (k0_chk651 v844) := fun v844 => decidable_of_iff' _ (Iff.of_eq (k0_chk651.eq_1 v844))
theorem k0_idx651_inb : ∀ (v844 : IVec S16 32) (k0_hw651 : k0_chk651 v844), ∀ a x, ((![v844] : Fin 1 → IVec S16 32) a x).toNat < S272.size a := fun v844 k0_hw651 => k0_hw651
def k0_off49 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c16_i32_285 : BitVec 32 := 16#32
  let v848 : BitVec 32 := Scalar.addi v648 c16_i32_285
  let v849 : Index := Scalar.indexCast v848
  ![v849.toNat]

def k0_chk652 (v853 : IVec S16 32) (v855 : IVec S16 32) : Prop :=
  (∀ a x, ((![v853, v855] : Fin 2 → IVec S16 32) a x).toNat < S128x200.size a)
instance k0_chk652.dec : ∀ (v853 : IVec S16 32) (v855 : IVec S16 32), Decidable (k0_chk652 v853 v855) := fun v853 v855 => decidable_of_iff' _ (Iff.of_eq (k0_chk652.eq_1 v853 v855))
theorem k0_idx652_inb : ∀ (v853 : IVec S16 32) (v855 : IVec S16 32) (k0_hw652 : k0_chk652 v853 v855), ∀ a x, ((![v853, v855] : Fin 2 → IVec S16 32) a x).toNat < S128x200.size a := fun v853 v855 k0_hw652 => k0_hw652

def k0_chk653 (v853 : IVec S16 32) (v860 : IVec S16 32) : Prop :=
  (∀ a x, ((![v853, v860] : Fin 2 → IVec S16 32) a x).toNat < S128x200.size a)
instance k0_chk653.dec : ∀ (v853 : IVec S16 32) (v860 : IVec S16 32), Decidable (k0_chk653 v853 v860) := fun v853 v860 => decidable_of_iff' _ (Iff.of_eq (k0_chk653.eq_1 v853 v860))
theorem k0_idx653_inb : ∀ (v853 : IVec S16 32) (v860 : IVec S16 32) (k0_hw653 : k0_chk653 v853 v860), ∀ a x, ((![v853, v860] : Fin 2 → IVec S16 32) a x).toNat < S128x200.size a := fun v853 v860 k0_hw653 => k0_hw653

def k0_chk654 (v853 : IVec S16 32) (v865 : IVec S16 32) : Prop :=
  (∀ a x, ((![v853, v865] : Fin 2 → IVec S16 32) a x).toNat < S128x200.size a)
instance k0_chk654.dec : ∀ (v853 : IVec S16 32) (v865 : IVec S16 32), Decidable (k0_chk654 v853 v865) := fun v853 v865 => decidable_of_iff' _ (Iff.of_eq (k0_chk654.eq_1 v853 v865))
theorem k0_idx654_inb : ∀ (v853 : IVec S16 32) (v865 : IVec S16 32) (k0_hw654 : k0_chk654 v853 v865), ∀ a x, ((![v853, v865] : Fin 2 → IVec S16 32) a x).toNat < S128x200.size a := fun v853 v865 k0_hw654 => k0_hw654

def k0_chk655 (v853 : IVec S16 32) (v870 : IVec S16 32) : Prop :=
  (∀ a x, ((![v853, v870] : Fin 2 → IVec S16 32) a x).toNat < S128x200.size a)
instance k0_chk655.dec : ∀ (v853 : IVec S16 32) (v870 : IVec S16 32), Decidable (k0_chk655 v853 v870) := fun v853 v870 => decidable_of_iff' _ (Iff.of_eq (k0_chk655.eq_1 v853 v870))
theorem k0_idx655_inb : ∀ (v853 : IVec S16 32) (v870 : IVec S16 32) (k0_hw655 : k0_chk655 v853 v870), ∀ a x, ((![v853, v870] : Fin 2 → IVec S16 32) a x).toNat < S128x200.size a := fun v853 v870 k0_hw655 => k0_hw655

def k0_chk656 (v880 : IVec S16 32) : Prop :=
  (∀ a x, ((![v880] : Fin 1 → IVec S16 32) a x).toNat < S4096.size a)
instance k0_chk656.dec : ∀ (v880 : IVec S16 32), Decidable (k0_chk656 v880) := fun v880 => decidable_of_iff' _ (Iff.of_eq (k0_chk656.eq_1 v880))
theorem k0_idx656_inb : ∀ (v880 : IVec S16 32) (k0_hw656 : k0_chk656 v880), ∀ a x, ((![v880] : Fin 1 → IVec S16 32) a x).toNat < S4096.size a := fun v880 k0_hw656 => k0_hw656

def k0_chk657 (v853 : IVec S16 32) (v883 : IVec S16 32) : Prop :=
  (∀ a x, ((![v853, v883] : Fin 2 → IVec S16 32) a x).toNat < S128x200.size a)
instance k0_chk657.dec : ∀ (v853 : IVec S16 32) (v883 : IVec S16 32), Decidable (k0_chk657 v853 v883) := fun v853 v883 => decidable_of_iff' _ (Iff.of_eq (k0_chk657.eq_1 v853 v883))
theorem k0_idx657_inb : ∀ (v853 : IVec S16 32) (v883 : IVec S16 32) (k0_hw657 : k0_chk657 v853 v883), ∀ a x, ((![v853, v883] : Fin 2 → IVec S16 32) a x).toNat < S128x200.size a := fun v853 v883 k0_hw657 => k0_hw657

def k0_chk658 (v853 : IVec S16 32) (v888 : IVec S16 32) : Prop :=
  (∀ a x, ((![v853, v888] : Fin 2 → IVec S16 32) a x).toNat < S128x200.size a)
instance k0_chk658.dec : ∀ (v853 : IVec S16 32) (v888 : IVec S16 32), Decidable (k0_chk658 v853 v888) := fun v853 v888 => decidable_of_iff' _ (Iff.of_eq (k0_chk658.eq_1 v853 v888))
theorem k0_idx658_inb : ∀ (v853 : IVec S16 32) (v888 : IVec S16 32) (k0_hw658 : k0_chk658 v853 v888), ∀ a x, ((![v853, v888] : Fin 2 → IVec S16 32) a x).toNat < S128x200.size a := fun v853 v888 k0_hw658 => k0_hw658

def k0_chk659 (v853 : IVec S16 32) (v893 : IVec S16 32) : Prop :=
  (∀ a x, ((![v853, v893] : Fin 2 → IVec S16 32) a x).toNat < S128x200.size a)
instance k0_chk659.dec : ∀ (v853 : IVec S16 32) (v893 : IVec S16 32), Decidable (k0_chk659 v853 v893) := fun v853 v893 => decidable_of_iff' _ (Iff.of_eq (k0_chk659.eq_1 v853 v893))
theorem k0_idx659_inb : ∀ (v853 : IVec S16 32) (v893 : IVec S16 32) (k0_hw659 : k0_chk659 v853 v893), ∀ a x, ((![v853, v893] : Fin 2 → IVec S16 32) a x).toNat < S128x200.size a := fun v853 v893 k0_hw659 => k0_hw659

def k0_chk660 (v853 : IVec S16 32) (v898 : IVec S16 32) : Prop :=
  (∀ a x, ((![v853, v898] : Fin 2 → IVec S16 32) a x).toNat < S128x200.size a)
instance k0_chk660.dec : ∀ (v853 : IVec S16 32) (v898 : IVec S16 32), Decidable (k0_chk660 v853 v898) := fun v853 v898 => decidable_of_iff' _ (Iff.of_eq (k0_chk660.eq_1 v853 v898))
theorem k0_idx660_inb : ∀ (v853 : IVec S16 32) (v898 : IVec S16 32) (k0_hw660 : k0_chk660 v853 v898), ∀ a x, ((![v853, v898] : Fin 2 → IVec S16 32) a x).toNat < S128x200.size a := fun v853 v898 k0_hw660 => k0_hw660

def k0_chk661 (v908 : IVec S16 32) : Prop :=
  (∀ a x, ((![v908] : Fin 1 → IVec S16 32) a x).toNat < S4096.size a)
instance k0_chk661.dec : ∀ (v908 : IVec S16 32), Decidable (k0_chk661 v908) := fun v908 => decidable_of_iff' _ (Iff.of_eq (k0_chk661.eq_1 v908))
theorem k0_idx661_inb : ∀ (v908 : IVec S16 32) (k0_hw661 : k0_chk661 v908), ∀ a x, ((![v908] : Fin 1 → IVec S16 32) a x).toNat < S4096.size a := fun v908 k0_hw661 => k0_hw661

def k0_chk662 (v853 : IVec S16 32) (v912 : IVec S16 32) : Prop :=
  (∀ a x, ((![v853, v912] : Fin 2 → IVec S16 32) a x).toNat < S128x200.size a)
instance k0_chk662.dec : ∀ (v853 : IVec S16 32) (v912 : IVec S16 32), Decidable (k0_chk662 v853 v912) := fun v853 v912 => decidable_of_iff' _ (Iff.of_eq (k0_chk662.eq_1 v853 v912))
theorem k0_idx662_inb : ∀ (v853 : IVec S16 32) (v912 : IVec S16 32) (k0_hw662 : k0_chk662 v853 v912), ∀ a x, ((![v853, v912] : Fin 2 → IVec S16 32) a x).toNat < S128x200.size a := fun v853 v912 k0_hw662 => k0_hw662

def k0_chk663 (v853 : IVec S16 32) (v917 : IVec S16 32) : Prop :=
  (∀ a x, ((![v853, v917] : Fin 2 → IVec S16 32) a x).toNat < S128x200.size a)
instance k0_chk663.dec : ∀ (v853 : IVec S16 32) (v917 : IVec S16 32), Decidable (k0_chk663 v853 v917) := fun v853 v917 => decidable_of_iff' _ (Iff.of_eq (k0_chk663.eq_1 v853 v917))
theorem k0_idx663_inb : ∀ (v853 : IVec S16 32) (v917 : IVec S16 32) (k0_hw663 : k0_chk663 v853 v917), ∀ a x, ((![v853, v917] : Fin 2 → IVec S16 32) a x).toNat < S128x200.size a := fun v853 v917 k0_hw663 => k0_hw663

def k0_chk664 (v853 : IVec S16 32) (v922 : IVec S16 32) : Prop :=
  (∀ a x, ((![v853, v922] : Fin 2 → IVec S16 32) a x).toNat < S128x200.size a)
instance k0_chk664.dec : ∀ (v853 : IVec S16 32) (v922 : IVec S16 32), Decidable (k0_chk664 v853 v922) := fun v853 v922 => decidable_of_iff' _ (Iff.of_eq (k0_chk664.eq_1 v853 v922))
theorem k0_idx664_inb : ∀ (v853 : IVec S16 32) (v922 : IVec S16 32) (k0_hw664 : k0_chk664 v853 v922), ∀ a x, ((![v853, v922] : Fin 2 → IVec S16 32) a x).toNat < S128x200.size a := fun v853 v922 k0_hw664 => k0_hw664

def k0_chk665 (v853 : IVec S16 32) (v927 : IVec S16 32) : Prop :=
  (∀ a x, ((![v853, v927] : Fin 2 → IVec S16 32) a x).toNat < S128x200.size a)
instance k0_chk665.dec : ∀ (v853 : IVec S16 32) (v927 : IVec S16 32), Decidable (k0_chk665 v853 v927) := fun v853 v927 => decidable_of_iff' _ (Iff.of_eq (k0_chk665.eq_1 v853 v927))
theorem k0_idx665_inb : ∀ (v853 : IVec S16 32) (v927 : IVec S16 32) (k0_hw665 : k0_chk665 v853 v927), ∀ a x, ((![v853, v927] : Fin 2 → IVec S16 32) a x).toNat < S128x200.size a := fun v853 v927 k0_hw665 => k0_hw665

def k0_chk666 (v937 : IVec S16 32) : Prop :=
  (∀ a x, ((![v937] : Fin 1 → IVec S16 32) a x).toNat < S4096.size a)
instance k0_chk666.dec : ∀ (v937 : IVec S16 32), Decidable (k0_chk666 v937) := fun v937 => decidable_of_iff' _ (Iff.of_eq (k0_chk666.eq_1 v937))
theorem k0_idx666_inb : ∀ (v937 : IVec S16 32) (k0_hw666 : k0_chk666 v937), ∀ a x, ((![v937] : Fin 1 → IVec S16 32) a x).toNat < S4096.size a := fun v937 k0_hw666 => k0_hw666

def k0_chk667 (v853 : IVec S16 32) (v941 : IVec S16 32) : Prop :=
  (∀ a x, ((![v853, v941] : Fin 2 → IVec S16 32) a x).toNat < S128x200.size a)
instance k0_chk667.dec : ∀ (v853 : IVec S16 32) (v941 : IVec S16 32), Decidable (k0_chk667 v853 v941) := fun v853 v941 => decidable_of_iff' _ (Iff.of_eq (k0_chk667.eq_1 v853 v941))
theorem k0_idx667_inb : ∀ (v853 : IVec S16 32) (v941 : IVec S16 32) (k0_hw667 : k0_chk667 v853 v941), ∀ a x, ((![v853, v941] : Fin 2 → IVec S16 32) a x).toNat < S128x200.size a := fun v853 v941 k0_hw667 => k0_hw667

def k0_chk668 (v945 : IVec S16 32) : Prop :=
  (∀ a x, ((![v945] : Fin 1 → IVec S16 32) a x).toNat < S272.size a)
instance k0_chk668.dec : ∀ (v945 : IVec S16 32), Decidable (k0_chk668 v945) := fun v945 => decidable_of_iff' _ (Iff.of_eq (k0_chk668.eq_1 v945))
theorem k0_idx668_inb : ∀ (v945 : IVec S16 32) (k0_hw668 : k0_chk668 v945), ∀ a x, ((![v945] : Fin 1 → IVec S16 32) a x).toNat < S272.size a := fun v945 k0_hw668 => k0_hw668
def k0_off50 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c32_i32_320 : BitVec 32 := 32#32
  let v949 : BitVec 32 := Scalar.addi v648 c32_i32_320
  let v950 : Index := Scalar.indexCast v949
  ![v950.toNat]

def k0_chk669 (v954 : IVec S16 32) (v956 : IVec S16 32) : Prop :=
  (∀ a x, ((![v954, v956] : Fin 2 → IVec S16 32) a x).toNat < S128x200.size a)
instance k0_chk669.dec : ∀ (v954 : IVec S16 32) (v956 : IVec S16 32), Decidable (k0_chk669 v954 v956) := fun v954 v956 => decidable_of_iff' _ (Iff.of_eq (k0_chk669.eq_1 v954 v956))
theorem k0_idx669_inb : ∀ (v954 : IVec S16 32) (v956 : IVec S16 32) (k0_hw669 : k0_chk669 v954 v956), ∀ a x, ((![v954, v956] : Fin 2 → IVec S16 32) a x).toNat < S128x200.size a := fun v954 v956 k0_hw669 => k0_hw669

def k0_chk670 (v954 : IVec S16 32) (v961 : IVec S16 32) : Prop :=
  (∀ a x, ((![v954, v961] : Fin 2 → IVec S16 32) a x).toNat < S128x200.size a)
instance k0_chk670.dec : ∀ (v954 : IVec S16 32) (v961 : IVec S16 32), Decidable (k0_chk670 v954 v961) := fun v954 v961 => decidable_of_iff' _ (Iff.of_eq (k0_chk670.eq_1 v954 v961))
theorem k0_idx670_inb : ∀ (v954 : IVec S16 32) (v961 : IVec S16 32) (k0_hw670 : k0_chk670 v954 v961), ∀ a x, ((![v954, v961] : Fin 2 → IVec S16 32) a x).toNat < S128x200.size a := fun v954 v961 k0_hw670 => k0_hw670

def k0_chk671 (v954 : IVec S16 32) (v966 : IVec S16 32) : Prop :=
  (∀ a x, ((![v954, v966] : Fin 2 → IVec S16 32) a x).toNat < S128x200.size a)
instance k0_chk671.dec : ∀ (v954 : IVec S16 32) (v966 : IVec S16 32), Decidable (k0_chk671 v954 v966) := fun v954 v966 => decidable_of_iff' _ (Iff.of_eq (k0_chk671.eq_1 v954 v966))
theorem k0_idx671_inb : ∀ (v954 : IVec S16 32) (v966 : IVec S16 32) (k0_hw671 : k0_chk671 v954 v966), ∀ a x, ((![v954, v966] : Fin 2 → IVec S16 32) a x).toNat < S128x200.size a := fun v954 v966 k0_hw671 => k0_hw671

def k0_chk672 (v954 : IVec S16 32) (v971 : IVec S16 32) : Prop :=
  (∀ a x, ((![v954, v971] : Fin 2 → IVec S16 32) a x).toNat < S128x200.size a)
instance k0_chk672.dec : ∀ (v954 : IVec S16 32) (v971 : IVec S16 32), Decidable (k0_chk672 v954 v971) := fun v954 v971 => decidable_of_iff' _ (Iff.of_eq (k0_chk672.eq_1 v954 v971))
theorem k0_idx672_inb : ∀ (v954 : IVec S16 32) (v971 : IVec S16 32) (k0_hw672 : k0_chk672 v954 v971), ∀ a x, ((![v954, v971] : Fin 2 → IVec S16 32) a x).toNat < S128x200.size a := fun v954 v971 k0_hw672 => k0_hw672

def k0_chk673 (v981 : IVec S16 32) : Prop :=
  (∀ a x, ((![v981] : Fin 1 → IVec S16 32) a x).toNat < S4096.size a)
instance k0_chk673.dec : ∀ (v981 : IVec S16 32), Decidable (k0_chk673 v981) := fun v981 => decidable_of_iff' _ (Iff.of_eq (k0_chk673.eq_1 v981))
theorem k0_idx673_inb : ∀ (v981 : IVec S16 32) (k0_hw673 : k0_chk673 v981), ∀ a x, ((![v981] : Fin 1 → IVec S16 32) a x).toNat < S4096.size a := fun v981 k0_hw673 => k0_hw673

def k0_chk674 (v954 : IVec S16 32) (v984 : IVec S16 32) : Prop :=
  (∀ a x, ((![v954, v984] : Fin 2 → IVec S16 32) a x).toNat < S128x200.size a)
instance k0_chk674.dec : ∀ (v954 : IVec S16 32) (v984 : IVec S16 32), Decidable (k0_chk674 v954 v984) := fun v954 v984 => decidable_of_iff' _ (Iff.of_eq (k0_chk674.eq_1 v954 v984))
theorem k0_idx674_inb : ∀ (v954 : IVec S16 32) (v984 : IVec S16 32) (k0_hw674 : k0_chk674 v954 v984), ∀ a x, ((![v954, v984] : Fin 2 → IVec S16 32) a x).toNat < S128x200.size a := fun v954 v984 k0_hw674 => k0_hw674

def k0_chk675 (v954 : IVec S16 32) (v989 : IVec S16 32) : Prop :=
  (∀ a x, ((![v954, v989] : Fin 2 → IVec S16 32) a x).toNat < S128x200.size a)
instance k0_chk675.dec : ∀ (v954 : IVec S16 32) (v989 : IVec S16 32), Decidable (k0_chk675 v954 v989) := fun v954 v989 => decidable_of_iff' _ (Iff.of_eq (k0_chk675.eq_1 v954 v989))
theorem k0_idx675_inb : ∀ (v954 : IVec S16 32) (v989 : IVec S16 32) (k0_hw675 : k0_chk675 v954 v989), ∀ a x, ((![v954, v989] : Fin 2 → IVec S16 32) a x).toNat < S128x200.size a := fun v954 v989 k0_hw675 => k0_hw675

def k0_chk676 (v954 : IVec S16 32) (v994 : IVec S16 32) : Prop :=
  (∀ a x, ((![v954, v994] : Fin 2 → IVec S16 32) a x).toNat < S128x200.size a)
instance k0_chk676.dec : ∀ (v954 : IVec S16 32) (v994 : IVec S16 32), Decidable (k0_chk676 v954 v994) := fun v954 v994 => decidable_of_iff' _ (Iff.of_eq (k0_chk676.eq_1 v954 v994))
theorem k0_idx676_inb : ∀ (v954 : IVec S16 32) (v994 : IVec S16 32) (k0_hw676 : k0_chk676 v954 v994), ∀ a x, ((![v954, v994] : Fin 2 → IVec S16 32) a x).toNat < S128x200.size a := fun v954 v994 k0_hw676 => k0_hw676

def k0_chk677 (v954 : IVec S16 32) (v999 : IVec S16 32) : Prop :=
  (∀ a x, ((![v954, v999] : Fin 2 → IVec S16 32) a x).toNat < S128x200.size a)
instance k0_chk677.dec : ∀ (v954 : IVec S16 32) (v999 : IVec S16 32), Decidable (k0_chk677 v954 v999) := fun v954 v999 => decidable_of_iff' _ (Iff.of_eq (k0_chk677.eq_1 v954 v999))
theorem k0_idx677_inb : ∀ (v954 : IVec S16 32) (v999 : IVec S16 32) (k0_hw677 : k0_chk677 v954 v999), ∀ a x, ((![v954, v999] : Fin 2 → IVec S16 32) a x).toNat < S128x200.size a := fun v954 v999 k0_hw677 => k0_hw677

def k0_chk678 (v1009 : IVec S16 32) : Prop :=
  (∀ a x, ((![v1009] : Fin 1 → IVec S16 32) a x).toNat < S4096.size a)
instance k0_chk678.dec : ∀ (v1009 : IVec S16 32), Decidable (k0_chk678 v1009) := fun v1009 => decidable_of_iff' _ (Iff.of_eq (k0_chk678.eq_1 v1009))
theorem k0_idx678_inb : ∀ (v1009 : IVec S16 32) (k0_hw678 : k0_chk678 v1009), ∀ a x, ((![v1009] : Fin 1 → IVec S16 32) a x).toNat < S4096.size a := fun v1009 k0_hw678 => k0_hw678

def k0_chk679 (v954 : IVec S16 32) (v1013 : IVec S16 32) : Prop :=
  (∀ a x, ((![v954, v1013] : Fin 2 → IVec S16 32) a x).toNat < S128x200.size a)
instance k0_chk679.dec : ∀ (v954 : IVec S16 32) (v1013 : IVec S16 32), Decidable (k0_chk679 v954 v1013) := fun v954 v1013 => decidable_of_iff' _ (Iff.of_eq (k0_chk679.eq_1 v954 v1013))
theorem k0_idx679_inb : ∀ (v954 : IVec S16 32) (v1013 : IVec S16 32) (k0_hw679 : k0_chk679 v954 v1013), ∀ a x, ((![v954, v1013] : Fin 2 → IVec S16 32) a x).toNat < S128x200.size a := fun v954 v1013 k0_hw679 => k0_hw679

def k0_chk680 (v954 : IVec S16 32) (v1018 : IVec S16 32) : Prop :=
  (∀ a x, ((![v954, v1018] : Fin 2 → IVec S16 32) a x).toNat < S128x200.size a)
instance k0_chk680.dec : ∀ (v954 : IVec S16 32) (v1018 : IVec S16 32), Decidable (k0_chk680 v954 v1018) := fun v954 v1018 => decidable_of_iff' _ (Iff.of_eq (k0_chk680.eq_1 v954 v1018))
theorem k0_idx680_inb : ∀ (v954 : IVec S16 32) (v1018 : IVec S16 32) (k0_hw680 : k0_chk680 v954 v1018), ∀ a x, ((![v954, v1018] : Fin 2 → IVec S16 32) a x).toNat < S128x200.size a := fun v954 v1018 k0_hw680 => k0_hw680

def k0_chk681 (v954 : IVec S16 32) (v1023 : IVec S16 32) : Prop :=
  (∀ a x, ((![v954, v1023] : Fin 2 → IVec S16 32) a x).toNat < S128x200.size a)
instance k0_chk681.dec : ∀ (v954 : IVec S16 32) (v1023 : IVec S16 32), Decidable (k0_chk681 v954 v1023) := fun v954 v1023 => decidable_of_iff' _ (Iff.of_eq (k0_chk681.eq_1 v954 v1023))
theorem k0_idx681_inb : ∀ (v954 : IVec S16 32) (v1023 : IVec S16 32) (k0_hw681 : k0_chk681 v954 v1023), ∀ a x, ((![v954, v1023] : Fin 2 → IVec S16 32) a x).toNat < S128x200.size a := fun v954 v1023 k0_hw681 => k0_hw681

def k0_chk682 (v954 : IVec S16 32) (v1028 : IVec S16 32) : Prop :=
  (∀ a x, ((![v954, v1028] : Fin 2 → IVec S16 32) a x).toNat < S128x200.size a)
instance k0_chk682.dec : ∀ (v954 : IVec S16 32) (v1028 : IVec S16 32), Decidable (k0_chk682 v954 v1028) := fun v954 v1028 => decidable_of_iff' _ (Iff.of_eq (k0_chk682.eq_1 v954 v1028))
theorem k0_idx682_inb : ∀ (v954 : IVec S16 32) (v1028 : IVec S16 32) (k0_hw682 : k0_chk682 v954 v1028), ∀ a x, ((![v954, v1028] : Fin 2 → IVec S16 32) a x).toNat < S128x200.size a := fun v954 v1028 k0_hw682 => k0_hw682

def k0_chk683 (v1038 : IVec S16 32) : Prop :=
  (∀ a x, ((![v1038] : Fin 1 → IVec S16 32) a x).toNat < S4096.size a)
instance k0_chk683.dec : ∀ (v1038 : IVec S16 32), Decidable (k0_chk683 v1038) := fun v1038 => decidable_of_iff' _ (Iff.of_eq (k0_chk683.eq_1 v1038))
theorem k0_idx683_inb : ∀ (v1038 : IVec S16 32) (k0_hw683 : k0_chk683 v1038), ∀ a x, ((![v1038] : Fin 1 → IVec S16 32) a x).toNat < S4096.size a := fun v1038 k0_hw683 => k0_hw683

def k0_chk684 (v954 : IVec S16 32) (v1042 : IVec S16 32) : Prop :=
  (∀ a x, ((![v954, v1042] : Fin 2 → IVec S16 32) a x).toNat < S128x200.size a)
instance k0_chk684.dec : ∀ (v954 : IVec S16 32) (v1042 : IVec S16 32), Decidable (k0_chk684 v954 v1042) := fun v954 v1042 => decidable_of_iff' _ (Iff.of_eq (k0_chk684.eq_1 v954 v1042))
theorem k0_idx684_inb : ∀ (v954 : IVec S16 32) (v1042 : IVec S16 32) (k0_hw684 : k0_chk684 v954 v1042), ∀ a x, ((![v954, v1042] : Fin 2 → IVec S16 32) a x).toNat < S128x200.size a := fun v954 v1042 k0_hw684 => k0_hw684

def k0_chk685 (v1046 : IVec S16 32) : Prop :=
  (∀ a x, ((![v1046] : Fin 1 → IVec S16 32) a x).toNat < S272.size a)
instance k0_chk685.dec : ∀ (v1046 : IVec S16 32), Decidable (k0_chk685 v1046) := fun v1046 => decidable_of_iff' _ (Iff.of_eq (k0_chk685.eq_1 v1046))
theorem k0_idx685_inb : ∀ (v1046 : IVec S16 32) (k0_hw685 : k0_chk685 v1046), ∀ a x, ((![v1046] : Fin 1 → IVec S16 32) a x).toNat < S272.size a := fun v1046 k0_hw685 => k0_hw685
def k0_off51 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c48_i32_355 : BitVec 32 := 48#32
  let v1050 : BitVec 32 := Scalar.addi v648 c48_i32_355
  let v1051 : Index := Scalar.indexCast v1050
  ![v1051.toNat]

def k0_chk686 (v1055 : IVec S16 32) (v1057 : IVec S16 32) : Prop :=
  (∀ a x, ((![v1055, v1057] : Fin 2 → IVec S16 32) a x).toNat < S128x200.size a)
instance k0_chk686.dec : ∀ (v1055 : IVec S16 32) (v1057 : IVec S16 32), Decidable (k0_chk686 v1055 v1057) := fun v1055 v1057 => decidable_of_iff' _ (Iff.of_eq (k0_chk686.eq_1 v1055 v1057))
theorem k0_idx686_inb : ∀ (v1055 : IVec S16 32) (v1057 : IVec S16 32) (k0_hw686 : k0_chk686 v1055 v1057), ∀ a x, ((![v1055, v1057] : Fin 2 → IVec S16 32) a x).toNat < S128x200.size a := fun v1055 v1057 k0_hw686 => k0_hw686

def k0_chk687 (v1055 : IVec S16 32) (v1062 : IVec S16 32) : Prop :=
  (∀ a x, ((![v1055, v1062] : Fin 2 → IVec S16 32) a x).toNat < S128x200.size a)
instance k0_chk687.dec : ∀ (v1055 : IVec S16 32) (v1062 : IVec S16 32), Decidable (k0_chk687 v1055 v1062) := fun v1055 v1062 => decidable_of_iff' _ (Iff.of_eq (k0_chk687.eq_1 v1055 v1062))
theorem k0_idx687_inb : ∀ (v1055 : IVec S16 32) (v1062 : IVec S16 32) (k0_hw687 : k0_chk687 v1055 v1062), ∀ a x, ((![v1055, v1062] : Fin 2 → IVec S16 32) a x).toNat < S128x200.size a := fun v1055 v1062 k0_hw687 => k0_hw687

def k0_chk688 (v1055 : IVec S16 32) (v1067 : IVec S16 32) : Prop :=
  (∀ a x, ((![v1055, v1067] : Fin 2 → IVec S16 32) a x).toNat < S128x200.size a)
instance k0_chk688.dec : ∀ (v1055 : IVec S16 32) (v1067 : IVec S16 32), Decidable (k0_chk688 v1055 v1067) := fun v1055 v1067 => decidable_of_iff' _ (Iff.of_eq (k0_chk688.eq_1 v1055 v1067))
theorem k0_idx688_inb : ∀ (v1055 : IVec S16 32) (v1067 : IVec S16 32) (k0_hw688 : k0_chk688 v1055 v1067), ∀ a x, ((![v1055, v1067] : Fin 2 → IVec S16 32) a x).toNat < S128x200.size a := fun v1055 v1067 k0_hw688 => k0_hw688

def k0_chk689 (v1055 : IVec S16 32) (v1072 : IVec S16 32) : Prop :=
  (∀ a x, ((![v1055, v1072] : Fin 2 → IVec S16 32) a x).toNat < S128x200.size a)
instance k0_chk689.dec : ∀ (v1055 : IVec S16 32) (v1072 : IVec S16 32), Decidable (k0_chk689 v1055 v1072) := fun v1055 v1072 => decidable_of_iff' _ (Iff.of_eq (k0_chk689.eq_1 v1055 v1072))
theorem k0_idx689_inb : ∀ (v1055 : IVec S16 32) (v1072 : IVec S16 32) (k0_hw689 : k0_chk689 v1055 v1072), ∀ a x, ((![v1055, v1072] : Fin 2 → IVec S16 32) a x).toNat < S128x200.size a := fun v1055 v1072 k0_hw689 => k0_hw689

def k0_chk690 (v1082 : IVec S16 32) : Prop :=
  (∀ a x, ((![v1082] : Fin 1 → IVec S16 32) a x).toNat < S4096.size a)
instance k0_chk690.dec : ∀ (v1082 : IVec S16 32), Decidable (k0_chk690 v1082) := fun v1082 => decidable_of_iff' _ (Iff.of_eq (k0_chk690.eq_1 v1082))
theorem k0_idx690_inb : ∀ (v1082 : IVec S16 32) (k0_hw690 : k0_chk690 v1082), ∀ a x, ((![v1082] : Fin 1 → IVec S16 32) a x).toNat < S4096.size a := fun v1082 k0_hw690 => k0_hw690

def k0_chk691 (v1055 : IVec S16 32) (v1085 : IVec S16 32) : Prop :=
  (∀ a x, ((![v1055, v1085] : Fin 2 → IVec S16 32) a x).toNat < S128x200.size a)
instance k0_chk691.dec : ∀ (v1055 : IVec S16 32) (v1085 : IVec S16 32), Decidable (k0_chk691 v1055 v1085) := fun v1055 v1085 => decidable_of_iff' _ (Iff.of_eq (k0_chk691.eq_1 v1055 v1085))
theorem k0_idx691_inb : ∀ (v1055 : IVec S16 32) (v1085 : IVec S16 32) (k0_hw691 : k0_chk691 v1055 v1085), ∀ a x, ((![v1055, v1085] : Fin 2 → IVec S16 32) a x).toNat < S128x200.size a := fun v1055 v1085 k0_hw691 => k0_hw691

def k0_chk692 (v1055 : IVec S16 32) (v1090 : IVec S16 32) : Prop :=
  (∀ a x, ((![v1055, v1090] : Fin 2 → IVec S16 32) a x).toNat < S128x200.size a)
instance k0_chk692.dec : ∀ (v1055 : IVec S16 32) (v1090 : IVec S16 32), Decidable (k0_chk692 v1055 v1090) := fun v1055 v1090 => decidable_of_iff' _ (Iff.of_eq (k0_chk692.eq_1 v1055 v1090))
theorem k0_idx692_inb : ∀ (v1055 : IVec S16 32) (v1090 : IVec S16 32) (k0_hw692 : k0_chk692 v1055 v1090), ∀ a x, ((![v1055, v1090] : Fin 2 → IVec S16 32) a x).toNat < S128x200.size a := fun v1055 v1090 k0_hw692 => k0_hw692

def k0_chk693 (v1055 : IVec S16 32) (v1095 : IVec S16 32) : Prop :=
  (∀ a x, ((![v1055, v1095] : Fin 2 → IVec S16 32) a x).toNat < S128x200.size a)
instance k0_chk693.dec : ∀ (v1055 : IVec S16 32) (v1095 : IVec S16 32), Decidable (k0_chk693 v1055 v1095) := fun v1055 v1095 => decidable_of_iff' _ (Iff.of_eq (k0_chk693.eq_1 v1055 v1095))
theorem k0_idx693_inb : ∀ (v1055 : IVec S16 32) (v1095 : IVec S16 32) (k0_hw693 : k0_chk693 v1055 v1095), ∀ a x, ((![v1055, v1095] : Fin 2 → IVec S16 32) a x).toNat < S128x200.size a := fun v1055 v1095 k0_hw693 => k0_hw693

def k0_chk694 (v1055 : IVec S16 32) (v1100 : IVec S16 32) : Prop :=
  (∀ a x, ((![v1055, v1100] : Fin 2 → IVec S16 32) a x).toNat < S128x200.size a)
instance k0_chk694.dec : ∀ (v1055 : IVec S16 32) (v1100 : IVec S16 32), Decidable (k0_chk694 v1055 v1100) := fun v1055 v1100 => decidable_of_iff' _ (Iff.of_eq (k0_chk694.eq_1 v1055 v1100))
theorem k0_idx694_inb : ∀ (v1055 : IVec S16 32) (v1100 : IVec S16 32) (k0_hw694 : k0_chk694 v1055 v1100), ∀ a x, ((![v1055, v1100] : Fin 2 → IVec S16 32) a x).toNat < S128x200.size a := fun v1055 v1100 k0_hw694 => k0_hw694

def k0_chk695 (v1110 : IVec S16 32) : Prop :=
  (∀ a x, ((![v1110] : Fin 1 → IVec S16 32) a x).toNat < S4096.size a)
instance k0_chk695.dec : ∀ (v1110 : IVec S16 32), Decidable (k0_chk695 v1110) := fun v1110 => decidable_of_iff' _ (Iff.of_eq (k0_chk695.eq_1 v1110))
theorem k0_idx695_inb : ∀ (v1110 : IVec S16 32) (k0_hw695 : k0_chk695 v1110), ∀ a x, ((![v1110] : Fin 1 → IVec S16 32) a x).toNat < S4096.size a := fun v1110 k0_hw695 => k0_hw695

def k0_chk696 (v1055 : IVec S16 32) (v1114 : IVec S16 32) : Prop :=
  (∀ a x, ((![v1055, v1114] : Fin 2 → IVec S16 32) a x).toNat < S128x200.size a)
instance k0_chk696.dec : ∀ (v1055 : IVec S16 32) (v1114 : IVec S16 32), Decidable (k0_chk696 v1055 v1114) := fun v1055 v1114 => decidable_of_iff' _ (Iff.of_eq (k0_chk696.eq_1 v1055 v1114))
theorem k0_idx696_inb : ∀ (v1055 : IVec S16 32) (v1114 : IVec S16 32) (k0_hw696 : k0_chk696 v1055 v1114), ∀ a x, ((![v1055, v1114] : Fin 2 → IVec S16 32) a x).toNat < S128x200.size a := fun v1055 v1114 k0_hw696 => k0_hw696

def k0_chk697 (v1055 : IVec S16 32) (v1119 : IVec S16 32) : Prop :=
  (∀ a x, ((![v1055, v1119] : Fin 2 → IVec S16 32) a x).toNat < S128x200.size a)
instance k0_chk697.dec : ∀ (v1055 : IVec S16 32) (v1119 : IVec S16 32), Decidable (k0_chk697 v1055 v1119) := fun v1055 v1119 => decidable_of_iff' _ (Iff.of_eq (k0_chk697.eq_1 v1055 v1119))
theorem k0_idx697_inb : ∀ (v1055 : IVec S16 32) (v1119 : IVec S16 32) (k0_hw697 : k0_chk697 v1055 v1119), ∀ a x, ((![v1055, v1119] : Fin 2 → IVec S16 32) a x).toNat < S128x200.size a := fun v1055 v1119 k0_hw697 => k0_hw697

def k0_chk698 (v1055 : IVec S16 32) (v1124 : IVec S16 32) : Prop :=
  (∀ a x, ((![v1055, v1124] : Fin 2 → IVec S16 32) a x).toNat < S128x200.size a)
instance k0_chk698.dec : ∀ (v1055 : IVec S16 32) (v1124 : IVec S16 32), Decidable (k0_chk698 v1055 v1124) := fun v1055 v1124 => decidable_of_iff' _ (Iff.of_eq (k0_chk698.eq_1 v1055 v1124))
theorem k0_idx698_inb : ∀ (v1055 : IVec S16 32) (v1124 : IVec S16 32) (k0_hw698 : k0_chk698 v1055 v1124), ∀ a x, ((![v1055, v1124] : Fin 2 → IVec S16 32) a x).toNat < S128x200.size a := fun v1055 v1124 k0_hw698 => k0_hw698

def k0_chk699 (v1055 : IVec S16 32) (v1129 : IVec S16 32) : Prop :=
  (∀ a x, ((![v1055, v1129] : Fin 2 → IVec S16 32) a x).toNat < S128x200.size a)
instance k0_chk699.dec : ∀ (v1055 : IVec S16 32) (v1129 : IVec S16 32), Decidable (k0_chk699 v1055 v1129) := fun v1055 v1129 => decidable_of_iff' _ (Iff.of_eq (k0_chk699.eq_1 v1055 v1129))
theorem k0_idx699_inb : ∀ (v1055 : IVec S16 32) (v1129 : IVec S16 32) (k0_hw699 : k0_chk699 v1055 v1129), ∀ a x, ((![v1055, v1129] : Fin 2 → IVec S16 32) a x).toNat < S128x200.size a := fun v1055 v1129 k0_hw699 => k0_hw699

def k0_chk700 (v1139 : IVec S16 32) : Prop :=
  (∀ a x, ((![v1139] : Fin 1 → IVec S16 32) a x).toNat < S4096.size a)
instance k0_chk700.dec : ∀ (v1139 : IVec S16 32), Decidable (k0_chk700 v1139) := fun v1139 => decidable_of_iff' _ (Iff.of_eq (k0_chk700.eq_1 v1139))
theorem k0_idx700_inb : ∀ (v1139 : IVec S16 32) (k0_hw700 : k0_chk700 v1139), ∀ a x, ((![v1139] : Fin 1 → IVec S16 32) a x).toNat < S4096.size a := fun v1139 k0_hw700 => k0_hw700

def k0_chk701 (v1055 : IVec S16 32) (v1143 : IVec S16 32) : Prop :=
  (∀ a x, ((![v1055, v1143] : Fin 2 → IVec S16 32) a x).toNat < S128x200.size a)
instance k0_chk701.dec : ∀ (v1055 : IVec S16 32) (v1143 : IVec S16 32), Decidable (k0_chk701 v1055 v1143) := fun v1055 v1143 => decidable_of_iff' _ (Iff.of_eq (k0_chk701.eq_1 v1055 v1143))
theorem k0_idx701_inb : ∀ (v1055 : IVec S16 32) (v1143 : IVec S16 32) (k0_hw701 : k0_chk701 v1055 v1143), ∀ a x, ((![v1055, v1143] : Fin 2 → IVec S16 32) a x).toNat < S128x200.size a := fun v1055 v1143 k0_hw701 => k0_hw701

def k0_chk702 (v1147 : IVec S16 32) : Prop :=
  (∀ a x, ((![v1147] : Fin 1 → IVec S16 32) a x).toNat < S272.size a)
instance k0_chk702.dec : ∀ (v1147 : IVec S16 32), Decidable (k0_chk702 v1147) := fun v1147 => decidable_of_iff' _ (Iff.of_eq (k0_chk702.eq_1 v1147))
theorem k0_idx702_inb : ∀ (v1147 : IVec S16 32) (k0_hw702 : k0_chk702 v1147), ∀ a x, ((![v1147] : Fin 1 → IVec S16 32) a x).toNat < S272.size a := fun v1147 k0_hw702 => k0_hw702
def k0_off52 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c64_i32_389 : BitVec 32 := 64#32
  let v1151 : BitVec 32 := Scalar.addi v648 c64_i32_389
  let v1152 : Index := Scalar.indexCast v1151
  ![v1152.toNat]

def k0_chk703 (v1156 : IVec S16 32) (v1158 : IVec S16 32) : Prop :=
  (∀ a x, ((![v1156, v1158] : Fin 2 → IVec S16 32) a x).toNat < S128x200.size a)
instance k0_chk703.dec : ∀ (v1156 : IVec S16 32) (v1158 : IVec S16 32), Decidable (k0_chk703 v1156 v1158) := fun v1156 v1158 => decidable_of_iff' _ (Iff.of_eq (k0_chk703.eq_1 v1156 v1158))
theorem k0_idx703_inb : ∀ (v1156 : IVec S16 32) (v1158 : IVec S16 32) (k0_hw703 : k0_chk703 v1156 v1158), ∀ a x, ((![v1156, v1158] : Fin 2 → IVec S16 32) a x).toNat < S128x200.size a := fun v1156 v1158 k0_hw703 => k0_hw703

def k0_chk704 (v1156 : IVec S16 32) (v1163 : IVec S16 32) : Prop :=
  (∀ a x, ((![v1156, v1163] : Fin 2 → IVec S16 32) a x).toNat < S128x200.size a)
instance k0_chk704.dec : ∀ (v1156 : IVec S16 32) (v1163 : IVec S16 32), Decidable (k0_chk704 v1156 v1163) := fun v1156 v1163 => decidable_of_iff' _ (Iff.of_eq (k0_chk704.eq_1 v1156 v1163))
theorem k0_idx704_inb : ∀ (v1156 : IVec S16 32) (v1163 : IVec S16 32) (k0_hw704 : k0_chk704 v1156 v1163), ∀ a x, ((![v1156, v1163] : Fin 2 → IVec S16 32) a x).toNat < S128x200.size a := fun v1156 v1163 k0_hw704 => k0_hw704

def k0_chk705 (v1156 : IVec S16 32) (v1168 : IVec S16 32) : Prop :=
  (∀ a x, ((![v1156, v1168] : Fin 2 → IVec S16 32) a x).toNat < S128x200.size a)
instance k0_chk705.dec : ∀ (v1156 : IVec S16 32) (v1168 : IVec S16 32), Decidable (k0_chk705 v1156 v1168) := fun v1156 v1168 => decidable_of_iff' _ (Iff.of_eq (k0_chk705.eq_1 v1156 v1168))
theorem k0_idx705_inb : ∀ (v1156 : IVec S16 32) (v1168 : IVec S16 32) (k0_hw705 : k0_chk705 v1156 v1168), ∀ a x, ((![v1156, v1168] : Fin 2 → IVec S16 32) a x).toNat < S128x200.size a := fun v1156 v1168 k0_hw705 => k0_hw705

def k0_chk706 (v1156 : IVec S16 32) (v1173 : IVec S16 32) : Prop :=
  (∀ a x, ((![v1156, v1173] : Fin 2 → IVec S16 32) a x).toNat < S128x200.size a)
instance k0_chk706.dec : ∀ (v1156 : IVec S16 32) (v1173 : IVec S16 32), Decidable (k0_chk706 v1156 v1173) := fun v1156 v1173 => decidable_of_iff' _ (Iff.of_eq (k0_chk706.eq_1 v1156 v1173))
theorem k0_idx706_inb : ∀ (v1156 : IVec S16 32) (v1173 : IVec S16 32) (k0_hw706 : k0_chk706 v1156 v1173), ∀ a x, ((![v1156, v1173] : Fin 2 → IVec S16 32) a x).toNat < S128x200.size a := fun v1156 v1173 k0_hw706 => k0_hw706

def k0_chk707 (v1183 : IVec S16 32) : Prop :=
  (∀ a x, ((![v1183] : Fin 1 → IVec S16 32) a x).toNat < S4096.size a)
instance k0_chk707.dec : ∀ (v1183 : IVec S16 32), Decidable (k0_chk707 v1183) := fun v1183 => decidable_of_iff' _ (Iff.of_eq (k0_chk707.eq_1 v1183))
theorem k0_idx707_inb : ∀ (v1183 : IVec S16 32) (k0_hw707 : k0_chk707 v1183), ∀ a x, ((![v1183] : Fin 1 → IVec S16 32) a x).toNat < S4096.size a := fun v1183 k0_hw707 => k0_hw707

def k0_chk708 (v1156 : IVec S16 32) (v1186 : IVec S16 32) : Prop :=
  (∀ a x, ((![v1156, v1186] : Fin 2 → IVec S16 32) a x).toNat < S128x200.size a)
instance k0_chk708.dec : ∀ (v1156 : IVec S16 32) (v1186 : IVec S16 32), Decidable (k0_chk708 v1156 v1186) := fun v1156 v1186 => decidable_of_iff' _ (Iff.of_eq (k0_chk708.eq_1 v1156 v1186))
theorem k0_idx708_inb : ∀ (v1156 : IVec S16 32) (v1186 : IVec S16 32) (k0_hw708 : k0_chk708 v1156 v1186), ∀ a x, ((![v1156, v1186] : Fin 2 → IVec S16 32) a x).toNat < S128x200.size a := fun v1156 v1186 k0_hw708 => k0_hw708

def k0_chk709 (v1156 : IVec S16 32) (v1191 : IVec S16 32) : Prop :=
  (∀ a x, ((![v1156, v1191] : Fin 2 → IVec S16 32) a x).toNat < S128x200.size a)
instance k0_chk709.dec : ∀ (v1156 : IVec S16 32) (v1191 : IVec S16 32), Decidable (k0_chk709 v1156 v1191) := fun v1156 v1191 => decidable_of_iff' _ (Iff.of_eq (k0_chk709.eq_1 v1156 v1191))
theorem k0_idx709_inb : ∀ (v1156 : IVec S16 32) (v1191 : IVec S16 32) (k0_hw709 : k0_chk709 v1156 v1191), ∀ a x, ((![v1156, v1191] : Fin 2 → IVec S16 32) a x).toNat < S128x200.size a := fun v1156 v1191 k0_hw709 => k0_hw709

def k0_chk710 (v1156 : IVec S16 32) (v1196 : IVec S16 32) : Prop :=
  (∀ a x, ((![v1156, v1196] : Fin 2 → IVec S16 32) a x).toNat < S128x200.size a)
instance k0_chk710.dec : ∀ (v1156 : IVec S16 32) (v1196 : IVec S16 32), Decidable (k0_chk710 v1156 v1196) := fun v1156 v1196 => decidable_of_iff' _ (Iff.of_eq (k0_chk710.eq_1 v1156 v1196))
theorem k0_idx710_inb : ∀ (v1156 : IVec S16 32) (v1196 : IVec S16 32) (k0_hw710 : k0_chk710 v1156 v1196), ∀ a x, ((![v1156, v1196] : Fin 2 → IVec S16 32) a x).toNat < S128x200.size a := fun v1156 v1196 k0_hw710 => k0_hw710

def k0_chk711 (v1156 : IVec S16 32) (v1201 : IVec S16 32) : Prop :=
  (∀ a x, ((![v1156, v1201] : Fin 2 → IVec S16 32) a x).toNat < S128x200.size a)
instance k0_chk711.dec : ∀ (v1156 : IVec S16 32) (v1201 : IVec S16 32), Decidable (k0_chk711 v1156 v1201) := fun v1156 v1201 => decidable_of_iff' _ (Iff.of_eq (k0_chk711.eq_1 v1156 v1201))
theorem k0_idx711_inb : ∀ (v1156 : IVec S16 32) (v1201 : IVec S16 32) (k0_hw711 : k0_chk711 v1156 v1201), ∀ a x, ((![v1156, v1201] : Fin 2 → IVec S16 32) a x).toNat < S128x200.size a := fun v1156 v1201 k0_hw711 => k0_hw711

def k0_chk712 (v1211 : IVec S16 32) : Prop :=
  (∀ a x, ((![v1211] : Fin 1 → IVec S16 32) a x).toNat < S4096.size a)
instance k0_chk712.dec : ∀ (v1211 : IVec S16 32), Decidable (k0_chk712 v1211) := fun v1211 => decidable_of_iff' _ (Iff.of_eq (k0_chk712.eq_1 v1211))
theorem k0_idx712_inb : ∀ (v1211 : IVec S16 32) (k0_hw712 : k0_chk712 v1211), ∀ a x, ((![v1211] : Fin 1 → IVec S16 32) a x).toNat < S4096.size a := fun v1211 k0_hw712 => k0_hw712

def k0_chk713 (v1156 : IVec S16 32) (v1215 : IVec S16 32) : Prop :=
  (∀ a x, ((![v1156, v1215] : Fin 2 → IVec S16 32) a x).toNat < S128x200.size a)
instance k0_chk713.dec : ∀ (v1156 : IVec S16 32) (v1215 : IVec S16 32), Decidable (k0_chk713 v1156 v1215) := fun v1156 v1215 => decidable_of_iff' _ (Iff.of_eq (k0_chk713.eq_1 v1156 v1215))
theorem k0_idx713_inb : ∀ (v1156 : IVec S16 32) (v1215 : IVec S16 32) (k0_hw713 : k0_chk713 v1156 v1215), ∀ a x, ((![v1156, v1215] : Fin 2 → IVec S16 32) a x).toNat < S128x200.size a := fun v1156 v1215 k0_hw713 => k0_hw713

def k0_chk714 (v1156 : IVec S16 32) (v1220 : IVec S16 32) : Prop :=
  (∀ a x, ((![v1156, v1220] : Fin 2 → IVec S16 32) a x).toNat < S128x200.size a)
instance k0_chk714.dec : ∀ (v1156 : IVec S16 32) (v1220 : IVec S16 32), Decidable (k0_chk714 v1156 v1220) := fun v1156 v1220 => decidable_of_iff' _ (Iff.of_eq (k0_chk714.eq_1 v1156 v1220))
theorem k0_idx714_inb : ∀ (v1156 : IVec S16 32) (v1220 : IVec S16 32) (k0_hw714 : k0_chk714 v1156 v1220), ∀ a x, ((![v1156, v1220] : Fin 2 → IVec S16 32) a x).toNat < S128x200.size a := fun v1156 v1220 k0_hw714 => k0_hw714

def k0_chk715 (v1156 : IVec S16 32) (v1225 : IVec S16 32) : Prop :=
  (∀ a x, ((![v1156, v1225] : Fin 2 → IVec S16 32) a x).toNat < S128x200.size a)
instance k0_chk715.dec : ∀ (v1156 : IVec S16 32) (v1225 : IVec S16 32), Decidable (k0_chk715 v1156 v1225) := fun v1156 v1225 => decidable_of_iff' _ (Iff.of_eq (k0_chk715.eq_1 v1156 v1225))
theorem k0_idx715_inb : ∀ (v1156 : IVec S16 32) (v1225 : IVec S16 32) (k0_hw715 : k0_chk715 v1156 v1225), ∀ a x, ((![v1156, v1225] : Fin 2 → IVec S16 32) a x).toNat < S128x200.size a := fun v1156 v1225 k0_hw715 => k0_hw715

def k0_chk716 (v1156 : IVec S16 32) (v1230 : IVec S16 32) : Prop :=
  (∀ a x, ((![v1156, v1230] : Fin 2 → IVec S16 32) a x).toNat < S128x200.size a)
instance k0_chk716.dec : ∀ (v1156 : IVec S16 32) (v1230 : IVec S16 32), Decidable (k0_chk716 v1156 v1230) := fun v1156 v1230 => decidable_of_iff' _ (Iff.of_eq (k0_chk716.eq_1 v1156 v1230))
theorem k0_idx716_inb : ∀ (v1156 : IVec S16 32) (v1230 : IVec S16 32) (k0_hw716 : k0_chk716 v1156 v1230), ∀ a x, ((![v1156, v1230] : Fin 2 → IVec S16 32) a x).toNat < S128x200.size a := fun v1156 v1230 k0_hw716 => k0_hw716

def k0_chk717 (v1240 : IVec S16 32) : Prop :=
  (∀ a x, ((![v1240] : Fin 1 → IVec S16 32) a x).toNat < S4096.size a)
instance k0_chk717.dec : ∀ (v1240 : IVec S16 32), Decidable (k0_chk717 v1240) := fun v1240 => decidable_of_iff' _ (Iff.of_eq (k0_chk717.eq_1 v1240))
theorem k0_idx717_inb : ∀ (v1240 : IVec S16 32) (k0_hw717 : k0_chk717 v1240), ∀ a x, ((![v1240] : Fin 1 → IVec S16 32) a x).toNat < S4096.size a := fun v1240 k0_hw717 => k0_hw717

def k0_chk718 (v1156 : IVec S16 32) (v1244 : IVec S16 32) : Prop :=
  (∀ a x, ((![v1156, v1244] : Fin 2 → IVec S16 32) a x).toNat < S128x200.size a)
instance k0_chk718.dec : ∀ (v1156 : IVec S16 32) (v1244 : IVec S16 32), Decidable (k0_chk718 v1156 v1244) := fun v1156 v1244 => decidable_of_iff' _ (Iff.of_eq (k0_chk718.eq_1 v1156 v1244))
theorem k0_idx718_inb : ∀ (v1156 : IVec S16 32) (v1244 : IVec S16 32) (k0_hw718 : k0_chk718 v1156 v1244), ∀ a x, ((![v1156, v1244] : Fin 2 → IVec S16 32) a x).toNat < S128x200.size a := fun v1156 v1244 k0_hw718 => k0_hw718

def k0_chk719 (v1248 : IVec S16 32) : Prop :=
  (∀ a x, ((![v1248] : Fin 1 → IVec S16 32) a x).toNat < S272.size a)
instance k0_chk719.dec : ∀ (v1248 : IVec S16 32), Decidable (k0_chk719 v1248) := fun v1248 => decidable_of_iff' _ (Iff.of_eq (k0_chk719.eq_1 v1248))
theorem k0_idx719_inb : ∀ (v1248 : IVec S16 32) (k0_hw719 : k0_chk719 v1248), ∀ a x, ((![v1248] : Fin 1 → IVec S16 32) a x).toNat < S272.size a := fun v1248 k0_hw719 => k0_hw719
def k0_off53 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c80_i32_423 : BitVec 32 := 80#32
  let v1252 : BitVec 32 := Scalar.addi v648 c80_i32_423
  let v1253 : Index := Scalar.indexCast v1252
  ![v1253.toNat]

def k0_chk720 (v1257 : IVec S16 32) (v1259 : IVec S16 32) : Prop :=
  (∀ a x, ((![v1257, v1259] : Fin 2 → IVec S16 32) a x).toNat < S128x200.size a)
instance k0_chk720.dec : ∀ (v1257 : IVec S16 32) (v1259 : IVec S16 32), Decidable (k0_chk720 v1257 v1259) := fun v1257 v1259 => decidable_of_iff' _ (Iff.of_eq (k0_chk720.eq_1 v1257 v1259))
theorem k0_idx720_inb : ∀ (v1257 : IVec S16 32) (v1259 : IVec S16 32) (k0_hw720 : k0_chk720 v1257 v1259), ∀ a x, ((![v1257, v1259] : Fin 2 → IVec S16 32) a x).toNat < S128x200.size a := fun v1257 v1259 k0_hw720 => k0_hw720

def k0_chk721 (v1257 : IVec S16 32) (v1264 : IVec S16 32) : Prop :=
  (∀ a x, ((![v1257, v1264] : Fin 2 → IVec S16 32) a x).toNat < S128x200.size a)
instance k0_chk721.dec : ∀ (v1257 : IVec S16 32) (v1264 : IVec S16 32), Decidable (k0_chk721 v1257 v1264) := fun v1257 v1264 => decidable_of_iff' _ (Iff.of_eq (k0_chk721.eq_1 v1257 v1264))
theorem k0_idx721_inb : ∀ (v1257 : IVec S16 32) (v1264 : IVec S16 32) (k0_hw721 : k0_chk721 v1257 v1264), ∀ a x, ((![v1257, v1264] : Fin 2 → IVec S16 32) a x).toNat < S128x200.size a := fun v1257 v1264 k0_hw721 => k0_hw721

def k0_chk722 (v1257 : IVec S16 32) (v1269 : IVec S16 32) : Prop :=
  (∀ a x, ((![v1257, v1269] : Fin 2 → IVec S16 32) a x).toNat < S128x200.size a)
instance k0_chk722.dec : ∀ (v1257 : IVec S16 32) (v1269 : IVec S16 32), Decidable (k0_chk722 v1257 v1269) := fun v1257 v1269 => decidable_of_iff' _ (Iff.of_eq (k0_chk722.eq_1 v1257 v1269))
theorem k0_idx722_inb : ∀ (v1257 : IVec S16 32) (v1269 : IVec S16 32) (k0_hw722 : k0_chk722 v1257 v1269), ∀ a x, ((![v1257, v1269] : Fin 2 → IVec S16 32) a x).toNat < S128x200.size a := fun v1257 v1269 k0_hw722 => k0_hw722

def k0_chk723 (v1257 : IVec S16 32) (v1274 : IVec S16 32) : Prop :=
  (∀ a x, ((![v1257, v1274] : Fin 2 → IVec S16 32) a x).toNat < S128x200.size a)
instance k0_chk723.dec : ∀ (v1257 : IVec S16 32) (v1274 : IVec S16 32), Decidable (k0_chk723 v1257 v1274) := fun v1257 v1274 => decidable_of_iff' _ (Iff.of_eq (k0_chk723.eq_1 v1257 v1274))
theorem k0_idx723_inb : ∀ (v1257 : IVec S16 32) (v1274 : IVec S16 32) (k0_hw723 : k0_chk723 v1257 v1274), ∀ a x, ((![v1257, v1274] : Fin 2 → IVec S16 32) a x).toNat < S128x200.size a := fun v1257 v1274 k0_hw723 => k0_hw723

def k0_chk724 (v1284 : IVec S16 32) : Prop :=
  (∀ a x, ((![v1284] : Fin 1 → IVec S16 32) a x).toNat < S4096.size a)
instance k0_chk724.dec : ∀ (v1284 : IVec S16 32), Decidable (k0_chk724 v1284) := fun v1284 => decidable_of_iff' _ (Iff.of_eq (k0_chk724.eq_1 v1284))
theorem k0_idx724_inb : ∀ (v1284 : IVec S16 32) (k0_hw724 : k0_chk724 v1284), ∀ a x, ((![v1284] : Fin 1 → IVec S16 32) a x).toNat < S4096.size a := fun v1284 k0_hw724 => k0_hw724

def k0_chk725 (v1257 : IVec S16 32) (v1287 : IVec S16 32) : Prop :=
  (∀ a x, ((![v1257, v1287] : Fin 2 → IVec S16 32) a x).toNat < S128x200.size a)
instance k0_chk725.dec : ∀ (v1257 : IVec S16 32) (v1287 : IVec S16 32), Decidable (k0_chk725 v1257 v1287) := fun v1257 v1287 => decidable_of_iff' _ (Iff.of_eq (k0_chk725.eq_1 v1257 v1287))
theorem k0_idx725_inb : ∀ (v1257 : IVec S16 32) (v1287 : IVec S16 32) (k0_hw725 : k0_chk725 v1257 v1287), ∀ a x, ((![v1257, v1287] : Fin 2 → IVec S16 32) a x).toNat < S128x200.size a := fun v1257 v1287 k0_hw725 => k0_hw725

def k0_chk726 (v1257 : IVec S16 32) (v1292 : IVec S16 32) : Prop :=
  (∀ a x, ((![v1257, v1292] : Fin 2 → IVec S16 32) a x).toNat < S128x200.size a)
instance k0_chk726.dec : ∀ (v1257 : IVec S16 32) (v1292 : IVec S16 32), Decidable (k0_chk726 v1257 v1292) := fun v1257 v1292 => decidable_of_iff' _ (Iff.of_eq (k0_chk726.eq_1 v1257 v1292))
theorem k0_idx726_inb : ∀ (v1257 : IVec S16 32) (v1292 : IVec S16 32) (k0_hw726 : k0_chk726 v1257 v1292), ∀ a x, ((![v1257, v1292] : Fin 2 → IVec S16 32) a x).toNat < S128x200.size a := fun v1257 v1292 k0_hw726 => k0_hw726

def k0_chk727 (v1257 : IVec S16 32) (v1297 : IVec S16 32) : Prop :=
  (∀ a x, ((![v1257, v1297] : Fin 2 → IVec S16 32) a x).toNat < S128x200.size a)
instance k0_chk727.dec : ∀ (v1257 : IVec S16 32) (v1297 : IVec S16 32), Decidable (k0_chk727 v1257 v1297) := fun v1257 v1297 => decidable_of_iff' _ (Iff.of_eq (k0_chk727.eq_1 v1257 v1297))
theorem k0_idx727_inb : ∀ (v1257 : IVec S16 32) (v1297 : IVec S16 32) (k0_hw727 : k0_chk727 v1257 v1297), ∀ a x, ((![v1257, v1297] : Fin 2 → IVec S16 32) a x).toNat < S128x200.size a := fun v1257 v1297 k0_hw727 => k0_hw727

def k0_chk728 (v1257 : IVec S16 32) (v1302 : IVec S16 32) : Prop :=
  (∀ a x, ((![v1257, v1302] : Fin 2 → IVec S16 32) a x).toNat < S128x200.size a)
instance k0_chk728.dec : ∀ (v1257 : IVec S16 32) (v1302 : IVec S16 32), Decidable (k0_chk728 v1257 v1302) := fun v1257 v1302 => decidable_of_iff' _ (Iff.of_eq (k0_chk728.eq_1 v1257 v1302))
theorem k0_idx728_inb : ∀ (v1257 : IVec S16 32) (v1302 : IVec S16 32) (k0_hw728 : k0_chk728 v1257 v1302), ∀ a x, ((![v1257, v1302] : Fin 2 → IVec S16 32) a x).toNat < S128x200.size a := fun v1257 v1302 k0_hw728 => k0_hw728

def k0_chk729 (v1312 : IVec S16 32) : Prop :=
  (∀ a x, ((![v1312] : Fin 1 → IVec S16 32) a x).toNat < S4096.size a)
instance k0_chk729.dec : ∀ (v1312 : IVec S16 32), Decidable (k0_chk729 v1312) := fun v1312 => decidable_of_iff' _ (Iff.of_eq (k0_chk729.eq_1 v1312))
theorem k0_idx729_inb : ∀ (v1312 : IVec S16 32) (k0_hw729 : k0_chk729 v1312), ∀ a x, ((![v1312] : Fin 1 → IVec S16 32) a x).toNat < S4096.size a := fun v1312 k0_hw729 => k0_hw729

def k0_chk730 (v1257 : IVec S16 32) (v1316 : IVec S16 32) : Prop :=
  (∀ a x, ((![v1257, v1316] : Fin 2 → IVec S16 32) a x).toNat < S128x200.size a)
instance k0_chk730.dec : ∀ (v1257 : IVec S16 32) (v1316 : IVec S16 32), Decidable (k0_chk730 v1257 v1316) := fun v1257 v1316 => decidable_of_iff' _ (Iff.of_eq (k0_chk730.eq_1 v1257 v1316))
theorem k0_idx730_inb : ∀ (v1257 : IVec S16 32) (v1316 : IVec S16 32) (k0_hw730 : k0_chk730 v1257 v1316), ∀ a x, ((![v1257, v1316] : Fin 2 → IVec S16 32) a x).toNat < S128x200.size a := fun v1257 v1316 k0_hw730 => k0_hw730

def k0_chk731 (v1257 : IVec S16 32) (v1321 : IVec S16 32) : Prop :=
  (∀ a x, ((![v1257, v1321] : Fin 2 → IVec S16 32) a x).toNat < S128x200.size a)
instance k0_chk731.dec : ∀ (v1257 : IVec S16 32) (v1321 : IVec S16 32), Decidable (k0_chk731 v1257 v1321) := fun v1257 v1321 => decidable_of_iff' _ (Iff.of_eq (k0_chk731.eq_1 v1257 v1321))
theorem k0_idx731_inb : ∀ (v1257 : IVec S16 32) (v1321 : IVec S16 32) (k0_hw731 : k0_chk731 v1257 v1321), ∀ a x, ((![v1257, v1321] : Fin 2 → IVec S16 32) a x).toNat < S128x200.size a := fun v1257 v1321 k0_hw731 => k0_hw731

def k0_chk732 (v1257 : IVec S16 32) (v1326 : IVec S16 32) : Prop :=
  (∀ a x, ((![v1257, v1326] : Fin 2 → IVec S16 32) a x).toNat < S128x200.size a)
instance k0_chk732.dec : ∀ (v1257 : IVec S16 32) (v1326 : IVec S16 32), Decidable (k0_chk732 v1257 v1326) := fun v1257 v1326 => decidable_of_iff' _ (Iff.of_eq (k0_chk732.eq_1 v1257 v1326))
theorem k0_idx732_inb : ∀ (v1257 : IVec S16 32) (v1326 : IVec S16 32) (k0_hw732 : k0_chk732 v1257 v1326), ∀ a x, ((![v1257, v1326] : Fin 2 → IVec S16 32) a x).toNat < S128x200.size a := fun v1257 v1326 k0_hw732 => k0_hw732

def k0_chk733 (v1257 : IVec S16 32) (v1331 : IVec S16 32) : Prop :=
  (∀ a x, ((![v1257, v1331] : Fin 2 → IVec S16 32) a x).toNat < S128x200.size a)
instance k0_chk733.dec : ∀ (v1257 : IVec S16 32) (v1331 : IVec S16 32), Decidable (k0_chk733 v1257 v1331) := fun v1257 v1331 => decidable_of_iff' _ (Iff.of_eq (k0_chk733.eq_1 v1257 v1331))
theorem k0_idx733_inb : ∀ (v1257 : IVec S16 32) (v1331 : IVec S16 32) (k0_hw733 : k0_chk733 v1257 v1331), ∀ a x, ((![v1257, v1331] : Fin 2 → IVec S16 32) a x).toNat < S128x200.size a := fun v1257 v1331 k0_hw733 => k0_hw733

def k0_chk734 (v1341 : IVec S16 32) : Prop :=
  (∀ a x, ((![v1341] : Fin 1 → IVec S16 32) a x).toNat < S4096.size a)
instance k0_chk734.dec : ∀ (v1341 : IVec S16 32), Decidable (k0_chk734 v1341) := fun v1341 => decidable_of_iff' _ (Iff.of_eq (k0_chk734.eq_1 v1341))
theorem k0_idx734_inb : ∀ (v1341 : IVec S16 32) (k0_hw734 : k0_chk734 v1341), ∀ a x, ((![v1341] : Fin 1 → IVec S16 32) a x).toNat < S4096.size a := fun v1341 k0_hw734 => k0_hw734

def k0_chk735 (v1257 : IVec S16 32) (v1345 : IVec S16 32) : Prop :=
  (∀ a x, ((![v1257, v1345] : Fin 2 → IVec S16 32) a x).toNat < S128x200.size a)
instance k0_chk735.dec : ∀ (v1257 : IVec S16 32) (v1345 : IVec S16 32), Decidable (k0_chk735 v1257 v1345) := fun v1257 v1345 => decidable_of_iff' _ (Iff.of_eq (k0_chk735.eq_1 v1257 v1345))
theorem k0_idx735_inb : ∀ (v1257 : IVec S16 32) (v1345 : IVec S16 32) (k0_hw735 : k0_chk735 v1257 v1345), ∀ a x, ((![v1257, v1345] : Fin 2 → IVec S16 32) a x).toNat < S128x200.size a := fun v1257 v1345 k0_hw735 => k0_hw735

def k0_chk736 (v1349 : IVec S16 32) : Prop :=
  (∀ a x, ((![v1349] : Fin 1 → IVec S16 32) a x).toNat < S272.size a)
instance k0_chk736.dec : ∀ (v1349 : IVec S16 32), Decidable (k0_chk736 v1349) := fun v1349 => decidable_of_iff' _ (Iff.of_eq (k0_chk736.eq_1 v1349))
theorem k0_idx736_inb : ∀ (v1349 : IVec S16 32) (k0_hw736 : k0_chk736 v1349), ∀ a x, ((![v1349] : Fin 1 → IVec S16 32) a x).toNat < S272.size a := fun v1349 k0_hw736 => k0_hw736
def k0_off54 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c96_i32_458 : BitVec 32 := 96#32
  let v1353 : BitVec 32 := Scalar.addi v648 c96_i32_458
  let v1354 : Index := Scalar.indexCast v1353
  ![v1354.toNat]

def k0_chk737 (v1358 : IVec S16 32) (v1360 : IVec S16 32) : Prop :=
  (∀ a x, ((![v1358, v1360] : Fin 2 → IVec S16 32) a x).toNat < S128x200.size a)
instance k0_chk737.dec : ∀ (v1358 : IVec S16 32) (v1360 : IVec S16 32), Decidable (k0_chk737 v1358 v1360) := fun v1358 v1360 => decidable_of_iff' _ (Iff.of_eq (k0_chk737.eq_1 v1358 v1360))
theorem k0_idx737_inb : ∀ (v1358 : IVec S16 32) (v1360 : IVec S16 32) (k0_hw737 : k0_chk737 v1358 v1360), ∀ a x, ((![v1358, v1360] : Fin 2 → IVec S16 32) a x).toNat < S128x200.size a := fun v1358 v1360 k0_hw737 => k0_hw737

def k0_chk738 (v1358 : IVec S16 32) (v1365 : IVec S16 32) : Prop :=
  (∀ a x, ((![v1358, v1365] : Fin 2 → IVec S16 32) a x).toNat < S128x200.size a)
instance k0_chk738.dec : ∀ (v1358 : IVec S16 32) (v1365 : IVec S16 32), Decidable (k0_chk738 v1358 v1365) := fun v1358 v1365 => decidable_of_iff' _ (Iff.of_eq (k0_chk738.eq_1 v1358 v1365))
theorem k0_idx738_inb : ∀ (v1358 : IVec S16 32) (v1365 : IVec S16 32) (k0_hw738 : k0_chk738 v1358 v1365), ∀ a x, ((![v1358, v1365] : Fin 2 → IVec S16 32) a x).toNat < S128x200.size a := fun v1358 v1365 k0_hw738 => k0_hw738

def k0_chk739 (v1358 : IVec S16 32) (v1370 : IVec S16 32) : Prop :=
  (∀ a x, ((![v1358, v1370] : Fin 2 → IVec S16 32) a x).toNat < S128x200.size a)
instance k0_chk739.dec : ∀ (v1358 : IVec S16 32) (v1370 : IVec S16 32), Decidable (k0_chk739 v1358 v1370) := fun v1358 v1370 => decidable_of_iff' _ (Iff.of_eq (k0_chk739.eq_1 v1358 v1370))
theorem k0_idx739_inb : ∀ (v1358 : IVec S16 32) (v1370 : IVec S16 32) (k0_hw739 : k0_chk739 v1358 v1370), ∀ a x, ((![v1358, v1370] : Fin 2 → IVec S16 32) a x).toNat < S128x200.size a := fun v1358 v1370 k0_hw739 => k0_hw739

def k0_chk740 (v1358 : IVec S16 32) (v1375 : IVec S16 32) : Prop :=
  (∀ a x, ((![v1358, v1375] : Fin 2 → IVec S16 32) a x).toNat < S128x200.size a)
instance k0_chk740.dec : ∀ (v1358 : IVec S16 32) (v1375 : IVec S16 32), Decidable (k0_chk740 v1358 v1375) := fun v1358 v1375 => decidable_of_iff' _ (Iff.of_eq (k0_chk740.eq_1 v1358 v1375))
theorem k0_idx740_inb : ∀ (v1358 : IVec S16 32) (v1375 : IVec S16 32) (k0_hw740 : k0_chk740 v1358 v1375), ∀ a x, ((![v1358, v1375] : Fin 2 → IVec S16 32) a x).toNat < S128x200.size a := fun v1358 v1375 k0_hw740 => k0_hw740

def k0_chk741 (v1385 : IVec S16 32) : Prop :=
  (∀ a x, ((![v1385] : Fin 1 → IVec S16 32) a x).toNat < S4096.size a)
instance k0_chk741.dec : ∀ (v1385 : IVec S16 32), Decidable (k0_chk741 v1385) := fun v1385 => decidable_of_iff' _ (Iff.of_eq (k0_chk741.eq_1 v1385))
theorem k0_idx741_inb : ∀ (v1385 : IVec S16 32) (k0_hw741 : k0_chk741 v1385), ∀ a x, ((![v1385] : Fin 1 → IVec S16 32) a x).toNat < S4096.size a := fun v1385 k0_hw741 => k0_hw741

def k0_chk742 (v1358 : IVec S16 32) (v1388 : IVec S16 32) : Prop :=
  (∀ a x, ((![v1358, v1388] : Fin 2 → IVec S16 32) a x).toNat < S128x200.size a)
instance k0_chk742.dec : ∀ (v1358 : IVec S16 32) (v1388 : IVec S16 32), Decidable (k0_chk742 v1358 v1388) := fun v1358 v1388 => decidable_of_iff' _ (Iff.of_eq (k0_chk742.eq_1 v1358 v1388))
theorem k0_idx742_inb : ∀ (v1358 : IVec S16 32) (v1388 : IVec S16 32) (k0_hw742 : k0_chk742 v1358 v1388), ∀ a x, ((![v1358, v1388] : Fin 2 → IVec S16 32) a x).toNat < S128x200.size a := fun v1358 v1388 k0_hw742 => k0_hw742

def k0_chk743 (v1358 : IVec S16 32) (v1393 : IVec S16 32) : Prop :=
  (∀ a x, ((![v1358, v1393] : Fin 2 → IVec S16 32) a x).toNat < S128x200.size a)
instance k0_chk743.dec : ∀ (v1358 : IVec S16 32) (v1393 : IVec S16 32), Decidable (k0_chk743 v1358 v1393) := fun v1358 v1393 => decidable_of_iff' _ (Iff.of_eq (k0_chk743.eq_1 v1358 v1393))
theorem k0_idx743_inb : ∀ (v1358 : IVec S16 32) (v1393 : IVec S16 32) (k0_hw743 : k0_chk743 v1358 v1393), ∀ a x, ((![v1358, v1393] : Fin 2 → IVec S16 32) a x).toNat < S128x200.size a := fun v1358 v1393 k0_hw743 => k0_hw743

def k0_chk744 (v1358 : IVec S16 32) (v1398 : IVec S16 32) : Prop :=
  (∀ a x, ((![v1358, v1398] : Fin 2 → IVec S16 32) a x).toNat < S128x200.size a)
instance k0_chk744.dec : ∀ (v1358 : IVec S16 32) (v1398 : IVec S16 32), Decidable (k0_chk744 v1358 v1398) := fun v1358 v1398 => decidable_of_iff' _ (Iff.of_eq (k0_chk744.eq_1 v1358 v1398))
theorem k0_idx744_inb : ∀ (v1358 : IVec S16 32) (v1398 : IVec S16 32) (k0_hw744 : k0_chk744 v1358 v1398), ∀ a x, ((![v1358, v1398] : Fin 2 → IVec S16 32) a x).toNat < S128x200.size a := fun v1358 v1398 k0_hw744 => k0_hw744

def k0_chk745 (v1358 : IVec S16 32) (v1403 : IVec S16 32) : Prop :=
  (∀ a x, ((![v1358, v1403] : Fin 2 → IVec S16 32) a x).toNat < S128x200.size a)
instance k0_chk745.dec : ∀ (v1358 : IVec S16 32) (v1403 : IVec S16 32), Decidable (k0_chk745 v1358 v1403) := fun v1358 v1403 => decidable_of_iff' _ (Iff.of_eq (k0_chk745.eq_1 v1358 v1403))
theorem k0_idx745_inb : ∀ (v1358 : IVec S16 32) (v1403 : IVec S16 32) (k0_hw745 : k0_chk745 v1358 v1403), ∀ a x, ((![v1358, v1403] : Fin 2 → IVec S16 32) a x).toNat < S128x200.size a := fun v1358 v1403 k0_hw745 => k0_hw745

def k0_chk746 (v1413 : IVec S16 32) : Prop :=
  (∀ a x, ((![v1413] : Fin 1 → IVec S16 32) a x).toNat < S4096.size a)
instance k0_chk746.dec : ∀ (v1413 : IVec S16 32), Decidable (k0_chk746 v1413) := fun v1413 => decidable_of_iff' _ (Iff.of_eq (k0_chk746.eq_1 v1413))
theorem k0_idx746_inb : ∀ (v1413 : IVec S16 32) (k0_hw746 : k0_chk746 v1413), ∀ a x, ((![v1413] : Fin 1 → IVec S16 32) a x).toNat < S4096.size a := fun v1413 k0_hw746 => k0_hw746

def k0_chk747 (v1358 : IVec S16 32) (v1417 : IVec S16 32) : Prop :=
  (∀ a x, ((![v1358, v1417] : Fin 2 → IVec S16 32) a x).toNat < S128x200.size a)
instance k0_chk747.dec : ∀ (v1358 : IVec S16 32) (v1417 : IVec S16 32), Decidable (k0_chk747 v1358 v1417) := fun v1358 v1417 => decidable_of_iff' _ (Iff.of_eq (k0_chk747.eq_1 v1358 v1417))
theorem k0_idx747_inb : ∀ (v1358 : IVec S16 32) (v1417 : IVec S16 32) (k0_hw747 : k0_chk747 v1358 v1417), ∀ a x, ((![v1358, v1417] : Fin 2 → IVec S16 32) a x).toNat < S128x200.size a := fun v1358 v1417 k0_hw747 => k0_hw747

def k0_chk748 (v1358 : IVec S16 32) (v1422 : IVec S16 32) : Prop :=
  (∀ a x, ((![v1358, v1422] : Fin 2 → IVec S16 32) a x).toNat < S128x200.size a)
instance k0_chk748.dec : ∀ (v1358 : IVec S16 32) (v1422 : IVec S16 32), Decidable (k0_chk748 v1358 v1422) := fun v1358 v1422 => decidable_of_iff' _ (Iff.of_eq (k0_chk748.eq_1 v1358 v1422))
theorem k0_idx748_inb : ∀ (v1358 : IVec S16 32) (v1422 : IVec S16 32) (k0_hw748 : k0_chk748 v1358 v1422), ∀ a x, ((![v1358, v1422] : Fin 2 → IVec S16 32) a x).toNat < S128x200.size a := fun v1358 v1422 k0_hw748 => k0_hw748

def k0_chk749 (v1358 : IVec S16 32) (v1427 : IVec S16 32) : Prop :=
  (∀ a x, ((![v1358, v1427] : Fin 2 → IVec S16 32) a x).toNat < S128x200.size a)
instance k0_chk749.dec : ∀ (v1358 : IVec S16 32) (v1427 : IVec S16 32), Decidable (k0_chk749 v1358 v1427) := fun v1358 v1427 => decidable_of_iff' _ (Iff.of_eq (k0_chk749.eq_1 v1358 v1427))
theorem k0_idx749_inb : ∀ (v1358 : IVec S16 32) (v1427 : IVec S16 32) (k0_hw749 : k0_chk749 v1358 v1427), ∀ a x, ((![v1358, v1427] : Fin 2 → IVec S16 32) a x).toNat < S128x200.size a := fun v1358 v1427 k0_hw749 => k0_hw749

def k0_chk750 (v1358 : IVec S16 32) (v1432 : IVec S16 32) : Prop :=
  (∀ a x, ((![v1358, v1432] : Fin 2 → IVec S16 32) a x).toNat < S128x200.size a)
instance k0_chk750.dec : ∀ (v1358 : IVec S16 32) (v1432 : IVec S16 32), Decidable (k0_chk750 v1358 v1432) := fun v1358 v1432 => decidable_of_iff' _ (Iff.of_eq (k0_chk750.eq_1 v1358 v1432))
theorem k0_idx750_inb : ∀ (v1358 : IVec S16 32) (v1432 : IVec S16 32) (k0_hw750 : k0_chk750 v1358 v1432), ∀ a x, ((![v1358, v1432] : Fin 2 → IVec S16 32) a x).toNat < S128x200.size a := fun v1358 v1432 k0_hw750 => k0_hw750

def k0_chk751 (v1442 : IVec S16 32) : Prop :=
  (∀ a x, ((![v1442] : Fin 1 → IVec S16 32) a x).toNat < S4096.size a)
instance k0_chk751.dec : ∀ (v1442 : IVec S16 32), Decidable (k0_chk751 v1442) := fun v1442 => decidable_of_iff' _ (Iff.of_eq (k0_chk751.eq_1 v1442))
theorem k0_idx751_inb : ∀ (v1442 : IVec S16 32) (k0_hw751 : k0_chk751 v1442), ∀ a x, ((![v1442] : Fin 1 → IVec S16 32) a x).toNat < S4096.size a := fun v1442 k0_hw751 => k0_hw751

def k0_chk752 (v1358 : IVec S16 32) (v1446 : IVec S16 32) : Prop :=
  (∀ a x, ((![v1358, v1446] : Fin 2 → IVec S16 32) a x).toNat < S128x200.size a)
instance k0_chk752.dec : ∀ (v1358 : IVec S16 32) (v1446 : IVec S16 32), Decidable (k0_chk752 v1358 v1446) := fun v1358 v1446 => decidable_of_iff' _ (Iff.of_eq (k0_chk752.eq_1 v1358 v1446))
theorem k0_idx752_inb : ∀ (v1358 : IVec S16 32) (v1446 : IVec S16 32) (k0_hw752 : k0_chk752 v1358 v1446), ∀ a x, ((![v1358, v1446] : Fin 2 → IVec S16 32) a x).toNat < S128x200.size a := fun v1358 v1446 k0_hw752 => k0_hw752

def k0_chk753 (v1450 : IVec S16 32) : Prop :=
  (∀ a x, ((![v1450] : Fin 1 → IVec S16 32) a x).toNat < S272.size a)
instance k0_chk753.dec : ∀ (v1450 : IVec S16 32), Decidable (k0_chk753 v1450) := fun v1450 => decidable_of_iff' _ (Iff.of_eq (k0_chk753.eq_1 v1450))
theorem k0_idx753_inb : ∀ (v1450 : IVec S16 32) (k0_hw753 : k0_chk753 v1450), ∀ a x, ((![v1450] : Fin 1 → IVec S16 32) a x).toNat < S272.size a := fun v1450 k0_hw753 => k0_hw753
def k0_off55 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c112_i32_493 : BitVec 32 := 112#32
  let v1454 : BitVec 32 := Scalar.addi v648 c112_i32_493
  let v1455 : Index := Scalar.indexCast v1454
  ![v1455.toNat]

def k0_chk754 (v1459 : IVec S16 32) (v1461 : IVec S16 32) : Prop :=
  (∀ a x, ((![v1459, v1461] : Fin 2 → IVec S16 32) a x).toNat < S128x200.size a)
instance k0_chk754.dec : ∀ (v1459 : IVec S16 32) (v1461 : IVec S16 32), Decidable (k0_chk754 v1459 v1461) := fun v1459 v1461 => decidable_of_iff' _ (Iff.of_eq (k0_chk754.eq_1 v1459 v1461))
theorem k0_idx754_inb : ∀ (v1459 : IVec S16 32) (v1461 : IVec S16 32) (k0_hw754 : k0_chk754 v1459 v1461), ∀ a x, ((![v1459, v1461] : Fin 2 → IVec S16 32) a x).toNat < S128x200.size a := fun v1459 v1461 k0_hw754 => k0_hw754

def k0_chk755 (v1459 : IVec S16 32) (v1466 : IVec S16 32) : Prop :=
  (∀ a x, ((![v1459, v1466] : Fin 2 → IVec S16 32) a x).toNat < S128x200.size a)
instance k0_chk755.dec : ∀ (v1459 : IVec S16 32) (v1466 : IVec S16 32), Decidable (k0_chk755 v1459 v1466) := fun v1459 v1466 => decidable_of_iff' _ (Iff.of_eq (k0_chk755.eq_1 v1459 v1466))
theorem k0_idx755_inb : ∀ (v1459 : IVec S16 32) (v1466 : IVec S16 32) (k0_hw755 : k0_chk755 v1459 v1466), ∀ a x, ((![v1459, v1466] : Fin 2 → IVec S16 32) a x).toNat < S128x200.size a := fun v1459 v1466 k0_hw755 => k0_hw755

def k0_chk756 (v1459 : IVec S16 32) (v1471 : IVec S16 32) : Prop :=
  (∀ a x, ((![v1459, v1471] : Fin 2 → IVec S16 32) a x).toNat < S128x200.size a)
instance k0_chk756.dec : ∀ (v1459 : IVec S16 32) (v1471 : IVec S16 32), Decidable (k0_chk756 v1459 v1471) := fun v1459 v1471 => decidable_of_iff' _ (Iff.of_eq (k0_chk756.eq_1 v1459 v1471))
theorem k0_idx756_inb : ∀ (v1459 : IVec S16 32) (v1471 : IVec S16 32) (k0_hw756 : k0_chk756 v1459 v1471), ∀ a x, ((![v1459, v1471] : Fin 2 → IVec S16 32) a x).toNat < S128x200.size a := fun v1459 v1471 k0_hw756 => k0_hw756

def k0_chk757 (v1459 : IVec S16 32) (v1476 : IVec S16 32) : Prop :=
  (∀ a x, ((![v1459, v1476] : Fin 2 → IVec S16 32) a x).toNat < S128x200.size a)
instance k0_chk757.dec : ∀ (v1459 : IVec S16 32) (v1476 : IVec S16 32), Decidable (k0_chk757 v1459 v1476) := fun v1459 v1476 => decidable_of_iff' _ (Iff.of_eq (k0_chk757.eq_1 v1459 v1476))
theorem k0_idx757_inb : ∀ (v1459 : IVec S16 32) (v1476 : IVec S16 32) (k0_hw757 : k0_chk757 v1459 v1476), ∀ a x, ((![v1459, v1476] : Fin 2 → IVec S16 32) a x).toNat < S128x200.size a := fun v1459 v1476 k0_hw757 => k0_hw757

def k0_chk758 (v1486 : IVec S16 32) : Prop :=
  (∀ a x, ((![v1486] : Fin 1 → IVec S16 32) a x).toNat < S4096.size a)
instance k0_chk758.dec : ∀ (v1486 : IVec S16 32), Decidable (k0_chk758 v1486) := fun v1486 => decidable_of_iff' _ (Iff.of_eq (k0_chk758.eq_1 v1486))
theorem k0_idx758_inb : ∀ (v1486 : IVec S16 32) (k0_hw758 : k0_chk758 v1486), ∀ a x, ((![v1486] : Fin 1 → IVec S16 32) a x).toNat < S4096.size a := fun v1486 k0_hw758 => k0_hw758

def k0_chk759 (v1459 : IVec S16 32) (v1489 : IVec S16 32) : Prop :=
  (∀ a x, ((![v1459, v1489] : Fin 2 → IVec S16 32) a x).toNat < S128x200.size a)
instance k0_chk759.dec : ∀ (v1459 : IVec S16 32) (v1489 : IVec S16 32), Decidable (k0_chk759 v1459 v1489) := fun v1459 v1489 => decidable_of_iff' _ (Iff.of_eq (k0_chk759.eq_1 v1459 v1489))
theorem k0_idx759_inb : ∀ (v1459 : IVec S16 32) (v1489 : IVec S16 32) (k0_hw759 : k0_chk759 v1459 v1489), ∀ a x, ((![v1459, v1489] : Fin 2 → IVec S16 32) a x).toNat < S128x200.size a := fun v1459 v1489 k0_hw759 => k0_hw759

def k0_chk760 (v1459 : IVec S16 32) (v1494 : IVec S16 32) : Prop :=
  (∀ a x, ((![v1459, v1494] : Fin 2 → IVec S16 32) a x).toNat < S128x200.size a)
instance k0_chk760.dec : ∀ (v1459 : IVec S16 32) (v1494 : IVec S16 32), Decidable (k0_chk760 v1459 v1494) := fun v1459 v1494 => decidable_of_iff' _ (Iff.of_eq (k0_chk760.eq_1 v1459 v1494))
theorem k0_idx760_inb : ∀ (v1459 : IVec S16 32) (v1494 : IVec S16 32) (k0_hw760 : k0_chk760 v1459 v1494), ∀ a x, ((![v1459, v1494] : Fin 2 → IVec S16 32) a x).toNat < S128x200.size a := fun v1459 v1494 k0_hw760 => k0_hw760

def k0_chk761 (v1459 : IVec S16 32) (v1499 : IVec S16 32) : Prop :=
  (∀ a x, ((![v1459, v1499] : Fin 2 → IVec S16 32) a x).toNat < S128x200.size a)
instance k0_chk761.dec : ∀ (v1459 : IVec S16 32) (v1499 : IVec S16 32), Decidable (k0_chk761 v1459 v1499) := fun v1459 v1499 => decidable_of_iff' _ (Iff.of_eq (k0_chk761.eq_1 v1459 v1499))
theorem k0_idx761_inb : ∀ (v1459 : IVec S16 32) (v1499 : IVec S16 32) (k0_hw761 : k0_chk761 v1459 v1499), ∀ a x, ((![v1459, v1499] : Fin 2 → IVec S16 32) a x).toNat < S128x200.size a := fun v1459 v1499 k0_hw761 => k0_hw761

def k0_chk762 (v1459 : IVec S16 32) (v1504 : IVec S16 32) : Prop :=
  (∀ a x, ((![v1459, v1504] : Fin 2 → IVec S16 32) a x).toNat < S128x200.size a)
instance k0_chk762.dec : ∀ (v1459 : IVec S16 32) (v1504 : IVec S16 32), Decidable (k0_chk762 v1459 v1504) := fun v1459 v1504 => decidable_of_iff' _ (Iff.of_eq (k0_chk762.eq_1 v1459 v1504))
theorem k0_idx762_inb : ∀ (v1459 : IVec S16 32) (v1504 : IVec S16 32) (k0_hw762 : k0_chk762 v1459 v1504), ∀ a x, ((![v1459, v1504] : Fin 2 → IVec S16 32) a x).toNat < S128x200.size a := fun v1459 v1504 k0_hw762 => k0_hw762

def k0_chk763 (v1514 : IVec S16 32) : Prop :=
  (∀ a x, ((![v1514] : Fin 1 → IVec S16 32) a x).toNat < S4096.size a)
instance k0_chk763.dec : ∀ (v1514 : IVec S16 32), Decidable (k0_chk763 v1514) := fun v1514 => decidable_of_iff' _ (Iff.of_eq (k0_chk763.eq_1 v1514))
theorem k0_idx763_inb : ∀ (v1514 : IVec S16 32) (k0_hw763 : k0_chk763 v1514), ∀ a x, ((![v1514] : Fin 1 → IVec S16 32) a x).toNat < S4096.size a := fun v1514 k0_hw763 => k0_hw763

def k0_chk764 (v1459 : IVec S16 32) (v1518 : IVec S16 32) : Prop :=
  (∀ a x, ((![v1459, v1518] : Fin 2 → IVec S16 32) a x).toNat < S128x200.size a)
instance k0_chk764.dec : ∀ (v1459 : IVec S16 32) (v1518 : IVec S16 32), Decidable (k0_chk764 v1459 v1518) := fun v1459 v1518 => decidable_of_iff' _ (Iff.of_eq (k0_chk764.eq_1 v1459 v1518))
theorem k0_idx764_inb : ∀ (v1459 : IVec S16 32) (v1518 : IVec S16 32) (k0_hw764 : k0_chk764 v1459 v1518), ∀ a x, ((![v1459, v1518] : Fin 2 → IVec S16 32) a x).toNat < S128x200.size a := fun v1459 v1518 k0_hw764 => k0_hw764

def k0_chk765 (v1459 : IVec S16 32) (v1523 : IVec S16 32) : Prop :=
  (∀ a x, ((![v1459, v1523] : Fin 2 → IVec S16 32) a x).toNat < S128x200.size a)
instance k0_chk765.dec : ∀ (v1459 : IVec S16 32) (v1523 : IVec S16 32), Decidable (k0_chk765 v1459 v1523) := fun v1459 v1523 => decidable_of_iff' _ (Iff.of_eq (k0_chk765.eq_1 v1459 v1523))
theorem k0_idx765_inb : ∀ (v1459 : IVec S16 32) (v1523 : IVec S16 32) (k0_hw765 : k0_chk765 v1459 v1523), ∀ a x, ((![v1459, v1523] : Fin 2 → IVec S16 32) a x).toNat < S128x200.size a := fun v1459 v1523 k0_hw765 => k0_hw765

def k0_chk766 (v1459 : IVec S16 32) (v1528 : IVec S16 32) : Prop :=
  (∀ a x, ((![v1459, v1528] : Fin 2 → IVec S16 32) a x).toNat < S128x200.size a)
instance k0_chk766.dec : ∀ (v1459 : IVec S16 32) (v1528 : IVec S16 32), Decidable (k0_chk766 v1459 v1528) := fun v1459 v1528 => decidable_of_iff' _ (Iff.of_eq (k0_chk766.eq_1 v1459 v1528))
theorem k0_idx766_inb : ∀ (v1459 : IVec S16 32) (v1528 : IVec S16 32) (k0_hw766 : k0_chk766 v1459 v1528), ∀ a x, ((![v1459, v1528] : Fin 2 → IVec S16 32) a x).toNat < S128x200.size a := fun v1459 v1528 k0_hw766 => k0_hw766

def k0_chk767 (v1459 : IVec S16 32) (v1533 : IVec S16 32) : Prop :=
  (∀ a x, ((![v1459, v1533] : Fin 2 → IVec S16 32) a x).toNat < S128x200.size a)
instance k0_chk767.dec : ∀ (v1459 : IVec S16 32) (v1533 : IVec S16 32), Decidable (k0_chk767 v1459 v1533) := fun v1459 v1533 => decidable_of_iff' _ (Iff.of_eq (k0_chk767.eq_1 v1459 v1533))
theorem k0_idx767_inb : ∀ (v1459 : IVec S16 32) (v1533 : IVec S16 32) (k0_hw767 : k0_chk767 v1459 v1533), ∀ a x, ((![v1459, v1533] : Fin 2 → IVec S16 32) a x).toNat < S128x200.size a := fun v1459 v1533 k0_hw767 => k0_hw767

def k0_chk768 (v1543 : IVec S16 32) : Prop :=
  (∀ a x, ((![v1543] : Fin 1 → IVec S16 32) a x).toNat < S4096.size a)
instance k0_chk768.dec : ∀ (v1543 : IVec S16 32), Decidable (k0_chk768 v1543) := fun v1543 => decidable_of_iff' _ (Iff.of_eq (k0_chk768.eq_1 v1543))
theorem k0_idx768_inb : ∀ (v1543 : IVec S16 32) (k0_hw768 : k0_chk768 v1543), ∀ a x, ((![v1543] : Fin 1 → IVec S16 32) a x).toNat < S4096.size a := fun v1543 k0_hw768 => k0_hw768

def k0_chk769 (v1459 : IVec S16 32) (v1547 : IVec S16 32) : Prop :=
  (∀ a x, ((![v1459, v1547] : Fin 2 → IVec S16 32) a x).toNat < S128x200.size a)
instance k0_chk769.dec : ∀ (v1459 : IVec S16 32) (v1547 : IVec S16 32), Decidable (k0_chk769 v1459 v1547) := fun v1459 v1547 => decidable_of_iff' _ (Iff.of_eq (k0_chk769.eq_1 v1459 v1547))
theorem k0_idx769_inb : ∀ (v1459 : IVec S16 32) (v1547 : IVec S16 32) (k0_hw769 : k0_chk769 v1459 v1547), ∀ a x, ((![v1459, v1547] : Fin 2 → IVec S16 32) a x).toNat < S128x200.size a := fun v1459 v1547 k0_hw769 => k0_hw769

def k0_chk770 (v1551 : IVec S16 32) : Prop :=
  (∀ a x, ((![v1551] : Fin 1 → IVec S16 32) a x).toNat < S272.size a)
instance k0_chk770.dec : ∀ (v1551 : IVec S16 32), Decidable (k0_chk770 v1551) := fun v1551 => decidable_of_iff' _ (Iff.of_eq (k0_chk770.eq_1 v1551))
theorem k0_idx770_inb : ∀ (v1551 : IVec S16 32) (k0_hw770 : k0_chk770 v1551), ∀ a x, ((![v1551] : Fin 1 → IVec S16 32) a x).toNat < S272.size a := fun v1551 k0_hw770 => k0_hw770
def k0_off56 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c128_i32_528 : BitVec 32 := 128#32
  let v1555 : BitVec 32 := Scalar.addi v648 c128_i32_528
  let v1556 : Index := Scalar.indexCast v1555
  ![v1556.toNat]

def k0_chk771 (v1560 : IVec S16 32) (v1562 : IVec S16 32) : Prop :=
  (∀ a x, ((![v1560, v1562] : Fin 2 → IVec S16 32) a x).toNat < S128x200.size a)
instance k0_chk771.dec : ∀ (v1560 : IVec S16 32) (v1562 : IVec S16 32), Decidable (k0_chk771 v1560 v1562) := fun v1560 v1562 => decidable_of_iff' _ (Iff.of_eq (k0_chk771.eq_1 v1560 v1562))
theorem k0_idx771_inb : ∀ (v1560 : IVec S16 32) (v1562 : IVec S16 32) (k0_hw771 : k0_chk771 v1560 v1562), ∀ a x, ((![v1560, v1562] : Fin 2 → IVec S16 32) a x).toNat < S128x200.size a := fun v1560 v1562 k0_hw771 => k0_hw771

def k0_chk772 (v1560 : IVec S16 32) (v1567 : IVec S16 32) : Prop :=
  (∀ a x, ((![v1560, v1567] : Fin 2 → IVec S16 32) a x).toNat < S128x200.size a)
instance k0_chk772.dec : ∀ (v1560 : IVec S16 32) (v1567 : IVec S16 32), Decidable (k0_chk772 v1560 v1567) := fun v1560 v1567 => decidable_of_iff' _ (Iff.of_eq (k0_chk772.eq_1 v1560 v1567))
theorem k0_idx772_inb : ∀ (v1560 : IVec S16 32) (v1567 : IVec S16 32) (k0_hw772 : k0_chk772 v1560 v1567), ∀ a x, ((![v1560, v1567] : Fin 2 → IVec S16 32) a x).toNat < S128x200.size a := fun v1560 v1567 k0_hw772 => k0_hw772

def k0_chk773 (v1560 : IVec S16 32) (v1572 : IVec S16 32) : Prop :=
  (∀ a x, ((![v1560, v1572] : Fin 2 → IVec S16 32) a x).toNat < S128x200.size a)
instance k0_chk773.dec : ∀ (v1560 : IVec S16 32) (v1572 : IVec S16 32), Decidable (k0_chk773 v1560 v1572) := fun v1560 v1572 => decidable_of_iff' _ (Iff.of_eq (k0_chk773.eq_1 v1560 v1572))
theorem k0_idx773_inb : ∀ (v1560 : IVec S16 32) (v1572 : IVec S16 32) (k0_hw773 : k0_chk773 v1560 v1572), ∀ a x, ((![v1560, v1572] : Fin 2 → IVec S16 32) a x).toNat < S128x200.size a := fun v1560 v1572 k0_hw773 => k0_hw773

def k0_chk774 (v1560 : IVec S16 32) (v1577 : IVec S16 32) : Prop :=
  (∀ a x, ((![v1560, v1577] : Fin 2 → IVec S16 32) a x).toNat < S128x200.size a)
instance k0_chk774.dec : ∀ (v1560 : IVec S16 32) (v1577 : IVec S16 32), Decidable (k0_chk774 v1560 v1577) := fun v1560 v1577 => decidable_of_iff' _ (Iff.of_eq (k0_chk774.eq_1 v1560 v1577))
theorem k0_idx774_inb : ∀ (v1560 : IVec S16 32) (v1577 : IVec S16 32) (k0_hw774 : k0_chk774 v1560 v1577), ∀ a x, ((![v1560, v1577] : Fin 2 → IVec S16 32) a x).toNat < S128x200.size a := fun v1560 v1577 k0_hw774 => k0_hw774

def k0_chk775 (v1587 : IVec S16 32) : Prop :=
  (∀ a x, ((![v1587] : Fin 1 → IVec S16 32) a x).toNat < S4096.size a)
instance k0_chk775.dec : ∀ (v1587 : IVec S16 32), Decidable (k0_chk775 v1587) := fun v1587 => decidable_of_iff' _ (Iff.of_eq (k0_chk775.eq_1 v1587))
theorem k0_idx775_inb : ∀ (v1587 : IVec S16 32) (k0_hw775 : k0_chk775 v1587), ∀ a x, ((![v1587] : Fin 1 → IVec S16 32) a x).toNat < S4096.size a := fun v1587 k0_hw775 => k0_hw775

def k0_chk776 (v1560 : IVec S16 32) (v1590 : IVec S16 32) : Prop :=
  (∀ a x, ((![v1560, v1590] : Fin 2 → IVec S16 32) a x).toNat < S128x200.size a)
instance k0_chk776.dec : ∀ (v1560 : IVec S16 32) (v1590 : IVec S16 32), Decidable (k0_chk776 v1560 v1590) := fun v1560 v1590 => decidable_of_iff' _ (Iff.of_eq (k0_chk776.eq_1 v1560 v1590))
theorem k0_idx776_inb : ∀ (v1560 : IVec S16 32) (v1590 : IVec S16 32) (k0_hw776 : k0_chk776 v1560 v1590), ∀ a x, ((![v1560, v1590] : Fin 2 → IVec S16 32) a x).toNat < S128x200.size a := fun v1560 v1590 k0_hw776 => k0_hw776

def k0_chk777 (v1560 : IVec S16 32) (v1595 : IVec S16 32) : Prop :=
  (∀ a x, ((![v1560, v1595] : Fin 2 → IVec S16 32) a x).toNat < S128x200.size a)
instance k0_chk777.dec : ∀ (v1560 : IVec S16 32) (v1595 : IVec S16 32), Decidable (k0_chk777 v1560 v1595) := fun v1560 v1595 => decidable_of_iff' _ (Iff.of_eq (k0_chk777.eq_1 v1560 v1595))
theorem k0_idx777_inb : ∀ (v1560 : IVec S16 32) (v1595 : IVec S16 32) (k0_hw777 : k0_chk777 v1560 v1595), ∀ a x, ((![v1560, v1595] : Fin 2 → IVec S16 32) a x).toNat < S128x200.size a := fun v1560 v1595 k0_hw777 => k0_hw777

def k0_chk778 (v1560 : IVec S16 32) (v1600 : IVec S16 32) : Prop :=
  (∀ a x, ((![v1560, v1600] : Fin 2 → IVec S16 32) a x).toNat < S128x200.size a)
instance k0_chk778.dec : ∀ (v1560 : IVec S16 32) (v1600 : IVec S16 32), Decidable (k0_chk778 v1560 v1600) := fun v1560 v1600 => decidable_of_iff' _ (Iff.of_eq (k0_chk778.eq_1 v1560 v1600))
theorem k0_idx778_inb : ∀ (v1560 : IVec S16 32) (v1600 : IVec S16 32) (k0_hw778 : k0_chk778 v1560 v1600), ∀ a x, ((![v1560, v1600] : Fin 2 → IVec S16 32) a x).toNat < S128x200.size a := fun v1560 v1600 k0_hw778 => k0_hw778

def k0_chk779 (v1560 : IVec S16 32) (v1605 : IVec S16 32) : Prop :=
  (∀ a x, ((![v1560, v1605] : Fin 2 → IVec S16 32) a x).toNat < S128x200.size a)
instance k0_chk779.dec : ∀ (v1560 : IVec S16 32) (v1605 : IVec S16 32), Decidable (k0_chk779 v1560 v1605) := fun v1560 v1605 => decidable_of_iff' _ (Iff.of_eq (k0_chk779.eq_1 v1560 v1605))
theorem k0_idx779_inb : ∀ (v1560 : IVec S16 32) (v1605 : IVec S16 32) (k0_hw779 : k0_chk779 v1560 v1605), ∀ a x, ((![v1560, v1605] : Fin 2 → IVec S16 32) a x).toNat < S128x200.size a := fun v1560 v1605 k0_hw779 => k0_hw779

def k0_chk780 (v1615 : IVec S16 32) : Prop :=
  (∀ a x, ((![v1615] : Fin 1 → IVec S16 32) a x).toNat < S4096.size a)
instance k0_chk780.dec : ∀ (v1615 : IVec S16 32), Decidable (k0_chk780 v1615) := fun v1615 => decidable_of_iff' _ (Iff.of_eq (k0_chk780.eq_1 v1615))
theorem k0_idx780_inb : ∀ (v1615 : IVec S16 32) (k0_hw780 : k0_chk780 v1615), ∀ a x, ((![v1615] : Fin 1 → IVec S16 32) a x).toNat < S4096.size a := fun v1615 k0_hw780 => k0_hw780

def k0_chk781 (v1560 : IVec S16 32) (v1619 : IVec S16 32) : Prop :=
  (∀ a x, ((![v1560, v1619] : Fin 2 → IVec S16 32) a x).toNat < S128x200.size a)
instance k0_chk781.dec : ∀ (v1560 : IVec S16 32) (v1619 : IVec S16 32), Decidable (k0_chk781 v1560 v1619) := fun v1560 v1619 => decidable_of_iff' _ (Iff.of_eq (k0_chk781.eq_1 v1560 v1619))
theorem k0_idx781_inb : ∀ (v1560 : IVec S16 32) (v1619 : IVec S16 32) (k0_hw781 : k0_chk781 v1560 v1619), ∀ a x, ((![v1560, v1619] : Fin 2 → IVec S16 32) a x).toNat < S128x200.size a := fun v1560 v1619 k0_hw781 => k0_hw781

def k0_chk782 (v1560 : IVec S16 32) (v1624 : IVec S16 32) : Prop :=
  (∀ a x, ((![v1560, v1624] : Fin 2 → IVec S16 32) a x).toNat < S128x200.size a)
instance k0_chk782.dec : ∀ (v1560 : IVec S16 32) (v1624 : IVec S16 32), Decidable (k0_chk782 v1560 v1624) := fun v1560 v1624 => decidable_of_iff' _ (Iff.of_eq (k0_chk782.eq_1 v1560 v1624))
theorem k0_idx782_inb : ∀ (v1560 : IVec S16 32) (v1624 : IVec S16 32) (k0_hw782 : k0_chk782 v1560 v1624), ∀ a x, ((![v1560, v1624] : Fin 2 → IVec S16 32) a x).toNat < S128x200.size a := fun v1560 v1624 k0_hw782 => k0_hw782

def k0_chk783 (v1560 : IVec S16 32) (v1629 : IVec S16 32) : Prop :=
  (∀ a x, ((![v1560, v1629] : Fin 2 → IVec S16 32) a x).toNat < S128x200.size a)
instance k0_chk783.dec : ∀ (v1560 : IVec S16 32) (v1629 : IVec S16 32), Decidable (k0_chk783 v1560 v1629) := fun v1560 v1629 => decidable_of_iff' _ (Iff.of_eq (k0_chk783.eq_1 v1560 v1629))
theorem k0_idx783_inb : ∀ (v1560 : IVec S16 32) (v1629 : IVec S16 32) (k0_hw783 : k0_chk783 v1560 v1629), ∀ a x, ((![v1560, v1629] : Fin 2 → IVec S16 32) a x).toNat < S128x200.size a := fun v1560 v1629 k0_hw783 => k0_hw783

def k0_chk784 (v1560 : IVec S16 32) (v1634 : IVec S16 32) : Prop :=
  (∀ a x, ((![v1560, v1634] : Fin 2 → IVec S16 32) a x).toNat < S128x200.size a)
instance k0_chk784.dec : ∀ (v1560 : IVec S16 32) (v1634 : IVec S16 32), Decidable (k0_chk784 v1560 v1634) := fun v1560 v1634 => decidable_of_iff' _ (Iff.of_eq (k0_chk784.eq_1 v1560 v1634))
theorem k0_idx784_inb : ∀ (v1560 : IVec S16 32) (v1634 : IVec S16 32) (k0_hw784 : k0_chk784 v1560 v1634), ∀ a x, ((![v1560, v1634] : Fin 2 → IVec S16 32) a x).toNat < S128x200.size a := fun v1560 v1634 k0_hw784 => k0_hw784

def k0_chk785 (v1644 : IVec S16 32) : Prop :=
  (∀ a x, ((![v1644] : Fin 1 → IVec S16 32) a x).toNat < S4096.size a)
instance k0_chk785.dec : ∀ (v1644 : IVec S16 32), Decidable (k0_chk785 v1644) := fun v1644 => decidable_of_iff' _ (Iff.of_eq (k0_chk785.eq_1 v1644))
theorem k0_idx785_inb : ∀ (v1644 : IVec S16 32) (k0_hw785 : k0_chk785 v1644), ∀ a x, ((![v1644] : Fin 1 → IVec S16 32) a x).toNat < S4096.size a := fun v1644 k0_hw785 => k0_hw785

def k0_chk786 (v1560 : IVec S16 32) (v1648 : IVec S16 32) : Prop :=
  (∀ a x, ((![v1560, v1648] : Fin 2 → IVec S16 32) a x).toNat < S128x200.size a)
instance k0_chk786.dec : ∀ (v1560 : IVec S16 32) (v1648 : IVec S16 32), Decidable (k0_chk786 v1560 v1648) := fun v1560 v1648 => decidable_of_iff' _ (Iff.of_eq (k0_chk786.eq_1 v1560 v1648))
theorem k0_idx786_inb : ∀ (v1560 : IVec S16 32) (v1648 : IVec S16 32) (k0_hw786 : k0_chk786 v1560 v1648), ∀ a x, ((![v1560, v1648] : Fin 2 → IVec S16 32) a x).toNat < S128x200.size a := fun v1560 v1648 k0_hw786 => k0_hw786

def k0_chk787 (v1652 : IVec S16 32) : Prop :=
  (∀ a x, ((![v1652] : Fin 1 → IVec S16 32) a x).toNat < S272.size a)
instance k0_chk787.dec : ∀ (v1652 : IVec S16 32), Decidable (k0_chk787 v1652) := fun v1652 => decidable_of_iff' _ (Iff.of_eq (k0_chk787.eq_1 v1652))
theorem k0_idx787_inb : ∀ (v1652 : IVec S16 32) (k0_hw787 : k0_chk787 v1652), ∀ a x, ((![v1652] : Fin 1 → IVec S16 32) a x).toNat < S272.size a := fun v1652 k0_hw787 => k0_hw787
def k0_off57 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c144_i32_563 : BitVec 32 := 144#32
  let v1656 : BitVec 32 := Scalar.addi v648 c144_i32_563
  let v1657 : Index := Scalar.indexCast v1656
  ![v1657.toNat]

def k0_chk788 (v1661 : IVec S16 32) (v1663 : IVec S16 32) : Prop :=
  (∀ a x, ((![v1661, v1663] : Fin 2 → IVec S16 32) a x).toNat < S128x200.size a)
instance k0_chk788.dec : ∀ (v1661 : IVec S16 32) (v1663 : IVec S16 32), Decidable (k0_chk788 v1661 v1663) := fun v1661 v1663 => decidable_of_iff' _ (Iff.of_eq (k0_chk788.eq_1 v1661 v1663))
theorem k0_idx788_inb : ∀ (v1661 : IVec S16 32) (v1663 : IVec S16 32) (k0_hw788 : k0_chk788 v1661 v1663), ∀ a x, ((![v1661, v1663] : Fin 2 → IVec S16 32) a x).toNat < S128x200.size a := fun v1661 v1663 k0_hw788 => k0_hw788

def k0_chk789 (v1661 : IVec S16 32) (v1668 : IVec S16 32) : Prop :=
  (∀ a x, ((![v1661, v1668] : Fin 2 → IVec S16 32) a x).toNat < S128x200.size a)
instance k0_chk789.dec : ∀ (v1661 : IVec S16 32) (v1668 : IVec S16 32), Decidable (k0_chk789 v1661 v1668) := fun v1661 v1668 => decidable_of_iff' _ (Iff.of_eq (k0_chk789.eq_1 v1661 v1668))
theorem k0_idx789_inb : ∀ (v1661 : IVec S16 32) (v1668 : IVec S16 32) (k0_hw789 : k0_chk789 v1661 v1668), ∀ a x, ((![v1661, v1668] : Fin 2 → IVec S16 32) a x).toNat < S128x200.size a := fun v1661 v1668 k0_hw789 => k0_hw789

def k0_chk790 (v1661 : IVec S16 32) (v1673 : IVec S16 32) : Prop :=
  (∀ a x, ((![v1661, v1673] : Fin 2 → IVec S16 32) a x).toNat < S128x200.size a)
instance k0_chk790.dec : ∀ (v1661 : IVec S16 32) (v1673 : IVec S16 32), Decidable (k0_chk790 v1661 v1673) := fun v1661 v1673 => decidable_of_iff' _ (Iff.of_eq (k0_chk790.eq_1 v1661 v1673))
theorem k0_idx790_inb : ∀ (v1661 : IVec S16 32) (v1673 : IVec S16 32) (k0_hw790 : k0_chk790 v1661 v1673), ∀ a x, ((![v1661, v1673] : Fin 2 → IVec S16 32) a x).toNat < S128x200.size a := fun v1661 v1673 k0_hw790 => k0_hw790

def k0_chk791 (v1661 : IVec S16 32) (v1678 : IVec S16 32) : Prop :=
  (∀ a x, ((![v1661, v1678] : Fin 2 → IVec S16 32) a x).toNat < S128x200.size a)
instance k0_chk791.dec : ∀ (v1661 : IVec S16 32) (v1678 : IVec S16 32), Decidable (k0_chk791 v1661 v1678) := fun v1661 v1678 => decidable_of_iff' _ (Iff.of_eq (k0_chk791.eq_1 v1661 v1678))
theorem k0_idx791_inb : ∀ (v1661 : IVec S16 32) (v1678 : IVec S16 32) (k0_hw791 : k0_chk791 v1661 v1678), ∀ a x, ((![v1661, v1678] : Fin 2 → IVec S16 32) a x).toNat < S128x200.size a := fun v1661 v1678 k0_hw791 => k0_hw791

def k0_chk792 (v1688 : IVec S16 32) : Prop :=
  (∀ a x, ((![v1688] : Fin 1 → IVec S16 32) a x).toNat < S4096.size a)
instance k0_chk792.dec : ∀ (v1688 : IVec S16 32), Decidable (k0_chk792 v1688) := fun v1688 => decidable_of_iff' _ (Iff.of_eq (k0_chk792.eq_1 v1688))
theorem k0_idx792_inb : ∀ (v1688 : IVec S16 32) (k0_hw792 : k0_chk792 v1688), ∀ a x, ((![v1688] : Fin 1 → IVec S16 32) a x).toNat < S4096.size a := fun v1688 k0_hw792 => k0_hw792

def k0_chk793 (v1661 : IVec S16 32) (v1691 : IVec S16 32) : Prop :=
  (∀ a x, ((![v1661, v1691] : Fin 2 → IVec S16 32) a x).toNat < S128x200.size a)
instance k0_chk793.dec : ∀ (v1661 : IVec S16 32) (v1691 : IVec S16 32), Decidable (k0_chk793 v1661 v1691) := fun v1661 v1691 => decidable_of_iff' _ (Iff.of_eq (k0_chk793.eq_1 v1661 v1691))
theorem k0_idx793_inb : ∀ (v1661 : IVec S16 32) (v1691 : IVec S16 32) (k0_hw793 : k0_chk793 v1661 v1691), ∀ a x, ((![v1661, v1691] : Fin 2 → IVec S16 32) a x).toNat < S128x200.size a := fun v1661 v1691 k0_hw793 => k0_hw793

def k0_chk794 (v1661 : IVec S16 32) (v1696 : IVec S16 32) : Prop :=
  (∀ a x, ((![v1661, v1696] : Fin 2 → IVec S16 32) a x).toNat < S128x200.size a)
instance k0_chk794.dec : ∀ (v1661 : IVec S16 32) (v1696 : IVec S16 32), Decidable (k0_chk794 v1661 v1696) := fun v1661 v1696 => decidable_of_iff' _ (Iff.of_eq (k0_chk794.eq_1 v1661 v1696))
theorem k0_idx794_inb : ∀ (v1661 : IVec S16 32) (v1696 : IVec S16 32) (k0_hw794 : k0_chk794 v1661 v1696), ∀ a x, ((![v1661, v1696] : Fin 2 → IVec S16 32) a x).toNat < S128x200.size a := fun v1661 v1696 k0_hw794 => k0_hw794

def k0_chk795 (v1661 : IVec S16 32) (v1701 : IVec S16 32) : Prop :=
  (∀ a x, ((![v1661, v1701] : Fin 2 → IVec S16 32) a x).toNat < S128x200.size a)
instance k0_chk795.dec : ∀ (v1661 : IVec S16 32) (v1701 : IVec S16 32), Decidable (k0_chk795 v1661 v1701) := fun v1661 v1701 => decidable_of_iff' _ (Iff.of_eq (k0_chk795.eq_1 v1661 v1701))
theorem k0_idx795_inb : ∀ (v1661 : IVec S16 32) (v1701 : IVec S16 32) (k0_hw795 : k0_chk795 v1661 v1701), ∀ a x, ((![v1661, v1701] : Fin 2 → IVec S16 32) a x).toNat < S128x200.size a := fun v1661 v1701 k0_hw795 => k0_hw795

def k0_chk796 (v1661 : IVec S16 32) (v1706 : IVec S16 32) : Prop :=
  (∀ a x, ((![v1661, v1706] : Fin 2 → IVec S16 32) a x).toNat < S128x200.size a)
instance k0_chk796.dec : ∀ (v1661 : IVec S16 32) (v1706 : IVec S16 32), Decidable (k0_chk796 v1661 v1706) := fun v1661 v1706 => decidable_of_iff' _ (Iff.of_eq (k0_chk796.eq_1 v1661 v1706))
theorem k0_idx796_inb : ∀ (v1661 : IVec S16 32) (v1706 : IVec S16 32) (k0_hw796 : k0_chk796 v1661 v1706), ∀ a x, ((![v1661, v1706] : Fin 2 → IVec S16 32) a x).toNat < S128x200.size a := fun v1661 v1706 k0_hw796 => k0_hw796

def k0_chk797 (v1716 : IVec S16 32) : Prop :=
  (∀ a x, ((![v1716] : Fin 1 → IVec S16 32) a x).toNat < S4096.size a)
instance k0_chk797.dec : ∀ (v1716 : IVec S16 32), Decidable (k0_chk797 v1716) := fun v1716 => decidable_of_iff' _ (Iff.of_eq (k0_chk797.eq_1 v1716))
theorem k0_idx797_inb : ∀ (v1716 : IVec S16 32) (k0_hw797 : k0_chk797 v1716), ∀ a x, ((![v1716] : Fin 1 → IVec S16 32) a x).toNat < S4096.size a := fun v1716 k0_hw797 => k0_hw797

def k0_chk798 (v1661 : IVec S16 32) (v1720 : IVec S16 32) : Prop :=
  (∀ a x, ((![v1661, v1720] : Fin 2 → IVec S16 32) a x).toNat < S128x200.size a)
instance k0_chk798.dec : ∀ (v1661 : IVec S16 32) (v1720 : IVec S16 32), Decidable (k0_chk798 v1661 v1720) := fun v1661 v1720 => decidable_of_iff' _ (Iff.of_eq (k0_chk798.eq_1 v1661 v1720))
theorem k0_idx798_inb : ∀ (v1661 : IVec S16 32) (v1720 : IVec S16 32) (k0_hw798 : k0_chk798 v1661 v1720), ∀ a x, ((![v1661, v1720] : Fin 2 → IVec S16 32) a x).toNat < S128x200.size a := fun v1661 v1720 k0_hw798 => k0_hw798

def k0_chk799 (v1661 : IVec S16 32) (v1725 : IVec S16 32) : Prop :=
  (∀ a x, ((![v1661, v1725] : Fin 2 → IVec S16 32) a x).toNat < S128x200.size a)
instance k0_chk799.dec : ∀ (v1661 : IVec S16 32) (v1725 : IVec S16 32), Decidable (k0_chk799 v1661 v1725) := fun v1661 v1725 => decidable_of_iff' _ (Iff.of_eq (k0_chk799.eq_1 v1661 v1725))
theorem k0_idx799_inb : ∀ (v1661 : IVec S16 32) (v1725 : IVec S16 32) (k0_hw799 : k0_chk799 v1661 v1725), ∀ a x, ((![v1661, v1725] : Fin 2 → IVec S16 32) a x).toNat < S128x200.size a := fun v1661 v1725 k0_hw799 => k0_hw799

def k0_chk800 (v1661 : IVec S16 32) (v1730 : IVec S16 32) : Prop :=
  (∀ a x, ((![v1661, v1730] : Fin 2 → IVec S16 32) a x).toNat < S128x200.size a)
instance k0_chk800.dec : ∀ (v1661 : IVec S16 32) (v1730 : IVec S16 32), Decidable (k0_chk800 v1661 v1730) := fun v1661 v1730 => decidable_of_iff' _ (Iff.of_eq (k0_chk800.eq_1 v1661 v1730))
theorem k0_idx800_inb : ∀ (v1661 : IVec S16 32) (v1730 : IVec S16 32) (k0_hw800 : k0_chk800 v1661 v1730), ∀ a x, ((![v1661, v1730] : Fin 2 → IVec S16 32) a x).toNat < S128x200.size a := fun v1661 v1730 k0_hw800 => k0_hw800

def k0_chk801 (v1661 : IVec S16 32) (v1735 : IVec S16 32) : Prop :=
  (∀ a x, ((![v1661, v1735] : Fin 2 → IVec S16 32) a x).toNat < S128x200.size a)
instance k0_chk801.dec : ∀ (v1661 : IVec S16 32) (v1735 : IVec S16 32), Decidable (k0_chk801 v1661 v1735) := fun v1661 v1735 => decidable_of_iff' _ (Iff.of_eq (k0_chk801.eq_1 v1661 v1735))
theorem k0_idx801_inb : ∀ (v1661 : IVec S16 32) (v1735 : IVec S16 32) (k0_hw801 : k0_chk801 v1661 v1735), ∀ a x, ((![v1661, v1735] : Fin 2 → IVec S16 32) a x).toNat < S128x200.size a := fun v1661 v1735 k0_hw801 => k0_hw801

def k0_chk802 (v1745 : IVec S16 32) : Prop :=
  (∀ a x, ((![v1745] : Fin 1 → IVec S16 32) a x).toNat < S4096.size a)
instance k0_chk802.dec : ∀ (v1745 : IVec S16 32), Decidable (k0_chk802 v1745) := fun v1745 => decidable_of_iff' _ (Iff.of_eq (k0_chk802.eq_1 v1745))
theorem k0_idx802_inb : ∀ (v1745 : IVec S16 32) (k0_hw802 : k0_chk802 v1745), ∀ a x, ((![v1745] : Fin 1 → IVec S16 32) a x).toNat < S4096.size a := fun v1745 k0_hw802 => k0_hw802

def k0_chk803 (v1661 : IVec S16 32) (v1749 : IVec S16 32) : Prop :=
  (∀ a x, ((![v1661, v1749] : Fin 2 → IVec S16 32) a x).toNat < S128x200.size a)
instance k0_chk803.dec : ∀ (v1661 : IVec S16 32) (v1749 : IVec S16 32), Decidable (k0_chk803 v1661 v1749) := fun v1661 v1749 => decidable_of_iff' _ (Iff.of_eq (k0_chk803.eq_1 v1661 v1749))
theorem k0_idx803_inb : ∀ (v1661 : IVec S16 32) (v1749 : IVec S16 32) (k0_hw803 : k0_chk803 v1661 v1749), ∀ a x, ((![v1661, v1749] : Fin 2 → IVec S16 32) a x).toNat < S128x200.size a := fun v1661 v1749 k0_hw803 => k0_hw803

def k0_chk804 (v1753 : IVec S16 32) : Prop :=
  (∀ a x, ((![v1753] : Fin 1 → IVec S16 32) a x).toNat < S272.size a)
instance k0_chk804.dec : ∀ (v1753 : IVec S16 32), Decidable (k0_chk804 v1753) := fun v1753 => decidable_of_iff' _ (Iff.of_eq (k0_chk804.eq_1 v1753))
theorem k0_idx804_inb : ∀ (v1753 : IVec S16 32) (k0_hw804 : k0_chk804 v1753), ∀ a x, ((![v1753] : Fin 1 → IVec S16 32) a x).toNat < S272.size a := fun v1753 k0_hw804 => k0_hw804
def k0_off58 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c160_i32_597 : BitVec 32 := 160#32
  let v1757 : BitVec 32 := Scalar.addi v648 c160_i32_597
  let v1758 : Index := Scalar.indexCast v1757
  ![v1758.toNat]

def k0_chk805 (v1762 : IVec S16 32) (v1764 : IVec S16 32) : Prop :=
  (∀ a x, ((![v1762, v1764] : Fin 2 → IVec S16 32) a x).toNat < S128x200.size a)
instance k0_chk805.dec : ∀ (v1762 : IVec S16 32) (v1764 : IVec S16 32), Decidable (k0_chk805 v1762 v1764) := fun v1762 v1764 => decidable_of_iff' _ (Iff.of_eq (k0_chk805.eq_1 v1762 v1764))
theorem k0_idx805_inb : ∀ (v1762 : IVec S16 32) (v1764 : IVec S16 32) (k0_hw805 : k0_chk805 v1762 v1764), ∀ a x, ((![v1762, v1764] : Fin 2 → IVec S16 32) a x).toNat < S128x200.size a := fun v1762 v1764 k0_hw805 => k0_hw805

def k0_chk806 (v1762 : IVec S16 32) (v1769 : IVec S16 32) : Prop :=
  (∀ a x, ((![v1762, v1769] : Fin 2 → IVec S16 32) a x).toNat < S128x200.size a)
instance k0_chk806.dec : ∀ (v1762 : IVec S16 32) (v1769 : IVec S16 32), Decidable (k0_chk806 v1762 v1769) := fun v1762 v1769 => decidable_of_iff' _ (Iff.of_eq (k0_chk806.eq_1 v1762 v1769))
theorem k0_idx806_inb : ∀ (v1762 : IVec S16 32) (v1769 : IVec S16 32) (k0_hw806 : k0_chk806 v1762 v1769), ∀ a x, ((![v1762, v1769] : Fin 2 → IVec S16 32) a x).toNat < S128x200.size a := fun v1762 v1769 k0_hw806 => k0_hw806

def k0_chk807 (v1762 : IVec S16 32) (v1774 : IVec S16 32) : Prop :=
  (∀ a x, ((![v1762, v1774] : Fin 2 → IVec S16 32) a x).toNat < S128x200.size a)
instance k0_chk807.dec : ∀ (v1762 : IVec S16 32) (v1774 : IVec S16 32), Decidable (k0_chk807 v1762 v1774) := fun v1762 v1774 => decidable_of_iff' _ (Iff.of_eq (k0_chk807.eq_1 v1762 v1774))
theorem k0_idx807_inb : ∀ (v1762 : IVec S16 32) (v1774 : IVec S16 32) (k0_hw807 : k0_chk807 v1762 v1774), ∀ a x, ((![v1762, v1774] : Fin 2 → IVec S16 32) a x).toNat < S128x200.size a := fun v1762 v1774 k0_hw807 => k0_hw807

def k0_chk808 (v1762 : IVec S16 32) (v1779 : IVec S16 32) : Prop :=
  (∀ a x, ((![v1762, v1779] : Fin 2 → IVec S16 32) a x).toNat < S128x200.size a)
instance k0_chk808.dec : ∀ (v1762 : IVec S16 32) (v1779 : IVec S16 32), Decidable (k0_chk808 v1762 v1779) := fun v1762 v1779 => decidable_of_iff' _ (Iff.of_eq (k0_chk808.eq_1 v1762 v1779))
theorem k0_idx808_inb : ∀ (v1762 : IVec S16 32) (v1779 : IVec S16 32) (k0_hw808 : k0_chk808 v1762 v1779), ∀ a x, ((![v1762, v1779] : Fin 2 → IVec S16 32) a x).toNat < S128x200.size a := fun v1762 v1779 k0_hw808 => k0_hw808

def k0_chk809 (v1789 : IVec S16 32) : Prop :=
  (∀ a x, ((![v1789] : Fin 1 → IVec S16 32) a x).toNat < S4096.size a)
instance k0_chk809.dec : ∀ (v1789 : IVec S16 32), Decidable (k0_chk809 v1789) := fun v1789 => decidable_of_iff' _ (Iff.of_eq (k0_chk809.eq_1 v1789))
theorem k0_idx809_inb : ∀ (v1789 : IVec S16 32) (k0_hw809 : k0_chk809 v1789), ∀ a x, ((![v1789] : Fin 1 → IVec S16 32) a x).toNat < S4096.size a := fun v1789 k0_hw809 => k0_hw809

def k0_chk810 (v1762 : IVec S16 32) (v1792 : IVec S16 32) : Prop :=
  (∀ a x, ((![v1762, v1792] : Fin 2 → IVec S16 32) a x).toNat < S128x200.size a)
instance k0_chk810.dec : ∀ (v1762 : IVec S16 32) (v1792 : IVec S16 32), Decidable (k0_chk810 v1762 v1792) := fun v1762 v1792 => decidable_of_iff' _ (Iff.of_eq (k0_chk810.eq_1 v1762 v1792))
theorem k0_idx810_inb : ∀ (v1762 : IVec S16 32) (v1792 : IVec S16 32) (k0_hw810 : k0_chk810 v1762 v1792), ∀ a x, ((![v1762, v1792] : Fin 2 → IVec S16 32) a x).toNat < S128x200.size a := fun v1762 v1792 k0_hw810 => k0_hw810

def k0_chk811 (v1762 : IVec S16 32) (v1797 : IVec S16 32) : Prop :=
  (∀ a x, ((![v1762, v1797] : Fin 2 → IVec S16 32) a x).toNat < S128x200.size a)
instance k0_chk811.dec : ∀ (v1762 : IVec S16 32) (v1797 : IVec S16 32), Decidable (k0_chk811 v1762 v1797) := fun v1762 v1797 => decidable_of_iff' _ (Iff.of_eq (k0_chk811.eq_1 v1762 v1797))
theorem k0_idx811_inb : ∀ (v1762 : IVec S16 32) (v1797 : IVec S16 32) (k0_hw811 : k0_chk811 v1762 v1797), ∀ a x, ((![v1762, v1797] : Fin 2 → IVec S16 32) a x).toNat < S128x200.size a := fun v1762 v1797 k0_hw811 => k0_hw811

def k0_chk812 (v1762 : IVec S16 32) (v1802 : IVec S16 32) : Prop :=
  (∀ a x, ((![v1762, v1802] : Fin 2 → IVec S16 32) a x).toNat < S128x200.size a)
instance k0_chk812.dec : ∀ (v1762 : IVec S16 32) (v1802 : IVec S16 32), Decidable (k0_chk812 v1762 v1802) := fun v1762 v1802 => decidable_of_iff' _ (Iff.of_eq (k0_chk812.eq_1 v1762 v1802))
theorem k0_idx812_inb : ∀ (v1762 : IVec S16 32) (v1802 : IVec S16 32) (k0_hw812 : k0_chk812 v1762 v1802), ∀ a x, ((![v1762, v1802] : Fin 2 → IVec S16 32) a x).toNat < S128x200.size a := fun v1762 v1802 k0_hw812 => k0_hw812

def k0_chk813 (v1762 : IVec S16 32) (v1807 : IVec S16 32) : Prop :=
  (∀ a x, ((![v1762, v1807] : Fin 2 → IVec S16 32) a x).toNat < S128x200.size a)
instance k0_chk813.dec : ∀ (v1762 : IVec S16 32) (v1807 : IVec S16 32), Decidable (k0_chk813 v1762 v1807) := fun v1762 v1807 => decidable_of_iff' _ (Iff.of_eq (k0_chk813.eq_1 v1762 v1807))
theorem k0_idx813_inb : ∀ (v1762 : IVec S16 32) (v1807 : IVec S16 32) (k0_hw813 : k0_chk813 v1762 v1807), ∀ a x, ((![v1762, v1807] : Fin 2 → IVec S16 32) a x).toNat < S128x200.size a := fun v1762 v1807 k0_hw813 => k0_hw813

def k0_chk814 (v1817 : IVec S16 32) : Prop :=
  (∀ a x, ((![v1817] : Fin 1 → IVec S16 32) a x).toNat < S4096.size a)
instance k0_chk814.dec : ∀ (v1817 : IVec S16 32), Decidable (k0_chk814 v1817) := fun v1817 => decidable_of_iff' _ (Iff.of_eq (k0_chk814.eq_1 v1817))
theorem k0_idx814_inb : ∀ (v1817 : IVec S16 32) (k0_hw814 : k0_chk814 v1817), ∀ a x, ((![v1817] : Fin 1 → IVec S16 32) a x).toNat < S4096.size a := fun v1817 k0_hw814 => k0_hw814

def k0_chk815 (v1762 : IVec S16 32) (v1821 : IVec S16 32) : Prop :=
  (∀ a x, ((![v1762, v1821] : Fin 2 → IVec S16 32) a x).toNat < S128x200.size a)
instance k0_chk815.dec : ∀ (v1762 : IVec S16 32) (v1821 : IVec S16 32), Decidable (k0_chk815 v1762 v1821) := fun v1762 v1821 => decidable_of_iff' _ (Iff.of_eq (k0_chk815.eq_1 v1762 v1821))
theorem k0_idx815_inb : ∀ (v1762 : IVec S16 32) (v1821 : IVec S16 32) (k0_hw815 : k0_chk815 v1762 v1821), ∀ a x, ((![v1762, v1821] : Fin 2 → IVec S16 32) a x).toNat < S128x200.size a := fun v1762 v1821 k0_hw815 => k0_hw815

def k0_chk816 (v1762 : IVec S16 32) (v1826 : IVec S16 32) : Prop :=
  (∀ a x, ((![v1762, v1826] : Fin 2 → IVec S16 32) a x).toNat < S128x200.size a)
instance k0_chk816.dec : ∀ (v1762 : IVec S16 32) (v1826 : IVec S16 32), Decidable (k0_chk816 v1762 v1826) := fun v1762 v1826 => decidable_of_iff' _ (Iff.of_eq (k0_chk816.eq_1 v1762 v1826))
theorem k0_idx816_inb : ∀ (v1762 : IVec S16 32) (v1826 : IVec S16 32) (k0_hw816 : k0_chk816 v1762 v1826), ∀ a x, ((![v1762, v1826] : Fin 2 → IVec S16 32) a x).toNat < S128x200.size a := fun v1762 v1826 k0_hw816 => k0_hw816

def k0_chk817 (v1762 : IVec S16 32) (v1831 : IVec S16 32) : Prop :=
  (∀ a x, ((![v1762, v1831] : Fin 2 → IVec S16 32) a x).toNat < S128x200.size a)
instance k0_chk817.dec : ∀ (v1762 : IVec S16 32) (v1831 : IVec S16 32), Decidable (k0_chk817 v1762 v1831) := fun v1762 v1831 => decidable_of_iff' _ (Iff.of_eq (k0_chk817.eq_1 v1762 v1831))
theorem k0_idx817_inb : ∀ (v1762 : IVec S16 32) (v1831 : IVec S16 32) (k0_hw817 : k0_chk817 v1762 v1831), ∀ a x, ((![v1762, v1831] : Fin 2 → IVec S16 32) a x).toNat < S128x200.size a := fun v1762 v1831 k0_hw817 => k0_hw817

def k0_chk818 (v1762 : IVec S16 32) (v1836 : IVec S16 32) : Prop :=
  (∀ a x, ((![v1762, v1836] : Fin 2 → IVec S16 32) a x).toNat < S128x200.size a)
instance k0_chk818.dec : ∀ (v1762 : IVec S16 32) (v1836 : IVec S16 32), Decidable (k0_chk818 v1762 v1836) := fun v1762 v1836 => decidable_of_iff' _ (Iff.of_eq (k0_chk818.eq_1 v1762 v1836))
theorem k0_idx818_inb : ∀ (v1762 : IVec S16 32) (v1836 : IVec S16 32) (k0_hw818 : k0_chk818 v1762 v1836), ∀ a x, ((![v1762, v1836] : Fin 2 → IVec S16 32) a x).toNat < S128x200.size a := fun v1762 v1836 k0_hw818 => k0_hw818

def k0_chk819 (v1846 : IVec S16 32) : Prop :=
  (∀ a x, ((![v1846] : Fin 1 → IVec S16 32) a x).toNat < S4096.size a)
instance k0_chk819.dec : ∀ (v1846 : IVec S16 32), Decidable (k0_chk819 v1846) := fun v1846 => decidable_of_iff' _ (Iff.of_eq (k0_chk819.eq_1 v1846))
theorem k0_idx819_inb : ∀ (v1846 : IVec S16 32) (k0_hw819 : k0_chk819 v1846), ∀ a x, ((![v1846] : Fin 1 → IVec S16 32) a x).toNat < S4096.size a := fun v1846 k0_hw819 => k0_hw819

def k0_chk820 (v1762 : IVec S16 32) (v1850 : IVec S16 32) : Prop :=
  (∀ a x, ((![v1762, v1850] : Fin 2 → IVec S16 32) a x).toNat < S128x200.size a)
instance k0_chk820.dec : ∀ (v1762 : IVec S16 32) (v1850 : IVec S16 32), Decidable (k0_chk820 v1762 v1850) := fun v1762 v1850 => decidable_of_iff' _ (Iff.of_eq (k0_chk820.eq_1 v1762 v1850))
theorem k0_idx820_inb : ∀ (v1762 : IVec S16 32) (v1850 : IVec S16 32) (k0_hw820 : k0_chk820 v1762 v1850), ∀ a x, ((![v1762, v1850] : Fin 2 → IVec S16 32) a x).toNat < S128x200.size a := fun v1762 v1850 k0_hw820 => k0_hw820

def k0_chk821 (v1854 : IVec S16 32) : Prop :=
  (∀ a x, ((![v1854] : Fin 1 → IVec S16 32) a x).toNat < S272.size a)
instance k0_chk821.dec : ∀ (v1854 : IVec S16 32), Decidable (k0_chk821 v1854) := fun v1854 => decidable_of_iff' _ (Iff.of_eq (k0_chk821.eq_1 v1854))
theorem k0_idx821_inb : ∀ (v1854 : IVec S16 32) (k0_hw821 : k0_chk821 v1854), ∀ a x, ((![v1854] : Fin 1 → IVec S16 32) a x).toNat < S272.size a := fun v1854 k0_hw821 => k0_hw821
def k0_off59 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c176_i32_631 : BitVec 32 := 176#32
  let v1858 : BitVec 32 := Scalar.addi v648 c176_i32_631
  let v1859 : Index := Scalar.indexCast v1858
  ![v1859.toNat]

def k0_chk822 (v1863 : IVec S16 32) (v1865 : IVec S16 32) : Prop :=
  (∀ a x, ((![v1863, v1865] : Fin 2 → IVec S16 32) a x).toNat < S128x200.size a)
instance k0_chk822.dec : ∀ (v1863 : IVec S16 32) (v1865 : IVec S16 32), Decidable (k0_chk822 v1863 v1865) := fun v1863 v1865 => decidable_of_iff' _ (Iff.of_eq (k0_chk822.eq_1 v1863 v1865))
theorem k0_idx822_inb : ∀ (v1863 : IVec S16 32) (v1865 : IVec S16 32) (k0_hw822 : k0_chk822 v1863 v1865), ∀ a x, ((![v1863, v1865] : Fin 2 → IVec S16 32) a x).toNat < S128x200.size a := fun v1863 v1865 k0_hw822 => k0_hw822

def k0_chk823 (v1863 : IVec S16 32) (v1870 : IVec S16 32) : Prop :=
  (∀ a x, ((![v1863, v1870] : Fin 2 → IVec S16 32) a x).toNat < S128x200.size a)
instance k0_chk823.dec : ∀ (v1863 : IVec S16 32) (v1870 : IVec S16 32), Decidable (k0_chk823 v1863 v1870) := fun v1863 v1870 => decidable_of_iff' _ (Iff.of_eq (k0_chk823.eq_1 v1863 v1870))
theorem k0_idx823_inb : ∀ (v1863 : IVec S16 32) (v1870 : IVec S16 32) (k0_hw823 : k0_chk823 v1863 v1870), ∀ a x, ((![v1863, v1870] : Fin 2 → IVec S16 32) a x).toNat < S128x200.size a := fun v1863 v1870 k0_hw823 => k0_hw823

def k0_chk824 (v1863 : IVec S16 32) (v1875 : IVec S16 32) : Prop :=
  (∀ a x, ((![v1863, v1875] : Fin 2 → IVec S16 32) a x).toNat < S128x200.size a)
instance k0_chk824.dec : ∀ (v1863 : IVec S16 32) (v1875 : IVec S16 32), Decidable (k0_chk824 v1863 v1875) := fun v1863 v1875 => decidable_of_iff' _ (Iff.of_eq (k0_chk824.eq_1 v1863 v1875))
theorem k0_idx824_inb : ∀ (v1863 : IVec S16 32) (v1875 : IVec S16 32) (k0_hw824 : k0_chk824 v1863 v1875), ∀ a x, ((![v1863, v1875] : Fin 2 → IVec S16 32) a x).toNat < S128x200.size a := fun v1863 v1875 k0_hw824 => k0_hw824

def k0_chk825 (v1863 : IVec S16 32) (v1880 : IVec S16 32) : Prop :=
  (∀ a x, ((![v1863, v1880] : Fin 2 → IVec S16 32) a x).toNat < S128x200.size a)
instance k0_chk825.dec : ∀ (v1863 : IVec S16 32) (v1880 : IVec S16 32), Decidable (k0_chk825 v1863 v1880) := fun v1863 v1880 => decidable_of_iff' _ (Iff.of_eq (k0_chk825.eq_1 v1863 v1880))
theorem k0_idx825_inb : ∀ (v1863 : IVec S16 32) (v1880 : IVec S16 32) (k0_hw825 : k0_chk825 v1863 v1880), ∀ a x, ((![v1863, v1880] : Fin 2 → IVec S16 32) a x).toNat < S128x200.size a := fun v1863 v1880 k0_hw825 => k0_hw825

def k0_chk826 (v1890 : IVec S16 32) : Prop :=
  (∀ a x, ((![v1890] : Fin 1 → IVec S16 32) a x).toNat < S4096.size a)
instance k0_chk826.dec : ∀ (v1890 : IVec S16 32), Decidable (k0_chk826 v1890) := fun v1890 => decidable_of_iff' _ (Iff.of_eq (k0_chk826.eq_1 v1890))
theorem k0_idx826_inb : ∀ (v1890 : IVec S16 32) (k0_hw826 : k0_chk826 v1890), ∀ a x, ((![v1890] : Fin 1 → IVec S16 32) a x).toNat < S4096.size a := fun v1890 k0_hw826 => k0_hw826

def k0_chk827 (v1863 : IVec S16 32) (v1893 : IVec S16 32) : Prop :=
  (∀ a x, ((![v1863, v1893] : Fin 2 → IVec S16 32) a x).toNat < S128x200.size a)
instance k0_chk827.dec : ∀ (v1863 : IVec S16 32) (v1893 : IVec S16 32), Decidable (k0_chk827 v1863 v1893) := fun v1863 v1893 => decidable_of_iff' _ (Iff.of_eq (k0_chk827.eq_1 v1863 v1893))
theorem k0_idx827_inb : ∀ (v1863 : IVec S16 32) (v1893 : IVec S16 32) (k0_hw827 : k0_chk827 v1863 v1893), ∀ a x, ((![v1863, v1893] : Fin 2 → IVec S16 32) a x).toNat < S128x200.size a := fun v1863 v1893 k0_hw827 => k0_hw827

def k0_chk828 (v1863 : IVec S16 32) (v1898 : IVec S16 32) : Prop :=
  (∀ a x, ((![v1863, v1898] : Fin 2 → IVec S16 32) a x).toNat < S128x200.size a)
instance k0_chk828.dec : ∀ (v1863 : IVec S16 32) (v1898 : IVec S16 32), Decidable (k0_chk828 v1863 v1898) := fun v1863 v1898 => decidable_of_iff' _ (Iff.of_eq (k0_chk828.eq_1 v1863 v1898))
theorem k0_idx828_inb : ∀ (v1863 : IVec S16 32) (v1898 : IVec S16 32) (k0_hw828 : k0_chk828 v1863 v1898), ∀ a x, ((![v1863, v1898] : Fin 2 → IVec S16 32) a x).toNat < S128x200.size a := fun v1863 v1898 k0_hw828 => k0_hw828

def k0_chk829 (v1863 : IVec S16 32) (v1903 : IVec S16 32) : Prop :=
  (∀ a x, ((![v1863, v1903] : Fin 2 → IVec S16 32) a x).toNat < S128x200.size a)
instance k0_chk829.dec : ∀ (v1863 : IVec S16 32) (v1903 : IVec S16 32), Decidable (k0_chk829 v1863 v1903) := fun v1863 v1903 => decidable_of_iff' _ (Iff.of_eq (k0_chk829.eq_1 v1863 v1903))
theorem k0_idx829_inb : ∀ (v1863 : IVec S16 32) (v1903 : IVec S16 32) (k0_hw829 : k0_chk829 v1863 v1903), ∀ a x, ((![v1863, v1903] : Fin 2 → IVec S16 32) a x).toNat < S128x200.size a := fun v1863 v1903 k0_hw829 => k0_hw829

def k0_chk830 (v1863 : IVec S16 32) (v1908 : IVec S16 32) : Prop :=
  (∀ a x, ((![v1863, v1908] : Fin 2 → IVec S16 32) a x).toNat < S128x200.size a)
instance k0_chk830.dec : ∀ (v1863 : IVec S16 32) (v1908 : IVec S16 32), Decidable (k0_chk830 v1863 v1908) := fun v1863 v1908 => decidable_of_iff' _ (Iff.of_eq (k0_chk830.eq_1 v1863 v1908))
theorem k0_idx830_inb : ∀ (v1863 : IVec S16 32) (v1908 : IVec S16 32) (k0_hw830 : k0_chk830 v1863 v1908), ∀ a x, ((![v1863, v1908] : Fin 2 → IVec S16 32) a x).toNat < S128x200.size a := fun v1863 v1908 k0_hw830 => k0_hw830

def k0_chk831 (v1918 : IVec S16 32) : Prop :=
  (∀ a x, ((![v1918] : Fin 1 → IVec S16 32) a x).toNat < S4096.size a)
instance k0_chk831.dec : ∀ (v1918 : IVec S16 32), Decidable (k0_chk831 v1918) := fun v1918 => decidable_of_iff' _ (Iff.of_eq (k0_chk831.eq_1 v1918))
theorem k0_idx831_inb : ∀ (v1918 : IVec S16 32) (k0_hw831 : k0_chk831 v1918), ∀ a x, ((![v1918] : Fin 1 → IVec S16 32) a x).toNat < S4096.size a := fun v1918 k0_hw831 => k0_hw831

def k0_chk832 (v1863 : IVec S16 32) (v1922 : IVec S16 32) : Prop :=
  (∀ a x, ((![v1863, v1922] : Fin 2 → IVec S16 32) a x).toNat < S128x200.size a)
instance k0_chk832.dec : ∀ (v1863 : IVec S16 32) (v1922 : IVec S16 32), Decidable (k0_chk832 v1863 v1922) := fun v1863 v1922 => decidable_of_iff' _ (Iff.of_eq (k0_chk832.eq_1 v1863 v1922))
theorem k0_idx832_inb : ∀ (v1863 : IVec S16 32) (v1922 : IVec S16 32) (k0_hw832 : k0_chk832 v1863 v1922), ∀ a x, ((![v1863, v1922] : Fin 2 → IVec S16 32) a x).toNat < S128x200.size a := fun v1863 v1922 k0_hw832 => k0_hw832

def k0_chk833 (v1863 : IVec S16 32) (v1927 : IVec S16 32) : Prop :=
  (∀ a x, ((![v1863, v1927] : Fin 2 → IVec S16 32) a x).toNat < S128x200.size a)
instance k0_chk833.dec : ∀ (v1863 : IVec S16 32) (v1927 : IVec S16 32), Decidable (k0_chk833 v1863 v1927) := fun v1863 v1927 => decidable_of_iff' _ (Iff.of_eq (k0_chk833.eq_1 v1863 v1927))
theorem k0_idx833_inb : ∀ (v1863 : IVec S16 32) (v1927 : IVec S16 32) (k0_hw833 : k0_chk833 v1863 v1927), ∀ a x, ((![v1863, v1927] : Fin 2 → IVec S16 32) a x).toNat < S128x200.size a := fun v1863 v1927 k0_hw833 => k0_hw833

def k0_chk834 (v1863 : IVec S16 32) (v1932 : IVec S16 32) : Prop :=
  (∀ a x, ((![v1863, v1932] : Fin 2 → IVec S16 32) a x).toNat < S128x200.size a)
instance k0_chk834.dec : ∀ (v1863 : IVec S16 32) (v1932 : IVec S16 32), Decidable (k0_chk834 v1863 v1932) := fun v1863 v1932 => decidable_of_iff' _ (Iff.of_eq (k0_chk834.eq_1 v1863 v1932))
theorem k0_idx834_inb : ∀ (v1863 : IVec S16 32) (v1932 : IVec S16 32) (k0_hw834 : k0_chk834 v1863 v1932), ∀ a x, ((![v1863, v1932] : Fin 2 → IVec S16 32) a x).toNat < S128x200.size a := fun v1863 v1932 k0_hw834 => k0_hw834

def k0_chk835 (v1863 : IVec S16 32) (v1937 : IVec S16 32) : Prop :=
  (∀ a x, ((![v1863, v1937] : Fin 2 → IVec S16 32) a x).toNat < S128x200.size a)
instance k0_chk835.dec : ∀ (v1863 : IVec S16 32) (v1937 : IVec S16 32), Decidable (k0_chk835 v1863 v1937) := fun v1863 v1937 => decidable_of_iff' _ (Iff.of_eq (k0_chk835.eq_1 v1863 v1937))
theorem k0_idx835_inb : ∀ (v1863 : IVec S16 32) (v1937 : IVec S16 32) (k0_hw835 : k0_chk835 v1863 v1937), ∀ a x, ((![v1863, v1937] : Fin 2 → IVec S16 32) a x).toNat < S128x200.size a := fun v1863 v1937 k0_hw835 => k0_hw835

def k0_chk836 (v1947 : IVec S16 32) : Prop :=
  (∀ a x, ((![v1947] : Fin 1 → IVec S16 32) a x).toNat < S4096.size a)
instance k0_chk836.dec : ∀ (v1947 : IVec S16 32), Decidable (k0_chk836 v1947) := fun v1947 => decidable_of_iff' _ (Iff.of_eq (k0_chk836.eq_1 v1947))
theorem k0_idx836_inb : ∀ (v1947 : IVec S16 32) (k0_hw836 : k0_chk836 v1947), ∀ a x, ((![v1947] : Fin 1 → IVec S16 32) a x).toNat < S4096.size a := fun v1947 k0_hw836 => k0_hw836

def k0_chk837 (v1863 : IVec S16 32) (v1951 : IVec S16 32) : Prop :=
  (∀ a x, ((![v1863, v1951] : Fin 2 → IVec S16 32) a x).toNat < S128x200.size a)
instance k0_chk837.dec : ∀ (v1863 : IVec S16 32) (v1951 : IVec S16 32), Decidable (k0_chk837 v1863 v1951) := fun v1863 v1951 => decidable_of_iff' _ (Iff.of_eq (k0_chk837.eq_1 v1863 v1951))
theorem k0_idx837_inb : ∀ (v1863 : IVec S16 32) (v1951 : IVec S16 32) (k0_hw837 : k0_chk837 v1863 v1951), ∀ a x, ((![v1863, v1951] : Fin 2 → IVec S16 32) a x).toNat < S128x200.size a := fun v1863 v1951 k0_hw837 => k0_hw837

def k0_chk838 (v1955 : IVec S16 32) : Prop :=
  (∀ a x, ((![v1955] : Fin 1 → IVec S16 32) a x).toNat < S272.size a)
instance k0_chk838.dec : ∀ (v1955 : IVec S16 32), Decidable (k0_chk838 v1955) := fun v1955 => decidable_of_iff' _ (Iff.of_eq (k0_chk838.eq_1 v1955))
theorem k0_idx838_inb : ∀ (v1955 : IVec S16 32) (k0_hw838 : k0_chk838 v1955), ∀ a x, ((![v1955] : Fin 1 → IVec S16 32) a x).toNat < S272.size a := fun v1955 k0_hw838 => k0_hw838
def k0_off60 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c192_i32_665 : BitVec 32 := 192#32
  let v1959 : BitVec 32 := Scalar.addi v648 c192_i32_665
  let v1960 : Index := Scalar.indexCast v1959
  ![v1960.toNat]

def k0_chk839 (v1964 : IVec S16 32) (v1966 : IVec S16 32) : Prop :=
  (∀ a x, ((![v1964, v1966] : Fin 2 → IVec S16 32) a x).toNat < S128x200.size a)
instance k0_chk839.dec : ∀ (v1964 : IVec S16 32) (v1966 : IVec S16 32), Decidable (k0_chk839 v1964 v1966) := fun v1964 v1966 => decidable_of_iff' _ (Iff.of_eq (k0_chk839.eq_1 v1964 v1966))
theorem k0_idx839_inb : ∀ (v1964 : IVec S16 32) (v1966 : IVec S16 32) (k0_hw839 : k0_chk839 v1964 v1966), ∀ a x, ((![v1964, v1966] : Fin 2 → IVec S16 32) a x).toNat < S128x200.size a := fun v1964 v1966 k0_hw839 => k0_hw839

def k0_chk840 (v1964 : IVec S16 32) (v1971 : IVec S16 32) : Prop :=
  (∀ a x, ((![v1964, v1971] : Fin 2 → IVec S16 32) a x).toNat < S128x200.size a)
instance k0_chk840.dec : ∀ (v1964 : IVec S16 32) (v1971 : IVec S16 32), Decidable (k0_chk840 v1964 v1971) := fun v1964 v1971 => decidable_of_iff' _ (Iff.of_eq (k0_chk840.eq_1 v1964 v1971))
theorem k0_idx840_inb : ∀ (v1964 : IVec S16 32) (v1971 : IVec S16 32) (k0_hw840 : k0_chk840 v1964 v1971), ∀ a x, ((![v1964, v1971] : Fin 2 → IVec S16 32) a x).toNat < S128x200.size a := fun v1964 v1971 k0_hw840 => k0_hw840

def k0_chk841 (v1964 : IVec S16 32) (v1976 : IVec S16 32) : Prop :=
  (∀ a x, ((![v1964, v1976] : Fin 2 → IVec S16 32) a x).toNat < S128x200.size a)
instance k0_chk841.dec : ∀ (v1964 : IVec S16 32) (v1976 : IVec S16 32), Decidable (k0_chk841 v1964 v1976) := fun v1964 v1976 => decidable_of_iff' _ (Iff.of_eq (k0_chk841.eq_1 v1964 v1976))
theorem k0_idx841_inb : ∀ (v1964 : IVec S16 32) (v1976 : IVec S16 32) (k0_hw841 : k0_chk841 v1964 v1976), ∀ a x, ((![v1964, v1976] : Fin 2 → IVec S16 32) a x).toNat < S128x200.size a := fun v1964 v1976 k0_hw841 => k0_hw841

def k0_chk842 (v1964 : IVec S16 32) (v1981 : IVec S16 32) : Prop :=
  (∀ a x, ((![v1964, v1981] : Fin 2 → IVec S16 32) a x).toNat < S128x200.size a)
instance k0_chk842.dec : ∀ (v1964 : IVec S16 32) (v1981 : IVec S16 32), Decidable (k0_chk842 v1964 v1981) := fun v1964 v1981 => decidable_of_iff' _ (Iff.of_eq (k0_chk842.eq_1 v1964 v1981))
theorem k0_idx842_inb : ∀ (v1964 : IVec S16 32) (v1981 : IVec S16 32) (k0_hw842 : k0_chk842 v1964 v1981), ∀ a x, ((![v1964, v1981] : Fin 2 → IVec S16 32) a x).toNat < S128x200.size a := fun v1964 v1981 k0_hw842 => k0_hw842

def k0_chk843 (v1991 : IVec S16 32) : Prop :=
  (∀ a x, ((![v1991] : Fin 1 → IVec S16 32) a x).toNat < S4096.size a)
instance k0_chk843.dec : ∀ (v1991 : IVec S16 32), Decidable (k0_chk843 v1991) := fun v1991 => decidable_of_iff' _ (Iff.of_eq (k0_chk843.eq_1 v1991))
theorem k0_idx843_inb : ∀ (v1991 : IVec S16 32) (k0_hw843 : k0_chk843 v1991), ∀ a x, ((![v1991] : Fin 1 → IVec S16 32) a x).toNat < S4096.size a := fun v1991 k0_hw843 => k0_hw843

def k0_chk844 (v1964 : IVec S16 32) (v1994 : IVec S16 32) : Prop :=
  (∀ a x, ((![v1964, v1994] : Fin 2 → IVec S16 32) a x).toNat < S128x200.size a)
instance k0_chk844.dec : ∀ (v1964 : IVec S16 32) (v1994 : IVec S16 32), Decidable (k0_chk844 v1964 v1994) := fun v1964 v1994 => decidable_of_iff' _ (Iff.of_eq (k0_chk844.eq_1 v1964 v1994))
theorem k0_idx844_inb : ∀ (v1964 : IVec S16 32) (v1994 : IVec S16 32) (k0_hw844 : k0_chk844 v1964 v1994), ∀ a x, ((![v1964, v1994] : Fin 2 → IVec S16 32) a x).toNat < S128x200.size a := fun v1964 v1994 k0_hw844 => k0_hw844

def k0_chk845 (v1964 : IVec S16 32) (v1999 : IVec S16 32) : Prop :=
  (∀ a x, ((![v1964, v1999] : Fin 2 → IVec S16 32) a x).toNat < S128x200.size a)
instance k0_chk845.dec : ∀ (v1964 : IVec S16 32) (v1999 : IVec S16 32), Decidable (k0_chk845 v1964 v1999) := fun v1964 v1999 => decidable_of_iff' _ (Iff.of_eq (k0_chk845.eq_1 v1964 v1999))
theorem k0_idx845_inb : ∀ (v1964 : IVec S16 32) (v1999 : IVec S16 32) (k0_hw845 : k0_chk845 v1964 v1999), ∀ a x, ((![v1964, v1999] : Fin 2 → IVec S16 32) a x).toNat < S128x200.size a := fun v1964 v1999 k0_hw845 => k0_hw845

def k0_chk846 (v1964 : IVec S16 32) (v2004 : IVec S16 32) : Prop :=
  (∀ a x, ((![v1964, v2004] : Fin 2 → IVec S16 32) a x).toNat < S128x200.size a)
instance k0_chk846.dec : ∀ (v1964 : IVec S16 32) (v2004 : IVec S16 32), Decidable (k0_chk846 v1964 v2004) := fun v1964 v2004 => decidable_of_iff' _ (Iff.of_eq (k0_chk846.eq_1 v1964 v2004))
theorem k0_idx846_inb : ∀ (v1964 : IVec S16 32) (v2004 : IVec S16 32) (k0_hw846 : k0_chk846 v1964 v2004), ∀ a x, ((![v1964, v2004] : Fin 2 → IVec S16 32) a x).toNat < S128x200.size a := fun v1964 v2004 k0_hw846 => k0_hw846

def k0_chk847 (v1964 : IVec S16 32) (v2009 : IVec S16 32) : Prop :=
  (∀ a x, ((![v1964, v2009] : Fin 2 → IVec S16 32) a x).toNat < S128x200.size a)
instance k0_chk847.dec : ∀ (v1964 : IVec S16 32) (v2009 : IVec S16 32), Decidable (k0_chk847 v1964 v2009) := fun v1964 v2009 => decidable_of_iff' _ (Iff.of_eq (k0_chk847.eq_1 v1964 v2009))
theorem k0_idx847_inb : ∀ (v1964 : IVec S16 32) (v2009 : IVec S16 32) (k0_hw847 : k0_chk847 v1964 v2009), ∀ a x, ((![v1964, v2009] : Fin 2 → IVec S16 32) a x).toNat < S128x200.size a := fun v1964 v2009 k0_hw847 => k0_hw847

def k0_chk848 (v2019 : IVec S16 32) : Prop :=
  (∀ a x, ((![v2019] : Fin 1 → IVec S16 32) a x).toNat < S4096.size a)
instance k0_chk848.dec : ∀ (v2019 : IVec S16 32), Decidable (k0_chk848 v2019) := fun v2019 => decidable_of_iff' _ (Iff.of_eq (k0_chk848.eq_1 v2019))
theorem k0_idx848_inb : ∀ (v2019 : IVec S16 32) (k0_hw848 : k0_chk848 v2019), ∀ a x, ((![v2019] : Fin 1 → IVec S16 32) a x).toNat < S4096.size a := fun v2019 k0_hw848 => k0_hw848

def k0_chk849 (v1964 : IVec S16 32) (v2023 : IVec S16 32) : Prop :=
  (∀ a x, ((![v1964, v2023] : Fin 2 → IVec S16 32) a x).toNat < S128x200.size a)
instance k0_chk849.dec : ∀ (v1964 : IVec S16 32) (v2023 : IVec S16 32), Decidable (k0_chk849 v1964 v2023) := fun v1964 v2023 => decidable_of_iff' _ (Iff.of_eq (k0_chk849.eq_1 v1964 v2023))
theorem k0_idx849_inb : ∀ (v1964 : IVec S16 32) (v2023 : IVec S16 32) (k0_hw849 : k0_chk849 v1964 v2023), ∀ a x, ((![v1964, v2023] : Fin 2 → IVec S16 32) a x).toNat < S128x200.size a := fun v1964 v2023 k0_hw849 => k0_hw849

def k0_chk850 (v1964 : IVec S16 32) (v2028 : IVec S16 32) : Prop :=
  (∀ a x, ((![v1964, v2028] : Fin 2 → IVec S16 32) a x).toNat < S128x200.size a)
instance k0_chk850.dec : ∀ (v1964 : IVec S16 32) (v2028 : IVec S16 32), Decidable (k0_chk850 v1964 v2028) := fun v1964 v2028 => decidable_of_iff' _ (Iff.of_eq (k0_chk850.eq_1 v1964 v2028))
theorem k0_idx850_inb : ∀ (v1964 : IVec S16 32) (v2028 : IVec S16 32) (k0_hw850 : k0_chk850 v1964 v2028), ∀ a x, ((![v1964, v2028] : Fin 2 → IVec S16 32) a x).toNat < S128x200.size a := fun v1964 v2028 k0_hw850 => k0_hw850

def k0_chk851 (v1964 : IVec S16 32) (v2033 : IVec S16 32) : Prop :=
  (∀ a x, ((![v1964, v2033] : Fin 2 → IVec S16 32) a x).toNat < S128x200.size a)
instance k0_chk851.dec : ∀ (v1964 : IVec S16 32) (v2033 : IVec S16 32), Decidable (k0_chk851 v1964 v2033) := fun v1964 v2033 => decidable_of_iff' _ (Iff.of_eq (k0_chk851.eq_1 v1964 v2033))
theorem k0_idx851_inb : ∀ (v1964 : IVec S16 32) (v2033 : IVec S16 32) (k0_hw851 : k0_chk851 v1964 v2033), ∀ a x, ((![v1964, v2033] : Fin 2 → IVec S16 32) a x).toNat < S128x200.size a := fun v1964 v2033 k0_hw851 => k0_hw851

def k0_chk852 (v1964 : IVec S16 32) (v2038 : IVec S16 32) : Prop :=
  (∀ a x, ((![v1964, v2038] : Fin 2 → IVec S16 32) a x).toNat < S128x200.size a)
instance k0_chk852.dec : ∀ (v1964 : IVec S16 32) (v2038 : IVec S16 32), Decidable (k0_chk852 v1964 v2038) := fun v1964 v2038 => decidable_of_iff' _ (Iff.of_eq (k0_chk852.eq_1 v1964 v2038))
theorem k0_idx852_inb : ∀ (v1964 : IVec S16 32) (v2038 : IVec S16 32) (k0_hw852 : k0_chk852 v1964 v2038), ∀ a x, ((![v1964, v2038] : Fin 2 → IVec S16 32) a x).toNat < S128x200.size a := fun v1964 v2038 k0_hw852 => k0_hw852

def k0_chk853 (v2048 : IVec S16 32) : Prop :=
  (∀ a x, ((![v2048] : Fin 1 → IVec S16 32) a x).toNat < S4096.size a)
instance k0_chk853.dec : ∀ (v2048 : IVec S16 32), Decidable (k0_chk853 v2048) := fun v2048 => decidable_of_iff' _ (Iff.of_eq (k0_chk853.eq_1 v2048))
theorem k0_idx853_inb : ∀ (v2048 : IVec S16 32) (k0_hw853 : k0_chk853 v2048), ∀ a x, ((![v2048] : Fin 1 → IVec S16 32) a x).toNat < S4096.size a := fun v2048 k0_hw853 => k0_hw853

def k0_chk854 (v1964 : IVec S16 32) (v2052 : IVec S16 32) : Prop :=
  (∀ a x, ((![v1964, v2052] : Fin 2 → IVec S16 32) a x).toNat < S128x200.size a)
instance k0_chk854.dec : ∀ (v1964 : IVec S16 32) (v2052 : IVec S16 32), Decidable (k0_chk854 v1964 v2052) := fun v1964 v2052 => decidable_of_iff' _ (Iff.of_eq (k0_chk854.eq_1 v1964 v2052))
theorem k0_idx854_inb : ∀ (v1964 : IVec S16 32) (v2052 : IVec S16 32) (k0_hw854 : k0_chk854 v1964 v2052), ∀ a x, ((![v1964, v2052] : Fin 2 → IVec S16 32) a x).toNat < S128x200.size a := fun v1964 v2052 k0_hw854 => k0_hw854

def k0_chk855 (v2056 : IVec S16 32) : Prop :=
  (∀ a x, ((![v2056] : Fin 1 → IVec S16 32) a x).toNat < S272.size a)
instance k0_chk855.dec : ∀ (v2056 : IVec S16 32), Decidable (k0_chk855 v2056) := fun v2056 => decidable_of_iff' _ (Iff.of_eq (k0_chk855.eq_1 v2056))
theorem k0_idx855_inb : ∀ (v2056 : IVec S16 32) (k0_hw855 : k0_chk855 v2056), ∀ a x, ((![v2056] : Fin 1 → IVec S16 32) a x).toNat < S272.size a := fun v2056 k0_hw855 => k0_hw855
def k0_off61 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c208_i32_699 : BitVec 32 := 208#32
  let v2060 : BitVec 32 := Scalar.addi v648 c208_i32_699
  let v2061 : Index := Scalar.indexCast v2060
  ![v2061.toNat]

def k0_chk856 (v2065 : IVec S16 32) (v2067 : IVec S16 32) : Prop :=
  (∀ a x, ((![v2065, v2067] : Fin 2 → IVec S16 32) a x).toNat < S128x200.size a)
instance k0_chk856.dec : ∀ (v2065 : IVec S16 32) (v2067 : IVec S16 32), Decidable (k0_chk856 v2065 v2067) := fun v2065 v2067 => decidable_of_iff' _ (Iff.of_eq (k0_chk856.eq_1 v2065 v2067))
theorem k0_idx856_inb : ∀ (v2065 : IVec S16 32) (v2067 : IVec S16 32) (k0_hw856 : k0_chk856 v2065 v2067), ∀ a x, ((![v2065, v2067] : Fin 2 → IVec S16 32) a x).toNat < S128x200.size a := fun v2065 v2067 k0_hw856 => k0_hw856

def k0_chk857 (v2065 : IVec S16 32) (v2072 : IVec S16 32) : Prop :=
  (∀ a x, ((![v2065, v2072] : Fin 2 → IVec S16 32) a x).toNat < S128x200.size a)
instance k0_chk857.dec : ∀ (v2065 : IVec S16 32) (v2072 : IVec S16 32), Decidable (k0_chk857 v2065 v2072) := fun v2065 v2072 => decidable_of_iff' _ (Iff.of_eq (k0_chk857.eq_1 v2065 v2072))
theorem k0_idx857_inb : ∀ (v2065 : IVec S16 32) (v2072 : IVec S16 32) (k0_hw857 : k0_chk857 v2065 v2072), ∀ a x, ((![v2065, v2072] : Fin 2 → IVec S16 32) a x).toNat < S128x200.size a := fun v2065 v2072 k0_hw857 => k0_hw857

def k0_chk858 (v2065 : IVec S16 32) (v2077 : IVec S16 32) : Prop :=
  (∀ a x, ((![v2065, v2077] : Fin 2 → IVec S16 32) a x).toNat < S128x200.size a)
instance k0_chk858.dec : ∀ (v2065 : IVec S16 32) (v2077 : IVec S16 32), Decidable (k0_chk858 v2065 v2077) := fun v2065 v2077 => decidable_of_iff' _ (Iff.of_eq (k0_chk858.eq_1 v2065 v2077))
theorem k0_idx858_inb : ∀ (v2065 : IVec S16 32) (v2077 : IVec S16 32) (k0_hw858 : k0_chk858 v2065 v2077), ∀ a x, ((![v2065, v2077] : Fin 2 → IVec S16 32) a x).toNat < S128x200.size a := fun v2065 v2077 k0_hw858 => k0_hw858

def k0_chk859 (v2065 : IVec S16 32) (v2082 : IVec S16 32) : Prop :=
  (∀ a x, ((![v2065, v2082] : Fin 2 → IVec S16 32) a x).toNat < S128x200.size a)
instance k0_chk859.dec : ∀ (v2065 : IVec S16 32) (v2082 : IVec S16 32), Decidable (k0_chk859 v2065 v2082) := fun v2065 v2082 => decidable_of_iff' _ (Iff.of_eq (k0_chk859.eq_1 v2065 v2082))
theorem k0_idx859_inb : ∀ (v2065 : IVec S16 32) (v2082 : IVec S16 32) (k0_hw859 : k0_chk859 v2065 v2082), ∀ a x, ((![v2065, v2082] : Fin 2 → IVec S16 32) a x).toNat < S128x200.size a := fun v2065 v2082 k0_hw859 => k0_hw859

def k0_chk860 (v2092 : IVec S16 32) : Prop :=
  (∀ a x, ((![v2092] : Fin 1 → IVec S16 32) a x).toNat < S4096.size a)
instance k0_chk860.dec : ∀ (v2092 : IVec S16 32), Decidable (k0_chk860 v2092) := fun v2092 => decidable_of_iff' _ (Iff.of_eq (k0_chk860.eq_1 v2092))
theorem k0_idx860_inb : ∀ (v2092 : IVec S16 32) (k0_hw860 : k0_chk860 v2092), ∀ a x, ((![v2092] : Fin 1 → IVec S16 32) a x).toNat < S4096.size a := fun v2092 k0_hw860 => k0_hw860

def k0_chk861 (v2065 : IVec S16 32) (v2095 : IVec S16 32) : Prop :=
  (∀ a x, ((![v2065, v2095] : Fin 2 → IVec S16 32) a x).toNat < S128x200.size a)
instance k0_chk861.dec : ∀ (v2065 : IVec S16 32) (v2095 : IVec S16 32), Decidable (k0_chk861 v2065 v2095) := fun v2065 v2095 => decidable_of_iff' _ (Iff.of_eq (k0_chk861.eq_1 v2065 v2095))
theorem k0_idx861_inb : ∀ (v2065 : IVec S16 32) (v2095 : IVec S16 32) (k0_hw861 : k0_chk861 v2065 v2095), ∀ a x, ((![v2065, v2095] : Fin 2 → IVec S16 32) a x).toNat < S128x200.size a := fun v2065 v2095 k0_hw861 => k0_hw861

def k0_chk862 (v2065 : IVec S16 32) (v2100 : IVec S16 32) : Prop :=
  (∀ a x, ((![v2065, v2100] : Fin 2 → IVec S16 32) a x).toNat < S128x200.size a)
instance k0_chk862.dec : ∀ (v2065 : IVec S16 32) (v2100 : IVec S16 32), Decidable (k0_chk862 v2065 v2100) := fun v2065 v2100 => decidable_of_iff' _ (Iff.of_eq (k0_chk862.eq_1 v2065 v2100))
theorem k0_idx862_inb : ∀ (v2065 : IVec S16 32) (v2100 : IVec S16 32) (k0_hw862 : k0_chk862 v2065 v2100), ∀ a x, ((![v2065, v2100] : Fin 2 → IVec S16 32) a x).toNat < S128x200.size a := fun v2065 v2100 k0_hw862 => k0_hw862

def k0_chk863 (v2065 : IVec S16 32) (v2105 : IVec S16 32) : Prop :=
  (∀ a x, ((![v2065, v2105] : Fin 2 → IVec S16 32) a x).toNat < S128x200.size a)
instance k0_chk863.dec : ∀ (v2065 : IVec S16 32) (v2105 : IVec S16 32), Decidable (k0_chk863 v2065 v2105) := fun v2065 v2105 => decidable_of_iff' _ (Iff.of_eq (k0_chk863.eq_1 v2065 v2105))
theorem k0_idx863_inb : ∀ (v2065 : IVec S16 32) (v2105 : IVec S16 32) (k0_hw863 : k0_chk863 v2065 v2105), ∀ a x, ((![v2065, v2105] : Fin 2 → IVec S16 32) a x).toNat < S128x200.size a := fun v2065 v2105 k0_hw863 => k0_hw863

def k0_chk864 (v2065 : IVec S16 32) (v2110 : IVec S16 32) : Prop :=
  (∀ a x, ((![v2065, v2110] : Fin 2 → IVec S16 32) a x).toNat < S128x200.size a)
instance k0_chk864.dec : ∀ (v2065 : IVec S16 32) (v2110 : IVec S16 32), Decidable (k0_chk864 v2065 v2110) := fun v2065 v2110 => decidable_of_iff' _ (Iff.of_eq (k0_chk864.eq_1 v2065 v2110))
theorem k0_idx864_inb : ∀ (v2065 : IVec S16 32) (v2110 : IVec S16 32) (k0_hw864 : k0_chk864 v2065 v2110), ∀ a x, ((![v2065, v2110] : Fin 2 → IVec S16 32) a x).toNat < S128x200.size a := fun v2065 v2110 k0_hw864 => k0_hw864

def k0_chk865 (v2120 : IVec S16 32) : Prop :=
  (∀ a x, ((![v2120] : Fin 1 → IVec S16 32) a x).toNat < S4096.size a)
instance k0_chk865.dec : ∀ (v2120 : IVec S16 32), Decidable (k0_chk865 v2120) := fun v2120 => decidable_of_iff' _ (Iff.of_eq (k0_chk865.eq_1 v2120))
theorem k0_idx865_inb : ∀ (v2120 : IVec S16 32) (k0_hw865 : k0_chk865 v2120), ∀ a x, ((![v2120] : Fin 1 → IVec S16 32) a x).toNat < S4096.size a := fun v2120 k0_hw865 => k0_hw865

def k0_chk866 (v2065 : IVec S16 32) (v2124 : IVec S16 32) : Prop :=
  (∀ a x, ((![v2065, v2124] : Fin 2 → IVec S16 32) a x).toNat < S128x200.size a)
instance k0_chk866.dec : ∀ (v2065 : IVec S16 32) (v2124 : IVec S16 32), Decidable (k0_chk866 v2065 v2124) := fun v2065 v2124 => decidable_of_iff' _ (Iff.of_eq (k0_chk866.eq_1 v2065 v2124))
theorem k0_idx866_inb : ∀ (v2065 : IVec S16 32) (v2124 : IVec S16 32) (k0_hw866 : k0_chk866 v2065 v2124), ∀ a x, ((![v2065, v2124] : Fin 2 → IVec S16 32) a x).toNat < S128x200.size a := fun v2065 v2124 k0_hw866 => k0_hw866

def k0_chk867 (v2065 : IVec S16 32) (v2129 : IVec S16 32) : Prop :=
  (∀ a x, ((![v2065, v2129] : Fin 2 → IVec S16 32) a x).toNat < S128x200.size a)
instance k0_chk867.dec : ∀ (v2065 : IVec S16 32) (v2129 : IVec S16 32), Decidable (k0_chk867 v2065 v2129) := fun v2065 v2129 => decidable_of_iff' _ (Iff.of_eq (k0_chk867.eq_1 v2065 v2129))
theorem k0_idx867_inb : ∀ (v2065 : IVec S16 32) (v2129 : IVec S16 32) (k0_hw867 : k0_chk867 v2065 v2129), ∀ a x, ((![v2065, v2129] : Fin 2 → IVec S16 32) a x).toNat < S128x200.size a := fun v2065 v2129 k0_hw867 => k0_hw867

def k0_chk868 (v2065 : IVec S16 32) (v2134 : IVec S16 32) : Prop :=
  (∀ a x, ((![v2065, v2134] : Fin 2 → IVec S16 32) a x).toNat < S128x200.size a)
instance k0_chk868.dec : ∀ (v2065 : IVec S16 32) (v2134 : IVec S16 32), Decidable (k0_chk868 v2065 v2134) := fun v2065 v2134 => decidable_of_iff' _ (Iff.of_eq (k0_chk868.eq_1 v2065 v2134))
theorem k0_idx868_inb : ∀ (v2065 : IVec S16 32) (v2134 : IVec S16 32) (k0_hw868 : k0_chk868 v2065 v2134), ∀ a x, ((![v2065, v2134] : Fin 2 → IVec S16 32) a x).toNat < S128x200.size a := fun v2065 v2134 k0_hw868 => k0_hw868

def k0_chk869 (v2065 : IVec S16 32) (v2139 : IVec S16 32) : Prop :=
  (∀ a x, ((![v2065, v2139] : Fin 2 → IVec S16 32) a x).toNat < S128x200.size a)
instance k0_chk869.dec : ∀ (v2065 : IVec S16 32) (v2139 : IVec S16 32), Decidable (k0_chk869 v2065 v2139) := fun v2065 v2139 => decidable_of_iff' _ (Iff.of_eq (k0_chk869.eq_1 v2065 v2139))
theorem k0_idx869_inb : ∀ (v2065 : IVec S16 32) (v2139 : IVec S16 32) (k0_hw869 : k0_chk869 v2065 v2139), ∀ a x, ((![v2065, v2139] : Fin 2 → IVec S16 32) a x).toNat < S128x200.size a := fun v2065 v2139 k0_hw869 => k0_hw869

def k0_chk870 (v2149 : IVec S16 32) : Prop :=
  (∀ a x, ((![v2149] : Fin 1 → IVec S16 32) a x).toNat < S4096.size a)
instance k0_chk870.dec : ∀ (v2149 : IVec S16 32), Decidable (k0_chk870 v2149) := fun v2149 => decidable_of_iff' _ (Iff.of_eq (k0_chk870.eq_1 v2149))
theorem k0_idx870_inb : ∀ (v2149 : IVec S16 32) (k0_hw870 : k0_chk870 v2149), ∀ a x, ((![v2149] : Fin 1 → IVec S16 32) a x).toNat < S4096.size a := fun v2149 k0_hw870 => k0_hw870

def k0_chk871 (v2065 : IVec S16 32) (v2153 : IVec S16 32) : Prop :=
  (∀ a x, ((![v2065, v2153] : Fin 2 → IVec S16 32) a x).toNat < S128x200.size a)
instance k0_chk871.dec : ∀ (v2065 : IVec S16 32) (v2153 : IVec S16 32), Decidable (k0_chk871 v2065 v2153) := fun v2065 v2153 => decidable_of_iff' _ (Iff.of_eq (k0_chk871.eq_1 v2065 v2153))
theorem k0_idx871_inb : ∀ (v2065 : IVec S16 32) (v2153 : IVec S16 32) (k0_hw871 : k0_chk871 v2065 v2153), ∀ a x, ((![v2065, v2153] : Fin 2 → IVec S16 32) a x).toNat < S128x200.size a := fun v2065 v2153 k0_hw871 => k0_hw871

def k0_chk872 (v2157 : IVec S16 32) : Prop :=
  (∀ a x, ((![v2157] : Fin 1 → IVec S16 32) a x).toNat < S272.size a)
instance k0_chk872.dec : ∀ (v2157 : IVec S16 32), Decidable (k0_chk872 v2157) := fun v2157 => decidable_of_iff' _ (Iff.of_eq (k0_chk872.eq_1 v2157))
theorem k0_idx872_inb : ∀ (v2157 : IVec S16 32) (k0_hw872 : k0_chk872 v2157), ∀ a x, ((![v2157] : Fin 1 → IVec S16 32) a x).toNat < S272.size a := fun v2157 k0_hw872 => k0_hw872
def k0_off62 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c224_i32_733 : BitVec 32 := 224#32
  let v2161 : BitVec 32 := Scalar.addi v648 c224_i32_733
  let v2162 : Index := Scalar.indexCast v2161
  ![v2162.toNat]

def k0_chk873 (v2166 : IVec S16 32) (v2168 : IVec S16 32) : Prop :=
  (∀ a x, ((![v2166, v2168] : Fin 2 → IVec S16 32) a x).toNat < S128x200.size a)
instance k0_chk873.dec : ∀ (v2166 : IVec S16 32) (v2168 : IVec S16 32), Decidable (k0_chk873 v2166 v2168) := fun v2166 v2168 => decidable_of_iff' _ (Iff.of_eq (k0_chk873.eq_1 v2166 v2168))
theorem k0_idx873_inb : ∀ (v2166 : IVec S16 32) (v2168 : IVec S16 32) (k0_hw873 : k0_chk873 v2166 v2168), ∀ a x, ((![v2166, v2168] : Fin 2 → IVec S16 32) a x).toNat < S128x200.size a := fun v2166 v2168 k0_hw873 => k0_hw873

def k0_chk874 (v2166 : IVec S16 32) (v2173 : IVec S16 32) : Prop :=
  (∀ a x, ((![v2166, v2173] : Fin 2 → IVec S16 32) a x).toNat < S128x200.size a)
instance k0_chk874.dec : ∀ (v2166 : IVec S16 32) (v2173 : IVec S16 32), Decidable (k0_chk874 v2166 v2173) := fun v2166 v2173 => decidable_of_iff' _ (Iff.of_eq (k0_chk874.eq_1 v2166 v2173))
theorem k0_idx874_inb : ∀ (v2166 : IVec S16 32) (v2173 : IVec S16 32) (k0_hw874 : k0_chk874 v2166 v2173), ∀ a x, ((![v2166, v2173] : Fin 2 → IVec S16 32) a x).toNat < S128x200.size a := fun v2166 v2173 k0_hw874 => k0_hw874

def k0_chk875 (v2166 : IVec S16 32) (v2178 : IVec S16 32) : Prop :=
  (∀ a x, ((![v2166, v2178] : Fin 2 → IVec S16 32) a x).toNat < S128x200.size a)
instance k0_chk875.dec : ∀ (v2166 : IVec S16 32) (v2178 : IVec S16 32), Decidable (k0_chk875 v2166 v2178) := fun v2166 v2178 => decidable_of_iff' _ (Iff.of_eq (k0_chk875.eq_1 v2166 v2178))
theorem k0_idx875_inb : ∀ (v2166 : IVec S16 32) (v2178 : IVec S16 32) (k0_hw875 : k0_chk875 v2166 v2178), ∀ a x, ((![v2166, v2178] : Fin 2 → IVec S16 32) a x).toNat < S128x200.size a := fun v2166 v2178 k0_hw875 => k0_hw875

def k0_chk876 (v2166 : IVec S16 32) (v2183 : IVec S16 32) : Prop :=
  (∀ a x, ((![v2166, v2183] : Fin 2 → IVec S16 32) a x).toNat < S128x200.size a)
instance k0_chk876.dec : ∀ (v2166 : IVec S16 32) (v2183 : IVec S16 32), Decidable (k0_chk876 v2166 v2183) := fun v2166 v2183 => decidable_of_iff' _ (Iff.of_eq (k0_chk876.eq_1 v2166 v2183))
theorem k0_idx876_inb : ∀ (v2166 : IVec S16 32) (v2183 : IVec S16 32) (k0_hw876 : k0_chk876 v2166 v2183), ∀ a x, ((![v2166, v2183] : Fin 2 → IVec S16 32) a x).toNat < S128x200.size a := fun v2166 v2183 k0_hw876 => k0_hw876

def k0_chk877 (v2193 : IVec S16 32) : Prop :=
  (∀ a x, ((![v2193] : Fin 1 → IVec S16 32) a x).toNat < S4096.size a)
instance k0_chk877.dec : ∀ (v2193 : IVec S16 32), Decidable (k0_chk877 v2193) := fun v2193 => decidable_of_iff' _ (Iff.of_eq (k0_chk877.eq_1 v2193))
theorem k0_idx877_inb : ∀ (v2193 : IVec S16 32) (k0_hw877 : k0_chk877 v2193), ∀ a x, ((![v2193] : Fin 1 → IVec S16 32) a x).toNat < S4096.size a := fun v2193 k0_hw877 => k0_hw877

def k0_chk878 (v2166 : IVec S16 32) (v2196 : IVec S16 32) : Prop :=
  (∀ a x, ((![v2166, v2196] : Fin 2 → IVec S16 32) a x).toNat < S128x200.size a)
instance k0_chk878.dec : ∀ (v2166 : IVec S16 32) (v2196 : IVec S16 32), Decidable (k0_chk878 v2166 v2196) := fun v2166 v2196 => decidable_of_iff' _ (Iff.of_eq (k0_chk878.eq_1 v2166 v2196))
theorem k0_idx878_inb : ∀ (v2166 : IVec S16 32) (v2196 : IVec S16 32) (k0_hw878 : k0_chk878 v2166 v2196), ∀ a x, ((![v2166, v2196] : Fin 2 → IVec S16 32) a x).toNat < S128x200.size a := fun v2166 v2196 k0_hw878 => k0_hw878

def k0_chk879 (v2166 : IVec S16 32) (v2201 : IVec S16 32) : Prop :=
  (∀ a x, ((![v2166, v2201] : Fin 2 → IVec S16 32) a x).toNat < S128x200.size a)
instance k0_chk879.dec : ∀ (v2166 : IVec S16 32) (v2201 : IVec S16 32), Decidable (k0_chk879 v2166 v2201) := fun v2166 v2201 => decidable_of_iff' _ (Iff.of_eq (k0_chk879.eq_1 v2166 v2201))
theorem k0_idx879_inb : ∀ (v2166 : IVec S16 32) (v2201 : IVec S16 32) (k0_hw879 : k0_chk879 v2166 v2201), ∀ a x, ((![v2166, v2201] : Fin 2 → IVec S16 32) a x).toNat < S128x200.size a := fun v2166 v2201 k0_hw879 => k0_hw879

def k0_chk880 (v2166 : IVec S16 32) (v2206 : IVec S16 32) : Prop :=
  (∀ a x, ((![v2166, v2206] : Fin 2 → IVec S16 32) a x).toNat < S128x200.size a)
instance k0_chk880.dec : ∀ (v2166 : IVec S16 32) (v2206 : IVec S16 32), Decidable (k0_chk880 v2166 v2206) := fun v2166 v2206 => decidable_of_iff' _ (Iff.of_eq (k0_chk880.eq_1 v2166 v2206))
theorem k0_idx880_inb : ∀ (v2166 : IVec S16 32) (v2206 : IVec S16 32) (k0_hw880 : k0_chk880 v2166 v2206), ∀ a x, ((![v2166, v2206] : Fin 2 → IVec S16 32) a x).toNat < S128x200.size a := fun v2166 v2206 k0_hw880 => k0_hw880

def k0_chk881 (v2166 : IVec S16 32) (v2211 : IVec S16 32) : Prop :=
  (∀ a x, ((![v2166, v2211] : Fin 2 → IVec S16 32) a x).toNat < S128x200.size a)
instance k0_chk881.dec : ∀ (v2166 : IVec S16 32) (v2211 : IVec S16 32), Decidable (k0_chk881 v2166 v2211) := fun v2166 v2211 => decidable_of_iff' _ (Iff.of_eq (k0_chk881.eq_1 v2166 v2211))
theorem k0_idx881_inb : ∀ (v2166 : IVec S16 32) (v2211 : IVec S16 32) (k0_hw881 : k0_chk881 v2166 v2211), ∀ a x, ((![v2166, v2211] : Fin 2 → IVec S16 32) a x).toNat < S128x200.size a := fun v2166 v2211 k0_hw881 => k0_hw881

def k0_chk882 (v2221 : IVec S16 32) : Prop :=
  (∀ a x, ((![v2221] : Fin 1 → IVec S16 32) a x).toNat < S4096.size a)
instance k0_chk882.dec : ∀ (v2221 : IVec S16 32), Decidable (k0_chk882 v2221) := fun v2221 => decidable_of_iff' _ (Iff.of_eq (k0_chk882.eq_1 v2221))
theorem k0_idx882_inb : ∀ (v2221 : IVec S16 32) (k0_hw882 : k0_chk882 v2221), ∀ a x, ((![v2221] : Fin 1 → IVec S16 32) a x).toNat < S4096.size a := fun v2221 k0_hw882 => k0_hw882

def k0_chk883 (v2166 : IVec S16 32) (v2225 : IVec S16 32) : Prop :=
  (∀ a x, ((![v2166, v2225] : Fin 2 → IVec S16 32) a x).toNat < S128x200.size a)
instance k0_chk883.dec : ∀ (v2166 : IVec S16 32) (v2225 : IVec S16 32), Decidable (k0_chk883 v2166 v2225) := fun v2166 v2225 => decidable_of_iff' _ (Iff.of_eq (k0_chk883.eq_1 v2166 v2225))
theorem k0_idx883_inb : ∀ (v2166 : IVec S16 32) (v2225 : IVec S16 32) (k0_hw883 : k0_chk883 v2166 v2225), ∀ a x, ((![v2166, v2225] : Fin 2 → IVec S16 32) a x).toNat < S128x200.size a := fun v2166 v2225 k0_hw883 => k0_hw883

def k0_chk884 (v2166 : IVec S16 32) (v2230 : IVec S16 32) : Prop :=
  (∀ a x, ((![v2166, v2230] : Fin 2 → IVec S16 32) a x).toNat < S128x200.size a)
instance k0_chk884.dec : ∀ (v2166 : IVec S16 32) (v2230 : IVec S16 32), Decidable (k0_chk884 v2166 v2230) := fun v2166 v2230 => decidable_of_iff' _ (Iff.of_eq (k0_chk884.eq_1 v2166 v2230))
theorem k0_idx884_inb : ∀ (v2166 : IVec S16 32) (v2230 : IVec S16 32) (k0_hw884 : k0_chk884 v2166 v2230), ∀ a x, ((![v2166, v2230] : Fin 2 → IVec S16 32) a x).toNat < S128x200.size a := fun v2166 v2230 k0_hw884 => k0_hw884

def k0_chk885 (v2166 : IVec S16 32) (v2235 : IVec S16 32) : Prop :=
  (∀ a x, ((![v2166, v2235] : Fin 2 → IVec S16 32) a x).toNat < S128x200.size a)
instance k0_chk885.dec : ∀ (v2166 : IVec S16 32) (v2235 : IVec S16 32), Decidable (k0_chk885 v2166 v2235) := fun v2166 v2235 => decidable_of_iff' _ (Iff.of_eq (k0_chk885.eq_1 v2166 v2235))
theorem k0_idx885_inb : ∀ (v2166 : IVec S16 32) (v2235 : IVec S16 32) (k0_hw885 : k0_chk885 v2166 v2235), ∀ a x, ((![v2166, v2235] : Fin 2 → IVec S16 32) a x).toNat < S128x200.size a := fun v2166 v2235 k0_hw885 => k0_hw885

def k0_chk886 (v2166 : IVec S16 32) (v2240 : IVec S16 32) : Prop :=
  (∀ a x, ((![v2166, v2240] : Fin 2 → IVec S16 32) a x).toNat < S128x200.size a)
instance k0_chk886.dec : ∀ (v2166 : IVec S16 32) (v2240 : IVec S16 32), Decidable (k0_chk886 v2166 v2240) := fun v2166 v2240 => decidable_of_iff' _ (Iff.of_eq (k0_chk886.eq_1 v2166 v2240))
theorem k0_idx886_inb : ∀ (v2166 : IVec S16 32) (v2240 : IVec S16 32) (k0_hw886 : k0_chk886 v2166 v2240), ∀ a x, ((![v2166, v2240] : Fin 2 → IVec S16 32) a x).toNat < S128x200.size a := fun v2166 v2240 k0_hw886 => k0_hw886

def k0_chk887 (v2250 : IVec S16 32) : Prop :=
  (∀ a x, ((![v2250] : Fin 1 → IVec S16 32) a x).toNat < S4096.size a)
instance k0_chk887.dec : ∀ (v2250 : IVec S16 32), Decidable (k0_chk887 v2250) := fun v2250 => decidable_of_iff' _ (Iff.of_eq (k0_chk887.eq_1 v2250))
theorem k0_idx887_inb : ∀ (v2250 : IVec S16 32) (k0_hw887 : k0_chk887 v2250), ∀ a x, ((![v2250] : Fin 1 → IVec S16 32) a x).toNat < S4096.size a := fun v2250 k0_hw887 => k0_hw887

def k0_chk888 (v2166 : IVec S16 32) (v2254 : IVec S16 32) : Prop :=
  (∀ a x, ((![v2166, v2254] : Fin 2 → IVec S16 32) a x).toNat < S128x200.size a)
instance k0_chk888.dec : ∀ (v2166 : IVec S16 32) (v2254 : IVec S16 32), Decidable (k0_chk888 v2166 v2254) := fun v2166 v2254 => decidable_of_iff' _ (Iff.of_eq (k0_chk888.eq_1 v2166 v2254))
theorem k0_idx888_inb : ∀ (v2166 : IVec S16 32) (v2254 : IVec S16 32) (k0_hw888 : k0_chk888 v2166 v2254), ∀ a x, ((![v2166, v2254] : Fin 2 → IVec S16 32) a x).toNat < S128x200.size a := fun v2166 v2254 k0_hw888 => k0_hw888

def k0_chk889 (v2258 : IVec S16 32) : Prop :=
  (∀ a x, ((![v2258] : Fin 1 → IVec S16 32) a x).toNat < S272.size a)
instance k0_chk889.dec : ∀ (v2258 : IVec S16 32), Decidable (k0_chk889 v2258) := fun v2258 => decidable_of_iff' _ (Iff.of_eq (k0_chk889.eq_1 v2258))
theorem k0_idx889_inb : ∀ (v2258 : IVec S16 32) (k0_hw889 : k0_chk889 v2258), ∀ a x, ((![v2258] : Fin 1 → IVec S16 32) a x).toNat < S272.size a := fun v2258 k0_hw889 => k0_hw889
def k0_off63 (k0_t4 : Fin k0_t4_loop.trips) : Fin 1 → Nat :=
  let c0_i32_204 : BitVec 32 := 0#32
  let c1_i32_206 : BitVec 32 := 1#32
  let arg17 : BitVec 32 := Scf.iv c0_i32_204 c1_i32_206 k0_t4
  let c1_i32_217 : BitVec 32 := 1#32
  let v647 : BitVec 32 := Scalar.andi arg17 c1_i32_217
  let c256_i32_218 : BitVec 32 := 256#32
  let v648 : BitVec 32 := Scalar.muli v647 c256_i32_218
  let c240_i32_767 : BitVec 32 := 240#32
  let v2262 : BitVec 32 := Scalar.addi v648 c240_i32_767
  let v2263 : Index := Scalar.indexCast v2262
  ![v2263.toNat]
def k0_off64 (k0_t4 : Fin k0_t4_loop.trips) : Fin 1 → Nat :=
  let c256_i32_216 : BitVec 32 := 256#32
  let c0_i32_204 : BitVec 32 := 0#32
  let c1_i32_206 : BitVec 32 := 1#32
  let arg17 : BitVec 32 := Scf.iv c0_i32_204 c1_i32_206 k0_t4
  let c16_i32_215 : BitVec 32 := 16#32
  let v645 : BitVec 32 := Scalar.muli arg17 c16_i32_215
  let v646 : BitVec 32 := Scalar.addi c256_i32_216 v645
  let v2265 : Index := Scalar.indexCast v646
  ![v2265.toNat]

def k0_chk890 (v2273 : IVec S16 32) : Prop :=
  (∀ a x, ((![v2273] : Fin 1 → IVec S16 32) a x).toNat < S512.size a)
instance k0_chk890.dec : ∀ (v2273 : IVec S16 32), Decidable (k0_chk890 v2273) := fun v2273 => decidable_of_iff' _ (Iff.of_eq (k0_chk890.eq_1 v2273))
theorem k0_idx890_inb : ∀ (v2273 : IVec S16 32) (k0_hw890 : k0_chk890 v2273), ∀ a x, ((![v2273] : Fin 1 → IVec S16 32) a x).toNat < S512.size a := fun v2273 k0_hw890 => k0_hw890

def k0_chk891 (v2282 : IVec S16 32) : Prop :=
  (∀ a x, ((![v2282] : Fin 1 → IVec S16 32) a x).toNat < S512.size a)
instance k0_chk891.dec : ∀ (v2282 : IVec S16 32), Decidable (k0_chk891 v2282) := fun v2282 => decidable_of_iff' _ (Iff.of_eq (k0_chk891.eq_1 v2282))
theorem k0_idx891_inb : ∀ (v2282 : IVec S16 32) (k0_hw891 : k0_chk891 v2282), ∀ a x, ((![v2282] : Fin 1 → IVec S16 32) a x).toNat < S512.size a := fun v2282 k0_hw891 => k0_hw891

def k0_chk892 (v2291 : IVec S16 32) : Prop :=
  (∀ a x, ((![v2291] : Fin 1 → IVec S16 32) a x).toNat < S512.size a)
instance k0_chk892.dec : ∀ (v2291 : IVec S16 32), Decidable (k0_chk892 v2291) := fun v2291 => decidable_of_iff' _ (Iff.of_eq (k0_chk892.eq_1 v2291))
theorem k0_idx892_inb : ∀ (v2291 : IVec S16 32) (k0_hw892 : k0_chk892 v2291), ∀ a x, ((![v2291] : Fin 1 → IVec S16 32) a x).toNat < S512.size a := fun v2291 k0_hw892 => k0_hw892

def k0_chk893 (v2300 : IVec S16 32) : Prop :=
  (∀ a x, ((![v2300] : Fin 1 → IVec S16 32) a x).toNat < S512.size a)
instance k0_chk893.dec : ∀ (v2300 : IVec S16 32), Decidable (k0_chk893 v2300) := fun v2300 => decidable_of_iff' _ (Iff.of_eq (k0_chk893.eq_1 v2300))
theorem k0_idx893_inb : ∀ (v2300 : IVec S16 32) (k0_hw893 : k0_chk893 v2300), ∀ a x, ((![v2300] : Fin 1 → IVec S16 32) a x).toNat < S512.size a := fun v2300 k0_hw893 => k0_hw893

def k0_chk894 (v2309 : IVec S16 32) : Prop :=
  (∀ a x, ((![v2309] : Fin 1 → IVec S16 32) a x).toNat < S512.size a)
instance k0_chk894.dec : ∀ (v2309 : IVec S16 32), Decidable (k0_chk894 v2309) := fun v2309 => decidable_of_iff' _ (Iff.of_eq (k0_chk894.eq_1 v2309))
theorem k0_idx894_inb : ∀ (v2309 : IVec S16 32) (k0_hw894 : k0_chk894 v2309), ∀ a x, ((![v2309] : Fin 1 → IVec S16 32) a x).toNat < S512.size a := fun v2309 k0_hw894 => k0_hw894

def k0_chk895 (v2318 : IVec S16 32) : Prop :=
  (∀ a x, ((![v2318] : Fin 1 → IVec S16 32) a x).toNat < S512.size a)
instance k0_chk895.dec : ∀ (v2318 : IVec S16 32), Decidable (k0_chk895 v2318) := fun v2318 => decidable_of_iff' _ (Iff.of_eq (k0_chk895.eq_1 v2318))
theorem k0_idx895_inb : ∀ (v2318 : IVec S16 32) (k0_hw895 : k0_chk895 v2318), ∀ a x, ((![v2318] : Fin 1 → IVec S16 32) a x).toNat < S512.size a := fun v2318 k0_hw895 => k0_hw895

def k0_chk896 (v2327 : IVec S16 32) : Prop :=
  (∀ a x, ((![v2327] : Fin 1 → IVec S16 32) a x).toNat < S512.size a)
instance k0_chk896.dec : ∀ (v2327 : IVec S16 32), Decidable (k0_chk896 v2327) := fun v2327 => decidable_of_iff' _ (Iff.of_eq (k0_chk896.eq_1 v2327))
theorem k0_idx896_inb : ∀ (v2327 : IVec S16 32) (k0_hw896 : k0_chk896 v2327), ∀ a x, ((![v2327] : Fin 1 → IVec S16 32) a x).toNat < S512.size a := fun v2327 k0_hw896 => k0_hw896

def k0_chk897 (v2336 : IVec S16 32) : Prop :=
  (∀ a x, ((![v2336] : Fin 1 → IVec S16 32) a x).toNat < S512.size a)
instance k0_chk897.dec : ∀ (v2336 : IVec S16 32), Decidable (k0_chk897 v2336) := fun v2336 => decidable_of_iff' _ (Iff.of_eq (k0_chk897.eq_1 v2336))
theorem k0_idx897_inb : ∀ (v2336 : IVec S16 32) (k0_hw897 : k0_chk897 v2336), ∀ a x, ((![v2336] : Fin 1 → IVec S16 32) a x).toNat < S512.size a := fun v2336 k0_hw897 => k0_hw897

def k0_chk898 (v2345 : IVec S16 32) : Prop :=
  (∀ a x, ((![v2345] : Fin 1 → IVec S16 32) a x).toNat < S512.size a)
instance k0_chk898.dec : ∀ (v2345 : IVec S16 32), Decidable (k0_chk898 v2345) := fun v2345 => decidable_of_iff' _ (Iff.of_eq (k0_chk898.eq_1 v2345))
theorem k0_idx898_inb : ∀ (v2345 : IVec S16 32) (k0_hw898 : k0_chk898 v2345), ∀ a x, ((![v2345] : Fin 1 → IVec S16 32) a x).toNat < S512.size a := fun v2345 k0_hw898 => k0_hw898

def k0_chk899 (v2354 : IVec S16 32) : Prop :=
  (∀ a x, ((![v2354] : Fin 1 → IVec S16 32) a x).toNat < S512.size a)
instance k0_chk899.dec : ∀ (v2354 : IVec S16 32), Decidable (k0_chk899 v2354) := fun v2354 => decidable_of_iff' _ (Iff.of_eq (k0_chk899.eq_1 v2354))
theorem k0_idx899_inb : ∀ (v2354 : IVec S16 32) (k0_hw899 : k0_chk899 v2354), ∀ a x, ((![v2354] : Fin 1 → IVec S16 32) a x).toNat < S512.size a := fun v2354 k0_hw899 => k0_hw899

def k0_chk900 (v2363 : IVec S16 32) : Prop :=
  (∀ a x, ((![v2363] : Fin 1 → IVec S16 32) a x).toNat < S512.size a)
instance k0_chk900.dec : ∀ (v2363 : IVec S16 32), Decidable (k0_chk900 v2363) := fun v2363 => decidable_of_iff' _ (Iff.of_eq (k0_chk900.eq_1 v2363))
theorem k0_idx900_inb : ∀ (v2363 : IVec S16 32) (k0_hw900 : k0_chk900 v2363), ∀ a x, ((![v2363] : Fin 1 → IVec S16 32) a x).toNat < S512.size a := fun v2363 k0_hw900 => k0_hw900

def k0_chk901 (v2372 : IVec S16 32) : Prop :=
  (∀ a x, ((![v2372] : Fin 1 → IVec S16 32) a x).toNat < S512.size a)
instance k0_chk901.dec : ∀ (v2372 : IVec S16 32), Decidable (k0_chk901 v2372) := fun v2372 => decidable_of_iff' _ (Iff.of_eq (k0_chk901.eq_1 v2372))
theorem k0_idx901_inb : ∀ (v2372 : IVec S16 32) (k0_hw901 : k0_chk901 v2372), ∀ a x, ((![v2372] : Fin 1 → IVec S16 32) a x).toNat < S512.size a := fun v2372 k0_hw901 => k0_hw901

def k0_chk902 (v2381 : IVec S16 32) : Prop :=
  (∀ a x, ((![v2381] : Fin 1 → IVec S16 32) a x).toNat < S512.size a)
instance k0_chk902.dec : ∀ (v2381 : IVec S16 32), Decidable (k0_chk902 v2381) := fun v2381 => decidable_of_iff' _ (Iff.of_eq (k0_chk902.eq_1 v2381))
theorem k0_idx902_inb : ∀ (v2381 : IVec S16 32) (k0_hw902 : k0_chk902 v2381), ∀ a x, ((![v2381] : Fin 1 → IVec S16 32) a x).toNat < S512.size a := fun v2381 k0_hw902 => k0_hw902

def k0_chk903 (v2390 : IVec S16 32) : Prop :=
  (∀ a x, ((![v2390] : Fin 1 → IVec S16 32) a x).toNat < S512.size a)
instance k0_chk903.dec : ∀ (v2390 : IVec S16 32), Decidable (k0_chk903 v2390) := fun v2390 => decidable_of_iff' _ (Iff.of_eq (k0_chk903.eq_1 v2390))
theorem k0_idx903_inb : ∀ (v2390 : IVec S16 32) (k0_hw903 : k0_chk903 v2390), ∀ a x, ((![v2390] : Fin 1 → IVec S16 32) a x).toNat < S512.size a := fun v2390 k0_hw903 => k0_hw903

def k0_chk904 (v2399 : IVec S16 32) : Prop :=
  (∀ a x, ((![v2399] : Fin 1 → IVec S16 32) a x).toNat < S512.size a)
instance k0_chk904.dec : ∀ (v2399 : IVec S16 32), Decidable (k0_chk904 v2399) := fun v2399 => decidable_of_iff' _ (Iff.of_eq (k0_chk904.eq_1 v2399))
theorem k0_idx904_inb : ∀ (v2399 : IVec S16 32) (k0_hw904 : k0_chk904 v2399), ∀ a x, ((![v2399] : Fin 1 → IVec S16 32) a x).toNat < S512.size a := fun v2399 k0_hw904 => k0_hw904

def k0_chk905 (v2408 : IVec S16 32) : Prop :=
  (∀ a x, ((![v2408] : Fin 1 → IVec S16 32) a x).toNat < S512.size a)
instance k0_chk905.dec : ∀ (v2408 : IVec S16 32), Decidable (k0_chk905 v2408) := fun v2408 => decidable_of_iff' _ (Iff.of_eq (k0_chk905.eq_1 v2408))
theorem k0_idx905_inb : ∀ (v2408 : IVec S16 32) (k0_hw905 : k0_chk905 v2408), ∀ a x, ((![v2408] : Fin 1 → IVec S16 32) a x).toNat < S512.size a := fun v2408 k0_hw905 => k0_hw905
def k0_off65 (k0_t4 : Fin k0_t4_loop.trips) : Fin 1 → Nat :=
  let c256_i32_216 : BitVec 32 := 256#32
  let c0_i32_204 : BitVec 32 := 0#32
  let c1_i32_206 : BitVec 32 := 1#32
  let arg17 : BitVec 32 := Scf.iv c0_i32_204 c1_i32_206 k0_t4
  let c16_i32_215 : BitVec 32 := 16#32
  let v645 : BitVec 32 := Scalar.muli arg17 c16_i32_215
  let v646 : BitVec 32 := Scalar.addi c256_i32_216 v645
  let v2412 : Index := Scalar.indexCast v646
  ![v2412.toNat]
@[reducible] def k0_t5_loop : Scf.Loop 32 :=
  let c0_i32_211 : BitVec 32 := 0#32
  let c8_i32_212 : BitVec 32 := 8#32
  let v644 : BitVec 32 := Scalar.addi c0_i32_211 c8_i32_212
  let c1_i32_213 : BitVec 32 := 1#32
  ⟨c0_i32_211, v644, c1_i32_213⟩

def k0_chk906 (v651 : IVec S16 32) (v653 : IVec S16 32) : Prop :=
  (∀ a x, ((![v651, v653] : Fin 2 → IVec S16 32) a x).toNat < S128x200.size a)
instance k0_chk906.dec : ∀ (v651 : IVec S16 32) (v653 : IVec S16 32), Decidable (k0_chk906 v651 v653) := fun v651 v653 => decidable_of_iff' _ (Iff.of_eq (k0_chk906.eq_1 v651 v653))
theorem k0_idx906_inb : ∀ (v651 : IVec S16 32) (v653 : IVec S16 32) (k0_hw906 : k0_chk906 v651 v653), ∀ a x, ((![v651, v653] : Fin 2 → IVec S16 32) a x).toNat < S128x200.size a := fun v651 v653 k0_hw906 => k0_hw906

def k0_chk907 (v651 : IVec S16 32) (v658 : IVec S16 32) : Prop :=
  (∀ a x, ((![v651, v658] : Fin 2 → IVec S16 32) a x).toNat < S128x200.size a)
instance k0_chk907.dec : ∀ (v651 : IVec S16 32) (v658 : IVec S16 32), Decidable (k0_chk907 v651 v658) := fun v651 v658 => decidable_of_iff' _ (Iff.of_eq (k0_chk907.eq_1 v651 v658))
theorem k0_idx907_inb : ∀ (v651 : IVec S16 32) (v658 : IVec S16 32) (k0_hw907 : k0_chk907 v651 v658), ∀ a x, ((![v651, v658] : Fin 2 → IVec S16 32) a x).toNat < S128x200.size a := fun v651 v658 k0_hw907 => k0_hw907

def k0_chk908 (v651 : IVec S16 32) (v663 : IVec S16 32) : Prop :=
  (∀ a x, ((![v651, v663] : Fin 2 → IVec S16 32) a x).toNat < S128x200.size a)
instance k0_chk908.dec : ∀ (v651 : IVec S16 32) (v663 : IVec S16 32), Decidable (k0_chk908 v651 v663) := fun v651 v663 => decidable_of_iff' _ (Iff.of_eq (k0_chk908.eq_1 v651 v663))
theorem k0_idx908_inb : ∀ (v651 : IVec S16 32) (v663 : IVec S16 32) (k0_hw908 : k0_chk908 v651 v663), ∀ a x, ((![v651, v663] : Fin 2 → IVec S16 32) a x).toNat < S128x200.size a := fun v651 v663 k0_hw908 => k0_hw908

def k0_chk909 (v651 : IVec S16 32) (v668 : IVec S16 32) : Prop :=
  (∀ a x, ((![v651, v668] : Fin 2 → IVec S16 32) a x).toNat < S128x200.size a)
instance k0_chk909.dec : ∀ (v651 : IVec S16 32) (v668 : IVec S16 32), Decidable (k0_chk909 v651 v668) := fun v651 v668 => decidable_of_iff' _ (Iff.of_eq (k0_chk909.eq_1 v651 v668))
theorem k0_idx909_inb : ∀ (v651 : IVec S16 32) (v668 : IVec S16 32) (k0_hw909 : k0_chk909 v651 v668), ∀ a x, ((![v651, v668] : Fin 2 → IVec S16 32) a x).toNat < S128x200.size a := fun v651 v668 k0_hw909 => k0_hw909

def k0_chk910 (v678 : IVec S16 32) : Prop :=
  (∀ a x, ((![v678] : Fin 1 → IVec S16 32) a x).toNat < S4096.size a)
instance k0_chk910.dec : ∀ (v678 : IVec S16 32), Decidable (k0_chk910 v678) := fun v678 => decidable_of_iff' _ (Iff.of_eq (k0_chk910.eq_1 v678))
theorem k0_idx910_inb : ∀ (v678 : IVec S16 32) (k0_hw910 : k0_chk910 v678), ∀ a x, ((![v678] : Fin 1 → IVec S16 32) a x).toNat < S4096.size a := fun v678 k0_hw910 => k0_hw910

def k0_chk911 (v651 : IVec S16 32) (v681 : IVec S16 32) : Prop :=
  (∀ a x, ((![v651, v681] : Fin 2 → IVec S16 32) a x).toNat < S128x200.size a)
instance k0_chk911.dec : ∀ (v651 : IVec S16 32) (v681 : IVec S16 32), Decidable (k0_chk911 v651 v681) := fun v651 v681 => decidable_of_iff' _ (Iff.of_eq (k0_chk911.eq_1 v651 v681))
theorem k0_idx911_inb : ∀ (v651 : IVec S16 32) (v681 : IVec S16 32) (k0_hw911 : k0_chk911 v651 v681), ∀ a x, ((![v651, v681] : Fin 2 → IVec S16 32) a x).toNat < S128x200.size a := fun v651 v681 k0_hw911 => k0_hw911

def k0_chk912 (v651 : IVec S16 32) (v686 : IVec S16 32) : Prop :=
  (∀ a x, ((![v651, v686] : Fin 2 → IVec S16 32) a x).toNat < S128x200.size a)
instance k0_chk912.dec : ∀ (v651 : IVec S16 32) (v686 : IVec S16 32), Decidable (k0_chk912 v651 v686) := fun v651 v686 => decidable_of_iff' _ (Iff.of_eq (k0_chk912.eq_1 v651 v686))
theorem k0_idx912_inb : ∀ (v651 : IVec S16 32) (v686 : IVec S16 32) (k0_hw912 : k0_chk912 v651 v686), ∀ a x, ((![v651, v686] : Fin 2 → IVec S16 32) a x).toNat < S128x200.size a := fun v651 v686 k0_hw912 => k0_hw912

def k0_chk913 (v651 : IVec S16 32) (v691 : IVec S16 32) : Prop :=
  (∀ a x, ((![v651, v691] : Fin 2 → IVec S16 32) a x).toNat < S128x200.size a)
instance k0_chk913.dec : ∀ (v651 : IVec S16 32) (v691 : IVec S16 32), Decidable (k0_chk913 v651 v691) := fun v651 v691 => decidable_of_iff' _ (Iff.of_eq (k0_chk913.eq_1 v651 v691))
theorem k0_idx913_inb : ∀ (v651 : IVec S16 32) (v691 : IVec S16 32) (k0_hw913 : k0_chk913 v651 v691), ∀ a x, ((![v651, v691] : Fin 2 → IVec S16 32) a x).toNat < S128x200.size a := fun v651 v691 k0_hw913 => k0_hw913

def k0_chk914 (v651 : IVec S16 32) (v696 : IVec S16 32) : Prop :=
  (∀ a x, ((![v651, v696] : Fin 2 → IVec S16 32) a x).toNat < S128x200.size a)
instance k0_chk914.dec : ∀ (v651 : IVec S16 32) (v696 : IVec S16 32), Decidable (k0_chk914 v651 v696) := fun v651 v696 => decidable_of_iff' _ (Iff.of_eq (k0_chk914.eq_1 v651 v696))
theorem k0_idx914_inb : ∀ (v651 : IVec S16 32) (v696 : IVec S16 32) (k0_hw914 : k0_chk914 v651 v696), ∀ a x, ((![v651, v696] : Fin 2 → IVec S16 32) a x).toNat < S128x200.size a := fun v651 v696 k0_hw914 => k0_hw914

def k0_chk915 (v706 : IVec S16 32) : Prop :=
  (∀ a x, ((![v706] : Fin 1 → IVec S16 32) a x).toNat < S4096.size a)
instance k0_chk915.dec : ∀ (v706 : IVec S16 32), Decidable (k0_chk915 v706) := fun v706 => decidable_of_iff' _ (Iff.of_eq (k0_chk915.eq_1 v706))
theorem k0_idx915_inb : ∀ (v706 : IVec S16 32) (k0_hw915 : k0_chk915 v706), ∀ a x, ((![v706] : Fin 1 → IVec S16 32) a x).toNat < S4096.size a := fun v706 k0_hw915 => k0_hw915

def k0_chk916 (v651 : IVec S16 32) (v710 : IVec S16 32) : Prop :=
  (∀ a x, ((![v651, v710] : Fin 2 → IVec S16 32) a x).toNat < S128x200.size a)
instance k0_chk916.dec : ∀ (v651 : IVec S16 32) (v710 : IVec S16 32), Decidable (k0_chk916 v651 v710) := fun v651 v710 => decidable_of_iff' _ (Iff.of_eq (k0_chk916.eq_1 v651 v710))
theorem k0_idx916_inb : ∀ (v651 : IVec S16 32) (v710 : IVec S16 32) (k0_hw916 : k0_chk916 v651 v710), ∀ a x, ((![v651, v710] : Fin 2 → IVec S16 32) a x).toNat < S128x200.size a := fun v651 v710 k0_hw916 => k0_hw916

def k0_chk917 (v651 : IVec S16 32) (v715 : IVec S16 32) : Prop :=
  (∀ a x, ((![v651, v715] : Fin 2 → IVec S16 32) a x).toNat < S128x200.size a)
instance k0_chk917.dec : ∀ (v651 : IVec S16 32) (v715 : IVec S16 32), Decidable (k0_chk917 v651 v715) := fun v651 v715 => decidable_of_iff' _ (Iff.of_eq (k0_chk917.eq_1 v651 v715))
theorem k0_idx917_inb : ∀ (v651 : IVec S16 32) (v715 : IVec S16 32) (k0_hw917 : k0_chk917 v651 v715), ∀ a x, ((![v651, v715] : Fin 2 → IVec S16 32) a x).toNat < S128x200.size a := fun v651 v715 k0_hw917 => k0_hw917

def k0_chk918 (v651 : IVec S16 32) (v720 : IVec S16 32) : Prop :=
  (∀ a x, ((![v651, v720] : Fin 2 → IVec S16 32) a x).toNat < S128x200.size a)
instance k0_chk918.dec : ∀ (v651 : IVec S16 32) (v720 : IVec S16 32), Decidable (k0_chk918 v651 v720) := fun v651 v720 => decidable_of_iff' _ (Iff.of_eq (k0_chk918.eq_1 v651 v720))
theorem k0_idx918_inb : ∀ (v651 : IVec S16 32) (v720 : IVec S16 32) (k0_hw918 : k0_chk918 v651 v720), ∀ a x, ((![v651, v720] : Fin 2 → IVec S16 32) a x).toNat < S128x200.size a := fun v651 v720 k0_hw918 => k0_hw918

def k0_chk919 (v651 : IVec S16 32) (v725 : IVec S16 32) : Prop :=
  (∀ a x, ((![v651, v725] : Fin 2 → IVec S16 32) a x).toNat < S128x200.size a)
instance k0_chk919.dec : ∀ (v651 : IVec S16 32) (v725 : IVec S16 32), Decidable (k0_chk919 v651 v725) := fun v651 v725 => decidable_of_iff' _ (Iff.of_eq (k0_chk919.eq_1 v651 v725))
theorem k0_idx919_inb : ∀ (v651 : IVec S16 32) (v725 : IVec S16 32) (k0_hw919 : k0_chk919 v651 v725), ∀ a x, ((![v651, v725] : Fin 2 → IVec S16 32) a x).toNat < S128x200.size a := fun v651 v725 k0_hw919 => k0_hw919

def k0_chk920 (v735 : IVec S16 32) : Prop :=
  (∀ a x, ((![v735] : Fin 1 → IVec S16 32) a x).toNat < S4096.size a)
instance k0_chk920.dec : ∀ (v735 : IVec S16 32), Decidable (k0_chk920 v735) := fun v735 => decidable_of_iff' _ (Iff.of_eq (k0_chk920.eq_1 v735))
theorem k0_idx920_inb : ∀ (v735 : IVec S16 32) (k0_hw920 : k0_chk920 v735), ∀ a x, ((![v735] : Fin 1 → IVec S16 32) a x).toNat < S4096.size a := fun v735 k0_hw920 => k0_hw920

def k0_chk921 (v651 : IVec S16 32) (v739 : IVec S16 32) : Prop :=
  (∀ a x, ((![v651, v739] : Fin 2 → IVec S16 32) a x).toNat < S128x200.size a)
instance k0_chk921.dec : ∀ (v651 : IVec S16 32) (v739 : IVec S16 32), Decidable (k0_chk921 v651 v739) := fun v651 v739 => decidable_of_iff' _ (Iff.of_eq (k0_chk921.eq_1 v651 v739))
theorem k0_idx921_inb : ∀ (v651 : IVec S16 32) (v739 : IVec S16 32) (k0_hw921 : k0_chk921 v651 v739), ∀ a x, ((![v651, v739] : Fin 2 → IVec S16 32) a x).toNat < S128x200.size a := fun v651 v739 k0_hw921 => k0_hw921

def k0_chk922 (v743 : IVec S16 32) : Prop :=
  (∀ a x, ((![v743] : Fin 1 → IVec S16 32) a x).toNat < S272.size a)
instance k0_chk922.dec : ∀ (v743 : IVec S16 32), Decidable (k0_chk922 v743) := fun v743 => decidable_of_iff' _ (Iff.of_eq (k0_chk922.eq_1 v743))
theorem k0_idx922_inb : ∀ (v743 : IVec S16 32) (k0_hw922 : k0_chk922 v743), ∀ a x, ((![v743] : Fin 1 → IVec S16 32) a x).toNat < S272.size a := fun v743 k0_hw922 => k0_hw922
def k0_off66 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c0_i32_250 : BitVec 32 := 0#32
  let v747 : BitVec 32 := Scalar.addi v648 c0_i32_250
  let v748 : Index := Scalar.indexCast v747
  ![v748.toNat]

def k0_chk923 (v752 : IVec S16 32) (v754 : IVec S16 32) : Prop :=
  (∀ a x, ((![v752, v754] : Fin 2 → IVec S16 32) a x).toNat < S128x200.size a)
instance k0_chk923.dec : ∀ (v752 : IVec S16 32) (v754 : IVec S16 32), Decidable (k0_chk923 v752 v754) := fun v752 v754 => decidable_of_iff' _ (Iff.of_eq (k0_chk923.eq_1 v752 v754))
theorem k0_idx923_inb : ∀ (v752 : IVec S16 32) (v754 : IVec S16 32) (k0_hw923 : k0_chk923 v752 v754), ∀ a x, ((![v752, v754] : Fin 2 → IVec S16 32) a x).toNat < S128x200.size a := fun v752 v754 k0_hw923 => k0_hw923

def k0_chk924 (v752 : IVec S16 32) (v759 : IVec S16 32) : Prop :=
  (∀ a x, ((![v752, v759] : Fin 2 → IVec S16 32) a x).toNat < S128x200.size a)
instance k0_chk924.dec : ∀ (v752 : IVec S16 32) (v759 : IVec S16 32), Decidable (k0_chk924 v752 v759) := fun v752 v759 => decidable_of_iff' _ (Iff.of_eq (k0_chk924.eq_1 v752 v759))
theorem k0_idx924_inb : ∀ (v752 : IVec S16 32) (v759 : IVec S16 32) (k0_hw924 : k0_chk924 v752 v759), ∀ a x, ((![v752, v759] : Fin 2 → IVec S16 32) a x).toNat < S128x200.size a := fun v752 v759 k0_hw924 => k0_hw924

def k0_chk925 (v752 : IVec S16 32) (v764 : IVec S16 32) : Prop :=
  (∀ a x, ((![v752, v764] : Fin 2 → IVec S16 32) a x).toNat < S128x200.size a)
instance k0_chk925.dec : ∀ (v752 : IVec S16 32) (v764 : IVec S16 32), Decidable (k0_chk925 v752 v764) := fun v752 v764 => decidable_of_iff' _ (Iff.of_eq (k0_chk925.eq_1 v752 v764))
theorem k0_idx925_inb : ∀ (v752 : IVec S16 32) (v764 : IVec S16 32) (k0_hw925 : k0_chk925 v752 v764), ∀ a x, ((![v752, v764] : Fin 2 → IVec S16 32) a x).toNat < S128x200.size a := fun v752 v764 k0_hw925 => k0_hw925

def k0_chk926 (v752 : IVec S16 32) (v769 : IVec S16 32) : Prop :=
  (∀ a x, ((![v752, v769] : Fin 2 → IVec S16 32) a x).toNat < S128x200.size a)
instance k0_chk926.dec : ∀ (v752 : IVec S16 32) (v769 : IVec S16 32), Decidable (k0_chk926 v752 v769) := fun v752 v769 => decidable_of_iff' _ (Iff.of_eq (k0_chk926.eq_1 v752 v769))
theorem k0_idx926_inb : ∀ (v752 : IVec S16 32) (v769 : IVec S16 32) (k0_hw926 : k0_chk926 v752 v769), ∀ a x, ((![v752, v769] : Fin 2 → IVec S16 32) a x).toNat < S128x200.size a := fun v752 v769 k0_hw926 => k0_hw926

def k0_chk927 (v779 : IVec S16 32) : Prop :=
  (∀ a x, ((![v779] : Fin 1 → IVec S16 32) a x).toNat < S4096.size a)
instance k0_chk927.dec : ∀ (v779 : IVec S16 32), Decidable (k0_chk927 v779) := fun v779 => decidable_of_iff' _ (Iff.of_eq (k0_chk927.eq_1 v779))
theorem k0_idx927_inb : ∀ (v779 : IVec S16 32) (k0_hw927 : k0_chk927 v779), ∀ a x, ((![v779] : Fin 1 → IVec S16 32) a x).toNat < S4096.size a := fun v779 k0_hw927 => k0_hw927

def k0_chk928 (v752 : IVec S16 32) (v782 : IVec S16 32) : Prop :=
  (∀ a x, ((![v752, v782] : Fin 2 → IVec S16 32) a x).toNat < S128x200.size a)
instance k0_chk928.dec : ∀ (v752 : IVec S16 32) (v782 : IVec S16 32), Decidable (k0_chk928 v752 v782) := fun v752 v782 => decidable_of_iff' _ (Iff.of_eq (k0_chk928.eq_1 v752 v782))
theorem k0_idx928_inb : ∀ (v752 : IVec S16 32) (v782 : IVec S16 32) (k0_hw928 : k0_chk928 v752 v782), ∀ a x, ((![v752, v782] : Fin 2 → IVec S16 32) a x).toNat < S128x200.size a := fun v752 v782 k0_hw928 => k0_hw928

def k0_chk929 (v752 : IVec S16 32) (v787 : IVec S16 32) : Prop :=
  (∀ a x, ((![v752, v787] : Fin 2 → IVec S16 32) a x).toNat < S128x200.size a)
instance k0_chk929.dec : ∀ (v752 : IVec S16 32) (v787 : IVec S16 32), Decidable (k0_chk929 v752 v787) := fun v752 v787 => decidable_of_iff' _ (Iff.of_eq (k0_chk929.eq_1 v752 v787))
theorem k0_idx929_inb : ∀ (v752 : IVec S16 32) (v787 : IVec S16 32) (k0_hw929 : k0_chk929 v752 v787), ∀ a x, ((![v752, v787] : Fin 2 → IVec S16 32) a x).toNat < S128x200.size a := fun v752 v787 k0_hw929 => k0_hw929

def k0_chk930 (v752 : IVec S16 32) (v792 : IVec S16 32) : Prop :=
  (∀ a x, ((![v752, v792] : Fin 2 → IVec S16 32) a x).toNat < S128x200.size a)
instance k0_chk930.dec : ∀ (v752 : IVec S16 32) (v792 : IVec S16 32), Decidable (k0_chk930 v752 v792) := fun v752 v792 => decidable_of_iff' _ (Iff.of_eq (k0_chk930.eq_1 v752 v792))
theorem k0_idx930_inb : ∀ (v752 : IVec S16 32) (v792 : IVec S16 32) (k0_hw930 : k0_chk930 v752 v792), ∀ a x, ((![v752, v792] : Fin 2 → IVec S16 32) a x).toNat < S128x200.size a := fun v752 v792 k0_hw930 => k0_hw930

def k0_chk931 (v752 : IVec S16 32) (v797 : IVec S16 32) : Prop :=
  (∀ a x, ((![v752, v797] : Fin 2 → IVec S16 32) a x).toNat < S128x200.size a)
instance k0_chk931.dec : ∀ (v752 : IVec S16 32) (v797 : IVec S16 32), Decidable (k0_chk931 v752 v797) := fun v752 v797 => decidable_of_iff' _ (Iff.of_eq (k0_chk931.eq_1 v752 v797))
theorem k0_idx931_inb : ∀ (v752 : IVec S16 32) (v797 : IVec S16 32) (k0_hw931 : k0_chk931 v752 v797), ∀ a x, ((![v752, v797] : Fin 2 → IVec S16 32) a x).toNat < S128x200.size a := fun v752 v797 k0_hw931 => k0_hw931

def k0_chk932 (v807 : IVec S16 32) : Prop :=
  (∀ a x, ((![v807] : Fin 1 → IVec S16 32) a x).toNat < S4096.size a)
instance k0_chk932.dec : ∀ (v807 : IVec S16 32), Decidable (k0_chk932 v807) := fun v807 => decidable_of_iff' _ (Iff.of_eq (k0_chk932.eq_1 v807))
theorem k0_idx932_inb : ∀ (v807 : IVec S16 32) (k0_hw932 : k0_chk932 v807), ∀ a x, ((![v807] : Fin 1 → IVec S16 32) a x).toNat < S4096.size a := fun v807 k0_hw932 => k0_hw932

def k0_chk933 (v752 : IVec S16 32) (v811 : IVec S16 32) : Prop :=
  (∀ a x, ((![v752, v811] : Fin 2 → IVec S16 32) a x).toNat < S128x200.size a)
instance k0_chk933.dec : ∀ (v752 : IVec S16 32) (v811 : IVec S16 32), Decidable (k0_chk933 v752 v811) := fun v752 v811 => decidable_of_iff' _ (Iff.of_eq (k0_chk933.eq_1 v752 v811))
theorem k0_idx933_inb : ∀ (v752 : IVec S16 32) (v811 : IVec S16 32) (k0_hw933 : k0_chk933 v752 v811), ∀ a x, ((![v752, v811] : Fin 2 → IVec S16 32) a x).toNat < S128x200.size a := fun v752 v811 k0_hw933 => k0_hw933

def k0_chk934 (v752 : IVec S16 32) (v816 : IVec S16 32) : Prop :=
  (∀ a x, ((![v752, v816] : Fin 2 → IVec S16 32) a x).toNat < S128x200.size a)
instance k0_chk934.dec : ∀ (v752 : IVec S16 32) (v816 : IVec S16 32), Decidable (k0_chk934 v752 v816) := fun v752 v816 => decidable_of_iff' _ (Iff.of_eq (k0_chk934.eq_1 v752 v816))
theorem k0_idx934_inb : ∀ (v752 : IVec S16 32) (v816 : IVec S16 32) (k0_hw934 : k0_chk934 v752 v816), ∀ a x, ((![v752, v816] : Fin 2 → IVec S16 32) a x).toNat < S128x200.size a := fun v752 v816 k0_hw934 => k0_hw934

def k0_chk935 (v752 : IVec S16 32) (v821 : IVec S16 32) : Prop :=
  (∀ a x, ((![v752, v821] : Fin 2 → IVec S16 32) a x).toNat < S128x200.size a)
instance k0_chk935.dec : ∀ (v752 : IVec S16 32) (v821 : IVec S16 32), Decidable (k0_chk935 v752 v821) := fun v752 v821 => decidable_of_iff' _ (Iff.of_eq (k0_chk935.eq_1 v752 v821))
theorem k0_idx935_inb : ∀ (v752 : IVec S16 32) (v821 : IVec S16 32) (k0_hw935 : k0_chk935 v752 v821), ∀ a x, ((![v752, v821] : Fin 2 → IVec S16 32) a x).toNat < S128x200.size a := fun v752 v821 k0_hw935 => k0_hw935

def k0_chk936 (v752 : IVec S16 32) (v826 : IVec S16 32) : Prop :=
  (∀ a x, ((![v752, v826] : Fin 2 → IVec S16 32) a x).toNat < S128x200.size a)
instance k0_chk936.dec : ∀ (v752 : IVec S16 32) (v826 : IVec S16 32), Decidable (k0_chk936 v752 v826) := fun v752 v826 => decidable_of_iff' _ (Iff.of_eq (k0_chk936.eq_1 v752 v826))
theorem k0_idx936_inb : ∀ (v752 : IVec S16 32) (v826 : IVec S16 32) (k0_hw936 : k0_chk936 v752 v826), ∀ a x, ((![v752, v826] : Fin 2 → IVec S16 32) a x).toNat < S128x200.size a := fun v752 v826 k0_hw936 => k0_hw936

def k0_chk937 (v836 : IVec S16 32) : Prop :=
  (∀ a x, ((![v836] : Fin 1 → IVec S16 32) a x).toNat < S4096.size a)
instance k0_chk937.dec : ∀ (v836 : IVec S16 32), Decidable (k0_chk937 v836) := fun v836 => decidable_of_iff' _ (Iff.of_eq (k0_chk937.eq_1 v836))
theorem k0_idx937_inb : ∀ (v836 : IVec S16 32) (k0_hw937 : k0_chk937 v836), ∀ a x, ((![v836] : Fin 1 → IVec S16 32) a x).toNat < S4096.size a := fun v836 k0_hw937 => k0_hw937

def k0_chk938 (v752 : IVec S16 32) (v840 : IVec S16 32) : Prop :=
  (∀ a x, ((![v752, v840] : Fin 2 → IVec S16 32) a x).toNat < S128x200.size a)
instance k0_chk938.dec : ∀ (v752 : IVec S16 32) (v840 : IVec S16 32), Decidable (k0_chk938 v752 v840) := fun v752 v840 => decidable_of_iff' _ (Iff.of_eq (k0_chk938.eq_1 v752 v840))
theorem k0_idx938_inb : ∀ (v752 : IVec S16 32) (v840 : IVec S16 32) (k0_hw938 : k0_chk938 v752 v840), ∀ a x, ((![v752, v840] : Fin 2 → IVec S16 32) a x).toNat < S128x200.size a := fun v752 v840 k0_hw938 => k0_hw938

def k0_chk939 (v844 : IVec S16 32) : Prop :=
  (∀ a x, ((![v844] : Fin 1 → IVec S16 32) a x).toNat < S272.size a)
instance k0_chk939.dec : ∀ (v844 : IVec S16 32), Decidable (k0_chk939 v844) := fun v844 => decidable_of_iff' _ (Iff.of_eq (k0_chk939.eq_1 v844))
theorem k0_idx939_inb : ∀ (v844 : IVec S16 32) (k0_hw939 : k0_chk939 v844), ∀ a x, ((![v844] : Fin 1 → IVec S16 32) a x).toNat < S272.size a := fun v844 k0_hw939 => k0_hw939
def k0_off67 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c16_i32_285 : BitVec 32 := 16#32
  let v848 : BitVec 32 := Scalar.addi v648 c16_i32_285
  let v849 : Index := Scalar.indexCast v848
  ![v849.toNat]

def k0_chk940 (v853 : IVec S16 32) (v855 : IVec S16 32) : Prop :=
  (∀ a x, ((![v853, v855] : Fin 2 → IVec S16 32) a x).toNat < S128x200.size a)
instance k0_chk940.dec : ∀ (v853 : IVec S16 32) (v855 : IVec S16 32), Decidable (k0_chk940 v853 v855) := fun v853 v855 => decidable_of_iff' _ (Iff.of_eq (k0_chk940.eq_1 v853 v855))
theorem k0_idx940_inb : ∀ (v853 : IVec S16 32) (v855 : IVec S16 32) (k0_hw940 : k0_chk940 v853 v855), ∀ a x, ((![v853, v855] : Fin 2 → IVec S16 32) a x).toNat < S128x200.size a := fun v853 v855 k0_hw940 => k0_hw940

def k0_chk941 (v853 : IVec S16 32) (v860 : IVec S16 32) : Prop :=
  (∀ a x, ((![v853, v860] : Fin 2 → IVec S16 32) a x).toNat < S128x200.size a)
instance k0_chk941.dec : ∀ (v853 : IVec S16 32) (v860 : IVec S16 32), Decidable (k0_chk941 v853 v860) := fun v853 v860 => decidable_of_iff' _ (Iff.of_eq (k0_chk941.eq_1 v853 v860))
theorem k0_idx941_inb : ∀ (v853 : IVec S16 32) (v860 : IVec S16 32) (k0_hw941 : k0_chk941 v853 v860), ∀ a x, ((![v853, v860] : Fin 2 → IVec S16 32) a x).toNat < S128x200.size a := fun v853 v860 k0_hw941 => k0_hw941

def k0_chk942 (v853 : IVec S16 32) (v865 : IVec S16 32) : Prop :=
  (∀ a x, ((![v853, v865] : Fin 2 → IVec S16 32) a x).toNat < S128x200.size a)
instance k0_chk942.dec : ∀ (v853 : IVec S16 32) (v865 : IVec S16 32), Decidable (k0_chk942 v853 v865) := fun v853 v865 => decidable_of_iff' _ (Iff.of_eq (k0_chk942.eq_1 v853 v865))
theorem k0_idx942_inb : ∀ (v853 : IVec S16 32) (v865 : IVec S16 32) (k0_hw942 : k0_chk942 v853 v865), ∀ a x, ((![v853, v865] : Fin 2 → IVec S16 32) a x).toNat < S128x200.size a := fun v853 v865 k0_hw942 => k0_hw942

def k0_chk943 (v853 : IVec S16 32) (v870 : IVec S16 32) : Prop :=
  (∀ a x, ((![v853, v870] : Fin 2 → IVec S16 32) a x).toNat < S128x200.size a)
instance k0_chk943.dec : ∀ (v853 : IVec S16 32) (v870 : IVec S16 32), Decidable (k0_chk943 v853 v870) := fun v853 v870 => decidable_of_iff' _ (Iff.of_eq (k0_chk943.eq_1 v853 v870))
theorem k0_idx943_inb : ∀ (v853 : IVec S16 32) (v870 : IVec S16 32) (k0_hw943 : k0_chk943 v853 v870), ∀ a x, ((![v853, v870] : Fin 2 → IVec S16 32) a x).toNat < S128x200.size a := fun v853 v870 k0_hw943 => k0_hw943

def k0_chk944 (v880 : IVec S16 32) : Prop :=
  (∀ a x, ((![v880] : Fin 1 → IVec S16 32) a x).toNat < S4096.size a)
instance k0_chk944.dec : ∀ (v880 : IVec S16 32), Decidable (k0_chk944 v880) := fun v880 => decidable_of_iff' _ (Iff.of_eq (k0_chk944.eq_1 v880))
theorem k0_idx944_inb : ∀ (v880 : IVec S16 32) (k0_hw944 : k0_chk944 v880), ∀ a x, ((![v880] : Fin 1 → IVec S16 32) a x).toNat < S4096.size a := fun v880 k0_hw944 => k0_hw944

def k0_chk945 (v853 : IVec S16 32) (v883 : IVec S16 32) : Prop :=
  (∀ a x, ((![v853, v883] : Fin 2 → IVec S16 32) a x).toNat < S128x200.size a)
instance k0_chk945.dec : ∀ (v853 : IVec S16 32) (v883 : IVec S16 32), Decidable (k0_chk945 v853 v883) := fun v853 v883 => decidable_of_iff' _ (Iff.of_eq (k0_chk945.eq_1 v853 v883))
theorem k0_idx945_inb : ∀ (v853 : IVec S16 32) (v883 : IVec S16 32) (k0_hw945 : k0_chk945 v853 v883), ∀ a x, ((![v853, v883] : Fin 2 → IVec S16 32) a x).toNat < S128x200.size a := fun v853 v883 k0_hw945 => k0_hw945

def k0_chk946 (v853 : IVec S16 32) (v888 : IVec S16 32) : Prop :=
  (∀ a x, ((![v853, v888] : Fin 2 → IVec S16 32) a x).toNat < S128x200.size a)
instance k0_chk946.dec : ∀ (v853 : IVec S16 32) (v888 : IVec S16 32), Decidable (k0_chk946 v853 v888) := fun v853 v888 => decidable_of_iff' _ (Iff.of_eq (k0_chk946.eq_1 v853 v888))
theorem k0_idx946_inb : ∀ (v853 : IVec S16 32) (v888 : IVec S16 32) (k0_hw946 : k0_chk946 v853 v888), ∀ a x, ((![v853, v888] : Fin 2 → IVec S16 32) a x).toNat < S128x200.size a := fun v853 v888 k0_hw946 => k0_hw946

def k0_chk947 (v853 : IVec S16 32) (v893 : IVec S16 32) : Prop :=
  (∀ a x, ((![v853, v893] : Fin 2 → IVec S16 32) a x).toNat < S128x200.size a)
instance k0_chk947.dec : ∀ (v853 : IVec S16 32) (v893 : IVec S16 32), Decidable (k0_chk947 v853 v893) := fun v853 v893 => decidable_of_iff' _ (Iff.of_eq (k0_chk947.eq_1 v853 v893))
theorem k0_idx947_inb : ∀ (v853 : IVec S16 32) (v893 : IVec S16 32) (k0_hw947 : k0_chk947 v853 v893), ∀ a x, ((![v853, v893] : Fin 2 → IVec S16 32) a x).toNat < S128x200.size a := fun v853 v893 k0_hw947 => k0_hw947

def k0_chk948 (v853 : IVec S16 32) (v898 : IVec S16 32) : Prop :=
  (∀ a x, ((![v853, v898] : Fin 2 → IVec S16 32) a x).toNat < S128x200.size a)
instance k0_chk948.dec : ∀ (v853 : IVec S16 32) (v898 : IVec S16 32), Decidable (k0_chk948 v853 v898) := fun v853 v898 => decidable_of_iff' _ (Iff.of_eq (k0_chk948.eq_1 v853 v898))
theorem k0_idx948_inb : ∀ (v853 : IVec S16 32) (v898 : IVec S16 32) (k0_hw948 : k0_chk948 v853 v898), ∀ a x, ((![v853, v898] : Fin 2 → IVec S16 32) a x).toNat < S128x200.size a := fun v853 v898 k0_hw948 => k0_hw948

def k0_chk949 (v908 : IVec S16 32) : Prop :=
  (∀ a x, ((![v908] : Fin 1 → IVec S16 32) a x).toNat < S4096.size a)
instance k0_chk949.dec : ∀ (v908 : IVec S16 32), Decidable (k0_chk949 v908) := fun v908 => decidable_of_iff' _ (Iff.of_eq (k0_chk949.eq_1 v908))
theorem k0_idx949_inb : ∀ (v908 : IVec S16 32) (k0_hw949 : k0_chk949 v908), ∀ a x, ((![v908] : Fin 1 → IVec S16 32) a x).toNat < S4096.size a := fun v908 k0_hw949 => k0_hw949

def k0_chk950 (v853 : IVec S16 32) (v912 : IVec S16 32) : Prop :=
  (∀ a x, ((![v853, v912] : Fin 2 → IVec S16 32) a x).toNat < S128x200.size a)
instance k0_chk950.dec : ∀ (v853 : IVec S16 32) (v912 : IVec S16 32), Decidable (k0_chk950 v853 v912) := fun v853 v912 => decidable_of_iff' _ (Iff.of_eq (k0_chk950.eq_1 v853 v912))
theorem k0_idx950_inb : ∀ (v853 : IVec S16 32) (v912 : IVec S16 32) (k0_hw950 : k0_chk950 v853 v912), ∀ a x, ((![v853, v912] : Fin 2 → IVec S16 32) a x).toNat < S128x200.size a := fun v853 v912 k0_hw950 => k0_hw950

def k0_chk951 (v853 : IVec S16 32) (v917 : IVec S16 32) : Prop :=
  (∀ a x, ((![v853, v917] : Fin 2 → IVec S16 32) a x).toNat < S128x200.size a)
instance k0_chk951.dec : ∀ (v853 : IVec S16 32) (v917 : IVec S16 32), Decidable (k0_chk951 v853 v917) := fun v853 v917 => decidable_of_iff' _ (Iff.of_eq (k0_chk951.eq_1 v853 v917))
theorem k0_idx951_inb : ∀ (v853 : IVec S16 32) (v917 : IVec S16 32) (k0_hw951 : k0_chk951 v853 v917), ∀ a x, ((![v853, v917] : Fin 2 → IVec S16 32) a x).toNat < S128x200.size a := fun v853 v917 k0_hw951 => k0_hw951

def k0_chk952 (v853 : IVec S16 32) (v922 : IVec S16 32) : Prop :=
  (∀ a x, ((![v853, v922] : Fin 2 → IVec S16 32) a x).toNat < S128x200.size a)
instance k0_chk952.dec : ∀ (v853 : IVec S16 32) (v922 : IVec S16 32), Decidable (k0_chk952 v853 v922) := fun v853 v922 => decidable_of_iff' _ (Iff.of_eq (k0_chk952.eq_1 v853 v922))
theorem k0_idx952_inb : ∀ (v853 : IVec S16 32) (v922 : IVec S16 32) (k0_hw952 : k0_chk952 v853 v922), ∀ a x, ((![v853, v922] : Fin 2 → IVec S16 32) a x).toNat < S128x200.size a := fun v853 v922 k0_hw952 => k0_hw952

def k0_chk953 (v853 : IVec S16 32) (v927 : IVec S16 32) : Prop :=
  (∀ a x, ((![v853, v927] : Fin 2 → IVec S16 32) a x).toNat < S128x200.size a)
instance k0_chk953.dec : ∀ (v853 : IVec S16 32) (v927 : IVec S16 32), Decidable (k0_chk953 v853 v927) := fun v853 v927 => decidable_of_iff' _ (Iff.of_eq (k0_chk953.eq_1 v853 v927))
theorem k0_idx953_inb : ∀ (v853 : IVec S16 32) (v927 : IVec S16 32) (k0_hw953 : k0_chk953 v853 v927), ∀ a x, ((![v853, v927] : Fin 2 → IVec S16 32) a x).toNat < S128x200.size a := fun v853 v927 k0_hw953 => k0_hw953

def k0_chk954 (v937 : IVec S16 32) : Prop :=
  (∀ a x, ((![v937] : Fin 1 → IVec S16 32) a x).toNat < S4096.size a)
instance k0_chk954.dec : ∀ (v937 : IVec S16 32), Decidable (k0_chk954 v937) := fun v937 => decidable_of_iff' _ (Iff.of_eq (k0_chk954.eq_1 v937))
theorem k0_idx954_inb : ∀ (v937 : IVec S16 32) (k0_hw954 : k0_chk954 v937), ∀ a x, ((![v937] : Fin 1 → IVec S16 32) a x).toNat < S4096.size a := fun v937 k0_hw954 => k0_hw954

def k0_chk955 (v853 : IVec S16 32) (v941 : IVec S16 32) : Prop :=
  (∀ a x, ((![v853, v941] : Fin 2 → IVec S16 32) a x).toNat < S128x200.size a)
instance k0_chk955.dec : ∀ (v853 : IVec S16 32) (v941 : IVec S16 32), Decidable (k0_chk955 v853 v941) := fun v853 v941 => decidable_of_iff' _ (Iff.of_eq (k0_chk955.eq_1 v853 v941))
theorem k0_idx955_inb : ∀ (v853 : IVec S16 32) (v941 : IVec S16 32) (k0_hw955 : k0_chk955 v853 v941), ∀ a x, ((![v853, v941] : Fin 2 → IVec S16 32) a x).toNat < S128x200.size a := fun v853 v941 k0_hw955 => k0_hw955

def k0_chk956 (v945 : IVec S16 32) : Prop :=
  (∀ a x, ((![v945] : Fin 1 → IVec S16 32) a x).toNat < S272.size a)
instance k0_chk956.dec : ∀ (v945 : IVec S16 32), Decidable (k0_chk956 v945) := fun v945 => decidable_of_iff' _ (Iff.of_eq (k0_chk956.eq_1 v945))
theorem k0_idx956_inb : ∀ (v945 : IVec S16 32) (k0_hw956 : k0_chk956 v945), ∀ a x, ((![v945] : Fin 1 → IVec S16 32) a x).toNat < S272.size a := fun v945 k0_hw956 => k0_hw956
def k0_off68 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c32_i32_320 : BitVec 32 := 32#32
  let v949 : BitVec 32 := Scalar.addi v648 c32_i32_320
  let v950 : Index := Scalar.indexCast v949
  ![v950.toNat]

def k0_chk957 (v954 : IVec S16 32) (v956 : IVec S16 32) : Prop :=
  (∀ a x, ((![v954, v956] : Fin 2 → IVec S16 32) a x).toNat < S128x200.size a)
instance k0_chk957.dec : ∀ (v954 : IVec S16 32) (v956 : IVec S16 32), Decidable (k0_chk957 v954 v956) := fun v954 v956 => decidable_of_iff' _ (Iff.of_eq (k0_chk957.eq_1 v954 v956))
theorem k0_idx957_inb : ∀ (v954 : IVec S16 32) (v956 : IVec S16 32) (k0_hw957 : k0_chk957 v954 v956), ∀ a x, ((![v954, v956] : Fin 2 → IVec S16 32) a x).toNat < S128x200.size a := fun v954 v956 k0_hw957 => k0_hw957

def k0_chk958 (v954 : IVec S16 32) (v961 : IVec S16 32) : Prop :=
  (∀ a x, ((![v954, v961] : Fin 2 → IVec S16 32) a x).toNat < S128x200.size a)
instance k0_chk958.dec : ∀ (v954 : IVec S16 32) (v961 : IVec S16 32), Decidable (k0_chk958 v954 v961) := fun v954 v961 => decidable_of_iff' _ (Iff.of_eq (k0_chk958.eq_1 v954 v961))
theorem k0_idx958_inb : ∀ (v954 : IVec S16 32) (v961 : IVec S16 32) (k0_hw958 : k0_chk958 v954 v961), ∀ a x, ((![v954, v961] : Fin 2 → IVec S16 32) a x).toNat < S128x200.size a := fun v954 v961 k0_hw958 => k0_hw958

def k0_chk959 (v954 : IVec S16 32) (v966 : IVec S16 32) : Prop :=
  (∀ a x, ((![v954, v966] : Fin 2 → IVec S16 32) a x).toNat < S128x200.size a)
instance k0_chk959.dec : ∀ (v954 : IVec S16 32) (v966 : IVec S16 32), Decidable (k0_chk959 v954 v966) := fun v954 v966 => decidable_of_iff' _ (Iff.of_eq (k0_chk959.eq_1 v954 v966))
theorem k0_idx959_inb : ∀ (v954 : IVec S16 32) (v966 : IVec S16 32) (k0_hw959 : k0_chk959 v954 v966), ∀ a x, ((![v954, v966] : Fin 2 → IVec S16 32) a x).toNat < S128x200.size a := fun v954 v966 k0_hw959 => k0_hw959

def k0_chk960 (v954 : IVec S16 32) (v971 : IVec S16 32) : Prop :=
  (∀ a x, ((![v954, v971] : Fin 2 → IVec S16 32) a x).toNat < S128x200.size a)
instance k0_chk960.dec : ∀ (v954 : IVec S16 32) (v971 : IVec S16 32), Decidable (k0_chk960 v954 v971) := fun v954 v971 => decidable_of_iff' _ (Iff.of_eq (k0_chk960.eq_1 v954 v971))
theorem k0_idx960_inb : ∀ (v954 : IVec S16 32) (v971 : IVec S16 32) (k0_hw960 : k0_chk960 v954 v971), ∀ a x, ((![v954, v971] : Fin 2 → IVec S16 32) a x).toNat < S128x200.size a := fun v954 v971 k0_hw960 => k0_hw960

def k0_chk961 (v981 : IVec S16 32) : Prop :=
  (∀ a x, ((![v981] : Fin 1 → IVec S16 32) a x).toNat < S4096.size a)
instance k0_chk961.dec : ∀ (v981 : IVec S16 32), Decidable (k0_chk961 v981) := fun v981 => decidable_of_iff' _ (Iff.of_eq (k0_chk961.eq_1 v981))
theorem k0_idx961_inb : ∀ (v981 : IVec S16 32) (k0_hw961 : k0_chk961 v981), ∀ a x, ((![v981] : Fin 1 → IVec S16 32) a x).toNat < S4096.size a := fun v981 k0_hw961 => k0_hw961

def k0_chk962 (v954 : IVec S16 32) (v984 : IVec S16 32) : Prop :=
  (∀ a x, ((![v954, v984] : Fin 2 → IVec S16 32) a x).toNat < S128x200.size a)
instance k0_chk962.dec : ∀ (v954 : IVec S16 32) (v984 : IVec S16 32), Decidable (k0_chk962 v954 v984) := fun v954 v984 => decidable_of_iff' _ (Iff.of_eq (k0_chk962.eq_1 v954 v984))
theorem k0_idx962_inb : ∀ (v954 : IVec S16 32) (v984 : IVec S16 32) (k0_hw962 : k0_chk962 v954 v984), ∀ a x, ((![v954, v984] : Fin 2 → IVec S16 32) a x).toNat < S128x200.size a := fun v954 v984 k0_hw962 => k0_hw962

def k0_chk963 (v954 : IVec S16 32) (v989 : IVec S16 32) : Prop :=
  (∀ a x, ((![v954, v989] : Fin 2 → IVec S16 32) a x).toNat < S128x200.size a)
instance k0_chk963.dec : ∀ (v954 : IVec S16 32) (v989 : IVec S16 32), Decidable (k0_chk963 v954 v989) := fun v954 v989 => decidable_of_iff' _ (Iff.of_eq (k0_chk963.eq_1 v954 v989))
theorem k0_idx963_inb : ∀ (v954 : IVec S16 32) (v989 : IVec S16 32) (k0_hw963 : k0_chk963 v954 v989), ∀ a x, ((![v954, v989] : Fin 2 → IVec S16 32) a x).toNat < S128x200.size a := fun v954 v989 k0_hw963 => k0_hw963

def k0_chk964 (v954 : IVec S16 32) (v994 : IVec S16 32) : Prop :=
  (∀ a x, ((![v954, v994] : Fin 2 → IVec S16 32) a x).toNat < S128x200.size a)
instance k0_chk964.dec : ∀ (v954 : IVec S16 32) (v994 : IVec S16 32), Decidable (k0_chk964 v954 v994) := fun v954 v994 => decidable_of_iff' _ (Iff.of_eq (k0_chk964.eq_1 v954 v994))
theorem k0_idx964_inb : ∀ (v954 : IVec S16 32) (v994 : IVec S16 32) (k0_hw964 : k0_chk964 v954 v994), ∀ a x, ((![v954, v994] : Fin 2 → IVec S16 32) a x).toNat < S128x200.size a := fun v954 v994 k0_hw964 => k0_hw964

def k0_chk965 (v954 : IVec S16 32) (v999 : IVec S16 32) : Prop :=
  (∀ a x, ((![v954, v999] : Fin 2 → IVec S16 32) a x).toNat < S128x200.size a)
instance k0_chk965.dec : ∀ (v954 : IVec S16 32) (v999 : IVec S16 32), Decidable (k0_chk965 v954 v999) := fun v954 v999 => decidable_of_iff' _ (Iff.of_eq (k0_chk965.eq_1 v954 v999))
theorem k0_idx965_inb : ∀ (v954 : IVec S16 32) (v999 : IVec S16 32) (k0_hw965 : k0_chk965 v954 v999), ∀ a x, ((![v954, v999] : Fin 2 → IVec S16 32) a x).toNat < S128x200.size a := fun v954 v999 k0_hw965 => k0_hw965

def k0_chk966 (v1009 : IVec S16 32) : Prop :=
  (∀ a x, ((![v1009] : Fin 1 → IVec S16 32) a x).toNat < S4096.size a)
instance k0_chk966.dec : ∀ (v1009 : IVec S16 32), Decidable (k0_chk966 v1009) := fun v1009 => decidable_of_iff' _ (Iff.of_eq (k0_chk966.eq_1 v1009))
theorem k0_idx966_inb : ∀ (v1009 : IVec S16 32) (k0_hw966 : k0_chk966 v1009), ∀ a x, ((![v1009] : Fin 1 → IVec S16 32) a x).toNat < S4096.size a := fun v1009 k0_hw966 => k0_hw966

def k0_chk967 (v954 : IVec S16 32) (v1013 : IVec S16 32) : Prop :=
  (∀ a x, ((![v954, v1013] : Fin 2 → IVec S16 32) a x).toNat < S128x200.size a)
instance k0_chk967.dec : ∀ (v954 : IVec S16 32) (v1013 : IVec S16 32), Decidable (k0_chk967 v954 v1013) := fun v954 v1013 => decidable_of_iff' _ (Iff.of_eq (k0_chk967.eq_1 v954 v1013))
theorem k0_idx967_inb : ∀ (v954 : IVec S16 32) (v1013 : IVec S16 32) (k0_hw967 : k0_chk967 v954 v1013), ∀ a x, ((![v954, v1013] : Fin 2 → IVec S16 32) a x).toNat < S128x200.size a := fun v954 v1013 k0_hw967 => k0_hw967

def k0_chk968 (v954 : IVec S16 32) (v1018 : IVec S16 32) : Prop :=
  (∀ a x, ((![v954, v1018] : Fin 2 → IVec S16 32) a x).toNat < S128x200.size a)
instance k0_chk968.dec : ∀ (v954 : IVec S16 32) (v1018 : IVec S16 32), Decidable (k0_chk968 v954 v1018) := fun v954 v1018 => decidable_of_iff' _ (Iff.of_eq (k0_chk968.eq_1 v954 v1018))
theorem k0_idx968_inb : ∀ (v954 : IVec S16 32) (v1018 : IVec S16 32) (k0_hw968 : k0_chk968 v954 v1018), ∀ a x, ((![v954, v1018] : Fin 2 → IVec S16 32) a x).toNat < S128x200.size a := fun v954 v1018 k0_hw968 => k0_hw968

def k0_chk969 (v954 : IVec S16 32) (v1023 : IVec S16 32) : Prop :=
  (∀ a x, ((![v954, v1023] : Fin 2 → IVec S16 32) a x).toNat < S128x200.size a)
instance k0_chk969.dec : ∀ (v954 : IVec S16 32) (v1023 : IVec S16 32), Decidable (k0_chk969 v954 v1023) := fun v954 v1023 => decidable_of_iff' _ (Iff.of_eq (k0_chk969.eq_1 v954 v1023))
theorem k0_idx969_inb : ∀ (v954 : IVec S16 32) (v1023 : IVec S16 32) (k0_hw969 : k0_chk969 v954 v1023), ∀ a x, ((![v954, v1023] : Fin 2 → IVec S16 32) a x).toNat < S128x200.size a := fun v954 v1023 k0_hw969 => k0_hw969

def k0_chk970 (v954 : IVec S16 32) (v1028 : IVec S16 32) : Prop :=
  (∀ a x, ((![v954, v1028] : Fin 2 → IVec S16 32) a x).toNat < S128x200.size a)
instance k0_chk970.dec : ∀ (v954 : IVec S16 32) (v1028 : IVec S16 32), Decidable (k0_chk970 v954 v1028) := fun v954 v1028 => decidable_of_iff' _ (Iff.of_eq (k0_chk970.eq_1 v954 v1028))
theorem k0_idx970_inb : ∀ (v954 : IVec S16 32) (v1028 : IVec S16 32) (k0_hw970 : k0_chk970 v954 v1028), ∀ a x, ((![v954, v1028] : Fin 2 → IVec S16 32) a x).toNat < S128x200.size a := fun v954 v1028 k0_hw970 => k0_hw970

def k0_chk971 (v1038 : IVec S16 32) : Prop :=
  (∀ a x, ((![v1038] : Fin 1 → IVec S16 32) a x).toNat < S4096.size a)
instance k0_chk971.dec : ∀ (v1038 : IVec S16 32), Decidable (k0_chk971 v1038) := fun v1038 => decidable_of_iff' _ (Iff.of_eq (k0_chk971.eq_1 v1038))
theorem k0_idx971_inb : ∀ (v1038 : IVec S16 32) (k0_hw971 : k0_chk971 v1038), ∀ a x, ((![v1038] : Fin 1 → IVec S16 32) a x).toNat < S4096.size a := fun v1038 k0_hw971 => k0_hw971

def k0_chk972 (v954 : IVec S16 32) (v1042 : IVec S16 32) : Prop :=
  (∀ a x, ((![v954, v1042] : Fin 2 → IVec S16 32) a x).toNat < S128x200.size a)
instance k0_chk972.dec : ∀ (v954 : IVec S16 32) (v1042 : IVec S16 32), Decidable (k0_chk972 v954 v1042) := fun v954 v1042 => decidable_of_iff' _ (Iff.of_eq (k0_chk972.eq_1 v954 v1042))
theorem k0_idx972_inb : ∀ (v954 : IVec S16 32) (v1042 : IVec S16 32) (k0_hw972 : k0_chk972 v954 v1042), ∀ a x, ((![v954, v1042] : Fin 2 → IVec S16 32) a x).toNat < S128x200.size a := fun v954 v1042 k0_hw972 => k0_hw972

def k0_chk973 (v1046 : IVec S16 32) : Prop :=
  (∀ a x, ((![v1046] : Fin 1 → IVec S16 32) a x).toNat < S272.size a)
instance k0_chk973.dec : ∀ (v1046 : IVec S16 32), Decidable (k0_chk973 v1046) := fun v1046 => decidable_of_iff' _ (Iff.of_eq (k0_chk973.eq_1 v1046))
theorem k0_idx973_inb : ∀ (v1046 : IVec S16 32) (k0_hw973 : k0_chk973 v1046), ∀ a x, ((![v1046] : Fin 1 → IVec S16 32) a x).toNat < S272.size a := fun v1046 k0_hw973 => k0_hw973
def k0_off69 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c48_i32_355 : BitVec 32 := 48#32
  let v1050 : BitVec 32 := Scalar.addi v648 c48_i32_355
  let v1051 : Index := Scalar.indexCast v1050
  ![v1051.toNat]

def k0_chk974 (v1055 : IVec S16 32) (v1057 : IVec S16 32) : Prop :=
  (∀ a x, ((![v1055, v1057] : Fin 2 → IVec S16 32) a x).toNat < S128x200.size a)
instance k0_chk974.dec : ∀ (v1055 : IVec S16 32) (v1057 : IVec S16 32), Decidable (k0_chk974 v1055 v1057) := fun v1055 v1057 => decidable_of_iff' _ (Iff.of_eq (k0_chk974.eq_1 v1055 v1057))
theorem k0_idx974_inb : ∀ (v1055 : IVec S16 32) (v1057 : IVec S16 32) (k0_hw974 : k0_chk974 v1055 v1057), ∀ a x, ((![v1055, v1057] : Fin 2 → IVec S16 32) a x).toNat < S128x200.size a := fun v1055 v1057 k0_hw974 => k0_hw974

def k0_chk975 (v1055 : IVec S16 32) (v1062 : IVec S16 32) : Prop :=
  (∀ a x, ((![v1055, v1062] : Fin 2 → IVec S16 32) a x).toNat < S128x200.size a)
instance k0_chk975.dec : ∀ (v1055 : IVec S16 32) (v1062 : IVec S16 32), Decidable (k0_chk975 v1055 v1062) := fun v1055 v1062 => decidable_of_iff' _ (Iff.of_eq (k0_chk975.eq_1 v1055 v1062))
theorem k0_idx975_inb : ∀ (v1055 : IVec S16 32) (v1062 : IVec S16 32) (k0_hw975 : k0_chk975 v1055 v1062), ∀ a x, ((![v1055, v1062] : Fin 2 → IVec S16 32) a x).toNat < S128x200.size a := fun v1055 v1062 k0_hw975 => k0_hw975

def k0_chk976 (v1055 : IVec S16 32) (v1067 : IVec S16 32) : Prop :=
  (∀ a x, ((![v1055, v1067] : Fin 2 → IVec S16 32) a x).toNat < S128x200.size a)
instance k0_chk976.dec : ∀ (v1055 : IVec S16 32) (v1067 : IVec S16 32), Decidable (k0_chk976 v1055 v1067) := fun v1055 v1067 => decidable_of_iff' _ (Iff.of_eq (k0_chk976.eq_1 v1055 v1067))
theorem k0_idx976_inb : ∀ (v1055 : IVec S16 32) (v1067 : IVec S16 32) (k0_hw976 : k0_chk976 v1055 v1067), ∀ a x, ((![v1055, v1067] : Fin 2 → IVec S16 32) a x).toNat < S128x200.size a := fun v1055 v1067 k0_hw976 => k0_hw976

def k0_chk977 (v1055 : IVec S16 32) (v1072 : IVec S16 32) : Prop :=
  (∀ a x, ((![v1055, v1072] : Fin 2 → IVec S16 32) a x).toNat < S128x200.size a)
instance k0_chk977.dec : ∀ (v1055 : IVec S16 32) (v1072 : IVec S16 32), Decidable (k0_chk977 v1055 v1072) := fun v1055 v1072 => decidable_of_iff' _ (Iff.of_eq (k0_chk977.eq_1 v1055 v1072))
theorem k0_idx977_inb : ∀ (v1055 : IVec S16 32) (v1072 : IVec S16 32) (k0_hw977 : k0_chk977 v1055 v1072), ∀ a x, ((![v1055, v1072] : Fin 2 → IVec S16 32) a x).toNat < S128x200.size a := fun v1055 v1072 k0_hw977 => k0_hw977

def k0_chk978 (v1082 : IVec S16 32) : Prop :=
  (∀ a x, ((![v1082] : Fin 1 → IVec S16 32) a x).toNat < S4096.size a)
instance k0_chk978.dec : ∀ (v1082 : IVec S16 32), Decidable (k0_chk978 v1082) := fun v1082 => decidable_of_iff' _ (Iff.of_eq (k0_chk978.eq_1 v1082))
theorem k0_idx978_inb : ∀ (v1082 : IVec S16 32) (k0_hw978 : k0_chk978 v1082), ∀ a x, ((![v1082] : Fin 1 → IVec S16 32) a x).toNat < S4096.size a := fun v1082 k0_hw978 => k0_hw978

def k0_chk979 (v1055 : IVec S16 32) (v1085 : IVec S16 32) : Prop :=
  (∀ a x, ((![v1055, v1085] : Fin 2 → IVec S16 32) a x).toNat < S128x200.size a)
instance k0_chk979.dec : ∀ (v1055 : IVec S16 32) (v1085 : IVec S16 32), Decidable (k0_chk979 v1055 v1085) := fun v1055 v1085 => decidable_of_iff' _ (Iff.of_eq (k0_chk979.eq_1 v1055 v1085))
theorem k0_idx979_inb : ∀ (v1055 : IVec S16 32) (v1085 : IVec S16 32) (k0_hw979 : k0_chk979 v1055 v1085), ∀ a x, ((![v1055, v1085] : Fin 2 → IVec S16 32) a x).toNat < S128x200.size a := fun v1055 v1085 k0_hw979 => k0_hw979

def k0_chk980 (v1055 : IVec S16 32) (v1090 : IVec S16 32) : Prop :=
  (∀ a x, ((![v1055, v1090] : Fin 2 → IVec S16 32) a x).toNat < S128x200.size a)
instance k0_chk980.dec : ∀ (v1055 : IVec S16 32) (v1090 : IVec S16 32), Decidable (k0_chk980 v1055 v1090) := fun v1055 v1090 => decidable_of_iff' _ (Iff.of_eq (k0_chk980.eq_1 v1055 v1090))
theorem k0_idx980_inb : ∀ (v1055 : IVec S16 32) (v1090 : IVec S16 32) (k0_hw980 : k0_chk980 v1055 v1090), ∀ a x, ((![v1055, v1090] : Fin 2 → IVec S16 32) a x).toNat < S128x200.size a := fun v1055 v1090 k0_hw980 => k0_hw980

def k0_chk981 (v1055 : IVec S16 32) (v1095 : IVec S16 32) : Prop :=
  (∀ a x, ((![v1055, v1095] : Fin 2 → IVec S16 32) a x).toNat < S128x200.size a)
instance k0_chk981.dec : ∀ (v1055 : IVec S16 32) (v1095 : IVec S16 32), Decidable (k0_chk981 v1055 v1095) := fun v1055 v1095 => decidable_of_iff' _ (Iff.of_eq (k0_chk981.eq_1 v1055 v1095))
theorem k0_idx981_inb : ∀ (v1055 : IVec S16 32) (v1095 : IVec S16 32) (k0_hw981 : k0_chk981 v1055 v1095), ∀ a x, ((![v1055, v1095] : Fin 2 → IVec S16 32) a x).toNat < S128x200.size a := fun v1055 v1095 k0_hw981 => k0_hw981

def k0_chk982 (v1055 : IVec S16 32) (v1100 : IVec S16 32) : Prop :=
  (∀ a x, ((![v1055, v1100] : Fin 2 → IVec S16 32) a x).toNat < S128x200.size a)
instance k0_chk982.dec : ∀ (v1055 : IVec S16 32) (v1100 : IVec S16 32), Decidable (k0_chk982 v1055 v1100) := fun v1055 v1100 => decidable_of_iff' _ (Iff.of_eq (k0_chk982.eq_1 v1055 v1100))
theorem k0_idx982_inb : ∀ (v1055 : IVec S16 32) (v1100 : IVec S16 32) (k0_hw982 : k0_chk982 v1055 v1100), ∀ a x, ((![v1055, v1100] : Fin 2 → IVec S16 32) a x).toNat < S128x200.size a := fun v1055 v1100 k0_hw982 => k0_hw982

def k0_chk983 (v1110 : IVec S16 32) : Prop :=
  (∀ a x, ((![v1110] : Fin 1 → IVec S16 32) a x).toNat < S4096.size a)
instance k0_chk983.dec : ∀ (v1110 : IVec S16 32), Decidable (k0_chk983 v1110) := fun v1110 => decidable_of_iff' _ (Iff.of_eq (k0_chk983.eq_1 v1110))
theorem k0_idx983_inb : ∀ (v1110 : IVec S16 32) (k0_hw983 : k0_chk983 v1110), ∀ a x, ((![v1110] : Fin 1 → IVec S16 32) a x).toNat < S4096.size a := fun v1110 k0_hw983 => k0_hw983

def k0_chk984 (v1055 : IVec S16 32) (v1114 : IVec S16 32) : Prop :=
  (∀ a x, ((![v1055, v1114] : Fin 2 → IVec S16 32) a x).toNat < S128x200.size a)
instance k0_chk984.dec : ∀ (v1055 : IVec S16 32) (v1114 : IVec S16 32), Decidable (k0_chk984 v1055 v1114) := fun v1055 v1114 => decidable_of_iff' _ (Iff.of_eq (k0_chk984.eq_1 v1055 v1114))
theorem k0_idx984_inb : ∀ (v1055 : IVec S16 32) (v1114 : IVec S16 32) (k0_hw984 : k0_chk984 v1055 v1114), ∀ a x, ((![v1055, v1114] : Fin 2 → IVec S16 32) a x).toNat < S128x200.size a := fun v1055 v1114 k0_hw984 => k0_hw984

def k0_chk985 (v1055 : IVec S16 32) (v1119 : IVec S16 32) : Prop :=
  (∀ a x, ((![v1055, v1119] : Fin 2 → IVec S16 32) a x).toNat < S128x200.size a)
instance k0_chk985.dec : ∀ (v1055 : IVec S16 32) (v1119 : IVec S16 32), Decidable (k0_chk985 v1055 v1119) := fun v1055 v1119 => decidable_of_iff' _ (Iff.of_eq (k0_chk985.eq_1 v1055 v1119))
theorem k0_idx985_inb : ∀ (v1055 : IVec S16 32) (v1119 : IVec S16 32) (k0_hw985 : k0_chk985 v1055 v1119), ∀ a x, ((![v1055, v1119] : Fin 2 → IVec S16 32) a x).toNat < S128x200.size a := fun v1055 v1119 k0_hw985 => k0_hw985

def k0_chk986 (v1055 : IVec S16 32) (v1124 : IVec S16 32) : Prop :=
  (∀ a x, ((![v1055, v1124] : Fin 2 → IVec S16 32) a x).toNat < S128x200.size a)
instance k0_chk986.dec : ∀ (v1055 : IVec S16 32) (v1124 : IVec S16 32), Decidable (k0_chk986 v1055 v1124) := fun v1055 v1124 => decidable_of_iff' _ (Iff.of_eq (k0_chk986.eq_1 v1055 v1124))
theorem k0_idx986_inb : ∀ (v1055 : IVec S16 32) (v1124 : IVec S16 32) (k0_hw986 : k0_chk986 v1055 v1124), ∀ a x, ((![v1055, v1124] : Fin 2 → IVec S16 32) a x).toNat < S128x200.size a := fun v1055 v1124 k0_hw986 => k0_hw986

def k0_chk987 (v1055 : IVec S16 32) (v1129 : IVec S16 32) : Prop :=
  (∀ a x, ((![v1055, v1129] : Fin 2 → IVec S16 32) a x).toNat < S128x200.size a)
instance k0_chk987.dec : ∀ (v1055 : IVec S16 32) (v1129 : IVec S16 32), Decidable (k0_chk987 v1055 v1129) := fun v1055 v1129 => decidable_of_iff' _ (Iff.of_eq (k0_chk987.eq_1 v1055 v1129))
theorem k0_idx987_inb : ∀ (v1055 : IVec S16 32) (v1129 : IVec S16 32) (k0_hw987 : k0_chk987 v1055 v1129), ∀ a x, ((![v1055, v1129] : Fin 2 → IVec S16 32) a x).toNat < S128x200.size a := fun v1055 v1129 k0_hw987 => k0_hw987

def k0_chk988 (v1139 : IVec S16 32) : Prop :=
  (∀ a x, ((![v1139] : Fin 1 → IVec S16 32) a x).toNat < S4096.size a)
instance k0_chk988.dec : ∀ (v1139 : IVec S16 32), Decidable (k0_chk988 v1139) := fun v1139 => decidable_of_iff' _ (Iff.of_eq (k0_chk988.eq_1 v1139))
theorem k0_idx988_inb : ∀ (v1139 : IVec S16 32) (k0_hw988 : k0_chk988 v1139), ∀ a x, ((![v1139] : Fin 1 → IVec S16 32) a x).toNat < S4096.size a := fun v1139 k0_hw988 => k0_hw988

def k0_chk989 (v1055 : IVec S16 32) (v1143 : IVec S16 32) : Prop :=
  (∀ a x, ((![v1055, v1143] : Fin 2 → IVec S16 32) a x).toNat < S128x200.size a)
instance k0_chk989.dec : ∀ (v1055 : IVec S16 32) (v1143 : IVec S16 32), Decidable (k0_chk989 v1055 v1143) := fun v1055 v1143 => decidable_of_iff' _ (Iff.of_eq (k0_chk989.eq_1 v1055 v1143))
theorem k0_idx989_inb : ∀ (v1055 : IVec S16 32) (v1143 : IVec S16 32) (k0_hw989 : k0_chk989 v1055 v1143), ∀ a x, ((![v1055, v1143] : Fin 2 → IVec S16 32) a x).toNat < S128x200.size a := fun v1055 v1143 k0_hw989 => k0_hw989

def k0_chk990 (v1147 : IVec S16 32) : Prop :=
  (∀ a x, ((![v1147] : Fin 1 → IVec S16 32) a x).toNat < S272.size a)
instance k0_chk990.dec : ∀ (v1147 : IVec S16 32), Decidable (k0_chk990 v1147) := fun v1147 => decidable_of_iff' _ (Iff.of_eq (k0_chk990.eq_1 v1147))
theorem k0_idx990_inb : ∀ (v1147 : IVec S16 32) (k0_hw990 : k0_chk990 v1147), ∀ a x, ((![v1147] : Fin 1 → IVec S16 32) a x).toNat < S272.size a := fun v1147 k0_hw990 => k0_hw990
def k0_off70 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c64_i32_389 : BitVec 32 := 64#32
  let v1151 : BitVec 32 := Scalar.addi v648 c64_i32_389
  let v1152 : Index := Scalar.indexCast v1151
  ![v1152.toNat]

def k0_chk991 (v1156 : IVec S16 32) (v1158 : IVec S16 32) : Prop :=
  (∀ a x, ((![v1156, v1158] : Fin 2 → IVec S16 32) a x).toNat < S128x200.size a)
instance k0_chk991.dec : ∀ (v1156 : IVec S16 32) (v1158 : IVec S16 32), Decidable (k0_chk991 v1156 v1158) := fun v1156 v1158 => decidable_of_iff' _ (Iff.of_eq (k0_chk991.eq_1 v1156 v1158))
theorem k0_idx991_inb : ∀ (v1156 : IVec S16 32) (v1158 : IVec S16 32) (k0_hw991 : k0_chk991 v1156 v1158), ∀ a x, ((![v1156, v1158] : Fin 2 → IVec S16 32) a x).toNat < S128x200.size a := fun v1156 v1158 k0_hw991 => k0_hw991

def k0_chk992 (v1156 : IVec S16 32) (v1163 : IVec S16 32) : Prop :=
  (∀ a x, ((![v1156, v1163] : Fin 2 → IVec S16 32) a x).toNat < S128x200.size a)
instance k0_chk992.dec : ∀ (v1156 : IVec S16 32) (v1163 : IVec S16 32), Decidable (k0_chk992 v1156 v1163) := fun v1156 v1163 => decidable_of_iff' _ (Iff.of_eq (k0_chk992.eq_1 v1156 v1163))
theorem k0_idx992_inb : ∀ (v1156 : IVec S16 32) (v1163 : IVec S16 32) (k0_hw992 : k0_chk992 v1156 v1163), ∀ a x, ((![v1156, v1163] : Fin 2 → IVec S16 32) a x).toNat < S128x200.size a := fun v1156 v1163 k0_hw992 => k0_hw992

def k0_chk993 (v1156 : IVec S16 32) (v1168 : IVec S16 32) : Prop :=
  (∀ a x, ((![v1156, v1168] : Fin 2 → IVec S16 32) a x).toNat < S128x200.size a)
instance k0_chk993.dec : ∀ (v1156 : IVec S16 32) (v1168 : IVec S16 32), Decidable (k0_chk993 v1156 v1168) := fun v1156 v1168 => decidable_of_iff' _ (Iff.of_eq (k0_chk993.eq_1 v1156 v1168))
theorem k0_idx993_inb : ∀ (v1156 : IVec S16 32) (v1168 : IVec S16 32) (k0_hw993 : k0_chk993 v1156 v1168), ∀ a x, ((![v1156, v1168] : Fin 2 → IVec S16 32) a x).toNat < S128x200.size a := fun v1156 v1168 k0_hw993 => k0_hw993

def k0_chk994 (v1156 : IVec S16 32) (v1173 : IVec S16 32) : Prop :=
  (∀ a x, ((![v1156, v1173] : Fin 2 → IVec S16 32) a x).toNat < S128x200.size a)
instance k0_chk994.dec : ∀ (v1156 : IVec S16 32) (v1173 : IVec S16 32), Decidable (k0_chk994 v1156 v1173) := fun v1156 v1173 => decidable_of_iff' _ (Iff.of_eq (k0_chk994.eq_1 v1156 v1173))
theorem k0_idx994_inb : ∀ (v1156 : IVec S16 32) (v1173 : IVec S16 32) (k0_hw994 : k0_chk994 v1156 v1173), ∀ a x, ((![v1156, v1173] : Fin 2 → IVec S16 32) a x).toNat < S128x200.size a := fun v1156 v1173 k0_hw994 => k0_hw994

def k0_chk995 (v1183 : IVec S16 32) : Prop :=
  (∀ a x, ((![v1183] : Fin 1 → IVec S16 32) a x).toNat < S4096.size a)
instance k0_chk995.dec : ∀ (v1183 : IVec S16 32), Decidable (k0_chk995 v1183) := fun v1183 => decidable_of_iff' _ (Iff.of_eq (k0_chk995.eq_1 v1183))
theorem k0_idx995_inb : ∀ (v1183 : IVec S16 32) (k0_hw995 : k0_chk995 v1183), ∀ a x, ((![v1183] : Fin 1 → IVec S16 32) a x).toNat < S4096.size a := fun v1183 k0_hw995 => k0_hw995

def k0_chk996 (v1156 : IVec S16 32) (v1186 : IVec S16 32) : Prop :=
  (∀ a x, ((![v1156, v1186] : Fin 2 → IVec S16 32) a x).toNat < S128x200.size a)
instance k0_chk996.dec : ∀ (v1156 : IVec S16 32) (v1186 : IVec S16 32), Decidable (k0_chk996 v1156 v1186) := fun v1156 v1186 => decidable_of_iff' _ (Iff.of_eq (k0_chk996.eq_1 v1156 v1186))
theorem k0_idx996_inb : ∀ (v1156 : IVec S16 32) (v1186 : IVec S16 32) (k0_hw996 : k0_chk996 v1156 v1186), ∀ a x, ((![v1156, v1186] : Fin 2 → IVec S16 32) a x).toNat < S128x200.size a := fun v1156 v1186 k0_hw996 => k0_hw996

def k0_chk997 (v1156 : IVec S16 32) (v1191 : IVec S16 32) : Prop :=
  (∀ a x, ((![v1156, v1191] : Fin 2 → IVec S16 32) a x).toNat < S128x200.size a)
instance k0_chk997.dec : ∀ (v1156 : IVec S16 32) (v1191 : IVec S16 32), Decidable (k0_chk997 v1156 v1191) := fun v1156 v1191 => decidable_of_iff' _ (Iff.of_eq (k0_chk997.eq_1 v1156 v1191))
theorem k0_idx997_inb : ∀ (v1156 : IVec S16 32) (v1191 : IVec S16 32) (k0_hw997 : k0_chk997 v1156 v1191), ∀ a x, ((![v1156, v1191] : Fin 2 → IVec S16 32) a x).toNat < S128x200.size a := fun v1156 v1191 k0_hw997 => k0_hw997

def k0_chk998 (v1156 : IVec S16 32) (v1196 : IVec S16 32) : Prop :=
  (∀ a x, ((![v1156, v1196] : Fin 2 → IVec S16 32) a x).toNat < S128x200.size a)
instance k0_chk998.dec : ∀ (v1156 : IVec S16 32) (v1196 : IVec S16 32), Decidable (k0_chk998 v1156 v1196) := fun v1156 v1196 => decidable_of_iff' _ (Iff.of_eq (k0_chk998.eq_1 v1156 v1196))
theorem k0_idx998_inb : ∀ (v1156 : IVec S16 32) (v1196 : IVec S16 32) (k0_hw998 : k0_chk998 v1156 v1196), ∀ a x, ((![v1156, v1196] : Fin 2 → IVec S16 32) a x).toNat < S128x200.size a := fun v1156 v1196 k0_hw998 => k0_hw998

def k0_chk999 (v1156 : IVec S16 32) (v1201 : IVec S16 32) : Prop :=
  (∀ a x, ((![v1156, v1201] : Fin 2 → IVec S16 32) a x).toNat < S128x200.size a)
instance k0_chk999.dec : ∀ (v1156 : IVec S16 32) (v1201 : IVec S16 32), Decidable (k0_chk999 v1156 v1201) := fun v1156 v1201 => decidable_of_iff' _ (Iff.of_eq (k0_chk999.eq_1 v1156 v1201))
theorem k0_idx999_inb : ∀ (v1156 : IVec S16 32) (v1201 : IVec S16 32) (k0_hw999 : k0_chk999 v1156 v1201), ∀ a x, ((![v1156, v1201] : Fin 2 → IVec S16 32) a x).toNat < S128x200.size a := fun v1156 v1201 k0_hw999 => k0_hw999

def k0_chk1000 (v1211 : IVec S16 32) : Prop :=
  (∀ a x, ((![v1211] : Fin 1 → IVec S16 32) a x).toNat < S4096.size a)
instance k0_chk1000.dec : ∀ (v1211 : IVec S16 32), Decidable (k0_chk1000 v1211) := fun v1211 => decidable_of_iff' _ (Iff.of_eq (k0_chk1000.eq_1 v1211))
theorem k0_idx1000_inb : ∀ (v1211 : IVec S16 32) (k0_hw1000 : k0_chk1000 v1211), ∀ a x, ((![v1211] : Fin 1 → IVec S16 32) a x).toNat < S4096.size a := fun v1211 k0_hw1000 => k0_hw1000

def k0_chk1001 (v1156 : IVec S16 32) (v1215 : IVec S16 32) : Prop :=
  (∀ a x, ((![v1156, v1215] : Fin 2 → IVec S16 32) a x).toNat < S128x200.size a)
instance k0_chk1001.dec : ∀ (v1156 : IVec S16 32) (v1215 : IVec S16 32), Decidable (k0_chk1001 v1156 v1215) := fun v1156 v1215 => decidable_of_iff' _ (Iff.of_eq (k0_chk1001.eq_1 v1156 v1215))
theorem k0_idx1001_inb : ∀ (v1156 : IVec S16 32) (v1215 : IVec S16 32) (k0_hw1001 : k0_chk1001 v1156 v1215), ∀ a x, ((![v1156, v1215] : Fin 2 → IVec S16 32) a x).toNat < S128x200.size a := fun v1156 v1215 k0_hw1001 => k0_hw1001

def k0_chk1002 (v1156 : IVec S16 32) (v1220 : IVec S16 32) : Prop :=
  (∀ a x, ((![v1156, v1220] : Fin 2 → IVec S16 32) a x).toNat < S128x200.size a)
instance k0_chk1002.dec : ∀ (v1156 : IVec S16 32) (v1220 : IVec S16 32), Decidable (k0_chk1002 v1156 v1220) := fun v1156 v1220 => decidable_of_iff' _ (Iff.of_eq (k0_chk1002.eq_1 v1156 v1220))
theorem k0_idx1002_inb : ∀ (v1156 : IVec S16 32) (v1220 : IVec S16 32) (k0_hw1002 : k0_chk1002 v1156 v1220), ∀ a x, ((![v1156, v1220] : Fin 2 → IVec S16 32) a x).toNat < S128x200.size a := fun v1156 v1220 k0_hw1002 => k0_hw1002

def k0_chk1003 (v1156 : IVec S16 32) (v1225 : IVec S16 32) : Prop :=
  (∀ a x, ((![v1156, v1225] : Fin 2 → IVec S16 32) a x).toNat < S128x200.size a)
instance k0_chk1003.dec : ∀ (v1156 : IVec S16 32) (v1225 : IVec S16 32), Decidable (k0_chk1003 v1156 v1225) := fun v1156 v1225 => decidable_of_iff' _ (Iff.of_eq (k0_chk1003.eq_1 v1156 v1225))
theorem k0_idx1003_inb : ∀ (v1156 : IVec S16 32) (v1225 : IVec S16 32) (k0_hw1003 : k0_chk1003 v1156 v1225), ∀ a x, ((![v1156, v1225] : Fin 2 → IVec S16 32) a x).toNat < S128x200.size a := fun v1156 v1225 k0_hw1003 => k0_hw1003

def k0_chk1004 (v1156 : IVec S16 32) (v1230 : IVec S16 32) : Prop :=
  (∀ a x, ((![v1156, v1230] : Fin 2 → IVec S16 32) a x).toNat < S128x200.size a)
instance k0_chk1004.dec : ∀ (v1156 : IVec S16 32) (v1230 : IVec S16 32), Decidable (k0_chk1004 v1156 v1230) := fun v1156 v1230 => decidable_of_iff' _ (Iff.of_eq (k0_chk1004.eq_1 v1156 v1230))
theorem k0_idx1004_inb : ∀ (v1156 : IVec S16 32) (v1230 : IVec S16 32) (k0_hw1004 : k0_chk1004 v1156 v1230), ∀ a x, ((![v1156, v1230] : Fin 2 → IVec S16 32) a x).toNat < S128x200.size a := fun v1156 v1230 k0_hw1004 => k0_hw1004

def k0_chk1005 (v1240 : IVec S16 32) : Prop :=
  (∀ a x, ((![v1240] : Fin 1 → IVec S16 32) a x).toNat < S4096.size a)
instance k0_chk1005.dec : ∀ (v1240 : IVec S16 32), Decidable (k0_chk1005 v1240) := fun v1240 => decidable_of_iff' _ (Iff.of_eq (k0_chk1005.eq_1 v1240))
theorem k0_idx1005_inb : ∀ (v1240 : IVec S16 32) (k0_hw1005 : k0_chk1005 v1240), ∀ a x, ((![v1240] : Fin 1 → IVec S16 32) a x).toNat < S4096.size a := fun v1240 k0_hw1005 => k0_hw1005

def k0_chk1006 (v1156 : IVec S16 32) (v1244 : IVec S16 32) : Prop :=
  (∀ a x, ((![v1156, v1244] : Fin 2 → IVec S16 32) a x).toNat < S128x200.size a)
instance k0_chk1006.dec : ∀ (v1156 : IVec S16 32) (v1244 : IVec S16 32), Decidable (k0_chk1006 v1156 v1244) := fun v1156 v1244 => decidable_of_iff' _ (Iff.of_eq (k0_chk1006.eq_1 v1156 v1244))
theorem k0_idx1006_inb : ∀ (v1156 : IVec S16 32) (v1244 : IVec S16 32) (k0_hw1006 : k0_chk1006 v1156 v1244), ∀ a x, ((![v1156, v1244] : Fin 2 → IVec S16 32) a x).toNat < S128x200.size a := fun v1156 v1244 k0_hw1006 => k0_hw1006

def k0_chk1007 (v1248 : IVec S16 32) : Prop :=
  (∀ a x, ((![v1248] : Fin 1 → IVec S16 32) a x).toNat < S272.size a)
instance k0_chk1007.dec : ∀ (v1248 : IVec S16 32), Decidable (k0_chk1007 v1248) := fun v1248 => decidable_of_iff' _ (Iff.of_eq (k0_chk1007.eq_1 v1248))
theorem k0_idx1007_inb : ∀ (v1248 : IVec S16 32) (k0_hw1007 : k0_chk1007 v1248), ∀ a x, ((![v1248] : Fin 1 → IVec S16 32) a x).toNat < S272.size a := fun v1248 k0_hw1007 => k0_hw1007
def k0_off71 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c80_i32_423 : BitVec 32 := 80#32
  let v1252 : BitVec 32 := Scalar.addi v648 c80_i32_423
  let v1253 : Index := Scalar.indexCast v1252
  ![v1253.toNat]

def k0_chk1008 (v1257 : IVec S16 32) (v1259 : IVec S16 32) : Prop :=
  (∀ a x, ((![v1257, v1259] : Fin 2 → IVec S16 32) a x).toNat < S128x200.size a)
instance k0_chk1008.dec : ∀ (v1257 : IVec S16 32) (v1259 : IVec S16 32), Decidable (k0_chk1008 v1257 v1259) := fun v1257 v1259 => decidable_of_iff' _ (Iff.of_eq (k0_chk1008.eq_1 v1257 v1259))
theorem k0_idx1008_inb : ∀ (v1257 : IVec S16 32) (v1259 : IVec S16 32) (k0_hw1008 : k0_chk1008 v1257 v1259), ∀ a x, ((![v1257, v1259] : Fin 2 → IVec S16 32) a x).toNat < S128x200.size a := fun v1257 v1259 k0_hw1008 => k0_hw1008

def k0_chk1009 (v1257 : IVec S16 32) (v1264 : IVec S16 32) : Prop :=
  (∀ a x, ((![v1257, v1264] : Fin 2 → IVec S16 32) a x).toNat < S128x200.size a)
instance k0_chk1009.dec : ∀ (v1257 : IVec S16 32) (v1264 : IVec S16 32), Decidable (k0_chk1009 v1257 v1264) := fun v1257 v1264 => decidable_of_iff' _ (Iff.of_eq (k0_chk1009.eq_1 v1257 v1264))
theorem k0_idx1009_inb : ∀ (v1257 : IVec S16 32) (v1264 : IVec S16 32) (k0_hw1009 : k0_chk1009 v1257 v1264), ∀ a x, ((![v1257, v1264] : Fin 2 → IVec S16 32) a x).toNat < S128x200.size a := fun v1257 v1264 k0_hw1009 => k0_hw1009

def k0_chk1010 (v1257 : IVec S16 32) (v1269 : IVec S16 32) : Prop :=
  (∀ a x, ((![v1257, v1269] : Fin 2 → IVec S16 32) a x).toNat < S128x200.size a)
instance k0_chk1010.dec : ∀ (v1257 : IVec S16 32) (v1269 : IVec S16 32), Decidable (k0_chk1010 v1257 v1269) := fun v1257 v1269 => decidable_of_iff' _ (Iff.of_eq (k0_chk1010.eq_1 v1257 v1269))
theorem k0_idx1010_inb : ∀ (v1257 : IVec S16 32) (v1269 : IVec S16 32) (k0_hw1010 : k0_chk1010 v1257 v1269), ∀ a x, ((![v1257, v1269] : Fin 2 → IVec S16 32) a x).toNat < S128x200.size a := fun v1257 v1269 k0_hw1010 => k0_hw1010

def k0_chk1011 (v1257 : IVec S16 32) (v1274 : IVec S16 32) : Prop :=
  (∀ a x, ((![v1257, v1274] : Fin 2 → IVec S16 32) a x).toNat < S128x200.size a)
instance k0_chk1011.dec : ∀ (v1257 : IVec S16 32) (v1274 : IVec S16 32), Decidable (k0_chk1011 v1257 v1274) := fun v1257 v1274 => decidable_of_iff' _ (Iff.of_eq (k0_chk1011.eq_1 v1257 v1274))
theorem k0_idx1011_inb : ∀ (v1257 : IVec S16 32) (v1274 : IVec S16 32) (k0_hw1011 : k0_chk1011 v1257 v1274), ∀ a x, ((![v1257, v1274] : Fin 2 → IVec S16 32) a x).toNat < S128x200.size a := fun v1257 v1274 k0_hw1011 => k0_hw1011

def k0_chk1012 (v1284 : IVec S16 32) : Prop :=
  (∀ a x, ((![v1284] : Fin 1 → IVec S16 32) a x).toNat < S4096.size a)
instance k0_chk1012.dec : ∀ (v1284 : IVec S16 32), Decidable (k0_chk1012 v1284) := fun v1284 => decidable_of_iff' _ (Iff.of_eq (k0_chk1012.eq_1 v1284))
theorem k0_idx1012_inb : ∀ (v1284 : IVec S16 32) (k0_hw1012 : k0_chk1012 v1284), ∀ a x, ((![v1284] : Fin 1 → IVec S16 32) a x).toNat < S4096.size a := fun v1284 k0_hw1012 => k0_hw1012

def k0_chk1013 (v1257 : IVec S16 32) (v1287 : IVec S16 32) : Prop :=
  (∀ a x, ((![v1257, v1287] : Fin 2 → IVec S16 32) a x).toNat < S128x200.size a)
instance k0_chk1013.dec : ∀ (v1257 : IVec S16 32) (v1287 : IVec S16 32), Decidable (k0_chk1013 v1257 v1287) := fun v1257 v1287 => decidable_of_iff' _ (Iff.of_eq (k0_chk1013.eq_1 v1257 v1287))
theorem k0_idx1013_inb : ∀ (v1257 : IVec S16 32) (v1287 : IVec S16 32) (k0_hw1013 : k0_chk1013 v1257 v1287), ∀ a x, ((![v1257, v1287] : Fin 2 → IVec S16 32) a x).toNat < S128x200.size a := fun v1257 v1287 k0_hw1013 => k0_hw1013

def k0_chk1014 (v1257 : IVec S16 32) (v1292 : IVec S16 32) : Prop :=
  (∀ a x, ((![v1257, v1292] : Fin 2 → IVec S16 32) a x).toNat < S128x200.size a)
instance k0_chk1014.dec : ∀ (v1257 : IVec S16 32) (v1292 : IVec S16 32), Decidable (k0_chk1014 v1257 v1292) := fun v1257 v1292 => decidable_of_iff' _ (Iff.of_eq (k0_chk1014.eq_1 v1257 v1292))
theorem k0_idx1014_inb : ∀ (v1257 : IVec S16 32) (v1292 : IVec S16 32) (k0_hw1014 : k0_chk1014 v1257 v1292), ∀ a x, ((![v1257, v1292] : Fin 2 → IVec S16 32) a x).toNat < S128x200.size a := fun v1257 v1292 k0_hw1014 => k0_hw1014

def k0_chk1015 (v1257 : IVec S16 32) (v1297 : IVec S16 32) : Prop :=
  (∀ a x, ((![v1257, v1297] : Fin 2 → IVec S16 32) a x).toNat < S128x200.size a)
instance k0_chk1015.dec : ∀ (v1257 : IVec S16 32) (v1297 : IVec S16 32), Decidable (k0_chk1015 v1257 v1297) := fun v1257 v1297 => decidable_of_iff' _ (Iff.of_eq (k0_chk1015.eq_1 v1257 v1297))
theorem k0_idx1015_inb : ∀ (v1257 : IVec S16 32) (v1297 : IVec S16 32) (k0_hw1015 : k0_chk1015 v1257 v1297), ∀ a x, ((![v1257, v1297] : Fin 2 → IVec S16 32) a x).toNat < S128x200.size a := fun v1257 v1297 k0_hw1015 => k0_hw1015

def k0_chk1016 (v1257 : IVec S16 32) (v1302 : IVec S16 32) : Prop :=
  (∀ a x, ((![v1257, v1302] : Fin 2 → IVec S16 32) a x).toNat < S128x200.size a)
instance k0_chk1016.dec : ∀ (v1257 : IVec S16 32) (v1302 : IVec S16 32), Decidable (k0_chk1016 v1257 v1302) := fun v1257 v1302 => decidable_of_iff' _ (Iff.of_eq (k0_chk1016.eq_1 v1257 v1302))
theorem k0_idx1016_inb : ∀ (v1257 : IVec S16 32) (v1302 : IVec S16 32) (k0_hw1016 : k0_chk1016 v1257 v1302), ∀ a x, ((![v1257, v1302] : Fin 2 → IVec S16 32) a x).toNat < S128x200.size a := fun v1257 v1302 k0_hw1016 => k0_hw1016

def k0_chk1017 (v1312 : IVec S16 32) : Prop :=
  (∀ a x, ((![v1312] : Fin 1 → IVec S16 32) a x).toNat < S4096.size a)
instance k0_chk1017.dec : ∀ (v1312 : IVec S16 32), Decidable (k0_chk1017 v1312) := fun v1312 => decidable_of_iff' _ (Iff.of_eq (k0_chk1017.eq_1 v1312))
theorem k0_idx1017_inb : ∀ (v1312 : IVec S16 32) (k0_hw1017 : k0_chk1017 v1312), ∀ a x, ((![v1312] : Fin 1 → IVec S16 32) a x).toNat < S4096.size a := fun v1312 k0_hw1017 => k0_hw1017

def k0_chk1018 (v1257 : IVec S16 32) (v1316 : IVec S16 32) : Prop :=
  (∀ a x, ((![v1257, v1316] : Fin 2 → IVec S16 32) a x).toNat < S128x200.size a)
instance k0_chk1018.dec : ∀ (v1257 : IVec S16 32) (v1316 : IVec S16 32), Decidable (k0_chk1018 v1257 v1316) := fun v1257 v1316 => decidable_of_iff' _ (Iff.of_eq (k0_chk1018.eq_1 v1257 v1316))
theorem k0_idx1018_inb : ∀ (v1257 : IVec S16 32) (v1316 : IVec S16 32) (k0_hw1018 : k0_chk1018 v1257 v1316), ∀ a x, ((![v1257, v1316] : Fin 2 → IVec S16 32) a x).toNat < S128x200.size a := fun v1257 v1316 k0_hw1018 => k0_hw1018

def k0_chk1019 (v1257 : IVec S16 32) (v1321 : IVec S16 32) : Prop :=
  (∀ a x, ((![v1257, v1321] : Fin 2 → IVec S16 32) a x).toNat < S128x200.size a)
instance k0_chk1019.dec : ∀ (v1257 : IVec S16 32) (v1321 : IVec S16 32), Decidable (k0_chk1019 v1257 v1321) := fun v1257 v1321 => decidable_of_iff' _ (Iff.of_eq (k0_chk1019.eq_1 v1257 v1321))
theorem k0_idx1019_inb : ∀ (v1257 : IVec S16 32) (v1321 : IVec S16 32) (k0_hw1019 : k0_chk1019 v1257 v1321), ∀ a x, ((![v1257, v1321] : Fin 2 → IVec S16 32) a x).toNat < S128x200.size a := fun v1257 v1321 k0_hw1019 => k0_hw1019

def k0_chk1020 (v1257 : IVec S16 32) (v1326 : IVec S16 32) : Prop :=
  (∀ a x, ((![v1257, v1326] : Fin 2 → IVec S16 32) a x).toNat < S128x200.size a)
instance k0_chk1020.dec : ∀ (v1257 : IVec S16 32) (v1326 : IVec S16 32), Decidable (k0_chk1020 v1257 v1326) := fun v1257 v1326 => decidable_of_iff' _ (Iff.of_eq (k0_chk1020.eq_1 v1257 v1326))
theorem k0_idx1020_inb : ∀ (v1257 : IVec S16 32) (v1326 : IVec S16 32) (k0_hw1020 : k0_chk1020 v1257 v1326), ∀ a x, ((![v1257, v1326] : Fin 2 → IVec S16 32) a x).toNat < S128x200.size a := fun v1257 v1326 k0_hw1020 => k0_hw1020

def k0_chk1021 (v1257 : IVec S16 32) (v1331 : IVec S16 32) : Prop :=
  (∀ a x, ((![v1257, v1331] : Fin 2 → IVec S16 32) a x).toNat < S128x200.size a)
instance k0_chk1021.dec : ∀ (v1257 : IVec S16 32) (v1331 : IVec S16 32), Decidable (k0_chk1021 v1257 v1331) := fun v1257 v1331 => decidable_of_iff' _ (Iff.of_eq (k0_chk1021.eq_1 v1257 v1331))
theorem k0_idx1021_inb : ∀ (v1257 : IVec S16 32) (v1331 : IVec S16 32) (k0_hw1021 : k0_chk1021 v1257 v1331), ∀ a x, ((![v1257, v1331] : Fin 2 → IVec S16 32) a x).toNat < S128x200.size a := fun v1257 v1331 k0_hw1021 => k0_hw1021

def k0_chk1022 (v1341 : IVec S16 32) : Prop :=
  (∀ a x, ((![v1341] : Fin 1 → IVec S16 32) a x).toNat < S4096.size a)
instance k0_chk1022.dec : ∀ (v1341 : IVec S16 32), Decidable (k0_chk1022 v1341) := fun v1341 => decidable_of_iff' _ (Iff.of_eq (k0_chk1022.eq_1 v1341))
theorem k0_idx1022_inb : ∀ (v1341 : IVec S16 32) (k0_hw1022 : k0_chk1022 v1341), ∀ a x, ((![v1341] : Fin 1 → IVec S16 32) a x).toNat < S4096.size a := fun v1341 k0_hw1022 => k0_hw1022

def k0_chk1023 (v1257 : IVec S16 32) (v1345 : IVec S16 32) : Prop :=
  (∀ a x, ((![v1257, v1345] : Fin 2 → IVec S16 32) a x).toNat < S128x200.size a)
instance k0_chk1023.dec : ∀ (v1257 : IVec S16 32) (v1345 : IVec S16 32), Decidable (k0_chk1023 v1257 v1345) := fun v1257 v1345 => decidable_of_iff' _ (Iff.of_eq (k0_chk1023.eq_1 v1257 v1345))
theorem k0_idx1023_inb : ∀ (v1257 : IVec S16 32) (v1345 : IVec S16 32) (k0_hw1023 : k0_chk1023 v1257 v1345), ∀ a x, ((![v1257, v1345] : Fin 2 → IVec S16 32) a x).toNat < S128x200.size a := fun v1257 v1345 k0_hw1023 => k0_hw1023

def k0_chk1024 (v1349 : IVec S16 32) : Prop :=
  (∀ a x, ((![v1349] : Fin 1 → IVec S16 32) a x).toNat < S272.size a)
instance k0_chk1024.dec : ∀ (v1349 : IVec S16 32), Decidable (k0_chk1024 v1349) := fun v1349 => decidable_of_iff' _ (Iff.of_eq (k0_chk1024.eq_1 v1349))
theorem k0_idx1024_inb : ∀ (v1349 : IVec S16 32) (k0_hw1024 : k0_chk1024 v1349), ∀ a x, ((![v1349] : Fin 1 → IVec S16 32) a x).toNat < S272.size a := fun v1349 k0_hw1024 => k0_hw1024
def k0_off72 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c96_i32_458 : BitVec 32 := 96#32
  let v1353 : BitVec 32 := Scalar.addi v648 c96_i32_458
  let v1354 : Index := Scalar.indexCast v1353
  ![v1354.toNat]

def k0_chk1025 (v1358 : IVec S16 32) (v1360 : IVec S16 32) : Prop :=
  (∀ a x, ((![v1358, v1360] : Fin 2 → IVec S16 32) a x).toNat < S128x200.size a)
instance k0_chk1025.dec : ∀ (v1358 : IVec S16 32) (v1360 : IVec S16 32), Decidable (k0_chk1025 v1358 v1360) := fun v1358 v1360 => decidable_of_iff' _ (Iff.of_eq (k0_chk1025.eq_1 v1358 v1360))
theorem k0_idx1025_inb : ∀ (v1358 : IVec S16 32) (v1360 : IVec S16 32) (k0_hw1025 : k0_chk1025 v1358 v1360), ∀ a x, ((![v1358, v1360] : Fin 2 → IVec S16 32) a x).toNat < S128x200.size a := fun v1358 v1360 k0_hw1025 => k0_hw1025

def k0_chk1026 (v1358 : IVec S16 32) (v1365 : IVec S16 32) : Prop :=
  (∀ a x, ((![v1358, v1365] : Fin 2 → IVec S16 32) a x).toNat < S128x200.size a)
instance k0_chk1026.dec : ∀ (v1358 : IVec S16 32) (v1365 : IVec S16 32), Decidable (k0_chk1026 v1358 v1365) := fun v1358 v1365 => decidable_of_iff' _ (Iff.of_eq (k0_chk1026.eq_1 v1358 v1365))
theorem k0_idx1026_inb : ∀ (v1358 : IVec S16 32) (v1365 : IVec S16 32) (k0_hw1026 : k0_chk1026 v1358 v1365), ∀ a x, ((![v1358, v1365] : Fin 2 → IVec S16 32) a x).toNat < S128x200.size a := fun v1358 v1365 k0_hw1026 => k0_hw1026

def k0_chk1027 (v1358 : IVec S16 32) (v1370 : IVec S16 32) : Prop :=
  (∀ a x, ((![v1358, v1370] : Fin 2 → IVec S16 32) a x).toNat < S128x200.size a)
instance k0_chk1027.dec : ∀ (v1358 : IVec S16 32) (v1370 : IVec S16 32), Decidable (k0_chk1027 v1358 v1370) := fun v1358 v1370 => decidable_of_iff' _ (Iff.of_eq (k0_chk1027.eq_1 v1358 v1370))
theorem k0_idx1027_inb : ∀ (v1358 : IVec S16 32) (v1370 : IVec S16 32) (k0_hw1027 : k0_chk1027 v1358 v1370), ∀ a x, ((![v1358, v1370] : Fin 2 → IVec S16 32) a x).toNat < S128x200.size a := fun v1358 v1370 k0_hw1027 => k0_hw1027

def k0_chk1028 (v1358 : IVec S16 32) (v1375 : IVec S16 32) : Prop :=
  (∀ a x, ((![v1358, v1375] : Fin 2 → IVec S16 32) a x).toNat < S128x200.size a)
instance k0_chk1028.dec : ∀ (v1358 : IVec S16 32) (v1375 : IVec S16 32), Decidable (k0_chk1028 v1358 v1375) := fun v1358 v1375 => decidable_of_iff' _ (Iff.of_eq (k0_chk1028.eq_1 v1358 v1375))
theorem k0_idx1028_inb : ∀ (v1358 : IVec S16 32) (v1375 : IVec S16 32) (k0_hw1028 : k0_chk1028 v1358 v1375), ∀ a x, ((![v1358, v1375] : Fin 2 → IVec S16 32) a x).toNat < S128x200.size a := fun v1358 v1375 k0_hw1028 => k0_hw1028

def k0_chk1029 (v1385 : IVec S16 32) : Prop :=
  (∀ a x, ((![v1385] : Fin 1 → IVec S16 32) a x).toNat < S4096.size a)
instance k0_chk1029.dec : ∀ (v1385 : IVec S16 32), Decidable (k0_chk1029 v1385) := fun v1385 => decidable_of_iff' _ (Iff.of_eq (k0_chk1029.eq_1 v1385))
theorem k0_idx1029_inb : ∀ (v1385 : IVec S16 32) (k0_hw1029 : k0_chk1029 v1385), ∀ a x, ((![v1385] : Fin 1 → IVec S16 32) a x).toNat < S4096.size a := fun v1385 k0_hw1029 => k0_hw1029

def k0_chk1030 (v1358 : IVec S16 32) (v1388 : IVec S16 32) : Prop :=
  (∀ a x, ((![v1358, v1388] : Fin 2 → IVec S16 32) a x).toNat < S128x200.size a)
instance k0_chk1030.dec : ∀ (v1358 : IVec S16 32) (v1388 : IVec S16 32), Decidable (k0_chk1030 v1358 v1388) := fun v1358 v1388 => decidable_of_iff' _ (Iff.of_eq (k0_chk1030.eq_1 v1358 v1388))
theorem k0_idx1030_inb : ∀ (v1358 : IVec S16 32) (v1388 : IVec S16 32) (k0_hw1030 : k0_chk1030 v1358 v1388), ∀ a x, ((![v1358, v1388] : Fin 2 → IVec S16 32) a x).toNat < S128x200.size a := fun v1358 v1388 k0_hw1030 => k0_hw1030

def k0_chk1031 (v1358 : IVec S16 32) (v1393 : IVec S16 32) : Prop :=
  (∀ a x, ((![v1358, v1393] : Fin 2 → IVec S16 32) a x).toNat < S128x200.size a)
instance k0_chk1031.dec : ∀ (v1358 : IVec S16 32) (v1393 : IVec S16 32), Decidable (k0_chk1031 v1358 v1393) := fun v1358 v1393 => decidable_of_iff' _ (Iff.of_eq (k0_chk1031.eq_1 v1358 v1393))
theorem k0_idx1031_inb : ∀ (v1358 : IVec S16 32) (v1393 : IVec S16 32) (k0_hw1031 : k0_chk1031 v1358 v1393), ∀ a x, ((![v1358, v1393] : Fin 2 → IVec S16 32) a x).toNat < S128x200.size a := fun v1358 v1393 k0_hw1031 => k0_hw1031

def k0_chk1032 (v1358 : IVec S16 32) (v1398 : IVec S16 32) : Prop :=
  (∀ a x, ((![v1358, v1398] : Fin 2 → IVec S16 32) a x).toNat < S128x200.size a)
instance k0_chk1032.dec : ∀ (v1358 : IVec S16 32) (v1398 : IVec S16 32), Decidable (k0_chk1032 v1358 v1398) := fun v1358 v1398 => decidable_of_iff' _ (Iff.of_eq (k0_chk1032.eq_1 v1358 v1398))
theorem k0_idx1032_inb : ∀ (v1358 : IVec S16 32) (v1398 : IVec S16 32) (k0_hw1032 : k0_chk1032 v1358 v1398), ∀ a x, ((![v1358, v1398] : Fin 2 → IVec S16 32) a x).toNat < S128x200.size a := fun v1358 v1398 k0_hw1032 => k0_hw1032

def k0_chk1033 (v1358 : IVec S16 32) (v1403 : IVec S16 32) : Prop :=
  (∀ a x, ((![v1358, v1403] : Fin 2 → IVec S16 32) a x).toNat < S128x200.size a)
instance k0_chk1033.dec : ∀ (v1358 : IVec S16 32) (v1403 : IVec S16 32), Decidable (k0_chk1033 v1358 v1403) := fun v1358 v1403 => decidable_of_iff' _ (Iff.of_eq (k0_chk1033.eq_1 v1358 v1403))
theorem k0_idx1033_inb : ∀ (v1358 : IVec S16 32) (v1403 : IVec S16 32) (k0_hw1033 : k0_chk1033 v1358 v1403), ∀ a x, ((![v1358, v1403] : Fin 2 → IVec S16 32) a x).toNat < S128x200.size a := fun v1358 v1403 k0_hw1033 => k0_hw1033

def k0_chk1034 (v1413 : IVec S16 32) : Prop :=
  (∀ a x, ((![v1413] : Fin 1 → IVec S16 32) a x).toNat < S4096.size a)
instance k0_chk1034.dec : ∀ (v1413 : IVec S16 32), Decidable (k0_chk1034 v1413) := fun v1413 => decidable_of_iff' _ (Iff.of_eq (k0_chk1034.eq_1 v1413))
theorem k0_idx1034_inb : ∀ (v1413 : IVec S16 32) (k0_hw1034 : k0_chk1034 v1413), ∀ a x, ((![v1413] : Fin 1 → IVec S16 32) a x).toNat < S4096.size a := fun v1413 k0_hw1034 => k0_hw1034

def k0_chk1035 (v1358 : IVec S16 32) (v1417 : IVec S16 32) : Prop :=
  (∀ a x, ((![v1358, v1417] : Fin 2 → IVec S16 32) a x).toNat < S128x200.size a)
instance k0_chk1035.dec : ∀ (v1358 : IVec S16 32) (v1417 : IVec S16 32), Decidable (k0_chk1035 v1358 v1417) := fun v1358 v1417 => decidable_of_iff' _ (Iff.of_eq (k0_chk1035.eq_1 v1358 v1417))
theorem k0_idx1035_inb : ∀ (v1358 : IVec S16 32) (v1417 : IVec S16 32) (k0_hw1035 : k0_chk1035 v1358 v1417), ∀ a x, ((![v1358, v1417] : Fin 2 → IVec S16 32) a x).toNat < S128x200.size a := fun v1358 v1417 k0_hw1035 => k0_hw1035

def k0_chk1036 (v1358 : IVec S16 32) (v1422 : IVec S16 32) : Prop :=
  (∀ a x, ((![v1358, v1422] : Fin 2 → IVec S16 32) a x).toNat < S128x200.size a)
instance k0_chk1036.dec : ∀ (v1358 : IVec S16 32) (v1422 : IVec S16 32), Decidable (k0_chk1036 v1358 v1422) := fun v1358 v1422 => decidable_of_iff' _ (Iff.of_eq (k0_chk1036.eq_1 v1358 v1422))
theorem k0_idx1036_inb : ∀ (v1358 : IVec S16 32) (v1422 : IVec S16 32) (k0_hw1036 : k0_chk1036 v1358 v1422), ∀ a x, ((![v1358, v1422] : Fin 2 → IVec S16 32) a x).toNat < S128x200.size a := fun v1358 v1422 k0_hw1036 => k0_hw1036

def k0_chk1037 (v1358 : IVec S16 32) (v1427 : IVec S16 32) : Prop :=
  (∀ a x, ((![v1358, v1427] : Fin 2 → IVec S16 32) a x).toNat < S128x200.size a)
instance k0_chk1037.dec : ∀ (v1358 : IVec S16 32) (v1427 : IVec S16 32), Decidable (k0_chk1037 v1358 v1427) := fun v1358 v1427 => decidable_of_iff' _ (Iff.of_eq (k0_chk1037.eq_1 v1358 v1427))
theorem k0_idx1037_inb : ∀ (v1358 : IVec S16 32) (v1427 : IVec S16 32) (k0_hw1037 : k0_chk1037 v1358 v1427), ∀ a x, ((![v1358, v1427] : Fin 2 → IVec S16 32) a x).toNat < S128x200.size a := fun v1358 v1427 k0_hw1037 => k0_hw1037

def k0_chk1038 (v1358 : IVec S16 32) (v1432 : IVec S16 32) : Prop :=
  (∀ a x, ((![v1358, v1432] : Fin 2 → IVec S16 32) a x).toNat < S128x200.size a)
instance k0_chk1038.dec : ∀ (v1358 : IVec S16 32) (v1432 : IVec S16 32), Decidable (k0_chk1038 v1358 v1432) := fun v1358 v1432 => decidable_of_iff' _ (Iff.of_eq (k0_chk1038.eq_1 v1358 v1432))
theorem k0_idx1038_inb : ∀ (v1358 : IVec S16 32) (v1432 : IVec S16 32) (k0_hw1038 : k0_chk1038 v1358 v1432), ∀ a x, ((![v1358, v1432] : Fin 2 → IVec S16 32) a x).toNat < S128x200.size a := fun v1358 v1432 k0_hw1038 => k0_hw1038

def k0_chk1039 (v1442 : IVec S16 32) : Prop :=
  (∀ a x, ((![v1442] : Fin 1 → IVec S16 32) a x).toNat < S4096.size a)
instance k0_chk1039.dec : ∀ (v1442 : IVec S16 32), Decidable (k0_chk1039 v1442) := fun v1442 => decidable_of_iff' _ (Iff.of_eq (k0_chk1039.eq_1 v1442))
theorem k0_idx1039_inb : ∀ (v1442 : IVec S16 32) (k0_hw1039 : k0_chk1039 v1442), ∀ a x, ((![v1442] : Fin 1 → IVec S16 32) a x).toNat < S4096.size a := fun v1442 k0_hw1039 => k0_hw1039

def k0_chk1040 (v1358 : IVec S16 32) (v1446 : IVec S16 32) : Prop :=
  (∀ a x, ((![v1358, v1446] : Fin 2 → IVec S16 32) a x).toNat < S128x200.size a)
instance k0_chk1040.dec : ∀ (v1358 : IVec S16 32) (v1446 : IVec S16 32), Decidable (k0_chk1040 v1358 v1446) := fun v1358 v1446 => decidable_of_iff' _ (Iff.of_eq (k0_chk1040.eq_1 v1358 v1446))
theorem k0_idx1040_inb : ∀ (v1358 : IVec S16 32) (v1446 : IVec S16 32) (k0_hw1040 : k0_chk1040 v1358 v1446), ∀ a x, ((![v1358, v1446] : Fin 2 → IVec S16 32) a x).toNat < S128x200.size a := fun v1358 v1446 k0_hw1040 => k0_hw1040

def k0_chk1041 (v1450 : IVec S16 32) : Prop :=
  (∀ a x, ((![v1450] : Fin 1 → IVec S16 32) a x).toNat < S272.size a)
instance k0_chk1041.dec : ∀ (v1450 : IVec S16 32), Decidable (k0_chk1041 v1450) := fun v1450 => decidable_of_iff' _ (Iff.of_eq (k0_chk1041.eq_1 v1450))
theorem k0_idx1041_inb : ∀ (v1450 : IVec S16 32) (k0_hw1041 : k0_chk1041 v1450), ∀ a x, ((![v1450] : Fin 1 → IVec S16 32) a x).toNat < S272.size a := fun v1450 k0_hw1041 => k0_hw1041
def k0_off73 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c112_i32_493 : BitVec 32 := 112#32
  let v1454 : BitVec 32 := Scalar.addi v648 c112_i32_493
  let v1455 : Index := Scalar.indexCast v1454
  ![v1455.toNat]

def k0_chk1042 (v1459 : IVec S16 32) (v1461 : IVec S16 32) : Prop :=
  (∀ a x, ((![v1459, v1461] : Fin 2 → IVec S16 32) a x).toNat < S128x200.size a)
instance k0_chk1042.dec : ∀ (v1459 : IVec S16 32) (v1461 : IVec S16 32), Decidable (k0_chk1042 v1459 v1461) := fun v1459 v1461 => decidable_of_iff' _ (Iff.of_eq (k0_chk1042.eq_1 v1459 v1461))
theorem k0_idx1042_inb : ∀ (v1459 : IVec S16 32) (v1461 : IVec S16 32) (k0_hw1042 : k0_chk1042 v1459 v1461), ∀ a x, ((![v1459, v1461] : Fin 2 → IVec S16 32) a x).toNat < S128x200.size a := fun v1459 v1461 k0_hw1042 => k0_hw1042

def k0_chk1043 (v1459 : IVec S16 32) (v1466 : IVec S16 32) : Prop :=
  (∀ a x, ((![v1459, v1466] : Fin 2 → IVec S16 32) a x).toNat < S128x200.size a)
instance k0_chk1043.dec : ∀ (v1459 : IVec S16 32) (v1466 : IVec S16 32), Decidable (k0_chk1043 v1459 v1466) := fun v1459 v1466 => decidable_of_iff' _ (Iff.of_eq (k0_chk1043.eq_1 v1459 v1466))
theorem k0_idx1043_inb : ∀ (v1459 : IVec S16 32) (v1466 : IVec S16 32) (k0_hw1043 : k0_chk1043 v1459 v1466), ∀ a x, ((![v1459, v1466] : Fin 2 → IVec S16 32) a x).toNat < S128x200.size a := fun v1459 v1466 k0_hw1043 => k0_hw1043

def k0_chk1044 (v1459 : IVec S16 32) (v1471 : IVec S16 32) : Prop :=
  (∀ a x, ((![v1459, v1471] : Fin 2 → IVec S16 32) a x).toNat < S128x200.size a)
instance k0_chk1044.dec : ∀ (v1459 : IVec S16 32) (v1471 : IVec S16 32), Decidable (k0_chk1044 v1459 v1471) := fun v1459 v1471 => decidable_of_iff' _ (Iff.of_eq (k0_chk1044.eq_1 v1459 v1471))
theorem k0_idx1044_inb : ∀ (v1459 : IVec S16 32) (v1471 : IVec S16 32) (k0_hw1044 : k0_chk1044 v1459 v1471), ∀ a x, ((![v1459, v1471] : Fin 2 → IVec S16 32) a x).toNat < S128x200.size a := fun v1459 v1471 k0_hw1044 => k0_hw1044

def k0_chk1045 (v1459 : IVec S16 32) (v1476 : IVec S16 32) : Prop :=
  (∀ a x, ((![v1459, v1476] : Fin 2 → IVec S16 32) a x).toNat < S128x200.size a)
instance k0_chk1045.dec : ∀ (v1459 : IVec S16 32) (v1476 : IVec S16 32), Decidable (k0_chk1045 v1459 v1476) := fun v1459 v1476 => decidable_of_iff' _ (Iff.of_eq (k0_chk1045.eq_1 v1459 v1476))
theorem k0_idx1045_inb : ∀ (v1459 : IVec S16 32) (v1476 : IVec S16 32) (k0_hw1045 : k0_chk1045 v1459 v1476), ∀ a x, ((![v1459, v1476] : Fin 2 → IVec S16 32) a x).toNat < S128x200.size a := fun v1459 v1476 k0_hw1045 => k0_hw1045

def k0_chk1046 (v1486 : IVec S16 32) : Prop :=
  (∀ a x, ((![v1486] : Fin 1 → IVec S16 32) a x).toNat < S4096.size a)
instance k0_chk1046.dec : ∀ (v1486 : IVec S16 32), Decidable (k0_chk1046 v1486) := fun v1486 => decidable_of_iff' _ (Iff.of_eq (k0_chk1046.eq_1 v1486))
theorem k0_idx1046_inb : ∀ (v1486 : IVec S16 32) (k0_hw1046 : k0_chk1046 v1486), ∀ a x, ((![v1486] : Fin 1 → IVec S16 32) a x).toNat < S4096.size a := fun v1486 k0_hw1046 => k0_hw1046

def k0_chk1047 (v1459 : IVec S16 32) (v1489 : IVec S16 32) : Prop :=
  (∀ a x, ((![v1459, v1489] : Fin 2 → IVec S16 32) a x).toNat < S128x200.size a)
instance k0_chk1047.dec : ∀ (v1459 : IVec S16 32) (v1489 : IVec S16 32), Decidable (k0_chk1047 v1459 v1489) := fun v1459 v1489 => decidable_of_iff' _ (Iff.of_eq (k0_chk1047.eq_1 v1459 v1489))
theorem k0_idx1047_inb : ∀ (v1459 : IVec S16 32) (v1489 : IVec S16 32) (k0_hw1047 : k0_chk1047 v1459 v1489), ∀ a x, ((![v1459, v1489] : Fin 2 → IVec S16 32) a x).toNat < S128x200.size a := fun v1459 v1489 k0_hw1047 => k0_hw1047

def k0_chk1048 (v1459 : IVec S16 32) (v1494 : IVec S16 32) : Prop :=
  (∀ a x, ((![v1459, v1494] : Fin 2 → IVec S16 32) a x).toNat < S128x200.size a)
instance k0_chk1048.dec : ∀ (v1459 : IVec S16 32) (v1494 : IVec S16 32), Decidable (k0_chk1048 v1459 v1494) := fun v1459 v1494 => decidable_of_iff' _ (Iff.of_eq (k0_chk1048.eq_1 v1459 v1494))
theorem k0_idx1048_inb : ∀ (v1459 : IVec S16 32) (v1494 : IVec S16 32) (k0_hw1048 : k0_chk1048 v1459 v1494), ∀ a x, ((![v1459, v1494] : Fin 2 → IVec S16 32) a x).toNat < S128x200.size a := fun v1459 v1494 k0_hw1048 => k0_hw1048

def k0_chk1049 (v1459 : IVec S16 32) (v1499 : IVec S16 32) : Prop :=
  (∀ a x, ((![v1459, v1499] : Fin 2 → IVec S16 32) a x).toNat < S128x200.size a)
instance k0_chk1049.dec : ∀ (v1459 : IVec S16 32) (v1499 : IVec S16 32), Decidable (k0_chk1049 v1459 v1499) := fun v1459 v1499 => decidable_of_iff' _ (Iff.of_eq (k0_chk1049.eq_1 v1459 v1499))
theorem k0_idx1049_inb : ∀ (v1459 : IVec S16 32) (v1499 : IVec S16 32) (k0_hw1049 : k0_chk1049 v1459 v1499), ∀ a x, ((![v1459, v1499] : Fin 2 → IVec S16 32) a x).toNat < S128x200.size a := fun v1459 v1499 k0_hw1049 => k0_hw1049

def k0_chk1050 (v1459 : IVec S16 32) (v1504 : IVec S16 32) : Prop :=
  (∀ a x, ((![v1459, v1504] : Fin 2 → IVec S16 32) a x).toNat < S128x200.size a)
instance k0_chk1050.dec : ∀ (v1459 : IVec S16 32) (v1504 : IVec S16 32), Decidable (k0_chk1050 v1459 v1504) := fun v1459 v1504 => decidable_of_iff' _ (Iff.of_eq (k0_chk1050.eq_1 v1459 v1504))
theorem k0_idx1050_inb : ∀ (v1459 : IVec S16 32) (v1504 : IVec S16 32) (k0_hw1050 : k0_chk1050 v1459 v1504), ∀ a x, ((![v1459, v1504] : Fin 2 → IVec S16 32) a x).toNat < S128x200.size a := fun v1459 v1504 k0_hw1050 => k0_hw1050

def k0_chk1051 (v1514 : IVec S16 32) : Prop :=
  (∀ a x, ((![v1514] : Fin 1 → IVec S16 32) a x).toNat < S4096.size a)
instance k0_chk1051.dec : ∀ (v1514 : IVec S16 32), Decidable (k0_chk1051 v1514) := fun v1514 => decidable_of_iff' _ (Iff.of_eq (k0_chk1051.eq_1 v1514))
theorem k0_idx1051_inb : ∀ (v1514 : IVec S16 32) (k0_hw1051 : k0_chk1051 v1514), ∀ a x, ((![v1514] : Fin 1 → IVec S16 32) a x).toNat < S4096.size a := fun v1514 k0_hw1051 => k0_hw1051

def k0_chk1052 (v1459 : IVec S16 32) (v1518 : IVec S16 32) : Prop :=
  (∀ a x, ((![v1459, v1518] : Fin 2 → IVec S16 32) a x).toNat < S128x200.size a)
instance k0_chk1052.dec : ∀ (v1459 : IVec S16 32) (v1518 : IVec S16 32), Decidable (k0_chk1052 v1459 v1518) := fun v1459 v1518 => decidable_of_iff' _ (Iff.of_eq (k0_chk1052.eq_1 v1459 v1518))
theorem k0_idx1052_inb : ∀ (v1459 : IVec S16 32) (v1518 : IVec S16 32) (k0_hw1052 : k0_chk1052 v1459 v1518), ∀ a x, ((![v1459, v1518] : Fin 2 → IVec S16 32) a x).toNat < S128x200.size a := fun v1459 v1518 k0_hw1052 => k0_hw1052

def k0_chk1053 (v1459 : IVec S16 32) (v1523 : IVec S16 32) : Prop :=
  (∀ a x, ((![v1459, v1523] : Fin 2 → IVec S16 32) a x).toNat < S128x200.size a)
instance k0_chk1053.dec : ∀ (v1459 : IVec S16 32) (v1523 : IVec S16 32), Decidable (k0_chk1053 v1459 v1523) := fun v1459 v1523 => decidable_of_iff' _ (Iff.of_eq (k0_chk1053.eq_1 v1459 v1523))
theorem k0_idx1053_inb : ∀ (v1459 : IVec S16 32) (v1523 : IVec S16 32) (k0_hw1053 : k0_chk1053 v1459 v1523), ∀ a x, ((![v1459, v1523] : Fin 2 → IVec S16 32) a x).toNat < S128x200.size a := fun v1459 v1523 k0_hw1053 => k0_hw1053

def k0_chk1054 (v1459 : IVec S16 32) (v1528 : IVec S16 32) : Prop :=
  (∀ a x, ((![v1459, v1528] : Fin 2 → IVec S16 32) a x).toNat < S128x200.size a)
instance k0_chk1054.dec : ∀ (v1459 : IVec S16 32) (v1528 : IVec S16 32), Decidable (k0_chk1054 v1459 v1528) := fun v1459 v1528 => decidable_of_iff' _ (Iff.of_eq (k0_chk1054.eq_1 v1459 v1528))
theorem k0_idx1054_inb : ∀ (v1459 : IVec S16 32) (v1528 : IVec S16 32) (k0_hw1054 : k0_chk1054 v1459 v1528), ∀ a x, ((![v1459, v1528] : Fin 2 → IVec S16 32) a x).toNat < S128x200.size a := fun v1459 v1528 k0_hw1054 => k0_hw1054

def k0_chk1055 (v1459 : IVec S16 32) (v1533 : IVec S16 32) : Prop :=
  (∀ a x, ((![v1459, v1533] : Fin 2 → IVec S16 32) a x).toNat < S128x200.size a)
instance k0_chk1055.dec : ∀ (v1459 : IVec S16 32) (v1533 : IVec S16 32), Decidable (k0_chk1055 v1459 v1533) := fun v1459 v1533 => decidable_of_iff' _ (Iff.of_eq (k0_chk1055.eq_1 v1459 v1533))
theorem k0_idx1055_inb : ∀ (v1459 : IVec S16 32) (v1533 : IVec S16 32) (k0_hw1055 : k0_chk1055 v1459 v1533), ∀ a x, ((![v1459, v1533] : Fin 2 → IVec S16 32) a x).toNat < S128x200.size a := fun v1459 v1533 k0_hw1055 => k0_hw1055

def k0_chk1056 (v1543 : IVec S16 32) : Prop :=
  (∀ a x, ((![v1543] : Fin 1 → IVec S16 32) a x).toNat < S4096.size a)
instance k0_chk1056.dec : ∀ (v1543 : IVec S16 32), Decidable (k0_chk1056 v1543) := fun v1543 => decidable_of_iff' _ (Iff.of_eq (k0_chk1056.eq_1 v1543))
theorem k0_idx1056_inb : ∀ (v1543 : IVec S16 32) (k0_hw1056 : k0_chk1056 v1543), ∀ a x, ((![v1543] : Fin 1 → IVec S16 32) a x).toNat < S4096.size a := fun v1543 k0_hw1056 => k0_hw1056

def k0_chk1057 (v1459 : IVec S16 32) (v1547 : IVec S16 32) : Prop :=
  (∀ a x, ((![v1459, v1547] : Fin 2 → IVec S16 32) a x).toNat < S128x200.size a)
instance k0_chk1057.dec : ∀ (v1459 : IVec S16 32) (v1547 : IVec S16 32), Decidable (k0_chk1057 v1459 v1547) := fun v1459 v1547 => decidable_of_iff' _ (Iff.of_eq (k0_chk1057.eq_1 v1459 v1547))
theorem k0_idx1057_inb : ∀ (v1459 : IVec S16 32) (v1547 : IVec S16 32) (k0_hw1057 : k0_chk1057 v1459 v1547), ∀ a x, ((![v1459, v1547] : Fin 2 → IVec S16 32) a x).toNat < S128x200.size a := fun v1459 v1547 k0_hw1057 => k0_hw1057

def k0_chk1058 (v1551 : IVec S16 32) : Prop :=
  (∀ a x, ((![v1551] : Fin 1 → IVec S16 32) a x).toNat < S272.size a)
instance k0_chk1058.dec : ∀ (v1551 : IVec S16 32), Decidable (k0_chk1058 v1551) := fun v1551 => decidable_of_iff' _ (Iff.of_eq (k0_chk1058.eq_1 v1551))
theorem k0_idx1058_inb : ∀ (v1551 : IVec S16 32) (k0_hw1058 : k0_chk1058 v1551), ∀ a x, ((![v1551] : Fin 1 → IVec S16 32) a x).toNat < S272.size a := fun v1551 k0_hw1058 => k0_hw1058
def k0_off74 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c128_i32_528 : BitVec 32 := 128#32
  let v1555 : BitVec 32 := Scalar.addi v648 c128_i32_528
  let v1556 : Index := Scalar.indexCast v1555
  ![v1556.toNat]

def k0_chk1059 (v1560 : IVec S16 32) (v1562 : IVec S16 32) : Prop :=
  (∀ a x, ((![v1560, v1562] : Fin 2 → IVec S16 32) a x).toNat < S128x200.size a)
instance k0_chk1059.dec : ∀ (v1560 : IVec S16 32) (v1562 : IVec S16 32), Decidable (k0_chk1059 v1560 v1562) := fun v1560 v1562 => decidable_of_iff' _ (Iff.of_eq (k0_chk1059.eq_1 v1560 v1562))
theorem k0_idx1059_inb : ∀ (v1560 : IVec S16 32) (v1562 : IVec S16 32) (k0_hw1059 : k0_chk1059 v1560 v1562), ∀ a x, ((![v1560, v1562] : Fin 2 → IVec S16 32) a x).toNat < S128x200.size a := fun v1560 v1562 k0_hw1059 => k0_hw1059

def k0_chk1060 (v1560 : IVec S16 32) (v1567 : IVec S16 32) : Prop :=
  (∀ a x, ((![v1560, v1567] : Fin 2 → IVec S16 32) a x).toNat < S128x200.size a)
instance k0_chk1060.dec : ∀ (v1560 : IVec S16 32) (v1567 : IVec S16 32), Decidable (k0_chk1060 v1560 v1567) := fun v1560 v1567 => decidable_of_iff' _ (Iff.of_eq (k0_chk1060.eq_1 v1560 v1567))
theorem k0_idx1060_inb : ∀ (v1560 : IVec S16 32) (v1567 : IVec S16 32) (k0_hw1060 : k0_chk1060 v1560 v1567), ∀ a x, ((![v1560, v1567] : Fin 2 → IVec S16 32) a x).toNat < S128x200.size a := fun v1560 v1567 k0_hw1060 => k0_hw1060

def k0_chk1061 (v1560 : IVec S16 32) (v1572 : IVec S16 32) : Prop :=
  (∀ a x, ((![v1560, v1572] : Fin 2 → IVec S16 32) a x).toNat < S128x200.size a)
instance k0_chk1061.dec : ∀ (v1560 : IVec S16 32) (v1572 : IVec S16 32), Decidable (k0_chk1061 v1560 v1572) := fun v1560 v1572 => decidable_of_iff' _ (Iff.of_eq (k0_chk1061.eq_1 v1560 v1572))
theorem k0_idx1061_inb : ∀ (v1560 : IVec S16 32) (v1572 : IVec S16 32) (k0_hw1061 : k0_chk1061 v1560 v1572), ∀ a x, ((![v1560, v1572] : Fin 2 → IVec S16 32) a x).toNat < S128x200.size a := fun v1560 v1572 k0_hw1061 => k0_hw1061

def k0_chk1062 (v1560 : IVec S16 32) (v1577 : IVec S16 32) : Prop :=
  (∀ a x, ((![v1560, v1577] : Fin 2 → IVec S16 32) a x).toNat < S128x200.size a)
instance k0_chk1062.dec : ∀ (v1560 : IVec S16 32) (v1577 : IVec S16 32), Decidable (k0_chk1062 v1560 v1577) := fun v1560 v1577 => decidable_of_iff' _ (Iff.of_eq (k0_chk1062.eq_1 v1560 v1577))
theorem k0_idx1062_inb : ∀ (v1560 : IVec S16 32) (v1577 : IVec S16 32) (k0_hw1062 : k0_chk1062 v1560 v1577), ∀ a x, ((![v1560, v1577] : Fin 2 → IVec S16 32) a x).toNat < S128x200.size a := fun v1560 v1577 k0_hw1062 => k0_hw1062

def k0_chk1063 (v1587 : IVec S16 32) : Prop :=
  (∀ a x, ((![v1587] : Fin 1 → IVec S16 32) a x).toNat < S4096.size a)
instance k0_chk1063.dec : ∀ (v1587 : IVec S16 32), Decidable (k0_chk1063 v1587) := fun v1587 => decidable_of_iff' _ (Iff.of_eq (k0_chk1063.eq_1 v1587))
theorem k0_idx1063_inb : ∀ (v1587 : IVec S16 32) (k0_hw1063 : k0_chk1063 v1587), ∀ a x, ((![v1587] : Fin 1 → IVec S16 32) a x).toNat < S4096.size a := fun v1587 k0_hw1063 => k0_hw1063

def k0_chk1064 (v1560 : IVec S16 32) (v1590 : IVec S16 32) : Prop :=
  (∀ a x, ((![v1560, v1590] : Fin 2 → IVec S16 32) a x).toNat < S128x200.size a)
instance k0_chk1064.dec : ∀ (v1560 : IVec S16 32) (v1590 : IVec S16 32), Decidable (k0_chk1064 v1560 v1590) := fun v1560 v1590 => decidable_of_iff' _ (Iff.of_eq (k0_chk1064.eq_1 v1560 v1590))
theorem k0_idx1064_inb : ∀ (v1560 : IVec S16 32) (v1590 : IVec S16 32) (k0_hw1064 : k0_chk1064 v1560 v1590), ∀ a x, ((![v1560, v1590] : Fin 2 → IVec S16 32) a x).toNat < S128x200.size a := fun v1560 v1590 k0_hw1064 => k0_hw1064

def k0_chk1065 (v1560 : IVec S16 32) (v1595 : IVec S16 32) : Prop :=
  (∀ a x, ((![v1560, v1595] : Fin 2 → IVec S16 32) a x).toNat < S128x200.size a)
instance k0_chk1065.dec : ∀ (v1560 : IVec S16 32) (v1595 : IVec S16 32), Decidable (k0_chk1065 v1560 v1595) := fun v1560 v1595 => decidable_of_iff' _ (Iff.of_eq (k0_chk1065.eq_1 v1560 v1595))
theorem k0_idx1065_inb : ∀ (v1560 : IVec S16 32) (v1595 : IVec S16 32) (k0_hw1065 : k0_chk1065 v1560 v1595), ∀ a x, ((![v1560, v1595] : Fin 2 → IVec S16 32) a x).toNat < S128x200.size a := fun v1560 v1595 k0_hw1065 => k0_hw1065

def k0_chk1066 (v1560 : IVec S16 32) (v1600 : IVec S16 32) : Prop :=
  (∀ a x, ((![v1560, v1600] : Fin 2 → IVec S16 32) a x).toNat < S128x200.size a)
instance k0_chk1066.dec : ∀ (v1560 : IVec S16 32) (v1600 : IVec S16 32), Decidable (k0_chk1066 v1560 v1600) := fun v1560 v1600 => decidable_of_iff' _ (Iff.of_eq (k0_chk1066.eq_1 v1560 v1600))
theorem k0_idx1066_inb : ∀ (v1560 : IVec S16 32) (v1600 : IVec S16 32) (k0_hw1066 : k0_chk1066 v1560 v1600), ∀ a x, ((![v1560, v1600] : Fin 2 → IVec S16 32) a x).toNat < S128x200.size a := fun v1560 v1600 k0_hw1066 => k0_hw1066

def k0_chk1067 (v1560 : IVec S16 32) (v1605 : IVec S16 32) : Prop :=
  (∀ a x, ((![v1560, v1605] : Fin 2 → IVec S16 32) a x).toNat < S128x200.size a)
instance k0_chk1067.dec : ∀ (v1560 : IVec S16 32) (v1605 : IVec S16 32), Decidable (k0_chk1067 v1560 v1605) := fun v1560 v1605 => decidable_of_iff' _ (Iff.of_eq (k0_chk1067.eq_1 v1560 v1605))
theorem k0_idx1067_inb : ∀ (v1560 : IVec S16 32) (v1605 : IVec S16 32) (k0_hw1067 : k0_chk1067 v1560 v1605), ∀ a x, ((![v1560, v1605] : Fin 2 → IVec S16 32) a x).toNat < S128x200.size a := fun v1560 v1605 k0_hw1067 => k0_hw1067

def k0_chk1068 (v1615 : IVec S16 32) : Prop :=
  (∀ a x, ((![v1615] : Fin 1 → IVec S16 32) a x).toNat < S4096.size a)
instance k0_chk1068.dec : ∀ (v1615 : IVec S16 32), Decidable (k0_chk1068 v1615) := fun v1615 => decidable_of_iff' _ (Iff.of_eq (k0_chk1068.eq_1 v1615))
theorem k0_idx1068_inb : ∀ (v1615 : IVec S16 32) (k0_hw1068 : k0_chk1068 v1615), ∀ a x, ((![v1615] : Fin 1 → IVec S16 32) a x).toNat < S4096.size a := fun v1615 k0_hw1068 => k0_hw1068

def k0_chk1069 (v1560 : IVec S16 32) (v1619 : IVec S16 32) : Prop :=
  (∀ a x, ((![v1560, v1619] : Fin 2 → IVec S16 32) a x).toNat < S128x200.size a)
instance k0_chk1069.dec : ∀ (v1560 : IVec S16 32) (v1619 : IVec S16 32), Decidable (k0_chk1069 v1560 v1619) := fun v1560 v1619 => decidable_of_iff' _ (Iff.of_eq (k0_chk1069.eq_1 v1560 v1619))
theorem k0_idx1069_inb : ∀ (v1560 : IVec S16 32) (v1619 : IVec S16 32) (k0_hw1069 : k0_chk1069 v1560 v1619), ∀ a x, ((![v1560, v1619] : Fin 2 → IVec S16 32) a x).toNat < S128x200.size a := fun v1560 v1619 k0_hw1069 => k0_hw1069

def k0_chk1070 (v1560 : IVec S16 32) (v1624 : IVec S16 32) : Prop :=
  (∀ a x, ((![v1560, v1624] : Fin 2 → IVec S16 32) a x).toNat < S128x200.size a)
instance k0_chk1070.dec : ∀ (v1560 : IVec S16 32) (v1624 : IVec S16 32), Decidable (k0_chk1070 v1560 v1624) := fun v1560 v1624 => decidable_of_iff' _ (Iff.of_eq (k0_chk1070.eq_1 v1560 v1624))
theorem k0_idx1070_inb : ∀ (v1560 : IVec S16 32) (v1624 : IVec S16 32) (k0_hw1070 : k0_chk1070 v1560 v1624), ∀ a x, ((![v1560, v1624] : Fin 2 → IVec S16 32) a x).toNat < S128x200.size a := fun v1560 v1624 k0_hw1070 => k0_hw1070

def k0_chk1071 (v1560 : IVec S16 32) (v1629 : IVec S16 32) : Prop :=
  (∀ a x, ((![v1560, v1629] : Fin 2 → IVec S16 32) a x).toNat < S128x200.size a)
instance k0_chk1071.dec : ∀ (v1560 : IVec S16 32) (v1629 : IVec S16 32), Decidable (k0_chk1071 v1560 v1629) := fun v1560 v1629 => decidable_of_iff' _ (Iff.of_eq (k0_chk1071.eq_1 v1560 v1629))
theorem k0_idx1071_inb : ∀ (v1560 : IVec S16 32) (v1629 : IVec S16 32) (k0_hw1071 : k0_chk1071 v1560 v1629), ∀ a x, ((![v1560, v1629] : Fin 2 → IVec S16 32) a x).toNat < S128x200.size a := fun v1560 v1629 k0_hw1071 => k0_hw1071

def k0_chk1072 (v1560 : IVec S16 32) (v1634 : IVec S16 32) : Prop :=
  (∀ a x, ((![v1560, v1634] : Fin 2 → IVec S16 32) a x).toNat < S128x200.size a)
instance k0_chk1072.dec : ∀ (v1560 : IVec S16 32) (v1634 : IVec S16 32), Decidable (k0_chk1072 v1560 v1634) := fun v1560 v1634 => decidable_of_iff' _ (Iff.of_eq (k0_chk1072.eq_1 v1560 v1634))
theorem k0_idx1072_inb : ∀ (v1560 : IVec S16 32) (v1634 : IVec S16 32) (k0_hw1072 : k0_chk1072 v1560 v1634), ∀ a x, ((![v1560, v1634] : Fin 2 → IVec S16 32) a x).toNat < S128x200.size a := fun v1560 v1634 k0_hw1072 => k0_hw1072

def k0_chk1073 (v1644 : IVec S16 32) : Prop :=
  (∀ a x, ((![v1644] : Fin 1 → IVec S16 32) a x).toNat < S4096.size a)
instance k0_chk1073.dec : ∀ (v1644 : IVec S16 32), Decidable (k0_chk1073 v1644) := fun v1644 => decidable_of_iff' _ (Iff.of_eq (k0_chk1073.eq_1 v1644))
theorem k0_idx1073_inb : ∀ (v1644 : IVec S16 32) (k0_hw1073 : k0_chk1073 v1644), ∀ a x, ((![v1644] : Fin 1 → IVec S16 32) a x).toNat < S4096.size a := fun v1644 k0_hw1073 => k0_hw1073

def k0_chk1074 (v1560 : IVec S16 32) (v1648 : IVec S16 32) : Prop :=
  (∀ a x, ((![v1560, v1648] : Fin 2 → IVec S16 32) a x).toNat < S128x200.size a)
instance k0_chk1074.dec : ∀ (v1560 : IVec S16 32) (v1648 : IVec S16 32), Decidable (k0_chk1074 v1560 v1648) := fun v1560 v1648 => decidable_of_iff' _ (Iff.of_eq (k0_chk1074.eq_1 v1560 v1648))
theorem k0_idx1074_inb : ∀ (v1560 : IVec S16 32) (v1648 : IVec S16 32) (k0_hw1074 : k0_chk1074 v1560 v1648), ∀ a x, ((![v1560, v1648] : Fin 2 → IVec S16 32) a x).toNat < S128x200.size a := fun v1560 v1648 k0_hw1074 => k0_hw1074

def k0_chk1075 (v1652 : IVec S16 32) : Prop :=
  (∀ a x, ((![v1652] : Fin 1 → IVec S16 32) a x).toNat < S272.size a)
instance k0_chk1075.dec : ∀ (v1652 : IVec S16 32), Decidable (k0_chk1075 v1652) := fun v1652 => decidable_of_iff' _ (Iff.of_eq (k0_chk1075.eq_1 v1652))
theorem k0_idx1075_inb : ∀ (v1652 : IVec S16 32) (k0_hw1075 : k0_chk1075 v1652), ∀ a x, ((![v1652] : Fin 1 → IVec S16 32) a x).toNat < S272.size a := fun v1652 k0_hw1075 => k0_hw1075
def k0_off75 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c144_i32_563 : BitVec 32 := 144#32
  let v1656 : BitVec 32 := Scalar.addi v648 c144_i32_563
  let v1657 : Index := Scalar.indexCast v1656
  ![v1657.toNat]

def k0_chk1076 (v1661 : IVec S16 32) (v1663 : IVec S16 32) : Prop :=
  (∀ a x, ((![v1661, v1663] : Fin 2 → IVec S16 32) a x).toNat < S128x200.size a)
instance k0_chk1076.dec : ∀ (v1661 : IVec S16 32) (v1663 : IVec S16 32), Decidable (k0_chk1076 v1661 v1663) := fun v1661 v1663 => decidable_of_iff' _ (Iff.of_eq (k0_chk1076.eq_1 v1661 v1663))
theorem k0_idx1076_inb : ∀ (v1661 : IVec S16 32) (v1663 : IVec S16 32) (k0_hw1076 : k0_chk1076 v1661 v1663), ∀ a x, ((![v1661, v1663] : Fin 2 → IVec S16 32) a x).toNat < S128x200.size a := fun v1661 v1663 k0_hw1076 => k0_hw1076

def k0_chk1077 (v1661 : IVec S16 32) (v1668 : IVec S16 32) : Prop :=
  (∀ a x, ((![v1661, v1668] : Fin 2 → IVec S16 32) a x).toNat < S128x200.size a)
instance k0_chk1077.dec : ∀ (v1661 : IVec S16 32) (v1668 : IVec S16 32), Decidable (k0_chk1077 v1661 v1668) := fun v1661 v1668 => decidable_of_iff' _ (Iff.of_eq (k0_chk1077.eq_1 v1661 v1668))
theorem k0_idx1077_inb : ∀ (v1661 : IVec S16 32) (v1668 : IVec S16 32) (k0_hw1077 : k0_chk1077 v1661 v1668), ∀ a x, ((![v1661, v1668] : Fin 2 → IVec S16 32) a x).toNat < S128x200.size a := fun v1661 v1668 k0_hw1077 => k0_hw1077

def k0_chk1078 (v1661 : IVec S16 32) (v1673 : IVec S16 32) : Prop :=
  (∀ a x, ((![v1661, v1673] : Fin 2 → IVec S16 32) a x).toNat < S128x200.size a)
instance k0_chk1078.dec : ∀ (v1661 : IVec S16 32) (v1673 : IVec S16 32), Decidable (k0_chk1078 v1661 v1673) := fun v1661 v1673 => decidable_of_iff' _ (Iff.of_eq (k0_chk1078.eq_1 v1661 v1673))
theorem k0_idx1078_inb : ∀ (v1661 : IVec S16 32) (v1673 : IVec S16 32) (k0_hw1078 : k0_chk1078 v1661 v1673), ∀ a x, ((![v1661, v1673] : Fin 2 → IVec S16 32) a x).toNat < S128x200.size a := fun v1661 v1673 k0_hw1078 => k0_hw1078

def k0_chk1079 (v1661 : IVec S16 32) (v1678 : IVec S16 32) : Prop :=
  (∀ a x, ((![v1661, v1678] : Fin 2 → IVec S16 32) a x).toNat < S128x200.size a)
instance k0_chk1079.dec : ∀ (v1661 : IVec S16 32) (v1678 : IVec S16 32), Decidable (k0_chk1079 v1661 v1678) := fun v1661 v1678 => decidable_of_iff' _ (Iff.of_eq (k0_chk1079.eq_1 v1661 v1678))
theorem k0_idx1079_inb : ∀ (v1661 : IVec S16 32) (v1678 : IVec S16 32) (k0_hw1079 : k0_chk1079 v1661 v1678), ∀ a x, ((![v1661, v1678] : Fin 2 → IVec S16 32) a x).toNat < S128x200.size a := fun v1661 v1678 k0_hw1079 => k0_hw1079

def k0_chk1080 (v1688 : IVec S16 32) : Prop :=
  (∀ a x, ((![v1688] : Fin 1 → IVec S16 32) a x).toNat < S4096.size a)
instance k0_chk1080.dec : ∀ (v1688 : IVec S16 32), Decidable (k0_chk1080 v1688) := fun v1688 => decidable_of_iff' _ (Iff.of_eq (k0_chk1080.eq_1 v1688))
theorem k0_idx1080_inb : ∀ (v1688 : IVec S16 32) (k0_hw1080 : k0_chk1080 v1688), ∀ a x, ((![v1688] : Fin 1 → IVec S16 32) a x).toNat < S4096.size a := fun v1688 k0_hw1080 => k0_hw1080

def k0_chk1081 (v1661 : IVec S16 32) (v1691 : IVec S16 32) : Prop :=
  (∀ a x, ((![v1661, v1691] : Fin 2 → IVec S16 32) a x).toNat < S128x200.size a)
instance k0_chk1081.dec : ∀ (v1661 : IVec S16 32) (v1691 : IVec S16 32), Decidable (k0_chk1081 v1661 v1691) := fun v1661 v1691 => decidable_of_iff' _ (Iff.of_eq (k0_chk1081.eq_1 v1661 v1691))
theorem k0_idx1081_inb : ∀ (v1661 : IVec S16 32) (v1691 : IVec S16 32) (k0_hw1081 : k0_chk1081 v1661 v1691), ∀ a x, ((![v1661, v1691] : Fin 2 → IVec S16 32) a x).toNat < S128x200.size a := fun v1661 v1691 k0_hw1081 => k0_hw1081

def k0_chk1082 (v1661 : IVec S16 32) (v1696 : IVec S16 32) : Prop :=
  (∀ a x, ((![v1661, v1696] : Fin 2 → IVec S16 32) a x).toNat < S128x200.size a)
instance k0_chk1082.dec : ∀ (v1661 : IVec S16 32) (v1696 : IVec S16 32), Decidable (k0_chk1082 v1661 v1696) := fun v1661 v1696 => decidable_of_iff' _ (Iff.of_eq (k0_chk1082.eq_1 v1661 v1696))
theorem k0_idx1082_inb : ∀ (v1661 : IVec S16 32) (v1696 : IVec S16 32) (k0_hw1082 : k0_chk1082 v1661 v1696), ∀ a x, ((![v1661, v1696] : Fin 2 → IVec S16 32) a x).toNat < S128x200.size a := fun v1661 v1696 k0_hw1082 => k0_hw1082

def k0_chk1083 (v1661 : IVec S16 32) (v1701 : IVec S16 32) : Prop :=
  (∀ a x, ((![v1661, v1701] : Fin 2 → IVec S16 32) a x).toNat < S128x200.size a)
instance k0_chk1083.dec : ∀ (v1661 : IVec S16 32) (v1701 : IVec S16 32), Decidable (k0_chk1083 v1661 v1701) := fun v1661 v1701 => decidable_of_iff' _ (Iff.of_eq (k0_chk1083.eq_1 v1661 v1701))
theorem k0_idx1083_inb : ∀ (v1661 : IVec S16 32) (v1701 : IVec S16 32) (k0_hw1083 : k0_chk1083 v1661 v1701), ∀ a x, ((![v1661, v1701] : Fin 2 → IVec S16 32) a x).toNat < S128x200.size a := fun v1661 v1701 k0_hw1083 => k0_hw1083

def k0_chk1084 (v1661 : IVec S16 32) (v1706 : IVec S16 32) : Prop :=
  (∀ a x, ((![v1661, v1706] : Fin 2 → IVec S16 32) a x).toNat < S128x200.size a)
instance k0_chk1084.dec : ∀ (v1661 : IVec S16 32) (v1706 : IVec S16 32), Decidable (k0_chk1084 v1661 v1706) := fun v1661 v1706 => decidable_of_iff' _ (Iff.of_eq (k0_chk1084.eq_1 v1661 v1706))
theorem k0_idx1084_inb : ∀ (v1661 : IVec S16 32) (v1706 : IVec S16 32) (k0_hw1084 : k0_chk1084 v1661 v1706), ∀ a x, ((![v1661, v1706] : Fin 2 → IVec S16 32) a x).toNat < S128x200.size a := fun v1661 v1706 k0_hw1084 => k0_hw1084

def k0_chk1085 (v1716 : IVec S16 32) : Prop :=
  (∀ a x, ((![v1716] : Fin 1 → IVec S16 32) a x).toNat < S4096.size a)
instance k0_chk1085.dec : ∀ (v1716 : IVec S16 32), Decidable (k0_chk1085 v1716) := fun v1716 => decidable_of_iff' _ (Iff.of_eq (k0_chk1085.eq_1 v1716))
theorem k0_idx1085_inb : ∀ (v1716 : IVec S16 32) (k0_hw1085 : k0_chk1085 v1716), ∀ a x, ((![v1716] : Fin 1 → IVec S16 32) a x).toNat < S4096.size a := fun v1716 k0_hw1085 => k0_hw1085

def k0_chk1086 (v1661 : IVec S16 32) (v1720 : IVec S16 32) : Prop :=
  (∀ a x, ((![v1661, v1720] : Fin 2 → IVec S16 32) a x).toNat < S128x200.size a)
instance k0_chk1086.dec : ∀ (v1661 : IVec S16 32) (v1720 : IVec S16 32), Decidable (k0_chk1086 v1661 v1720) := fun v1661 v1720 => decidable_of_iff' _ (Iff.of_eq (k0_chk1086.eq_1 v1661 v1720))
theorem k0_idx1086_inb : ∀ (v1661 : IVec S16 32) (v1720 : IVec S16 32) (k0_hw1086 : k0_chk1086 v1661 v1720), ∀ a x, ((![v1661, v1720] : Fin 2 → IVec S16 32) a x).toNat < S128x200.size a := fun v1661 v1720 k0_hw1086 => k0_hw1086

def k0_chk1087 (v1661 : IVec S16 32) (v1725 : IVec S16 32) : Prop :=
  (∀ a x, ((![v1661, v1725] : Fin 2 → IVec S16 32) a x).toNat < S128x200.size a)
instance k0_chk1087.dec : ∀ (v1661 : IVec S16 32) (v1725 : IVec S16 32), Decidable (k0_chk1087 v1661 v1725) := fun v1661 v1725 => decidable_of_iff' _ (Iff.of_eq (k0_chk1087.eq_1 v1661 v1725))
theorem k0_idx1087_inb : ∀ (v1661 : IVec S16 32) (v1725 : IVec S16 32) (k0_hw1087 : k0_chk1087 v1661 v1725), ∀ a x, ((![v1661, v1725] : Fin 2 → IVec S16 32) a x).toNat < S128x200.size a := fun v1661 v1725 k0_hw1087 => k0_hw1087

def k0_chk1088 (v1661 : IVec S16 32) (v1730 : IVec S16 32) : Prop :=
  (∀ a x, ((![v1661, v1730] : Fin 2 → IVec S16 32) a x).toNat < S128x200.size a)
instance k0_chk1088.dec : ∀ (v1661 : IVec S16 32) (v1730 : IVec S16 32), Decidable (k0_chk1088 v1661 v1730) := fun v1661 v1730 => decidable_of_iff' _ (Iff.of_eq (k0_chk1088.eq_1 v1661 v1730))
theorem k0_idx1088_inb : ∀ (v1661 : IVec S16 32) (v1730 : IVec S16 32) (k0_hw1088 : k0_chk1088 v1661 v1730), ∀ a x, ((![v1661, v1730] : Fin 2 → IVec S16 32) a x).toNat < S128x200.size a := fun v1661 v1730 k0_hw1088 => k0_hw1088

def k0_chk1089 (v1661 : IVec S16 32) (v1735 : IVec S16 32) : Prop :=
  (∀ a x, ((![v1661, v1735] : Fin 2 → IVec S16 32) a x).toNat < S128x200.size a)
instance k0_chk1089.dec : ∀ (v1661 : IVec S16 32) (v1735 : IVec S16 32), Decidable (k0_chk1089 v1661 v1735) := fun v1661 v1735 => decidable_of_iff' _ (Iff.of_eq (k0_chk1089.eq_1 v1661 v1735))
theorem k0_idx1089_inb : ∀ (v1661 : IVec S16 32) (v1735 : IVec S16 32) (k0_hw1089 : k0_chk1089 v1661 v1735), ∀ a x, ((![v1661, v1735] : Fin 2 → IVec S16 32) a x).toNat < S128x200.size a := fun v1661 v1735 k0_hw1089 => k0_hw1089

def k0_chk1090 (v1745 : IVec S16 32) : Prop :=
  (∀ a x, ((![v1745] : Fin 1 → IVec S16 32) a x).toNat < S4096.size a)
instance k0_chk1090.dec : ∀ (v1745 : IVec S16 32), Decidable (k0_chk1090 v1745) := fun v1745 => decidable_of_iff' _ (Iff.of_eq (k0_chk1090.eq_1 v1745))
theorem k0_idx1090_inb : ∀ (v1745 : IVec S16 32) (k0_hw1090 : k0_chk1090 v1745), ∀ a x, ((![v1745] : Fin 1 → IVec S16 32) a x).toNat < S4096.size a := fun v1745 k0_hw1090 => k0_hw1090

def k0_chk1091 (v1661 : IVec S16 32) (v1749 : IVec S16 32) : Prop :=
  (∀ a x, ((![v1661, v1749] : Fin 2 → IVec S16 32) a x).toNat < S128x200.size a)
instance k0_chk1091.dec : ∀ (v1661 : IVec S16 32) (v1749 : IVec S16 32), Decidable (k0_chk1091 v1661 v1749) := fun v1661 v1749 => decidable_of_iff' _ (Iff.of_eq (k0_chk1091.eq_1 v1661 v1749))
theorem k0_idx1091_inb : ∀ (v1661 : IVec S16 32) (v1749 : IVec S16 32) (k0_hw1091 : k0_chk1091 v1661 v1749), ∀ a x, ((![v1661, v1749] : Fin 2 → IVec S16 32) a x).toNat < S128x200.size a := fun v1661 v1749 k0_hw1091 => k0_hw1091

def k0_chk1092 (v1753 : IVec S16 32) : Prop :=
  (∀ a x, ((![v1753] : Fin 1 → IVec S16 32) a x).toNat < S272.size a)
instance k0_chk1092.dec : ∀ (v1753 : IVec S16 32), Decidable (k0_chk1092 v1753) := fun v1753 => decidable_of_iff' _ (Iff.of_eq (k0_chk1092.eq_1 v1753))
theorem k0_idx1092_inb : ∀ (v1753 : IVec S16 32) (k0_hw1092 : k0_chk1092 v1753), ∀ a x, ((![v1753] : Fin 1 → IVec S16 32) a x).toNat < S272.size a := fun v1753 k0_hw1092 => k0_hw1092
def k0_off76 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c160_i32_597 : BitVec 32 := 160#32
  let v1757 : BitVec 32 := Scalar.addi v648 c160_i32_597
  let v1758 : Index := Scalar.indexCast v1757
  ![v1758.toNat]

def k0_chk1093 (v1762 : IVec S16 32) (v1764 : IVec S16 32) : Prop :=
  (∀ a x, ((![v1762, v1764] : Fin 2 → IVec S16 32) a x).toNat < S128x200.size a)
instance k0_chk1093.dec : ∀ (v1762 : IVec S16 32) (v1764 : IVec S16 32), Decidable (k0_chk1093 v1762 v1764) := fun v1762 v1764 => decidable_of_iff' _ (Iff.of_eq (k0_chk1093.eq_1 v1762 v1764))
theorem k0_idx1093_inb : ∀ (v1762 : IVec S16 32) (v1764 : IVec S16 32) (k0_hw1093 : k0_chk1093 v1762 v1764), ∀ a x, ((![v1762, v1764] : Fin 2 → IVec S16 32) a x).toNat < S128x200.size a := fun v1762 v1764 k0_hw1093 => k0_hw1093

def k0_chk1094 (v1762 : IVec S16 32) (v1769 : IVec S16 32) : Prop :=
  (∀ a x, ((![v1762, v1769] : Fin 2 → IVec S16 32) a x).toNat < S128x200.size a)
instance k0_chk1094.dec : ∀ (v1762 : IVec S16 32) (v1769 : IVec S16 32), Decidable (k0_chk1094 v1762 v1769) := fun v1762 v1769 => decidable_of_iff' _ (Iff.of_eq (k0_chk1094.eq_1 v1762 v1769))
theorem k0_idx1094_inb : ∀ (v1762 : IVec S16 32) (v1769 : IVec S16 32) (k0_hw1094 : k0_chk1094 v1762 v1769), ∀ a x, ((![v1762, v1769] : Fin 2 → IVec S16 32) a x).toNat < S128x200.size a := fun v1762 v1769 k0_hw1094 => k0_hw1094

def k0_chk1095 (v1762 : IVec S16 32) (v1774 : IVec S16 32) : Prop :=
  (∀ a x, ((![v1762, v1774] : Fin 2 → IVec S16 32) a x).toNat < S128x200.size a)
instance k0_chk1095.dec : ∀ (v1762 : IVec S16 32) (v1774 : IVec S16 32), Decidable (k0_chk1095 v1762 v1774) := fun v1762 v1774 => decidable_of_iff' _ (Iff.of_eq (k0_chk1095.eq_1 v1762 v1774))
theorem k0_idx1095_inb : ∀ (v1762 : IVec S16 32) (v1774 : IVec S16 32) (k0_hw1095 : k0_chk1095 v1762 v1774), ∀ a x, ((![v1762, v1774] : Fin 2 → IVec S16 32) a x).toNat < S128x200.size a := fun v1762 v1774 k0_hw1095 => k0_hw1095

def k0_chk1096 (v1762 : IVec S16 32) (v1779 : IVec S16 32) : Prop :=
  (∀ a x, ((![v1762, v1779] : Fin 2 → IVec S16 32) a x).toNat < S128x200.size a)
instance k0_chk1096.dec : ∀ (v1762 : IVec S16 32) (v1779 : IVec S16 32), Decidable (k0_chk1096 v1762 v1779) := fun v1762 v1779 => decidable_of_iff' _ (Iff.of_eq (k0_chk1096.eq_1 v1762 v1779))
theorem k0_idx1096_inb : ∀ (v1762 : IVec S16 32) (v1779 : IVec S16 32) (k0_hw1096 : k0_chk1096 v1762 v1779), ∀ a x, ((![v1762, v1779] : Fin 2 → IVec S16 32) a x).toNat < S128x200.size a := fun v1762 v1779 k0_hw1096 => k0_hw1096

def k0_chk1097 (v1789 : IVec S16 32) : Prop :=
  (∀ a x, ((![v1789] : Fin 1 → IVec S16 32) a x).toNat < S4096.size a)
instance k0_chk1097.dec : ∀ (v1789 : IVec S16 32), Decidable (k0_chk1097 v1789) := fun v1789 => decidable_of_iff' _ (Iff.of_eq (k0_chk1097.eq_1 v1789))
theorem k0_idx1097_inb : ∀ (v1789 : IVec S16 32) (k0_hw1097 : k0_chk1097 v1789), ∀ a x, ((![v1789] : Fin 1 → IVec S16 32) a x).toNat < S4096.size a := fun v1789 k0_hw1097 => k0_hw1097

def k0_chk1098 (v1762 : IVec S16 32) (v1792 : IVec S16 32) : Prop :=
  (∀ a x, ((![v1762, v1792] : Fin 2 → IVec S16 32) a x).toNat < S128x200.size a)
instance k0_chk1098.dec : ∀ (v1762 : IVec S16 32) (v1792 : IVec S16 32), Decidable (k0_chk1098 v1762 v1792) := fun v1762 v1792 => decidable_of_iff' _ (Iff.of_eq (k0_chk1098.eq_1 v1762 v1792))
theorem k0_idx1098_inb : ∀ (v1762 : IVec S16 32) (v1792 : IVec S16 32) (k0_hw1098 : k0_chk1098 v1762 v1792), ∀ a x, ((![v1762, v1792] : Fin 2 → IVec S16 32) a x).toNat < S128x200.size a := fun v1762 v1792 k0_hw1098 => k0_hw1098

def k0_chk1099 (v1762 : IVec S16 32) (v1797 : IVec S16 32) : Prop :=
  (∀ a x, ((![v1762, v1797] : Fin 2 → IVec S16 32) a x).toNat < S128x200.size a)
instance k0_chk1099.dec : ∀ (v1762 : IVec S16 32) (v1797 : IVec S16 32), Decidable (k0_chk1099 v1762 v1797) := fun v1762 v1797 => decidable_of_iff' _ (Iff.of_eq (k0_chk1099.eq_1 v1762 v1797))
theorem k0_idx1099_inb : ∀ (v1762 : IVec S16 32) (v1797 : IVec S16 32) (k0_hw1099 : k0_chk1099 v1762 v1797), ∀ a x, ((![v1762, v1797] : Fin 2 → IVec S16 32) a x).toNat < S128x200.size a := fun v1762 v1797 k0_hw1099 => k0_hw1099

def k0_chk1100 (v1762 : IVec S16 32) (v1802 : IVec S16 32) : Prop :=
  (∀ a x, ((![v1762, v1802] : Fin 2 → IVec S16 32) a x).toNat < S128x200.size a)
instance k0_chk1100.dec : ∀ (v1762 : IVec S16 32) (v1802 : IVec S16 32), Decidable (k0_chk1100 v1762 v1802) := fun v1762 v1802 => decidable_of_iff' _ (Iff.of_eq (k0_chk1100.eq_1 v1762 v1802))
theorem k0_idx1100_inb : ∀ (v1762 : IVec S16 32) (v1802 : IVec S16 32) (k0_hw1100 : k0_chk1100 v1762 v1802), ∀ a x, ((![v1762, v1802] : Fin 2 → IVec S16 32) a x).toNat < S128x200.size a := fun v1762 v1802 k0_hw1100 => k0_hw1100

def k0_chk1101 (v1762 : IVec S16 32) (v1807 : IVec S16 32) : Prop :=
  (∀ a x, ((![v1762, v1807] : Fin 2 → IVec S16 32) a x).toNat < S128x200.size a)
instance k0_chk1101.dec : ∀ (v1762 : IVec S16 32) (v1807 : IVec S16 32), Decidable (k0_chk1101 v1762 v1807) := fun v1762 v1807 => decidable_of_iff' _ (Iff.of_eq (k0_chk1101.eq_1 v1762 v1807))
theorem k0_idx1101_inb : ∀ (v1762 : IVec S16 32) (v1807 : IVec S16 32) (k0_hw1101 : k0_chk1101 v1762 v1807), ∀ a x, ((![v1762, v1807] : Fin 2 → IVec S16 32) a x).toNat < S128x200.size a := fun v1762 v1807 k0_hw1101 => k0_hw1101

def k0_chk1102 (v1817 : IVec S16 32) : Prop :=
  (∀ a x, ((![v1817] : Fin 1 → IVec S16 32) a x).toNat < S4096.size a)
instance k0_chk1102.dec : ∀ (v1817 : IVec S16 32), Decidable (k0_chk1102 v1817) := fun v1817 => decidable_of_iff' _ (Iff.of_eq (k0_chk1102.eq_1 v1817))
theorem k0_idx1102_inb : ∀ (v1817 : IVec S16 32) (k0_hw1102 : k0_chk1102 v1817), ∀ a x, ((![v1817] : Fin 1 → IVec S16 32) a x).toNat < S4096.size a := fun v1817 k0_hw1102 => k0_hw1102

def k0_chk1103 (v1762 : IVec S16 32) (v1821 : IVec S16 32) : Prop :=
  (∀ a x, ((![v1762, v1821] : Fin 2 → IVec S16 32) a x).toNat < S128x200.size a)
instance k0_chk1103.dec : ∀ (v1762 : IVec S16 32) (v1821 : IVec S16 32), Decidable (k0_chk1103 v1762 v1821) := fun v1762 v1821 => decidable_of_iff' _ (Iff.of_eq (k0_chk1103.eq_1 v1762 v1821))
theorem k0_idx1103_inb : ∀ (v1762 : IVec S16 32) (v1821 : IVec S16 32) (k0_hw1103 : k0_chk1103 v1762 v1821), ∀ a x, ((![v1762, v1821] : Fin 2 → IVec S16 32) a x).toNat < S128x200.size a := fun v1762 v1821 k0_hw1103 => k0_hw1103

def k0_chk1104 (v1762 : IVec S16 32) (v1826 : IVec S16 32) : Prop :=
  (∀ a x, ((![v1762, v1826] : Fin 2 → IVec S16 32) a x).toNat < S128x200.size a)
instance k0_chk1104.dec : ∀ (v1762 : IVec S16 32) (v1826 : IVec S16 32), Decidable (k0_chk1104 v1762 v1826) := fun v1762 v1826 => decidable_of_iff' _ (Iff.of_eq (k0_chk1104.eq_1 v1762 v1826))
theorem k0_idx1104_inb : ∀ (v1762 : IVec S16 32) (v1826 : IVec S16 32) (k0_hw1104 : k0_chk1104 v1762 v1826), ∀ a x, ((![v1762, v1826] : Fin 2 → IVec S16 32) a x).toNat < S128x200.size a := fun v1762 v1826 k0_hw1104 => k0_hw1104

def k0_chk1105 (v1762 : IVec S16 32) (v1831 : IVec S16 32) : Prop :=
  (∀ a x, ((![v1762, v1831] : Fin 2 → IVec S16 32) a x).toNat < S128x200.size a)
instance k0_chk1105.dec : ∀ (v1762 : IVec S16 32) (v1831 : IVec S16 32), Decidable (k0_chk1105 v1762 v1831) := fun v1762 v1831 => decidable_of_iff' _ (Iff.of_eq (k0_chk1105.eq_1 v1762 v1831))
theorem k0_idx1105_inb : ∀ (v1762 : IVec S16 32) (v1831 : IVec S16 32) (k0_hw1105 : k0_chk1105 v1762 v1831), ∀ a x, ((![v1762, v1831] : Fin 2 → IVec S16 32) a x).toNat < S128x200.size a := fun v1762 v1831 k0_hw1105 => k0_hw1105

def k0_chk1106 (v1762 : IVec S16 32) (v1836 : IVec S16 32) : Prop :=
  (∀ a x, ((![v1762, v1836] : Fin 2 → IVec S16 32) a x).toNat < S128x200.size a)
instance k0_chk1106.dec : ∀ (v1762 : IVec S16 32) (v1836 : IVec S16 32), Decidable (k0_chk1106 v1762 v1836) := fun v1762 v1836 => decidable_of_iff' _ (Iff.of_eq (k0_chk1106.eq_1 v1762 v1836))
theorem k0_idx1106_inb : ∀ (v1762 : IVec S16 32) (v1836 : IVec S16 32) (k0_hw1106 : k0_chk1106 v1762 v1836), ∀ a x, ((![v1762, v1836] : Fin 2 → IVec S16 32) a x).toNat < S128x200.size a := fun v1762 v1836 k0_hw1106 => k0_hw1106

def k0_chk1107 (v1846 : IVec S16 32) : Prop :=
  (∀ a x, ((![v1846] : Fin 1 → IVec S16 32) a x).toNat < S4096.size a)
instance k0_chk1107.dec : ∀ (v1846 : IVec S16 32), Decidable (k0_chk1107 v1846) := fun v1846 => decidable_of_iff' _ (Iff.of_eq (k0_chk1107.eq_1 v1846))
theorem k0_idx1107_inb : ∀ (v1846 : IVec S16 32) (k0_hw1107 : k0_chk1107 v1846), ∀ a x, ((![v1846] : Fin 1 → IVec S16 32) a x).toNat < S4096.size a := fun v1846 k0_hw1107 => k0_hw1107

def k0_chk1108 (v1762 : IVec S16 32) (v1850 : IVec S16 32) : Prop :=
  (∀ a x, ((![v1762, v1850] : Fin 2 → IVec S16 32) a x).toNat < S128x200.size a)
instance k0_chk1108.dec : ∀ (v1762 : IVec S16 32) (v1850 : IVec S16 32), Decidable (k0_chk1108 v1762 v1850) := fun v1762 v1850 => decidable_of_iff' _ (Iff.of_eq (k0_chk1108.eq_1 v1762 v1850))
theorem k0_idx1108_inb : ∀ (v1762 : IVec S16 32) (v1850 : IVec S16 32) (k0_hw1108 : k0_chk1108 v1762 v1850), ∀ a x, ((![v1762, v1850] : Fin 2 → IVec S16 32) a x).toNat < S128x200.size a := fun v1762 v1850 k0_hw1108 => k0_hw1108

def k0_chk1109 (v1854 : IVec S16 32) : Prop :=
  (∀ a x, ((![v1854] : Fin 1 → IVec S16 32) a x).toNat < S272.size a)
instance k0_chk1109.dec : ∀ (v1854 : IVec S16 32), Decidable (k0_chk1109 v1854) := fun v1854 => decidable_of_iff' _ (Iff.of_eq (k0_chk1109.eq_1 v1854))
theorem k0_idx1109_inb : ∀ (v1854 : IVec S16 32) (k0_hw1109 : k0_chk1109 v1854), ∀ a x, ((![v1854] : Fin 1 → IVec S16 32) a x).toNat < S272.size a := fun v1854 k0_hw1109 => k0_hw1109
def k0_off77 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c176_i32_631 : BitVec 32 := 176#32
  let v1858 : BitVec 32 := Scalar.addi v648 c176_i32_631
  let v1859 : Index := Scalar.indexCast v1858
  ![v1859.toNat]

def k0_chk1110 (v1863 : IVec S16 32) (v1865 : IVec S16 32) : Prop :=
  (∀ a x, ((![v1863, v1865] : Fin 2 → IVec S16 32) a x).toNat < S128x200.size a)
instance k0_chk1110.dec : ∀ (v1863 : IVec S16 32) (v1865 : IVec S16 32), Decidable (k0_chk1110 v1863 v1865) := fun v1863 v1865 => decidable_of_iff' _ (Iff.of_eq (k0_chk1110.eq_1 v1863 v1865))
theorem k0_idx1110_inb : ∀ (v1863 : IVec S16 32) (v1865 : IVec S16 32) (k0_hw1110 : k0_chk1110 v1863 v1865), ∀ a x, ((![v1863, v1865] : Fin 2 → IVec S16 32) a x).toNat < S128x200.size a := fun v1863 v1865 k0_hw1110 => k0_hw1110

def k0_chk1111 (v1863 : IVec S16 32) (v1870 : IVec S16 32) : Prop :=
  (∀ a x, ((![v1863, v1870] : Fin 2 → IVec S16 32) a x).toNat < S128x200.size a)
instance k0_chk1111.dec : ∀ (v1863 : IVec S16 32) (v1870 : IVec S16 32), Decidable (k0_chk1111 v1863 v1870) := fun v1863 v1870 => decidable_of_iff' _ (Iff.of_eq (k0_chk1111.eq_1 v1863 v1870))
theorem k0_idx1111_inb : ∀ (v1863 : IVec S16 32) (v1870 : IVec S16 32) (k0_hw1111 : k0_chk1111 v1863 v1870), ∀ a x, ((![v1863, v1870] : Fin 2 → IVec S16 32) a x).toNat < S128x200.size a := fun v1863 v1870 k0_hw1111 => k0_hw1111

def k0_chk1112 (v1863 : IVec S16 32) (v1875 : IVec S16 32) : Prop :=
  (∀ a x, ((![v1863, v1875] : Fin 2 → IVec S16 32) a x).toNat < S128x200.size a)
instance k0_chk1112.dec : ∀ (v1863 : IVec S16 32) (v1875 : IVec S16 32), Decidable (k0_chk1112 v1863 v1875) := fun v1863 v1875 => decidable_of_iff' _ (Iff.of_eq (k0_chk1112.eq_1 v1863 v1875))
theorem k0_idx1112_inb : ∀ (v1863 : IVec S16 32) (v1875 : IVec S16 32) (k0_hw1112 : k0_chk1112 v1863 v1875), ∀ a x, ((![v1863, v1875] : Fin 2 → IVec S16 32) a x).toNat < S128x200.size a := fun v1863 v1875 k0_hw1112 => k0_hw1112

def k0_chk1113 (v1863 : IVec S16 32) (v1880 : IVec S16 32) : Prop :=
  (∀ a x, ((![v1863, v1880] : Fin 2 → IVec S16 32) a x).toNat < S128x200.size a)
instance k0_chk1113.dec : ∀ (v1863 : IVec S16 32) (v1880 : IVec S16 32), Decidable (k0_chk1113 v1863 v1880) := fun v1863 v1880 => decidable_of_iff' _ (Iff.of_eq (k0_chk1113.eq_1 v1863 v1880))
theorem k0_idx1113_inb : ∀ (v1863 : IVec S16 32) (v1880 : IVec S16 32) (k0_hw1113 : k0_chk1113 v1863 v1880), ∀ a x, ((![v1863, v1880] : Fin 2 → IVec S16 32) a x).toNat < S128x200.size a := fun v1863 v1880 k0_hw1113 => k0_hw1113

def k0_chk1114 (v1890 : IVec S16 32) : Prop :=
  (∀ a x, ((![v1890] : Fin 1 → IVec S16 32) a x).toNat < S4096.size a)
instance k0_chk1114.dec : ∀ (v1890 : IVec S16 32), Decidable (k0_chk1114 v1890) := fun v1890 => decidable_of_iff' _ (Iff.of_eq (k0_chk1114.eq_1 v1890))
theorem k0_idx1114_inb : ∀ (v1890 : IVec S16 32) (k0_hw1114 : k0_chk1114 v1890), ∀ a x, ((![v1890] : Fin 1 → IVec S16 32) a x).toNat < S4096.size a := fun v1890 k0_hw1114 => k0_hw1114

def k0_chk1115 (v1863 : IVec S16 32) (v1893 : IVec S16 32) : Prop :=
  (∀ a x, ((![v1863, v1893] : Fin 2 → IVec S16 32) a x).toNat < S128x200.size a)
instance k0_chk1115.dec : ∀ (v1863 : IVec S16 32) (v1893 : IVec S16 32), Decidable (k0_chk1115 v1863 v1893) := fun v1863 v1893 => decidable_of_iff' _ (Iff.of_eq (k0_chk1115.eq_1 v1863 v1893))
theorem k0_idx1115_inb : ∀ (v1863 : IVec S16 32) (v1893 : IVec S16 32) (k0_hw1115 : k0_chk1115 v1863 v1893), ∀ a x, ((![v1863, v1893] : Fin 2 → IVec S16 32) a x).toNat < S128x200.size a := fun v1863 v1893 k0_hw1115 => k0_hw1115

def k0_chk1116 (v1863 : IVec S16 32) (v1898 : IVec S16 32) : Prop :=
  (∀ a x, ((![v1863, v1898] : Fin 2 → IVec S16 32) a x).toNat < S128x200.size a)
instance k0_chk1116.dec : ∀ (v1863 : IVec S16 32) (v1898 : IVec S16 32), Decidable (k0_chk1116 v1863 v1898) := fun v1863 v1898 => decidable_of_iff' _ (Iff.of_eq (k0_chk1116.eq_1 v1863 v1898))
theorem k0_idx1116_inb : ∀ (v1863 : IVec S16 32) (v1898 : IVec S16 32) (k0_hw1116 : k0_chk1116 v1863 v1898), ∀ a x, ((![v1863, v1898] : Fin 2 → IVec S16 32) a x).toNat < S128x200.size a := fun v1863 v1898 k0_hw1116 => k0_hw1116

def k0_chk1117 (v1863 : IVec S16 32) (v1903 : IVec S16 32) : Prop :=
  (∀ a x, ((![v1863, v1903] : Fin 2 → IVec S16 32) a x).toNat < S128x200.size a)
instance k0_chk1117.dec : ∀ (v1863 : IVec S16 32) (v1903 : IVec S16 32), Decidable (k0_chk1117 v1863 v1903) := fun v1863 v1903 => decidable_of_iff' _ (Iff.of_eq (k0_chk1117.eq_1 v1863 v1903))
theorem k0_idx1117_inb : ∀ (v1863 : IVec S16 32) (v1903 : IVec S16 32) (k0_hw1117 : k0_chk1117 v1863 v1903), ∀ a x, ((![v1863, v1903] : Fin 2 → IVec S16 32) a x).toNat < S128x200.size a := fun v1863 v1903 k0_hw1117 => k0_hw1117

def k0_chk1118 (v1863 : IVec S16 32) (v1908 : IVec S16 32) : Prop :=
  (∀ a x, ((![v1863, v1908] : Fin 2 → IVec S16 32) a x).toNat < S128x200.size a)
instance k0_chk1118.dec : ∀ (v1863 : IVec S16 32) (v1908 : IVec S16 32), Decidable (k0_chk1118 v1863 v1908) := fun v1863 v1908 => decidable_of_iff' _ (Iff.of_eq (k0_chk1118.eq_1 v1863 v1908))
theorem k0_idx1118_inb : ∀ (v1863 : IVec S16 32) (v1908 : IVec S16 32) (k0_hw1118 : k0_chk1118 v1863 v1908), ∀ a x, ((![v1863, v1908] : Fin 2 → IVec S16 32) a x).toNat < S128x200.size a := fun v1863 v1908 k0_hw1118 => k0_hw1118

def k0_chk1119 (v1918 : IVec S16 32) : Prop :=
  (∀ a x, ((![v1918] : Fin 1 → IVec S16 32) a x).toNat < S4096.size a)
instance k0_chk1119.dec : ∀ (v1918 : IVec S16 32), Decidable (k0_chk1119 v1918) := fun v1918 => decidable_of_iff' _ (Iff.of_eq (k0_chk1119.eq_1 v1918))
theorem k0_idx1119_inb : ∀ (v1918 : IVec S16 32) (k0_hw1119 : k0_chk1119 v1918), ∀ a x, ((![v1918] : Fin 1 → IVec S16 32) a x).toNat < S4096.size a := fun v1918 k0_hw1119 => k0_hw1119

def k0_chk1120 (v1863 : IVec S16 32) (v1922 : IVec S16 32) : Prop :=
  (∀ a x, ((![v1863, v1922] : Fin 2 → IVec S16 32) a x).toNat < S128x200.size a)
instance k0_chk1120.dec : ∀ (v1863 : IVec S16 32) (v1922 : IVec S16 32), Decidable (k0_chk1120 v1863 v1922) := fun v1863 v1922 => decidable_of_iff' _ (Iff.of_eq (k0_chk1120.eq_1 v1863 v1922))
theorem k0_idx1120_inb : ∀ (v1863 : IVec S16 32) (v1922 : IVec S16 32) (k0_hw1120 : k0_chk1120 v1863 v1922), ∀ a x, ((![v1863, v1922] : Fin 2 → IVec S16 32) a x).toNat < S128x200.size a := fun v1863 v1922 k0_hw1120 => k0_hw1120

def k0_chk1121 (v1863 : IVec S16 32) (v1927 : IVec S16 32) : Prop :=
  (∀ a x, ((![v1863, v1927] : Fin 2 → IVec S16 32) a x).toNat < S128x200.size a)
instance k0_chk1121.dec : ∀ (v1863 : IVec S16 32) (v1927 : IVec S16 32), Decidable (k0_chk1121 v1863 v1927) := fun v1863 v1927 => decidable_of_iff' _ (Iff.of_eq (k0_chk1121.eq_1 v1863 v1927))
theorem k0_idx1121_inb : ∀ (v1863 : IVec S16 32) (v1927 : IVec S16 32) (k0_hw1121 : k0_chk1121 v1863 v1927), ∀ a x, ((![v1863, v1927] : Fin 2 → IVec S16 32) a x).toNat < S128x200.size a := fun v1863 v1927 k0_hw1121 => k0_hw1121

def k0_chk1122 (v1863 : IVec S16 32) (v1932 : IVec S16 32) : Prop :=
  (∀ a x, ((![v1863, v1932] : Fin 2 → IVec S16 32) a x).toNat < S128x200.size a)
instance k0_chk1122.dec : ∀ (v1863 : IVec S16 32) (v1932 : IVec S16 32), Decidable (k0_chk1122 v1863 v1932) := fun v1863 v1932 => decidable_of_iff' _ (Iff.of_eq (k0_chk1122.eq_1 v1863 v1932))
theorem k0_idx1122_inb : ∀ (v1863 : IVec S16 32) (v1932 : IVec S16 32) (k0_hw1122 : k0_chk1122 v1863 v1932), ∀ a x, ((![v1863, v1932] : Fin 2 → IVec S16 32) a x).toNat < S128x200.size a := fun v1863 v1932 k0_hw1122 => k0_hw1122

def k0_chk1123 (v1863 : IVec S16 32) (v1937 : IVec S16 32) : Prop :=
  (∀ a x, ((![v1863, v1937] : Fin 2 → IVec S16 32) a x).toNat < S128x200.size a)
instance k0_chk1123.dec : ∀ (v1863 : IVec S16 32) (v1937 : IVec S16 32), Decidable (k0_chk1123 v1863 v1937) := fun v1863 v1937 => decidable_of_iff' _ (Iff.of_eq (k0_chk1123.eq_1 v1863 v1937))
theorem k0_idx1123_inb : ∀ (v1863 : IVec S16 32) (v1937 : IVec S16 32) (k0_hw1123 : k0_chk1123 v1863 v1937), ∀ a x, ((![v1863, v1937] : Fin 2 → IVec S16 32) a x).toNat < S128x200.size a := fun v1863 v1937 k0_hw1123 => k0_hw1123

def k0_chk1124 (v1947 : IVec S16 32) : Prop :=
  (∀ a x, ((![v1947] : Fin 1 → IVec S16 32) a x).toNat < S4096.size a)
instance k0_chk1124.dec : ∀ (v1947 : IVec S16 32), Decidable (k0_chk1124 v1947) := fun v1947 => decidable_of_iff' _ (Iff.of_eq (k0_chk1124.eq_1 v1947))
theorem k0_idx1124_inb : ∀ (v1947 : IVec S16 32) (k0_hw1124 : k0_chk1124 v1947), ∀ a x, ((![v1947] : Fin 1 → IVec S16 32) a x).toNat < S4096.size a := fun v1947 k0_hw1124 => k0_hw1124

def k0_chk1125 (v1863 : IVec S16 32) (v1951 : IVec S16 32) : Prop :=
  (∀ a x, ((![v1863, v1951] : Fin 2 → IVec S16 32) a x).toNat < S128x200.size a)
instance k0_chk1125.dec : ∀ (v1863 : IVec S16 32) (v1951 : IVec S16 32), Decidable (k0_chk1125 v1863 v1951) := fun v1863 v1951 => decidable_of_iff' _ (Iff.of_eq (k0_chk1125.eq_1 v1863 v1951))
theorem k0_idx1125_inb : ∀ (v1863 : IVec S16 32) (v1951 : IVec S16 32) (k0_hw1125 : k0_chk1125 v1863 v1951), ∀ a x, ((![v1863, v1951] : Fin 2 → IVec S16 32) a x).toNat < S128x200.size a := fun v1863 v1951 k0_hw1125 => k0_hw1125

def k0_chk1126 (v1955 : IVec S16 32) : Prop :=
  (∀ a x, ((![v1955] : Fin 1 → IVec S16 32) a x).toNat < S272.size a)
instance k0_chk1126.dec : ∀ (v1955 : IVec S16 32), Decidable (k0_chk1126 v1955) := fun v1955 => decidable_of_iff' _ (Iff.of_eq (k0_chk1126.eq_1 v1955))
theorem k0_idx1126_inb : ∀ (v1955 : IVec S16 32) (k0_hw1126 : k0_chk1126 v1955), ∀ a x, ((![v1955] : Fin 1 → IVec S16 32) a x).toNat < S272.size a := fun v1955 k0_hw1126 => k0_hw1126
def k0_off78 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c192_i32_665 : BitVec 32 := 192#32
  let v1959 : BitVec 32 := Scalar.addi v648 c192_i32_665
  let v1960 : Index := Scalar.indexCast v1959
  ![v1960.toNat]

def k0_chk1127 (v1964 : IVec S16 32) (v1966 : IVec S16 32) : Prop :=
  (∀ a x, ((![v1964, v1966] : Fin 2 → IVec S16 32) a x).toNat < S128x200.size a)
instance k0_chk1127.dec : ∀ (v1964 : IVec S16 32) (v1966 : IVec S16 32), Decidable (k0_chk1127 v1964 v1966) := fun v1964 v1966 => decidable_of_iff' _ (Iff.of_eq (k0_chk1127.eq_1 v1964 v1966))
theorem k0_idx1127_inb : ∀ (v1964 : IVec S16 32) (v1966 : IVec S16 32) (k0_hw1127 : k0_chk1127 v1964 v1966), ∀ a x, ((![v1964, v1966] : Fin 2 → IVec S16 32) a x).toNat < S128x200.size a := fun v1964 v1966 k0_hw1127 => k0_hw1127

def k0_chk1128 (v1964 : IVec S16 32) (v1971 : IVec S16 32) : Prop :=
  (∀ a x, ((![v1964, v1971] : Fin 2 → IVec S16 32) a x).toNat < S128x200.size a)
instance k0_chk1128.dec : ∀ (v1964 : IVec S16 32) (v1971 : IVec S16 32), Decidable (k0_chk1128 v1964 v1971) := fun v1964 v1971 => decidable_of_iff' _ (Iff.of_eq (k0_chk1128.eq_1 v1964 v1971))
theorem k0_idx1128_inb : ∀ (v1964 : IVec S16 32) (v1971 : IVec S16 32) (k0_hw1128 : k0_chk1128 v1964 v1971), ∀ a x, ((![v1964, v1971] : Fin 2 → IVec S16 32) a x).toNat < S128x200.size a := fun v1964 v1971 k0_hw1128 => k0_hw1128

def k0_chk1129 (v1964 : IVec S16 32) (v1976 : IVec S16 32) : Prop :=
  (∀ a x, ((![v1964, v1976] : Fin 2 → IVec S16 32) a x).toNat < S128x200.size a)
instance k0_chk1129.dec : ∀ (v1964 : IVec S16 32) (v1976 : IVec S16 32), Decidable (k0_chk1129 v1964 v1976) := fun v1964 v1976 => decidable_of_iff' _ (Iff.of_eq (k0_chk1129.eq_1 v1964 v1976))
theorem k0_idx1129_inb : ∀ (v1964 : IVec S16 32) (v1976 : IVec S16 32) (k0_hw1129 : k0_chk1129 v1964 v1976), ∀ a x, ((![v1964, v1976] : Fin 2 → IVec S16 32) a x).toNat < S128x200.size a := fun v1964 v1976 k0_hw1129 => k0_hw1129

def k0_chk1130 (v1964 : IVec S16 32) (v1981 : IVec S16 32) : Prop :=
  (∀ a x, ((![v1964, v1981] : Fin 2 → IVec S16 32) a x).toNat < S128x200.size a)
instance k0_chk1130.dec : ∀ (v1964 : IVec S16 32) (v1981 : IVec S16 32), Decidable (k0_chk1130 v1964 v1981) := fun v1964 v1981 => decidable_of_iff' _ (Iff.of_eq (k0_chk1130.eq_1 v1964 v1981))
theorem k0_idx1130_inb : ∀ (v1964 : IVec S16 32) (v1981 : IVec S16 32) (k0_hw1130 : k0_chk1130 v1964 v1981), ∀ a x, ((![v1964, v1981] : Fin 2 → IVec S16 32) a x).toNat < S128x200.size a := fun v1964 v1981 k0_hw1130 => k0_hw1130

def k0_chk1131 (v1991 : IVec S16 32) : Prop :=
  (∀ a x, ((![v1991] : Fin 1 → IVec S16 32) a x).toNat < S4096.size a)
instance k0_chk1131.dec : ∀ (v1991 : IVec S16 32), Decidable (k0_chk1131 v1991) := fun v1991 => decidable_of_iff' _ (Iff.of_eq (k0_chk1131.eq_1 v1991))
theorem k0_idx1131_inb : ∀ (v1991 : IVec S16 32) (k0_hw1131 : k0_chk1131 v1991), ∀ a x, ((![v1991] : Fin 1 → IVec S16 32) a x).toNat < S4096.size a := fun v1991 k0_hw1131 => k0_hw1131

def k0_chk1132 (v1964 : IVec S16 32) (v1994 : IVec S16 32) : Prop :=
  (∀ a x, ((![v1964, v1994] : Fin 2 → IVec S16 32) a x).toNat < S128x200.size a)
instance k0_chk1132.dec : ∀ (v1964 : IVec S16 32) (v1994 : IVec S16 32), Decidable (k0_chk1132 v1964 v1994) := fun v1964 v1994 => decidable_of_iff' _ (Iff.of_eq (k0_chk1132.eq_1 v1964 v1994))
theorem k0_idx1132_inb : ∀ (v1964 : IVec S16 32) (v1994 : IVec S16 32) (k0_hw1132 : k0_chk1132 v1964 v1994), ∀ a x, ((![v1964, v1994] : Fin 2 → IVec S16 32) a x).toNat < S128x200.size a := fun v1964 v1994 k0_hw1132 => k0_hw1132

def k0_chk1133 (v1964 : IVec S16 32) (v1999 : IVec S16 32) : Prop :=
  (∀ a x, ((![v1964, v1999] : Fin 2 → IVec S16 32) a x).toNat < S128x200.size a)
instance k0_chk1133.dec : ∀ (v1964 : IVec S16 32) (v1999 : IVec S16 32), Decidable (k0_chk1133 v1964 v1999) := fun v1964 v1999 => decidable_of_iff' _ (Iff.of_eq (k0_chk1133.eq_1 v1964 v1999))
theorem k0_idx1133_inb : ∀ (v1964 : IVec S16 32) (v1999 : IVec S16 32) (k0_hw1133 : k0_chk1133 v1964 v1999), ∀ a x, ((![v1964, v1999] : Fin 2 → IVec S16 32) a x).toNat < S128x200.size a := fun v1964 v1999 k0_hw1133 => k0_hw1133

def k0_chk1134 (v1964 : IVec S16 32) (v2004 : IVec S16 32) : Prop :=
  (∀ a x, ((![v1964, v2004] : Fin 2 → IVec S16 32) a x).toNat < S128x200.size a)
instance k0_chk1134.dec : ∀ (v1964 : IVec S16 32) (v2004 : IVec S16 32), Decidable (k0_chk1134 v1964 v2004) := fun v1964 v2004 => decidable_of_iff' _ (Iff.of_eq (k0_chk1134.eq_1 v1964 v2004))
theorem k0_idx1134_inb : ∀ (v1964 : IVec S16 32) (v2004 : IVec S16 32) (k0_hw1134 : k0_chk1134 v1964 v2004), ∀ a x, ((![v1964, v2004] : Fin 2 → IVec S16 32) a x).toNat < S128x200.size a := fun v1964 v2004 k0_hw1134 => k0_hw1134

def k0_chk1135 (v1964 : IVec S16 32) (v2009 : IVec S16 32) : Prop :=
  (∀ a x, ((![v1964, v2009] : Fin 2 → IVec S16 32) a x).toNat < S128x200.size a)
instance k0_chk1135.dec : ∀ (v1964 : IVec S16 32) (v2009 : IVec S16 32), Decidable (k0_chk1135 v1964 v2009) := fun v1964 v2009 => decidable_of_iff' _ (Iff.of_eq (k0_chk1135.eq_1 v1964 v2009))
theorem k0_idx1135_inb : ∀ (v1964 : IVec S16 32) (v2009 : IVec S16 32) (k0_hw1135 : k0_chk1135 v1964 v2009), ∀ a x, ((![v1964, v2009] : Fin 2 → IVec S16 32) a x).toNat < S128x200.size a := fun v1964 v2009 k0_hw1135 => k0_hw1135

def k0_chk1136 (v2019 : IVec S16 32) : Prop :=
  (∀ a x, ((![v2019] : Fin 1 → IVec S16 32) a x).toNat < S4096.size a)
instance k0_chk1136.dec : ∀ (v2019 : IVec S16 32), Decidable (k0_chk1136 v2019) := fun v2019 => decidable_of_iff' _ (Iff.of_eq (k0_chk1136.eq_1 v2019))
theorem k0_idx1136_inb : ∀ (v2019 : IVec S16 32) (k0_hw1136 : k0_chk1136 v2019), ∀ a x, ((![v2019] : Fin 1 → IVec S16 32) a x).toNat < S4096.size a := fun v2019 k0_hw1136 => k0_hw1136

def k0_chk1137 (v1964 : IVec S16 32) (v2023 : IVec S16 32) : Prop :=
  (∀ a x, ((![v1964, v2023] : Fin 2 → IVec S16 32) a x).toNat < S128x200.size a)
instance k0_chk1137.dec : ∀ (v1964 : IVec S16 32) (v2023 : IVec S16 32), Decidable (k0_chk1137 v1964 v2023) := fun v1964 v2023 => decidable_of_iff' _ (Iff.of_eq (k0_chk1137.eq_1 v1964 v2023))
theorem k0_idx1137_inb : ∀ (v1964 : IVec S16 32) (v2023 : IVec S16 32) (k0_hw1137 : k0_chk1137 v1964 v2023), ∀ a x, ((![v1964, v2023] : Fin 2 → IVec S16 32) a x).toNat < S128x200.size a := fun v1964 v2023 k0_hw1137 => k0_hw1137

def k0_chk1138 (v1964 : IVec S16 32) (v2028 : IVec S16 32) : Prop :=
  (∀ a x, ((![v1964, v2028] : Fin 2 → IVec S16 32) a x).toNat < S128x200.size a)
instance k0_chk1138.dec : ∀ (v1964 : IVec S16 32) (v2028 : IVec S16 32), Decidable (k0_chk1138 v1964 v2028) := fun v1964 v2028 => decidable_of_iff' _ (Iff.of_eq (k0_chk1138.eq_1 v1964 v2028))
theorem k0_idx1138_inb : ∀ (v1964 : IVec S16 32) (v2028 : IVec S16 32) (k0_hw1138 : k0_chk1138 v1964 v2028), ∀ a x, ((![v1964, v2028] : Fin 2 → IVec S16 32) a x).toNat < S128x200.size a := fun v1964 v2028 k0_hw1138 => k0_hw1138

def k0_chk1139 (v1964 : IVec S16 32) (v2033 : IVec S16 32) : Prop :=
  (∀ a x, ((![v1964, v2033] : Fin 2 → IVec S16 32) a x).toNat < S128x200.size a)
instance k0_chk1139.dec : ∀ (v1964 : IVec S16 32) (v2033 : IVec S16 32), Decidable (k0_chk1139 v1964 v2033) := fun v1964 v2033 => decidable_of_iff' _ (Iff.of_eq (k0_chk1139.eq_1 v1964 v2033))
theorem k0_idx1139_inb : ∀ (v1964 : IVec S16 32) (v2033 : IVec S16 32) (k0_hw1139 : k0_chk1139 v1964 v2033), ∀ a x, ((![v1964, v2033] : Fin 2 → IVec S16 32) a x).toNat < S128x200.size a := fun v1964 v2033 k0_hw1139 => k0_hw1139

def k0_chk1140 (v1964 : IVec S16 32) (v2038 : IVec S16 32) : Prop :=
  (∀ a x, ((![v1964, v2038] : Fin 2 → IVec S16 32) a x).toNat < S128x200.size a)
instance k0_chk1140.dec : ∀ (v1964 : IVec S16 32) (v2038 : IVec S16 32), Decidable (k0_chk1140 v1964 v2038) := fun v1964 v2038 => decidable_of_iff' _ (Iff.of_eq (k0_chk1140.eq_1 v1964 v2038))
theorem k0_idx1140_inb : ∀ (v1964 : IVec S16 32) (v2038 : IVec S16 32) (k0_hw1140 : k0_chk1140 v1964 v2038), ∀ a x, ((![v1964, v2038] : Fin 2 → IVec S16 32) a x).toNat < S128x200.size a := fun v1964 v2038 k0_hw1140 => k0_hw1140

def k0_chk1141 (v2048 : IVec S16 32) : Prop :=
  (∀ a x, ((![v2048] : Fin 1 → IVec S16 32) a x).toNat < S4096.size a)
instance k0_chk1141.dec : ∀ (v2048 : IVec S16 32), Decidable (k0_chk1141 v2048) := fun v2048 => decidable_of_iff' _ (Iff.of_eq (k0_chk1141.eq_1 v2048))
theorem k0_idx1141_inb : ∀ (v2048 : IVec S16 32) (k0_hw1141 : k0_chk1141 v2048), ∀ a x, ((![v2048] : Fin 1 → IVec S16 32) a x).toNat < S4096.size a := fun v2048 k0_hw1141 => k0_hw1141

def k0_chk1142 (v1964 : IVec S16 32) (v2052 : IVec S16 32) : Prop :=
  (∀ a x, ((![v1964, v2052] : Fin 2 → IVec S16 32) a x).toNat < S128x200.size a)
instance k0_chk1142.dec : ∀ (v1964 : IVec S16 32) (v2052 : IVec S16 32), Decidable (k0_chk1142 v1964 v2052) := fun v1964 v2052 => decidable_of_iff' _ (Iff.of_eq (k0_chk1142.eq_1 v1964 v2052))
theorem k0_idx1142_inb : ∀ (v1964 : IVec S16 32) (v2052 : IVec S16 32) (k0_hw1142 : k0_chk1142 v1964 v2052), ∀ a x, ((![v1964, v2052] : Fin 2 → IVec S16 32) a x).toNat < S128x200.size a := fun v1964 v2052 k0_hw1142 => k0_hw1142

def k0_chk1143 (v2056 : IVec S16 32) : Prop :=
  (∀ a x, ((![v2056] : Fin 1 → IVec S16 32) a x).toNat < S272.size a)
instance k0_chk1143.dec : ∀ (v2056 : IVec S16 32), Decidable (k0_chk1143 v2056) := fun v2056 => decidable_of_iff' _ (Iff.of_eq (k0_chk1143.eq_1 v2056))
theorem k0_idx1143_inb : ∀ (v2056 : IVec S16 32) (k0_hw1143 : k0_chk1143 v2056), ∀ a x, ((![v2056] : Fin 1 → IVec S16 32) a x).toNat < S272.size a := fun v2056 k0_hw1143 => k0_hw1143
def k0_off79 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c208_i32_699 : BitVec 32 := 208#32
  let v2060 : BitVec 32 := Scalar.addi v648 c208_i32_699
  let v2061 : Index := Scalar.indexCast v2060
  ![v2061.toNat]

def k0_chk1144 (v2065 : IVec S16 32) (v2067 : IVec S16 32) : Prop :=
  (∀ a x, ((![v2065, v2067] : Fin 2 → IVec S16 32) a x).toNat < S128x200.size a)
instance k0_chk1144.dec : ∀ (v2065 : IVec S16 32) (v2067 : IVec S16 32), Decidable (k0_chk1144 v2065 v2067) := fun v2065 v2067 => decidable_of_iff' _ (Iff.of_eq (k0_chk1144.eq_1 v2065 v2067))
theorem k0_idx1144_inb : ∀ (v2065 : IVec S16 32) (v2067 : IVec S16 32) (k0_hw1144 : k0_chk1144 v2065 v2067), ∀ a x, ((![v2065, v2067] : Fin 2 → IVec S16 32) a x).toNat < S128x200.size a := fun v2065 v2067 k0_hw1144 => k0_hw1144

def k0_chk1145 (v2065 : IVec S16 32) (v2072 : IVec S16 32) : Prop :=
  (∀ a x, ((![v2065, v2072] : Fin 2 → IVec S16 32) a x).toNat < S128x200.size a)
instance k0_chk1145.dec : ∀ (v2065 : IVec S16 32) (v2072 : IVec S16 32), Decidable (k0_chk1145 v2065 v2072) := fun v2065 v2072 => decidable_of_iff' _ (Iff.of_eq (k0_chk1145.eq_1 v2065 v2072))
theorem k0_idx1145_inb : ∀ (v2065 : IVec S16 32) (v2072 : IVec S16 32) (k0_hw1145 : k0_chk1145 v2065 v2072), ∀ a x, ((![v2065, v2072] : Fin 2 → IVec S16 32) a x).toNat < S128x200.size a := fun v2065 v2072 k0_hw1145 => k0_hw1145

def k0_chk1146 (v2065 : IVec S16 32) (v2077 : IVec S16 32) : Prop :=
  (∀ a x, ((![v2065, v2077] : Fin 2 → IVec S16 32) a x).toNat < S128x200.size a)
instance k0_chk1146.dec : ∀ (v2065 : IVec S16 32) (v2077 : IVec S16 32), Decidable (k0_chk1146 v2065 v2077) := fun v2065 v2077 => decidable_of_iff' _ (Iff.of_eq (k0_chk1146.eq_1 v2065 v2077))
theorem k0_idx1146_inb : ∀ (v2065 : IVec S16 32) (v2077 : IVec S16 32) (k0_hw1146 : k0_chk1146 v2065 v2077), ∀ a x, ((![v2065, v2077] : Fin 2 → IVec S16 32) a x).toNat < S128x200.size a := fun v2065 v2077 k0_hw1146 => k0_hw1146

def k0_chk1147 (v2065 : IVec S16 32) (v2082 : IVec S16 32) : Prop :=
  (∀ a x, ((![v2065, v2082] : Fin 2 → IVec S16 32) a x).toNat < S128x200.size a)
instance k0_chk1147.dec : ∀ (v2065 : IVec S16 32) (v2082 : IVec S16 32), Decidable (k0_chk1147 v2065 v2082) := fun v2065 v2082 => decidable_of_iff' _ (Iff.of_eq (k0_chk1147.eq_1 v2065 v2082))
theorem k0_idx1147_inb : ∀ (v2065 : IVec S16 32) (v2082 : IVec S16 32) (k0_hw1147 : k0_chk1147 v2065 v2082), ∀ a x, ((![v2065, v2082] : Fin 2 → IVec S16 32) a x).toNat < S128x200.size a := fun v2065 v2082 k0_hw1147 => k0_hw1147

def k0_chk1148 (v2092 : IVec S16 32) : Prop :=
  (∀ a x, ((![v2092] : Fin 1 → IVec S16 32) a x).toNat < S4096.size a)
instance k0_chk1148.dec : ∀ (v2092 : IVec S16 32), Decidable (k0_chk1148 v2092) := fun v2092 => decidable_of_iff' _ (Iff.of_eq (k0_chk1148.eq_1 v2092))
theorem k0_idx1148_inb : ∀ (v2092 : IVec S16 32) (k0_hw1148 : k0_chk1148 v2092), ∀ a x, ((![v2092] : Fin 1 → IVec S16 32) a x).toNat < S4096.size a := fun v2092 k0_hw1148 => k0_hw1148

def k0_chk1149 (v2065 : IVec S16 32) (v2095 : IVec S16 32) : Prop :=
  (∀ a x, ((![v2065, v2095] : Fin 2 → IVec S16 32) a x).toNat < S128x200.size a)
instance k0_chk1149.dec : ∀ (v2065 : IVec S16 32) (v2095 : IVec S16 32), Decidable (k0_chk1149 v2065 v2095) := fun v2065 v2095 => decidable_of_iff' _ (Iff.of_eq (k0_chk1149.eq_1 v2065 v2095))
theorem k0_idx1149_inb : ∀ (v2065 : IVec S16 32) (v2095 : IVec S16 32) (k0_hw1149 : k0_chk1149 v2065 v2095), ∀ a x, ((![v2065, v2095] : Fin 2 → IVec S16 32) a x).toNat < S128x200.size a := fun v2065 v2095 k0_hw1149 => k0_hw1149

def k0_chk1150 (v2065 : IVec S16 32) (v2100 : IVec S16 32) : Prop :=
  (∀ a x, ((![v2065, v2100] : Fin 2 → IVec S16 32) a x).toNat < S128x200.size a)
instance k0_chk1150.dec : ∀ (v2065 : IVec S16 32) (v2100 : IVec S16 32), Decidable (k0_chk1150 v2065 v2100) := fun v2065 v2100 => decidable_of_iff' _ (Iff.of_eq (k0_chk1150.eq_1 v2065 v2100))
theorem k0_idx1150_inb : ∀ (v2065 : IVec S16 32) (v2100 : IVec S16 32) (k0_hw1150 : k0_chk1150 v2065 v2100), ∀ a x, ((![v2065, v2100] : Fin 2 → IVec S16 32) a x).toNat < S128x200.size a := fun v2065 v2100 k0_hw1150 => k0_hw1150

def k0_chk1151 (v2065 : IVec S16 32) (v2105 : IVec S16 32) : Prop :=
  (∀ a x, ((![v2065, v2105] : Fin 2 → IVec S16 32) a x).toNat < S128x200.size a)
instance k0_chk1151.dec : ∀ (v2065 : IVec S16 32) (v2105 : IVec S16 32), Decidable (k0_chk1151 v2065 v2105) := fun v2065 v2105 => decidable_of_iff' _ (Iff.of_eq (k0_chk1151.eq_1 v2065 v2105))
theorem k0_idx1151_inb : ∀ (v2065 : IVec S16 32) (v2105 : IVec S16 32) (k0_hw1151 : k0_chk1151 v2065 v2105), ∀ a x, ((![v2065, v2105] : Fin 2 → IVec S16 32) a x).toNat < S128x200.size a := fun v2065 v2105 k0_hw1151 => k0_hw1151

def k0_chk1152 (v2065 : IVec S16 32) (v2110 : IVec S16 32) : Prop :=
  (∀ a x, ((![v2065, v2110] : Fin 2 → IVec S16 32) a x).toNat < S128x200.size a)
instance k0_chk1152.dec : ∀ (v2065 : IVec S16 32) (v2110 : IVec S16 32), Decidable (k0_chk1152 v2065 v2110) := fun v2065 v2110 => decidable_of_iff' _ (Iff.of_eq (k0_chk1152.eq_1 v2065 v2110))
theorem k0_idx1152_inb : ∀ (v2065 : IVec S16 32) (v2110 : IVec S16 32) (k0_hw1152 : k0_chk1152 v2065 v2110), ∀ a x, ((![v2065, v2110] : Fin 2 → IVec S16 32) a x).toNat < S128x200.size a := fun v2065 v2110 k0_hw1152 => k0_hw1152

def k0_chk1153 (v2120 : IVec S16 32) : Prop :=
  (∀ a x, ((![v2120] : Fin 1 → IVec S16 32) a x).toNat < S4096.size a)
instance k0_chk1153.dec : ∀ (v2120 : IVec S16 32), Decidable (k0_chk1153 v2120) := fun v2120 => decidable_of_iff' _ (Iff.of_eq (k0_chk1153.eq_1 v2120))
theorem k0_idx1153_inb : ∀ (v2120 : IVec S16 32) (k0_hw1153 : k0_chk1153 v2120), ∀ a x, ((![v2120] : Fin 1 → IVec S16 32) a x).toNat < S4096.size a := fun v2120 k0_hw1153 => k0_hw1153

def k0_chk1154 (v2065 : IVec S16 32) (v2124 : IVec S16 32) : Prop :=
  (∀ a x, ((![v2065, v2124] : Fin 2 → IVec S16 32) a x).toNat < S128x200.size a)
instance k0_chk1154.dec : ∀ (v2065 : IVec S16 32) (v2124 : IVec S16 32), Decidable (k0_chk1154 v2065 v2124) := fun v2065 v2124 => decidable_of_iff' _ (Iff.of_eq (k0_chk1154.eq_1 v2065 v2124))
theorem k0_idx1154_inb : ∀ (v2065 : IVec S16 32) (v2124 : IVec S16 32) (k0_hw1154 : k0_chk1154 v2065 v2124), ∀ a x, ((![v2065, v2124] : Fin 2 → IVec S16 32) a x).toNat < S128x200.size a := fun v2065 v2124 k0_hw1154 => k0_hw1154

def k0_chk1155 (v2065 : IVec S16 32) (v2129 : IVec S16 32) : Prop :=
  (∀ a x, ((![v2065, v2129] : Fin 2 → IVec S16 32) a x).toNat < S128x200.size a)
instance k0_chk1155.dec : ∀ (v2065 : IVec S16 32) (v2129 : IVec S16 32), Decidable (k0_chk1155 v2065 v2129) := fun v2065 v2129 => decidable_of_iff' _ (Iff.of_eq (k0_chk1155.eq_1 v2065 v2129))
theorem k0_idx1155_inb : ∀ (v2065 : IVec S16 32) (v2129 : IVec S16 32) (k0_hw1155 : k0_chk1155 v2065 v2129), ∀ a x, ((![v2065, v2129] : Fin 2 → IVec S16 32) a x).toNat < S128x200.size a := fun v2065 v2129 k0_hw1155 => k0_hw1155

def k0_chk1156 (v2065 : IVec S16 32) (v2134 : IVec S16 32) : Prop :=
  (∀ a x, ((![v2065, v2134] : Fin 2 → IVec S16 32) a x).toNat < S128x200.size a)
instance k0_chk1156.dec : ∀ (v2065 : IVec S16 32) (v2134 : IVec S16 32), Decidable (k0_chk1156 v2065 v2134) := fun v2065 v2134 => decidable_of_iff' _ (Iff.of_eq (k0_chk1156.eq_1 v2065 v2134))
theorem k0_idx1156_inb : ∀ (v2065 : IVec S16 32) (v2134 : IVec S16 32) (k0_hw1156 : k0_chk1156 v2065 v2134), ∀ a x, ((![v2065, v2134] : Fin 2 → IVec S16 32) a x).toNat < S128x200.size a := fun v2065 v2134 k0_hw1156 => k0_hw1156

def k0_chk1157 (v2065 : IVec S16 32) (v2139 : IVec S16 32) : Prop :=
  (∀ a x, ((![v2065, v2139] : Fin 2 → IVec S16 32) a x).toNat < S128x200.size a)
instance k0_chk1157.dec : ∀ (v2065 : IVec S16 32) (v2139 : IVec S16 32), Decidable (k0_chk1157 v2065 v2139) := fun v2065 v2139 => decidable_of_iff' _ (Iff.of_eq (k0_chk1157.eq_1 v2065 v2139))
theorem k0_idx1157_inb : ∀ (v2065 : IVec S16 32) (v2139 : IVec S16 32) (k0_hw1157 : k0_chk1157 v2065 v2139), ∀ a x, ((![v2065, v2139] : Fin 2 → IVec S16 32) a x).toNat < S128x200.size a := fun v2065 v2139 k0_hw1157 => k0_hw1157

def k0_chk1158 (v2149 : IVec S16 32) : Prop :=
  (∀ a x, ((![v2149] : Fin 1 → IVec S16 32) a x).toNat < S4096.size a)
instance k0_chk1158.dec : ∀ (v2149 : IVec S16 32), Decidable (k0_chk1158 v2149) := fun v2149 => decidable_of_iff' _ (Iff.of_eq (k0_chk1158.eq_1 v2149))
theorem k0_idx1158_inb : ∀ (v2149 : IVec S16 32) (k0_hw1158 : k0_chk1158 v2149), ∀ a x, ((![v2149] : Fin 1 → IVec S16 32) a x).toNat < S4096.size a := fun v2149 k0_hw1158 => k0_hw1158

def k0_chk1159 (v2065 : IVec S16 32) (v2153 : IVec S16 32) : Prop :=
  (∀ a x, ((![v2065, v2153] : Fin 2 → IVec S16 32) a x).toNat < S128x200.size a)
instance k0_chk1159.dec : ∀ (v2065 : IVec S16 32) (v2153 : IVec S16 32), Decidable (k0_chk1159 v2065 v2153) := fun v2065 v2153 => decidable_of_iff' _ (Iff.of_eq (k0_chk1159.eq_1 v2065 v2153))
theorem k0_idx1159_inb : ∀ (v2065 : IVec S16 32) (v2153 : IVec S16 32) (k0_hw1159 : k0_chk1159 v2065 v2153), ∀ a x, ((![v2065, v2153] : Fin 2 → IVec S16 32) a x).toNat < S128x200.size a := fun v2065 v2153 k0_hw1159 => k0_hw1159

def k0_chk1160 (v2157 : IVec S16 32) : Prop :=
  (∀ a x, ((![v2157] : Fin 1 → IVec S16 32) a x).toNat < S272.size a)
instance k0_chk1160.dec : ∀ (v2157 : IVec S16 32), Decidable (k0_chk1160 v2157) := fun v2157 => decidable_of_iff' _ (Iff.of_eq (k0_chk1160.eq_1 v2157))
theorem k0_idx1160_inb : ∀ (v2157 : IVec S16 32) (k0_hw1160 : k0_chk1160 v2157), ∀ a x, ((![v2157] : Fin 1 → IVec S16 32) a x).toNat < S272.size a := fun v2157 k0_hw1160 => k0_hw1160
def k0_off80 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c224_i32_733 : BitVec 32 := 224#32
  let v2161 : BitVec 32 := Scalar.addi v648 c224_i32_733
  let v2162 : Index := Scalar.indexCast v2161
  ![v2162.toNat]

def k0_chk1161 (v2166 : IVec S16 32) (v2168 : IVec S16 32) : Prop :=
  (∀ a x, ((![v2166, v2168] : Fin 2 → IVec S16 32) a x).toNat < S128x200.size a)
instance k0_chk1161.dec : ∀ (v2166 : IVec S16 32) (v2168 : IVec S16 32), Decidable (k0_chk1161 v2166 v2168) := fun v2166 v2168 => decidable_of_iff' _ (Iff.of_eq (k0_chk1161.eq_1 v2166 v2168))
theorem k0_idx1161_inb : ∀ (v2166 : IVec S16 32) (v2168 : IVec S16 32) (k0_hw1161 : k0_chk1161 v2166 v2168), ∀ a x, ((![v2166, v2168] : Fin 2 → IVec S16 32) a x).toNat < S128x200.size a := fun v2166 v2168 k0_hw1161 => k0_hw1161

def k0_chk1162 (v2166 : IVec S16 32) (v2173 : IVec S16 32) : Prop :=
  (∀ a x, ((![v2166, v2173] : Fin 2 → IVec S16 32) a x).toNat < S128x200.size a)
instance k0_chk1162.dec : ∀ (v2166 : IVec S16 32) (v2173 : IVec S16 32), Decidable (k0_chk1162 v2166 v2173) := fun v2166 v2173 => decidable_of_iff' _ (Iff.of_eq (k0_chk1162.eq_1 v2166 v2173))
theorem k0_idx1162_inb : ∀ (v2166 : IVec S16 32) (v2173 : IVec S16 32) (k0_hw1162 : k0_chk1162 v2166 v2173), ∀ a x, ((![v2166, v2173] : Fin 2 → IVec S16 32) a x).toNat < S128x200.size a := fun v2166 v2173 k0_hw1162 => k0_hw1162

def k0_chk1163 (v2166 : IVec S16 32) (v2178 : IVec S16 32) : Prop :=
  (∀ a x, ((![v2166, v2178] : Fin 2 → IVec S16 32) a x).toNat < S128x200.size a)
instance k0_chk1163.dec : ∀ (v2166 : IVec S16 32) (v2178 : IVec S16 32), Decidable (k0_chk1163 v2166 v2178) := fun v2166 v2178 => decidable_of_iff' _ (Iff.of_eq (k0_chk1163.eq_1 v2166 v2178))
theorem k0_idx1163_inb : ∀ (v2166 : IVec S16 32) (v2178 : IVec S16 32) (k0_hw1163 : k0_chk1163 v2166 v2178), ∀ a x, ((![v2166, v2178] : Fin 2 → IVec S16 32) a x).toNat < S128x200.size a := fun v2166 v2178 k0_hw1163 => k0_hw1163

def k0_chk1164 (v2166 : IVec S16 32) (v2183 : IVec S16 32) : Prop :=
  (∀ a x, ((![v2166, v2183] : Fin 2 → IVec S16 32) a x).toNat < S128x200.size a)
instance k0_chk1164.dec : ∀ (v2166 : IVec S16 32) (v2183 : IVec S16 32), Decidable (k0_chk1164 v2166 v2183) := fun v2166 v2183 => decidable_of_iff' _ (Iff.of_eq (k0_chk1164.eq_1 v2166 v2183))
theorem k0_idx1164_inb : ∀ (v2166 : IVec S16 32) (v2183 : IVec S16 32) (k0_hw1164 : k0_chk1164 v2166 v2183), ∀ a x, ((![v2166, v2183] : Fin 2 → IVec S16 32) a x).toNat < S128x200.size a := fun v2166 v2183 k0_hw1164 => k0_hw1164

def k0_chk1165 (v2193 : IVec S16 32) : Prop :=
  (∀ a x, ((![v2193] : Fin 1 → IVec S16 32) a x).toNat < S4096.size a)
instance k0_chk1165.dec : ∀ (v2193 : IVec S16 32), Decidable (k0_chk1165 v2193) := fun v2193 => decidable_of_iff' _ (Iff.of_eq (k0_chk1165.eq_1 v2193))
theorem k0_idx1165_inb : ∀ (v2193 : IVec S16 32) (k0_hw1165 : k0_chk1165 v2193), ∀ a x, ((![v2193] : Fin 1 → IVec S16 32) a x).toNat < S4096.size a := fun v2193 k0_hw1165 => k0_hw1165

def k0_chk1166 (v2166 : IVec S16 32) (v2196 : IVec S16 32) : Prop :=
  (∀ a x, ((![v2166, v2196] : Fin 2 → IVec S16 32) a x).toNat < S128x200.size a)
instance k0_chk1166.dec : ∀ (v2166 : IVec S16 32) (v2196 : IVec S16 32), Decidable (k0_chk1166 v2166 v2196) := fun v2166 v2196 => decidable_of_iff' _ (Iff.of_eq (k0_chk1166.eq_1 v2166 v2196))
theorem k0_idx1166_inb : ∀ (v2166 : IVec S16 32) (v2196 : IVec S16 32) (k0_hw1166 : k0_chk1166 v2166 v2196), ∀ a x, ((![v2166, v2196] : Fin 2 → IVec S16 32) a x).toNat < S128x200.size a := fun v2166 v2196 k0_hw1166 => k0_hw1166

def k0_chk1167 (v2166 : IVec S16 32) (v2201 : IVec S16 32) : Prop :=
  (∀ a x, ((![v2166, v2201] : Fin 2 → IVec S16 32) a x).toNat < S128x200.size a)
instance k0_chk1167.dec : ∀ (v2166 : IVec S16 32) (v2201 : IVec S16 32), Decidable (k0_chk1167 v2166 v2201) := fun v2166 v2201 => decidable_of_iff' _ (Iff.of_eq (k0_chk1167.eq_1 v2166 v2201))
theorem k0_idx1167_inb : ∀ (v2166 : IVec S16 32) (v2201 : IVec S16 32) (k0_hw1167 : k0_chk1167 v2166 v2201), ∀ a x, ((![v2166, v2201] : Fin 2 → IVec S16 32) a x).toNat < S128x200.size a := fun v2166 v2201 k0_hw1167 => k0_hw1167

def k0_chk1168 (v2166 : IVec S16 32) (v2206 : IVec S16 32) : Prop :=
  (∀ a x, ((![v2166, v2206] : Fin 2 → IVec S16 32) a x).toNat < S128x200.size a)
instance k0_chk1168.dec : ∀ (v2166 : IVec S16 32) (v2206 : IVec S16 32), Decidable (k0_chk1168 v2166 v2206) := fun v2166 v2206 => decidable_of_iff' _ (Iff.of_eq (k0_chk1168.eq_1 v2166 v2206))
theorem k0_idx1168_inb : ∀ (v2166 : IVec S16 32) (v2206 : IVec S16 32) (k0_hw1168 : k0_chk1168 v2166 v2206), ∀ a x, ((![v2166, v2206] : Fin 2 → IVec S16 32) a x).toNat < S128x200.size a := fun v2166 v2206 k0_hw1168 => k0_hw1168

def k0_chk1169 (v2166 : IVec S16 32) (v2211 : IVec S16 32) : Prop :=
  (∀ a x, ((![v2166, v2211] : Fin 2 → IVec S16 32) a x).toNat < S128x200.size a)
instance k0_chk1169.dec : ∀ (v2166 : IVec S16 32) (v2211 : IVec S16 32), Decidable (k0_chk1169 v2166 v2211) := fun v2166 v2211 => decidable_of_iff' _ (Iff.of_eq (k0_chk1169.eq_1 v2166 v2211))
theorem k0_idx1169_inb : ∀ (v2166 : IVec S16 32) (v2211 : IVec S16 32) (k0_hw1169 : k0_chk1169 v2166 v2211), ∀ a x, ((![v2166, v2211] : Fin 2 → IVec S16 32) a x).toNat < S128x200.size a := fun v2166 v2211 k0_hw1169 => k0_hw1169

def k0_chk1170 (v2221 : IVec S16 32) : Prop :=
  (∀ a x, ((![v2221] : Fin 1 → IVec S16 32) a x).toNat < S4096.size a)
instance k0_chk1170.dec : ∀ (v2221 : IVec S16 32), Decidable (k0_chk1170 v2221) := fun v2221 => decidable_of_iff' _ (Iff.of_eq (k0_chk1170.eq_1 v2221))
theorem k0_idx1170_inb : ∀ (v2221 : IVec S16 32) (k0_hw1170 : k0_chk1170 v2221), ∀ a x, ((![v2221] : Fin 1 → IVec S16 32) a x).toNat < S4096.size a := fun v2221 k0_hw1170 => k0_hw1170

def k0_chk1171 (v2166 : IVec S16 32) (v2225 : IVec S16 32) : Prop :=
  (∀ a x, ((![v2166, v2225] : Fin 2 → IVec S16 32) a x).toNat < S128x200.size a)
instance k0_chk1171.dec : ∀ (v2166 : IVec S16 32) (v2225 : IVec S16 32), Decidable (k0_chk1171 v2166 v2225) := fun v2166 v2225 => decidable_of_iff' _ (Iff.of_eq (k0_chk1171.eq_1 v2166 v2225))
theorem k0_idx1171_inb : ∀ (v2166 : IVec S16 32) (v2225 : IVec S16 32) (k0_hw1171 : k0_chk1171 v2166 v2225), ∀ a x, ((![v2166, v2225] : Fin 2 → IVec S16 32) a x).toNat < S128x200.size a := fun v2166 v2225 k0_hw1171 => k0_hw1171

def k0_chk1172 (v2166 : IVec S16 32) (v2230 : IVec S16 32) : Prop :=
  (∀ a x, ((![v2166, v2230] : Fin 2 → IVec S16 32) a x).toNat < S128x200.size a)
instance k0_chk1172.dec : ∀ (v2166 : IVec S16 32) (v2230 : IVec S16 32), Decidable (k0_chk1172 v2166 v2230) := fun v2166 v2230 => decidable_of_iff' _ (Iff.of_eq (k0_chk1172.eq_1 v2166 v2230))
theorem k0_idx1172_inb : ∀ (v2166 : IVec S16 32) (v2230 : IVec S16 32) (k0_hw1172 : k0_chk1172 v2166 v2230), ∀ a x, ((![v2166, v2230] : Fin 2 → IVec S16 32) a x).toNat < S128x200.size a := fun v2166 v2230 k0_hw1172 => k0_hw1172

def k0_chk1173 (v2166 : IVec S16 32) (v2235 : IVec S16 32) : Prop :=
  (∀ a x, ((![v2166, v2235] : Fin 2 → IVec S16 32) a x).toNat < S128x200.size a)
instance k0_chk1173.dec : ∀ (v2166 : IVec S16 32) (v2235 : IVec S16 32), Decidable (k0_chk1173 v2166 v2235) := fun v2166 v2235 => decidable_of_iff' _ (Iff.of_eq (k0_chk1173.eq_1 v2166 v2235))
theorem k0_idx1173_inb : ∀ (v2166 : IVec S16 32) (v2235 : IVec S16 32) (k0_hw1173 : k0_chk1173 v2166 v2235), ∀ a x, ((![v2166, v2235] : Fin 2 → IVec S16 32) a x).toNat < S128x200.size a := fun v2166 v2235 k0_hw1173 => k0_hw1173

def k0_chk1174 (v2166 : IVec S16 32) (v2240 : IVec S16 32) : Prop :=
  (∀ a x, ((![v2166, v2240] : Fin 2 → IVec S16 32) a x).toNat < S128x200.size a)
instance k0_chk1174.dec : ∀ (v2166 : IVec S16 32) (v2240 : IVec S16 32), Decidable (k0_chk1174 v2166 v2240) := fun v2166 v2240 => decidable_of_iff' _ (Iff.of_eq (k0_chk1174.eq_1 v2166 v2240))
theorem k0_idx1174_inb : ∀ (v2166 : IVec S16 32) (v2240 : IVec S16 32) (k0_hw1174 : k0_chk1174 v2166 v2240), ∀ a x, ((![v2166, v2240] : Fin 2 → IVec S16 32) a x).toNat < S128x200.size a := fun v2166 v2240 k0_hw1174 => k0_hw1174

def k0_chk1175 (v2250 : IVec S16 32) : Prop :=
  (∀ a x, ((![v2250] : Fin 1 → IVec S16 32) a x).toNat < S4096.size a)
instance k0_chk1175.dec : ∀ (v2250 : IVec S16 32), Decidable (k0_chk1175 v2250) := fun v2250 => decidable_of_iff' _ (Iff.of_eq (k0_chk1175.eq_1 v2250))
theorem k0_idx1175_inb : ∀ (v2250 : IVec S16 32) (k0_hw1175 : k0_chk1175 v2250), ∀ a x, ((![v2250] : Fin 1 → IVec S16 32) a x).toNat < S4096.size a := fun v2250 k0_hw1175 => k0_hw1175

def k0_chk1176 (v2166 : IVec S16 32) (v2254 : IVec S16 32) : Prop :=
  (∀ a x, ((![v2166, v2254] : Fin 2 → IVec S16 32) a x).toNat < S128x200.size a)
instance k0_chk1176.dec : ∀ (v2166 : IVec S16 32) (v2254 : IVec S16 32), Decidable (k0_chk1176 v2166 v2254) := fun v2166 v2254 => decidable_of_iff' _ (Iff.of_eq (k0_chk1176.eq_1 v2166 v2254))
theorem k0_idx1176_inb : ∀ (v2166 : IVec S16 32) (v2254 : IVec S16 32) (k0_hw1176 : k0_chk1176 v2166 v2254), ∀ a x, ((![v2166, v2254] : Fin 2 → IVec S16 32) a x).toNat < S128x200.size a := fun v2166 v2254 k0_hw1176 => k0_hw1176

def k0_chk1177 (v2258 : IVec S16 32) : Prop :=
  (∀ a x, ((![v2258] : Fin 1 → IVec S16 32) a x).toNat < S272.size a)
instance k0_chk1177.dec : ∀ (v2258 : IVec S16 32), Decidable (k0_chk1177 v2258) := fun v2258 => decidable_of_iff' _ (Iff.of_eq (k0_chk1177.eq_1 v2258))
theorem k0_idx1177_inb : ∀ (v2258 : IVec S16 32) (k0_hw1177 : k0_chk1177 v2258), ∀ a x, ((![v2258] : Fin 1 → IVec S16 32) a x).toNat < S272.size a := fun v2258 k0_hw1177 => k0_hw1177
def k0_off81 (k0_t5 : Fin k0_t5_loop.trips) : Fin 1 → Nat :=
  let c0_i32_211 : BitVec 32 := 0#32
  let c1_i32_213 : BitVec 32 := 1#32
  let arg17 : BitVec 32 := Scf.iv c0_i32_211 c1_i32_213 k0_t5
  let c1_i32_217 : BitVec 32 := 1#32
  let v647 : BitVec 32 := Scalar.andi arg17 c1_i32_217
  let c256_i32_218 : BitVec 32 := 256#32
  let v648 : BitVec 32 := Scalar.muli v647 c256_i32_218
  let c240_i32_767 : BitVec 32 := 240#32
  let v2262 : BitVec 32 := Scalar.addi v648 c240_i32_767
  let v2263 : Index := Scalar.indexCast v2262
  ![v2263.toNat]
def k0_off82 (k0_t5 : Fin k0_t5_loop.trips) : Fin 1 → Nat :=
  let c384_i32_216 : BitVec 32 := 384#32
  let c0_i32_211 : BitVec 32 := 0#32
  let c1_i32_213 : BitVec 32 := 1#32
  let arg17 : BitVec 32 := Scf.iv c0_i32_211 c1_i32_213 k0_t5
  let c16_i32_215 : BitVec 32 := 16#32
  let v645 : BitVec 32 := Scalar.muli arg17 c16_i32_215
  let v646 : BitVec 32 := Scalar.addi c384_i32_216 v645
  let v2265 : Index := Scalar.indexCast v646
  ![v2265.toNat]

def k0_chk1178 (v2273 : IVec S16 32) : Prop :=
  (∀ a x, ((![v2273] : Fin 1 → IVec S16 32) a x).toNat < S512.size a)
instance k0_chk1178.dec : ∀ (v2273 : IVec S16 32), Decidable (k0_chk1178 v2273) := fun v2273 => decidable_of_iff' _ (Iff.of_eq (k0_chk1178.eq_1 v2273))
theorem k0_idx1178_inb : ∀ (v2273 : IVec S16 32) (k0_hw1178 : k0_chk1178 v2273), ∀ a x, ((![v2273] : Fin 1 → IVec S16 32) a x).toNat < S512.size a := fun v2273 k0_hw1178 => k0_hw1178

def k0_chk1179 (v2282 : IVec S16 32) : Prop :=
  (∀ a x, ((![v2282] : Fin 1 → IVec S16 32) a x).toNat < S512.size a)
instance k0_chk1179.dec : ∀ (v2282 : IVec S16 32), Decidable (k0_chk1179 v2282) := fun v2282 => decidable_of_iff' _ (Iff.of_eq (k0_chk1179.eq_1 v2282))
theorem k0_idx1179_inb : ∀ (v2282 : IVec S16 32) (k0_hw1179 : k0_chk1179 v2282), ∀ a x, ((![v2282] : Fin 1 → IVec S16 32) a x).toNat < S512.size a := fun v2282 k0_hw1179 => k0_hw1179

def k0_chk1180 (v2291 : IVec S16 32) : Prop :=
  (∀ a x, ((![v2291] : Fin 1 → IVec S16 32) a x).toNat < S512.size a)
instance k0_chk1180.dec : ∀ (v2291 : IVec S16 32), Decidable (k0_chk1180 v2291) := fun v2291 => decidable_of_iff' _ (Iff.of_eq (k0_chk1180.eq_1 v2291))
theorem k0_idx1180_inb : ∀ (v2291 : IVec S16 32) (k0_hw1180 : k0_chk1180 v2291), ∀ a x, ((![v2291] : Fin 1 → IVec S16 32) a x).toNat < S512.size a := fun v2291 k0_hw1180 => k0_hw1180

def k0_chk1181 (v2300 : IVec S16 32) : Prop :=
  (∀ a x, ((![v2300] : Fin 1 → IVec S16 32) a x).toNat < S512.size a)
instance k0_chk1181.dec : ∀ (v2300 : IVec S16 32), Decidable (k0_chk1181 v2300) := fun v2300 => decidable_of_iff' _ (Iff.of_eq (k0_chk1181.eq_1 v2300))
theorem k0_idx1181_inb : ∀ (v2300 : IVec S16 32) (k0_hw1181 : k0_chk1181 v2300), ∀ a x, ((![v2300] : Fin 1 → IVec S16 32) a x).toNat < S512.size a := fun v2300 k0_hw1181 => k0_hw1181

def k0_chk1182 (v2309 : IVec S16 32) : Prop :=
  (∀ a x, ((![v2309] : Fin 1 → IVec S16 32) a x).toNat < S512.size a)
instance k0_chk1182.dec : ∀ (v2309 : IVec S16 32), Decidable (k0_chk1182 v2309) := fun v2309 => decidable_of_iff' _ (Iff.of_eq (k0_chk1182.eq_1 v2309))
theorem k0_idx1182_inb : ∀ (v2309 : IVec S16 32) (k0_hw1182 : k0_chk1182 v2309), ∀ a x, ((![v2309] : Fin 1 → IVec S16 32) a x).toNat < S512.size a := fun v2309 k0_hw1182 => k0_hw1182

def k0_chk1183 (v2318 : IVec S16 32) : Prop :=
  (∀ a x, ((![v2318] : Fin 1 → IVec S16 32) a x).toNat < S512.size a)
instance k0_chk1183.dec : ∀ (v2318 : IVec S16 32), Decidable (k0_chk1183 v2318) := fun v2318 => decidable_of_iff' _ (Iff.of_eq (k0_chk1183.eq_1 v2318))
theorem k0_idx1183_inb : ∀ (v2318 : IVec S16 32) (k0_hw1183 : k0_chk1183 v2318), ∀ a x, ((![v2318] : Fin 1 → IVec S16 32) a x).toNat < S512.size a := fun v2318 k0_hw1183 => k0_hw1183

def k0_chk1184 (v2327 : IVec S16 32) : Prop :=
  (∀ a x, ((![v2327] : Fin 1 → IVec S16 32) a x).toNat < S512.size a)
instance k0_chk1184.dec : ∀ (v2327 : IVec S16 32), Decidable (k0_chk1184 v2327) := fun v2327 => decidable_of_iff' _ (Iff.of_eq (k0_chk1184.eq_1 v2327))
theorem k0_idx1184_inb : ∀ (v2327 : IVec S16 32) (k0_hw1184 : k0_chk1184 v2327), ∀ a x, ((![v2327] : Fin 1 → IVec S16 32) a x).toNat < S512.size a := fun v2327 k0_hw1184 => k0_hw1184

def k0_chk1185 (v2336 : IVec S16 32) : Prop :=
  (∀ a x, ((![v2336] : Fin 1 → IVec S16 32) a x).toNat < S512.size a)
instance k0_chk1185.dec : ∀ (v2336 : IVec S16 32), Decidable (k0_chk1185 v2336) := fun v2336 => decidable_of_iff' _ (Iff.of_eq (k0_chk1185.eq_1 v2336))
theorem k0_idx1185_inb : ∀ (v2336 : IVec S16 32) (k0_hw1185 : k0_chk1185 v2336), ∀ a x, ((![v2336] : Fin 1 → IVec S16 32) a x).toNat < S512.size a := fun v2336 k0_hw1185 => k0_hw1185

def k0_chk1186 (v2345 : IVec S16 32) : Prop :=
  (∀ a x, ((![v2345] : Fin 1 → IVec S16 32) a x).toNat < S512.size a)
instance k0_chk1186.dec : ∀ (v2345 : IVec S16 32), Decidable (k0_chk1186 v2345) := fun v2345 => decidable_of_iff' _ (Iff.of_eq (k0_chk1186.eq_1 v2345))
theorem k0_idx1186_inb : ∀ (v2345 : IVec S16 32) (k0_hw1186 : k0_chk1186 v2345), ∀ a x, ((![v2345] : Fin 1 → IVec S16 32) a x).toNat < S512.size a := fun v2345 k0_hw1186 => k0_hw1186

def k0_chk1187 (v2354 : IVec S16 32) : Prop :=
  (∀ a x, ((![v2354] : Fin 1 → IVec S16 32) a x).toNat < S512.size a)
instance k0_chk1187.dec : ∀ (v2354 : IVec S16 32), Decidable (k0_chk1187 v2354) := fun v2354 => decidable_of_iff' _ (Iff.of_eq (k0_chk1187.eq_1 v2354))
theorem k0_idx1187_inb : ∀ (v2354 : IVec S16 32) (k0_hw1187 : k0_chk1187 v2354), ∀ a x, ((![v2354] : Fin 1 → IVec S16 32) a x).toNat < S512.size a := fun v2354 k0_hw1187 => k0_hw1187

def k0_chk1188 (v2363 : IVec S16 32) : Prop :=
  (∀ a x, ((![v2363] : Fin 1 → IVec S16 32) a x).toNat < S512.size a)
instance k0_chk1188.dec : ∀ (v2363 : IVec S16 32), Decidable (k0_chk1188 v2363) := fun v2363 => decidable_of_iff' _ (Iff.of_eq (k0_chk1188.eq_1 v2363))
theorem k0_idx1188_inb : ∀ (v2363 : IVec S16 32) (k0_hw1188 : k0_chk1188 v2363), ∀ a x, ((![v2363] : Fin 1 → IVec S16 32) a x).toNat < S512.size a := fun v2363 k0_hw1188 => k0_hw1188

def k0_chk1189 (v2372 : IVec S16 32) : Prop :=
  (∀ a x, ((![v2372] : Fin 1 → IVec S16 32) a x).toNat < S512.size a)
instance k0_chk1189.dec : ∀ (v2372 : IVec S16 32), Decidable (k0_chk1189 v2372) := fun v2372 => decidable_of_iff' _ (Iff.of_eq (k0_chk1189.eq_1 v2372))
theorem k0_idx1189_inb : ∀ (v2372 : IVec S16 32) (k0_hw1189 : k0_chk1189 v2372), ∀ a x, ((![v2372] : Fin 1 → IVec S16 32) a x).toNat < S512.size a := fun v2372 k0_hw1189 => k0_hw1189

def k0_chk1190 (v2381 : IVec S16 32) : Prop :=
  (∀ a x, ((![v2381] : Fin 1 → IVec S16 32) a x).toNat < S512.size a)
instance k0_chk1190.dec : ∀ (v2381 : IVec S16 32), Decidable (k0_chk1190 v2381) := fun v2381 => decidable_of_iff' _ (Iff.of_eq (k0_chk1190.eq_1 v2381))
theorem k0_idx1190_inb : ∀ (v2381 : IVec S16 32) (k0_hw1190 : k0_chk1190 v2381), ∀ a x, ((![v2381] : Fin 1 → IVec S16 32) a x).toNat < S512.size a := fun v2381 k0_hw1190 => k0_hw1190

def k0_chk1191 (v2390 : IVec S16 32) : Prop :=
  (∀ a x, ((![v2390] : Fin 1 → IVec S16 32) a x).toNat < S512.size a)
instance k0_chk1191.dec : ∀ (v2390 : IVec S16 32), Decidable (k0_chk1191 v2390) := fun v2390 => decidable_of_iff' _ (Iff.of_eq (k0_chk1191.eq_1 v2390))
theorem k0_idx1191_inb : ∀ (v2390 : IVec S16 32) (k0_hw1191 : k0_chk1191 v2390), ∀ a x, ((![v2390] : Fin 1 → IVec S16 32) a x).toNat < S512.size a := fun v2390 k0_hw1191 => k0_hw1191

def k0_chk1192 (v2399 : IVec S16 32) : Prop :=
  (∀ a x, ((![v2399] : Fin 1 → IVec S16 32) a x).toNat < S512.size a)
instance k0_chk1192.dec : ∀ (v2399 : IVec S16 32), Decidable (k0_chk1192 v2399) := fun v2399 => decidable_of_iff' _ (Iff.of_eq (k0_chk1192.eq_1 v2399))
theorem k0_idx1192_inb : ∀ (v2399 : IVec S16 32) (k0_hw1192 : k0_chk1192 v2399), ∀ a x, ((![v2399] : Fin 1 → IVec S16 32) a x).toNat < S512.size a := fun v2399 k0_hw1192 => k0_hw1192

def k0_chk1193 (v2408 : IVec S16 32) : Prop :=
  (∀ a x, ((![v2408] : Fin 1 → IVec S16 32) a x).toNat < S512.size a)
instance k0_chk1193.dec : ∀ (v2408 : IVec S16 32), Decidable (k0_chk1193 v2408) := fun v2408 => decidable_of_iff' _ (Iff.of_eq (k0_chk1193.eq_1 v2408))
theorem k0_idx1193_inb : ∀ (v2408 : IVec S16 32) (k0_hw1193 : k0_chk1193 v2408), ∀ a x, ((![v2408] : Fin 1 → IVec S16 32) a x).toNat < S512.size a := fun v2408 k0_hw1193 => k0_hw1193
def k0_off83 (k0_t5 : Fin k0_t5_loop.trips) : Fin 1 → Nat :=
  let c384_i32_216 : BitVec 32 := 384#32
  let c0_i32_211 : BitVec 32 := 0#32
  let c1_i32_213 : BitVec 32 := 1#32
  let arg17 : BitVec 32 := Scf.iv c0_i32_211 c1_i32_213 k0_t5
  let c16_i32_215 : BitVec 32 := 16#32
  let v645 : BitVec 32 := Scalar.muli arg17 c16_i32_215
  let v646 : BitVec 32 := Scalar.addi c384_i32_216 v645
  let v2412 : Index := Scalar.indexCast v646
  ![v2412.toNat]
def k0_off84 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S8 : S_.BroadcastsInDim S8 (![] : Fin 0 → Fin S8.rank)
  bcast_S_S1 : S_.BroadcastsInDim S1 (![] : Fin 0 → Fin S1.rank)
  iota_S16_d0_w32_scVector : S16.Iotas .scVector 32 [0]
  h_S8 : 0 < S8.numel
  inb_S64_S16_0 : ∀ a, (![0] : Fin 1 → Nat) a + S16.size a ≤ S64.size a
  h_S16 : 0 < S16.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  natLt_1_32 : 1 < 32
  inb_S272_S16_0 : ∀ a, (![0] : Fin 1 → Nat) a + S16.size a ≤ S272.size a
  inb_S272_S16_16 : ∀ a, (![16] : Fin 1 → Nat) a + S16.size a ≤ S272.size a
  inb_S272_S16_32 : ∀ a, (![32] : Fin 1 → Nat) a + S16.size a ≤ S272.size a
  inb_S272_S16_48 : ∀ a, (![48] : Fin 1 → Nat) a + S16.size a ≤ S272.size a
  inb_S272_S16_64 : ∀ a, (![64] : Fin 1 → Nat) a + S16.size a ≤ S272.size a
  inb_S272_S16_80 : ∀ a, (![80] : Fin 1 → Nat) a + S16.size a ≤ S272.size a
  inb_S272_S16_96 : ∀ a, (![96] : Fin 1 → Nat) a + S16.size a ≤ S272.size a
  inb_S272_S16_112 : ∀ a, (![112] : Fin 1 → Nat) a + S16.size a ≤ S272.size a
  inb_S272_S16_128 : ∀ a, (![128] : Fin 1 → Nat) a + S16.size a ≤ S272.size a
  inb_S272_S16_144 : ∀ a, (![144] : Fin 1 → Nat) a + S16.size a ≤ S272.size a
  inb_S272_S16_160 : ∀ a, (![160] : Fin 1 → Nat) a + S16.size a ≤ S272.size a
  inb_S272_S16_176 : ∀ a, (![176] : Fin 1 → Nat) a + S16.size a ≤ S272.size a
  inb_S272_S16_192 : ∀ a, (![192] : Fin 1 → Nat) a + S16.size a ≤ S272.size a
  inb_S272_S16_208 : ∀ a, (![208] : Fin 1 → Nat) a + S16.size a ≤ S272.size a
  inb_S272_S16_224 : ∀ a, (![224] : Fin 1 → Nat) a + S16.size a ≤ S272.size a
  inb_S272_S16_240 : ∀ a, (![240] : Fin 1 → Nat) a + S16.size a ≤ S272.size a
  inb_S272_S16_256 : ∀ a, (![256] : Fin 1 → Nat) a + S16.size a ≤ S272.size a
  h_S64 : 0 < S64.numel
  h_S128x200 : 0 < S128x200.numel
  h_S4096 : 0 < S4096.numel
  h_S272 : 0 < S272.numel
  h_S512 : 0 < S512.numel
  scatter_S8_S1_S7_0_n_0_0_wf : ScatterDims.WF S8 S1 S7 [0] [] [0] 0
  hcc0_scratch9 : 0 + S_.numel ≤ 5
  hcc0_scratch10 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (128 * r.val))) a + S128x200.size a ≤ S16384x200.size a
  k0_off2_inb : ∀ i : grid0.Coords, ∀ a, (k0_off2 i) a + S512.size a ≤ S16384.size a
  k0_t1_ok : k0_t1_loop.OK
  k0_off3_inb : ∀ k0_t1 : Fin k0_t1_loop.trips, ∀ a, (k0_off3 k0_t1) a + S16.size a ≤ S4096.size a
  k0_off4_inb : ∀ k0_t1 : Fin k0_t1_loop.trips, ∀ a, (k0_off4 k0_t1) a + S16.size a ≤ S4096.size a
  k0_off5_inb : ∀ k0_t1 : Fin k0_t1_loop.trips, ∀ a, (k0_off5 k0_t1) a + S16.size a ≤ S4096.size a
  k0_off6_inb : ∀ k0_t1 : Fin k0_t1_loop.trips, ∀ a, (k0_off6 k0_t1) a + S16.size a ≤ S4096.size a
  k0_off7_inb : ∀ k0_t1 : Fin k0_t1_loop.trips, ∀ a, (k0_off7 k0_t1) a + S16.size a ≤ S4096.size a
  k0_off8_inb : ∀ k0_t1 : Fin k0_t1_loop.trips, ∀ a, (k0_off8 k0_t1) a + S16.size a ≤ S4096.size a
  k0_off9_inb : ∀ k0_t1 : Fin k0_t1_loop.trips, ∀ a, (k0_off9 k0_t1) a + S16.size a ≤ S4096.size a
  k0_off10_inb : ∀ k0_t1 : Fin k0_t1_loop.trips, ∀ a, (k0_off10 k0_t1) a + S16.size a ≤ S4096.size a
  k0_off11_inb : ∀ i : grid0.Coords, ∀ (r : Fin 4), ∀ a, (k0_off11 i (BitVec.ofNat 32 (128 * r.val))) a + S128x200.size a ≤ S16384x200.size a
  k0_t2_ok : k0_t2_loop.OK
  k0_off12_inb : ∀ k0_t2 : Fin k0_t2_loop.trips, ∀ a, (k0_off12 k0_t2) a + S16.size a ≤ S512.size a
  k0_off13_inb : ∀ k0_t2 : Fin k0_t2_loop.trips, ∀ a, (k0_off13 k0_t2) a + S16.size a ≤ S512.size a
  k0_off14_inb : ∀ k0_t2 : Fin k0_t2_loop.trips, ∀ a, (k0_off14 k0_t2) a + S16.size a ≤ S512.size a
  k0_off15_inb : ∀ k0_t2 : Fin k0_t2_loop.trips, ∀ a, (k0_off15 k0_t2) a + S16.size a ≤ S512.size a
  k0_off16_inb : ∀ k0_t2 : Fin k0_t2_loop.trips, ∀ a, (k0_off16 k0_t2) a + S16.size a ≤ S512.size a
  k0_off17_inb : ∀ k0_t2 : Fin k0_t2_loop.trips, ∀ a, (k0_off17 k0_t2) a + S16.size a ≤ S512.size a
  k0_off18_inb : ∀ k0_t2 : Fin k0_t2_loop.trips, ∀ a, (k0_off18 k0_t2) a + S16.size a ≤ S512.size a
  k0_off19_inb : ∀ k0_t2 : Fin k0_t2_loop.trips, ∀ a, (k0_off19 k0_t2) a + S16.size a ≤ S512.size a
  k0_off20_inb : ∀ k0_t2 : Fin k0_t2_loop.trips, ∀ a, (k0_off20 k0_t2) a + S16.size a ≤ S512.size a
  k0_off21_inb : ∀ k0_t2 : Fin k0_t2_loop.trips, ∀ a, (k0_off21 k0_t2) a + S16.size a ≤ S512.size a
  k0_off22_inb : ∀ k0_t2 : Fin k0_t2_loop.trips, ∀ a, (k0_off22 k0_t2) a + S16.size a ≤ S512.size a
  k0_off23_inb : ∀ k0_t2 : Fin k0_t2_loop.trips, ∀ a, (k0_off23 k0_t2) a + S16.size a ≤ S512.size a
  k0_off24_inb : ∀ k0_t2 : Fin k0_t2_loop.trips, ∀ a, (k0_off24 k0_t2) a + S16.size a ≤ S512.size a
  k0_off25_inb : ∀ k0_t2 : Fin k0_t2_loop.trips, ∀ a, (k0_off25 k0_t2) a + S16.size a ≤ S512.size a
  k0_off26_inb : ∀ k0_t2 : Fin k0_t2_loop.trips, ∀ a, (k0_off26 k0_t2) a + S16.size a ≤ S512.size a
  k0_off27_inb : ∀ k0_t2 : Fin k0_t2_loop.trips, ∀ a, (k0_off27 k0_t2) a + S16.size a ≤ S512.size a
  k0_off28_inb : ∀ k0_t2 : Fin k0_t2_loop.trips, ∀ a, (k0_off28 k0_t2) a + S16.size a ≤ S512.size a
  k0_off29_inb : ∀ k0_t2 : Fin k0_t2_loop.trips, ∀ a, (k0_off29 k0_t2) a + S16.size a ≤ S512.size a
  k0_t3_ok : k0_t3_loop.OK
  k0_off30_inb : ∀ k0_t3 : Fin k0_t3_loop.trips, ∀ a, (k0_off30 k0_t3) a + S16.size a ≤ S512.size a
  k0_off31_inb : ∀ k0_t3 : Fin k0_t3_loop.trips, ∀ a, (k0_off31 k0_t3) a + S16.size a ≤ S512.size a
  k0_off32_inb : ∀ k0_t3 : Fin k0_t3_loop.trips, ∀ a, (k0_off32 k0_t3) a + S16.size a ≤ S512.size a
  k0_off33_inb : ∀ k0_t3 : Fin k0_t3_loop.trips, ∀ a, (k0_off33 k0_t3) a + S16.size a ≤ S512.size a
  k0_off34_inb : ∀ k0_t3 : Fin k0_t3_loop.trips, ∀ a, (k0_off34 k0_t3) a + S16.size a ≤ S512.size a
  k0_off35_inb : ∀ k0_t3 : Fin k0_t3_loop.trips, ∀ a, (k0_off35 k0_t3) a + S16.size a ≤ S512.size a
  k0_off36_inb : ∀ k0_t3 : Fin k0_t3_loop.trips, ∀ a, (k0_off36 k0_t3) a + S16.size a ≤ S512.size a
  k0_off37_inb : ∀ k0_t3 : Fin k0_t3_loop.trips, ∀ a, (k0_off37 k0_t3) a + S16.size a ≤ S512.size a
  k0_off38_inb : ∀ k0_t3 : Fin k0_t3_loop.trips, ∀ a, (k0_off38 k0_t3) a + S16.size a ≤ S512.size a
  k0_off39_inb : ∀ k0_t3 : Fin k0_t3_loop.trips, ∀ a, (k0_off39 k0_t3) a + S16.size a ≤ S512.size a
  k0_off40_inb : ∀ k0_t3 : Fin k0_t3_loop.trips, ∀ a, (k0_off40 k0_t3) a + S16.size a ≤ S512.size a
  k0_off41_inb : ∀ k0_t3 : Fin k0_t3_loop.trips, ∀ a, (k0_off41 k0_t3) a + S16.size a ≤ S512.size a
  k0_off42_inb : ∀ k0_t3 : Fin k0_t3_loop.trips, ∀ a, (k0_off42 k0_t3) a + S16.size a ≤ S512.size a
  k0_off43_inb : ∀ k0_t3 : Fin k0_t3_loop.trips, ∀ a, (k0_off43 k0_t3) a + S16.size a ≤ S512.size a
  k0_off44_inb : ∀ k0_t3 : Fin k0_t3_loop.trips, ∀ a, (k0_off44 k0_t3) a + S16.size a ≤ S512.size a
  k0_off45_inb : ∀ k0_t3 : Fin k0_t3_loop.trips, ∀ a, (k0_off45 k0_t3) a + S16.size a ≤ S512.size a
  k0_off46_inb : ∀ k0_t3 : Fin k0_t3_loop.trips, ∀ a, (k0_off46 k0_t3) a + S16.size a ≤ S512.size a
  k0_off47_inb : ∀ k0_t3 : Fin k0_t3_loop.trips, ∀ a, (k0_off47 k0_t3) a + S16.size a ≤ S512.size a
  k0_t4_ok : k0_t4_loop.OK
  k0_off48_inb : ∀ k0_t4 : Fin k0_t4_loop.trips, ∀ a, (k0_off48 k0_t4) a + S16.size a ≤ S512.size a
  k0_off49_inb : ∀ k0_t4 : Fin k0_t4_loop.trips, ∀ a, (k0_off49 k0_t4) a + S16.size a ≤ S512.size a
  k0_off50_inb : ∀ k0_t4 : Fin k0_t4_loop.trips, ∀ a, (k0_off50 k0_t4) a + S16.size a ≤ S512.size a
  k0_off51_inb : ∀ k0_t4 : Fin k0_t4_loop.trips, ∀ a, (k0_off51 k0_t4) a + S16.size a ≤ S512.size a
  k0_off52_inb : ∀ k0_t4 : Fin k0_t4_loop.trips, ∀ a, (k0_off52 k0_t4) a + S16.size a ≤ S512.size a
  k0_off53_inb : ∀ k0_t4 : Fin k0_t4_loop.trips, ∀ a, (k0_off53 k0_t4) a + S16.size a ≤ S512.size a
  k0_off54_inb : ∀ k0_t4 : Fin k0_t4_loop.trips, ∀ a, (k0_off54 k0_t4) a + S16.size a ≤ S512.size a
  k0_off55_inb : ∀ k0_t4 : Fin k0_t4_loop.trips, ∀ a, (k0_off55 k0_t4) a + S16.size a ≤ S512.size a
  k0_off56_inb : ∀ k0_t4 : Fin k0_t4_loop.trips, ∀ a, (k0_off56 k0_t4) a + S16.size a ≤ S512.size a
  k0_off57_inb : ∀ k0_t4 : Fin k0_t4_loop.trips, ∀ a, (k0_off57 k0_t4) a + S16.size a ≤ S512.size a
  k0_off58_inb : ∀ k0_t4 : Fin k0_t4_loop.trips, ∀ a, (k0_off58 k0_t4) a + S16.size a ≤ S512.size a
  k0_off59_inb : ∀ k0_t4 : Fin k0_t4_loop.trips, ∀ a, (k0_off59 k0_t4) a + S16.size a ≤ S512.size a
  k0_off60_inb : ∀ k0_t4 : Fin k0_t4_loop.trips, ∀ a, (k0_off60 k0_t4) a + S16.size a ≤ S512.size a
  k0_off61_inb : ∀ k0_t4 : Fin k0_t4_loop.trips, ∀ a, (k0_off61 k0_t4) a + S16.size a ≤ S512.size a
  k0_off62_inb : ∀ k0_t4 : Fin k0_t4_loop.trips, ∀ a, (k0_off62 k0_t4) a + S16.size a ≤ S512.size a
  k0_off63_inb : ∀ k0_t4 : Fin k0_t4_loop.trips, ∀ a, (k0_off63 k0_t4) a + S16.size a ≤ S512.size a
  k0_off64_inb : ∀ k0_t4 : Fin k0_t4_loop.trips, ∀ a, (k0_off64 k0_t4) a + S16.size a ≤ S512.size a
  k0_off65_inb : ∀ k0_t4 : Fin k0_t4_loop.trips, ∀ a, (k0_off65 k0_t4) a + S16.size a ≤ S512.size a
  k0_t5_ok : k0_t5_loop.OK
  k0_off66_inb : ∀ k0_t5 : Fin k0_t5_loop.trips, ∀ a, (k0_off66 k0_t5) a + S16.size a ≤ S512.size a
  k0_off67_inb : ∀ k0_t5 : Fin k0_t5_loop.trips, ∀ a, (k0_off67 k0_t5) a + S16.size a ≤ S512.size a
  k0_off68_inb : ∀ k0_t5 : Fin k0_t5_loop.trips, ∀ a, (k0_off68 k0_t5) a + S16.size a ≤ S512.size a
  k0_off69_inb : ∀ k0_t5 : Fin k0_t5_loop.trips, ∀ a, (k0_off69 k0_t5) a + S16.size a ≤ S512.size a
  k0_off70_inb : ∀ k0_t5 : Fin k0_t5_loop.trips, ∀ a, (k0_off70 k0_t5) a + S16.size a ≤ S512.size a
  k0_off71_inb : ∀ k0_t5 : Fin k0_t5_loop.trips, ∀ a, (k0_off71 k0_t5) a + S16.size a ≤ S512.size a
  k0_off72_inb : ∀ k0_t5 : Fin k0_t5_loop.trips, ∀ a, (k0_off72 k0_t5) a + S16.size a ≤ S512.size a
  k0_off73_inb : ∀ k0_t5 : Fin k0_t5_loop.trips, ∀ a, (k0_off73 k0_t5) a + S16.size a ≤ S512.size a
  k0_off74_inb : ∀ k0_t5 : Fin k0_t5_loop.trips, ∀ a, (k0_off74 k0_t5) a + S16.size a ≤ S512.size a
  k0_off75_inb : ∀ k0_t5 : Fin k0_t5_loop.trips, ∀ a, (k0_off75 k0_t5) a + S16.size a ≤ S512.size a
  k0_off76_inb : ∀ k0_t5 : Fin k0_t5_loop.trips, ∀ a, (k0_off76 k0_t5) a + S16.size a ≤ S512.size a
  k0_off77_inb : ∀ k0_t5 : Fin k0_t5_loop.trips, ∀ a, (k0_off77 k0_t5) a + S16.size a ≤ S512.size a
  k0_off78_inb : ∀ k0_t5 : Fin k0_t5_loop.trips, ∀ a, (k0_off78 k0_t5) a + S16.size a ≤ S512.size a
  k0_off79_inb : ∀ k0_t5 : Fin k0_t5_loop.trips, ∀ a, (k0_off79 k0_t5) a + S16.size a ≤ S512.size a
  k0_off80_inb : ∀ k0_t5 : Fin k0_t5_loop.trips, ∀ a, (k0_off80 k0_t5) a + S16.size a ≤ S512.size a
  k0_off81_inb : ∀ k0_t5 : Fin k0_t5_loop.trips, ∀ a, (k0_off81 k0_t5) a + S16.size a ≤ S512.size a
  k0_off82_inb : ∀ k0_t5 : Fin k0_t5_loop.trips, ∀ a, (k0_off82 k0_t5) a + S16.size a ≤ S512.size a
  k0_off83_inb : ∀ k0_t5 : Fin k0_t5_loop.trips, ∀ a, (k0_off83 k0_t5) a + S16.size a ≤ S512.size a
  k0_off84_inb : ∀ i : grid0.Coords, ∀ a, (k0_off84 i) a + S512.size a ≤ S16384.size a

variable [Facts₀]

abbrev cc0_scratch9 : DmaSems sig S_ := SemArray.consecutive 0 S_ hcc0_scratch9
abbrev cc0_scratch10 : DmaSems sig S_ := SemArray.consecutive 1 S_ hcc0_scratch10
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
def scatter_S8_S1_S7_0_n_0_0 : ScatterDims S8 S1 S7 where
  updateWindowDims := [0]
  insertedWindowDims := []
  scatterDimsToOperandDims := [0]
  indexVectorDim := 0
  wf := scatter_S8_S1_S7_0_n_0_0_wf

class Facts : Prop extends Facts₀ where

variable [Facts]
-- ==== ReferenceIdeal.lean ====
abbrev S16384x200 : Shape := ⟨2, ![16384, 200]⟩
abbrev S16384 : Shape := ⟨1, ![16384]⟩
abbrev S7 : Shape := ⟨1, ![7]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .f32⟩
  | .hbm, ⟨2, _⟩ => ⟨S7, .f32⟩
  | .hbm, ⟨3, _⟩ => ⟨S_, .i32⟩
  | .hbm, ⟨4, _⟩ => ⟨S16384x200, .i32⟩
  | .hbm, ⟨5, _⟩ => ⟨S16384x200, .i1⟩
  | .hbm, ⟨6, _⟩ => ⟨S_, .i32⟩
  | .hbm, ⟨7, _⟩ => ⟨S16384x200, .i32⟩
  | .hbm, ⟨8, _⟩ => ⟨S16384x200, .i32⟩
  | .hbm, ⟨9, _⟩ => ⟨S16384x200, .i32⟩
  | .hbm, ⟨10, _⟩ => ⟨S16384x200x1, .i32⟩
  | .hbm, ⟨11, _⟩ => ⟨S1, .i32⟩
  | .hbm, ⟨12, _⟩ => ⟨S_, .i32⟩
  | .hbm, ⟨13, _⟩ => ⟨S16384x200x1, .i32⟩
  | .hbm, ⟨14, _⟩ => ⟨S16384x200x1, .i1⟩
  | .hbm, ⟨15, _⟩ => ⟨S1x1x1, .i32⟩
  | .hbm, ⟨16, _⟩ => ⟨S16384x200x1, .i32⟩
  | .hbm, ⟨17, _⟩ => ⟨S16384x200x1, .i1⟩
  | .hbm, ⟨18, _⟩ => ⟨S16384x200x1, .i1⟩
  | .hbm, ⟨19, _⟩ => ⟨S_, .i1⟩
  | .hbm, ⟨20, _⟩ => ⟨S16384x200, .i1⟩
  | .hbm, ⟨21, _⟩ => ⟨S16384x200, .f32⟩
  | .hbm, ⟨22, _⟩ => ⟨S_, .f32⟩
  | .hbm, ⟨23, _⟩ => ⟨S16384x200, .f32⟩
  | .hbm, ⟨24, _⟩ => ⟨S16384x200, .f32⟩
  | .hbm, ⟨25, _⟩ => ⟨S_, .i32⟩
  | .hbm, ⟨26, _⟩ => ⟨S16384x200, .i32⟩
  | .hbm, ⟨27, _⟩ => ⟨S16384x200, .i1⟩
  | .hbm, ⟨28, _⟩ => ⟨S_, .f32⟩
  | .hbm, ⟨29, _⟩ => ⟨S16384x200, .f32⟩
  | .hbm, ⟨30, _⟩ => ⟨S16384x200, .f32⟩
  | .hbm, ⟨31, _⟩ => ⟨S_, .f32⟩
  | .hbm, ⟨32, _⟩ => ⟨S16384, .f32⟩
  | .hbm, ⟨33, _⟩ => ⟨S16384, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_call1_v0 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  reducesTo_S16384x200_S16384_d1 : S16384x200.ReducesTo [1] S16384
  gather_S7_S16384x200x1_S16384x200_n_0_n_n_0_2_1_wf : GatherDims.WF S7 S16384x200x1 S16384x200 [] [0] [] [0] [] 2 ![1]

variable [Facts₀]

def gather_S7_S16384x200x1_S16384x200_n_0_n_n_0_2_1 : GatherDims S7 S16384x200x1 S16384x200 where
  offsetDims := []
  collapsedSliceDims := [0]
  operandBatchingDims := []
  startIndicesBatchingDims := []
  startIndexMap := [0]
  indexVectorDim := 2
  sliceSizes := ![1]
  wf := gather_S7_S16384x200x1_S16384x200_n_0_n_n_0_2_1_wf

class Facts : Prop extends Facts₀ where

variable [Facts]
-- ==== Proof.KB.Base.lean ====
/-
  The program as the launch theorem sees it, the resource algebra (the handshakes' rounds beside the transfers'
  counters), a tile's thread and its slice of the result array, and one rule: an indexed load bound into a
  continuation is a plain load of the whole scratch followed by the gather.
-/
import proofs.«206987_g17583596110038_cont_8to1_771_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206987_g17583596110038_cont_8to1_771_12_alg».proof.Proof.Gen.Kernel
import proofs.«206987_g17583596110038_cont_8to1_771_12_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

/-- The tile at grid coordinates L: SparseCore L 0, vector subcore L 1. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The 512 entries of the result array the tile writes, as the program slices them. -/
abbrev oSl (L : grid0.Coords) : Memref sig .scVector .hbm S512 .f32 :=
  (oW).slice (Rect.unit (s := S16384) (k0_off84 L) S512.size (k0_off84_inb L)) (fun _ => rfl)

/-- An indexed load bound into a continuation is a plain load of the whole scratch, the continuation applied to the gather. -/
theorem wp_gather_bind {Λ : Labels} {defs : Defs nD τ sig (Elt F) Λ} (𝒱 : Variants) (c : Thread nD τ) (bd : Option 𝒱.V) (E : Set ℕ)
    {s t : Shape} {e : EltTy} {α : Type} {Q : α → sProp 𝕄}
    {base : Memref sig c.2.kind .vmem s e} {idxs : Fin s.rank → IVec t 32}
    {h : ∀ a x, (idxs a x).toNat < s.size a} {hl : base.view.Loads} {k : Vec F t e → Prog (TpuEff nD τ sig (Elt F) Λ c.2) α} :
    wp frame (wpE defs 𝒱 c bd) E (Prog.op (TpuEff.load base (.whole s) (View.loadsAt_whole hl)) fun f => k (loadIdx f idxs h)) Q
      ⊢ wp frame (wpE defs 𝒱 c bd) E (SparseCore.vectorLoadIdx base idxs h hl >>= k) Q := by
  rw [SparseCore.vectorLoadIdx_bind]

end Cert.Proof.KB

end
-- ==== Proof.KB.RegionT1.lean ====
/-
  One trip of the loop that fills the table of sums of four: eight times, two gathers out of the pair table (at the
  entry number's high six bits and low six bits) are added and stored, sixteen entries at a time. The gathers' indices
  are the trip's entry numbers shifted or masked: inside the pair table at every trip, by computation.
-/
import proofs.«206987_g17583596110038_cont_8to1_771_12_alg».proof.Proof.KB.Base

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

/-- Before and after each trip: the pair table and the table of sums of four, each whole. -/
def invT1 (d : Dev nD) (L : grid0.Coords) (_ : Nat) (_ : Unit) : sProp 𝕄 :=
  iprop((∃ g, (t2).view.loc (thr d L) ↦{fullShare} g) ∗ (∃ g, (t4).view.loc (thr d L) ↦{fullShare} g))

theorem region_t1 (d : Dev nD) (L : grid0.Coords) (v2 : BitVec 32) (v624 : Vec F S16 .f32) :
    ∀ (k : Fin k0_t1_loop.trips) (acc : Unit), invT1 (F := F) d L k.val acc ⊢
      wp frame (wpE (defs₀ (F := F)) 𝒱₀ (thr d L) none) Set.univ
        (k0_t1_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invT1 (F := F) d L (k.val + 1)) := by
  intro k _
  unfold invT1
  iintro ⟨⟨%g2, H2⟩, ⟨%g4, H4⟩⟩
  sl_exec (disch := first | sl_decide | (revert k; decide +kernel))
  repeat (iapply (wp_gather_bind 𝒱₀ (thr d L) none Set.univ); sl_exec (disch := first | sl_decide | (revert k; decide +kernel)))
  sl_step
  isplitl [H2]
  · iexists _; iexact H2
  · iexists _; iexact H4

end Cert.Proof.KB

end
-- ==== Proof.LibLanes.lean ====
/-
  General lemmas for the in-range checks of a SparseCore body's indexed loads and stores (`load_gather`,
  `store_scatter`, `addupdate_scatter`), for any lane count and any array extents. Nothing here mentions a program.

  A printed body assumes, before each indexed access, that every lane of each index vector names a coordinate inside the
  base array: `∀ a x, ((![v₀, …] : Fin r → IVec t 32) a x).toNat < s.size a`. Each check definition of a printed program
  unfolds to that proposition, so the lemmas below prove it whatever the check's name is:

  * `idx1_ok`, `idx2_ok`: the one- and two-coordinate shapes, from a bound per index vector.
  * `bcast_lt`: a constant column / row (a broadcast scalar) is below any bound its value is below.
  * `lane_apply`, `lane_toNat`: the lane counter (`tpu.iota` over axis 0 of a rank-one vector) at lane x is x.
  * `iv01`, `iv01_toNat`: the induction variable of a loop from 0 by 1 at trip k is k.
  * `addi_lit_toNat`, `muli_lit_toNat`: a word plus / times a literal, read unsigned, when nothing overflows.
  * `row_lane_lt`: the index vector "trip base + lane" (a broadcast k·n plus the lane counter) is below trips·n.
  * `readAt_lt`: the lanes a plain vector load reads out of a scratch inherit a bound every entry of the scratch has
    (an index list copied in from an array whose entries the precondition bounds).
-/
import Idealize.ShloMosaic.Lib.ValueIdx
import Idealize.ShloMosaic.Lib.Scf
import Idealize.ShloMosaic.Signature.View
import Mathlib.Tactic

noncomputable section

namespace Cert.Lib

open Idealize.ShloMosaic

/-- One index vector below the array's only extent names elements of the array. -/
theorem idx1_ok {t : Shape} {n : Nat} (A : IVec t 32) (hA : ∀ x, (A x).toNat < n) :
    ∀ a x, ((![A] : Fin 1 → IVec t 32) a x).toNat < (⟨1, ![n]⟩ : Shape).size a := by
  intro a x
  match a with
  | ⟨0, _⟩ => exact hA x

/-- A row index vector below the row extent beside a column index vector below the column extent names elements of the array. -/
theorem idx2_ok {t : Shape} {n m : Nat} (A B : IVec t 32) (hA : ∀ x, (A x).toNat < n) (hB : ∀ x, (B x).toNat < m) :
    ∀ a x, ((![A, B] : Fin 2 → IVec t 32) a x).toNat < (⟨2, ![n, m]⟩ : Shape).size a := by
  intro a x
  match a with
  | ⟨0, _⟩ => exact hA x
  | ⟨1, _⟩ => exact hB x

/-- A broadcast word is below whatever the word is below, at every lane. -/
theorem bcast_lt {t : Shape} (c : BitVec 32) (n : Nat) (hc : c.toNat < n) : ∀ x, ((broadcast t c : IVec t 32) x).toNat < n :=
  fun _ => hc

/-- The lane counter at lane x is the word x. -/
theorem lane_apply {κ : Kind} {n : Nat} (h : (⟨1, ![n]⟩ : Shape).Iotas κ 32 [0]) (x : (⟨1, ![n]⟩ : Shape).Idx) :
    (iota κ ⟨1, ![n]⟩ 32 [0] h : IVec ⟨1, ![n]⟩ 32) x = BitVec.ofNat 32 (x 0).val := by
  simp [iota]

/-- The lane counter at lane x, read unsigned, is x (for fewer than 2³² lanes). -/
theorem lane_toNat {κ : Kind} {n : Nat} (hn : n ≤ 2 ^ 32) (h : (⟨1, ![n]⟩ : Shape).Iotas κ 32 [0]) (x : (⟨1, ![n]⟩ : Shape).Idx) :
    ((iota κ ⟨1, ![n]⟩ 32 [0] h : IVec ⟨1, ![n]⟩ 32) x).toNat = (x 0).val := by
  have hx : (x 0).val < n := (x 0).isLt
  rw [lane_apply, BitVec.toNat_ofNat]
  omega

/-- The induction variable of a loop from 0 by 1, at trip k. -/
theorem iv01 (k : Nat) : Scf.iv (0#32) (1#32) k = BitVec.ofNat 32 k := by simp [Scf.iv]

theorem iv01_toNat (k : Nat) (hk : k < 2 ^ 32) : (Scf.iv (0#32) (1#32) k).toNat = k := by
  rw [iv01, BitVec.toNat_ofNat]; omega

/-- A word plus a literal, read unsigned, when the sum does not overflow. -/
theorem addi_lit_toNat (w : BitVec 32) (c m : Nat) (hw : w.toNat < m) (hm : m + c < 2 ^ 32) :
    (IntOp.addi w (BitVec.ofNat 32 c)).toNat = w.toNat + c := by
  simp only [IntOp.addi, BitVec.toNat_add, BitVec.toNat_ofNat]
  omega

/-- A word times a literal, read unsigned, when the product does not overflow. -/
theorem muli_lit_toNat (w : BitVec 32) (c m : Nat) (hw : w.toNat < m) (hm : m * c < 2 ^ 32) :
    (IntOp.muli w (BitVec.ofNat 32 c)).toNat = w.toNat * c := by
  have h1 : w.toNat * c ≤ m * c := Nat.mul_le_mul_right c (Nat.le_of_lt hw)
  rcases Nat.eq_zero_or_pos c with hc | hc
  · subst hc; simp [IntOp.muli]
  · have hc2 : c < 2 ^ 32 := lt_of_le_of_lt (Nat.le_mul_of_pos_left c (Nat.pos_of_ne_zero (by rintro rfl; omega))) hm
    simp only [IntOp.muli, BitVec.toNat_mul, BitVec.toNat_ofNat, Nat.mod_eq_of_lt hc2]
    exact Nat.mod_eq_of_lt (lt_of_le_of_lt h1 hm)

/-- "Trip base plus lane": the broadcast of k·n plus the lane counter, at a trip k below `trips`, is below trips·n. -/
theorem row_lane_lt {κ : Kind} {n trips : Nat} (hb : trips * n < 2 ^ 32) (h : (⟨1, ![n]⟩ : Shape).Iotas κ 32 [0])
    (k : Nat) (hk : k < trips) :
    ∀ x, ((addi (broadcast ⟨1, ![n]⟩ (Scalar.muli (Scf.iv (0#32) (1#32) k) (BitVec.ofNat 32 n))) (iota κ ⟨1, ![n]⟩ 32 [0] h) : IVec ⟨1, ![n]⟩ 32) x).toNat
      < trips * n := by
  intro x
  have hx : (x 0).val < n := (x 0).isLt
  have hkn : k * n + n ≤ trips * n := by
    calc k * n + n = (k + 1) * n := by ring
      _ ≤ trips * n := Nat.mul_le_mul_right n hk
  have hk32 : k < 2 ^ 32 := by
    rcases Nat.eq_zero_or_pos n with hn | hn
    · subst hn; exact absurd hx (Nat.not_lt_zero _)
    · exact lt_of_le_of_lt (Nat.le_mul_of_pos_right k hn) (lt_of_lt_of_le (by omega) (Nat.le_of_lt hb))
  have hn32 : n < 2 ^ 32 := by
    have : n ≤ trips * n := Nat.le_mul_of_pos_left n (by omega)
    omega
  show (IntOp.addi (Scalar.muli (Scf.iv (0#32) (1#32) k) (BitVec.ofNat 32 n)) ((iota κ ⟨1, ![n]⟩ 32 [0] h : IVec ⟨1, ![n]⟩ 32) x)).toNat < trips * n
  rw [lane_apply, iv01]
  have e1 : (Scalar.muli (BitVec.ofNat 32 k) (BitVec.ofNat 32 n)).toNat = k * n := by
    simp only [Scalar.muli, IntOp.muli, BitVec.toNat_mul, BitVec.toNat_ofNat, Nat.mod_eq_of_lt hk32, Nat.mod_eq_of_lt hn32]
    exact Nat.mod_eq_of_lt (by omega)
  have e2 : (BitVec.ofNat 32 (x 0).val).toNat = (x 0).val := by rw [BitVec.toNat_ofNat]; omega
  simp only [IntOp.addi, BitVec.toNat_add, e1, e2]
  rw [Nat.mod_eq_of_lt (by omega)]
  omega

/-- The lanes a plain vector load reads out of a view of 32-bit words inherit a bound that every word the view reads has. -/
theorem readAt_lt {sig : RefSig} {κ : Kind} {sp : Space} {s : Shape} {F : FTy → Type} (v : View sig κ sp s .i32) (r : LoadRect s)
    (f : v.ty.Contents (Elt F)) (n : Nat) (hf : ∀ j, (v.read (Elt F) f j).toNat < n) :
    ∀ x, (v.readAt (Elt F) r f x).toNat < n :=
  fun x => hf (r.idx x)

end Cert.Lib

end
-- ==== Proof.LibWordIdx.lean ====
/-
  General lemmas on 32-bit words read unsigned, for the in-range checks of indexed loads whose index vectors are made
  of LOADED words: a word masked by a literal is at most the literal; words below eight packed three bits apiece
  (shifted left by nine, six and three places and or-ed) name an entry of a table of 4096; a lane of a gather out of a
  scratch inherits a bound every entry of the scratch has. Nothing here mentions a program.
-/
import Idealize.ShloMosaic.PureOps.Vector
import Idealize.ShloMosaic.PureOps.ShapeOps
import Idealize.ShloMosaic.Signature.View
import Mathlib.Tactic
import proofs.«206987_g17583596110038_cont_8to1_771_12_alg».proof.Proof.LibLanes

noncomputable section

namespace Cert.Lib

open Idealize.ShloMosaic

/-- A word masked by a literal, read unsigned, is at most the literal. -/
theorem andi_lit_le (w : BitVec 32) (c : Nat) (hc : c < 2 ^ 32) : (IntOp.andi w (BitVec.ofNat 32 c)).toNat ≤ c := by
  simp only [IntOp.andi, BitVec.toNat_and, BitVec.toNat_ofNat, Nat.mod_eq_of_lt hc]
  exact Nat.and_le_right

/-- A word below 2^k shifted left by a literal s, read unsigned, is below 2^(k+s) (k + s at most 32). -/
theorem shli_lit_lt (kd : ArithUnit) (w : BitVec 32) (k s : Nat) (hw : w.toNat < 2 ^ k) (hs : k + s ≤ 32) :
    (IntOp.shli kd w (BitVec.ofNat 32 s)).toNat < 2 ^ (k + s) := by
  have hs32 : s < 32 ∨ s = 32 := by omega
  have hs' : s < 2 ^ 32 := by omega
  have e : (BitVec.ofNat 32 s).toNat = s := by rw [BitVec.toNat_ofNat]; exact Nat.mod_eq_of_lt hs'
  rcases hs32 with h | h
  · have : (IntOp.shli kd w (BitVec.ofNat 32 s)) = w <<< (BitVec.ofNat 32 s) := by
      unfold IntOp.shli; rw [if_pos (by rw [e]; exact h)]
    rw [this, BitVec.shiftLeft_eq', e, BitVec.toNat_shiftLeft, Nat.shiftLeft_eq]
    have h1 : w.toNat * 2 ^ s < 2 ^ k * 2 ^ s := Nat.mul_lt_mul_of_pos_right hw (Nat.two_pow_pos s)
    rw [← pow_add] at h1
    exact lt_of_le_of_lt (Nat.mod_le _ _) h1
  · subst h
    have hk : k = 0 := by omega
    subst hk
    have hw0 : w = 0#32 := by apply BitVec.eq_of_toNat_eq; simpa using hw
    subst hw0
    have : (IntOp.shli kd (0#32) (BitVec.ofNat 32 32)).toNat < 2 ^ 32 := (IntOp.shli kd (0#32) (BitVec.ofNat 32 32)).isLt
    simpa using this

/-- The or of two words below 2^n is below 2^n. -/
theorem ori_lt (a b : BitVec 32) (n : Nat) (ha : a.toNat < 2 ^ n) (hb : b.toNat < 2 ^ n) : (IntOp.ori a b).toNat < 2 ^ n := by
  simp only [IntOp.ori, BitVec.toNat_or]
  exact Nat.or_lt_two_pow ha hb

/-- Four words below eight packed three bits apiece name an entry of a table of 4096. -/
theorem pack4_lt (kd : ArithUnit) (a b c d : BitVec 32) (ha : a.toNat < 8) (hb : b.toNat < 8) (hc : c.toNat < 8) (hd : d.toNat < 8) :
    (IntOp.ori (IntOp.ori (IntOp.ori (IntOp.shli kd a 9#32) (IntOp.shli kd b 6#32)) (IntOp.shli kd c 3#32)) d).toNat < 4096 := by
  have h1 : (IntOp.shli kd a 9#32).toNat < 2 ^ 12 := shli_lit_lt kd a 3 9 ha (by omega)
  have h2 : (IntOp.shli kd b 6#32).toNat < 2 ^ 12 := lt_of_lt_of_le (shli_lit_lt kd b 3 6 hb (by omega)) (by norm_num)
  have h3 : (IntOp.shli kd c 3#32).toNat < 2 ^ 12 := lt_of_lt_of_le (shli_lit_lt kd c 3 3 hc (by omega)) (by norm_num)
  have h4 : d.toNat < 2 ^ 12 := by omega
  exact ori_lt _ _ 12 (ori_lt _ _ 12 (ori_lt _ _ 12 h1 h2) h3) h4

/-- A lane of a gather out of a scratch of 32-bit words is at most a bound every word the scratch's view reads is at most. -/
theorem gather_le {F : FTy → Type} {sig : RefSig} {κ : Kind} {sp : Space} {s t : Shape} (v : View sig κ sp s .i32)
    (f : v.ty.Contents (Elt F)) (n : Nat) (hf : ∀ j, (v.read (Elt F) f j).toNat ≤ n)
    (idxs : Fin s.rank → IVec t 32) (h : ∀ a x, (idxs a x).toNat < s.size a) :
    ∀ x, (loadIdx (v.readAt (Elt F) (LoadRect.whole s) f) idxs h x).toNat ≤ n :=
  fun x => hf ((LoadRect.whole s).idx (idxAt idxs h x))

/-- The index vector packed out of four vectors of words at most six names entries of a table of 4096. -/
theorem pack4_ok {t : Shape} (a b c d : IVec t 32) (ha : ∀ x, (a x).toNat ≤ 6) (hb : ∀ x, (b x).toNat ≤ 6)
    (hc : ∀ x, (c x).toNat ≤ 6) (hd : ∀ x, (d x).toNat ≤ 6) :
    ∀ (ax : Fin 1) (x : t.Idx), ((![ori (ori (ori (shli a (broadcast t 9#32)) (shli b (broadcast t 6#32))) (shli c (broadcast t 3#32))) d] : Fin 1 → IVec t 32) ax x).toNat
      < (⟨1, ![4096]⟩ : Shape).size ax := by
  refine idx1_ok _ fun x => ?_
  exact pack4_lt .vector (a x) (b x) (c x) (d x) (by have := ha x; omega) (by have := hb x; omega) (by have := hc x; omega) (by have := hd x; omega)

/-- Lane x times seventeen plus a word masked to three bits names an entry of a table of 272, for sixteen lanes. -/
theorem lane17_ok {κ : Kind} (h : (⟨1, ![16]⟩ : Shape).Iotas κ 32 [0]) (m : IVec ⟨1, ![16]⟩ 32) :
    ∀ (ax : Fin 1) (x : (⟨1, ![16]⟩ : Shape).Idx),
      ((![addi (muli (iota κ ⟨1, ![16]⟩ 32 [0] h) (broadcast ⟨1, ![16]⟩ 17#32)) (andi m (broadcast ⟨1, ![16]⟩ 7#32))] : Fin 1 → IVec ⟨1, ![16]⟩ 32) ax x).toNat
        < (⟨1, ![272]⟩ : Shape).size ax := by
  refine idx1_ok _ fun x => ?_
  have hx : (x 0).val < 16 := by have h0 := (x 0).isLt; simpa using h0
  have hm : (IntOp.andi (m x) 7#32).toNat ≤ 7 := andi_lit_le (m x) 7 (by norm_num)
  have hl : ((iota κ ⟨1, ![16]⟩ 32 [0] h : IVec ⟨1, ![16]⟩ 32) x).toNat = (x 0).val := lane_toNat (by norm_num) h x
  have hmul : (IntOp.muli ((iota κ ⟨1, ![16]⟩ 32 [0] h : IVec ⟨1, ![16]⟩ 32) x) 17#32).toNat = (x 0).val * 17 := by
    have := muli_lit_toNat ((iota κ ⟨1, ![16]⟩ 32 [0] h : IVec ⟨1, ![16]⟩ 32) x) 17 16 (by omega) (by norm_num)
    rw [hl] at this; exact this
  show (IntOp.addi (IntOp.muli ((iota κ ⟨1, ![16]⟩ 32 [0] h : IVec ⟨1, ![16]⟩ 32) x) 17#32) (IntOp.andi (m x) 7#32)).toNat < 272
  simp only [IntOp.addi, BitVec.toNat_add, hmul]
  rw [Nat.mod_eq_of_lt (by omega)]
  omega

end Cert.Lib

end
-- ==== Proof.KB.Offs.lean ====
/-
  The offsets at which a row group's sixteen lane vectors are stored into the lane scratch, in closed form: the
  trip's parity times 256 (the scratch has two halves, used alternately) plus sixteen times the row. One equation per
  store and per chunk loop, each by evaluation at the loop's eight trips.
-/
import proofs.«206987_g17583596110038_cont_8to1_771_12_alg».proof.Proof.Gen.Kernel
import Idealize.ShloMosaic.Lib.Exec

set_option Elab.async false

namespace Cert.Proof.KB

open Cert.Kernel Cert.Kernel.Gen
open Idealize.ShloMosaic Idealize.SL.Sem

theorem k0_off12_eq : ∀ k : Fin k0_t2_loop.trips, k0_off12 k = ![k.val % 2 * 256 + 0] := by decide +kernel
instance closedOff_k0_off12 (k : Fin k0_t2_loop.trips) : ClosedOff (k0_off12 k) := ⟨![k.val % 2 * 256 + 0], k0_off12_eq k⟩
theorem k0_off13_eq : ∀ k : Fin k0_t2_loop.trips, k0_off13 k = ![k.val % 2 * 256 + 16] := by decide +kernel
instance closedOff_k0_off13 (k : Fin k0_t2_loop.trips) : ClosedOff (k0_off13 k) := ⟨![k.val % 2 * 256 + 16], k0_off13_eq k⟩
theorem k0_off14_eq : ∀ k : Fin k0_t2_loop.trips, k0_off14 k = ![k.val % 2 * 256 + 32] := by decide +kernel
instance closedOff_k0_off14 (k : Fin k0_t2_loop.trips) : ClosedOff (k0_off14 k) := ⟨![k.val % 2 * 256 + 32], k0_off14_eq k⟩
theorem k0_off15_eq : ∀ k : Fin k0_t2_loop.trips, k0_off15 k = ![k.val % 2 * 256 + 48] := by decide +kernel
instance closedOff_k0_off15 (k : Fin k0_t2_loop.trips) : ClosedOff (k0_off15 k) := ⟨![k.val % 2 * 256 + 48], k0_off15_eq k⟩
theorem k0_off16_eq : ∀ k : Fin k0_t2_loop.trips, k0_off16 k = ![k.val % 2 * 256 + 64] := by decide +kernel
instance closedOff_k0_off16 (k : Fin k0_t2_loop.trips) : ClosedOff (k0_off16 k) := ⟨![k.val % 2 * 256 + 64], k0_off16_eq k⟩
theorem k0_off17_eq : ∀ k : Fin k0_t2_loop.trips, k0_off17 k = ![k.val % 2 * 256 + 80] := by decide +kernel
instance closedOff_k0_off17 (k : Fin k0_t2_loop.trips) : ClosedOff (k0_off17 k) := ⟨![k.val % 2 * 256 + 80], k0_off17_eq k⟩
theorem k0_off18_eq : ∀ k : Fin k0_t2_loop.trips, k0_off18 k = ![k.val % 2 * 256 + 96] := by decide +kernel
instance closedOff_k0_off18 (k : Fin k0_t2_loop.trips) : ClosedOff (k0_off18 k) := ⟨![k.val % 2 * 256 + 96], k0_off18_eq k⟩
theorem k0_off19_eq : ∀ k : Fin k0_t2_loop.trips, k0_off19 k = ![k.val % 2 * 256 + 112] := by decide +kernel
instance closedOff_k0_off19 (k : Fin k0_t2_loop.trips) : ClosedOff (k0_off19 k) := ⟨![k.val % 2 * 256 + 112], k0_off19_eq k⟩
theorem k0_off20_eq : ∀ k : Fin k0_t2_loop.trips, k0_off20 k = ![k.val % 2 * 256 + 128] := by decide +kernel
instance closedOff_k0_off20 (k : Fin k0_t2_loop.trips) : ClosedOff (k0_off20 k) := ⟨![k.val % 2 * 256 + 128], k0_off20_eq k⟩
theorem k0_off21_eq : ∀ k : Fin k0_t2_loop.trips, k0_off21 k = ![k.val % 2 * 256 + 144] := by decide +kernel
instance closedOff_k0_off21 (k : Fin k0_t2_loop.trips) : ClosedOff (k0_off21 k) := ⟨![k.val % 2 * 256 + 144], k0_off21_eq k⟩
theorem k0_off22_eq : ∀ k : Fin k0_t2_loop.trips, k0_off22 k = ![k.val % 2 * 256 + 160] := by decide +kernel
instance closedOff_k0_off22 (k : Fin k0_t2_loop.trips) : ClosedOff (k0_off22 k) := ⟨![k.val % 2 * 256 + 160], k0_off22_eq k⟩
theorem k0_off23_eq : ∀ k : Fin k0_t2_loop.trips, k0_off23 k = ![k.val % 2 * 256 + 176] := by decide +kernel
instance closedOff_k0_off23 (k : Fin k0_t2_loop.trips) : ClosedOff (k0_off23 k) := ⟨![k.val % 2 * 256 + 176], k0_off23_eq k⟩
theorem k0_off24_eq : ∀ k : Fin k0_t2_loop.trips, k0_off24 k = ![k.val % 2 * 256 + 192] := by decide +kernel
instance closedOff_k0_off24 (k : Fin k0_t2_loop.trips) : ClosedOff (k0_off24 k) := ⟨![k.val % 2 * 256 + 192], k0_off24_eq k⟩
theorem k0_off25_eq : ∀ k : Fin k0_t2_loop.trips, k0_off25 k = ![k.val % 2 * 256 + 208] := by decide +kernel
instance closedOff_k0_off25 (k : Fin k0_t2_loop.trips) : ClosedOff (k0_off25 k) := ⟨![k.val % 2 * 256 + 208], k0_off25_eq k⟩
theorem k0_off26_eq : ∀ k : Fin k0_t2_loop.trips, k0_off26 k = ![k.val % 2 * 256 + 224] := by decide +kernel
instance closedOff_k0_off26 (k : Fin k0_t2_loop.trips) : ClosedOff (k0_off26 k) := ⟨![k.val % 2 * 256 + 224], k0_off26_eq k⟩
theorem k0_off27_eq : ∀ k : Fin k0_t2_loop.trips, k0_off27 k = ![k.val % 2 * 256 + 240] := by decide +kernel
instance closedOff_k0_off27 (k : Fin k0_t2_loop.trips) : ClosedOff (k0_off27 k) := ⟨![k.val % 2 * 256 + 240], k0_off27_eq k⟩
theorem k0_off30_eq : ∀ k : Fin k0_t3_loop.trips, k0_off30 k = ![k.val % 2 * 256 + 0] := by decide +kernel
instance closedOff_k0_off30 (k : Fin k0_t3_loop.trips) : ClosedOff (k0_off30 k) := ⟨![k.val % 2 * 256 + 0], k0_off30_eq k⟩
theorem k0_off31_eq : ∀ k : Fin k0_t3_loop.trips, k0_off31 k = ![k.val % 2 * 256 + 16] := by decide +kernel
instance closedOff_k0_off31 (k : Fin k0_t3_loop.trips) : ClosedOff (k0_off31 k) := ⟨![k.val % 2 * 256 + 16], k0_off31_eq k⟩
theorem k0_off32_eq : ∀ k : Fin k0_t3_loop.trips, k0_off32 k = ![k.val % 2 * 256 + 32] := by decide +kernel
instance closedOff_k0_off32 (k : Fin k0_t3_loop.trips) : ClosedOff (k0_off32 k) := ⟨![k.val % 2 * 256 + 32], k0_off32_eq k⟩
theorem k0_off33_eq : ∀ k : Fin k0_t3_loop.trips, k0_off33 k = ![k.val % 2 * 256 + 48] := by decide +kernel
instance closedOff_k0_off33 (k : Fin k0_t3_loop.trips) : ClosedOff (k0_off33 k) := ⟨![k.val % 2 * 256 + 48], k0_off33_eq k⟩
theorem k0_off34_eq : ∀ k : Fin k0_t3_loop.trips, k0_off34 k = ![k.val % 2 * 256 + 64] := by decide +kernel
instance closedOff_k0_off34 (k : Fin k0_t3_loop.trips) : ClosedOff (k0_off34 k) := ⟨![k.val % 2 * 256 + 64], k0_off34_eq k⟩
theorem k0_off35_eq : ∀ k : Fin k0_t3_loop.trips, k0_off35 k = ![k.val % 2 * 256 + 80] := by decide +kernel
instance closedOff_k0_off35 (k : Fin k0_t3_loop.trips) : ClosedOff (k0_off35 k) := ⟨![k.val % 2 * 256 + 80], k0_off35_eq k⟩
theorem k0_off36_eq : ∀ k : Fin k0_t3_loop.trips, k0_off36 k = ![k.val % 2 * 256 + 96] := by decide +kernel
instance closedOff_k0_off36 (k : Fin k0_t3_loop.trips) : ClosedOff (k0_off36 k) := ⟨![k.val % 2 * 256 + 96], k0_off36_eq k⟩
theorem k0_off37_eq : ∀ k : Fin k0_t3_loop.trips, k0_off37 k = ![k.val % 2 * 256 + 112] := by decide +kernel
instance closedOff_k0_off37 (k : Fin k0_t3_loop.trips) : ClosedOff (k0_off37 k) := ⟨![k.val % 2 * 256 + 112], k0_off37_eq k⟩
theorem k0_off38_eq : ∀ k : Fin k0_t3_loop.trips, k0_off38 k = ![k.val % 2 * 256 + 128] := by decide +kernel
instance closedOff_k0_off38 (k : Fin k0_t3_loop.trips) : ClosedOff (k0_off38 k) := ⟨![k.val % 2 * 256 + 128], k0_off38_eq k⟩
theorem k0_off39_eq : ∀ k : Fin k0_t3_loop.trips, k0_off39 k = ![k.val % 2 * 256 + 144] := by decide +kernel
instance closedOff_k0_off39 (k : Fin k0_t3_loop.trips) : ClosedOff (k0_off39 k) := ⟨![k.val % 2 * 256 + 144], k0_off39_eq k⟩
theorem k0_off40_eq : ∀ k : Fin k0_t3_loop.trips, k0_off40 k = ![k.val % 2 * 256 + 160] := by decide +kernel
instance closedOff_k0_off40 (k : Fin k0_t3_loop.trips) : ClosedOff (k0_off40 k) := ⟨![k.val % 2 * 256 + 160], k0_off40_eq k⟩
theorem k0_off41_eq : ∀ k : Fin k0_t3_loop.trips, k0_off41 k = ![k.val % 2 * 256 + 176] := by decide +kernel
instance closedOff_k0_off41 (k : Fin k0_t3_loop.trips) : ClosedOff (k0_off41 k) := ⟨![k.val % 2 * 256 + 176], k0_off41_eq k⟩
theorem k0_off42_eq : ∀ k : Fin k0_t3_loop.trips, k0_off42 k = ![k.val % 2 * 256 + 192] := by decide +kernel
instance closedOff_k0_off42 (k : Fin k0_t3_loop.trips) : ClosedOff (k0_off42 k) := ⟨![k.val % 2 * 256 + 192], k0_off42_eq k⟩
theorem k0_off43_eq : ∀ k : Fin k0_t3_loop.trips, k0_off43 k = ![k.val % 2 * 256 + 208] := by decide +kernel
instance closedOff_k0_off43 (k : Fin k0_t3_loop.trips) : ClosedOff (k0_off43 k) := ⟨![k.val % 2 * 256 + 208], k0_off43_eq k⟩
theorem k0_off44_eq : ∀ k : Fin k0_t3_loop.trips, k0_off44 k = ![k.val % 2 * 256 + 224] := by decide +kernel
instance closedOff_k0_off44 (k : Fin k0_t3_loop.trips) : ClosedOff (k0_off44 k) := ⟨![k.val % 2 * 256 + 224], k0_off44_eq k⟩
theorem k0_off45_eq : ∀ k : Fin k0_t3_loop.trips, k0_off45 k = ![k.val % 2 * 256 + 240] := by decide +kernel
instance closedOff_k0_off45 (k : Fin k0_t3_loop.trips) : ClosedOff (k0_off45 k) := ⟨![k.val % 2 * 256 + 240], k0_off45_eq k⟩
theorem k0_off48_eq : ∀ k : Fin k0_t4_loop.trips, k0_off48 k = ![k.val % 2 * 256 + 0] := by decide +kernel
instance closedOff_k0_off48 (k : Fin k0_t4_loop.trips) : ClosedOff (k0_off48 k) := ⟨![k.val % 2 * 256 + 0], k0_off48_eq k⟩
theorem k0_off49_eq : ∀ k : Fin k0_t4_loop.trips, k0_off49 k = ![k.val % 2 * 256 + 16] := by decide +kernel
instance closedOff_k0_off49 (k : Fin k0_t4_loop.trips) : ClosedOff (k0_off49 k) := ⟨![k.val % 2 * 256 + 16], k0_off49_eq k⟩
theorem k0_off50_eq : ∀ k : Fin k0_t4_loop.trips, k0_off50 k = ![k.val % 2 * 256 + 32] := by decide +kernel
instance closedOff_k0_off50 (k : Fin k0_t4_loop.trips) : ClosedOff (k0_off50 k) := ⟨![k.val % 2 * 256 + 32], k0_off50_eq k⟩
theorem k0_off51_eq : ∀ k : Fin k0_t4_loop.trips, k0_off51 k = ![k.val % 2 * 256 + 48] := by decide +kernel
instance closedOff_k0_off51 (k : Fin k0_t4_loop.trips) : ClosedOff (k0_off51 k) := ⟨![k.val % 2 * 256 + 48], k0_off51_eq k⟩
theorem k0_off52_eq : ∀ k : Fin k0_t4_loop.trips, k0_off52 k = ![k.val % 2 * 256 + 64] := by decide +kernel
instance closedOff_k0_off52 (k : Fin k0_t4_loop.trips) : ClosedOff (k0_off52 k) := ⟨![k.val % 2 * 256 + 64], k0_off52_eq k⟩
theorem k0_off53_eq : ∀ k : Fin k0_t4_loop.trips, k0_off53 k = ![k.val % 2 * 256 + 80] := by decide +kernel
instance closedOff_k0_off53 (k : Fin k0_t4_loop.trips) : ClosedOff (k0_off53 k) := ⟨![k.val % 2 * 256 + 80], k0_off53_eq k⟩
theorem k0_off54_eq : ∀ k : Fin k0_t4_loop.trips, k0_off54 k = ![k.val % 2 * 256 + 96] := by decide +kernel
instance closedOff_k0_off54 (k : Fin k0_t4_loop.trips) : ClosedOff (k0_off54 k) := ⟨![k.val % 2 * 256 + 96], k0_off54_eq k⟩
theorem k0_off55_eq : ∀ k : Fin k0_t4_loop.trips, k0_off55 k = ![k.val % 2 * 256 + 112] := by decide +kernel
instance closedOff_k0_off55 (k : Fin k0_t4_loop.trips) : ClosedOff (k0_off55 k) := ⟨![k.val % 2 * 256 + 112], k0_off55_eq k⟩
theorem k0_off56_eq : ∀ k : Fin k0_t4_loop.trips, k0_off56 k = ![k.val % 2 * 256 + 128] := by decide +kernel
instance closedOff_k0_off56 (k : Fin k0_t4_loop.trips) : ClosedOff (k0_off56 k) := ⟨![k.val % 2 * 256 + 128], k0_off56_eq k⟩
theorem k0_off57_eq : ∀ k : Fin k0_t4_loop.trips, k0_off57 k = ![k.val % 2 * 256 + 144] := by decide +kernel
instance closedOff_k0_off57 (k : Fin k0_t4_loop.trips) : ClosedOff (k0_off57 k) := ⟨![k.val % 2 * 256 + 144], k0_off57_eq k⟩
theorem k0_off58_eq : ∀ k : Fin k0_t4_loop.trips, k0_off58 k = ![k.val % 2 * 256 + 160] := by decide +kernel
instance closedOff_k0_off58 (k : Fin k0_t4_loop.trips) : ClosedOff (k0_off58 k) := ⟨![k.val % 2 * 256 + 160], k0_off58_eq k⟩
theorem k0_off59_eq : ∀ k : Fin k0_t4_loop.trips, k0_off59 k = ![k.val % 2 * 256 + 176] := by decide +kernel
instance closedOff_k0_off59 (k : Fin k0_t4_loop.trips) : ClosedOff (k0_off59 k) := ⟨![k.val % 2 * 256 + 176], k0_off59_eq k⟩
theorem k0_off60_eq : ∀ k : Fin k0_t4_loop.trips, k0_off60 k = ![k.val % 2 * 256 + 192] := by decide +kernel
instance closedOff_k0_off60 (k : Fin k0_t4_loop.trips) : ClosedOff (k0_off60 k) := ⟨![k.val % 2 * 256 + 192], k0_off60_eq k⟩
theorem k0_off61_eq : ∀ k : Fin k0_t4_loop.trips, k0_off61 k = ![k.val % 2 * 256 + 208] := by decide +kernel
instance closedOff_k0_off61 (k : Fin k0_t4_loop.trips) : ClosedOff (k0_off61 k) := ⟨![k.val % 2 * 256 + 208], k0_off61_eq k⟩
theorem k0_off62_eq : ∀ k : Fin k0_t4_loop.trips, k0_off62 k = ![k.val % 2 * 256 + 224] := by decide +kernel
instance closedOff_k0_off62 (k : Fin k0_t4_loop.trips) : ClosedOff (k0_off62 k) := ⟨![k.val % 2 * 256 + 224], k0_off62_eq k⟩
theorem k0_off63_eq : ∀ k : Fin k0_t4_loop.trips, k0_off63 k = ![k.val % 2 * 256 + 240] := by decide +kernel
instance closedOff_k0_off63 (k : Fin k0_t4_loop.trips) : ClosedOff (k0_off63 k) := ⟨![k.val % 2 * 256 + 240], k0_off63_eq k⟩
theorem k0_off66_eq : ∀ k : Fin k0_t5_loop.trips, k0_off66 k = ![k.val % 2 * 256 + 0] := by decide +kernel
instance closedOff_k0_off66 (k : Fin k0_t5_loop.trips) : ClosedOff (k0_off66 k) := ⟨![k.val % 2 * 256 + 0], k0_off66_eq k⟩
theorem k0_off67_eq : ∀ k : Fin k0_t5_loop.trips, k0_off67 k = ![k.val % 2 * 256 + 16] := by decide +kernel
instance closedOff_k0_off67 (k : Fin k0_t5_loop.trips) : ClosedOff (k0_off67 k) := ⟨![k.val % 2 * 256 + 16], k0_off67_eq k⟩
theorem k0_off68_eq : ∀ k : Fin k0_t5_loop.trips, k0_off68 k = ![k.val % 2 * 256 + 32] := by decide +kernel
instance closedOff_k0_off68 (k : Fin k0_t5_loop.trips) : ClosedOff (k0_off68 k) := ⟨![k.val % 2 * 256 + 32], k0_off68_eq k⟩
theorem k0_off69_eq : ∀ k : Fin k0_t5_loop.trips, k0_off69 k = ![k.val % 2 * 256 + 48] := by decide +kernel
instance closedOff_k0_off69 (k : Fin k0_t5_loop.trips) : ClosedOff (k0_off69 k) := ⟨![k.val % 2 * 256 + 48], k0_off69_eq k⟩
theorem k0_off70_eq : ∀ k : Fin k0_t5_loop.trips, k0_off70 k = ![k.val % 2 * 256 + 64] := by decide +kernel
instance closedOff_k0_off70 (k : Fin k0_t5_loop.trips) : ClosedOff (k0_off70 k) := ⟨![k.val % 2 * 256 + 64], k0_off70_eq k⟩
theorem k0_off71_eq : ∀ k : Fin k0_t5_loop.trips, k0_off71 k = ![k.val % 2 * 256 + 80] := by decide +kernel
instance closedOff_k0_off71 (k : Fin k0_t5_loop.trips) : ClosedOff (k0_off71 k) := ⟨![k.val % 2 * 256 + 80], k0_off71_eq k⟩
theorem k0_off72_eq : ∀ k : Fin k0_t5_loop.trips, k0_off72 k = ![k.val % 2 * 256 + 96] := by decide +kernel
instance closedOff_k0_off72 (k : Fin k0_t5_loop.trips) : ClosedOff (k0_off72 k) := ⟨![k.val % 2 * 256 + 96], k0_off72_eq k⟩
theorem k0_off73_eq : ∀ k : Fin k0_t5_loop.trips, k0_off73 k = ![k.val % 2 * 256 + 112] := by decide +kernel
instance closedOff_k0_off73 (k : Fin k0_t5_loop.trips) : ClosedOff (k0_off73 k) := ⟨![k.val % 2 * 256 + 112], k0_off73_eq k⟩
theorem k0_off74_eq : ∀ k : Fin k0_t5_loop.trips, k0_off74 k = ![k.val % 2 * 256 + 128] := by decide +kernel
instance closedOff_k0_off74 (k : Fin k0_t5_loop.trips) : ClosedOff (k0_off74 k) := ⟨![k.val % 2 * 256 + 128], k0_off74_eq k⟩
theorem k0_off75_eq : ∀ k : Fin k0_t5_loop.trips, k0_off75 k = ![k.val % 2 * 256 + 144] := by decide +kernel
instance closedOff_k0_off75 (k : Fin k0_t5_loop.trips) : ClosedOff (k0_off75 k) := ⟨![k.val % 2 * 256 + 144], k0_off75_eq k⟩
theorem k0_off76_eq : ∀ k : Fin k0_t5_loop.trips, k0_off76 k = ![k.val % 2 * 256 + 160] := by decide +kernel
instance closedOff_k0_off76 (k : Fin k0_t5_loop.trips) : ClosedOff (k0_off76 k) := ⟨![k.val % 2 * 256 + 160], k0_off76_eq k⟩
theorem k0_off77_eq : ∀ k : Fin k0_t5_loop.trips, k0_off77 k = ![k.val % 2 * 256 + 176] := by decide +kernel
instance closedOff_k0_off77 (k : Fin k0_t5_loop.trips) : ClosedOff (k0_off77 k) := ⟨![k.val % 2 * 256 + 176], k0_off77_eq k⟩
theorem k0_off78_eq : ∀ k : Fin k0_t5_loop.trips, k0_off78 k = ![k.val % 2 * 256 + 192] := by decide +kernel
instance closedOff_k0_off78 (k : Fin k0_t5_loop.trips) : ClosedOff (k0_off78 k) := ⟨![k.val % 2 * 256 + 192], k0_off78_eq k⟩
theorem k0_off79_eq : ∀ k : Fin k0_t5_loop.trips, k0_off79 k = ![k.val % 2 * 256 + 208] := by decide +kernel
instance closedOff_k0_off79 (k : Fin k0_t5_loop.trips) : ClosedOff (k0_off79 k) := ⟨![k.val % 2 * 256 + 208], k0_off79_eq k⟩
theorem k0_off80_eq : ∀ k : Fin k0_t5_loop.trips, k0_off80 k = ![k.val % 2 * 256 + 224] := by decide +kernel
instance closedOff_k0_off80 (k : Fin k0_t5_loop.trips) : ClosedOff (k0_off80 k) := ⟨![k.val % 2 * 256 + 224], k0_off80_eq k⟩
theorem k0_off81_eq : ∀ k : Fin k0_t5_loop.trips, k0_off81 k = ![k.val % 2 * 256 + 240] := by decide +kernel
instance closedOff_k0_off81 (k : Fin k0_t5_loop.trips) : ClosedOff (k0_off81 k) := ⟨![k.val % 2 * 256 + 240], k0_off81_eq k⟩

end Cert.Proof.KB
-- ==== Proof.KB.RegionT2.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KB.Base
import proofs.«206987_g17583596110038_cont_8to1_771_12_alg».proof.Proof.LibWordIdx
import proofs.«206987_g17583596110038_cont_8to1_771_12_alg».proof.Proof.KB.Offs

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invA2 (d : Dev nD) (L : grid0.Coords) (_ : Nat) (_ : Unit) : sProp 𝕄 :=
  iprop((∃ fb, ((bA).view.loc (thr d L) ↦{fullShare} fb) ∗ ⌜∀ j, ((bA).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t2 (d : Dev nD) (L : grid0.Coords) (v2 : BitVec 32) (v624 : Vec F S16 .f32) :
    ∀ (k : Fin k0_t2_loop.trips) (acc : Unit), invA2 (F := F) d L k.val acc ⊢
      wp frame (wpE (defs₀ (F := F)) 𝒱₀ (thr d L) none) Set.univ
        (k0_t2_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invA2 (F := F) d L (k.val + 1)) := by
  intro k _
  unfold invA2
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KB

end
-- ==== Proof.KB.RegionT3.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KB.Base
import proofs.«206987_g17583596110038_cont_8to1_771_12_alg».proof.Proof.LibWordIdx
import proofs.«206987_g17583596110038_cont_8to1_771_12_alg».proof.Proof.KB.Offs

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invB3 (d : Dev nD) (L : grid0.Coords) (_ : Nat) (_ : Unit) : sProp 𝕄 :=
  iprop((∃ fb, ((bB).view.loc (thr d L) ↦{fullShare} fb) ∗ ⌜∀ j, ((bB).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t3 (d : Dev nD) (L : grid0.Coords) (v2 : BitVec 32) (v624 : Vec F S16 .f32) :
    ∀ (k : Fin k0_t3_loop.trips) (acc : Unit), invB3 (F := F) d L k.val acc ⊢
      wp frame (wpE (defs₀ (F := F)) 𝒱₀ (thr d L) none) Set.univ
        (k0_t3_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invB3 (F := F) d L (k.val + 1)) := by
  intro k _
  unfold invB3
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KB

end
-- ==== Proof.KB.RegionT4.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KB.Base
import proofs.«206987_g17583596110038_cont_8to1_771_12_alg».proof.Proof.LibWordIdx
import proofs.«206987_g17583596110038_cont_8to1_771_12_alg».proof.Proof.KB.Offs

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invA4 (d : Dev nD) (L : grid0.Coords) (_ : Nat) (_ : Unit) : sProp 𝕄 :=
  iprop((∃ fb, ((bA).view.loc (thr d L) ↦{fullShare} fb) ∗ ⌜∀ j, ((bA).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t4 (d : Dev nD) (L : grid0.Coords) (v2 : BitVec 32) (v624 : Vec F S16 .f32) :
    ∀ (k : Fin k0_t4_loop.trips) (acc : Unit), invA4 (F := F) d L k.val acc ⊢
      wp frame (wpE (defs₀ (F := F)) 𝒱₀ (thr d L) none) Set.univ
        (k0_t4_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invA4 (F := F) d L (k.val + 1)) := by
  intro k _
  unfold invA4
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KB

end
-- ==== Proof.KB.RegionT5.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KB.Base
import proofs.«206987_g17583596110038_cont_8to1_771_12_alg».proof.Proof.LibWordIdx
import proofs.«206987_g17583596110038_cont_8to1_771_12_alg».proof.Proof.KB.Offs

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invB5 (d : Dev nD) (L : grid0.Coords) (_ : Nat) (_ : Unit) : sProp 𝕄 :=
  iprop((∃ fb, ((bB).view.loc (thr d L) ↦{fullShare} fb) ∗ ⌜∀ j, ((bB).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t5 (d : Dev nD) (L : grid0.Coords) :
    ∀ (k : Fin k0_t5_loop.trips) (acc : Unit), invB5 (F := F) d L k.val acc ⊢
      wp frame (wpE (defs₀ (F := F)) 𝒱₀ (thr d L) none) Set.univ
        (k0_t5_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            (iota .scVector S16 32 [0] iota_S16_d0_w32_scVector) k0_pay1403 k0_pay1404 k0_pay1405 (k0_pay1406 (F := F)) k acc)
        (invB5 (F := F) d L (k.val + 1)) := by
  intro k _
  unfold invB5
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KB

end
-- ==== Proof.KB.Body.lean ====
/-
  One tile's whole task. The tile starts the copies of its first two chunks of species words, copies in the eight
  self energies and its 512 energies, builds three small tables out of the self energies (pair sums, a lane table, sums
  of four), then for each of its four chunks waits for the chunk, runs the row-group loop over it and starts the copy
  of the chunk after next into the buffer just freed; at the end it copies its 512 results out. Two buffers and two
  copy semaphores alternate, one copy at a time on each, and a buffer is read only between its copy's wait and the
  next copy's start. Every table index built out of loaded words is inside its table because the species words are
  0 … 6: a chunk buffer holds exactly what its copy landed, a slice of the species array.
-/
import proofs.«206987_g17583596110038_cont_8to1_771_12_alg».proof.Proof.KB.RegionT1
import proofs.«206987_g17583596110038_cont_8to1_771_12_alg».proof.Proof.KB.RegionT2
import proofs.«206987_g17583596110038_cont_8to1_771_12_alg».proof.Proof.KB.RegionT3
import proofs.«206987_g17583596110038_cont_8to1_771_12_alg».proof.Proof.KB.RegionT4
import proofs.«206987_g17583596110038_cont_8to1_771_12_alg».proof.Proof.KB.RegionT5

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

variable [FloatOps F]

/-- A chunk buffer overwritten whole by a landed copy holds the copy's words: bounded if they are. -/
theorem landedA (d : Dev nD) (L : grid0.Coords) (f p : Buf (Elt F) ((bA).view.loc (thr d L))) (hp : ∀ j, (p j).toNat ≤ 6) :
    ∀ j, ((bA).view.read (Elt F) (View.write (Elt F) (bA).view f p Finset.univ) j).toNat ≤ 6 := by
  intro j
  have e : View.write (Elt F) (bA).view f p Finset.univ = p := View.write_whole_univ _ _ _
  rw [e]; exact hp j
theorem landedB (d : Dev nD) (L : grid0.Coords) (f p : Buf (Elt F) ((bB).view.loc (thr d L))) (hp : ∀ j, (p j).toNat ≤ 6) :
    ∀ j, ((bB).view.read (Elt F) (View.write (Elt F) (bB).view f p Finset.univ) j).toNat ≤ 6 := by
  intro j
  have e : View.write (Elt F) (bB).view f p Finset.univ = p := View.write_whole_univ _ _ _
  rw [e]; exact hp j

/-- One tile's task, at any grid coordinates L: from shares of the species words (two, one per chunk copy in flight),
    of the energies and of the eight-entry self-energy table, the tile's slice of the result, its nine scratch buffers,
    its five copy semaphores at zero and what it owes, the body runs to its end and gives everything back, the result
    slice and the scratch at whatever it left there. The species words are the element numbers 0 … 6 (`hsp`): that is
    what keeps every table index the body builds out of loaded words inside its table. -/
theorem body_core (d : Dev nD) (L : grid0.Coords) (O : CellTallies nD τ sig (HIx 1)) (W : Waits sig (HIx 1))
    (q1 q2 q3 q4 : PosShare TreeShare)
    (fsp : Buf (Elt F) ((spW).view.loc (thr d L))) (fen : Buf (Elt F) ((enW).view.loc (thr d L))) (fse : Buf (Elt F) ((seW).view.loc (thr d L)))
    (fo : Buf (Elt F) ((oW).view.loc (thr d L)))
    (fA : Buf (Elt F) ((bA).view.loc (thr d L))) (fB : Buf (Elt F) ((bB).view.loc (thr d L)))
    (f8 : Buf (Elt F) ((t8).view.loc (thr d L))) (f8r : Buf (Elt F) ((t8r).view.loc (thr d L)))
    (f2 : Buf (Elt F) ((t2).view.loc (thr d L))) (f4 : Buf (Elt F) ((t4).view.loc (thr d L)))
    (fr : Buf (Elt F) ((red).view.loc (thr d L))) (fe : Buf (Elt F) ((env).view.loc (thr d L))) (fov : Buf (Elt F) ((outv).view.loc (thr d L)))
    (hsp : ∀ j, (fsp j).toNat ≤ 6) :
    (iprop(Transfers.MayWaits (thr d L) (none : HIx 1) O
        ∗ ((spW).view.loc (thr d L) ↦{q1} fsp) ∗ ((spW).view.loc (thr d L) ↦{q2} fsp)
        ∗ ((enW).view.loc (thr d L) ↦{q3} fen) ∗ ((seW).view.loc (thr d L) ↦{q4} fse)
        ∗ ((oSl L).view.loc (thr d L) ↦[(oSl L).view.set]{fullShare} fo)
        ∗ ((bA).view.loc (thr d L) ↦{fullShare} fA) ∗ ((bB).view.loc (thr d L) ↦{fullShare} fB)
        ∗ ((t8).view.loc (thr d L) ↦{fullShare} f8) ∗ ((t8r).view.loc (thr d L) ↦{fullShare} f8r)
        ∗ ((t2).view.loc (thr d L) ↦{fullShare} f2) ∗ ((t4).view.loc (thr d L) ↦{fullShare} f4)
        ∗ ((red).view.loc (thr d L) ↦{fullShare} fr) ∗ ((env).view.loc (thr d L) ↦{fullShare} fe)
        ∗ ((outv).view.loc (thr d L) ↦{fullShare} fov)
        ∗ semVal (thr d L, SemLoc.dma cc0_scratch9.sem) 0 ∗ semVal (thr d L, SemLoc.dma cc0_scratch10.sem) 0
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(((spW).view.loc (thr d L) ↦{q1} fsp) ∗ ((spW).view.loc (thr d L) ↦{q2} fsp)
            ∗ ((enW).view.loc (thr d L) ↦{q3} fen) ∗ ((seW).view.loc (thr d L) ↦{q4} fse)
            ∗ (∃ g, (oSl L).view.loc (thr d L) ↦[(oSl L).view.set]{fullShare} g)
            ∗ (∃ g, (bA).view.loc (thr d L) ↦{fullShare} g) ∗ (∃ g, (bB).view.loc (thr d L) ↦{fullShare} g)
            ∗ (∃ g, (t8).view.loc (thr d L) ↦{fullShare} g) ∗ (∃ g, (t8r).view.loc (thr d L) ↦{fullShare} g)
            ∗ (∃ g, (t2).view.loc (thr d L) ↦{fullShare} g) ∗ (∃ g, (t4).view.loc (thr d L) ↦{fullShare} g)
            ∗ (∃ g, (red).view.loc (thr d L) ↦{fullShare} g) ∗ (∃ g, (env).view.loc (thr d L) ↦{fullShare} g)
            ∗ (∃ g, (outv).view.loc (thr d L) ↦{fullShare} g)
            ∗ semVal (thr d L, SemLoc.dma cc0_scratch9.sem) 0 ∗ semVal (thr d L, SemLoc.dma cc0_scratch10.sem) 0
            ∗ semVal (thr d L, SemLoc.dma cc0_scoped0.sem) 0 ∗ semVal (thr d L, SemLoc.dma cc0_scoped1.sem) 0
            ∗ semVal (thr d L, SemLoc.dma cc0_scoped2.sem) 0
            ∗ ∃ W', ⌜∀ p ∈ W', p ∈ W ∨ p.2 = none⌝ ∗ owes (thr d L) O W') := by
  iintro ⟨Hmw, Hsp1, Hsp2, Hen, Hse, Ho, HA, HB, H8, H8r, H2, H4, Hr, He, Hov, Hs9, Hs10, Hc0, Hc1, Hc2, HO⟩
  sl_unfold [cc0__sae_body]
  sl_exec
  repeat (iapply (wp_gather_bind 𝒱₀ (thr d L) none Set.univ); sl_exec)
  sl_for (invT1 (F := F) d L) $$ [H2 H4]
  case region => exact region_t1 d L _ _
  · unfold invT1
    isplitl [H2]
    · iexists _; iexact H2
    · iexists _; iexact H4
  iintro %_ HI
  unfold invT1
  icases HI with ⟨⟨%g2, H2⟩, ⟨%g4, H4⟩⟩
  sl_exec
  sl_for (invA2 (F := F) d L) $$ [HA H4 H8r Hr He Hov]
  case region => exact region_t2 d L _ _
  · unfold invA2
    isplitl [HA]
    · iexists _; isplitl [HA]
      · iexact HA
      · ipureintro; exact landedA d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invA2
  icases HI with ⟨⟨%fb1, HA, %hfb1⟩, ⟨%g41, H4⟩, ⟨%g8r1, H8r⟩, ⟨%gr1, Hr⟩, ⟨%ge1, He⟩, ⟨%go1, Hov⟩⟩
  sl_exec
  sl_for (invB3 (F := F) d L) $$ [HB H4 H8r Hr He Hov]
  case region => exact region_t3 d L _ _
  · unfold invB3
    isplitl [HB]
    · iexists _; isplitl [HB]
      · iexact HB
      · ipureintro; exact landedB d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invB3
  icases HI with ⟨⟨%fb2, HB, %hfb2⟩, ⟨%g42, H4⟩, ⟨%g8r2, H8r⟩, ⟨%gr2, Hr⟩, ⟨%ge2, He⟩, ⟨%go2, Hov⟩⟩
  sl_exec
  sl_for (invA4 (F := F) d L) $$ [HA H4 H8r Hr He Hov]
  case region => exact region_t4 d L _ _
  · unfold invA4
    isplitl [HA]
    · iexists _; isplitl [HA]
      · iexact HA
      · ipureintro; exact landedA d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invA4
  icases HI with ⟨⟨%fb3, HA, %hfb3⟩, ⟨%g43, H4⟩, ⟨%g8r3, H8r⟩, ⟨%gr3, Hr⟩, ⟨%ge3, He⟩, ⟨%go3, Hov⟩⟩
  sl_exec
  sl_for (invB5 (F := F) d L) $$ [HB H4 H8r Hr He Hov]
  case region => exact region_t5 d L
  · unfold invB5
    isplitl [HB]
    · iexists _; isplitl [HB]
      · iexact HB
      · ipureintro; exact landedB d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invB5
  icases HI with ⟨⟨%fb4, HB, %hfb4⟩, ⟨%g44, H4⟩, ⟨%g8r4, H8r⟩, ⟨%gr4, Hr⟩, ⟨%ge4, He⟩, ⟨%go4, Hov⟩⟩
  sl_exec
  sl_step
  isplitl [Hsp1]; · iexact Hsp1
  isplitl [Hsp2]; · iexact Hsp2
  isplitl [Hen]; · iexact Hen
  isplitl [Hse]; · iexact Hse
  isplitl [Ho]; · iexists _; iexact Ho
  isplitl [HA]; · iexists _; iexact HA
  isplitl [HB]; · iexists _; iexact HB
  isplitl [H8]; · iexists _; iexact H8
  isplitl [H8r]; · iexists _; iexact H8r
  isplitl [H2]; · iexists _; iexact H2
  isplitl [H4]; · iexists _; iexact H4
  isplitl [Hr]; · iexists _; iexact Hr
  isplitl [He]; · iexists _; iexact He
  isplitl [Hov]; · iexists _; iexact Hov
  isplitl [Hs9]; · iexact Hs9
  isplitl [Hs10]; · iexact Hs10
  isplitl [Hc0]; · iexact Hc0
  isplitl [Hc1]; · iexact Hc1
  isplitl [Hc2]; · iexact Hc2
  iexists _
  isplitr
  swap
  · iexact HO
  · ipureintro
    intro p hp
    repeat (rcases Finset.mem_insert.mp hp with rfl | hp; · exact .inr rfl)
    exact .inl hp
  all_goals exact View.loads_vmem h_S8

end Cert.Proof.KB

end
-- ==== Proof.KB.Tiles.lean ====
/-
  The thirty-two tiles' slices of the result array partition it: the tile of SparseCore c and subcore s holds
  the 512 entries from 512 (2 s + c) on, which is part 2 s + c of the array cut into thirty-two equal parts;
  parts at different numbers are disjoint and together cover the array, so the whole array held at the full
  share is the tiles' slices held one by one.
-/
import proofs.«206987_g17583596110038_cont_8to1_771_12_alg».proof.Proof.KB.Base

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid coordinates of SparseCore `c`'s subcore `s`. -/
def coordsV (c : Fin (grid0.bound 0)) (s : Fin (grid0.bound 1)) : grid0.Coords := fun | 0 => c | 1 => s | ⟨_ + 2, h⟩ => absurd h (Nat.not_lt.2 (Nat.le_add_left _ _))

theorem hdiv32 : 32 ∣ S16384.size 0 := ⟨512, rfl⟩

/-- Part `k` of the result array cut into thirty-two. -/
abbrev tileR (k : Fin 32) : Rect S16384 := Rect.part (s := S16384) (a₀ := 0) hdiv32 k

/-- The number of the tile of SparseCore `c`, subcore `s`. -/
def tileIx (c : Fin 2) (s : Fin 16) : Fin 32 := ⟨2 * s.val + c.val, by omega⟩

/-- The entries of the result array that tile holds. -/
def tileSet (c : Fin 2) (s : Fin 16) : Finset S16384.Idx := (tileR (tileIx c s)).set

theorem tileIx_inj {c c' : Fin 2} {s s' : Fin 16} (h : tileIx c s = tileIx c' s') : c = c' ∧ s = s' := by
  have e : 2 * s.val + c.val = 2 * s'.val + c'.val := congrArg Fin.val h
  exact ⟨Fin.ext (by omega), Fin.ext (by omega)⟩

/-- The rectangle the program slices for the tile is that part. -/
theorem sliceR_eq (c : Fin 2) (s : Fin 16) :
    Rect.unit (s := S16384) (k0_off84 (coordsV ⟨c.val, c.isLt⟩ ⟨s.val, s.isLt⟩)) S512.size
        (k0_off84_inb (coordsV ⟨c.val, c.isLt⟩ ⟨s.val, s.isLt⟩))
      = tileR (tileIx c s) := by
  unfold tileR Rect.part Rect.block
  congr 1 <;> funext a
  · rw [k0_off84_eq]
    match a with
    | 0 =>
      show 1024 * s.val + 512 * c.val = (2 * s.val + c.val) * (16384 / 32)
      omega
  · match a with
    | 0 => rfl

theorem set_oSl (c : Fin 2) (s : Fin 16) : (oSl (coordsV ⟨c.val, c.isLt⟩ ⟨s.val, s.isLt⟩)).view.set = tileSet c s := by
  show ((View.whole (main_v3_scv : Ref sig .scVector)).slice
      (Rect.unit (s := S16384) (k0_off84 (coordsV ⟨c.val, c.isLt⟩ ⟨s.val, s.isLt⟩)) S512.size
        (k0_off84_inb (coordsV ⟨c.val, c.isLt⟩ ⟨s.val, s.isLt⟩)))).set = _
  rw [View.set_slice_whole]
  exact congrArg (fun r : Rect S16384 => r.set) (sliceR_eq c s)

theorem tiles_disjoint : ∀ p ∈ (Finset.univ : Finset (Fin 2 × Fin 16)), ∀ p' ∈ (Finset.univ : Finset (Fin 2 × Fin 16)),
    p ≠ p' → Disjoint (tileSet p.1 p.2) (tileSet p'.1 p'.2) :=
  fun p _ p' _ h => Rect.part_disjoint hdiv32 fun e => h (Prod.ext (tileIx_inj e).1 (tileIx_inj e).2)

theorem tiles_cover : (Finset.univ : Finset (Fin 2 × Fin 16)).biUnion (fun p => tileSet p.1 p.2) = Finset.univ := by
  ext i
  simp only [Finset.mem_biUnion, Finset.mem_univ, true_and, iff_true]
  obtain ⟨k, hk⟩ := Rect.exists_mem_part hdiv32 i
  refine ⟨(⟨k.val % 2, Nat.mod_lt _ (by omega)⟩, ⟨k.val / 2, by have := k.isLt; omega⟩), ?_⟩
  have e : tileIx ⟨k.val % 2, Nat.mod_lt _ (by omega)⟩ ⟨k.val / 2, by have := k.isLt; omega⟩ = k :=
    Fin.ext (by show 2 * (k.val / 2) + k.val % 2 = k.val; omega)
  unfold tileSet
  rw [e]
  exact hk

/-- The result array whole at the full share is the thirty-two tiles' slices, SparseCore by SparseCore. -/
theorem oPts_tiles (d : Dev nD) (f : Buf (Elt F) ((SparseCore.T d).loc main_v3)) :
    ((SparseCore.T d).loc main_v3 ↦{fullShare} f : sProp 𝕄)
      = bigSep Finset.univ fun c : Fin 2 => bigSep Finset.univ fun s : Fin 16 =>
          (SparseCore.T d).loc main_v3 ↦[(oSl (coordsV ⟨c.val, c.isLt⟩ ⟨s.val, s.isLt⟩)).view.set]{fullShare} f := by
  rw [bigSep_congr (s := Finset.univ) fun (c : Fin 2) _ => bigSep_congr (s := Finset.univ) fun (s : Fin 16) _ => by rw [set_oSl c s]]
  rw [← bigSep_univ_prod (fun p : Fin 2 × Fin 16 => ((SparseCore.T d).loc main_v3 ↦[tileSet p.1 p.2]{fullShare} f : sProp 𝕄))]
  rw [← pointsTo_biUnion Finset.univ (ℓ := (SparseCore.T d).loc main_v3) (fun p : Fin 2 × Fin 16 => tileSet p.1 p.2) tiles_disjoint,
    tiles_cover]; try rfl

/-- The tiles' slices, each held at some contents, are the whole array at some contents. -/
theorem oTiles_join [FloatOps F] (d : Dev nD) :
    (bigSep Finset.univ fun c : Fin 2 => bigSep Finset.univ fun s : Fin 16 =>
        iprop(∃ f : Buf (Elt F) ((SparseCore.T d).loc main_v3),
          (SparseCore.T d).loc main_v3 ↦[(oSl (coordsV ⟨c.val, c.isLt⟩ ⟨s.val, s.isLt⟩)).view.set]{fullShare} f))
      ⊢ (iprop(∃ f : Buf (Elt F) ((SparseCore.T d).loc main_v3), (SparseCore.T d).loc main_v3 ↦{fullShare} f) : sProp 𝕄) := by
  rw [bigSep_congr (s := Finset.univ) fun (c : Fin 2) _ => bigSep_congr (s := Finset.univ) fun (s : Fin 16) _ => by rw [set_oSl c s]]
  rw [← bigSep_univ_prod (fun p : Fin 2 × Fin 16 =>
    (iprop(∃ f : Buf (Elt F) ((SparseCore.T d).loc main_v3), (SparseCore.T d).loc main_v3 ↦[tileSet p.1 p.2]{fullShare} f) : sProp 𝕄))]
  refine (bigSep_exists_pi Finset.univ (fun (p : Fin 2 × Fin 16) (f : Buf (Elt F) ((SparseCore.T d).loc main_v3)) =>
    ((SparseCore.T d).loc main_v3 ↦[tileSet p.1 p.2]{fullShare} f : sProp 𝕄))).trans ?_
  iintro ⟨%fs, H⟩
  ihave H' := (pointsTo_biUnion_join Finset.univ (fun p : Fin 2 × Fin 16 => tileSet p.1 p.2) fs (fs (0, 0)) tiles_disjoint) $$ H
  icases H' with ⟨%g, -, Hg⟩
  rw [tiles_cover]
  iexists g; iexact Hg

end Cert.Proof.KB

end
-- ==== Proof.KB.Shares.lean ====
/-
  Read shares of one array for the thirty-two tiles: the full share is cut into a remainder and one token per
  SparseCore, each SparseCore's token into a remainder and one token per tile; the whole array at the full
  share is the remainders and the tokens together, and back. A tile's token may be halved once more, for two
  reads of one array in flight at once.
-/
import proofs.«206987_g17583596110038_cont_8to1_771_12_alg».proof.Proof.KB.Base
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The read share of tile `i` of SparseCore `c`. -/
def tq (c i : ℕ) : PosShare TreeShare := Transfers.shareTokN (Transfers.shareTokN fullShare c) i

/-- What is left of the full share after the thirty-two tokens: the top remainder and each SparseCore's. -/
def shareRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTokN fullShare c.val) 16} f)

/-- A points-to at a share is the remainder after `n` tokens and the tokens. -/
theorem pts_toks (ℓ : Loc nD τ sig) (f : Buf (Elt F) ℓ) (q : PosShare TreeShare) (n : ℕ) :
    (ℓ ↦{q} f : sProp 𝕄)
      = iprop((ℓ ↦{Transfers.shareDrop q n} f) ∗ bigSep Finset.univ fun i : Fin n => ℓ ↦{Transfers.shareTokN q i.val} f) :=
  BI.equiv_iff.mp ⟨(Transfers.pointsTo_toks q n).1, (Transfers.pointsTo_toks q n).2⟩

/-- A points-to at a share is its two halves. -/
theorem pts_halves (ℓ : Loc nD τ sig) (f : Buf (Elt F) ℓ) (q : PosShare TreeShare) :
    (ℓ ↦{q} f : sProp 𝕄) = iprop((ℓ ↦{q.left} f) ∗ ℓ ↦{q.right} f) :=
  BI.equiv_iff.mp ⟨(pointsTo_share (PosShare.mem_left_op_right _)).1, (pointsTo_share (PosShare.mem_left_op_right _)).2⟩

theorem sep_assoc_r (A B C : sProp 𝕄) : iprop(A ∗ B ∗ C) ⊢ iprop((A ∗ B) ∗ C) := by
  iintro ⟨Ha, Hb, Hc⟩
  isplitl [Ha Hb]
  · isplitl [Ha] <;> iassumption
  · iexact Hc

theorem sep_assoc_l (A B C : sProp 𝕄) : iprop((A ∗ B) ∗ C) ⊢ iprop(A ∗ B ∗ C) := by
  iintro ⟨⟨Ha, Hb⟩, Hc⟩
  isplitl [Ha]
  · iexact Ha
  · isplitl [Hb] <;> iassumption

/-- The whole array at the full share is the remainders and the thirty-two tiles' tokens. -/
theorem toks_eq (ℓ : Loc nD τ sig) (f : Buf (Elt F) ℓ) :
    (ℓ ↦{fullShare} f : sProp 𝕄)
      = iprop(shareRem ℓ f ∗ bigSep Finset.univ fun c : Fin 2 => bigSep Finset.univ fun s : Fin 16 => ℓ ↦{tq c.val s.val} f) := by
  unfold shareRem tq
  rw [pts_toks ℓ f fullShare 2,
    bigSep_congr (s := Finset.univ) fun (c : Fin 2) _ => pts_toks ℓ f (Transfers.shareTokN fullShare c.val) 16,
    bigSep_sep']
  exact BI.equiv_iff.mp ⟨sep_assoc_r _ _ _, sep_assoc_l _ _ _⟩

/-- The same with each tile's token halved. -/
theorem toks_eq2 (ℓ : Loc nD τ sig) (f : Buf (Elt F) ℓ) :
    (ℓ ↦{fullShare} f : sProp 𝕄)
      = iprop(shareRem ℓ f ∗ bigSep Finset.univ fun c : Fin 2 => bigSep Finset.univ fun s : Fin 16 =>
          iprop((ℓ ↦{(tq c.val s.val).left} f) ∗ ℓ ↦{(tq c.val s.val).right} f)) := by
  rw [toks_eq ℓ f]
  refine congrArg (fun X => iprop(shareRem ℓ f ∗ X)) ?_
  exact bigSep_congr fun c _ => bigSep_congr fun s _ => pts_halves ℓ f (tq c.val s.val)

variable {ℓ : Loc nD τ sig} {f : Buf (Elt F) ℓ}

theorem toks_split :
    (ℓ ↦{fullShare} f : sProp 𝕄)
      ⊢ iprop(shareRem ℓ f ∗ bigSep Finset.univ fun c : Fin 2 => bigSep Finset.univ fun s : Fin 16 => ℓ ↦{tq c.val s.val} f) :=
  Entails.of_eq (toks_eq ℓ f)

theorem toks_join :
    iprop(shareRem ℓ f ∗ bigSep Finset.univ fun c : Fin 2 => bigSep Finset.univ fun s : Fin 16 => ℓ ↦{tq c.val s.val} f)
      ⊢ (ℓ ↦{fullShare} f : sProp 𝕄) :=
  Entails.of_eq (toks_eq ℓ f).symm

theorem toks_split2 :
    (ℓ ↦{fullShare} f : sProp 𝕄)
      ⊢ iprop(shareRem ℓ f ∗ bigSep Finset.univ fun c : Fin 2 => bigSep Finset.univ fun s : Fin 16 =>
          iprop((ℓ ↦{(tq c.val s.val).left} f) ∗ ℓ ↦{(tq c.val s.val).right} f)) :=
  Entails.of_eq (toks_eq2 ℓ f)

theorem toks_join2 :
    iprop(shareRem ℓ f ∗ bigSep Finset.univ fun c : Fin 2 => bigSep Finset.univ fun s : Fin 16 =>
          iprop((ℓ ↦{(tq c.val s.val).left} f) ∗ ℓ ↦{(tq c.val s.val).right} f))
      ⊢ (ℓ ↦{fullShare} f : sProp 𝕄) :=
  Entails.of_eq (toks_eq2 ℓ f).symm

end Cert.Proof.KB

end
-- ==== Proof.KB.Launch.lean ====
/-
  The launch: what the handshakes carry to the thirty-two tiles and back (read shares of the three input arrays, the
  tile's 512 entries of the result), one tile's obligation from its task, the TensorCore's program (five host
  operations, the call, the arrays rejoined), and the run of the whole family of threads with the argument arrays
  unchanged.
-/
import proofs.«206987_g17583596110038_cont_8to1_771_12_alg».proof.Proof.KB.Body
import proofs.«206987_g17583596110038_cont_8to1_771_12_alg».proof.Proof.KB.Tiles
import proofs.«206987_g17583596110038_cont_8to1_771_12_alg».proof.Proof.KB.Shares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "spW" => (Memref.whole Cert.Kernel.main_arg0_scv : Memref Cert.Kernel.sig Kind.scVector Space.hbm Cert.Kernel.S16384x200 EltTy.i32)
local notation "enW" => (Memref.whole Cert.Kernel.main_arg1_scv : Memref Cert.Kernel.sig Kind.scVector Space.hbm Cert.Kernel.S16384 EltTy.f32)
local notation "seW" => (Memref.whole Cert.Kernel.main_v2_scv : Memref Cert.Kernel.sig Kind.scVector Space.hbm Cert.Kernel.S8 EltTy.f32)
local notation "oW" => (Memref.whole Cert.Kernel.main_v3_scv : Memref Cert.Kernel.sig Kind.scVector Space.hbm Cert.Kernel.S16384 EltTy.f32)
local notation "bA" => (Memref.whole Cert.Kernel.cc0_scratch0 : Memref Cert.Kernel.sig Kind.scVector Space.vmem Cert.Kernel.S128x200 EltTy.i32)
local notation "bB" => (Memref.whole Cert.Kernel.cc0_scratch1 : Memref Cert.Kernel.sig Kind.scVector Space.vmem Cert.Kernel.S128x200 EltTy.i32)
local notation "t8" => (Memref.whole Cert.Kernel.cc0_scratch2 : Memref Cert.Kernel.sig Kind.scVector Space.vmem Cert.Kernel.S8 EltTy.f32)
local notation "t8r" => (Memref.whole Cert.Kernel.cc0_scratch3 : Memref Cert.Kernel.sig Kind.scVector Space.vmem Cert.Kernel.S272 EltTy.f32)
local notation "t2" => (Memref.whole Cert.Kernel.cc0_scratch4 : Memref Cert.Kernel.sig Kind.scVector Space.vmem Cert.Kernel.S64 EltTy.f32)
local notation "t4" => (Memref.whole Cert.Kernel.cc0_scratch5 : Memref Cert.Kernel.sig Kind.scVector Space.vmem Cert.Kernel.S4096 EltTy.f32)
local notation "red" => (Memref.whole Cert.Kernel.cc0_scratch6 : Memref Cert.Kernel.sig Kind.scVector Space.vmem Cert.Kernel.S512 EltTy.f32)
local notation "env" => (Memref.whole Cert.Kernel.cc0_scratch7 : Memref Cert.Kernel.sig Kind.scVector Space.vmem Cert.Kernel.S512 EltTy.f32)
local notation "outv" => (Memref.whole Cert.Kernel.cc0_scratch8 : Memref Cert.Kernel.sig Kind.scVector Space.vmem Cert.Kernel.S512 EltTy.f32)

/-! ## The program as the launch theorem sees it -/

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the algebra; the transfers' counters are found in the right. -/
abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The species words, the energies, the seven self energies (the arguments); the eight-entry table the host operations
    build; the result. -/
abbrev spLoc (d : Dev nD) : Loc nD τ sig := (SparseCore.T d).loc main_arg0
abbrev enLoc (d : Dev nD) : Loc nD τ sig := (SparseCore.T d).loc main_arg1
abbrev a2Loc (d : Dev nD) : Loc nD τ sig := (SparseCore.T d).loc main_arg2
abbrev seLoc (d : Dev nD) : Loc nD τ sig := (SparseCore.T d).loc main_v2
abbrev oLoc (d : Dev nD) : Loc nD τ sig := (SparseCore.T d).loc main_v3

variable [FloatOps F]

/-! ## The five host operations, and the table they leave -/

abbrev op1 : HloOp τ sig (Elt F) := StableHlo.nullary main_cst (constant S_ .f32 0x00000000#32)
abbrev op2 : HloOp τ sig (Elt F) :=
  StableHlo.unary main_cst main_v0 (broadcastInDim S8 ![] Facts₀.bcast_S_S8 : (⟨S_, .f32⟩ : BufTy).Contents (Elt F) → (⟨S8, .f32⟩ : BufTy).Contents (Elt F))
abbrev op3 : HloOp τ sig (Elt F) := StableHlo.nullary main_c (constantI S_ 32 0#32)
abbrev op4 : HloOp τ sig (Elt F) :=
  StableHlo.unary main_c main_v1 (broadcastInDim S1 ![] Facts₀.bcast_S_S1 : (⟨S_, .i32⟩ : BufTy).Contents (Elt F) → (⟨S1, .i32⟩ : BufTy).Contents (Elt F))
abbrev op5 : HloOp τ sig (Elt F) :=
  StableHlo.ternary main_v0 main_v1 main_arg2 main_v2 ((fun x i u => Host.scatter scatter_S8_S1_S7_0_n_0_0 (fun _ b => b) x i u) :
    (⟨S8, .f32⟩ : BufTy).Contents (Elt F) → (⟨S1, .i32⟩ : BufTy).Contents (Elt F) → (⟨S7, .f32⟩ : BufTy).Contents (Elt F) → (⟨S8, .f32⟩ : BufTy).Contents (Elt F))

/-- The launch valuation of device d, and the valuations after each host operation. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)
abbrev V3 (d : Dev nD) : Valuation τ sig (Elt F) := (op3 (F := F)).result (V2 m d)
abbrev V4 (d : Dev nD) : Valuation τ sig (Elt F) := (op4 (F := F)).result (V3 m d)
abbrev V5 (d : Dev nD) : Valuation τ sig (Elt F) := (op5 (F := F)).result (V4 m d)

/-- The eight-entry table the tiles read: the seven self energies written at the origin of eight zeros. -/
def se8 (d : Dev nD) : Buf (Elt F) (seLoc d) := V5 m d (Proc.devRef .tc (main_v2 : Ref sig .tc))

/-! ## What the handshakes carry -/

/-- What a tile is handed: two read shares of the species words (one per chunk copy in flight), one of the energies, one
    of the eight-entry table, and its 512 entries of the result. -/
def GO (d : Dev nD) (L : grid0.Coords) : sProp 𝕄 :=
  iprop((spLoc d ↦{(tq (L 0).val (L 1).val).left} m (spLoc d)) ∗ (spLoc d ↦{(tq (L 0).val (L 1).val).right} m (spLoc d))
    ∗ (enLoc d ↦{tq (L 0).val (L 1).val} m (enLoc d)) ∗ (seLoc d ↦{tq (L 0).val (L 1).val} se8 m d)
    ∗ (oLoc d ↦[(oSl L).view.set]{fullShare} m (oLoc d)))
/-- What it hands back: the same, its entries of the result at what it wrote. -/
def TD (d : Dev nD) (L : grid0.Coords) : sProp 𝕄 :=
  iprop((spLoc d ↦{(tq (L 0).val (L 1).val).left} m (spLoc d)) ∗ (spLoc d ↦{(tq (L 0).val (L 1).val).right} m (spLoc d))
    ∗ (enLoc d ↦{tq (L 0).val (L 1).val} m (enLoc d)) ∗ (seLoc d ↦{tq (L 0).val (L 1).val} se8 m d)
    ∗ ∃ f, oLoc d ↦[(oSl L).view.set]{fullShare} f)

instance GO_storable (d : Dev nD) (L : grid0.Coords) : BI.Storable (upEmb : UEmb _ 𝕄) (GO m d L) := by unfold GO; infer_instance
instance TD_storable (d : Dev nD) (L : grid0.Coords) : BI.Storable (upEmb : UEmb _ 𝕄) (TD m d L) := by unfold TD; infer_instance

/-- The grid coordinates of task i of SparseCore c of the call. -/
abbrev tL (c : Fin ((K (F := F)).nCore 0)) (i : Fin ((K (F := F)).nSub 0)) : grid0.Coords := coordsV ⟨c.val, c.isLt⟩ ⟨i.val, i.isLt⟩

/-- The one call hands each SparseCore its sixteen tiles' resources, each tile its own, and brings them back. -/
def P : (K (F := F)).Pay (nD := nD) (Val := Elt F) (Name := ℕ) (U := UU) where
  st := fun q d c => match q with | 0 => bigSep Finset.univ fun i : Fin ((K (F := F)).nSub 0) => GO m d (tL (F := F) c i)
  dn := fun q d c => match q with | 0 => bigSep Finset.univ fun i : Fin ((K (F := F)).nSub 0) => TD m d (tL (F := F) c i)
  go := fun q d c i => match q with | 0 => GO m d (tL (F := F) c i)
  td := fun q d c i => match q with | 0 => TD m d (tL (F := F) c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => GO m d (tL (F := F) c i)))
  dn q d c := match q with
    | 0 => (inferInstance : BI.Storable (upEmb : UEmb _ 𝕄) (bigSep Finset.univ fun i : Fin ((K (F := F)).nSub 0) => TD m d (tL (F := F) c i)))
  go q d c i := match q with | 0 => (inferInstance : BI.Storable (upEmb : UEmb _ 𝕄) (GO m d (tL (F := F) c i)))
  td q d c i := match q with | 0 => (inferInstance : BI.Storable (upEmb : UEmb _ 𝕄) (TD m d (tL (F := F) c i)))

/-- What the proof asks of the launch memory: every species word, read unsigned, is at most 6. -/
def PreOK : Prop := ∀ (d : Dev nD) j, (m (spLoc d) j).toNat ≤ 6

/-! ## The task -/

omit [FloatOps F] in
/-- The five copy semaphores are among the subcore's own scoped cells: they are them, at zero, and the rest. -/
theorem ownSems0_V (d : Dev nD) (L : grid0.Coords) :
    (ownSems0 (thr d L) : sProp 𝕄)
      = iprop(semVal ((thr d L, SemLoc.dma cc0_scratch9.sem) : GSem nD τ sig) 0 ∗ semVal ((thr d L, SemLoc.dma cc0_scratch10.sem) : GSem nD τ sig) 0 ∗ semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0
          ∗ bigSep ((((((ownCells (thr d L)).erase ((thr d L, SemLoc.dma cc0_scratch9.sem) : GSem nD τ sig)).erase ((thr d L, SemLoc.dma cc0_scratch10.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)) fun g => semVal g 0) := by
  unfold SparseCore.Cfg.ownSems0
  rw [SparseCore.bigSep_erase' ((mem_ownCells (g := ((thr d L, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (congrArg Prod.snd e) (show (SemLoc.dma cc0_scratch10.sem : SemLoc sig) ≠ SemLoc.dma cc0_scratch9.sem by decide), (mem_ownCells (g := ((thr d L, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), (mem_ownCells (g := ((thr d L, SemLoc.dma cc0_scoped0.sem) : GSem nD τ sig))).mpr ⟨rfl, by show (SemLoc.dma cc0_scoped0.sem : SemLoc sig).isScoped .scVector = true; decide⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch10.sem by decide), Finset.mem_erase.mpr ⟨fun e => absurd (congrArg Prod.snd e) (show (SemLoc.dma cc0_scoped1.sem : SemLoc sig) ≠ SemLoc.dma cc0_scratch9.sem by decide), (mem_ownCells (g := ((thr d L, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch10.sem by decide), Finset.mem_erase.mpr ⟨fun e => absurd (congrArg Prod.snd e) (show (SemLoc.dma cc0_scoped2.sem : SemLoc sig) ≠ SemLoc.dma cc0_scratch9.sem by decide), (mem_ownCells (g := ((thr d L, SemLoc.dma cc0_scoped2.sem) : GSem nD τ sig))).mpr ⟨rfl, by show (SemLoc.dma cc0_scoped2.sem : SemLoc sig).isScoped .scVector = true; decide⟩⟩⟩⟩⟩)]

omit [FloatOps F] in
/-- The nine scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

/-- One tile's task from what the launch hands it: the scratch buffers and the copy semaphores out of the subcore's
    own, the evidence for its waits from the levels, the arrays as the handshake carries them; the rest framed. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ GO m d L
        ∗ scopedBufs (thr d L) ∗ scopedSems0 (thr d L) ∗ owes (thr d L) O W)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(TD m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hsp1, Hsp2, Hen, Hse, Ho⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩, ⟨Hs9, Hs10, Hs0, Hs1, Hs2, Hsems⟩, HO⟩
  ihave Hmw := ((K (F := F)).mayWaits_none (thr := thr d L) hO) $$ Hlv
  iapply (wp_wand_r frame _ Set.univ)
  isplitl [Hmw Hsp1 Hsp2 Hen Hse Ho Hb0 Hb1 Hb2 Hb3 Hb4 Hb5 Hb6 Hb7 Hb8 Hs9 Hs10 Hs0 Hs1 Hs2 HO]
  · iapply (body_core d L O W _ _ _ _ (m (spLoc d)) (m (enLoc d)) (se8 m d) (m (oLoc d)) f0 f1 f2 f3 f4 f5 f6 f7 f8 (hpre d))
    isplitl [Hmw]; · iexact Hmw
    isplitl [Hsp1]; · iexact Hsp1
    isplitl [Hsp2]; · iexact Hsp2
    isplitl [Hen]; · iexact Hen
    isplitl [Hse]; · iexact Hse
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs9]; · iexact Hs9
    isplitl [Hs10]; · iexact Hs10
    isplitl [Hs0]; · iexact Hs0
    isplitl [Hs1]; · iexact Hs1
    isplitl [Hs2]; · iexact Hs2
    iexact HO
  · iintro %_ ⟨Hsp1, Hsp2, Hen, Hse, Ho, Hb0, Hb1, Hb2, Hb3, Hb4, Hb5, Hb6, Hb7, Hb8, Hs9, Hs10, Hs0, Hs1, Hs2, HO⟩
    isplitl [Hsp1 Hsp2 Hen Hse Ho]
    · isplitl [Hsp1]; · iexact Hsp1
      isplitl [Hsp2]; · iexact Hsp2
      isplitl [Hen]; · iexact Hen
      isplitl [Hse]; · iexact Hse
      iexact Ho
    isplitl [Hb0 Hb1 Hb2 Hb3 Hb4 Hb5 Hb6 Hb7 Hb8 Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      iexact Hbufs
    isplitl [Hs9 Hs10 Hs0 Hs1 Hs2 Hsems]
    · isplitl [Hs9]; · iexact Hs9
      isplitl [Hs10]; · iexact Hs10
      isplitl [Hs0]; · iexact Hs0
      isplitl [Hs1]; · iexact Hs1
      isplitl [Hs2]; · iexact Hs2
      iexact Hsems
    iexact HO

/-! ## The launch theorem's obligations -/

theorem defs₀_vector (c : Fin τ.nSC) (s : Fin τ.nSub) :
    defs₀ (F := F) (.scVector c s) 0 ()
      = SparseCore.onTile hcore0 hsub0 (fun c s => cc0__sae_body (coordsV c s)
          spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF hpre d (coordsV ⟨_, hc.1⟩ ⟨_, hc.2⟩) O W hO).trans (wp_mono frame _ _ fun _ => obl_post)

theorem vecSplit : (K (F := F)).VecSplit' (P m) 0 := by
  intro d c
  show (bigSep Finset.univ fun i : Fin ((K (F := F)).nSub 0) => GO m d (tL (F := F) c i)) ⊢ |={Set.univ}=> iprop(
      (bigSep Finset.univ fun i : Fin ((K (F := F)).nSub 0) => GO m d (tL (F := F) c i))
      ∗ ((bigSep Finset.univ fun i : Fin ((K (F := F)).nSub 0) => TD m d (tL (F := F) c i))
          -∗ bigSep Finset.univ fun i : Fin ((K (F := F)).nSub 0) => TD m d (tL (F := F) c i)))
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the claim: the three argument arrays whole at their launch contents. -/
abbrev FIN (d : Dev nD) : sProp 𝕄 :=
  iprop((spLoc d ↦{fullShare} m (spLoc d)) ∗ (enLoc d ↦{fullShare} m (enLoc d)) ∗ (a2Loc d ↦{fullShare} m (a2Loc d)))

/-! ## @main on the TensorCore -/

abbrev rSp : DevRef τ sig := Proc.devRef .tc (main_arg0 : Ref sig .tc)
abbrev rEn : DevRef τ sig := Proc.devRef .tc (main_arg1 : Ref sig .tc)
abbrev rA2 : DevRef τ sig := Proc.devRef .tc (main_arg2 : Ref sig .tc)
abbrev rCst : DevRef τ sig := Proc.devRef .tc (main_cst : Ref sig .tc)
abbrev rV0 : DevRef τ sig := Proc.devRef .tc (main_v0 : Ref sig .tc)
abbrev rC : DevRef τ sig := Proc.devRef .tc (main_c : Ref sig .tc)
abbrev rV1 : DevRef τ sig := Proc.devRef .tc (main_v1 : Ref sig .tc)
abbrev rSe : DevRef τ sig := Proc.devRef .tc (main_v2 : Ref sig .tc)
abbrev rO : DevRef τ sig := Proc.devRef .tc (main_v3 : Ref sig .tc)

/-- The TensorCore's arrays, all unscoped: the three arguments, the host operations' five, the result. -/
abbrev S9 : Finset (DevRef τ sig) := {rSp, rEn, rA2, rCst, rV0, rC, rV1, rSe, rO}

omit [FloatOps F] in
theorem held_S9 (d : Dev nD) (W : Valuation τ sig (Elt F)) :
    (held (T d) S9 W : sProp 𝕄) = iprop((spLoc d ↦{fullShare} W rSp) ∗ (enLoc d ↦{fullShare} W rEn) ∗ (a2Loc d ↦{fullShare} W rA2) ∗ ((SparseCore.T d).loc main_cst ↦{fullShare} W rCst) ∗ ((SparseCore.T d).loc main_v0 ↦{fullShare} W rV0) ∗ ((SparseCore.T d).loc main_c ↦{fullShare} W rC) ∗ ((SparseCore.T d).loc main_v1 ↦{fullShare} W rV1) ∗ (seLoc d ↦{fullShare} W rSe) ∗ (oLoc d ↦{fullShare} W rO)) := by
  unfold held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((spLoc d ↦{fullShare} W main_arg0) ∗ (enLoc d ↦{fullShare} W main_arg1) ∗ (a2Loc d ↦{fullShare} W main_arg2) ∗ ((SparseCore.T d).loc main_cst ↦{fullShare} W main_cst) ∗ ((SparseCore.T d).loc main_v0 ↦{fullShare} W main_v0) ∗ ((SparseCore.T d).loc main_c ↦{fullShare} W main_c) ∗ ((SparseCore.T d).loc main_v1 ↦{fullShare} W main_v1) ∗ (seLoc d ↦{fullShare} W main_v2) ∗ (oLoc d ↦{fullShare} W main_v3)) := by
  unfold unscopedBufs
  rw [show (Finset.univ.filter fun b : Ref sig .tc => ¬ b.isScoped) = {main_arg0, main_arg1, main_arg2, main_cst, main_v0, main_c, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S9 (V0 m d) := by
  rw [unscopedBufs_eq, held_S9]; rfl

/-- A buffer none of the five host operations writes is at its launch contents after them. -/
theorem V5_keep (d : Dev nD) {b : DevRef τ sig} (h1 : b ∉ (op1 (F := F)).writes) (h2 : b ∉ (op2 (F := F)).writes) (h3 : b ∉ (op3 (F := F)).writes)
    (h4 : b ∉ (op4 (F := F)).writes) (h5 : b ∉ (op5 (F := F)).writes) : V5 m d b = V0 m d b := by
  show (op5 (F := F)).result (V4 m d) b = _
  rw [(op5 (F := F)).result_of_not_mem _ h5]
  show (op4 (F := F)).result (V3 m d) b = _
  rw [(op4 (F := F)).result_of_not_mem _ h4]
  show (op3 (F := F)).result (V2 m d) b = _
  rw [(op3 (F := F)).result_of_not_mem _ h3]
  show (op2 (F := F)).result (V1 m d) b = _
  rw [(op2 (F := F)).result_of_not_mem _ h2]
  show (op1 (F := F)).result (V0 m d) b = _
  rw [(op1 (F := F)).result_of_not_mem _ h1]
theorem V5_sp (d : Dev nD) : V5 m d rSp = m (spLoc d) := V5_keep m d (show rSp ∉ ({rCst} : Finset (DevRef τ sig)) by decide) (show rSp ∉ ({rV0} : Finset (DevRef τ sig)) by decide) (show rSp ∉ ({rC} : Finset (DevRef τ sig)) by decide) (show rSp ∉ ({rV1} : Finset (DevRef τ sig)) by decide) (show rSp ∉ ({rSe} : Finset (DevRef τ sig)) by decide)
theorem V5_en (d : Dev nD) : V5 m d rEn = m (enLoc d) := V5_keep m d (show rEn ∉ ({rCst} : Finset (DevRef τ sig)) by decide) (show rEn ∉ ({rV0} : Finset (DevRef τ sig)) by decide) (show rEn ∉ ({rC} : Finset (DevRef τ sig)) by decide) (show rEn ∉ ({rV1} : Finset (DevRef τ sig)) by decide) (show rEn ∉ ({rSe} : Finset (DevRef τ sig)) by decide)
theorem V5_a2 (d : Dev nD) : V5 m d rA2 = m (a2Loc d) := V5_keep m d (show rA2 ∉ ({rCst} : Finset (DevRef τ sig)) by decide) (show rA2 ∉ ({rV0} : Finset (DevRef τ sig)) by decide) (show rA2 ∉ ({rC} : Finset (DevRef τ sig)) by decide) (show rA2 ∉ ({rV1} : Finset (DevRef τ sig)) by decide) (show rA2 ∉ ({rSe} : Finset (DevRef τ sig)) by decide)
theorem V5_o (d : Dev nD) : V5 m d rO = m (oLoc d) := V5_keep m d (show rO ∉ ({rCst} : Finset (DevRef τ sig)) by decide) (show rO ∉ ({rV0} : Finset (DevRef τ sig)) by decide) (show rO ∉ ({rC} : Finset (DevRef τ sig)) by decide) (show rO ∉ ({rV1} : Finset (DevRef τ sig)) by decide) (show rO ∉ ({rSe} : Finset (DevRef τ sig)) by decide)
theorem V5_se (d : Dev nD) : V5 m d rSe = se8 m d := rfl

theorem h1sub : (op1 (F := F)).bufs ⊆ S9 := show ({rCst} : Finset (DevRef τ sig)) ⊆ S9 by decide
theorem h2sub : (op2 (F := F)).bufs ⊆ S9 := show ({rCst, rV0} : Finset (DevRef τ sig)) ⊆ S9 by decide
theorem h3sub : (op3 (F := F)).bufs ⊆ S9 := show ({rC} : Finset (DevRef τ sig)) ⊆ S9 by decide
theorem h4sub : (op4 (F := F)).bufs ⊆ S9 := show ({rC, rV1} : Finset (DevRef τ sig)) ⊆ S9 by decide
theorem h5sub : (op5 (F := F)).bufs ⊆ S9 := show ({rV0, rV1, rA2, rSe} : Finset (DevRef τ sig)) ⊆ S9 by decide

omit [FloatOps F] in
/-- A family over the thirty-two tiles of a pair is the pair of the families. -/
theorem BS_sep (Φ Ψ : Fin 2 → Fin 16 → sProp 𝕄) :
    (bigSep Finset.univ fun c : Fin 2 => bigSep Finset.univ fun s : Fin 16 => iprop(Φ c s ∗ Ψ c s))
      = iprop((bigSep Finset.univ fun c : Fin 2 => bigSep Finset.univ fun s : Fin 16 => Φ c s)
          ∗ bigSep Finset.univ fun c : Fin 2 => bigSep Finset.univ fun s : Fin 16 => Ψ c s) := by
  simp only [bigSep_sep']

/-- What the call takes for the two SparseCores: every tile's shares and entries, array by array. -/
theorem st0_eq (d : Dev nD) :
    (bigSep Finset.univ fun c : Fin ((K (F := F)).nCore 0) => (P m).st 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => oLoc d ↦[(oSl (coordsV ⟨c.val, c.isLt⟩ ⟨s.val, s.isLt⟩)).view.set]{fullShare} m (oLoc d))) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ (oLoc d ↦[(oSl (coordsV ⟨c.val, c.isLt⟩ ⟨s.val, s.isLt⟩)).view.set]{fullShare} m (oLoc d)))) = _
  simp only [bigSep_sep']
/-- What it hands back: the same, the result's entries at what the tiles wrote. -/
theorem dn0_eq (d : Dev nD) :
    (bigSep Finset.univ fun c : Fin ((K (F := F)).nCore 0) => (P m).dn 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => iprop(∃ f, oLoc d ↦[(oSl (coordsV ⟨c.val, c.isLt⟩ ⟨s.val, s.isLt⟩)).view.set]{fullShare} f))) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ ∃ f, oLoc d ↦[(oSl (coordsV ⟨c.val, c.isLt⟩ ⟨s.val, s.isLt⟩)).view.set]{fullShare} f)) = _
  simp only [bigSep_sep']

/-- @main on device d's TensorCore: the five host operations over the nine arrays held whole, the arrays dealt to the
    tiles, the call, the species words and the energies rejoined; the three arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the five host operations, over the nine arrays held whole
  iapply (wp_hlo_within 𝒱 (SparseCore.T d) none Set.univ (op := op1) (S := S9) h1sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2sub (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) h4sub (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S9) h5sub (V := V4 m d)) $$ [Hb Hheld]
  · isplitl [Hb]; · iexact Hb
    iexact Hheld
  iintro ⟨Hb, Hheld⟩
  rw [wp_ret]; imodintro
  ihave Hh := (Entails.of_eq (held_S9 (F := F) d (V5 m d))) $$ Hheld
  icases Hh with ⟨Hsp, Hen, Ha2, -, -, -, -, Hse, Ho⟩
  rw [V5_sp, V5_en, V5_a2, V5_se, V5_o]
  -- the arrays dealt to the thirty-two tiles: read tokens of the inputs, the result's entries
  ihave Hsp' := (toks_split2 (ℓ := spLoc d) (f := m (spLoc d))) $$ Hsp
  icases Hsp' with ⟨Rsp, Tsp⟩
  ihave Tsp' := (Entails.of_eq (BS_sep (F := F) (fun c s => spLoc d ↦{(tq c.val s.val).left} m (spLoc d)) (fun c s => spLoc d ↦{(tq c.val s.val).right} m (spLoc d)))) $$ Tsp
  icases Tsp' with ⟨TspL, TspR⟩
  ihave Hen' := (toks_split (ℓ := enLoc d) (f := m (enLoc d))) $$ Hen
  icases Hen' with ⟨Ren, Ten⟩
  ihave Hse' := (toks_split (ℓ := seLoc d) (f := se8 m d)) $$ Hse
  icases Hse' with ⟨-, Tse⟩
  ihave To := (Entails.of_eq (oPts_tiles (F := F) d (m (oLoc d)))) $$ Ho
  -- the call
  iapply ((K (F := F)).wp_run (D (F := F)) 𝒱 (EH := EH) (P := P m) κ d 0) $$ [Hst TspL TspR Ten Tse To Rsp Ren Ha2]
  isplitr; · iexact Hctx
  isplitl [Hst]; · iexact Hst
  isplitl [TspL TspR Ten Tse To]
  · rw [st0_eq]
    isplitl [TspL]; · iexact TspL
    isplitl [TspR]; · iexact TspR
    isplitl [Ten]; · iexact Ten
    isplitl [Tse]; · iexact Tse
    iexact To
  iintro ⟨Hst, Hdn⟩
  ihave Hdn' := (Entails.of_eq (dn0_eq m d)) $$ Hdn
  icases Hdn' with ⟨TspL, TspR, Ten, -, -⟩
  -- the species words and the energies rejoined whole
  ihave Tsp := (Entails.of_eq (BS_sep (F := F) (fun c s => spLoc d ↦{(tq c.val s.val).left} m (spLoc d)) (fun c s => spLoc d ↦{(tq c.val s.val).right} m (spLoc d))).symm) $$ [TspL TspR]
  · isplitl [TspL]; · iexact TspL
    iexact TspR
  ihave Hsp := (toks_join2 (ℓ := spLoc d) (f := m (spLoc d))) $$ [Rsp Tsp]
  · isplitl [Rsp]; · iexact Rsp
    iexact Tsp
  ihave Hen := (toks_join (ℓ := enLoc d) (f := m (enLoc d))) $$ [Ren Ten]
  · isplitl [Ren]; · iexact Ren
    iexact Ten
  imodintro
  isplitl [Hst]; · iexact Hst
  isplitl [Hsp]; · iexact Hsp
  isplitl [Hen]; · iexact Hen
  iexact Ha2

def fq (d : Dev nD) (s' : Phys nD τ sig (Elt F)) : Prop :=
  s'.mem.mem (spLoc d) = m (spLoc d) ∧ s'.mem.mem (enLoc d) = m (enLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hi, Hx, Ha⟩, HSI⟩
  ihave H := (persistent_entails_right (SI_pointsTo_agree (st := s') (ℓ := spLoc d) (I := Finset.univ) (q := fullShare) (f := m (spLoc d)))) $$ [HSI Hi]
  · isplitl [HSI] <;> iassumption
  icases H with ⟨%h1, HSI, -⟩
  ihave H := (persistent_entails_right (SI_pointsTo_agree (st := s') (ℓ := enLoc d) (I := Finset.univ) (q := fullShare) (f := m (enLoc d)))) $$ [HSI Hx]
  · isplitl [HSI] <;> iassumption
  icases H with ⟨%h2, HSI, -⟩
  ihave H := (SI_pointsTo_agree (st := s') (ℓ := a2Loc d) (I := Finset.univ) (q := fullShare) (f := m (a2Loc d))) $$ [HSI Ha]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (spLoc c) = m (spLoc c) ∧ r.2.mem (enLoc c) = m (enLoc c) ∧ r.2.mem (a2Loc c) = m (a2Loc c)

theorem run_main' [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- Every weakly fair execution of the whole family of threads ends, nothing faulting, no handshake unanswered, the
    three argument arrays unchanged. -/
theorem run_main [∀ e, Nonempty (Elt F e)] (m : (ℓ : Loc nD τ sig) → Buf (Elt F) ℓ) (ρ : Dev nD → PrngReg)
    (hpre : ∀ (d : Dev nD) j, (m ((SparseCore.T d).loc main_arg0) j).toNat ≤ 6) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.Kernel.defs _ _).mono (fun _ h c => h c) (run_main' m ρ hpre)

end Cert.Proof.KB

end
-- ==== Proof.SaeSpec.lean ====
/-
  What both programs compute, as one function of the argument arrays over the extended reals: for each
  conformation (row) its energy plus the sum, over the row's 200 atoms, of the self energy the atom's species
  word names in the table of seven. A species word is one of the seven element numbers 0 … 6 (`InRange`);
  a word beyond the table reads as 0, a case the range excludes.
-/
import Idealize.ShloMosaic.PureOps.Ideal
import Idealize.ShloMosaic.Lib.ValueIdx

noncomputable section

namespace Cert.Sae

open Idealize.ShloMosaic Idealize.ShloMosaic.ValueIdx

/-- species words: 16384 conformations of 200 atoms -/
abbrev SSp : Shape := ⟨2, ![16384, 200]⟩
/-- one energy per conformation -/
abbrev SEn : Shape := ⟨1, ![16384]⟩
/-- the seven self energies -/
abbrev SSe : Shape := ⟨1, ![7]⟩

/-- Every species word is one of the seven element numbers. -/
def InRange (sp : IVec SSp 32) : Prop := ∀ j, (sp j).toNat ≤ 6

/-- The table entry a species word names. -/
def seAt (se : FVec Ideal SSe .f32) (w : BitVec 32) : EReal :=
  if h : w.toNat < 7 then se (ix1 ⟨w.toNat, h⟩) else 0

/-- The atoms' self energies of conformation `r`, summed. -/
def rowSum (sp : IVec SSp 32) (se : FVec Ideal SSe .f32) (r : Fin 16384) : EReal :=
  ∑ c : Fin 200, seAt se (sp (ix2 r c))

/-- The result array: energy plus summed self energies, conformation by conformation. -/
def out (sp : IVec SSp 32) (en : FVec Ideal SEn .f32) (se : FVec Ideal SSe .f32) : FVec Ideal SEn .f32 :=
  fun i => en i + rowSum sp se (i 0)

theorem out_apply (sp : IVec SSp 32) (en : FVec Ideal SEn .f32) (se : FVec Ideal SSe .f32) (r : Fin 16384) :
    out sp en se (ix1 r) = en (ix1 r) + rowSum sp se r := rfl

end Cert.Sae

end
-- ==== Proof.LibIndexRanges.lean ====
/- Index ranges out of a printed precondition, and through host layout operations — nothing here names a program.

   A precondition that bounds an integer input array is printed as `all((lo ≤ a) & (a ≤ hi))`: two signed comparisons of
   the array against broadcast constants, their elementwise `and`, and a reduction by `and` from 1 over every axis. From the
   reduction's value being 1 the lemmas below give the bounds at every index, as signed values and as unsigned ones.
   A predicate that holds of every entry of an array still holds of every entry after the host's layout operations — a
   reshape, a transposition, a padding with a value that satisfies it, a broadcast of an array of one repeated value.
   Last, the closed form of an index list a program builds as iota → broadcast along a new axis → reshape → pad: entry
   `p` is `p / k` below the original length and the padding value after it. -/
import Idealize.ShloMosaic.Lib.ReduceAll
import Idealize.ShloMosaic.Lib.ValueIdx
import Idealize.ShloMosaic.Lib.IdealHost
import Idealize.ShloMosaic.Lib.Pipeline.Value
import Idealize.ShloMosaic.Lib.KernelVsHost

noncomputable section

namespace Cert.Lib

open Idealize.ShloMosaic Idealize.ShloMosaic.ValueIdx

/-! ## Words -/

/-- The rank-zero shape has one index (what `Host.reduce_andi_all` asks of a reduction over every axis). -/
instance subsingleton_scalar_idx : Subsingleton (⟨0, ![]⟩ : Shape).Idx := ⟨fun a b => funext fun d => d.elim0⟩

/-- A word between 0 and `n` read signed is at most `n` read unsigned. -/
theorem toNat_le_of_toInt (x : BitVec 32) (n : Nat) (h0 : 0 ≤ x.toInt) (h1 : x.toInt ≤ (n : Int)) : x.toNat ≤ n := by
  have := x.isLt
  unfold BitVec.toInt at h0 h1
  split at h0 <;> omega

/-- A word at least 0 read signed is its unsigned value. -/
theorem toInt_eq_toNat_of_nonneg (x : BitVec 32) (h0 : 0 ≤ x.toInt) : x.toInt = (x.toNat : Int) := by
  have := x.isLt
  unfold BitVec.toInt at h0 ⊢
  split at h0 <;> split <;> omega

/-! ## A predicate on every entry, through the layout operations -/

/-- A broadcast of an array whose every element is `c` reads `c` everywhere. -/
theorem bcast_const {s T : Shape} {α : Type} (dims : Fin s.rank → Fin T.rank) (h : s.BroadcastsInDim T dims)
    (x : s.Idx → α) (c : α) (hx : ∀ k, x k = c) (j : T.Idx) : broadcastInDim T dims h x j = c := by
  unfold broadcastInDim; exact hx _

/-- A broadcast only repeats entries: what holds of every entry of the operand holds of every entry of the result. -/
theorem bcast_forall {s T : Shape} {α : Type} (P : α → Prop) (dims : Fin s.rank → Fin T.rank) (h : s.BroadcastsInDim T dims)
    (x : s.Idx → α) (hx : ∀ k, P (x k)) (j : T.Idx) : P (broadcastInDim T dims h x j) := by
  unfold broadcastInDim; exact hx _

/-- A shape cast only moves entries. -/
theorem shapeCast_forall {s t : Shape} {α : Type} (P : α → Prop) (x : s.Idx → α) (h : s.ShapeCasts t)
    (hx : ∀ k, P (x k)) (j : t.Idx) : P (shapeCast t x h j) := by
  unfold shapeCast; exact hx _

/-- A transposition only moves entries. -/
theorem transpose_forall {s t : Shape} {α : Type} (P : α → Prop) (perm : List (Fin s.rank)) (x : s.Idx → α)
    (h : s.Transposes perm t) (hx : ∀ k, P (x k)) (j : t.Idx) : P (transpose t perm x h j) := by
  unfold transpose; exact hx _

/-- Every entry of a padded array is an entry of the operand or the padding value. -/
theorem pad_forall {s t u : Shape} {α : Type} (P : α → Prop) (lo hi interior : Fin s.rank → Nat) (x : s.Idx → α)
    (v : u.Idx → α) (h : s.Pads lo hi interior t) (hu : 0 < u.numel) (hx : ∀ k, P (x k))
    (hv : P (v (Shape.Idx.first hu))) (j : t.Idx) : P (pad t lo hi interior x v h hu j) := by
  unfold pad
  split
  · exact hx _
  · exact hv

/-! ## The precondition's `all`, read back -/

/-- A conjunction of two one-bit arrays is 1 at an index exactly when both are. -/
theorem andi_at {s : Shape} (X Y : IVec s 1) (i : s.Idx) : andi X Y i = 1#1 ↔ X i = 1#1 ∧ Y i = 1#1 :=
  IntOp.andi_eq_one

/-- A reduction by `and` over every axis that is 1 had a 1 at every index of its operand. -/
theorem all_one {s : Shape} {axes : List (Fin s.rank)} (x : IVec s 1) (init : IVec ⟨0, ![]⟩ 1)
    (red : s.ReducesTo axes ⟨0, ![]⟩) (hu : 0 < (⟨0, ![]⟩ : Shape).numel)
    (h : Host.reduce IntOp.andi x init red hu ix0 = 1#1) (i : s.Idx) : x i = 1#1 :=
  Host.reduce_andi_all x init red hu ix0 h i

/-- `all((lo ≤ a) & (a ≤ hi))` being 1 gives the range, read signed, at every index. -/
theorem range_of_all {s : Shape} {axes : List (Fin s.rank)} (a : IVec s 32) (lo hi : BitVec 32)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 lo)))
          (cmpi .sle a (broadcastInDim s ![] hb (constantI ⟨0, ![]⟩ 32 hi))))
        (constantI ⟨0, ![]⟩ 1 1#1) red hu ix0 = 1#1) (i : s.Idx) :
    lo.toInt ≤ (a i).toInt ∧ (a i).toInt ≤ hi.toInt := by
  have e := Host.reduce_andi_all _ _ red hu ix0 h i
  change IntOp.andi (IntOp.cmpi .sge (a i) (broadcastInDim s ![] hb (constantI ⟨0, ![]⟩ 32 lo) i))
      (IntOp.cmpi .sle (a i) (broadcastInDim s ![] hb (constantI ⟨0, ![]⟩ 32 hi) i)) = 1#1 at e
  rw [bcast_const _ hb (constantI ⟨0, ![]⟩ 32 lo) lo (fun _ => rfl), bcast_const _ hb (constantI ⟨0, ![]⟩ 32 hi) hi (fun _ => rfl),
    IntOp.andi_eq_one, IntOp.cmpi_sge, IntOp.cmpi_sle] at e
  exact e

/-- The same for a range `[0, c]` with `c` a literal below `2 ^ 31`, as an unsigned bound. -/
theorem toNat_le_of_all {s : Shape} {axes : List (Fin s.rank)} (a : IVec s 32) (c : Nat) (hc : c < 2 ^ 31)
    (hb : (⟨0, ![]⟩ : Shape).BroadcastsInDim s ![]) (red : s.ReducesTo axes ⟨0, ![]⟩) (hu : 0 < (⟨0, ![]⟩ : Shape).numel)
    (h : Host.reduce IntOp.andi
        (andi (cmpi .sge a (broadcastInDim s ![] hb (constantI ⟨0, ![]⟩ 32 0#32)))
          (cmpi .sle a (broadcastInDim s ![] hb (constantI ⟨0, ![]⟩ 32 (BitVec.ofNat 32 c)))))
        (constantI ⟨0, ![]⟩ 1 1#1) red hu ix0 = 1#1) (i : s.Idx) :
    (a i).toNat ≤ c := by
  obtain ⟨h0, h1⟩ := range_of_all a 0#32 (BitVec.ofNat 32 c) hb red hu h i
  have z : (0#32 : BitVec 32).toInt = 0 := by decide
  have hcI : (BitVec.ofNat 32 c).toInt = (c : Int) := by
    rw [BitVec.toInt_eq_toNat_of_lt (by rw [BitVec.toNat_ofNat]; omega), BitVec.toNat_ofNat]
    omega
  rw [z] at h0; rw [hcI] at h1
  exact toNat_le_of_toInt _ c h0 h1

/-! ## An index list built as iota → broadcast along a new axis → reshape → pad -/

/-- Entry `p` of the list `[0, 0, …, 0, 1, 1, …]` (each of `n` numbers `k` times over) padded with `c` to `N` entries:
    `p / k` below `n k`, `c` from there on. -/
theorem iota_rep_pad_toNat {n k N : Nat} (hk : 0 < k) (hn : n * k < 2 ^ 32) (c : BitVec 32)
    (hb : (⟨1, ![n]⟩ : Shape).BroadcastsInDim ⟨2, ![n, k]⟩ ![0])
    (hc : (⟨2, ![n, k]⟩ : Shape).ShapeCasts ⟨1, ![n * k]⟩)
    (hp : (⟨1, ![n * k]⟩ : Shape).Pads (![0] : Fin 1 → Nat) ![N - n * k] ![0] ⟨1, ![N]⟩)
    (hu : 0 < (⟨0, ![]⟩ : Shape).numel) (hn1 : n ≠ 1) (p : Fin N) :
    (pad ⟨1, ![N]⟩ ![0] ![N - n * k] ![0]
        (shapeCast ⟨1, ![n * k]⟩ (broadcastInDim ⟨2, ![n, k]⟩ ![0] hb (iotaInDim ⟨1, ![n]⟩ 32 0)) hc)
        (constantI ⟨0, ![]⟩ 32 c) hp hu (ix1 p)).toNat
      = if p.val < n * k then p.val / k else c.toNat := by
  by_cases hlt : p.val < n * k
  · rw [if_pos hlt]
    have hq : p.val / k < n := Nat.div_lt_of_lt_mul (by rwa [Nat.mul_comm] at hlt)
    rw [pad_apply_of_inside _ _ _ _ _ hp hu (ix1 p) (ix1 ⟨p.val, hlt⟩) (by
      intro a
      obtain rfl : a = 0 := Subsingleton.elim _ _
      show p.val = 0 + p.val * (0 + 1)
      omega)]
    rw [shapeCast_apply _ hc (ix1 ⟨p.val, hlt⟩) (ix2 ⟨p.val / k, hq⟩ ⟨p.val % k, Nat.mod_lt _ hk⟩) (by
      rw [Shape.rowMajor_val_two, Shape.rowMajor_val_one]
      show (p.val / k) * k + p.val % k = p.val
      exact Nat.div_add_mod' _ _)]
    rw [broadcastInDim_apply _ hb _ (ix2 ⟨p.val / k, hq⟩ ⟨p.val % k, Nat.mod_lt _ hk⟩) (ix1 ⟨p.val / k, hq⟩) (by
      intro a
      obtain rfl : a = 0 := Subsingleton.elim _ _
      show p.val / k = if n = 1 then 0 else p.val / k
      rw [if_neg hn1])]
    rw [iotaInDim_apply]
    show (BitVec.ofNat 32 (p.val / k)).toNat = _
    rw [BitVec.toNat_ofNat]
    have : p.val / k ≤ p.val := Nat.div_le_self _ _
    exact Nat.mod_eq_of_lt (by omega)
  · rw [if_neg hlt]
    rw [pad_apply_of_not_inside _ _ _ _ _ hp hu (ix1 p) 0 (by
      show ¬(0 ≤ p.val ∧ (p.val - 0) % (0 + 1) = 0 ∧ (p.val - 0) / (0 + 1) < n * k)
      omega)]
    rfl

end Cert.Lib

end
-- ==== Proof.PreRange.lean ====
/-
  The input-domain precondition bounds the species words: its third conjunct is the conjunction, over every entry,
  of 0 ≤ word and word ≤ 6 read signed; a word in that signed range is at most 6 read unsigned.
-/
import proofs.«206987_g17583596110038_cont_8to1_771_12_alg».proof.Pre_input_domain
import proofs.«206987_g17583596110038_cont_8to1_771_12_alg».proof.Proof.Gen.Pre_input_domain
import proofs.«206987_g17583596110038_cont_8to1_771_12_alg».proof.Proof.SaeSpec
import proofs.«206987_g17583596110038_cont_8to1_771_12_alg».proof.Proof.LibIndexRanges

noncomputable section

namespace Cert.Sae

open Idealize.ShloMosaic Idealize.ShloMosaic.ValueIdx

/-- The precondition holding (all ones) puts every species word among the seven element numbers. -/
theorem inRange_of_pre {F : FTy → Type} [FloatOps F] [Cert.Pre_input_domain.Facts]
    (sp : IVec Cert.Pre_input_domain.S16384x200 32) (en : FVec F Cert.Pre_input_domain.S16384 .f32)
    (se : FVec F Cert.Pre_input_domain.S7 .f32)
    (h : Cert.Pre_input_domain.fn (F := F) sp en se = fun _ => 1#1) : Cert.Sae.InRange sp := by
  intro j
  have h0 := congrFun h ix0
  unfold Cert.Pre_input_domain.fn at h0
  have h1 := ((Cert.Lib.andi_at _ _ ix0).1 h0).2
  exact Cert.Lib.toNat_le_of_all sp 6 (by decide) _ _ _ h1 j

end Cert.Sae

end
-- ==== Proof.KB.Frame.lean ====
/-
  The kernel's frame: under the input-domain precondition every species word is one of the seven element numbers,
  and the run of the whole family of threads leaves the three argument arrays unchanged.
-/
import proofs.«206987_g17583596110038_cont_8to1_771_12_alg».proof.Proof.KB.Launch
import proofs.«206987_g17583596110038_cont_8to1_771_12_alg».proof.Proof.PreRange

noncomputable section

namespace Cert.Proof.KB

open Idealize.ShloMosaic

/-- The frame claimed of the kernel: the precondition bounds the species words, which is what the run asks. -/
theorem frame : Cert.frame_Kernel (hKernel := Cert.Kernel.Gen.facts) (hPre_input_domain := Cert.Pre_input_domain.Gen.facts) :=
  fun m ρ hpre =>
    (θ_run Cert.Kernel.defs _ _).mono (fun _ h c => h c)
      (run_main (F := Bits) m ρ (fun d j =>
        Cert.Sae.inRange_of_pre (F := Bits) _ _ _ (hpre d) j))

end Cert.Proof.KB

end
-- ==== Proof.KI.Base.lean ====
/-
  The program as the launch theorem sees it, the resource algebra (the handshakes' rounds beside the transfers'
  counters), a tile's thread and its slice of the result array, and one rule: an indexed load bound into a
  continuation is a plain load of the whole scratch followed by the gather.
-/
import proofs.«206987_g17583596110038_cont_8to1_771_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206987_g17583596110038_cont_8to1_771_12_alg».proof.Proof.Gen.KernelIdeal
import proofs.«206987_g17583596110038_cont_8to1_771_12_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

/-- The tile at grid coordinates L: SparseCore L 0, vector subcore L 1. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The 512 entries of the result array the tile writes, as the program slices them. -/
abbrev oSl (L : grid0.Coords) : Memref sig .scVector .hbm S512 .f32 :=
  (oW).slice (Rect.unit (s := S16384) (k0_off84 L) S512.size (k0_off84_inb L)) (fun _ => rfl)

/-- An indexed load bound into a continuation is a plain load of the whole scratch, the continuation applied to the gather. -/
theorem wp_gather_bind {Λ : Labels} {defs : Defs nD τ sig (Elt F) Λ} (𝒱 : Variants) (c : Thread nD τ) (bd : Option 𝒱.V) (E : Set ℕ)
    {s t : Shape} {e : EltTy} {α : Type} {Q : α → sProp 𝕄}
    {base : Memref sig c.2.kind .vmem s e} {idxs : Fin s.rank → IVec t 32}
    {h : ∀ a x, (idxs a x).toNat < s.size a} {hl : base.view.Loads} {k : Vec F t e → Prog (TpuEff nD τ sig (Elt F) Λ c.2) α} :
    wp frame (wpE defs 𝒱 c bd) E (Prog.op (TpuEff.load base (.whole s) (View.loadsAt_whole hl)) fun f => k (loadIdx f idxs h)) Q
      ⊢ wp frame (wpE defs 𝒱 c bd) E (SparseCore.vectorLoadIdx base idxs h hl >>= k) Q := by
  rw [SparseCore.vectorLoadIdx_bind]

end Cert.Proof.KI

end
-- ==== Proof.KI.RegionT1.lean ====
/-
  One trip of the loop that fills the table of sums of four: eight times, two gathers out of the pair table (at the
  entry number's high six bits and low six bits) are added and stored, sixteen entries at a time. The gathers' indices
  are the trip's entry numbers shifted or masked: inside the pair table at every trip, by computation.
-/
import proofs.«206987_g17583596110038_cont_8to1_771_12_alg».proof.Proof.KI.Base

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

/-- Before and after each trip: the pair table and the table of sums of four, each whole. -/
def invT1 (d : Dev nD) (L : grid0.Coords) (_ : Nat) (_ : Unit) : sProp 𝕄 :=
  iprop((∃ g, (t2).view.loc (thr d L) ↦{fullShare} g) ∗ (∃ g, (t4).view.loc (thr d L) ↦{fullShare} g))

theorem region_t1 (d : Dev nD) (L : grid0.Coords) (v2 : BitVec 32) (v624 : Vec F S16 .f32) :
    ∀ (k : Fin k0_t1_loop.trips) (acc : Unit), invT1 (F := F) d L k.val acc ⊢
      wp frame (wpE (defs₀ (F := F)) 𝒱₀ (thr d L) none) Set.univ
        (k0_t1_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invT1 (F := F) d L (k.val + 1)) := by
  intro k _
  unfold invT1
  iintro ⟨⟨%g2, H2⟩, ⟨%g4, H4⟩⟩
  sl_exec (disch := first | sl_decide | (revert k; decide +kernel))
  repeat (iapply (wp_gather_bind 𝒱₀ (thr d L) none Set.univ); sl_exec (disch := first | sl_decide | (revert k; decide +kernel)))
  sl_step
  isplitl [H2]
  · iexists _; iexact H2
  · iexists _; iexact H4

end Cert.Proof.KI

end
-- ==== Proof.KI.Offs.lean ====
/-
  The offsets at which a row group's sixteen lane vectors are stored into the lane scratch, in closed form: the
  trip's parity times 256 (the scratch has two halves, used alternately) plus sixteen times the row. One equation per
  store and per chunk loop, each by evaluation at the loop's eight trips.
-/
import proofs.«206987_g17583596110038_cont_8to1_771_12_alg».proof.Proof.Gen.KernelIdeal
import Idealize.ShloMosaic.Lib.Exec

set_option Elab.async false

namespace Cert.Proof.KI

open Cert.KernelIdeal Cert.KernelIdeal.Gen
open Idealize.ShloMosaic Idealize.SL.Sem

theorem k0_off12_eq : ∀ k : Fin k0_t2_loop.trips, k0_off12 k = ![k.val % 2 * 256 + 0] := by decide +kernel
instance closedOff_k0_off12 (k : Fin k0_t2_loop.trips) : ClosedOff (k0_off12 k) := ⟨![k.val % 2 * 256 + 0], k0_off12_eq k⟩
theorem k0_off13_eq : ∀ k : Fin k0_t2_loop.trips, k0_off13 k = ![k.val % 2 * 256 + 16] := by decide +kernel
instance closedOff_k0_off13 (k : Fin k0_t2_loop.trips) : ClosedOff (k0_off13 k) := ⟨![k.val % 2 * 256 + 16], k0_off13_eq k⟩
theorem k0_off14_eq : ∀ k : Fin k0_t2_loop.trips, k0_off14 k = ![k.val % 2 * 256 + 32] := by decide +kernel
instance closedOff_k0_off14 (k : Fin k0_t2_loop.trips) : ClosedOff (k0_off14 k) := ⟨![k.val % 2 * 256 + 32], k0_off14_eq k⟩
theorem k0_off15_eq : ∀ k : Fin k0_t2_loop.trips, k0_off15 k = ![k.val % 2 * 256 + 48] := by decide +kernel
instance closedOff_k0_off15 (k : Fin k0_t2_loop.trips) : ClosedOff (k0_off15 k) := ⟨![k.val % 2 * 256 + 48], k0_off15_eq k⟩
theorem k0_off16_eq : ∀ k : Fin k0_t2_loop.trips, k0_off16 k = ![k.val % 2 * 256 + 64] := by decide +kernel
instance closedOff_k0_off16 (k : Fin k0_t2_loop.trips) : ClosedOff (k0_off16 k) := ⟨![k.val % 2 * 256 + 64], k0_off16_eq k⟩
theorem k0_off17_eq : ∀ k : Fin k0_t2_loop.trips, k0_off17 k = ![k.val % 2 * 256 + 80] := by decide +kernel
instance closedOff_k0_off17 (k : Fin k0_t2_loop.trips) : ClosedOff (k0_off17 k) := ⟨![k.val % 2 * 256 + 80], k0_off17_eq k⟩
theorem k0_off18_eq : ∀ k : Fin k0_t2_loop.trips, k0_off18 k = ![k.val % 2 * 256 + 96] := by decide +kernel
instance closedOff_k0_off18 (k : Fin k0_t2_loop.trips) : ClosedOff (k0_off18 k) := ⟨![k.val % 2 * 256 + 96], k0_off18_eq k⟩
theorem k0_off19_eq : ∀ k : Fin k0_t2_loop.trips, k0_off19 k = ![k.val % 2 * 256 + 112] := by decide +kernel
instance closedOff_k0_off19 (k : Fin k0_t2_loop.trips) : ClosedOff (k0_off19 k) := ⟨![k.val % 2 * 256 + 112], k0_off19_eq k⟩
theorem k0_off20_eq : ∀ k : Fin k0_t2_loop.trips, k0_off20 k = ![k.val % 2 * 256 + 128] := by decide +kernel
instance closedOff_k0_off20 (k : Fin k0_t2_loop.trips) : ClosedOff (k0_off20 k) := ⟨![k.val % 2 * 256 + 128], k0_off20_eq k⟩
theorem k0_off21_eq : ∀ k : Fin k0_t2_loop.trips, k0_off21 k = ![k.val % 2 * 256 + 144] := by decide +kernel
instance closedOff_k0_off21 (k : Fin k0_t2_loop.trips) : ClosedOff (k0_off21 k) := ⟨![k.val % 2 * 256 + 144], k0_off21_eq k⟩
theorem k0_off22_eq : ∀ k : Fin k0_t2_loop.trips, k0_off22 k = ![k.val % 2 * 256 + 160] := by decide +kernel
instance closedOff_k0_off22 (k : Fin k0_t2_loop.trips) : ClosedOff (k0_off22 k) := ⟨![k.val % 2 * 256 + 160], k0_off22_eq k⟩
theorem k0_off23_eq : ∀ k : Fin k0_t2_loop.trips, k0_off23 k = ![k.val % 2 * 256 + 176] := by decide +kernel
instance closedOff_k0_off23 (k : Fin k0_t2_loop.trips) : ClosedOff (k0_off23 k) := ⟨![k.val % 2 * 256 + 176], k0_off23_eq k⟩
theorem k0_off24_eq : ∀ k : Fin k0_t2_loop.trips, k0_off24 k = ![k.val % 2 * 256 + 192] := by decide +kernel
instance closedOff_k0_off24 (k : Fin k0_t2_loop.trips) : ClosedOff (k0_off24 k) := ⟨![k.val % 2 * 256 + 192], k0_off24_eq k⟩
theorem k0_off25_eq : ∀ k : Fin k0_t2_loop.trips, k0_off25 k = ![k.val % 2 * 256 + 208] := by decide +kernel
instance closedOff_k0_off25 (k : Fin k0_t2_loop.trips) : ClosedOff (k0_off25 k) := ⟨![k.val % 2 * 256 + 208], k0_off25_eq k⟩
theorem k0_off26_eq : ∀ k : Fin k0_t2_loop.trips, k0_off26 k = ![k.val % 2 * 256 + 224] := by decide +kernel
instance closedOff_k0_off26 (k : Fin k0_t2_loop.trips) : ClosedOff (k0_off26 k) := ⟨![k.val % 2 * 256 + 224], k0_off26_eq k⟩
theorem k0_off27_eq : ∀ k : Fin k0_t2_loop.trips, k0_off27 k = ![k.val % 2 * 256 + 240] := by decide +kernel
instance closedOff_k0_off27 (k : Fin k0_t2_loop.trips) : ClosedOff (k0_off27 k) := ⟨![k.val % 2 * 256 + 240], k0_off27_eq k⟩
theorem k0_off30_eq : ∀ k : Fin k0_t3_loop.trips, k0_off30 k = ![k.val % 2 * 256 + 0] := by decide +kernel
instance closedOff_k0_off30 (k : Fin k0_t3_loop.trips) : ClosedOff (k0_off30 k) := ⟨![k.val % 2 * 256 + 0], k0_off30_eq k⟩
theorem k0_off31_eq : ∀ k : Fin k0_t3_loop.trips, k0_off31 k = ![k.val % 2 * 256 + 16] := by decide +kernel
instance closedOff_k0_off31 (k : Fin k0_t3_loop.trips) : ClosedOff (k0_off31 k) := ⟨![k.val % 2 * 256 + 16], k0_off31_eq k⟩
theorem k0_off32_eq : ∀ k : Fin k0_t3_loop.trips, k0_off32 k = ![k.val % 2 * 256 + 32] := by decide +kernel
instance closedOff_k0_off32 (k : Fin k0_t3_loop.trips) : ClosedOff (k0_off32 k) := ⟨![k.val % 2 * 256 + 32], k0_off32_eq k⟩
theorem k0_off33_eq : ∀ k : Fin k0_t3_loop.trips, k0_off33 k = ![k.val % 2 * 256 + 48] := by decide +kernel
instance closedOff_k0_off33 (k : Fin k0_t3_loop.trips) : ClosedOff (k0_off33 k) := ⟨![k.val % 2 * 256 + 48], k0_off33_eq k⟩
theorem k0_off34_eq : ∀ k : Fin k0_t3_loop.trips, k0_off34 k = ![k.val % 2 * 256 + 64] := by decide +kernel
instance closedOff_k0_off34 (k : Fin k0_t3_loop.trips) : ClosedOff (k0_off34 k) := ⟨![k.val % 2 * 256 + 64], k0_off34_eq k⟩
theorem k0_off35_eq : ∀ k : Fin k0_t3_loop.trips, k0_off35 k = ![k.val % 2 * 256 + 80] := by decide +kernel
instance closedOff_k0_off35 (k : Fin k0_t3_loop.trips) : ClosedOff (k0_off35 k) := ⟨![k.val % 2 * 256 + 80], k0_off35_eq k⟩
theorem k0_off36_eq : ∀ k : Fin k0_t3_loop.trips, k0_off36 k = ![k.val % 2 * 256 + 96] := by decide +kernel
instance closedOff_k0_off36 (k : Fin k0_t3_loop.trips) : ClosedOff (k0_off36 k) := ⟨![k.val % 2 * 256 + 96], k0_off36_eq k⟩
theorem k0_off37_eq : ∀ k : Fin k0_t3_loop.trips, k0_off37 k = ![k.val % 2 * 256 + 112] := by decide +kernel
instance closedOff_k0_off37 (k : Fin k0_t3_loop.trips) : ClosedOff (k0_off37 k) := ⟨![k.val % 2 * 256 + 112], k0_off37_eq k⟩
theorem k0_off38_eq : ∀ k : Fin k0_t3_loop.trips, k0_off38 k = ![k.val % 2 * 256 + 128] := by decide +kernel
instance closedOff_k0_off38 (k : Fin k0_t3_loop.trips) : ClosedOff (k0_off38 k) := ⟨![k.val % 2 * 256 + 128], k0_off38_eq k⟩
theorem k0_off39_eq : ∀ k : Fin k0_t3_loop.trips, k0_off39 k = ![k.val % 2 * 256 + 144] := by decide +kernel
instance closedOff_k0_off39 (k : Fin k0_t3_loop.trips) : ClosedOff (k0_off39 k) := ⟨![k.val % 2 * 256 + 144], k0_off39_eq k⟩
theorem k0_off40_eq : ∀ k : Fin k0_t3_loop.trips, k0_off40 k = ![k.val % 2 * 256 + 160] := by decide +kernel
instance closedOff_k0_off40 (k : Fin k0_t3_loop.trips) : ClosedOff (k0_off40 k) := ⟨![k.val % 2 * 256 + 160], k0_off40_eq k⟩
theorem k0_off41_eq : ∀ k : Fin k0_t3_loop.trips, k0_off41 k = ![k.val % 2 * 256 + 176] := by decide +kernel
instance closedOff_k0_off41 (k : Fin k0_t3_loop.trips) : ClosedOff (k0_off41 k) := ⟨![k.val % 2 * 256 + 176], k0_off41_eq k⟩
theorem k0_off42_eq : ∀ k : Fin k0_t3_loop.trips, k0_off42 k = ![k.val % 2 * 256 + 192] := by decide +kernel
instance closedOff_k0_off42 (k : Fin k0_t3_loop.trips) : ClosedOff (k0_off42 k) := ⟨![k.val % 2 * 256 + 192], k0_off42_eq k⟩
theorem k0_off43_eq : ∀ k : Fin k0_t3_loop.trips, k0_off43 k = ![k.val % 2 * 256 + 208] := by decide +kernel
instance closedOff_k0_off43 (k : Fin k0_t3_loop.trips) : ClosedOff (k0_off43 k) := ⟨![k.val % 2 * 256 + 208], k0_off43_eq k⟩
theorem k0_off44_eq : ∀ k : Fin k0_t3_loop.trips, k0_off44 k = ![k.val % 2 * 256 + 224] := by decide +kernel
instance closedOff_k0_off44 (k : Fin k0_t3_loop.trips) : ClosedOff (k0_off44 k) := ⟨![k.val % 2 * 256 + 224], k0_off44_eq k⟩
theorem k0_off45_eq : ∀ k : Fin k0_t3_loop.trips, k0_off45 k = ![k.val % 2 * 256 + 240] := by decide +kernel
instance closedOff_k0_off45 (k : Fin k0_t3_loop.trips) : ClosedOff (k0_off45 k) := ⟨![k.val % 2 * 256 + 240], k0_off45_eq k⟩
theorem k0_off48_eq : ∀ k : Fin k0_t4_loop.trips, k0_off48 k = ![k.val % 2 * 256 + 0] := by decide +kernel
instance closedOff_k0_off48 (k : Fin k0_t4_loop.trips) : ClosedOff (k0_off48 k) := ⟨![k.val % 2 * 256 + 0], k0_off48_eq k⟩
theorem k0_off49_eq : ∀ k : Fin k0_t4_loop.trips, k0_off49 k = ![k.val % 2 * 256 + 16] := by decide +kernel
instance closedOff_k0_off49 (k : Fin k0_t4_loop.trips) : ClosedOff (k0_off49 k) := ⟨![k.val % 2 * 256 + 16], k0_off49_eq k⟩
theorem k0_off50_eq : ∀ k : Fin k0_t4_loop.trips, k0_off50 k = ![k.val % 2 * 256 + 32] := by decide +kernel
instance closedOff_k0_off50 (k : Fin k0_t4_loop.trips) : ClosedOff (k0_off50 k) := ⟨![k.val % 2 * 256 + 32], k0_off50_eq k⟩
theorem k0_off51_eq : ∀ k : Fin k0_t4_loop.trips, k0_off51 k = ![k.val % 2 * 256 + 48] := by decide +kernel
instance closedOff_k0_off51 (k : Fin k0_t4_loop.trips) : ClosedOff (k0_off51 k) := ⟨![k.val % 2 * 256 + 48], k0_off51_eq k⟩
theorem k0_off52_eq : ∀ k : Fin k0_t4_loop.trips, k0_off52 k = ![k.val % 2 * 256 + 64] := by decide +kernel
instance closedOff_k0_off52 (k : Fin k0_t4_loop.trips) : ClosedOff (k0_off52 k) := ⟨![k.val % 2 * 256 + 64], k0_off52_eq k⟩
theorem k0_off53_eq : ∀ k : Fin k0_t4_loop.trips, k0_off53 k = ![k.val % 2 * 256 + 80] := by decide +kernel
instance closedOff_k0_off53 (k : Fin k0_t4_loop.trips) : ClosedOff (k0_off53 k) := ⟨![k.val % 2 * 256 + 80], k0_off53_eq k⟩
theorem k0_off54_eq : ∀ k : Fin k0_t4_loop.trips, k0_off54 k = ![k.val % 2 * 256 + 96] := by decide +kernel
instance closedOff_k0_off54 (k : Fin k0_t4_loop.trips) : ClosedOff (k0_off54 k) := ⟨![k.val % 2 * 256 + 96], k0_off54_eq k⟩
theorem k0_off55_eq : ∀ k : Fin k0_t4_loop.trips, k0_off55 k = ![k.val % 2 * 256 + 112] := by decide +kernel
instance closedOff_k0_off55 (k : Fin k0_t4_loop.trips) : ClosedOff (k0_off55 k) := ⟨![k.val % 2 * 256 + 112], k0_off55_eq k⟩
theorem k0_off56_eq : ∀ k : Fin k0_t4_loop.trips, k0_off56 k = ![k.val % 2 * 256 + 128] := by decide +kernel
instance closedOff_k0_off56 (k : Fin k0_t4_loop.trips) : ClosedOff (k0_off56 k) := ⟨![k.val % 2 * 256 + 128], k0_off56_eq k⟩
theorem k0_off57_eq : ∀ k : Fin k0_t4_loop.trips, k0_off57 k = ![k.val % 2 * 256 + 144] := by decide +kernel
instance closedOff_k0_off57 (k : Fin k0_t4_loop.trips) : ClosedOff (k0_off57 k) := ⟨![k.val % 2 * 256 + 144], k0_off57_eq k⟩
theorem k0_off58_eq : ∀ k : Fin k0_t4_loop.trips, k0_off58 k = ![k.val % 2 * 256 + 160] := by decide +kernel
instance closedOff_k0_off58 (k : Fin k0_t4_loop.trips) : ClosedOff (k0_off58 k) := ⟨![k.val % 2 * 256 + 160], k0_off58_eq k⟩
theorem k0_off59_eq : ∀ k : Fin k0_t4_loop.trips, k0_off59 k = ![k.val % 2 * 256 + 176] := by decide +kernel
instance closedOff_k0_off59 (k : Fin k0_t4_loop.trips) : ClosedOff (k0_off59 k) := ⟨![k.val % 2 * 256 + 176], k0_off59_eq k⟩
theorem k0_off60_eq : ∀ k : Fin k0_t4_loop.trips, k0_off60 k = ![k.val % 2 * 256 + 192] := by decide +kernel
instance closedOff_k0_off60 (k : Fin k0_t4_loop.trips) : ClosedOff (k0_off60 k) := ⟨![k.val % 2 * 256 + 192], k0_off60_eq k⟩
theorem k0_off61_eq : ∀ k : Fin k0_t4_loop.trips, k0_off61 k = ![k.val % 2 * 256 + 208] := by decide +kernel
instance closedOff_k0_off61 (k : Fin k0_t4_loop.trips) : ClosedOff (k0_off61 k) := ⟨![k.val % 2 * 256 + 208], k0_off61_eq k⟩
theorem k0_off62_eq : ∀ k : Fin k0_t4_loop.trips, k0_off62 k = ![k.val % 2 * 256 + 224] := by decide +kernel
instance closedOff_k0_off62 (k : Fin k0_t4_loop.trips) : ClosedOff (k0_off62 k) := ⟨![k.val % 2 * 256 + 224], k0_off62_eq k⟩
theorem k0_off63_eq : ∀ k : Fin k0_t4_loop.trips, k0_off63 k = ![k.val % 2 * 256 + 240] := by decide +kernel
instance closedOff_k0_off63 (k : Fin k0_t4_loop.trips) : ClosedOff (k0_off63 k) := ⟨![k.val % 2 * 256 + 240], k0_off63_eq k⟩
theorem k0_off66_eq : ∀ k : Fin k0_t5_loop.trips, k0_off66 k = ![k.val % 2 * 256 + 0] := by decide +kernel
instance closedOff_k0_off66 (k : Fin k0_t5_loop.trips) : ClosedOff (k0_off66 k) := ⟨![k.val % 2 * 256 + 0], k0_off66_eq k⟩
theorem k0_off67_eq : ∀ k : Fin k0_t5_loop.trips, k0_off67 k = ![k.val % 2 * 256 + 16] := by decide +kernel
instance closedOff_k0_off67 (k : Fin k0_t5_loop.trips) : ClosedOff (k0_off67 k) := ⟨![k.val % 2 * 256 + 16], k0_off67_eq k⟩
theorem k0_off68_eq : ∀ k : Fin k0_t5_loop.trips, k0_off68 k = ![k.val % 2 * 256 + 32] := by decide +kernel
instance closedOff_k0_off68 (k : Fin k0_t5_loop.trips) : ClosedOff (k0_off68 k) := ⟨![k.val % 2 * 256 + 32], k0_off68_eq k⟩
theorem k0_off69_eq : ∀ k : Fin k0_t5_loop.trips, k0_off69 k = ![k.val % 2 * 256 + 48] := by decide +kernel
instance closedOff_k0_off69 (k : Fin k0_t5_loop.trips) : ClosedOff (k0_off69 k) := ⟨![k.val % 2 * 256 + 48], k0_off69_eq k⟩
theorem k0_off70_eq : ∀ k : Fin k0_t5_loop.trips, k0_off70 k = ![k.val % 2 * 256 + 64] := by decide +kernel
instance closedOff_k0_off70 (k : Fin k0_t5_loop.trips) : ClosedOff (k0_off70 k) := ⟨![k.val % 2 * 256 + 64], k0_off70_eq k⟩
theorem k0_off71_eq : ∀ k : Fin k0_t5_loop.trips, k0_off71 k = ![k.val % 2 * 256 + 80] := by decide +kernel
instance closedOff_k0_off71 (k : Fin k0_t5_loop.trips) : ClosedOff (k0_off71 k) := ⟨![k.val % 2 * 256 + 80], k0_off71_eq k⟩
theorem k0_off72_eq : ∀ k : Fin k0_t5_loop.trips, k0_off72 k = ![k.val % 2 * 256 + 96] := by decide +kernel
instance closedOff_k0_off72 (k : Fin k0_t5_loop.trips) : ClosedOff (k0_off72 k) := ⟨![k.val % 2 * 256 + 96], k0_off72_eq k⟩
theorem k0_off73_eq : ∀ k : Fin k0_t5_loop.trips, k0_off73 k = ![k.val % 2 * 256 + 112] := by decide +kernel
instance closedOff_k0_off73 (k : Fin k0_t5_loop.trips) : ClosedOff (k0_off73 k) := ⟨![k.val % 2 * 256 + 112], k0_off73_eq k⟩
theorem k0_off74_eq : ∀ k : Fin k0_t5_loop.trips, k0_off74 k = ![k.val % 2 * 256 + 128] := by decide +kernel
instance closedOff_k0_off74 (k : Fin k0_t5_loop.trips) : ClosedOff (k0_off74 k) := ⟨![k.val % 2 * 256 + 128], k0_off74_eq k⟩
theorem k0_off75_eq : ∀ k : Fin k0_t5_loop.trips, k0_off75 k = ![k.val % 2 * 256 + 144] := by decide +kernel
instance closedOff_k0_off75 (k : Fin k0_t5_loop.trips) : ClosedOff (k0_off75 k) := ⟨![k.val % 2 * 256 + 144], k0_off75_eq k⟩
theorem k0_off76_eq : ∀ k : Fin k0_t5_loop.trips, k0_off76 k = ![k.val % 2 * 256 + 160] := by decide +kernel
instance closedOff_k0_off76 (k : Fin k0_t5_loop.trips) : ClosedOff (k0_off76 k) := ⟨![k.val % 2 * 256 + 160], k0_off76_eq k⟩
theorem k0_off77_eq : ∀ k : Fin k0_t5_loop.trips, k0_off77 k = ![k.val % 2 * 256 + 176] := by decide +kernel
instance closedOff_k0_off77 (k : Fin k0_t5_loop.trips) : ClosedOff (k0_off77 k) := ⟨![k.val % 2 * 256 + 176], k0_off77_eq k⟩
theorem k0_off78_eq : ∀ k : Fin k0_t5_loop.trips, k0_off78 k = ![k.val % 2 * 256 + 192] := by decide +kernel
instance closedOff_k0_off78 (k : Fin k0_t5_loop.trips) : ClosedOff (k0_off78 k) := ⟨![k.val % 2 * 256 + 192], k0_off78_eq k⟩
theorem k0_off79_eq : ∀ k : Fin k0_t5_loop.trips, k0_off79 k = ![k.val % 2 * 256 + 208] := by decide +kernel
instance closedOff_k0_off79 (k : Fin k0_t5_loop.trips) : ClosedOff (k0_off79 k) := ⟨![k.val % 2 * 256 + 208], k0_off79_eq k⟩
theorem k0_off80_eq : ∀ k : Fin k0_t5_loop.trips, k0_off80 k = ![k.val % 2 * 256 + 224] := by decide +kernel
instance closedOff_k0_off80 (k : Fin k0_t5_loop.trips) : ClosedOff (k0_off80 k) := ⟨![k.val % 2 * 256 + 224], k0_off80_eq k⟩
theorem k0_off81_eq : ∀ k : Fin k0_t5_loop.trips, k0_off81 k = ![k.val % 2 * 256 + 240] := by decide +kernel
instance closedOff_k0_off81 (k : Fin k0_t5_loop.trips) : ClosedOff (k0_off81 k) := ⟨![k.val % 2 * 256 + 240], k0_off81_eq k⟩

end Cert.Proof.KI
-- ==== Proof.KI.RegionT2.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KI.Base
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invA2 (d : Dev nD) (L : grid0.Coords) (_ : Nat) (_ : Unit) : sProp 𝕄 :=
  iprop((∃ fb, ((bA).view.loc (thr d L) ↦{fullShare} fb) ∗ ⌜∀ j, ((bA).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t2 (d : Dev nD) (L : grid0.Coords) (v2 : BitVec 32) (v624 : Vec F S16 .f32) :
    ∀ (k : Fin k0_t2_loop.trips) (acc : Unit), invA2 (F := F) d L k.val acc ⊢
      wp frame (wpE (defs₀ (F := F)) 𝒱₀ (thr d L) none) Set.univ
        (k0_t2_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invA2 (F := F) d L (k.val + 1)) := by
  intro k _
  unfold invA2
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KI

end
-- ==== Proof.KI.RegionT3.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KI.Base
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invB3 (d : Dev nD) (L : grid0.Coords) (_ : Nat) (_ : Unit) : sProp 𝕄 :=
  iprop((∃ fb, ((bB).view.loc (thr d L) ↦{fullShare} fb) ∗ ⌜∀ j, ((bB).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t3 (d : Dev nD) (L : grid0.Coords) (v2 : BitVec 32) (v624 : Vec F S16 .f32) :
    ∀ (k : Fin k0_t3_loop.trips) (acc : Unit), invB3 (F := F) d L k.val acc ⊢
      wp frame (wpE (defs₀ (F := F)) 𝒱₀ (thr d L) none) Set.univ
        (k0_t3_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invB3 (F := F) d L (k.val + 1)) := by
  intro k _
  unfold invB3
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KI

end
-- ==== Proof.KI.RegionT4.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KI.Base
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invA4 (d : Dev nD) (L : grid0.Coords) (_ : Nat) (_ : Unit) : sProp 𝕄 :=
  iprop((∃ fb, ((bA).view.loc (thr d L) ↦{fullShare} fb) ∗ ⌜∀ j, ((bA).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t4 (d : Dev nD) (L : grid0.Coords) (v2 : BitVec 32) (v624 : Vec F S16 .f32) :
    ∀ (k : Fin k0_t4_loop.trips) (acc : Unit), invA4 (F := F) d L k.val acc ⊢
      wp frame (wpE (defs₀ (F := F)) 𝒱₀ (thr d L) none) Set.univ
        (k0_t4_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invA4 (F := F) d L (k.val + 1)) := by
  intro k _
  unfold invA4
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KI

end
-- ==== Proof.KI.RegionT5.lean ====
/-
  One trip of a chunk's row-group loop: sixteen rows of the chunk buffer are read, each row's 200 species words turned
  into table indices (four words packed into an index of the table of sums of four, the last eight words masked into
  the lane table), the lanes' partial sums written to the lane scratch, read back transposed and added to the
  energies into the output scratch. Every index is inside its table because every word of the chunk buffer is one of
  0 … 6; nothing else about the contents is needed for the trip to run.
-/
import proofs.«206987_g17583596110038_cont_8to1_771_12_alg».proof.Proof.KI.Base
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

/-- Before and after each trip: the chunk buffer at words 0 … 6, the two tables it indexes, the lane scratch, the
    tile's energies and the output scratch, each whole. -/
def invB5 (d : Dev nD) (L : grid0.Coords) (_ : Nat) (_ : Unit) : sProp 𝕄 :=
  iprop((∃ fb, ((bB).view.loc (thr d L) ↦{fullShare} fb) ∗ ⌜∀ j, ((bB).view.read (Elt F) fb j).toNat ≤ 6⌝)
    ∗ (∃ g, (t4).view.loc (thr d L) ↦{fullShare} g) ∗ (∃ g, (t8r).view.loc (thr d L) ↦{fullShare} g)
    ∗ (∃ g, (red).view.loc (thr d L) ↦{fullShare} g) ∗ (∃ g, (env).view.loc (thr d L) ↦{fullShare} g)
    ∗ (∃ g, (outv).view.loc (thr d L) ↦{fullShare} g))

theorem region_t5 (d : Dev nD) (L : grid0.Coords) :
    ∀ (k : Fin k0_t5_loop.trips) (acc : Unit), invB5 (F := F) d L k.val acc ⊢
      wp frame (wpE (defs₀ (F := F)) 𝒱₀ (thr d L) none) Set.univ
        (k0_t5_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            (iota .scVector S16 32 [0] iota_S16_d0_w32_scVector) k0_pay1403 k0_pay1404 k0_pay1405 (k0_pay1406 (F := F)) k acc)
        (invB5 (F := F) d L (k.val + 1)) := by
  intro k _
  unfold invB5
  iintro ⟨⟨%fb, Hb, %hfb⟩, ⟨%g4, H4⟩, ⟨%g8r, H8r⟩, ⟨%gr, Hr⟩, ⟨%ge, He⟩, ⟨%go, Hov⟩⟩
  sl_exec (disch := sg_disch k hfb)
  repeat (iapply (wp_gather_bind 𝒱₀ (thr d L) none Set.univ); sl_exec (disch := sg_disch k hfb))
  sl_step
  isplitl [Hb]
  · iexists fb; isplitl [Hb]
    · iexact Hb
    · ipureintro; exact hfb
  isplitl [H4]; · iexists _; iexact H4
  isplitl [H8r]; · iexists _; iexact H8r
  isplitl [Hr]; · iexists _; iexact Hr
  isplitl [He]; · iexists _; iexact He
  iexists _; iexact Hov

end Cert.Proof.KI

end
-- ==== Proof.KI.Body.lean ====
/-
  One tile's whole task. The tile starts the copies of its first two chunks of species words, copies in the eight
  self energies and its 512 energies, builds three small tables out of the self energies (pair sums, a lane table, sums
  of four), then for each of its four chunks waits for the chunk, runs the row-group loop over it and starts the copy
  of the chunk after next into the buffer just freed; at the end it copies its 512 results out. Two buffers and two
  copy semaphores alternate, one copy at a time on each, and a buffer is read only between its copy's wait and the
  next copy's start. Every table index built out of loaded words is inside its table because the species words are
  0 … 6: a chunk buffer holds exactly what its copy landed, a slice of the species array.
-/
import proofs.«206987_g17583596110038_cont_8to1_771_12_alg».proof.Proof.KI.RegionT1
import proofs.«206987_g17583596110038_cont_8to1_771_12_alg».proof.Proof.KI.RegionT2
import proofs.«206987_g17583596110038_cont_8to1_771_12_alg».proof.Proof.KI.RegionT3
import proofs.«206987_g17583596110038_cont_8to1_771_12_alg».proof.Proof.KI.RegionT4
import proofs.«206987_g17583596110038_cont_8to1_771_12_alg».proof.Proof.KI.RegionT5

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

/-- A chunk buffer overwritten whole by a landed copy holds the copy's words: bounded if they are. -/
theorem landedA (d : Dev nD) (L : grid0.Coords) (f p : Buf (Elt F) ((bA).view.loc (thr d L))) (hp : ∀ j, (p j).toNat ≤ 6) :
    ∀ j, ((bA).view.read (Elt F) (View.write (Elt F) (bA).view f p Finset.univ) j).toNat ≤ 6 := by
  intro j
  have e : View.write (Elt F) (bA).view f p Finset.univ = p := View.write_whole_univ _ _ _
  rw [e]; exact hp j
theorem landedB (d : Dev nD) (L : grid0.Coords) (f p : Buf (Elt F) ((bB).view.loc (thr d L))) (hp : ∀ j, (p j).toNat ≤ 6) :
    ∀ j, ((bB).view.read (Elt F) (View.write (Elt F) (bB).view f p Finset.univ) j).toNat ≤ 6 := by
  intro j
  have e : View.write (Elt F) (bB).view f p Finset.univ = p := View.write_whole_univ _ _ _
  rw [e]; exact hp j

/-- One tile's task, at any grid coordinates L: from shares of the species words (two, one per chunk copy in flight),
    of the energies and of the eight-entry self-energy table, the tile's slice of the result, its nine scratch buffers,
    its five copy semaphores at zero and what it owes, the body runs to its end and gives everything back, the result
    slice and the scratch at whatever it left there. The species words are the element numbers 0 … 6 (`hsp`): that is
    what keeps every table index the body builds out of loaded words inside its table. -/
theorem body_core (d : Dev nD) (L : grid0.Coords) (O : CellTallies nD τ sig (HIx 1)) (W : Waits sig (HIx 1))
    (q1 q2 q3 q4 : PosShare TreeShare)
    (fsp : Buf (Elt F) ((spW).view.loc (thr d L))) (fen : Buf (Elt F) ((enW).view.loc (thr d L))) (fse : Buf (Elt F) ((seW).view.loc (thr d L)))
    (fo : Buf (Elt F) ((oW).view.loc (thr d L)))
    (fA : Buf (Elt F) ((bA).view.loc (thr d L))) (fB : Buf (Elt F) ((bB).view.loc (thr d L)))
    (f8 : Buf (Elt F) ((t8).view.loc (thr d L))) (f8r : Buf (Elt F) ((t8r).view.loc (thr d L)))
    (f2 : Buf (Elt F) ((t2).view.loc (thr d L))) (f4 : Buf (Elt F) ((t4).view.loc (thr d L)))
    (fr : Buf (Elt F) ((red).view.loc (thr d L))) (fe : Buf (Elt F) ((env).view.loc (thr d L))) (fov : Buf (Elt F) ((outv).view.loc (thr d L)))
    (hsp : ∀ j, (fsp j).toNat ≤ 6) :
    (iprop(Transfers.MayWaits (thr d L) (none : HIx 1) O
        ∗ ((spW).view.loc (thr d L) ↦{q1} fsp) ∗ ((spW).view.loc (thr d L) ↦{q2} fsp)
        ∗ ((enW).view.loc (thr d L) ↦{q3} fen) ∗ ((seW).view.loc (thr d L) ↦{q4} fse)
        ∗ ((oSl L).view.loc (thr d L) ↦[(oSl L).view.set]{fullShare} fo)
        ∗ ((bA).view.loc (thr d L) ↦{fullShare} fA) ∗ ((bB).view.loc (thr d L) ↦{fullShare} fB)
        ∗ ((t8).view.loc (thr d L) ↦{fullShare} f8) ∗ ((t8r).view.loc (thr d L) ↦{fullShare} f8r)
        ∗ ((t2).view.loc (thr d L) ↦{fullShare} f2) ∗ ((t4).view.loc (thr d L) ↦{fullShare} f4)
        ∗ ((red).view.loc (thr d L) ↦{fullShare} fr) ∗ ((env).view.loc (thr d L) ↦{fullShare} fe)
        ∗ ((outv).view.loc (thr d L) ↦{fullShare} fov)
        ∗ semVal (thr d L, SemLoc.dma cc0_scratch9.sem) 0 ∗ semVal (thr d L, SemLoc.dma cc0_scratch10.sem) 0
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(((spW).view.loc (thr d L) ↦{q1} fsp) ∗ ((spW).view.loc (thr d L) ↦{q2} fsp)
            ∗ ((enW).view.loc (thr d L) ↦{q3} fen) ∗ ((seW).view.loc (thr d L) ↦{q4} fse)
            ∗ (∃ g, (oSl L).view.loc (thr d L) ↦[(oSl L).view.set]{fullShare} g)
            ∗ (∃ g, (bA).view.loc (thr d L) ↦{fullShare} g) ∗ (∃ g, (bB).view.loc (thr d L) ↦{fullShare} g)
            ∗ (∃ g, (t8).view.loc (thr d L) ↦{fullShare} g) ∗ (∃ g, (t8r).view.loc (thr d L) ↦{fullShare} g)
            ∗ (∃ g, (t2).view.loc (thr d L) ↦{fullShare} g) ∗ (∃ g, (t4).view.loc (thr d L) ↦{fullShare} g)
            ∗ (∃ g, (red).view.loc (thr d L) ↦{fullShare} g) ∗ (∃ g, (env).view.loc (thr d L) ↦{fullShare} g)
            ∗ (∃ g, (outv).view.loc (thr d L) ↦{fullShare} g)
            ∗ semVal (thr d L, SemLoc.dma cc0_scratch9.sem) 0 ∗ semVal (thr d L, SemLoc.dma cc0_scratch10.sem) 0
            ∗ semVal (thr d L, SemLoc.dma cc0_scoped0.sem) 0 ∗ semVal (thr d L, SemLoc.dma cc0_scoped1.sem) 0
            ∗ semVal (thr d L, SemLoc.dma cc0_scoped2.sem) 0
            ∗ ∃ W', ⌜∀ p ∈ W', p ∈ W ∨ p.2 = none⌝ ∗ owes (thr d L) O W') := by
  iintro ⟨Hmw, Hsp1, Hsp2, Hen, Hse, Ho, HA, HB, H8, H8r, H2, H4, Hr, He, Hov, Hs9, Hs10, Hc0, Hc1, Hc2, HO⟩
  sl_unfold [cc0__sae_body]
  sl_exec
  repeat (iapply (wp_gather_bind 𝒱₀ (thr d L) none Set.univ); sl_exec)
  sl_for (invT1 (F := F) d L) $$ [H2 H4]
  case region => exact region_t1 d L _ _
  · unfold invT1
    isplitl [H2]
    · iexists _; iexact H2
    · iexists _; iexact H4
  iintro %_ HI
  unfold invT1
  icases HI with ⟨⟨%g2, H2⟩, ⟨%g4, H4⟩⟩
  sl_exec
  sl_for (invA2 (F := F) d L) $$ [HA H4 H8r Hr He Hov]
  case region => exact region_t2 d L _ _
  · unfold invA2
    isplitl [HA]
    · iexists _; isplitl [HA]
      · iexact HA
      · ipureintro; exact landedA d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invA2
  icases HI with ⟨⟨%fb1, HA, %hfb1⟩, ⟨%g41, H4⟩, ⟨%g8r1, H8r⟩, ⟨%gr1, Hr⟩, ⟨%ge1, He⟩, ⟨%go1, Hov⟩⟩
  sl_exec
  sl_for (invB3 (F := F) d L) $$ [HB H4 H8r Hr He Hov]
  case region => exact region_t3 d L _ _
  · unfold invB3
    isplitl [HB]
    · iexists _; isplitl [HB]
      · iexact HB
      · ipureintro; exact landedB d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invB3
  icases HI with ⟨⟨%fb2, HB, %hfb2⟩, ⟨%g42, H4⟩, ⟨%g8r2, H8r⟩, ⟨%gr2, Hr⟩, ⟨%ge2, He⟩, ⟨%go2, Hov⟩⟩
  sl_exec
  sl_for (invA4 (F := F) d L) $$ [HA H4 H8r Hr He Hov]
  case region => exact region_t4 d L _ _
  · unfold invA4
    isplitl [HA]
    · iexists _; isplitl [HA]
      · iexact HA
      · ipureintro; exact landedA d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invA4
  icases HI with ⟨⟨%fb3, HA, %hfb3⟩, ⟨%g43, H4⟩, ⟨%g8r3, H8r⟩, ⟨%gr3, Hr⟩, ⟨%ge3, He⟩, ⟨%go3, Hov⟩⟩
  sl_exec
  sl_for (invB5 (F := F) d L) $$ [HB H4 H8r Hr He Hov]
  case region => exact region_t5 d L
  · unfold invB5
    isplitl [HB]
    · iexists _; isplitl [HB]
      · iexact HB
      · ipureintro; exact landedB d L _ _ (fun j => hsp _)
    isplitl [H4]; · iexists _; iexact H4
    isplitl [H8r]; · iexists _; iexact H8r
    isplitl [Hr]; · iexists _; iexact Hr
    isplitl [He]; · iexists _; iexact He
    iexists _; iexact Hov
  iintro %_ HI
  unfold invB5
  icases HI with ⟨⟨%fb4, HB, %hfb4⟩, ⟨%g44, H4⟩, ⟨%g8r4, H8r⟩, ⟨%gr4, Hr⟩, ⟨%ge4, He⟩, ⟨%go4, Hov⟩⟩
  sl_exec
  sl_step
  isplitl [Hsp1]; · iexact Hsp1
  isplitl [Hsp2]; · iexact Hsp2
  isplitl [Hen]; · iexact Hen
  isplitl [Hse]; · iexact Hse
  isplitl [Ho]; · iexists _; iexact Ho
  isplitl [HA]; · iexists _; iexact HA
  isplitl [HB]; · iexists _; iexact HB
  isplitl [H8]; · iexists _; iexact H8
  isplitl [H8r]; · iexists _; iexact H8r
  isplitl [H2]; · iexists _; iexact H2
  isplitl [H4]; · iexists _; iexact H4
  isplitl [Hr]; · iexists _; iexact Hr
  isplitl [He]; · iexists _; iexact He
  isplitl [Hov]; · iexists _; iexact Hov
  isplitl [Hs9]; · iexact Hs9
  isplitl [Hs10]; · iexact Hs10
  isplitl [Hc0]; · iexact Hc0
  isplitl [Hc1]; · iexact Hc1
  isplitl [Hc2]; · iexact Hc2
  iexists _
  isplitr
  swap
  · iexact HO
  · ipureintro
    intro p hp
    repeat (rcases Finset.mem_insert.mp hp with rfl | hp; · exact .inr rfl)
    exact .inl hp
  all_goals exact View.loads_vmem h_S8

end Cert.Proof.KI

end
-- ==== Proof.KI.Tiles.lean ====
/-
  The thirty-two tiles' slices of the result array partition it: the tile of SparseCore c and subcore s holds
  the 512 entries from 512 (2 s + c) on, which is part 2 s + c of the array cut into thirty-two equal parts;
  parts at different numbers are disjoint and together cover the array, so the whole array held at the full
  share is the tiles' slices held one by one.
-/
import proofs.«206987_g17583596110038_cont_8to1_771_12_alg».proof.Proof.KI.Base

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid coordinates of SparseCore `c`'s subcore `s`. -/
def coordsV (c : Fin (grid0.bound 0)) (s : Fin (grid0.bound 1)) : grid0.Coords := fun | 0 => c | 1 => s | ⟨_ + 2, h⟩ => absurd h (Nat.not_lt.2 (Nat.le_add_left _ _))

theorem hdiv32 : 32 ∣ S16384.size 0 := ⟨512, rfl⟩

/-- Part `k` of the result array cut into thirty-two. -/
abbrev tileR (k : Fin 32) : Rect S16384 := Rect.part (s := S16384) (a₀ := 0) hdiv32 k

/-- The number of the tile of SparseCore `c`, subcore `s`. -/
def tileIx (c : Fin 2) (s : Fin 16) : Fin 32 := ⟨2 * s.val + c.val, by omega⟩

/-- The entries of the result array that tile holds. -/
def tileSet (c : Fin 2) (s : Fin 16) : Finset S16384.Idx := (tileR (tileIx c s)).set

theorem tileIx_inj {c c' : Fin 2} {s s' : Fin 16} (h : tileIx c s = tileIx c' s') : c = c' ∧ s = s' := by
  have e : 2 * s.val + c.val = 2 * s'.val + c'.val := congrArg Fin.val h
  exact ⟨Fin.ext (by omega), Fin.ext (by omega)⟩

/-- The rectangle the program slices for the tile is that part. -/
theorem sliceR_eq (c : Fin 2) (s : Fin 16) :
    Rect.unit (s := S16384) (k0_off84 (coordsV ⟨c.val, c.isLt⟩ ⟨s.val, s.isLt⟩)) S512.size
        (k0_off84_inb (coordsV ⟨c.val, c.isLt⟩ ⟨s.val, s.isLt⟩))
      = tileR (tileIx c s) := by
  unfold tileR Rect.part Rect.block
  congr 1 <;> funext a
  · rw [k0_off84_eq]
    match a with
    | 0 =>
      show 1024 * s.val + 512 * c.val = (2 * s.val + c.val) * (16384 / 32)
      omega
  · match a with
    | 0 => rfl

theorem set_oSl (c : Fin 2) (s : Fin 16) : (oSl (coordsV ⟨c.val, c.isLt⟩ ⟨s.val, s.isLt⟩)).view.set = tileSet c s := by
  show ((View.whole (main_v3_scv : Ref sig .scVector)).slice
      (Rect.unit (s := S16384) (k0_off84 (coordsV ⟨c.val, c.isLt⟩ ⟨s.val, s.isLt⟩)) S512.size
        (k0_off84_inb (coordsV ⟨c.val, c.isLt⟩ ⟨s.val, s.isLt⟩)))).set = _
  rw [View.set_slice_whole]
  exact congrArg (fun r : Rect S16384 => r.set) (sliceR_eq c s)

theorem tiles_disjoint : ∀ p ∈ (Finset.univ : Finset (Fin 2 × Fin 16)), ∀ p' ∈ (Finset.univ : Finset (Fin 2 × Fin 16)),
    p ≠ p' → Disjoint (tileSet p.1 p.2) (tileSet p'.1 p'.2) :=
  fun p _ p' _ h => Rect.part_disjoint hdiv32 fun e => h (Prod.ext (tileIx_inj e).1 (tileIx_inj e).2)

theorem tiles_cover : (Finset.univ : Finset (Fin 2 × Fin 16)).biUnion (fun p => tileSet p.1 p.2) = Finset.univ := by
  ext i
  simp only [Finset.mem_biUnion, Finset.mem_univ, true_and, iff_true]
  obtain ⟨k, hk⟩ := Rect.exists_mem_part hdiv32 i
  refine ⟨(⟨k.val % 2, Nat.mod_lt _ (by omega)⟩, ⟨k.val / 2, by have := k.isLt; omega⟩), ?_⟩
  have e : tileIx ⟨k.val % 2, Nat.mod_lt _ (by omega)⟩ ⟨k.val / 2, by have := k.isLt; omega⟩ = k :=
    Fin.ext (by show 2 * (k.val / 2) + k.val % 2 = k.val; omega)
  unfold tileSet
  rw [e]
  exact hk

/-- The result array whole at the full share is the thirty-two tiles' slices, SparseCore by SparseCore. -/
theorem oPts_tiles (d : Dev nD) (f : Buf (Elt F) ((SparseCore.T d).loc main_v3)) :
    ((SparseCore.T d).loc main_v3 ↦{fullShare} f : sProp 𝕄)
      = bigSep Finset.univ fun c : Fin 2 => bigSep Finset.univ fun s : Fin 16 =>
          (SparseCore.T d).loc main_v3 ↦[(oSl (coordsV ⟨c.val, c.isLt⟩ ⟨s.val, s.isLt⟩)).view.set]{fullShare} f := by
  rw [bigSep_congr (s := Finset.univ) fun (c : Fin 2) _ => bigSep_congr (s := Finset.univ) fun (s : Fin 16) _ => by rw [set_oSl c s]]
  rw [← bigSep_univ_prod (fun p : Fin 2 × Fin 16 => ((SparseCore.T d).loc main_v3 ↦[tileSet p.1 p.2]{fullShare} f : sProp 𝕄))]
  rw [← pointsTo_biUnion Finset.univ (ℓ := (SparseCore.T d).loc main_v3) (fun p : Fin 2 × Fin 16 => tileSet p.1 p.2) tiles_disjoint,
    tiles_cover]; try rfl

/-- The tiles' slices, each held at some contents, are the whole array at some contents. -/
theorem oTiles_join [FloatOps F] (d : Dev nD) :
    (bigSep Finset.univ fun c : Fin 2 => bigSep Finset.univ fun s : Fin 16 =>
        iprop(∃ f : Buf (Elt F) ((SparseCore.T d).loc main_v3),
          (SparseCore.T d).loc main_v3 ↦[(oSl (coordsV ⟨c.val, c.isLt⟩ ⟨s.val, s.isLt⟩)).view.set]{fullShare} f))
      ⊢ (iprop(∃ f : Buf (Elt F) ((SparseCore.T d).loc main_v3), (SparseCore.T d).loc main_v3 ↦{fullShare} f) : sProp 𝕄) := by
  rw [bigSep_congr (s := Finset.univ) fun (c : Fin 2) _ => bigSep_congr (s := Finset.univ) fun (s : Fin 16) _ => by rw [set_oSl c s]]
  rw [← bigSep_univ_prod (fun p : Fin 2 × Fin 16 =>
    (iprop(∃ f : Buf (Elt F) ((SparseCore.T d).loc main_v3), (SparseCore.T d).loc main_v3 ↦[tileSet p.1 p.2]{fullShare} f) : sProp 𝕄))]
  refine (bigSep_exists_pi Finset.univ (fun (p : Fin 2 × Fin 16) (f : Buf (Elt F) ((SparseCore.T d).loc main_v3)) =>
    ((SparseCore.T d).loc main_v3 ↦[tileSet p.1 p.2]{fullShare} f : sProp 𝕄))).trans ?_
  iintro ⟨%fs, H⟩
  ihave H' := (pointsTo_biUnion_join Finset.univ (fun p : Fin 2 × Fin 16 => tileSet p.1 p.2) fs (fs (0, 0)) tiles_disjoint) $$ H
  icases H' with ⟨%g, -, Hg⟩
  rw [tiles_cover]
  iexists g; iexact Hg

end Cert.Proof.KI

end
-- ==== Proof.KI.Shares.lean ====
/-
  Read shares of one array for the thirty-two tiles: the full share is cut into a remainder and one token per
  SparseCore, each SparseCore's token into a remainder and one token per tile; the whole array at the full
  share is the remainders and the tokens together, and back. A tile's token may be halved once more, for two
  reads of one array in flight at once.
-/
import proofs.«206987_g17583596110038_cont_8to1_771_12_alg».proof.Proof.KI.Base
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The read share of tile `i` of SparseCore `c`. -/
def tq (c i : ℕ) : PosShare TreeShare := Transfers.shareTokN (Transfers.shareTokN fullShare c) i

/-- What is left of the full share after the thirty-two tokens: the top remainder and each SparseCore's. -/
def shareRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTokN fullShare c.val) 16} f)

/-- A points-to at a share is the remainder after `n` tokens and the tokens. -/
theorem pts_toks (ℓ : Loc nD τ sig) (f : Buf (Elt F) ℓ) (q : PosShare TreeShare) (n : ℕ) :
    (ℓ ↦{q} f : sProp 𝕄)
      = iprop((ℓ ↦{Transfers.shareDrop q n} f) ∗ bigSep Finset.univ fun i : Fin n => ℓ ↦{Transfers.shareTokN q i.val} f) :=
  BI.equiv_iff.mp ⟨(Transfers.pointsTo_toks q n).1, (Transfers.pointsTo_toks q n).2⟩

/-- A points-to at a share is its two halves. -/
theorem pts_halves (ℓ : Loc nD τ sig) (f : Buf (Elt F) ℓ) (q : PosShare TreeShare) :
    (ℓ ↦{q} f : sProp 𝕄) = iprop((ℓ ↦{q.left} f) ∗ ℓ ↦{q.right} f) :=
  BI.equiv_iff.mp ⟨(pointsTo_share (PosShare.mem_left_op_right _)).1, (pointsTo_share (PosShare.mem_left_op_right _)).2⟩

theorem sep_assoc_r (A B C : sProp 𝕄) : iprop(A ∗ B ∗ C) ⊢ iprop((A ∗ B) ∗ C) := by
  iintro ⟨Ha, Hb, Hc⟩
  isplitl [Ha Hb]
  · isplitl [Ha] <;> iassumption
  · iexact Hc

theorem sep_assoc_l (A B C : sProp 𝕄) : iprop((A ∗ B) ∗ C) ⊢ iprop(A ∗ B ∗ C) := by
  iintro ⟨⟨Ha, Hb⟩, Hc⟩
  isplitl [Ha]
  · iexact Ha
  · isplitl [Hb] <;> iassumption

/-- The whole array at the full share is the remainders and the thirty-two tiles' tokens. -/
theorem toks_eq (ℓ : Loc nD τ sig) (f : Buf (Elt F) ℓ) :
    (ℓ ↦{fullShare} f : sProp 𝕄)
      = iprop(shareRem ℓ f ∗ bigSep Finset.univ fun c : Fin 2 => bigSep Finset.univ fun s : Fin 16 => ℓ ↦{tq c.val s.val} f) := by
  unfold shareRem tq
  rw [pts_toks ℓ f fullShare 2,
    bigSep_congr (s := Finset.univ) fun (c : Fin 2) _ => pts_toks ℓ f (Transfers.shareTokN fullShare c.val) 16,
    bigSep_sep']
  exact BI.equiv_iff.mp ⟨sep_assoc_r _ _ _, sep_assoc_l _ _ _⟩

/-- The same with each tile's token halved. -/
theorem toks_eq2 (ℓ : Loc nD τ sig) (f : Buf (Elt F) ℓ) :
    (ℓ ↦{fullShare} f : sProp 𝕄)
      = iprop(shareRem ℓ f ∗ bigSep Finset.univ fun c : Fin 2 => bigSep Finset.univ fun s : Fin 16 =>
          iprop((ℓ ↦{(tq c.val s.val).left} f) ∗ ℓ ↦{(tq c.val s.val).right} f)) := by
  rw [toks_eq ℓ f]
  refine congrArg (fun X => iprop(shareRem ℓ f ∗ X)) ?_
  exact bigSep_congr fun c _ => bigSep_congr fun s _ => pts_halves ℓ f (tq c.val s.val)

variable {ℓ : Loc nD τ sig} {f : Buf (Elt F) ℓ}

theorem toks_split :
    (ℓ ↦{fullShare} f : sProp 𝕄)
      ⊢ iprop(shareRem ℓ f ∗ bigSep Finset.univ fun c : Fin 2 => bigSep Finset.univ fun s : Fin 16 => ℓ ↦{tq c.val s.val} f) :=
  Entails.of_eq (toks_eq ℓ f)

theorem toks_join :
    iprop(shareRem ℓ f ∗ bigSep Finset.univ fun c : Fin 2 => bigSep Finset.univ fun s : Fin 16 => ℓ ↦{tq c.val s.val} f)
      ⊢ (ℓ ↦{fullShare} f : sProp 𝕄) :=
  Entails.of_eq (toks_eq ℓ f).symm

theorem toks_split2 :
    (ℓ ↦{fullShare} f : sProp 𝕄)
      ⊢ iprop(shareRem ℓ f ∗ bigSep Finset.univ fun c : Fin 2 => bigSep Finset.univ fun s : Fin 16 =>
          iprop((ℓ ↦{(tq c.val s.val).left} f) ∗ ℓ ↦{(tq c.val s.val).right} f)) :=
  Entails.of_eq (toks_eq2 ℓ f)

theorem toks_join2 :
    iprop(shareRem ℓ f ∗ bigSep Finset.univ fun c : Fin 2 => bigSep Finset.univ fun s : Fin 16 =>
          iprop((ℓ ↦{(tq c.val s.val).left} f) ∗ ℓ ↦{(tq c.val s.val).right} f))
      ⊢ (ℓ ↦{fullShare} f : sProp 𝕄) :=
  Entails.of_eq (toks_eq2 ℓ f).symm

end Cert.Proof.KI

end
-- ==== Proof.KI.Launch.lean ====
/-
  The launch: what the handshakes carry to the thirty-two tiles and back (read shares of the three input arrays, the
  tile's 512 entries of the result), one tile's obligation from its task, the TensorCore's program (five host
  operations, the call, the arrays rejoined), and the run of the whole family of threads with the argument arrays
  unchanged.
-/
import proofs.«206987_g17583596110038_cont_8to1_771_12_alg».proof.Proof.KI.Body
import proofs.«206987_g17583596110038_cont_8to1_771_12_alg».proof.Proof.KI.Tiles
import proofs.«206987_g17583596110038_cont_8to1_771_12_alg».proof.Proof.KI.Shares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

/-! ## The program as the launch theorem sees it -/

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the algebra; the transfers' counters are found in the right. -/
abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The species words, the energies, the seven self energies (the arguments); the eight-entry table the host operations
    build; the result. -/
abbrev spLoc (d : Dev nD) : Loc nD τ sig := (SparseCore.T d).loc main_arg0
abbrev enLoc (d : Dev nD) : Loc nD τ sig := (SparseCore.T d).loc main_arg1
abbrev a2Loc (d : Dev nD) : Loc nD τ sig := (SparseCore.T d).loc main_arg2
abbrev seLoc (d : Dev nD) : Loc nD τ sig := (SparseCore.T d).loc main_v2
abbrev oLoc (d : Dev nD) : Loc nD τ sig := (SparseCore.T d).loc main_v3

variable [FloatOps F]

/-! ## The five host operations, and the table they leave -/

abbrev op1 : HloOp τ sig (Elt F) := StableHlo.nullary main_cst (constant S_ .f32 0x00000000#32)
abbrev op2 : HloOp τ sig (Elt F) :=
  StableHlo.unary main_cst main_v0 (broadcastInDim S8 ![] Facts₀.bcast_S_S8 : (⟨S_, .f32⟩ : BufTy).Contents (Elt F) → (⟨S8, .f32⟩ : BufTy).Contents (Elt F))
abbrev op3 : HloOp τ sig (Elt F) := StableHlo.nullary main_c (constantI S_ 32 0#32)
abbrev op4 : HloOp τ sig (Elt F) :=
  StableHlo.unary main_c main_v1 (broadcastInDim S1 ![] Facts₀.bcast_S_S1 : (⟨S_, .i32⟩ : BufTy).Contents (Elt F) → (⟨S1, .i32⟩ : BufTy).Contents (Elt F))
abbrev op5 : HloOp τ sig (Elt F) :=
  StableHlo.ternary main_v0 main_v1 main_arg2 main_v2 ((fun x i u => Host.scatter scatter_S8_S1_S7_0_n_0_0 (fun _ b => b) x i u) :
    (⟨S8, .f32⟩ : BufTy).Contents (Elt F) → (⟨S1, .i32⟩ : BufTy).Contents (Elt F) → (⟨S7, .f32⟩ : BufTy).Contents (Elt F) → (⟨S8, .f32⟩ : BufTy).Contents (Elt F))

/-- The launch valuation of device d, and the valuations after each host operation. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)
abbrev V3 (d : Dev nD) : Valuation τ sig (Elt F) := (op3 (F := F)).result (V2 m d)
abbrev V4 (d : Dev nD) : Valuation τ sig (Elt F) := (op4 (F := F)).result (V3 m d)
abbrev V5 (d : Dev nD) : Valuation τ sig (Elt F) := (op5 (F := F)).result (V4 m d)

/-- The eight-entry table the tiles read: the seven self energies written at the origin of eight zeros. -/
def se8 (d : Dev nD) : Buf (Elt F) (seLoc d) := V5 m d (Proc.devRef .tc (main_v2 : Ref sig .tc))

/-! ## What the handshakes carry -/

/-- What a tile is handed: two read shares of the species words (one per chunk copy in flight), one of the energies, one
    of the eight-entry table, and its 512 entries of the result. -/
def GO (d : Dev nD) (L : grid0.Coords) : sProp 𝕄 :=
  iprop((spLoc d ↦{(tq (L 0).val (L 1).val).left} m (spLoc d)) ∗ (spLoc d ↦{(tq (L 0).val (L 1).val).right} m (spLoc d))
    ∗ (enLoc d ↦{tq (L 0).val (L 1).val} m (enLoc d)) ∗ (seLoc d ↦{tq (L 0).val (L 1).val} se8 m d)
    ∗ (oLoc d ↦[(oSl L).view.set]{fullShare} m (oLoc d)))
/-- What it hands back: the same, its entries of the result at what it wrote. -/
def TD (d : Dev nD) (L : grid0.Coords) : sProp 𝕄 :=
  iprop((spLoc d ↦{(tq (L 0).val (L 1).val).left} m (spLoc d)) ∗ (spLoc d ↦{(tq (L 0).val (L 1).val).right} m (spLoc d))
    ∗ (enLoc d ↦{tq (L 0).val (L 1).val} m (enLoc d)) ∗ (seLoc d ↦{tq (L 0).val (L 1).val} se8 m d)
    ∗ ∃ f, oLoc d ↦[(oSl L).view.set]{fullShare} f)

instance GO_storable (d : Dev nD) (L : grid0.Coords) : BI.Storable (upEmb : UEmb _ 𝕄) (GO m d L) := by unfold GO; infer_instance
instance TD_storable (d : Dev nD) (L : grid0.Coords) : BI.Storable (upEmb : UEmb _ 𝕄) (TD m d L) := by unfold TD; infer_instance

/-- The grid coordinates of task i of SparseCore c of the call. -/
abbrev tL (c : Fin ((K (F := F)).nCore 0)) (i : Fin ((K (F := F)).nSub 0)) : grid0.Coords := coordsV ⟨c.val, c.isLt⟩ ⟨i.val, i.isLt⟩

/-- The one call hands each SparseCore its sixteen tiles' resources, each tile its own, and brings them back. -/
def P : (K (F := F)).Pay (nD := nD) (Val := Elt F) (Name := ℕ) (U := UU) where
  st := fun q d c => match q with | 0 => bigSep Finset.univ fun i : Fin ((K (F := F)).nSub 0) => GO m d (tL (F := F) c i)
  dn := fun q d c => match q with | 0 => bigSep Finset.univ fun i : Fin ((K (F := F)).nSub 0) => TD m d (tL (F := F) c i)
  go := fun q d c i => match q with | 0 => GO m d (tL (F := F) c i)
  td := fun q d c i => match q with | 0 => TD m d (tL (F := F) c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => GO m d (tL (F := F) c i)))
  dn q d c := match q with
    | 0 => (inferInstance : BI.Storable (upEmb : UEmb _ 𝕄) (bigSep Finset.univ fun i : Fin ((K (F := F)).nSub 0) => TD m d (tL (F := F) c i)))
  go q d c i := match q with | 0 => (inferInstance : BI.Storable (upEmb : UEmb _ 𝕄) (GO m d (tL (F := F) c i)))
  td q d c i := match q with | 0 => (inferInstance : BI.Storable (upEmb : UEmb _ 𝕄) (TD m d (tL (F := F) c i)))

/-- What the proof asks of the launch memory: every species word, read unsigned, is at most 6. -/
def PreOK : Prop := ∀ (d : Dev nD) j, (m (spLoc d) j).toNat ≤ 6

/-! ## The task -/

omit [FloatOps F] in
/-- The five copy semaphores are among the subcore's own scoped cells: they are them, at zero, and the rest. -/
theorem ownSems0_V (d : Dev nD) (L : grid0.Coords) :
    (ownSems0 (thr d L) : sProp 𝕄)
      = iprop(semVal ((thr d L, SemLoc.dma cc0_scratch9.sem) : GSem nD τ sig) 0 ∗ semVal ((thr d L, SemLoc.dma cc0_scratch10.sem) : GSem nD τ sig) 0 ∗ semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0
          ∗ bigSep ((((((ownCells (thr d L)).erase ((thr d L, SemLoc.dma cc0_scratch9.sem) : GSem nD τ sig)).erase ((thr d L, SemLoc.dma cc0_scratch10.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)) fun g => semVal g 0) := by
  unfold SparseCore.Cfg.ownSems0
  rw [SparseCore.bigSep_erase' ((mem_ownCells (g := ((thr d L, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (congrArg Prod.snd e) (show (SemLoc.dma cc0_scratch10.sem : SemLoc sig) ≠ SemLoc.dma cc0_scratch9.sem by decide), (mem_ownCells (g := ((thr d L, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), (mem_ownCells (g := ((thr d L, SemLoc.dma cc0_scoped0.sem) : GSem nD τ sig))).mpr ⟨rfl, by show (SemLoc.dma cc0_scoped0.sem : SemLoc sig).isScoped .scVector = true; decide⟩⟩⟩),
    SparseCore.bigSep_erase' (Finset.mem_erase.mpr ⟨fun e => absurd (congrArg Prod.snd e) (show (SemLoc.dma cc0_scoped1.sem : SemLoc sig) ≠ SemLoc.dma cc0_scoped0.sem by decide), Finset.mem_erase.mpr ⟨fun e => absurd (congrArg Prod.snd e) (show (SemLoc.dma cc0_scoped1.sem : SemLoc sig) ≠ SemLoc.dma cc0_scratch10.sem by decide), Finset.mem_erase.mpr ⟨fun e => absurd (congrArg Prod.snd e) (show (SemLoc.dma cc0_scoped1.sem : SemLoc sig) ≠ SemLoc.dma cc0_scratch9.sem by decide), (mem_ownCells (g := ((thr d L, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), Finset.mem_erase.mpr ⟨fun e => absurd (congrArg Prod.snd e) (show (SemLoc.dma cc0_scoped2.sem : SemLoc sig) ≠ SemLoc.dma cc0_scratch10.sem by decide), Finset.mem_erase.mpr ⟨fun e => absurd (congrArg Prod.snd e) (show (SemLoc.dma cc0_scoped2.sem : SemLoc sig) ≠ SemLoc.dma cc0_scratch9.sem by decide), (mem_ownCells (g := ((thr d L, SemLoc.dma cc0_scoped2.sem) : GSem nD τ sig))).mpr ⟨rfl, by show (SemLoc.dma cc0_scoped2.sem : SemLoc sig).isScoped .scVector = true; decide⟩⟩⟩⟩⟩)]

omit [FloatOps F] in
/-- The nine scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := ((Proc.scVector (cV L) (jV L)).devRef cc0_scratch8)) rfl⟩⟩⟩⟩⟩⟩⟩⟩)]

/-- One tile's task from what the launch hands it: the scratch buffers and the copy semaphores out of the subcore's
    own, the evidence for its waits from the levels, the arrays as the handshake carries them; the rest framed. -/
theorem tile_body (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ GO m d L
        ∗ scopedBufs (thr d L) ∗ scopedSems0 (thr d L) ∗ owes (thr d L) O W)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(TD m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold GO TD
  iintro ⟨#Hlv, -, ⟨Hsp1, Hsp2, Hen, Hse, Ho⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩, ⟨Hs9, Hs10, Hs0, Hs1, Hs2, Hsems⟩, HO⟩
  ihave Hmw := ((K (F := F)).mayWaits_none (thr := thr d L) hO) $$ Hlv
  iapply (wp_wand_r frame _ Set.univ)
  isplitl [Hmw Hsp1 Hsp2 Hen Hse Ho Hb0 Hb1 Hb2 Hb3 Hb4 Hb5 Hb6 Hb7 Hb8 Hs9 Hs10 Hs0 Hs1 Hs2 HO]
  · iapply (body_core d L O W _ _ _ _ (m (spLoc d)) (m (enLoc d)) (se8 m d) (m (oLoc d)) f0 f1 f2 f3 f4 f5 f6 f7 f8 (hpre d))
    isplitl [Hmw]; · iexact Hmw
    isplitl [Hsp1]; · iexact Hsp1
    isplitl [Hsp2]; · iexact Hsp2
    isplitl [Hen]; · iexact Hen
    isplitl [Hse]; · iexact Hse
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs9]; · iexact Hs9
    isplitl [Hs10]; · iexact Hs10
    isplitl [Hs0]; · iexact Hs0
    isplitl [Hs1]; · iexact Hs1
    isplitl [Hs2]; · iexact Hs2
    iexact HO
  · iintro %_ ⟨Hsp1, Hsp2, Hen, Hse, Ho, Hb0, Hb1, Hb2, Hb3, Hb4, Hb5, Hb6, Hb7, Hb8, Hs9, Hs10, Hs0, Hs1, Hs2, HO⟩
    isplitl [Hsp1 Hsp2 Hen Hse Ho]
    · isplitl [Hsp1]; · iexact Hsp1
      isplitl [Hsp2]; · iexact Hsp2
      isplitl [Hen]; · iexact Hen
      isplitl [Hse]; · iexact Hse
      iexact Ho
    isplitl [Hb0 Hb1 Hb2 Hb3 Hb4 Hb5 Hb6 Hb7 Hb8 Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      iexact Hbufs
    isplitl [Hs9 Hs10 Hs0 Hs1 Hs2 Hsems]
    · isplitl [Hs9]; · iexact Hs9
      isplitl [Hs10]; · iexact Hs10
      isplitl [Hs0]; · iexact Hs0
      isplitl [Hs1]; · iexact Hs1
      isplitl [Hs2]; · iexact Hs2
      iexact Hsems
    iexact HO

/-! ## The launch theorem's obligations -/

theorem defs₀_vector (c : Fin τ.nSC) (s : Fin τ.nSub) :
    defs₀ (F := F) (.scVector c s) 0 ()
      = SparseCore.onTile hcore0 hsub0 (fun c s => cc0__sae_body (coordsV c s)
          spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF hpre d (coordsV ⟨_, hc.1⟩ ⟨_, hc.2⟩) O W hO).trans (wp_mono frame _ _ fun _ => obl_post)

theorem vecSplit : (K (F := F)).VecSplit' (P m) 0 := by
  intro d c
  show (bigSep Finset.univ fun i : Fin ((K (F := F)).nSub 0) => GO m d (tL (F := F) c i)) ⊢ |={Set.univ}=> iprop(
      (bigSep Finset.univ fun i : Fin ((K (F := F)).nSub 0) => GO m d (tL (F := F) c i))
      ∗ ((bigSep Finset.univ fun i : Fin ((K (F := F)).nSub 0) => TD m d (tL (F := F) c i))
          -∗ bigSep Finset.univ fun i : Fin ((K (F := F)).nSub 0) => TD m d (tL (F := F) c i)))
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the claim: the three argument arrays whole at their launch contents. -/
abbrev FIN (d : Dev nD) : sProp 𝕄 :=
  iprop((spLoc d ↦{fullShare} m (spLoc d)) ∗ (enLoc d ↦{fullShare} m (enLoc d)) ∗ (a2Loc d ↦{fullShare} m (a2Loc d)))

/-! ## @main on the TensorCore -/

abbrev rSp : DevRef τ sig := Proc.devRef .tc (main_arg0 : Ref sig .tc)
abbrev rEn : DevRef τ sig := Proc.devRef .tc (main_arg1 : Ref sig .tc)
abbrev rA2 : DevRef τ sig := Proc.devRef .tc (main_arg2 : Ref sig .tc)
abbrev rCst : DevRef τ sig := Proc.devRef .tc (main_cst : Ref sig .tc)
abbrev rV0 : DevRef τ sig := Proc.devRef .tc (main_v0 : Ref sig .tc)
abbrev rC : DevRef τ sig := Proc.devRef .tc (main_c : Ref sig .tc)
abbrev rV1 : DevRef τ sig := Proc.devRef .tc (main_v1 : Ref sig .tc)
abbrev rSe : DevRef τ sig := Proc.devRef .tc (main_v2 : Ref sig .tc)
abbrev rO : DevRef τ sig := Proc.devRef .tc (main_v3 : Ref sig .tc)

/-- The TensorCore's arrays, all unscoped: the three arguments, the host operations' five, the result. -/
abbrev S9 : Finset (DevRef τ sig) := {rSp, rEn, rA2, rCst, rV0, rC, rV1, rSe, rO}

omit [FloatOps F] in
theorem held_S9 (d : Dev nD) (W : Valuation τ sig (Elt F)) :
    (held (T d) S9 W : sProp 𝕄) = iprop((spLoc d ↦{fullShare} W rSp) ∗ (enLoc d ↦{fullShare} W rEn) ∗ (a2Loc d ↦{fullShare} W rA2) ∗ ((SparseCore.T d).loc main_cst ↦{fullShare} W rCst) ∗ ((SparseCore.T d).loc main_v0 ↦{fullShare} W rV0) ∗ ((SparseCore.T d).loc main_c ↦{fullShare} W rC) ∗ ((SparseCore.T d).loc main_v1 ↦{fullShare} W rV1) ∗ (seLoc d ↦{fullShare} W rSe) ∗ (oLoc d ↦{fullShare} W rO)) := by
  unfold held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((spLoc d ↦{fullShare} W main_arg0) ∗ (enLoc d ↦{fullShare} W main_arg1) ∗ (a2Loc d ↦{fullShare} W main_arg2) ∗ ((SparseCore.T d).loc main_cst ↦{fullShare} W main_cst) ∗ ((SparseCore.T d).loc main_v0 ↦{fullShare} W main_v0) ∗ ((SparseCore.T d).loc main_c ↦{fullShare} W main_c) ∗ ((SparseCore.T d).loc main_v1 ↦{fullShare} W main_v1) ∗ (seLoc d ↦{fullShare} W main_v2) ∗ (oLoc d ↦{fullShare} W main_v3)) := by
  unfold unscopedBufs
  rw [show (Finset.univ.filter fun b : Ref sig .tc => ¬ b.isScoped) = {main_arg0, main_arg1, main_arg2, main_cst, main_v0, main_c, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S9 (V0 m d) := by
  rw [unscopedBufs_eq, held_S9]; rfl

/-- A buffer none of the five host operations writes is at its launch contents after them. -/
theorem V5_keep (d : Dev nD) {b : DevRef τ sig} (h1 : b ∉ (op1 (F := F)).writes) (h2 : b ∉ (op2 (F := F)).writes) (h3 : b ∉ (op3 (F := F)).writes)
    (h4 : b ∉ (op4 (F := F)).writes) (h5 : b ∉ (op5 (F := F)).writes) : V5 m d b = V0 m d b := by
  show (op5 (F := F)).result (V4 m d) b = _
  rw [(op5 (F := F)).result_of_not_mem _ h5]
  show (op4 (F := F)).result (V3 m d) b = _
  rw [(op4 (F := F)).result_of_not_mem _ h4]
  show (op3 (F := F)).result (V2 m d) b = _
  rw [(op3 (F := F)).result_of_not_mem _ h3]
  show (op2 (F := F)).result (V1 m d) b = _
  rw [(op2 (F := F)).result_of_not_mem _ h2]
  show (op1 (F := F)).result (V0 m d) b = _
  rw [(op1 (F := F)).result_of_not_mem _ h1]
theorem V5_sp (d : Dev nD) : V5 m d rSp = m (spLoc d) := V5_keep m d (show rSp ∉ ({rCst} : Finset (DevRef τ sig)) by decide) (show rSp ∉ ({rV0} : Finset (DevRef τ sig)) by decide) (show rSp ∉ ({rC} : Finset (DevRef τ sig)) by decide) (show rSp ∉ ({rV1} : Finset (DevRef τ sig)) by decide) (show rSp ∉ ({rSe} : Finset (DevRef τ sig)) by decide)
theorem V5_en (d : Dev nD) : V5 m d rEn = m (enLoc d) := V5_keep m d (show rEn ∉ ({rCst} : Finset (DevRef τ sig)) by decide) (show rEn ∉ ({rV0} : Finset (DevRef τ sig)) by decide) (show rEn ∉ ({rC} : Finset (DevRef τ sig)) by decide) (show rEn ∉ ({rV1} : Finset (DevRef τ sig)) by decide) (show rEn ∉ ({rSe} : Finset (DevRef τ sig)) by decide)
theorem V5_a2 (d : Dev nD) : V5 m d rA2 = m (a2Loc d) := V5_keep m d (show rA2 ∉ ({rCst} : Finset (DevRef τ sig)) by decide) (show rA2 ∉ ({rV0} : Finset (DevRef τ sig)) by decide) (show rA2 ∉ ({rC} : Finset (DevRef τ sig)) by decide) (show rA2 ∉ ({rV1} : Finset (DevRef τ sig)) by decide) (show rA2 ∉ ({rSe} : Finset (DevRef τ sig)) by decide)
theorem V5_o (d : Dev nD) : V5 m d rO = m (oLoc d) := V5_keep m d (show rO ∉ ({rCst} : Finset (DevRef τ sig)) by decide) (show rO ∉ ({rV0} : Finset (DevRef τ sig)) by decide) (show rO ∉ ({rC} : Finset (DevRef τ sig)) by decide) (show rO ∉ ({rV1} : Finset (DevRef τ sig)) by decide) (show rO ∉ ({rSe} : Finset (DevRef τ sig)) by decide)
theorem V5_se (d : Dev nD) : V5 m d rSe = se8 m d := rfl

theorem h1sub : (op1 (F := F)).bufs ⊆ S9 := show ({rCst} : Finset (DevRef τ sig)) ⊆ S9 by decide
theorem h2sub : (op2 (F := F)).bufs ⊆ S9 := show ({rCst, rV0} : Finset (DevRef τ sig)) ⊆ S9 by decide
theorem h3sub : (op3 (F := F)).bufs ⊆ S9 := show ({rC} : Finset (DevRef τ sig)) ⊆ S9 by decide
theorem h4sub : (op4 (F := F)).bufs ⊆ S9 := show ({rC, rV1} : Finset (DevRef τ sig)) ⊆ S9 by decide
theorem h5sub : (op5 (F := F)).bufs ⊆ S9 := show ({rV0, rV1, rA2, rSe} : Finset (DevRef τ sig)) ⊆ S9 by decide

omit [FloatOps F] in
/-- A family over the thirty-two tiles of a pair is the pair of the families. -/
theorem BS_sep (Φ Ψ : Fin 2 → Fin 16 → sProp 𝕄) :
    (bigSep Finset.univ fun c : Fin 2 => bigSep Finset.univ fun s : Fin 16 => iprop(Φ c s ∗ Ψ c s))
      = iprop((bigSep Finset.univ fun c : Fin 2 => bigSep Finset.univ fun s : Fin 16 => Φ c s)
          ∗ bigSep Finset.univ fun c : Fin 2 => bigSep Finset.univ fun s : Fin 16 => Ψ c s) := by
  simp only [bigSep_sep']

/-- What the call takes for the two SparseCores: every tile's shares and entries, array by array. -/
theorem st0_eq (d : Dev nD) :
    (bigSep Finset.univ fun c : Fin ((K (F := F)).nCore 0) => (P m).st 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => oLoc d ↦[(oSl (coordsV ⟨c.val, c.isLt⟩ ⟨s.val, s.isLt⟩)).view.set]{fullShare} m (oLoc d))) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ (oLoc d ↦[(oSl (coordsV ⟨c.val, c.isLt⟩ ⟨s.val, s.isLt⟩)).view.set]{fullShare} m (oLoc d)))) = _
  simp only [bigSep_sep']
/-- What it hands back: the same, the result's entries at what the tiles wrote. -/
theorem dn0_eq (d : Dev nD) :
    (bigSep Finset.univ fun c : Fin ((K (F := F)).nCore 0) => (P m).dn 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => iprop(∃ f, oLoc d ↦[(oSl (coordsV ⟨c.val, c.isLt⟩ ⟨s.val, s.isLt⟩)).view.set]{fullShare} f))) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ ∃ f, oLoc d ↦[(oSl (coordsV ⟨c.val, c.isLt⟩ ⟨s.val, s.isLt⟩)).view.set]{fullShare} f)) = _
  simp only [bigSep_sep']

/-- @main on device d's TensorCore: the five host operations over the nine arrays held whole, the arrays dealt to the
    tiles, the call, the species words and the energies rejoined; the three arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the five host operations, over the nine arrays held whole
  iapply (wp_hlo_within 𝒱 (SparseCore.T d) none Set.univ (op := op1) (S := S9) h1sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2sub (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) h4sub (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S9) h5sub (V := V4 m d)) $$ [Hb Hheld]
  · isplitl [Hb]; · iexact Hb
    iexact Hheld
  iintro ⟨Hb, Hheld⟩
  rw [wp_ret]; imodintro
  ihave Hh := (Entails.of_eq (held_S9 (F := F) d (V5 m d))) $$ Hheld
  icases Hh with ⟨Hsp, Hen, Ha2, -, -, -, -, Hse, Ho⟩
  rw [V5_sp, V5_en, V5_a2, V5_se, V5_o]
  -- the arrays dealt to the thirty-two tiles: read tokens of the inputs, the result's entries
  ihave Hsp' := (toks_split2 (ℓ := spLoc d) (f := m (spLoc d))) $$ Hsp
  icases Hsp' with ⟨Rsp, Tsp⟩
  ihave Tsp' := (Entails.of_eq (BS_sep (F := F) (fun c s => spLoc d ↦{(tq c.val s.val).left} m (spLoc d)) (fun c s => spLoc d ↦{(tq c.val s.val).right} m (spLoc d)))) $$ Tsp
  icases Tsp' with ⟨TspL, TspR⟩
  ihave Hen' := (toks_split (ℓ := enLoc d) (f := m (enLoc d))) $$ Hen
  icases Hen' with ⟨Ren, Ten⟩
  ihave Hse' := (toks_split (ℓ := seLoc d) (f := se8 m d)) $$ Hse
  icases Hse' with ⟨-, Tse⟩
  ihave To := (Entails.of_eq (oPts_tiles (F := F) d (m (oLoc d)))) $$ Ho
  -- the call
  iapply ((K (F := F)).wp_run (D (F := F)) 𝒱 (EH := EH) (P := P m) κ d 0) $$ [Hst TspL TspR Ten Tse To Rsp Ren Ha2]
  isplitr; · iexact Hctx
  isplitl [Hst]; · iexact Hst
  isplitl [TspL TspR Ten Tse To]
  · rw [st0_eq]
    isplitl [TspL]; · iexact TspL
    isplitl [TspR]; · iexact TspR
    isplitl [Ten]; · iexact Ten
    isplitl [Tse]; · iexact Tse
    iexact To
  iintro ⟨Hst, Hdn⟩
  ihave Hdn' := (Entails.of_eq (dn0_eq m d)) $$ Hdn
  icases Hdn' with ⟨TspL, TspR, Ten, -, -⟩
  -- the species words and the energies rejoined whole
  ihave Tsp := (Entails.of_eq (BS_sep (F := F) (fun c s => spLoc d ↦{(tq c.val s.val).left} m (spLoc d)) (fun c s => spLoc d ↦{(tq c.val s.val).right} m (spLoc d))).symm) $$ [TspL TspR]
  · isplitl [TspL]; · iexact TspL
    iexact TspR
  ihave Hsp := (toks_join2 (ℓ := spLoc d) (f := m (spLoc d))) $$ [Rsp Tsp]
  · isplitl [Rsp]; · iexact Rsp
    iexact Tsp
  ihave Hen := (toks_join (ℓ := enLoc d) (f := m (enLoc d))) $$ [Ren Ten]
  · isplitl [Ren]; · iexact Ren
    iexact Ten
  imodintro
  isplitl [Hst]; · iexact Hst
  isplitl [Hsp]; · iexact Hsp
  isplitl [Hen]; · iexact Hen
  iexact Ha2

def fq (d : Dev nD) (s' : Phys nD τ sig (Elt F)) : Prop :=
  s'.mem.mem (spLoc d) = m (spLoc d) ∧ s'.mem.mem (enLoc d) = m (enLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hi, Hx, Ha⟩, HSI⟩
  ihave H := (persistent_entails_right (SI_pointsTo_agree (st := s') (ℓ := spLoc d) (I := Finset.univ) (q := fullShare) (f := m (spLoc d)))) $$ [HSI Hi]
  · isplitl [HSI] <;> iassumption
  icases H with ⟨%h1, HSI, -⟩
  ihave H := (persistent_entails_right (SI_pointsTo_agree (st := s') (ℓ := enLoc d) (I := Finset.univ) (q := fullShare) (f := m (enLoc d)))) $$ [HSI Hx]
  · isplitl [HSI] <;> iassumption
  icases H with ⟨%h2, HSI, -⟩
  ihave H := (SI_pointsTo_agree (st := s') (ℓ := a2Loc d) (I := Finset.univ) (q := fullShare) (f := m (a2Loc d))) $$ [HSI Ha]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (spLoc c) = m (spLoc c) ∧ r.2.mem (enLoc c) = m (enLoc c) ∧ r.2.mem (a2Loc c) = m (a2Loc c)

theorem run_main' [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- Every weakly fair execution of the whole family of threads ends, nothing faulting, no handshake unanswered, the
    three argument arrays unchanged. -/
theorem run_main [∀ e, Nonempty (Elt F e)] (m : (ℓ : Loc nD τ sig) → Buf (Elt F) ℓ) (ρ : Dev nD → PrngReg)
    (hpre : ∀ (d : Dev nD) j, (m ((SparseCore.T d).loc main_arg0) j).toNat ≤ 6) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c => h c) (run_main' m ρ hpre)

end Cert.Proof.KI

end
-- ==== Proof.KI.Frame.lean ====
/-
  The kernel's frame: under the input-domain precondition every species word is one of the seven element numbers,
  and the run of the whole family of threads leaves the three argument arrays unchanged.
-/
import proofs.«206987_g17583596110038_cont_8to1_771_12_alg».proof.Proof.KI.Launch
import proofs.«206987_g17583596110038_cont_8to1_771_12_alg».proof.Proof.PreRange

noncomputable section

namespace Cert.Proof.KI

open Idealize.ShloMosaic

/-- The frame claimed of the kernel: the precondition bounds the species words, which is what the run asks. -/
theorem frame : Cert.frame_KernelIdeal (hKernelIdeal := Cert.KernelIdeal.Gen.facts) (hPre_input_domain := Cert.Pre_input_domain.Gen.facts) :=
  fun m ρ hpre =>
    (θ_run Cert.KernelIdeal.defs _ _).mono (fun _ h c => h c)
      (run_main (F := Ideal) m ρ (fun d j =>
        Cert.Sae.inRange_of_pre (F := Ideal) _ _ _ (hpre d) j))

end Cert.Proof.KI

end
-- ==== Proof.RefOps.lean ====
/-
  The reference program's @main as the list of its host operations, the two outlined helpers opened at their
  calls (the table lookup with its index wrap, range mask and fill; the padding mask), and its run: every weakly
  fair execution ends with each buffer at the fold of those operations over the launch contents.
-/
import proofs.«206987_g17583596110038_cont_8to1_771_12_alg».proof.Proof.Gen.ReferenceIdeal
import Idealize.ShloMosaic.Lib.StableHlo.Run

noncomputable section

namespace Cert.Sae.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls opened: the lookup is twenty-two (the wrap of a negative word by 7,
    the word as a one-entry index vector, the range test 0 ≤ · ≤ 6 and-reduced over the unit axis, the gather,
    the fill and the select), then the padding mask's comparison with -1, the zero, its broadcast and the
    select, then the zero, the sum over the atoms' axis and the final sum. -/
abbrev ops : List (HloOp τ sig (Elt F)) :=
  [ TRef.nullary main_call0.c (constantI S_ 32 0#32),
    TRef.unary main_call0.c main_call0.v0 (broadcastInDim S16384x200 ![] bcast_S_S16384x200),
    TRef.binary (.of main_arg0 : TRef sig ⟨S16384x200, .i32⟩) main_call0.v0 main_call0.v1 (cmpi .slt),
    TRef.nullary main_call0.c_0 (constantI S_ 32 7#32),
    TRef.unary main_call0.c_0 main_call0.v2 (broadcastInDim S16384x200 ![] bcast_S_S16384x200),
    TRef.binary (.of main_arg0 : TRef sig ⟨S16384x200, .i32⟩) main_call0.v2 main_call0.v3 addi,
    TRef.ternary main_call0.v1 main_call0.v3 (.of main_arg0 : TRef sig ⟨S16384x200, .i32⟩) main_call0.call0.v0 select,
    TRef.unary main_call0.call0.v0 main_call0.v5 (broadcastInDim S16384x200x1 ![0, 1] bcast_S16384x200_S16384x200x1_0_1),
    TRef.nullary main_call0.c_1 (constantI S1 32 6#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg2 : TRef sig ⟨S7, .f32⟩) main_call0.v5 main_call0.v13 (fun x i => Host.gather gather_S7_S16384x200x1_S16384x200_n_0_n_n_0_2_1 x i),
    TRef.nullary main_call0.cst (constant S_ .f32 0x7FC00000#32),
    TRef.unary main_call0.cst main_call0.v14 (broadcastInDim S16384x200 ![] bcast_S_S16384x200),
    TRef.ternary main_call0.v12 main_call0.v13 main_call0.v14 main_call0.v15 select,
    nullary main_c (constantI S_ 32 4294967295#32),
    unary main_c main_v1 (broadcastInDim S16384x200 ![] bcast_S_S16384x200 : (⟨S_, .i32⟩ : BufTy).Contents (Elt F) → (⟨S16384x200, .i32⟩ : BufTy).Contents (Elt F)),
    binary main_arg0 main_v1 main_v2 (cmpi .eq : (⟨S16384x200, .i32⟩ : BufTy).Contents (Elt F) → (⟨S16384x200, .i32⟩ : BufTy).Contents (Elt F) → (⟨S16384x200, .i1⟩ : BufTy).Contents (Elt F)),
    nullary main_cst (constant S_ .f32 0x00000000#32),
    TRef.unary (.of main_cst : TRef sig ⟨S_, .f32⟩) main_call1.v0 (broadcastInDim S16384x200 ![] bcast_S_S16384x200),
    TRef.ternary (.of main_v2 : TRef sig ⟨S16384x200, .i1⟩) main_call1.v0 (.of main_v0 : TRef sig ⟨S16384x200, .f32⟩) main_call1.v1 select,
    nullary main_cst_0 (constant S_ .f32 0x00000000#32),
    binary main_v3 main_cst_0 main_v4 ((fun x v => Host.reduceAdd x v reducesTo_S16384x200_S16384_d1 h_S_) : (⟨S16384x200, .f32⟩ : BufTy).Contents (Elt F) → (⟨S_, .f32⟩ : BufTy).Contents (Elt F) → (⟨S16384, .f32⟩ : BufTy).Contents (Elt F)),
    binary main_arg1 main_v4 main_v5 (addf : (⟨S16384, .f32⟩ : BufTy).Contents (Elt F) → (⟨S16384, .f32⟩ : BufTy).Contents (Elt F) → (⟨S16384, .f32⟩ : BufTy).Contents (Elt F)) ]

set_option maxRecDepth 1024 in
/-- @main is that straight line: the helpers' definitions unfolded at their calls, both sides are one chain of
    steps once sequencing is reassociated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., binary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Sae.Ref

end
-- ==== Proof.RefTerm.lean ====
/-
  The reference's result as one term of the argument arrays over the extended reals, stage by stage: the species
  word wrapped by 7 when negative and set as a one-entry index vector; the range test 0 ≤ · ≤ 6 of that vector,
  and-reduced over its unit axis; the table gathered at it, the fill where the test fails; zero where the species
  word is -1; the sum over the atoms' axis from zero; the energy added.
-/
import proofs.«206987_g17583596110038_cont_8to1_771_12_alg».proof.Proof.Gen.ReferenceIdeal
import Idealize.ShloMosaic.PureOps.Ideal

noncomputable section

namespace Cert.Sae.Ref

open Cert.ReferenceIdeal Cert.ReferenceIdeal.Gen Idealize.ShloMosaic

/-- The index vector of the lookup: the word, plus 7 if it is negative, along a new unit axis. -/
def idx (sp : IVec S16384x200 32) : IVec S16384x200x1 32 :=
  broadcastInDim S16384x200x1 ![0, 1] bcast_S16384x200_S16384x200x1_0_1
    (select (cmpi .slt sp (broadcastInDim S16384x200 ![] bcast_S_S16384x200 (constantI S_ 32 0#32)))
      (addi sp (broadcastInDim S16384x200 ![] bcast_S_S16384x200 (constantI S_ 32 7#32))) sp)

/-- The lookup's range mask: 0 ≤ index ≤ 6 at every entry of the index vector. -/
def mask (sp : IVec S16384x200 32) : IVec S16384x200 1 :=
  Host.reduce IntOp.andi
    (andi (cmpi .sge (idx sp) (broadcastInDim S16384x200x1 ![] bcast_S_S16384x200x1 (constantI S_ 32 0#32)))
      (cmpi .sle (idx sp) (broadcastInDim S16384x200x1 ![0, 1, 2] bcast_S1x1x1_S16384x200x1_0_1_2
        (broadcastInDim S1x1x1 ![2] bcast_S1_S1x1x1_2 (constantI S1 32 6#32)))))
    (constantI S_ 1 1#1) reducesTo_S16384x200x1_S16384x200_d2 h_S_

/-- The lookup: the table gathered at the index vector where the mask holds, the fill elsewhere. -/
def taken (sp : IVec S16384x200 32) (se : FVec Ideal S7 .f32) : FVec Ideal S16384x200 .f32 :=
  select (mask sp) (Host.gather gather_S7_S16384x200x1_S16384x200_n_0_n_n_0_2_1 se (idx sp))
    (broadcastInDim S16384x200 ![] bcast_S_S16384x200 (constant (F := Ideal) S_ .f32 0x7FC00000#32))

/-- Zero at the padding word -1, the lookup elsewhere. -/
def masked (sp : IVec S16384x200 32) (se : FVec Ideal S7 .f32) : FVec Ideal S16384x200 .f32 :=
  select (cmpi .eq sp (broadcastInDim S16384x200 ![] bcast_S_S16384x200 (constantI S_ 32 4294967295#32)))
    (broadcastInDim S16384x200 ![] bcast_S_S16384x200 (constant (F := Ideal) S_ .f32 0x00000000#32)) (taken sp se)

/-- The result: the energy plus the sum over the atoms' axis. -/
def term (sp : IVec S16384x200 32) (en : FVec Ideal S16384 .f32) (se : FVec Ideal S7 .f32) : FVec Ideal S16384 .f32 :=
  addf en (Host.reduceAdd (masked sp se) (constant (F := Ideal) S_ .f32 0x00000000#32) reducesTo_S16384x200_S16384_d1 h_S_)

end Cert.Sae.Ref

end
-- ==== Proof.RefFold.lean ====
/-
  The fold of the reference's operations read at the result buffer is the staged term of the three argument
  arrays; at each argument buffer it is what was there. An outlined helper's operation moves contents between a
  buffer's own type and the value's declared type; at these buffers the two types are one and the move is the
  identity.
-/
import proofs.«206987_g17583596110038_cont_8to1_771_12_alg».proof.Proof.RefOps
import proofs.«206987_g17583596110038_cont_8to1_771_12_alg».proof.Proof.RefTerm

noncomputable section

namespace Cert.Sae.Ref

open Cert.ReferenceIdeal Cert.ReferenceIdeal.Gen Idealize.ShloMosaic Idealize.ShloMosaic.TcCoe Idealize.SL.Sem Idealize.ShloMosaic.StableHlo

/-- Into a buffer's type and back is the identity. -/
theorem ofBuf_toBuf {T : BufTy} {Val : EltTy → Type} (x : TRef sig T) (v : T.Contents Val) : x.ofBuf (x.toBuf v) = v := by
  obtain ⟨r, h, hd, hs⟩ := x
  subst h
  rfl

theorem ofBuf_arg0 {Val : EltTy → Type} (h hd hs) (v : (main_arg0 : Ref sig .tc).ty.Contents Val) :
    (TRef.of (T := ⟨S16384x200, .i32⟩) main_arg0 h hd hs).ofBuf v = v := rfl

theorem ofBuf_arg2 {Val : EltTy → Type} (h hd hs) (v : (main_arg2 : Ref sig .tc).ty.Contents Val) :
    (TRef.of (T := ⟨S7, .f32⟩) main_arg2 h hd hs).ofBuf v = v := rfl

theorem ofBuf_cst {Val : EltTy → Type} (h hd hs) (v : (main_cst : Ref sig .tc).ty.Contents Val) :
    (TRef.of (T := ⟨S_, .f32⟩) main_cst h hd hs).ofBuf v = v := rfl

theorem ofBuf_v2 {Val : EltTy → Type} (h hd hs) (v : (main_v2 : Ref sig .tc).ty.Contents Val) :
    (TRef.of (T := ⟨S16384x200, .i1⟩) main_v2 h hd hs).ofBuf v = v := rfl

theorem toBuf_v3 {Val : EltTy → Type} (h hd hs) (v : (⟨S16384x200, .f32⟩ : BufTy).Contents Val) :
    (TRef.of (T := ⟨S16384x200, .f32⟩) main_v3 h hd hs).toBuf v = v := rfl

/-- The result buffer after the operations holds the staged term of the arguments' contents. -/
theorem term_eq (V : Valuation τ sig (Elt Ideal)) :
    after (ops (F := Ideal)) V (main_v5 : DevRef τ sig)
      = term (V (main_arg0 : DevRef τ sig)) (V (main_arg1 : DevRef τ sig)) (V (main_arg2 : DevRef τ sig)) := by
  after_results_simp
  simp only [ofBuf_toBuf, ofBuf_arg0, ofBuf_arg2, ofBuf_cst, ofBuf_v2, toBuf_v3]
  unfold term masked taken mask idx
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

end Cert.Sae.Ref

end
-- ==== Proof.RefValue.lean ====
/-
  With every species word among 0 … 6 the staged term is the energy plus the summed self energies: a word in
  that range is not negative, so it is not wrapped; it passes the range test, so the lookup reads the table at
  it and never the fill; it is not -1, so it is not masked to zero; and the sum from zero over the atoms' axis
  is the plain sum.
-/
import proofs.«206987_g17583596110038_cont_8to1_771_12_alg».proof.Proof.RefTerm
import proofs.«206987_g17583596110038_cont_8to1_771_12_alg».proof.Proof.SaeSpec
import Idealize.ShloMosaic.Lib.IdealHost
import Idealize.ShloMosaic.Lib.ValueIdx
import Idealize.ShloMosaic.Lib.Affine
import Idealize.ShloMosaic.Lib.Pipeline.Value
import Idealize.ShloMosaic.PureOps.Reduce
import Idealize.ShloMosaic.PureOps.Ideal.Laws

noncomputable section

namespace Cert.Sae.Ref

open Cert.ReferenceIdeal Cert.ReferenceIdeal.Gen Idealize.ShloMosaic Idealize.ShloMosaic.ValueIdx

/-! ## A word among 0 … 6 -/

theorem toInt_of_le (w : BitVec 32) (hw : w.toNat ≤ 6) : w.toInt = (w.toNat : Int) :=
  BitVec.toInt_eq_toNat_of_lt (by omega)

/-- It is not negative. -/
theorem slt_zero (w : BitVec 32) (hw : w.toNat ≤ 6) : IntOp.cmpi .slt w 0#32 = 0#1 := by
  refine eq_zero_of_ne_one fun h => ?_
  rw [IntOp.cmpi_slt, toInt_of_le w hw] at h
  have z : (0#32 : BitVec 32).toInt = 0 := by decide
  omega

theorem sge_zero (w : BitVec 32) (hw : w.toNat ≤ 6) : IntOp.cmpi .sge w 0#32 = 1#1 := by
  rw [IntOp.cmpi_sge, toInt_of_le w hw]
  have z : (0#32 : BitVec 32).toInt = 0 := by decide
  omega

theorem sle_six (w : BitVec 32) (hw : w.toNat ≤ 6) : IntOp.cmpi .sle w 6#32 = 1#1 := by
  rw [IntOp.cmpi_sle, toInt_of_le w hw]
  have z : (6#32 : BitVec 32).toInt = 6 := by decide
  omega

/-- It is not the padding word -1. -/
theorem eq_neg_one (w : BitVec 32) (hw : w.toNat ≤ 6) : IntOp.cmpi .eq w 4294967295#32 = 0#1 := by
  refine eq_zero_of_ne_one fun h => ?_
  rw [IntOp.cmpi_eq] at h
  rw [h] at hw
  exact absurd hw (by decide)

/-- Read signed and clamped into the table it is itself. -/
theorem clamp_eq (w : BitVec 32) (hw : w.toNat ≤ 6) : min w.toInt.toNat (7 - 1) = w.toNat := by
  rw [toInt_of_le w hw, Int.toNat_natCast]
  omega

/-! ## A conjunction over a list of ones -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    have e : IntOp.andi (1#1 : BitVec 1) 1#1 = 1#1 := by decide
    rw [e]
    exact foldl_andi_one f l fun n hn => h n (List.mem_cons_of_mem _ hn)

/-- An and-reduction from one of an array of ones is one everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ fun n _ => hx n

/-! ## The stages at an index -/

/-- The wrap leaves a word among 0 … 6 alone. -/
theorem wrap_apply (sp : IVec S16384x200 32) (r : Fin 16384) (c : Fin 200) (hw : (sp (ix2 r c)).toNat ≤ 6) :
    select (cmpi .slt sp (broadcastInDim S16384x200 ![] bcast_S_S16384x200 (constantI S_ 32 0#32)))
      (addi sp (broadcastInDim S16384x200 ![] bcast_S_S16384x200 (constantI S_ 32 7#32))) sp (ix2 r c)
      = sp (ix2 r c) := by
  rw [select_apply]
  have h : cmpi .slt sp (broadcastInDim S16384x200 ![] bcast_S_S16384x200 (constantI S_ 32 0#32)) (ix2 r c) = 0#1 := by
    show IntOp.cmpi .slt (sp (ix2 r c)) (broadcastInDim S16384x200 ![] bcast_S_S16384x200 (constantI S_ 32 0#32) (ix2 r c)) = 0#1
    rw [broadcastInDim_scalar_apply]
    exact slt_zero _ hw
  rw [h, select_zero]

/-- The index vector's one entry is the word. -/
theorem idx_apply (sp : IVec S16384x200 32) (r : Fin 16384) (c : Fin 200) (k : Fin 1) (hw : (sp (ix2 r c)).toNat ≤ 6) :
    idx sp (ix3 r c k) = sp (ix2 r c) := by
  unfold idx
  rw [broadcastInDim_apply _ bcast_S16384x200_S16384x200x1_0_1 _ (ix3 r c k) (ix2 r c) (by
    intro a
    match a with
    | ⟨0, _⟩ => rfl
    | ⟨1, _⟩ => rfl)]
  exact wrap_apply sp r c hw

/-- The range mask holds everywhere. -/
theorem mask_apply (sp : IVec S16384x200 32) (hr : InRange sp) (j : S16384x200.Idx) : mask sp j = 1#1 := by
  unfold mask
  refine reduce_andi_of_all _ _ _ _ rfl (fun i => ?_) j
  obtain ⟨r, c, k, rfl⟩ : ∃ (r : Fin 16384) (c : Fin 200) (k : Fin 1), i = ix3 r c k := ⟨i 0, i 1, i 2, eq_ix3 i⟩
  show IntOp.andi
      (IntOp.cmpi .sge (idx sp (ix3 r c k)) (broadcastInDim S16384x200x1 ![] bcast_S_S16384x200x1 (constantI S_ 32 0#32) (ix3 r c k)))
      (IntOp.cmpi .sle (idx sp (ix3 r c k)) (broadcastInDim S16384x200x1 ![0, 1, 2] bcast_S1x1x1_S16384x200x1_0_1_2
        (broadcastInDim S1x1x1 ![2] bcast_S1_S1x1x1_2 (constantI S1 32 6#32)) (ix3 r c k))) = 1#1
  have h6 : broadcastInDim S16384x200x1 ![0, 1, 2] bcast_S1x1x1_S16384x200x1_0_1_2
      (broadcastInDim S1x1x1 ![2] bcast_S1_S1x1x1_2 (constantI S1 32 6#32)) (ix3 r c k) = 6#32 := rfl
  rw [idx_apply sp r c k (hr _), broadcastInDim_scalar_apply, h6, IntOp.andi_eq_one]
  exact ⟨sge_zero _ (hr _), sle_six _ (hr _)⟩

/-- The lookup reads the table at the word. -/
theorem taken_apply (sp : IVec S16384x200 32) (se : FVec Ideal S7 .f32) (hr : InRange sp) (r : Fin 16384) (c : Fin 200) :
    taken sp se (ix2 r c) = seAt se (sp (ix2 r c)) := by
  unfold taken
  rw [select_apply, mask_apply sp hr, select_one]
  have hg : gather_S7_S16384x200x1_S16384x200_n_0_n_n_0_2_1
      = takeDims 7 16384 200 gather_S7_S16384x200x1_S16384x200_n_0_n_n_0_2_1_wf := rfl
  rw [hg, gather_take_apply (by decide)]
  have ht : takeIdx (ix2 r c) = ix3 r c (0 : Fin 1) := by
    funext a
    match a with
    | ⟨0, _⟩ => rfl
    | ⟨1, _⟩ => rfl
    | ⟨2, _⟩ => rfl
  have hi : idx sp (takeIdx (ix2 r c)) = sp (ix2 r c) := by
    rw [ht]
    exact idx_apply sp r c 0 (hr _)
  unfold seAt
  rw [dif_pos (by have := hr (ix2 r c); omega)]
  refine congrArg se (congrArg ix1 (Fin.ext ?_))
  show min (idx sp (takeIdx (ix2 r c))).toInt.toNat (7 - 1) = (sp (ix2 r c)).toNat
  rw [hi]
  exact clamp_eq _ (hr _)

/-- No word is the padding word, so nothing is masked to zero. -/
theorem masked_apply (sp : IVec S16384x200 32) (se : FVec Ideal S7 .f32) (hr : InRange sp) (r : Fin 16384) (c : Fin 200) :
    masked sp se (ix2 r c) = seAt se (sp (ix2 r c)) := by
  unfold masked
  rw [select_apply]
  have h : cmpi .eq sp (broadcastInDim S16384x200 ![] bcast_S_S16384x200 (constantI S_ 32 4294967295#32)) (ix2 r c) = 0#1 := by
    show IntOp.cmpi .eq (sp (ix2 r c)) (broadcastInDim S16384x200 ![] bcast_S_S16384x200 (constantI S_ 32 4294967295#32) (ix2 r c)) = 0#1
    rw [broadcastInDim_scalar_apply]
    exact eq_neg_one _ (hr _)
  rw [h, select_zero]
  exact taken_apply sp se hr r c

/-- The staged term is the specification's result. -/
theorem term_out (sp : IVec S16384x200 32) (en : FVec Ideal S16384 .f32) (se : FVec Ideal S7 .f32) (hr : InRange sp) :
    term sp en se = Cert.Sae.out sp en se := by
  funext i
  obtain ⟨r, rfl⟩ : ∃ r : Fin 16384, i = ix1 r := ⟨i 0, eq_ix1 i⟩
  have hR : S16384x200.Reduces [1] S16384 := by decide
  rw [out_apply]
  unfold term
  rw [addf_apply, hostReduceAdd_apply,
    Ideal.hostReduceAdd_single reducesTo_S16384x200_S16384_d1 hR _ _ (ix1 r)]
  refine congrArg (en (ix1 r) + ·) ?_
  rw [constant_apply, Ideal.ofBits_zero_f32, zero_add]
  unfold rowSum
  refine Finset.sum_congr rfl fun c _ => ?_
  have hl : hR.lift (ix1 r) c = ix2 r c := by
    funext a
    match a with
    | ⟨0, _⟩ => exact Fin.ext rfl
    | ⟨1, _⟩ => exact Fin.ext rfl
  rw [hl]
  exact masked_apply sp se hr r c

end Cert.Sae.Ref

end
-- ==== Proof.RefRun.lean ====
/-
  The reference's run: from any memory whose species words are all among 0 … 6, every weakly fair execution of
  @main terminates with the result buffer at the specification's value of the three argument arrays and the
  arguments unchanged; and, the precondition giving that range, the reference's frame claim.
-/
import proofs.«206987_g17583596110038_cont_8to1_771_12_alg».proof.Defs
import proofs.«206987_g17583596110038_cont_8to1_771_12_alg».proof.Proof.Gen.ReferenceIdeal
import proofs.«206987_g17583596110038_cont_8to1_771_12_alg».proof.Proof.Gen.Pre_input_domain
import proofs.«206987_g17583596110038_cont_8to1_771_12_alg».proof.Proof.RefFold
import proofs.«206987_g17583596110038_cont_8to1_771_12_alg».proof.Proof.RefValue
import proofs.«206987_g17583596110038_cont_8to1_771_12_alg».proof.Proof.PreRange

noncomputable section

namespace Cert.Sae.Ref

open Cert.ReferenceIdeal Cert.ReferenceIdeal.Gen Idealize.ShloMosaic Idealize.ShloMosaic.TcCoe Idealize.SL.Sem Idealize.ShloMosaic.StableHlo

/-- Buffer `b` of device `c`'s TensorCore. -/
abbrev RL (c : Dev Cert.ReferenceIdeal.nD) (b : Ref Cert.ReferenceIdeal.sig .tc) :
    Loc Cert.ReferenceIdeal.nD Cert.ReferenceIdeal.τ Cert.ReferenceIdeal.sig :=
  (c.tc : Thread Cert.ReferenceIdeal.nD Cert.ReferenceIdeal.τ).loc b

/-- With the species words in range the reference ends with the specification's result, its arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) (hr : ∀ c, Cert.Sae.InRange (m' (RL c Cert.ReferenceIdeal.main_arg0))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem (RL c Cert.ReferenceIdeal.main_v5)
          = Cert.Sae.out (m' (RL c Cert.ReferenceIdeal.main_arg0)) (m' (RL c Cert.ReferenceIdeal.main_arg1))
              (m' (RL c Cert.ReferenceIdeal.main_arg2))
      ∧ r.2.mem (RL c Cert.ReferenceIdeal.main_arg0) = m' (RL c Cert.ReferenceIdeal.main_arg0)
      ∧ r.2.mem (RL c Cert.ReferenceIdeal.main_arg1) = m' (RL c Cert.ReferenceIdeal.main_arg1)
      ∧ r.2.mem (RL c Cert.ReferenceIdeal.main_arg2) = m' (RL c Cert.ReferenceIdeal.main_arg2)) :=
  (θ_run defs _ _).mono (fun _ h c =>
      ⟨(h c main_v5).trans ((term_eq _).trans (term_out _ _ _ (hr c))),
        (h c main_arg0).trans (arg0_eq _), (h c main_arg1).trans (arg1_eq _), (h c main_arg2).trans (arg2_eq _)⟩)
    (run_main m' ρ')

/-- The reference's frame claim: the precondition bounds the species words, and the run leaves the arguments as they were. -/
theorem frame : Cert.frame_ReferenceIdeal (hReferenceIdeal := Cert.ReferenceIdeal.Gen.facts)
    (hPre_input_domain := Cert.Pre_input_domain.Gen.facts) := by
  intro m g hpre
  exact (θ_run defs _ _).mono (fun _ h c => (h c).2)
    (run m g fun c => Cert.Sae.inRange_of_pre _ _ _ (hpre c))

end Cert.Sae.Ref

end
-- ==== Proof.SaeForms.lean ====
/-
  What the kernel computes, as closed forms that follow its own order of additions, for any float instance. From the
  table g of eight self energies (the seven, and a zero): the pair table T2 j = g (j / 8) + g (j mod 8) for j < 64; the
  lane table T8R j = g (min (j mod 17) 7) for j < 272; the table of sums of four T4 j = T2 (j / 64) + T2 (j mod 64) for
  j < 4096. A row of 200 species words w contributes to lane l (of sixteen) the three table entries named by the words
  w (64 q + l), w (64 q + 16 + l), w (64 q + 32 + l), w (64 q + 48 + l) packed three bits apiece (q = 0, 1, 2), added in
  that order, plus — on lanes 8 … 15 only — the lane-table entry 17 l + (w (184 + l) masked to three bits), which is the
  self energy of word w (184 + l): the words 192 … 199. Row i of a group of sixteen then sums its sixteen lanes starting
  from lane i, the even steps onto the row's energy and the odd steps onto zero, and adds the two partial sums.
-/
import Idealize.ShloMosaic.PureOps.Vector
import Idealize.ShloMosaic.PureOps.ShapeOps
import Idealize.ShloMosaic.Lib.ValueIdx

noncomputable section

namespace Cert.Sae.K

open Idealize.ShloMosaic Idealize.ShloMosaic.ValueIdx

variable {F : FTy → Type} [FloatOps F]

/-- entry a (taken mod 8) of the eight-entry table -/
def e8 (g : FVec F ⟨1, ![8]⟩ .f32) (a : Nat) : F .f32 := g (ix1 ⟨a % 8, Nat.mod_lt _ (by norm_num)⟩)

def T2 (g : FVec F ⟨1, ![8]⟩ .f32) (j : Nat) : F .f32 := FloatOps.addf (e8 g (j / 8 % 8)) (e8 g (j % 8))

def T8R (g : FVec F ⟨1, ![8]⟩ .f32) (j : Nat) : F .f32 := e8 g (min (j % 17) 7)

def T4 (g : FVec F ⟨1, ![8]⟩ .f32) (j : Nat) : F .f32 := FloatOps.addf (T2 g (j / 64)) (T2 g (j % 64))

/-- four words packed three bits apiece, as the kernel packs them, read unsigned -/
def pk (a b c d : BitVec 32) : Nat :=
  (IntOp.ori (IntOp.ori (IntOp.ori (IntOp.shli .vector a 9#32) (IntOp.shli .vector b 6#32)) (IntOp.shli .vector c 3#32)) d).toNat

/-- the float zero as the kernel spells it -/
def zf : F .f32 := Scalar.ofBits .f32 0x00000000#32

/-- the table entry for the four words of block q (0, 1, 2) of a row at lane l -/
def quad (g : FVec F ⟨1, ![8]⟩ .f32) (w : Nat → BitVec 32) (q l : Nat) : F .f32 :=
  T4 g (pk (w (64 * q + l)) (w (64 * q + 16 + l)) (w (64 * q + 32 + l)) (w (64 * q + 48 + l)))

/-- what lane l of a row's sixteen-lane partial sum holds -/
def lane (g : FVec F ⟨1, ![8]⟩ .f32) (w : Nat → BitVec 32) (l : Nat) : F .f32 :=
  FloatOps.addf (FloatOps.addf (FloatOps.addf (quad g w 0 l) (quad g w 1 l)) (quad g w 2 l))
    (Scalar.select (IntOp.cmpi .slt (BitVec.ofNat 32 l) 8#32) zf (T8R g (17 * l + (IntOp.andi (w (184 + l)) 7#32).toNat)))

/-- the sum of a row's sixteen lanes in the kernel's order: from lane i, even steps onto e, odd steps onto zero -/
def rowOut (g : FVec F ⟨1, ![8]⟩ .f32) (e : F .f32) (w : Nat → BitVec 32) (i : Nat) : F .f32 :=
  let v : Nat → F .f32 := fun cc => lane g w ((i + cc) % 16)
  let ra := FloatOps.addf (FloatOps.addf (FloatOps.addf (FloatOps.addf (FloatOps.addf (FloatOps.addf (FloatOps.addf (FloatOps.addf e (v 0)) (v 2)) (v 4)) (v 6)) (v 8)) (v 10)) (v 12)) (v 14)
  let rb := FloatOps.addf (FloatOps.addf (FloatOps.addf (FloatOps.addf (FloatOps.addf (FloatOps.addf (FloatOps.addf (FloatOps.addf zf (v 1)) (v 3)) (v 5)) (v 7)) (v 9)) (v 11)) (v 13)) (v 15)
  FloatOps.addf ra rb

end Cert.Sae.K

end
-- ==== Proof.KI.ValInv.lean ====
/-
  The value side's vocabulary: what each scratch buffer holds, said through the closed forms of SaeForms. g is the
  eight-entry table of self energies; fen and fsp are the whole energies and species arrays. The pair table reads
  T2 g; the lane table T8R g; the table of sums of four reads T4 g below a bound (its entries are filled in order); the
  tile's copy of the energies reads its 512 entries of fen; a chunk buffer reads chunk ch (0 … 3) of the tile's 512 rows
  of fsp; the output scratch reads, below a bound, the kernel's closed form rowOut of its row.
-/
import proofs.«206987_g17583596110038_cont_8to1_771_12_alg».proof.Proof.KI.Base
import proofs.«206987_g17583596110038_cont_8to1_771_12_alg».proof.Proof.SaeForms

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

/-- The tile's number: subcore times two plus SparseCore; below 32. -/
def wid (L : grid0.Coords) : Nat := (L 1).val * 2 + (L 0).val
theorem wid_lt (L : grid0.Coords) : wid L < 32 := by
  have h0 : (L 0).val < 2 := (L 0).isLt
  have h1 : (L 1).val < 16 := (L 1).isLt
  unfold wid; omega
/-- Row 512·(tile number) + y of the 16384: the conformation entry y of the tile's slice belongs to. -/
def tileRow (L : grid0.Coords) (y : S512.Idx) : Fin 16384 :=
  ⟨512 * wid L + (y 0).val, by have := wid_lt L; have hy : (y 0).val < 512 := (y 0).isLt; omega⟩

/-- Row 128·ch + r of the tile's 512 rows, as a row of the 16384. -/
def chunkRow (L : grid0.Coords) (ch : Fin 4) (r : Fin 128) : Fin 16384 :=
  ⟨512 * wid L + 128 * ch.val + r.val, by have := wid_lt L; have := ch.isLt; have := r.isLt; omega⟩

variable [FloatOps F]

section Preds
variable (d : Dev nD) (L : grid0.Coords) (g : FVec F S8 .f32)
  (fen : Buf (Elt F) ((enW).view.loc (thr d L))) (fsp : Buf (Elt F) ((spW).view.loc (thr d L)))

def IsT2 (g2 : Buf (Elt F) ((t2).view.loc (thr d L))) : Prop :=
  ∀ y : S64.Idx, (t2).view.read (Elt F) g2 y = Cert.Sae.K.T2 g (y 0).val
def IsT8R (g8r : Buf (Elt F) ((t8r).view.loc (thr d L))) : Prop :=
  ∀ y : S272.Idx, (t8r).view.read (Elt F) g8r y = Cert.Sae.K.T8R g (y 0).val
def IsT4 (n : Nat) (g4 : Buf (Elt F) ((t4).view.loc (thr d L))) : Prop :=
  ∀ y : S4096.Idx, (y 0).val < n → (t4).view.read (Elt F) g4 y = Cert.Sae.K.T4 g (y 0).val
def IsEn (ge : Buf (Elt F) ((env).view.loc (thr d L))) : Prop :=
  ∀ y : S512.Idx, (env).view.read (Elt F) ge y = fen (ix1 (tileRow L y))
def IsChunkA (ch : Fin 4) (fb : Buf (Elt F) ((bA).view.loc (thr d L))) : Prop :=
  ∀ (r : Fin 128) (c : Fin 200), (bA).view.read (Elt F) fb (ix2 r c) = fsp (ix2 (chunkRow L ch r) c)
def IsChunkB (ch : Fin 4) (fb : Buf (Elt F) ((bB).view.loc (thr d L))) : Prop :=
  ∀ (r : Fin 128) (c : Fin 200), (bB).view.read (Elt F) fb (ix2 r c) = fsp (ix2 (chunkRow L ch r) c)
/-- the output scratch holds the finished rows: below n, entry y is the closed form of row 512·(tile number) + y -/
def IsOut (n : Nat) (go : Buf (Elt F) ((outv).view.loc (thr d L))) : Prop :=
  ∀ y : S512.Idx, (y 0).val < n → (outv).view.read (Elt F) go y
    = Cert.Sae.K.rowOut (F := F) g (fen (ix1 (tileRow L y))) (fun c => fsp (ix2 (tileRow L y) ⟨c % 200, Nat.mod_lt _ (by norm_num)⟩)) ((y 0).val % 16)

/-- The pair-table loop with values: the pair table is T2 g throughout; before trip k the first 128·k entries of the
    table of sums of four are T4 g. -/
def invT1v (k : Nat) (_ : Unit) : sProp 𝕄 :=
  iprop((∃ g2, ((t2).view.loc (thr d L) ↦{fullShare} g2) ∗ ⌜IsT2 d L g g2⌝)
    ∗ (∃ g4, ((t4).view.loc (thr d L) ↦{fullShare} g4) ∗ ⌜IsT4 d L g (128 * k) g4⌝))

/-- A chunk's row-group loop with values, chunk ch in buffer A: before trip k the output scratch holds rows below
    128·ch + 16·k finished. -/
def invAv (ch : Fin 4) (k : Nat) (_ : Unit) : sProp 𝕄 :=
  iprop((∃ fb, ((bA).view.loc (thr d L) ↦{fullShare} fb) ∗ ⌜IsChunkA d L fsp ch fb⌝)
    ∗ (∃ g4, ((t4).view.loc (thr d L) ↦{fullShare} g4) ∗ ⌜IsT4 d L g 4096 g4⌝)
    ∗ (∃ g8r, ((t8r).view.loc (thr d L) ↦{fullShare} g8r) ∗ ⌜IsT8R d L g g8r⌝)
    ∗ (∃ gr, (red).view.loc (thr d L) ↦{fullShare} gr)
    ∗ (∃ ge, ((env).view.loc (thr d L) ↦{fullShare} ge) ∗ ⌜IsEn d L fen ge⌝)
    ∗ (∃ go, ((outv).view.loc (thr d L) ↦{fullShare} go) ∗ ⌜IsOut d L g fen fsp (128 * ch.val + 16 * k) go⌝))
/-- the same, chunk ch in buffer B -/
def invBv (ch : Fin 4) (k : Nat) (_ : Unit) : sProp 𝕄 :=
  iprop((∃ fb, ((bB).view.loc (thr d L) ↦{fullShare} fb) ∗ ⌜IsChunkB d L fsp ch fb⌝)
    ∗ (∃ g4, ((t4).view.loc (thr d L) ↦{fullShare} g4) ∗ ⌜IsT4 d L g 4096 g4⌝)
    ∗ (∃ g8r, ((t8r).view.loc (thr d L) ↦{fullShare} g8r) ∗ ⌜IsT8R d L g g8r⌝)
    ∗ (∃ gr, (red).view.loc (thr d L) ↦{fullShare} gr)
    ∗ (∃ ge, ((env).view.loc (thr d L) ↦{fullShare} ge) ∗ ⌜IsEn d L fen ge⌝)
    ∗ (∃ go, ((outv).view.loc (thr d L) ↦{fullShare} go) ∗ ⌜IsOut d L g fen fsp (128 * ch.val + 16 * k) go⌝))

end Preds

end Cert.Proof.KI

end
-- ==== Proof.KI.ValEntry.lean ====
/-
  What the tile's copies land, said through the whole arrays. A block of 128 species rows starting at row 512·(tile
  number) + 128·ch, copied over a chunk buffer, is chunk ch of the tile's rows; the 512 energies starting at entry
  512·(tile number), copied over the tile's energies scratch, are the tile's energies.
-/
import proofs.«206987_g17583596110038_cont_8to1_771_12_alg».proof.Proof.KI.ValInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

/-- A unit-stride block of species rows read at (r, c) is the array at (row offset + r, column offset + c). -/
theorem sp_slice_read (d : Dev nD) (L : grid0.Coords) (off : Fin 2 → Nat) (inb : ∀ a, off a + S128x200.size a ≤ S16384x200.size a)
    (fsp : Buf (Elt F) ((spW).view.loc (thr d L))) (r : Fin 128) (c : Fin 200) :
    ((spW).slice (Rect.unit (s := S16384x200) off S128x200.size inb) (fun _ => rfl)).view.read (Elt F) fsp (ix2 r c)
      = fsp (ix2 ⟨off 0 + r.val, by have h0 : off 0 + 128 ≤ 16384 := inb 0; have := r.isLt; omega⟩ ⟨off 1 + c.val, by have h1 : off 1 + 200 ≤ 200 := inb 1; have := c.isLt; omega⟩) := by
  rw [View.read_apply]
  refine (cast_eq _ _).trans (congrArg fsp ?_)
  funext a
  apply Fin.ext
  match a with
  | ⟨0, _⟩ => show off 0 + 1 * r.val = off 0 + r.val; omega
  | ⟨1, _⟩ => show off 1 + 1 * c.val = off 1 + c.val; omega

/-- The block that starts at row 512·(tile number) + 128·ch, read at (r, c), is row chunkRow L ch r of the array. -/
theorem sp_chunk_read (d : Dev nD) (L : grid0.Coords) (ch : Fin 4) (off : Fin 2 → Nat) (inb : ∀ a, off a + S128x200.size a ≤ S16384x200.size a)
    (hoff : off = ![1024 * (L 1).val + 512 * (L 0).val + 128 * ch.val, 0])
    (fsp : Buf (Elt F) ((spW).view.loc (thr d L))) (r : Fin 128) (c : Fin 200) :
    ((spW).slice (Rect.unit (s := S16384x200) off S128x200.size inb) (fun _ => rfl)).view.read (Elt F) fsp (ix2 r c)
      = fsp (ix2 (chunkRow L ch r) c) := by
  rw [sp_slice_read]
  refine congrArg fsp ?_
  subst hoff
  refine congrArg₂ ix2 (Fin.ext ?_) (Fin.ext ?_)
  · show 1024 * (L 1).val + 512 * (L 0).val + 128 * ch.val + r.val = 512 * wid L + 128 * ch.val + r.val
    unfold wid; omega
  · show 0 + c.val = c.val
    omega

/-- A chunk buffer A overwritten whole by such a block is chunk ch. -/
theorem chunkA_landed (d : Dev nD) (L : grid0.Coords) (fsp : Buf (Elt F) ((spW).view.loc (thr d L))) (ch : Fin 4)
    (f p : Buf (Elt F) ((bA).view.loc (thr d L))) (hp : ∀ (r : Fin 128) (c : Fin 200), p (ix2 r c) = fsp (ix2 (chunkRow L ch r) c)) :
    IsChunkA d L fsp ch (View.write (Elt F) (bA).view f p Finset.univ) := by
  intro r c
  have e : View.write (Elt F) (bA).view f p Finset.univ = p := View.write_whole_univ _ _ _
  rw [e]; exact hp r c
theorem chunkB_landed (d : Dev nD) (L : grid0.Coords) (fsp : Buf (Elt F) ((spW).view.loc (thr d L))) (ch : Fin 4)
    (f p : Buf (Elt F) ((bB).view.loc (thr d L))) (hp : ∀ (r : Fin 128) (c : Fin 200), p (ix2 r c) = fsp (ix2 (chunkRow L ch r) c)) :
    IsChunkB d L fsp ch (View.write (Elt F) (bB).view f p Finset.univ) := by
  intro r c
  have e : View.write (Elt F) (bB).view f p Finset.univ = p := View.write_whole_univ _ _ _
  rw [e]; exact hp r c

/-- The 512 energies from entry 512·(tile number), read at y, are the array at tileRow L y. -/
theorem en_slice_read (d : Dev nD) (L : grid0.Coords) (off : Fin 1 → Nat) (inb : ∀ a, off a + S512.size a ≤ S16384.size a)
    (hoff : off = ![1024 * (L 1).val + 512 * (L 0).val])
    (fen : Buf (Elt F) ((enW).view.loc (thr d L))) (y : S512.Idx) :
    ((enW).slice (Rect.unit (s := S16384) off S512.size inb) (fun _ => rfl)).view.read (Elt F) fen y = fen (ix1 (tileRow L y)) := by
  rw [View.read_apply]
  refine (cast_eq _ _).trans (congrArg fen ?_)
  subst hoff
  funext a
  apply Fin.ext
  match a with
  | ⟨0, _⟩ =>
    show 1024 * (L 1).val + 512 * (L 0).val + 1 * (y 0).val = 512 * wid L + (y 0).val
    unfold wid; omega

/-- The energies scratch overwritten whole by them holds the tile's energies. -/
theorem en_landed (d : Dev nD) (L : grid0.Coords) (fen : Buf (Elt F) ((enW).view.loc (thr d L)))
    (f p : Buf (Elt F) ((env).view.loc (thr d L))) (hp : ∀ y : S512.Idx, p y = fen (ix1 (tileRow L y))) :
    IsEn d L fen (View.write (Elt F) (env).view f p Finset.univ) := by
  intro y
  have e : View.write (Elt F) (env).view f p Finset.univ = p := View.write_whole_univ _ _ _
  rw [e]; exact hp y

/-- The whole load rectangle places a multi-index at itself. -/
theorem whole_load_idx (s : Shape) (z : s.Idx) : (LoadRect.whole s).idx z = z := by
  funext a
  apply Fin.ext
  show 0 + 1 * (z a).val = (z a).val
  omega

/-- The eight-entry scratch overwritten whole by the landed table, read whole, is the table. -/
theorem t8_landed (d : Dev nD) (L : grid0.Coords) (g : FVec F S8 .f32) (f p : Buf (Elt F) ((t8).view.loc (thr d L))) (hp : ∀ z, p z = g z) :
    ∀ z, View.readAt (Elt F) (t8).view (LoadRect.whole S8) (View.write (Elt F) (t8).view f p Finset.univ) z = g z := by
  intro z
  have e : View.write (Elt F) (t8).view f p Finset.univ = p := View.write_whole_univ _ _ _
  rw [e]
  show p ((LoadRect.whole S8).idx z) = g z
  rw [whole_load_idx]
  exact hp z

/-- The whole rectangle places a multi-index at itself. -/
theorem whole_emb (s : Shape) (z : s.Idx) : (Rect.whole s).emb z = z := by
  funext a
  apply Fin.ext
  show 0 + 1 * (z a).val = (z a).val
  omega

/-- The tile's slice of the result after one whole write of a payload that agrees with G along the slice: G on the slice. -/
theorem out_landed (d : Dev nD) (L : grid0.Coords) (G fo : Buf (Elt F) ((oW).view.loc (thr d L))) (P : (Rect.whole S512).shape.Idx → Elt F .f32)
    (hP : ∀ y : S512.Idx, P y = G ((oSl L).view.emb y)) :
    ∀ i ∈ (oSl L).view.set, ((oSl L).view.writes (Elt F) fo [⟨Rect.whole S512, P⟩]) i = G i := by
  intro i hi
  obtain ⟨y, -, rfl⟩ := Finset.mem_map.mp hi
  have h := View.read_writes_cons_emb (oSl L).view fo (Rect.whole S512) P [] y
  rw [whole_emb, View.read_apply] at h
  exact ((cast_eq _ _).symm.trans h).trans (hP y)

end Cert.Proof.KI

end
-- ==== Proof.SaeTables.lean ====
/-
  Table pieces, over variables: a gather out of a one-axis scratch at a lane is the scratch at the lane's index word;
  a sixteen-lane piece of the pair table (two gathers out of the eight-entry table, added) holds T2 at offset + lane when
  its index words are the entry number's bits 3 … 5 and 0 … 2; a piece of the lane table (one gather) holds T8R at
  offset + lane when its index word is min (entry mod 17) 7; a piece of the table of sums of four (two gathers out of
  the pair table, added) holds T4 at offset + lane when its index words are the entry number's high and low six bits.
-/
import proofs.«206987_g17583596110038_cont_8to1_771_12_alg».proof.Proof.SaeForms

noncomputable section

namespace Cert.Sae.K

open Idealize.ShloMosaic Idealize.ShloMosaic.ValueIdx

variable {F : FTy → Type} [FloatOps F]

/-- A gather out of a one-axis scratch, at a lane whose index word reads a: the scratch at a. -/
theorem loadIdx1 {n : Nat} {t : Shape} {e : EltTy} (A : Vec F ⟨1, ![n]⟩ e) (I : IVec t 32)
    (h : ∀ a x, ((![I] : Fin 1 → IVec t 32) a x).toNat < (⟨1, ![n]⟩ : Shape).size a) (x : t.Idx) (a : Nat) (ha : a < n)
    (hI : (I x).toNat = a) : loadIdx A ![I] h x = A (ix1 ⟨a, ha⟩) := by
  show A (idxAt ![I] h x) = _
  refine congrArg A ?_
  funext b
  match b with
  | ⟨0, _⟩ => exact Fin.ext hI

theorem e8_of_lt (g : FVec F ⟨1, ![8]⟩ .f32) (a : Nat) (ha : a < 8) : e8 g a = g (ix1 ⟨a, ha⟩) := by
  unfold e8
  refine congrArg g (congrArg ix1 (Fin.ext ?_))
  exact Nat.mod_eq_of_lt ha

/-- A piece of the pair table. -/
theorem t2_piece (g A : Vec F ⟨1, ![8]⟩ .f32) (hA : ∀ z, A z = g z) (o : Nat) (I1 I2 : IVec ⟨1, ![16]⟩ 32)
    (h1 : ∀ a x, ((![I1] : Fin 1 → IVec ⟨1, ![16]⟩ 32) a x).toNat < (⟨1, ![8]⟩ : Shape).size a)
    (h2 : ∀ a x, ((![I2] : Fin 1 → IVec ⟨1, ![16]⟩ 32) a x).toNat < (⟨1, ![8]⟩ : Shape).size a)
    (hI1 : ∀ x : (⟨1, ![16]⟩ : Shape).Idx, (I1 x).toNat = (o + 1 * (x 0).val) / 8 % 8)
    (hI2 : ∀ x : (⟨1, ![16]⟩ : Shape).Idx, (I2 x).toNat = (o + 1 * (x 0).val) % 8) (x : (⟨1, ![16]⟩ : Shape).Idx) :
    addf (loadIdx A ![I1] h1) (loadIdx A ![I2] h2) x = T2 g (o + 1 * (x 0).val) := by
  show FloatOps.addf (loadIdx A ![I1] h1 x) (loadIdx A ![I2] h2 x) = FloatOps.addf (e8 g _) (e8 g _)
  rw [loadIdx1 A I1 h1 x _ (Nat.mod_lt _ (by norm_num)) (hI1 x), loadIdx1 A I2 h2 x _ (Nat.mod_lt _ (by norm_num)) (hI2 x), hA, hA,
    e8_of_lt g _ (Nat.mod_lt _ (by norm_num)), e8_of_lt g _ (Nat.mod_lt _ (by norm_num))]

/-- A piece of the lane table. -/
theorem t8r_piece (g A : Vec F ⟨1, ![8]⟩ .f32) (hA : ∀ z, A z = g z) (o : Nat) (I : IVec ⟨1, ![16]⟩ 32)
    (h : ∀ a x, ((![I] : Fin 1 → IVec ⟨1, ![16]⟩ 32) a x).toNat < (⟨1, ![8]⟩ : Shape).size a)
    (hI : ∀ x : (⟨1, ![16]⟩ : Shape).Idx, (I x).toNat = min ((o + 1 * (x 0).val) % 17) 7) (x : (⟨1, ![16]⟩ : Shape).Idx) :
    loadIdx A ![I] h x = T8R g (o + 1 * (x 0).val) := by
  have hm : min ((o + 1 * (x 0).val) % 17) 7 < 8 := lt_of_le_of_lt (Nat.min_le_right _ _) (by norm_num)
  rw [loadIdx1 A I h x _ hm (hI x), hA]
  unfold T8R
  rw [e8_of_lt g _ hm]

/-- A piece of the table of sums of four, out of a pair table that reads T2. -/
theorem t4_piece (g : Vec F ⟨1, ![8]⟩ .f32) (A : Vec F ⟨1, ![64]⟩ .f32) (hA : ∀ z : (⟨1, ![64]⟩ : Shape).Idx, A z = T2 g (z 0).val) (o : Nat)
    (I1 I2 : IVec ⟨1, ![16]⟩ 32)
    (h1 : ∀ a x, ((![I1] : Fin 1 → IVec ⟨1, ![16]⟩ 32) a x).toNat < (⟨1, ![64]⟩ : Shape).size a)
    (h2 : ∀ a x, ((![I2] : Fin 1 → IVec ⟨1, ![16]⟩ 32) a x).toNat < (⟨1, ![64]⟩ : Shape).size a)
    (hlt : ∀ x : (⟨1, ![16]⟩ : Shape).Idx, o + 1 * (x 0).val < 4096)
    (hI1 : ∀ x : (⟨1, ![16]⟩ : Shape).Idx, (I1 x).toNat = (o + 1 * (x 0).val) / 64)
    (hI2 : ∀ x : (⟨1, ![16]⟩ : Shape).Idx, (I2 x).toNat = (o + 1 * (x 0).val) % 64) (x : (⟨1, ![16]⟩ : Shape).Idx) :
    addf (loadIdx A ![I1] h1) (loadIdx A ![I2] h2) x = T4 g (o + 1 * (x 0).val) := by
  show FloatOps.addf (loadIdx A ![I1] h1 x) (loadIdx A ![I2] h2 x) = FloatOps.addf (T2 g _) (T2 g _)
  have hd : (o + 1 * (x 0).val) / 64 < 64 := by have := hlt x; omega
  rw [loadIdx1 A I1 h1 x _ hd (hI1 x), loadIdx1 A I2 h2 x _ (Nat.mod_lt _ (by norm_num)) (hI2 x), hA, hA]

end Cert.Sae.K

end
-- ==== Proof.KI.ValRows.lean ====
/-
  What the row-group trip's loads read, at a lane, said through the closed forms: a gather of a chunk buffer reads
  the species word of the chunk's row and the column the two index vectors name; a gather of the table of sums of
  four or of the lane table reads the closed form at the index; a whole-view load index is the index itself.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.LibWordIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8r" => (Memref.whole Cert.KernelIdeal.cc0_scratch3 : Memref Cert.KernelIdeal.sig Kind.scVector Space.vmem Cert.KernelIdeal.S272 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

/-- The whole shape's load rectangle names each index by itself. -/
theorem whole_idx {s : Shape} (j : (LoadRect.whole s).shape.Idx) (a : Fin s.rank) : ((LoadRect.whole s).idx j a).val = (j a).val := by
  show 0 + 1 * (j a).val = (j a).val
  omega

section Gathers
variable (d : Dev nD) (L : grid0.Coords) (g : FVec F S8 .f32) (fsp : Buf (Elt F) ((spW).view.loc (thr d L)))

/-- A gather of chunk buffer A reads the species word at the chunk's row and the column the index vectors name. -/
theorem gatherA (ch : Fin 4) (fb : Buf (Elt F) ((bA).view.loc (thr d L))) (hA : IsChunkA d L fsp ch fb)
    (ri ci : IVec S16 32) (h : ∀ a x, ((![ri, ci] : Fin 2 → IVec S16 32) a x).toNat < S128x200.size a) (x : S16.Idx) :
    loadIdx ((bA).view.readAt (Elt F) (LoadRect.whole S128x200) fb) ![ri, ci] h x
      = fsp (ix2 (chunkRow L ch ⟨(ri x).toNat, h 0 x⟩) ⟨(ci x).toNat, h 1 x⟩) := by
  rw [← hA ⟨(ri x).toNat, h 0 x⟩ ⟨(ci x).toNat, h 1 x⟩]
  show (bA).view.read (Elt F) fb ((LoadRect.whole S128x200).idx (idxAt ![ri, ci] h x)) = _
  refine congrArg ((bA).view.read (Elt F) fb) (funext fun a => Fin.ext ?_)
  rw [whole_idx]
  match a with
  | ⟨0, _⟩ => rfl
  | ⟨1, _⟩ => rfl

/-- A gather of the table of sums of four reads the closed form at the index. -/
theorem gatherT4 (g4 : Buf (Elt F) ((t4).view.loc (thr d L))) (h4 : IsT4 d L g 4096 g4)
    (pi : IVec S16 32) (h : ∀ a x, ((![pi] : Fin 1 → IVec S16 32) a x).toNat < S4096.size a) (x : S16.Idx) :
    loadIdx ((t4).view.readAt (Elt F) (LoadRect.whole S4096) g4) ![pi] h x = Cert.Sae.K.T4 g (pi x).toNat := by
  have e := h4 (ix1 ⟨(pi x).toNat, h 0 x⟩) (h 0 x)
  rw [show Cert.Sae.K.T4 g (pi x).toNat = Cert.Sae.K.T4 g ((ix1 (⟨(pi x).toNat, h 0 x⟩ : Fin 4096)) 0).val from rfl, ← e]
  show (t4).view.read (Elt F) g4 ((LoadRect.whole S4096).idx (idxAt ![pi] h x)) = _
  refine congrArg ((t4).view.read (Elt F) g4) (funext fun a => Fin.ext ?_)
  rw [whole_idx]
  match a with
  | ⟨0, _⟩ => rfl

/-- A gather of the lane table reads the closed form at the index. -/
theorem gatherT8R (g8r : Buf (Elt F) ((t8r).view.loc (thr d L))) (h8r : IsT8R d L g g8r)
    (qi : IVec S16 32) (h : ∀ a x, ((![qi] : Fin 1 → IVec S16 32) a x).toNat < S272.size a) (x : S16.Idx) :
    loadIdx ((t8r).view.readAt (Elt F) (LoadRect.whole S272) g8r) ![qi] h x = Cert.Sae.K.T8R g (qi x).toNat := by
  have e := h8r (ix1 ⟨(qi x).toNat, h 0 x⟩)
  rw [show Cert.Sae.K.T8R g (qi x).toNat = Cert.Sae.K.T8R g ((ix1 (⟨(qi x).toNat, h 0 x⟩ : Fin 272)) 0).val from rfl, ← e]
  show (t8r).view.read (Elt F) g8r ((LoadRect.whole S272).idx (idxAt ![qi] h x)) = _
  refine congrArg ((t8r).view.read (Elt F) g8r) (funext fun a => Fin.ext ?_)
  rw [whole_idx]
  match a with
  | ⟨0, _⟩ => rfl

end Gathers

/-! ## One row of a chunk at a lane -/

section Row
variable (d : Dev nD) (L : grid0.Coords) (g : FVec F S8 .f32) (fsp : Buf (Elt F) ((spW).view.loc (thr d L)))
  (ch : Fin 4) (fb : Buf (Elt F) ((bA).view.loc (thr d L))) (hA : IsChunkA d L fsp ch fb)
  (g4 : Buf (Elt F) ((t4).view.loc (thr d L))) (h4 : IsT4 d L g 4096 g4)
  (g8r : Buf (Elt F) ((t8r).view.loc (thr d L))) (h8r : IsT8R d L g g8r)

/-- The 200 species words of row r of the chunk, by column (taken mod 200). -/
def rowW (r : Fin 128) : Nat → BitVec 32 :=
  fun c => fsp (ix2 (chunkRow L ch r) ⟨c % 200, Nat.mod_lt _ (by norm_num)⟩)

include hA in
/-- A gather of the chunk buffer whose row vector is the row and whose column vector is column c reads word c of the row. -/
theorem wordA (r : Fin 128) (ri ci : IVec S16 32)
    (h : ∀ a x, ((![ri, ci] : Fin 2 → IVec S16 32) a x).toNat < S128x200.size a) (x : S16.Idx) (c : Nat)
    (hr : (ri x).toNat = r.val) (hc : (ci x).toNat = c) (hc200 : c < 200) :
    loadIdx ((bA).view.readAt (Elt F) (LoadRect.whole S128x200) fb) ![ri, ci] h x = rowW d L fsp ch r c := by
  rw [gatherA d L fsp ch fb hA]
  unfold rowW
  obtain rfl : r = ⟨(ri x).toNat, h 0 x⟩ := Fin.ext hr.symm
  have e : (⟨(ci x).toNat, h 1 x⟩ : Fin 200) = ⟨c % 200, Nat.mod_lt _ (by norm_num)⟩ :=
    Fin.ext (by show (ci x).toNat = c % 200; rw [hc, Nat.mod_eq_of_lt hc200])
  rw [e]

include hA h4 in
/-- Four gathers of the row packed into an index of the table of sums of four: the closed form's entry for block q at the lane. -/
theorem quadG (r : Fin 128) (ri c0 c1 c2 c3 : IVec S16 32)
    (h0 : ∀ a x, ((![ri, c0] : Fin 2 → IVec S16 32) a x).toNat < S128x200.size a)
    (h1 : ∀ a x, ((![ri, c1] : Fin 2 → IVec S16 32) a x).toNat < S128x200.size a)
    (h2 : ∀ a x, ((![ri, c2] : Fin 2 → IVec S16 32) a x).toNat < S128x200.size a)
    (h3 : ∀ a x, ((![ri, c3] : Fin 2 → IVec S16 32) a x).toNat < S128x200.size a)
    (hp : ∀ a x, ((![ori (ori (ori (shli (loadIdx ((bA).view.readAt (Elt F) (LoadRect.whole S128x200) fb) ![ri, c0] h0) (broadcast S16 9#32))
        (shli (loadIdx ((bA).view.readAt (Elt F) (LoadRect.whole S128x200) fb) ![ri, c1] h1) (broadcast S16 6#32)))
        (shli (loadIdx ((bA).view.readAt (Elt F) (LoadRect.whole S128x200) fb) ![ri, c2] h2) (broadcast S16 3#32)))
        (loadIdx ((bA).view.readAt (Elt F) (LoadRect.whole S128x200) fb) ![ri, c3] h3)] : Fin 1 → IVec S16 32) a x).toNat < S4096.size a)
    (x : S16.Idx) (q : Nat) (hq : q < 3) (hr : (ri x).toNat = r.val)
    (e0 : (c0 x).toNat = 64 * q + (x 0).val) (e1 : (c1 x).toNat = 64 * q + 16 + (x 0).val)
    (e2 : (c2 x).toNat = 64 * q + 32 + (x 0).val) (e3 : (c3 x).toNat = 64 * q + 48 + (x 0).val) :
    loadIdx ((t4).view.readAt (Elt F) (LoadRect.whole S4096) g4)
        ![ori (ori (ori (shli (loadIdx ((bA).view.readAt (Elt F) (LoadRect.whole S128x200) fb) ![ri, c0] h0) (broadcast S16 9#32))
          (shli (loadIdx ((bA).view.readAt (Elt F) (LoadRect.whole S128x200) fb) ![ri, c1] h1) (broadcast S16 6#32)))
          (shli (loadIdx ((bA).view.readAt (Elt F) (LoadRect.whole S128x200) fb) ![ri, c2] h2) (broadcast S16 3#32)))
          (loadIdx ((bA).view.readAt (Elt F) (LoadRect.whole S128x200) fb) ![ri, c3] h3)] hp x
      = Cert.Sae.K.quad g (rowW d L fsp ch r) q (x 0).val := by
  have hx : (x 0).val < 16 := (x 0).isLt
  rw [gatherT4 d L g g4 h4]
  unfold Cert.Sae.K.quad
  rw [← wordA d L fsp ch fb hA r ri c0 h0 x _ hr e0 (by omega), ← wordA d L fsp ch fb hA r ri c1 h1 x _ hr e1 (by omega),
    ← wordA d L fsp ch fb hA r ri c2 h2 x _ hr e2 (by omega), ← wordA d L fsp ch fb hA r ri c3 h3 x _ hr e3 (by omega)]
  rfl

include hA h8r in
/-- The lane table gathered at seventeen times the lane plus the row's word 184 + lane masked to three bits. -/
theorem tailG (r : Fin 128) (ri ct v11 : IVec S16 32)
    (ht : ∀ a x, ((![ri, ct] : Fin 2 → IVec S16 32) a x).toNat < S128x200.size a)
    (h8 : ∀ a x, ((![addi v11 (andi (loadIdx ((bA).view.readAt (Elt F) (LoadRect.whole S128x200) fb) ![ri, ct] ht) (broadcast S16 7#32))]
        : Fin 1 → IVec S16 32) a x).toNat < S272.size a)
    (x : S16.Idx) (hr : (ri x).toNat = r.val) (ect : (ct x).toNat = 184 + (x 0).val) (hv11 : (v11 x).toNat = 17 * (x 0).val) :
    loadIdx ((t8r).view.readAt (Elt F) (LoadRect.whole S272) g8r)
        ![addi v11 (andi (loadIdx ((bA).view.readAt (Elt F) (LoadRect.whole S128x200) fb) ![ri, ct] ht) (broadcast S16 7#32))] h8 x
      = Cert.Sae.K.T8R g (17 * (x 0).val + (IntOp.andi (rowW d L fsp ch r (184 + (x 0).val)) 7#32).toNat) := by
  have hx : (x 0).val < 16 := (x 0).isLt
  rw [gatherT8R d L g g8r h8r]
  refine congrArg (Cert.Sae.K.T8R g) ?_
  rw [← wordA d L fsp ch fb hA r ri ct ht x _ hr ect (by omega)]
  show (IntOp.addi (v11 x) (IntOp.andi (loadIdx ((bA).view.readAt (Elt F) (LoadRect.whole S128x200) fb) ![ri, ct] ht x) 7#32)).toNat = _
  generalize loadIdx ((bA).view.readAt (Elt F) (LoadRect.whole S128x200) fb) ![ri, ct] ht x = wd
  have hm : (IntOp.andi wd 7#32).toNat ≤ 7 := Cert.Lib.andi_lit_le _ 7 (by norm_num)
  simp only [IntOp.addi, BitVec.toNat_add, hv11]
  exact Nat.mod_eq_of_lt (by omega)

end Row

/-- A row's lane value from its three blocks and its tail, in the kernel's order. -/
theorem laneG (g : FVec F S8 .f32) (W : Nat → BitVec 32) (Q0 Q1 Q2 T v16 : FVec F S16 .f32) (v15 : IVec S16 1) (x : S16.Idx)
    (h0 : Q0 x = Cert.Sae.K.quad g W 0 (x 0).val) (h1 : Q1 x = Cert.Sae.K.quad g W 1 (x 0).val)
    (h2 : Q2 x = Cert.Sae.K.quad g W 2 (x 0).val)
    (hm : v15 x = IntOp.cmpi .slt (BitVec.ofNat 32 (x 0).val) 8#32) (hz : v16 x = Cert.Sae.K.zf)
    (hT : T x = Cert.Sae.K.T8R g (17 * (x 0).val + (IntOp.andi (W (184 + (x 0).val)) 7#32).toNat)) :
    addf (addf (addf Q0 Q1) Q2) (select v15 v16 T) x = Cert.Sae.K.lane g W (x 0).val := by
  unfold Cert.Sae.K.lane
  rw [← h0, ← h1, ← h2, ← hm, ← hz, ← hT]
  rfl

/-- Sixteen lane values added in the kernel's order, the even steps onto the energy and the odd steps onto zero. -/
theorem rowOutG (g : FVec F S8 .f32) (W : Nat → BitVec 32) (e : F .f32) (i : Nat)
    (E Z v0 v1 v2 v3 v4 v5 v6 v7 v8 v9 v10 v11 v12 v13 v14 v15 : FVec F S16 .f32) (x : S16.Idx)
    (hE : E x = e) (hZ : Z x = Cert.Sae.K.zf)
    (h0 : v0 x = Cert.Sae.K.lane g W ((i + 0) % 16)) (h1 : v1 x = Cert.Sae.K.lane g W ((i + 1) % 16))
    (h2 : v2 x = Cert.Sae.K.lane g W ((i + 2) % 16)) (h3 : v3 x = Cert.Sae.K.lane g W ((i + 3) % 16))
    (h4 : v4 x = Cert.Sae.K.lane g W ((i + 4) % 16)) (h5 : v5 x = Cert.Sae.K.lane g W ((i + 5) % 16))
    (h6 : v6 x = Cert.Sae.K.lane g W ((i + 6) % 16)) (h7 : v7 x = Cert.Sae.K.lane g W ((i + 7) % 16))
    (h8 : v8 x = Cert.Sae.K.lane g W ((i + 8) % 16)) (h9 : v9 x = Cert.Sae.K.lane g W ((i + 9) % 16))
    (h10 : v10 x = Cert.Sae.K.lane g W ((i + 10) % 16)) (h11 : v11 x = Cert.Sae.K.lane g W ((i + 11) % 16))
    (h12 : v12 x = Cert.Sae.K.lane g W ((i + 12) % 16)) (h13 : v13 x = Cert.Sae.K.lane g W ((i + 13) % 16))
    (h14 : v14 x = Cert.Sae.K.lane g W ((i + 14) % 16)) (h15 : v15 x = Cert.Sae.K.lane g W ((i + 15) % 16)) :
    addf (addf (addf (addf (addf (addf (addf (addf (addf E v0) v2) v4) v6) v8) v10) v12) v14)
        (addf (addf (addf (addf (addf (addf (addf (addf Z v1) v3) v5) v7) v9) v11) v13) v15) x
      = Cert.Sae.K.rowOut g e W i := by
  unfold Cert.Sae.K.rowOut
  simp only []
  rw [← hE, ← hZ, ← h0, ← h1, ← h2, ← h3, ← h4, ← h5, ← h6, ← h7, ← h8, ← h9, ← h10, ← h11, ← h12, ← h13, ← h14, ← h15]
  rfl

/-! ## Index vectors at a lane, the lane scratch read back, the energies -/

/-- The lane counter plus a literal, at a lane. -/
theorem col1 (c : Nat) (hc : c < 2 ^ 31) (x : S16.Idx) :
    ((addi (iota .scVector S16 32 [0] iota_S16_d0_w32_scVector) (broadcast S16 (BitVec.ofNat 32 c)) : IVec S16 32) x).toNat
      = (x 0).val + c := by
  have hx : (x 0).val < 16 := (x 0).isLt
  have hl := Cert.Lib.lane_toNat (κ := .scVector) (n := 16) (by norm_num) iota_S16_d0_w32_scVector x
  show (IntOp.addi ((iota .scVector S16 32 [0] iota_S16_d0_w32_scVector : IVec S16 32) x) (BitVec.ofNat 32 c)).toNat = _
  rw [Cert.Lib.addi_lit_toNat _ c 16 (by rw [hl]; exact hx) (by omega), hl]

/-- The lane counter plus two literals, at a lane. -/
theorem col2 (c1 c2 : Nat) (h1 : c1 < 2 ^ 30) (h2 : c2 < 2 ^ 30) (x : S16.Idx) :
    ((addi (addi (iota .scVector S16 32 [0] iota_S16_d0_w32_scVector) (broadcast S16 (BitVec.ofNat 32 c1)))
        (broadcast S16 (BitVec.ofNat 32 c2)) : IVec S16 32) x).toNat = (x 0).val + c1 + c2 := by
  have hx : (x 0).val < 16 := (x 0).isLt
  have e1 := col1 c1 (by omega) x
  show (IntOp.addi ((addi (iota .scVector S16 32 [0] iota_S16_d0_w32_scVector) (broadcast S16 (BitVec.ofNat 32 c1)) : IVec S16 32) x)
      (BitVec.ofNat 32 c2)).toNat = _
  rw [Cert.Lib.addi_lit_toNat _ c2 (16 + c1) (by rw [e1]; omega) (by omega), e1]

section Back
variable (d : Dev nD) (L : grid0.Coords)

/-- A gather of the lane scratch after stores whose payloads all agree with one function reads that function at the index. -/
theorem readbackG (gr : Buf (Elt F) ((red).view.loc (thr d L))) (Lp : List (View.Piece (Elt F) S512 .f32)) (G : S512.Idx → F .f32)
    (hG : ∀ p ∈ Lp, ∀ x : p.1.shape.Idx, p.2 x = G (p.1.emb x))
    (ii : IVec S16 32) (h : ∀ a x, ((![ii] : Fin 1 → IVec S16 32) a x).toNat < S512.size a) (x : S16.Idx)
    (hcov : ∃ p ∈ Lp, (ix1 ⟨(ii x).toNat, h 0 x⟩ : S512.Idx) ∈ p.1.set) :
    loadIdx ((red).view.readAt (Elt F) (LoadRect.whole S512) ((red).view.writes (Elt F) gr Lp)) ![ii] h x
      = G (ix1 ⟨(ii x).toNat, h 0 x⟩) := by
  rw [← View.read_writes_apply_of_pieces (red).view gr G Lp hG _ hcov]
  show (red).view.read (Elt F) ((red).view.writes (Elt F) gr Lp) ((LoadRect.whole S512).idx (idxAt ![ii] h x)) = _
  refine congrArg ((red).view.read (Elt F) ((red).view.writes (Elt F) gr Lp)) (funext fun a => Fin.ext ?_)
  rw [whole_idx]
  match a with
  | ⟨0, _⟩ => rfl

/-- The tile's copy of the energies loaded at sixteen entries from an offset reads the energies of those rows. -/
theorem envG (fen : Buf (Elt F) ((enW).view.loc (thr d L))) (ge : Buf (Elt F) ((env).view.loc (thr d L))) (hge : IsEn d L fen ge)
    (off : Fin 1 → Nat) (inb : ∀ a, off a + S16.size a ≤ S512.size a) (x : S16.Idx) :
    (env).view.readAt (Elt F) (Rect.unit (s := S512) off S16.size inb).toLoadRect ge x
      = fen (ix1 (tileRow L (ix1 ⟨off 0 + (x 0).val, by have := inb 0; have hx : (x 0).val < 16 := (x 0).isLt; show off 0 + (x 0).val < 512; have h16 : S16.size 0 = 16 := rfl; have h512 : S512.size 0 = 512 := rfl; omega⟩))) := by
  rw [← hge]
  show (env).view.read (Elt F) ge ((Rect.unit (s := S512) off S16.size inb).toLoadRect.idx x) = _
  refine congrArg ((env).view.read (Elt F) ge) (funext fun a => Fin.ext ?_)
  match a with
  | ⟨0, _⟩ =>
    show off 0 + 1 * (x 0).val = off 0 + (x 0).val
    omega

end Back

section RowLane
variable (d : Dev nD) (L : grid0.Coords) (g : FVec F S8 .f32) (fsp : Buf (Elt F) ((spW).view.loc (thr d L)))
  (ch : Fin 4) (fb : Buf (Elt F) ((bA).view.loc (thr d L))) (hA : IsChunkA d L fsp ch fb)
  (g4 : Buf (Elt F) ((t4).view.loc (thr d L))) (h4 : IsT4 d L g 4096 g4)
  (g8r : Buf (Elt F) ((t8r).view.loc (thr d L))) (h8r : IsT8R d L g g8r)

include hA h4 h8r in
/-- A whole row of the chunk at a lane, in the combinators the trip's payloads unfold to: the three blocks of four
    gathered words packed into the table of sums of four, and the tail word into the lane table, are the closed
    form's lane value of that row. -/
theorem rowLane (r : Fin 128) (rw : BitVec 32) (hrw : rw.toNat = r.val)
    (v11 : IVec S16 32) (hv11 : ∀ x, (v11 x).toNat = 17 * (x 0).val)
    (v15 : IVec S16 1) (hv15 : ∀ x, v15 x = IntOp.cmpi .slt (BitVec.ofNat 32 (x 0).val) 8#32)
    (v16 : FVec F S16 .f32) (hv16 : ∀ x, v16 x = Cert.Sae.K.zf)
    (h00 : ∀ a x, ((![broadcast S16 rw, (addi (iota .scVector S16 32 [0] iota_S16_d0_w32_scVector) (broadcast S16 0#32))] : Fin 2 → IVec S16 32) a x).toNat < S128x200.size a)
    (h01 : ∀ a x, ((![broadcast S16 rw, (addi (addi (iota .scVector S16 32 [0] iota_S16_d0_w32_scVector) (broadcast S16 0#32)) (broadcast S16 16#32))] : Fin 2 → IVec S16 32) a x).toNat < S128x200.size a)
    (h02 : ∀ a x, ((![broadcast S16 rw, (addi (addi (iota .scVector S16 32 [0] iota_S16_d0_w32_scVector) (broadcast S16 0#32)) (broadcast S16 32#32))] : Fin 2 → IVec S16 32) a x).toNat < S128x200.size a)
    (h03 : ∀ a x, ((![broadcast S16 rw, (addi (addi (iota .scVector S16 32 [0] iota_S16_d0_w32_scVector) (broadcast S16 0#32)) (broadcast S16 48#32))] : Fin 2 → IVec S16 32) a x).toNat < S128x200.size a)
    (h10 : ∀ a x, ((![broadcast S16 rw, (addi (iota .scVector S16 32 [0] iota_S16_d0_w32_scVector) (broadcast S16 64#32))] : Fin 2 → IVec S16 32) a x).toNat < S128x200.size a)
    (h11 : ∀ a x, ((![broadcast S16 rw, (addi (addi (iota .scVector S16 32 [0] iota_S16_d0_w32_scVector) (broadcast S16 64#32)) (broadcast S16 16#32))] : Fin 2 → IVec S16 32) a x).toNat < S128x200.size a)
    (h12 : ∀ a x, ((![broadcast S16 rw, (addi (addi (iota .scVector S16 32 [0] iota_S16_d0_w32_scVector) (broadcast S16 64#32)) (broadcast S16 32#32))] : Fin 2 → IVec S16 32) a x).toNat < S128x200.size a)
    (h13 : ∀ a x, ((![broadcast S16 rw, (addi (addi (iota .scVector S16 32 [0] iota_S16_d0_w32_scVector) (broadcast S16 64#32)) (broadcast S16 48#32))] : Fin 2 → IVec S16 32) a x).toNat < S128x200.size a)
    (h20 : ∀ a x, ((![broadcast S16 rw, (addi (iota .scVector S16 32 [0] iota_S16_d0_w32_scVector) (broadcast S16 128#32))] : Fin 2 → IVec S16 32) a x).toNat < S128x200.size a)
    (h21 : ∀ a x, ((![broadcast S16 rw, (addi (addi (iota .scVector S16 32 [0] iota_S16_d0_w32_scVector) (broadcast S16 128#32)) (broadcast S16 16#32))] : Fin 2 → IVec S16 32) a x).toNat < S128x200.size a)
    (h22 : ∀ a x, ((![broadcast S16 rw, (addi (addi (iota .scVector S16 32 [0] iota_S16_d0_w32_scVector) (broadcast S16 128#32)) (broadcast S16 32#32))] : Fin 2 → IVec S16 32) a x).toNat < S128x200.size a)
    (h23 : ∀ a x, ((![broadcast S16 rw, (addi (addi (iota .scVector S16 32 [0] iota_S16_d0_w32_scVector) (broadcast S16 128#32)) (broadcast S16 48#32))] : Fin 2 → IVec S16 32) a x).toNat < S128x200.size a)
    (hp0 : ∀ a x, ((![(ori (ori (ori (shli (loadIdx ((bA).view.readAt (Elt F) (LoadRect.whole S128x200) fb) ![broadcast S16 rw, (addi (iota .scVector S16 32 [0] iota_S16_d0_w32_scVector) (broadcast S16 0#32))] h00) (broadcast S16 9#32)) (shli (loadIdx ((bA).view.readAt (Elt F) (LoadRect.whole S128x200) fb) ![broadcast S16 rw, (addi (addi (iota .scVector S16 32 [0] iota_S16_d0_w32_scVector) (broadcast S16 0#32)) (broadcast S16 16#32))] h01) (broadcast S16 6#32))) (shli (loadIdx ((bA).view.readAt (Elt F) (LoadRect.whole S128x200) fb) ![broadcast S16 rw, (addi (addi (iota .scVector S16 32 [0] iota_S16_d0_w32_scVector) (broadcast S16 0#32)) (broadcast S16 32#32))] h02) (broadcast S16 3#32))) (loadIdx ((bA).view.readAt (Elt F) (LoadRect.whole S128x200) fb) ![broadcast S16 rw, (addi (addi (iota .scVector S16 32 [0] iota_S16_d0_w32_scVector) (broadcast S16 0#32)) (broadcast S16 48#32))] h03))] : Fin 1 → IVec S16 32) a x).toNat < S4096.size a)
    (hp1 : ∀ a x, ((![(ori (ori (ori (shli (loadIdx ((bA).view.readAt (Elt F) (LoadRect.whole S128x200) fb) ![broadcast S16 rw, (addi (iota .scVector S16 32 [0] iota_S16_d0_w32_scVector) (broadcast S16 64#32))] h10) (broadcast S16 9#32)) (shli (loadIdx ((bA).view.readAt (Elt F) (LoadRect.whole S128x200) fb) ![broadcast S16 rw, (addi (addi (iota .scVector S16 32 [0] iota_S16_d0_w32_scVector) (broadcast S16 64#32)) (broadcast S16 16#32))] h11) (broadcast S16 6#32))) (shli (loadIdx ((bA).view.readAt (Elt F) (LoadRect.whole S128x200) fb) ![broadcast S16 rw, (addi (addi (iota .scVector S16 32 [0] iota_S16_d0_w32_scVector) (broadcast S16 64#32)) (broadcast S16 32#32))] h12) (broadcast S16 3#32))) (loadIdx ((bA).view.readAt (Elt F) (LoadRect.whole S128x200) fb) ![broadcast S16 rw, (addi (addi (iota .scVector S16 32 [0] iota_S16_d0_w32_scVector) (broadcast S16 64#32)) (broadcast S16 48#32))] h13))] : Fin 1 → IVec S16 32) a x).toNat < S4096.size a)
    (hp2 : ∀ a x, ((![(ori (ori (ori (shli (loadIdx ((bA).view.readAt (Elt F) (LoadRect.whole S128x200) fb) ![broadcast S16 rw, (addi (iota .scVector S16 32 [0] iota_S16_d0_w32_scVector) (broadcast S16 128#32))] h20) (broadcast S16 9#32)) (shli (loadIdx ((bA).view.readAt (Elt F) (LoadRect.whole S128x200) fb) ![broadcast S16 rw, (addi (addi (iota .scVector S16 32 [0] iota_S16_d0_w32_scVector) (broadcast S16 128#32)) (broadcast S16 16#32))] h21) (broadcast S16 6#32))) (shli (loadIdx ((bA).view.readAt (Elt F) (LoadRect.whole S128x200) fb) ![broadcast S16 rw, (addi (addi (iota .scVector S16 32 [0] iota_S16_d0_w32_scVector) (broadcast S16 128#32)) (broadcast S16 32#32))] h22) (broadcast S16 3#32))) (loadIdx ((bA).view.readAt (Elt F) (LoadRect.whole S128x200) fb) ![broadcast S16 rw, (addi (addi (iota .scVector S16 32 [0] iota_S16_d0_w32_scVector) (broadcast S16 128#32)) (broadcast S16 48#32))] h23))] : Fin 1 → IVec S16 32) a x).toNat < S4096.size a)
    (ht : ∀ a x, ((![broadcast S16 rw, (addi (iota .scVector S16 32 [0] iota_S16_d0_w32_scVector) (broadcast S16 184#32))] : Fin 2 → IVec S16 32) a x).toNat < S128x200.size a)
    (h8 : ∀ a x, ((![(addi v11 (andi (loadIdx ((bA).view.readAt (Elt F) (LoadRect.whole S128x200) fb) ![broadcast S16 rw, (addi (iota .scVector S16 32 [0] iota_S16_d0_w32_scVector) (broadcast S16 184#32))] ht) (broadcast S16 7#32)))] : Fin 1 → IVec S16 32) a x).toNat < S272.size a)
    (x : S16.Idx) :
    addf (addf (addf (loadIdx ((t4).view.readAt (Elt F) (LoadRect.whole S4096) g4) ![(ori (ori (ori (shli (loadIdx ((bA).view.readAt (Elt F) (LoadRect.whole S128x200) fb) ![broadcast S16 rw, (addi (iota .scVector S16 32 [0] iota_S16_d0_w32_scVector) (broadcast S16 0#32))] h00) (broadcast S16 9#32)) (shli (loadIdx ((bA).view.readAt (Elt F) (LoadRect.whole S128x200) fb) ![broadcast S16 rw, (addi (addi (iota .scVector S16 32 [0] iota_S16_d0_w32_scVector) (broadcast S16 0#32)) (broadcast S16 16#32))] h01) (broadcast S16 6#32))) (shli (loadIdx ((bA).view.readAt (Elt F) (LoadRect.whole S128x200) fb) ![broadcast S16 rw, (addi (addi (iota .scVector S16 32 [0] iota_S16_d0_w32_scVector) (broadcast S16 0#32)) (broadcast S16 32#32))] h02) (broadcast S16 3#32))) (loadIdx ((bA).view.readAt (Elt F) (LoadRect.whole S128x200) fb) ![broadcast S16 rw, (addi (addi (iota .scVector S16 32 [0] iota_S16_d0_w32_scVector) (broadcast S16 0#32)) (broadcast S16 48#32))] h03))] hp0)
        (loadIdx ((t4).view.readAt (Elt F) (LoadRect.whole S4096) g4) ![(ori (ori (ori (shli (loadIdx ((bA).view.readAt (Elt F) (LoadRect.whole S128x200) fb) ![broadcast S16 rw, (addi (iota .scVector S16 32 [0] iota_S16_d0_w32_scVector) (broadcast S16 64#32))] h10) (broadcast S16 9#32)) (shli (loadIdx ((bA).view.readAt (Elt F) (LoadRect.whole S128x200) fb) ![broadcast S16 rw, (addi (addi (iota .scVector S16 32 [0] iota_S16_d0_w32_scVector) (broadcast S16 64#32)) (broadcast S16 16#32))] h11) (broadcast S16 6#32))) (shli (loadIdx ((bA).view.readAt (Elt F) (LoadRect.whole S128x200) fb) ![broadcast S16 rw, (addi (addi (iota .scVector S16 32 [0] iota_S16_d0_w32_scVector) (broadcast S16 64#32)) (broadcast S16 32#32))] h12) (broadcast S16 3#32))) (loadIdx ((bA).view.readAt (Elt F) (LoadRect.whole S128x200) fb) ![broadcast S16 rw, (addi (addi (iota .scVector S16 32 [0] iota_S16_d0_w32_scVector) (broadcast S16 64#32)) (broadcast S16 48#32))] h13))] hp1))
        (loadIdx ((t4).view.readAt (Elt F) (LoadRect.whole S4096) g4) ![(ori (ori (ori (shli (loadIdx ((bA).view.readAt (Elt F) (LoadRect.whole S128x200) fb) ![broadcast S16 rw, (addi (iota .scVector S16 32 [0] iota_S16_d0_w32_scVector) (broadcast S16 128#32))] h20) (broadcast S16 9#32)) (shli (loadIdx ((bA).view.readAt (Elt F) (LoadRect.whole S128x200) fb) ![broadcast S16 rw, (addi (addi (iota .scVector S16 32 [0] iota_S16_d0_w32_scVector) (broadcast S16 128#32)) (broadcast S16 16#32))] h21) (broadcast S16 6#32))) (shli (loadIdx ((bA).view.readAt (Elt F) (LoadRect.whole S128x200) fb) ![broadcast S16 rw, (addi (addi (iota .scVector S16 32 [0] iota_S16_d0_w32_scVector) (broadcast S16 128#32)) (broadcast S16 32#32))] h22) (broadcast S16 3#32))) (loadIdx ((bA).view.readAt (Elt F) (LoadRect.whole S128x200) fb) ![broadcast S16 rw, (addi (addi (iota .scVector S16 32 [0] iota_S16_d0_w32_scVector) (broadcast S16 128#32)) (broadcast S16 48#32))] h23))] hp2))
      (select v15 v16 (loadIdx ((t8r).view.readAt (Elt F) (LoadRect.whole S272) g8r) ![(addi v11 (andi (loadIdx ((bA).view.readAt (Elt F) (LoadRect.whole S128x200) fb) ![broadcast S16 rw, (addi (iota .scVector S16 32 [0] iota_S16_d0_w32_scVector) (broadcast S16 184#32))] ht) (broadcast S16 7#32)))] h8)) x
      = Cert.Sae.K.lane g (rowW d L fsp ch r) (x 0).val := by
  have hr : ((broadcast S16 rw : IVec S16 32) x).toNat = r.val := hrw
  refine laneG g (rowW d L fsp ch r) _ _ _ _ v16 v15 x ?_ ?_ ?_ (hv15 x) (hv16 x) ?_
  · exact quadG d L g fsp ch fb hA g4 h4 r _ _ _ _ _ h00 h01 h02 h03 hp0 x 0 (by norm_num) hr
      (by rw [col1 0 (by norm_num) x]; omega) (by rw [col2 0 16 (by norm_num) (by norm_num) x]; omega) (by rw [col2 0 32 (by norm_num) (by norm_num) x]; omega)
      (by rw [col2 0 48 (by norm_num) (by norm_num) x]; omega)
  · exact quadG d L g fsp ch fb hA g4 h4 r _ _ _ _ _ h10 h11 h12 h13 hp1 x 1 (by norm_num) hr
      (by rw [col1 64 (by norm_num) x]; omega) (by rw [col2 64 16 (by norm_num) (by norm_num) x]; omega)
      (by rw [col2 64 32 (by norm_num) (by norm_num) x]; omega) (by rw [col2 64 48 (by norm_num) (by norm_num) x]; omega)
  · exact quadG d L g fsp ch fb hA g4 h4 r _ _ _ _ _ h20 h21 h22 h23 hp2 x 2 (by norm_num) hr
      (by rw [col1 128 (by norm_num) x]; omega) (by rw [col2 128 16 (by norm_num) (by norm_num) x]; omega)
      (by rw [col2 128 32 (by norm_num) (by norm_num) x]; omega) (by rw [col2 128 48 (by norm_num) (by norm_num) x]; omega)
  · exact tailG d L g fsp ch fb hA g8r h8r r _ _ v11 ht h8 x hr (by rw [col1 184 (by norm_num) x]; omega) (hv11 x)

end RowLane

/-! ## The trip's constants at a lane, and one step of the output scratch -/

/-- Seventeen times the lane. -/
theorem pay1403_toNat (x : S16.Idx) : ((k0_pay1403 : IVec S16 32) x).toNat = 17 * (x 0).val := by
  have hx : (x 0).val < 16 := (x 0).isLt
  have hl := Cert.Lib.lane_toNat (κ := .scVector) (n := 16) (by norm_num) iota_S16_d0_w32_scVector x
  show (IntOp.muli ((iota .scVector S16 32 [0] iota_S16_d0_w32_scVector : IVec S16 32) x) (BitVec.ofNat 32 17)).toNat = _
  rw [Cert.Lib.muli_lit_toNat _ 17 16 (by rw [hl]; exact hx) (by norm_num), hl]
  omega

/-- The lanes below eight. -/
theorem pay1405_apply (x : S16.Idx) : (k0_pay1405 : IVec S16 1) x = IntOp.cmpi .slt (BitVec.ofNat 32 (x 0).val) 8#32 := by
  show IntOp.cmpi .slt ((iota .scVector S16 32 [0] iota_S16_d0_w32_scVector : IVec S16 32) x) 8#32 = _
  rw [Cert.Lib.lane_apply]

/-- The zero vector. -/
theorem pay1406_apply (x : S16.Idx) : (k0_pay1406 (F := F) : FVec F S16 .f32) x = Cert.Sae.K.zf := rfl

section OutStep
variable (d : Dev nD) (L : grid0.Coords) (g : FVec F S8 .f32)
  (fen : Buf (Elt F) ((enW).view.loc (thr d L))) (fsp : Buf (Elt F) ((spW).view.loc (thr d L)))

/-- Sixteen more finished rows: the output scratch finished below n, with a store at n of a payload whose lane i is
    the closed form of row n + i, is finished below n + 16. -/
theorem isOut_step (n : Nat) (hn : n + 16 ≤ 512) (hd : 16 ∣ n) (go : Buf (Elt F) ((outv).view.loc (thr d L)))
    (hgo : IsOut d L g fen fsp n go) (off : Fin 1 → Nat) (hoff : off = ![n]) (inb : ∀ a, off a + S16.size a ≤ S512.size a)
    (P : (Rect.unit (s := S512) off S16.size inb).shape.Idx → F .f32)
    (hP : ∀ (x : S16.Idx) (y : S512.Idx), (y 0).val = n + (x 0).val →
      P x = Cert.Sae.K.rowOut (F := F) g (fen (ix1 (tileRow L y)))
        (fun c => fsp (ix2 (tileRow L y) ⟨c % 200, Nat.mod_lt _ (by norm_num)⟩)) (x 0).val) :
    IsOut d L g fen fsp (n + 16) ((outv).view.writes (Elt F) go [⟨Rect.unit (s := S512) off S16.size inb, P⟩]) := by
  subst hoff
  intro y hy
  by_cases hlt : (y 0).val < n
  · rw [View.read_writes_apply_of_forall_not_mem]
    · exact hgo y hlt
    · intro p hp
      rw [List.mem_singleton] at hp
      subst hp
      rw [Rect.mem_set_unit]
      intro hmem
      have h0 : n ≤ (y 0).val := (hmem 0).1
      omega
  · have hge : n ≤ (y 0).val := Nat.le_of_not_lt hlt
    have hx16 : (y 0).val - n < 16 := by omega
    let x : S16.Idx := ix1 ⟨(y 0).val - n, hx16⟩
    have hy' : y = (Rect.unit (s := S512) ![n] S16.size inb).emb x := by
      funext a
      match a with
      | ⟨0, _⟩ =>
        refine Fin.ext ?_
        show (y 0).val = n + 1 * ((y 0).val - n)
        omega
    have hmod : (y 0).val % 16 = (y 0).val - n := by
      obtain ⟨q, rfl⟩ := hd
      omega
    rw [hy', View.read_writes_cons_emb, ← hy', hmod]
    exact hP x y (by show (y 0).val = n + ((y 0).val - n); omega)

end OutStep

/-! ## The transposed read-back -/

/-- Sixteen times the lane. -/
theorem pay1404_toNat (x : S16.Idx) : ((k0_pay1404 : IVec S16 32) x).toNat = 16 * (x 0).val := by
  have hx : (x 0).val < 16 := (x 0).isLt
  have hl := Cert.Lib.lane_toNat (κ := .scVector) (n := 16) (by norm_num) iota_S16_d0_w32_scVector x
  show (IntOp.muli ((iota .scVector S16 32 [0] iota_S16_d0_w32_scVector : IVec S16 32) x) (BitVec.ofNat 32 16)).toNat = _
  rw [Cert.Lib.muli_lit_toNat _ 16 16 (by rw [hl]; exact hx) (by norm_num), hl]
  omega

/-- A word masked to four bits is the word mod 16. -/
theorem andi15 (w : BitVec 32) : (IntOp.andi w 15#32).toNat = w.toNat % 16 := by
  simp only [IntOp.andi, BitVec.toNat_and, BitVec.toNat_ofNat]
  exact Nat.and_two_pow_sub_one_eq_mod w.toNat 4

/-- The read-back index of step cc at a lane: the half's base, sixteen times the lane, and the lane plus cc mod 16. -/
theorem idxBack (vb : IVec S16 32) (b : Nat) (hb : ∀ x, (vb x).toNat = b) (hb256 : b ≤ 256) (cc : Nat) (hcc : cc < 16) (x : S16.Idx) :
    ((addi (addi vb k0_pay1404) (andi (addi (iota .scVector S16 32 [0] iota_S16_d0_w32_scVector) (broadcast S16 (BitVec.ofNat 32 cc)))
        (broadcast S16 15#32)) : IVec S16 32) x).toNat = b + 16 * (x 0).val + ((x 0).val + cc) % 16 := by
  have hx : (x 0).val < 16 := (x 0).isLt
  have e1 := col1 cc (by omega) x
  have e2 := pay1404_toNat x
  have e3 := hb x
  show (IntOp.addi (IntOp.addi (vb x) ((k0_pay1404 : IVec S16 32) x))
      (IntOp.andi ((addi (iota .scVector S16 32 [0] iota_S16_d0_w32_scVector) (broadcast S16 (BitVec.ofNat 32 cc)) : IVec S16 32) x) 15#32)).toNat = _
  have e4 := andi15 ((addi (iota .scVector S16 32 [0] iota_S16_d0_w32_scVector) (broadcast S16 (BitVec.ofNat 32 cc)) : IVec S16 32) x)
  rw [e1] at e4
  have hm : ((x 0).val + cc) % 16 < 16 := Nat.mod_lt _ (by norm_num)
  simp only [IntOp.addi, BitVec.toNat_add, e2, e3, e4]
  omega

/-- An index inside a sixteen-entry piece of the lane scratch. -/
theorem mem_unit16 (off : Fin 1 → Nat) (inb : ∀ a, off a + S16.size a ≤ S512.size a) (j : S512.Idx) (b : Nat) (hoff : off 0 = b)
    (h1 : b ≤ (j 0).val) (h2 : (j 0).val < b + 16) : j ∈ (Rect.unit (s := S512) off S16.size inb).set := by
  rw [Rect.mem_set_unit]
  intro a
  match a with
  | ⟨0, _⟩ =>
    refine ⟨?_, ?_⟩
    · show off 0 ≤ (j 0).val
      rw [hoff]; exact h1
    · show (j 0).val < off 0 + 16
      rw [hoff]; exact h2

section BackLane
variable (d : Dev nD) (L : grid0.Coords) (g : FVec F S8 .f32)

/-- A gather of the lane scratch at the transposed index of step cc, after sixteen stores whose payloads are the rows'
    lane values: lane x reads row x's value at lane x + cc mod 16. -/
theorem readbackLane (gr : Buf (Elt F) ((red).view.loc (thr d L))) (Lp : List (View.Piece (Elt F) S512 .f32)) (base : Nat)
    (W : Fin 16 → Nat → BitVec 32)
    (hG : ∀ p ∈ Lp, ∀ x : p.1.shape.Idx, ∃ (r m : Nat) (hr : r < 16), m < 16 ∧ (p.1.emb x 0).val = base + 16 * r + m ∧
      p.2 x = Cert.Sae.K.lane g (W ⟨r, hr⟩) m)
    (hcov : ∀ j : S512.Idx, base ≤ (j 0).val → (j 0).val < base + 256 → ∃ p ∈ Lp, j ∈ p.1.set)
    (ii : IVec S16 32) (h : ∀ a x, ((![ii] : Fin 1 → IVec S16 32) a x).toNat < S512.size a) (x : S16.Idx) (cc : Nat)
    (hii : (ii x).toNat = base + 16 * (x 0).val + ((x 0).val + cc) % 16) :
    loadIdx ((red).view.readAt (Elt F) (LoadRect.whole S512) ((red).view.writes (Elt F) gr Lp)) ![ii] h x
      = Cert.Sae.K.lane g (W ⟨(x 0).val, (x 0).isLt⟩) (((x 0).val + cc) % 16) := by
  have hx : (x 0).val < 16 := (x 0).isLt
  have hm : ((x 0).val + cc) % 16 < 16 := Nat.mod_lt _ (by norm_num)
  let G : S512.Idx → F .f32 := fun j =>
    Cert.Sae.K.lane g (W ⟨((j 0).val - base) / 16 % 16, Nat.mod_lt _ (by norm_num)⟩) (((j 0).val - base) % 16)
  have hG' : ∀ p ∈ Lp, ∀ x : p.1.shape.Idx, p.2 x = G (p.1.emb x) := by
    intro p hp x'
    obtain ⟨r, m, hr, hm', he, hp2⟩ := hG p hp x'
    rw [hp2]
    show _ = Cert.Sae.K.lane g (W ⟨((p.1.emb x' 0).val - base) / 16 % 16, Nat.mod_lt _ (by norm_num)⟩) (((p.1.emb x' 0).val - base) % 16)
    have e1 : ((p.1.emb x' 0).val - base) / 16 % 16 = r := by rw [he]; omega
    have e2 : ((p.1.emb x' 0).val - base) % 16 = m := by rw [he]; omega
    rw [e2]
    exact congrArg (fun t => Cert.Sae.K.lane g (W t) m) (Fin.ext e1.symm)
  have hc := hcov (ix1 ⟨(ii x).toNat, h 0 x⟩) (by show base ≤ (ii x).toNat; omega) (by show (ii x).toNat < base + 256; omega)
  rw [readbackG d L gr Lp G hG' ii h x hc]
  show Cert.Sae.K.lane g (W ⟨((ii x).toNat - base) / 16 % 16, Nat.mod_lt _ (by norm_num)⟩) (((ii x).toNat - base) % 16) = _
  have e1 : ((ii x).toNat - base) / 16 % 16 = (x 0).val := by rw [hii]; omega
  have e2 : ((ii x).toNat - base) % 16 = ((x 0).val + cc) % 16 := by rw [hii]; omega
  rw [e2]
  exact congrArg (fun t => Cert.Sae.K.lane g (W t) (((x 0).val + cc) % 16)) (Fin.ext e1)

end BackLane

end Cert.Proof.KI

end
-- ==== Proof.KI.ValRegionT2.lean ====
/-
  One trip of chunk 0's row-group loop, with values: the run of the trip, then the output scratch's sixteen new
  entries read off the stores. Each of the sixteen rows' stored lane vectors is the closed form's lane value of its
  row (the gathered words are the species words of the chunk's row, the tables read their closed forms); the
  transposed read-back of step cc at lane x is row x's value at lane x + cc mod 16; so lane x of the stored result
  is the closed form of row x of the group, on its energy.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.KI.ValRows
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

local macro "sg_disch" k:ident h:ident ho:ident : tactic => `(tactic| first | sl_decide | ((try clear $ho); revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

theorem region_t2v (d : Dev nD) (L : grid0.Coords) (g : FVec F S8 .f32) (fen : Buf (Elt F) ((enW).view.loc (thr d L)))
    (fsp : Buf (Elt F) ((spW).view.loc (thr d L))) (hsp : ∀ j, (fsp j).toNat ≤ 6) (v2 : BitVec 32) (v624 : Vec F S16 .f32) :
    ∀ (k : Fin k0_t2_loop.trips) (acc : Unit), invAv (F := F) d L g fen fsp 0 k.val acc ⊢
      wp frame (wpE (defs₀ (F := F)) 𝒱₀ (thr d L) none) Set.univ
        (k0_t2_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invAv (F := F) d L g fen fsp 0 (k.val + 1)) := by
  intro k _
  unfold invAv
  iintro ⟨⟨%fb, Hb, %hA⟩, ⟨%g4, H4, %h4⟩, ⟨%g8r, H8r, %h8r⟩, ⟨%gr, Hr⟩, ⟨%ge, He, %hge⟩, ⟨%go, Hov, %hgo⟩⟩
  have hfb : ∀ j, ((bA).view.read (Elt F) fb j).toNat ≤ 6 := fun j => by
    obtain ⟨r, c, rfl⟩ : ∃ (r : Fin 128) (c : Fin 200), j = ix2 r c := ⟨j 0, j 1, eq_ix2 j⟩
    rw [hA r c]; exact hsp _
  sl_exec (disch := sg_disch k hfb hgo)
  repeat (iapply (wp_gather_bind 𝒱₀ (thr d L) none Set.univ); sl_exec (disch := sg_disch k hfb hgo))
  sl_step
  isplitl [Hb]
  · iexists fb; isplitl [Hb]
    · iexact Hb
    · ipureintro; exact hA
  isplitl [H4]
  · iexists g4; isplitl [H4]
    · iexact H4
    · ipureintro; exact h4
  isplitl [H8r]
  · iexists g8r; isplitl [H8r]
    · iexact H8r
    · ipureintro; exact h8r
  isplitl [Hr]; · iexists _; iexact Hr
  isplitl [He]
  · iexists ge; isplitl [He]
    · iexact He
    · ipureintro; exact hge
  iexists _; isplitl [Hov]
  · iexact Hov
  ipureintro
  have hk : k.val < 8 := k.isLt
  have hidx0 : ∀ (k' : Fin k0_t2_loop.trips) (x' : S16.Idx), (region_t2v.sl.v2273 k' x').toNat = k'.val % 2 * 256 + 16 * (x' 0).val + ((x' 0).val + 0) % 16 := by decide +kernel
  have hidx1 : ∀ (k' : Fin k0_t2_loop.trips) (x' : S16.Idx), (region_t2v.sl.v2282 k' x').toNat = k'.val % 2 * 256 + 16 * (x' 0).val + ((x' 0).val + 1) % 16 := by decide +kernel
  have hidx2 : ∀ (k' : Fin k0_t2_loop.trips) (x' : S16.Idx), (region_t2v.sl.v2291 k' x').toNat = k'.val % 2 * 256 + 16 * (x' 0).val + ((x' 0).val + 2) % 16 := by decide +kernel
  have hidx3 : ∀ (k' : Fin k0_t2_loop.trips) (x' : S16.Idx), (region_t2v.sl.r_113 k' x').toNat = k'.val % 2 * 256 + 16 * (x' 0).val + ((x' 0).val + 3) % 16 := by decide +kernel
  have hidx4 : ∀ (k' : Fin k0_t2_loop.trips) (x' : S16.Idx), (region_t2v.sl.v2309 k' x').toNat = k'.val % 2 * 256 + 16 * (x' 0).val + ((x' 0).val + 4) % 16 := by decide +kernel
  have hidx5 : ∀ (k' : Fin k0_t2_loop.trips) (x' : S16.Idx), (region_t2v.sl.v2318 k' x').toNat = k'.val % 2 * 256 + 16 * (x' 0).val + ((x' 0).val + 5) % 16 := by decide +kernel
  have hidx6 : ∀ (k' : Fin k0_t2_loop.trips) (x' : S16.Idx), (region_t2v.sl.v2327 k' x').toNat = k'.val % 2 * 256 + 16 * (x' 0).val + ((x' 0).val + 6) % 16 := by decide +kernel
  have hidx7 : ∀ (k' : Fin k0_t2_loop.trips) (x' : S16.Idx), (region_t2v.sl.v2336 k' x').toNat = k'.val % 2 * 256 + 16 * (x' 0).val + ((x' 0).val + 7) % 16 := by decide +kernel
  have hidx8 : ∀ (k' : Fin k0_t2_loop.trips) (x' : S16.Idx), (region_t2v.sl.r_116 k' x').toNat = k'.val % 2 * 256 + 16 * (x' 0).val + ((x' 0).val + 8) % 16 := by decide +kernel
  have hidx9 : ∀ (k' : Fin k0_t2_loop.trips) (x' : S16.Idx), (region_t2v.sl.v2354 k' x').toNat = k'.val % 2 * 256 + 16 * (x' 0).val + ((x' 0).val + 9) % 16 := by decide +kernel
  have hidx10 : ∀ (k' : Fin k0_t2_loop.trips) (x' : S16.Idx), (region_t2v.sl.v2363 k' x').toNat = k'.val % 2 * 256 + 16 * (x' 0).val + ((x' 0).val + 10) % 16 := by decide +kernel
  have hidx11 : ∀ (k' : Fin k0_t2_loop.trips) (x' : S16.Idx), (region_t2v.sl.v2372 k' x').toNat = k'.val % 2 * 256 + 16 * (x' 0).val + ((x' 0).val + 11) % 16 := by decide +kernel
  have hidx12 : ∀ (k' : Fin k0_t2_loop.trips) (x' : S16.Idx), (region_t2v.sl.v2381 k' x').toNat = k'.val % 2 * 256 + 16 * (x' 0).val + ((x' 0).val + 12) % 16 := by decide +kernel
  have hidx13 : ∀ (k' : Fin k0_t2_loop.trips) (x' : S16.Idx), (region_t2v.sl.r_119 k' x').toNat = k'.val % 2 * 256 + 16 * (x' 0).val + ((x' 0).val + 13) % 16 := by decide +kernel
  have hidx14 : ∀ (k' : Fin k0_t2_loop.trips) (x' : S16.Idx), (region_t2v.sl.v2399 k' x').toNat = k'.val % 2 * 256 + 16 * (x' 0).val + ((x' 0).val + 14) % 16 := by decide +kernel
  have hidx15 : ∀ (k' : Fin k0_t2_loop.trips) (x' : S16.Idx), (region_t2v.sl.v2408 k' x').toNat = k'.val % 2 * 256 + 16 * (x' 0).val + ((x' 0).val + 15) % 16 := by decide +kernel
  refine isOut_step d L g fen fsp (128 * (0 : Fin 4).val + 16 * k.val) (by simp <;> omega) (by simp <;> omega) go hgo _
    (by rw [k0_off29_eq]; exact congrArg (fun t : Nat => (![t] : Fin 1 → Nat)) (by simp <;> omega)) _ _ (fun x y hy => ?_)
  have hx : (x 0).val < 16 := (x 0).isLt
  have hR0 : 16 * k.val + 0 < 128 := by omega
  have hR1 : 16 * k.val + 1 < 128 := by omega
  have hR2 : 16 * k.val + 2 < 128 := by omega
  have hR3 : 16 * k.val + 3 < 128 := by omega
  have hR4 : 16 * k.val + 4 < 128 := by omega
  have hR5 : 16 * k.val + 5 < 128 := by omega
  have hR6 : 16 * k.val + 6 < 128 := by omega
  have hR7 : 16 * k.val + 7 < 128 := by omega
  have hR8 : 16 * k.val + 8 < 128 := by omega
  have hR9 : 16 * k.val + 9 < 128 := by omega
  have hR10 : 16 * k.val + 10 < 128 := by omega
  have hR11 : 16 * k.val + 11 < 128 := by omega
  have hR12 : 16 * k.val + 12 < 128 := by omega
  have hR13 : 16 * k.val + 13 < 128 := by omega
  have hR14 : 16 * k.val + 14 < 128 := by omega
  have hR15 : 16 * k.val + 15 < 128 := by omega
  obtain ⟨W, hWdef⟩ : ∃ W : Fin 16 → Nat → BitVec 32, W = (fun r : Fin 16 => rowW d L fsp 0 ⟨16 * k.val + r.val, by have := r.isLt; omega⟩) := ⟨_, rfl⟩
  have hW : W ⟨(x 0).val, (x 0).isLt⟩ = fun c => fsp (ix2 (tileRow L y) ⟨c % 200, Nat.mod_lt _ (by norm_num)⟩) := by
    rw [hWdef]
    funext c
    show fsp (ix2 (chunkRow L 0 ⟨16 * k.val + (x 0).val, _⟩) _) = _
    refine congrArg (fun t => fsp (ix2 t _)) (Fin.ext ?_)
    show 512 * wid L + 128 * (0 : Fin 4).val + (16 * k.val + (x 0).val) = 512 * wid L + (y 0).val
    rw [hy]; omega
  have hP : ∃ Lp, (region_t2v.sl.f d L k fb g4 g8r gr hfb = (red).view.readAt (Elt F) (LoadRect.whole S512) ((red).view.writes (Elt F) gr Lp)
        ∧ region_t2v.sl.f_1 d L k fb g4 g8r gr hfb = (red).view.readAt (Elt F) (LoadRect.whole S512) ((red).view.writes (Elt F) gr Lp)
        ∧ region_t2v.sl.f_2 d L k fb g4 g8r gr hfb = (red).view.readAt (Elt F) (LoadRect.whole S512) ((red).view.writes (Elt F) gr Lp)
        ∧ region_t2v.sl.f_3 d L k fb g4 g8r gr hfb = (red).view.readAt (Elt F) (LoadRect.whole S512) ((red).view.writes (Elt F) gr Lp)
        ∧ region_t2v.sl.f_4 d L k fb g4 g8r gr hfb = (red).view.readAt (Elt F) (LoadRect.whole S512) ((red).view.writes (Elt F) gr Lp)
        ∧ region_t2v.sl.f_5 d L k fb g4 g8r gr hfb = (red).view.readAt (Elt F) (LoadRect.whole S512) ((red).view.writes (Elt F) gr Lp)
        ∧ region_t2v.sl.f_6 d L k fb g4 g8r gr hfb = (red).view.readAt (Elt F) (LoadRect.whole S512) ((red).view.writes (Elt F) gr Lp)
        ∧ region_t2v.sl.f_7 d L k fb g4 g8r gr hfb = (red).view.readAt (Elt F) (LoadRect.whole S512) ((red).view.writes (Elt F) gr Lp)
        ∧ region_t2v.sl.f_8 d L k fb g4 g8r gr hfb = (red).view.readAt (Elt F) (LoadRect.whole S512) ((red).view.writes (Elt F) gr Lp)
        ∧ region_t2v.sl.f_9 d L k fb g4 g8r gr hfb = (red).view.readAt (Elt F) (LoadRect.whole S512) ((red).view.writes (Elt F) gr Lp)
        ∧ region_t2v.sl.f_10 d L k fb g4 g8r gr hfb = (red).view.readAt (Elt F) (LoadRect.whole S512) ((red).view.writes (Elt F) gr Lp)
        ∧ region_t2v.sl.f_11 d L k fb g4 g8r gr hfb = (red).view.readAt (Elt F) (LoadRect.whole S512) ((red).view.writes (Elt F) gr Lp)
        ∧ region_t2v.sl.f_12 d L k fb g4 g8r gr hfb = (red).view.readAt (Elt F) (LoadRect.whole S512) ((red).view.writes (Elt F) gr Lp)
        ∧ region_t2v.sl.f_13 d L k fb g4 g8r gr hfb = (red).view.readAt (Elt F) (LoadRect.whole S512) ((red).view.writes (Elt F) gr Lp)
        ∧ region_t2v.sl.f_14 d L k fb g4 g8r gr hfb = (red).view.readAt (Elt F) (LoadRect.whole S512) ((red).view.writes (Elt F) gr Lp)
        ∧ region_t2v.sl.f_15 d L k fb g4 g8r gr hfb = (red).view.readAt (Elt F) (LoadRect.whole S512) ((red).view.writes (Elt F) gr Lp))
      ∧ (∀ p ∈ Lp, ∀ x : p.1.shape.Idx, ∃ (r m : Nat) (hr : r < 16), m < 16 ∧ (p.1.emb x 0).val = k.val % 2 * 256 + 16 * r + m ∧
          p.2 x = Cert.Sae.K.lane g (W ⟨r, hr⟩) m)
      ∧ (∀ j : S512.Idx, k.val % 2 * 256 ≤ (j 0).val → (j 0).val < k.val % 2 * 256 + 256 → ∃ p ∈ Lp, j ∈ p.1.set) := by
    refine ⟨_, ⟨rfl, rfl, rfl, rfl, rfl, rfl, rfl, rfl, rfl, rfl, rfl, rfl, rfl, rfl, rfl, rfl⟩, ?_, ?_⟩
    · intro p hp x'
      simp only [List.mem_cons, List.not_mem_nil, _root_.or_false] at hp
      rcases hp with rfl | rfl | rfl | rfl | rfl | rfl | rfl | rfl | rfl | rfl | rfl | rfl | rfl | rfl | rfl | rfl
      · have ho := congrFun (k0_off27_eq k) 0
        simp only [Matrix.cons_val_zero] at ho
        refine ⟨15, (x' 0).val, by norm_num, (x' 0).isLt, ?_, ?_⟩
        · show k0_off27 k 0 + 1 * (x' 0).val = _
          rw [ho]; omega
        · rw [hWdef]
          exact rowLane d L g fsp 0 fb hA g4 h4 g8r h8r ⟨16 * k.val + 15, hR15⟩ _ (by clear * - k hR15; revert k; decide +kernel)
            k0_pay1403 pay1403_toNat k0_pay1405 pay1405_apply k0_pay1406 pay1406_apply _ _ _ _ _ _ _ _ _ _ _ _ _ _ _ _ _ x'
      · have ho := congrFun (k0_off26_eq k) 0
        simp only [Matrix.cons_val_zero] at ho
        refine ⟨14, (x' 0).val, by norm_num, (x' 0).isLt, ?_, ?_⟩
        · show k0_off26 k 0 + 1 * (x' 0).val = _
          rw [ho]; omega
        · rw [hWdef]
          exact rowLane d L g fsp 0 fb hA g4 h4 g8r h8r ⟨16 * k.val + 14, hR14⟩ _ (by clear * - k hR14; revert k; decide +kernel)
            k0_pay1403 pay1403_toNat k0_pay1405 pay1405_apply k0_pay1406 pay1406_apply _ _ _ _ _ _ _ _ _ _ _ _ _ _ _ _ _ x'
      · have ho := congrFun (k0_off25_eq k) 0
        simp only [Matrix.cons_val_zero] at ho
        refine ⟨13, (x' 0).val, by norm_num, (x' 0).isLt, ?_, ?_⟩
        · show k0_off25 k 0 + 1 * (x' 0).val = _
          rw [ho]; omega
        · rw [hWdef]
          exact rowLane d L g fsp 0 fb hA g4 h4 g8r h8r ⟨16 * k.val + 13, hR13⟩ _ (by clear * - k hR13; revert k; decide +kernel)
            k0_pay1403 pay1403_toNat k0_pay1405 pay1405_apply k0_pay1406 pay1406_apply _ _ _ _ _ _ _ _ _ _ _ _ _ _ _ _ _ x'
      · have ho := congrFun (k0_off24_eq k) 0
        simp only [Matrix.cons_val_zero] at ho
        refine ⟨12, (x' 0).val, by norm_num, (x' 0).isLt, ?_, ?_⟩
        · show k0_off24 k 0 + 1 * (x' 0).val = _
          rw [ho]; omega
        · rw [hWdef]
          exact rowLane d L g fsp 0 fb hA g4 h4 g8r h8r ⟨16 * k.val + 12, hR12⟩ _ (by clear * - k hR12; revert k; decide +kernel)
            k0_pay1403 pay1403_toNat k0_pay1405 pay1405_apply k0_pay1406 pay1406_apply _ _ _ _ _ _ _ _ _ _ _ _ _ _ _ _ _ x'
      · have ho := congrFun (k0_off23_eq k) 0
        simp only [Matrix.cons_val_zero] at ho
        refine ⟨11, (x' 0).val, by norm_num, (x' 0).isLt, ?_, ?_⟩
        · show k0_off23 k 0 + 1 * (x' 0).val = _
          rw [ho]; omega
        · rw [hWdef]
          exact rowLane d L g fsp 0 fb hA g4 h4 g8r h8r ⟨16 * k.val + 11, hR11⟩ _ (by clear * - k hR11; revert k; decide +kernel)
            k0_pay1403 pay1403_toNat k0_pay1405 pay1405_apply k0_pay1406 pay1406_apply _ _ _ _ _ _ _ _ _ _ _ _ _ _ _ _ _ x'
      · have ho := congrFun (k0_off22_eq k) 0
        simp only [Matrix.cons_val_zero] at ho
        refine ⟨10, (x' 0).val, by norm_num, (x' 0).isLt, ?_, ?_⟩
        · show k0_off22 k 0 + 1 * (x' 0).val = _
          rw [ho]; omega
        · rw [hWdef]
          exact rowLane d L g fsp 0 fb hA g4 h4 g8r h8r ⟨16 * k.val + 10, hR10⟩ _ (by clear * - k hR10; revert k; decide +kernel)
            k0_pay1403 pay1403_toNat k0_pay1405 pay1405_apply k0_pay1406 pay1406_apply _ _ _ _ _ _ _ _ _ _ _ _ _ _ _ _ _ x'
      · have ho := congrFun (k0_off21_eq k) 0
        simp only [Matrix.cons_val_zero] at ho
        refine ⟨9, (x' 0).val, by norm_num, (x' 0).isLt, ?_, ?_⟩
        · show k0_off21 k 0 + 1 * (x' 0).val = _
          rw [ho]; omega
        · rw [hWdef]
          exact rowLane d L g fsp 0 fb hA g4 h4 g8r h8r ⟨16 * k.val + 9, hR9⟩ _ (by clear * - k hR9; revert k; decide +kernel)
            k0_pay1403 pay1403_toNat k0_pay1405 pay1405_apply k0_pay1406 pay1406_apply _ _ _ _ _ _ _ _ _ _ _ _ _ _ _ _ _ x'
      · have ho := congrFun (k0_off20_eq k) 0
        simp only [Matrix.cons_val_zero] at ho
        refine ⟨8, (x' 0).val, by norm_num, (x' 0).isLt, ?_, ?_⟩
        · show k0_off20 k 0 + 1 * (x' 0).val = _
          rw [ho]; omega
        · rw [hWdef]
          exact rowLane d L g fsp 0 fb hA g4 h4 g8r h8r ⟨16 * k.val + 8, hR8⟩ _ (by clear * - k hR8; revert k; decide +kernel)
            k0_pay1403 pay1403_toNat k0_pay1405 pay1405_apply k0_pay1406 pay1406_apply _ _ _ _ _ _ _ _ _ _ _ _ _ _ _ _ _ x'
      · have ho := congrFun (k0_off19_eq k) 0
        simp only [Matrix.cons_val_zero] at ho
        refine ⟨7, (x' 0).val, by norm_num, (x' 0).isLt, ?_, ?_⟩
        · show k0_off19 k 0 + 1 * (x' 0).val = _
          rw [ho]; omega
        · rw [hWdef]
          exact rowLane d L g fsp 0 fb hA g4 h4 g8r h8r ⟨16 * k.val + 7, hR7⟩ _ (by clear * - k hR7; revert k; decide +kernel)
            k0_pay1403 pay1403_toNat k0_pay1405 pay1405_apply k0_pay1406 pay1406_apply _ _ _ _ _ _ _ _ _ _ _ _ _ _ _ _ _ x'
      · have ho := congrFun (k0_off18_eq k) 0
        simp only [Matrix.cons_val_zero] at ho
        refine ⟨6, (x' 0).val, by norm_num, (x' 0).isLt, ?_, ?_⟩
        · show k0_off18 k 0 + 1 * (x' 0).val = _
          rw [ho]; omega
        · rw [hWdef]
          exact rowLane d L g fsp 0 fb hA g4 h4 g8r h8r ⟨16 * k.val + 6, hR6⟩ _ (by clear * - k hR6; revert k; decide +kernel)
            k0_pay1403 pay1403_toNat k0_pay1405 pay1405_apply k0_pay1406 pay1406_apply _ _ _ _ _ _ _ _ _ _ _ _ _ _ _ _ _ x'
      · have ho := congrFun (k0_off17_eq k) 0
        simp only [Matrix.cons_val_zero] at ho
        refine ⟨5, (x' 0).val, by norm_num, (x' 0).isLt, ?_, ?_⟩
        · show k0_off17 k 0 + 1 * (x' 0).val = _
          rw [ho]; omega
        · rw [hWdef]
          exact rowLane d L g fsp 0 fb hA g4 h4 g8r h8r ⟨16 * k.val + 5, hR5⟩ _ (by clear * - k hR5; revert k; decide +kernel)
            k0_pay1403 pay1403_toNat k0_pay1405 pay1405_apply k0_pay1406 pay1406_apply _ _ _ _ _ _ _ _ _ _ _ _ _ _ _ _ _ x'
      · have ho := congrFun (k0_off16_eq k) 0
        simp only [Matrix.cons_val_zero] at ho
        refine ⟨4, (x' 0).val, by norm_num, (x' 0).isLt, ?_, ?_⟩
        · show k0_off16 k 0 + 1 * (x' 0).val = _
          rw [ho]; omega
        · rw [hWdef]
          exact rowLane d L g fsp 0 fb hA g4 h4 g8r h8r ⟨16 * k.val + 4, hR4⟩ _ (by clear * - k hR4; revert k; decide +kernel)
            k0_pay1403 pay1403_toNat k0_pay1405 pay1405_apply k0_pay1406 pay1406_apply _ _ _ _ _ _ _ _ _ _ _ _ _ _ _ _ _ x'
      · have ho := congrFun (k0_off15_eq k) 0
        simp only [Matrix.cons_val_zero] at ho
        refine ⟨3, (x' 0).val, by norm_num, (x' 0).isLt, ?_, ?_⟩
        · show k0_off15 k 0 + 1 * (x' 0).val = _
          rw [ho]; omega
        · rw [hWdef]
          exact rowLane d L g fsp 0 fb hA g4 h4 g8r h8r ⟨16 * k.val + 3, hR3⟩ _ (by clear * - k hR3; revert k; decide +kernel)
            k0_pay1403 pay1403_toNat k0_pay1405 pay1405_apply k0_pay1406 pay1406_apply _ _ _ _ _ _ _ _ _ _ _ _ _ _ _ _ _ x'
      · have ho := congrFun (k0_off14_eq k) 0
        simp only [Matrix.cons_val_zero] at ho
        refine ⟨2, (x' 0).val, by norm_num, (x' 0).isLt, ?_, ?_⟩
        · show k0_off14 k 0 + 1 * (x' 0).val = _
          rw [ho]; omega
        · rw [hWdef]
          exact rowLane d L g fsp 0 fb hA g4 h4 g8r h8r ⟨16 * k.val + 2, hR2⟩ _ (by clear * - k hR2; revert k; decide +kernel)
            k0_pay1403 pay1403_toNat k0_pay1405 pay1405_apply k0_pay1406 pay1406_apply _ _ _ _ _ _ _ _ _ _ _ _ _ _ _ _ _ x'
      · have ho := congrFun (k0_off13_eq k) 0
        simp only [Matrix.cons_val_zero] at ho
        refine ⟨1, (x' 0).val, by norm_num, (x' 0).isLt, ?_, ?_⟩
        · show k0_off13 k 0 + 1 * (x' 0).val = _
          rw [ho]; omega
        · rw [hWdef]
          exact rowLane d L g fsp 0 fb hA g4 h4 g8r h8r ⟨16 * k.val + 1, hR1⟩ _ (by clear * - k hR1; revert k; decide +kernel)
            k0_pay1403 pay1403_toNat k0_pay1405 pay1405_apply k0_pay1406 pay1406_apply _ _ _ _ _ _ _ _ _ _ _ _ _ _ _ _ _ x'
      · have ho := congrFun (k0_off12_eq k) 0
        simp only [Matrix.cons_val_zero] at ho
        refine ⟨0, (x' 0).val, by norm_num, (x' 0).isLt, ?_, ?_⟩
        · show k0_off12 k 0 + 1 * (x' 0).val = _
          rw [ho]; omega
        · rw [hWdef]
          exact rowLane d L g fsp 0 fb hA g4 h4 g8r h8r ⟨16 * k.val + 0, hR0⟩ _ (by clear * - k hR0; revert k; decide +kernel)
            k0_pay1403 pay1403_toNat k0_pay1405 pay1405_apply k0_pay1406 pay1406_apply _ _ _ _ _ _ _ _ _ _ _ _ _ _ _ _ _ x'
    · intro j h1 h2
      have hq : ((j 0).val - k.val % 2 * 256) / 16 < 16 := by omega
      obtain ⟨q, hqe⟩ : ∃ q, q = ((j 0).val - k.val % 2 * 256) / 16 := ⟨_, rfl⟩
      rw [← hqe] at hq
      interval_cases q
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
        exact mem_unit16 (k0_off12 k) (k0_off12_inb k) j (k.val % 2 * 256 + 0) (congrFun (k0_off12_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
        exact mem_unit16 (k0_off13 k) (k0_off13_inb k) j (k.val % 2 * 256 + 16) (congrFun (k0_off13_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
        exact mem_unit16 (k0_off14 k) (k0_off14_inb k) j (k.val % 2 * 256 + 32) (congrFun (k0_off14_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
        exact mem_unit16 (k0_off15 k) (k0_off15_inb k) j (k.val % 2 * 256 + 48) (congrFun (k0_off15_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
        exact mem_unit16 (k0_off16 k) (k0_off16_inb k) j (k.val % 2 * 256 + 64) (congrFun (k0_off16_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
        exact mem_unit16 (k0_off17 k) (k0_off17_inb k) j (k.val % 2 * 256 + 80) (congrFun (k0_off17_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        exact mem_unit16 (k0_off18 k) (k0_off18_inb k) j (k.val % 2 * 256 + 96) (congrFun (k0_off18_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        exact mem_unit16 (k0_off19 k) (k0_off19_inb k) j (k.val % 2 * 256 + 112) (congrFun (k0_off19_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_unit16 (k0_off20 k) (k0_off20_inb k) j (k.val % 2 * 256 + 128) (congrFun (k0_off20_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_unit16 (k0_off21 k) (k0_off21_inb k) j (k.val % 2 * 256 + 144) (congrFun (k0_off21_eq k) 0) (by omega) (by omega)
      · refine ⟨_, List.mem_cons_of_mem _ (List.mem_cons_of_mem _ (List.mem_cons_of_mem _ (List.mem_cons_of_mem _ (List.mem_cons_of_mem _ (List.mem_cons_self))))), ?_⟩
        exact mem_unit16 (k0_off22 k) (k0_off22_inb k) j (k.val % 2 * 256 + 160) (congrFun (k0_off22_eq k) 0) (by omega) (by omega)
      · refine ⟨_, List.mem_cons_of_mem _ (List.mem_cons_of_mem _ (List.mem_cons_of_mem _ (List.mem_cons_of_mem _ (List.mem_cons_self)))), ?_⟩
        exact mem_unit16 (k0_off23 k) (k0_off23_inb k) j (k.val % 2 * 256 + 176) (congrFun (k0_off23_eq k) 0) (by omega) (by omega)
      · refine ⟨_, List.mem_cons_of_mem _ (List.mem_cons_of_mem _ (List.mem_cons_of_mem _ (List.mem_cons_self))), ?_⟩
        exact mem_unit16 (k0_off24 k) (k0_off24_inb k) j (k.val % 2 * 256 + 192) (congrFun (k0_off24_eq k) 0) (by omega) (by omega)
      · refine ⟨_, List.mem_cons_of_mem _ (List.mem_cons_of_mem _ (List.mem_cons_self)), ?_⟩
        exact mem_unit16 (k0_off25 k) (k0_off25_inb k) j (k.val % 2 * 256 + 208) (congrFun (k0_off25_eq k) 0) (by omega) (by omega)
      · refine ⟨_, List.mem_cons_of_mem _ (List.mem_cons_self), ?_⟩
        exact mem_unit16 (k0_off26 k) (k0_off26_inb k) j (k.val % 2 * 256 + 224) (congrFun (k0_off26_eq k) 0) (by omega) (by omega)
      · refine ⟨_, List.mem_cons_self, ?_⟩
        exact mem_unit16 (k0_off27 k) (k0_off27_inb k) j (k.val % 2 * 256 + 240) (congrFun (k0_off27_eq k) 0) (by omega) (by omega)
  obtain ⟨Lp, hf, hG, hcov⟩ := hP
  refine rowOutG g _ _ (x 0).val _ _ _ _ _ _ _ _ _ _ _ _ _ _ _ _ _ _ x ?_ ?_ ?_ ?_ ?_ ?_ ?_ ?_ ?_ ?_ ?_ ?_ ?_ ?_ ?_ ?_ ?_ ?_
  · rw [envG d L fen ge hge (k0_off28 k) (k0_off28_inb k) x]
    refine congrArg (fun t => fen (ix1 (tileRow L t))) ?_
    funext a
    match a with
    | ⟨0, _⟩ =>
      refine Fin.ext ?_
      have ho := congrFun (k0_off28_eq k) 0
      simp only [Matrix.cons_val_zero] at ho
      show k0_off28 k 0 + (x 0).val = (y 0).val
      rw [ho, hy]; simp <;> omega
  · rfl
  · rw [hf.1, readbackLane d L g gr Lp (k.val % 2 * 256) W hG hcov _ _ x 0 (hidx0 k x)]
    exact congrArg (fun w => Cert.Sae.K.lane g w (((x 0).val + 0) % 16)) hW
  · rw [hf.2.1, readbackLane d L g gr Lp (k.val % 2 * 256) W hG hcov _ _ x 1 (hidx1 k x)]
    exact congrArg (fun w => Cert.Sae.K.lane g w (((x 0).val + 1) % 16)) hW
  · rw [hf.2.2.1, readbackLane d L g gr Lp (k.val % 2 * 256) W hG hcov _ _ x 2 (hidx2 k x)]
    exact congrArg (fun w => Cert.Sae.K.lane g w (((x 0).val + 2) % 16)) hW
  · rw [hf.2.2.2.1, readbackLane d L g gr Lp (k.val % 2 * 256) W hG hcov _ _ x 3 (hidx3 k x)]
    exact congrArg (fun w => Cert.Sae.K.lane g w (((x 0).val + 3) % 16)) hW
  · rw [hf.2.2.2.2.1, readbackLane d L g gr Lp (k.val % 2 * 256) W hG hcov _ _ x 4 (hidx4 k x)]
    exact congrArg (fun w => Cert.Sae.K.lane g w (((x 0).val + 4) % 16)) hW
  · rw [hf.2.2.2.2.2.1, readbackLane d L g gr Lp (k.val % 2 * 256) W hG hcov _ _ x 5 (hidx5 k x)]
    exact congrArg (fun w => Cert.Sae.K.lane g w (((x 0).val + 5) % 16)) hW
  · rw [hf.2.2.2.2.2.2.1, readbackLane d L g gr Lp (k.val % 2 * 256) W hG hcov _ _ x 6 (hidx6 k x)]
    exact congrArg (fun w => Cert.Sae.K.lane g w (((x 0).val + 6) % 16)) hW
  · rw [hf.2.2.2.2.2.2.2.1, readbackLane d L g gr Lp (k.val % 2 * 256) W hG hcov _ _ x 7 (hidx7 k x)]
    exact congrArg (fun w => Cert.Sae.K.lane g w (((x 0).val + 7) % 16)) hW
  · rw [hf.2.2.2.2.2.2.2.2.1, readbackLane d L g gr Lp (k.val % 2 * 256) W hG hcov _ _ x 8 (hidx8 k x)]
    exact congrArg (fun w => Cert.Sae.K.lane g w (((x 0).val + 8) % 16)) hW
  · rw [hf.2.2.2.2.2.2.2.2.2.1, readbackLane d L g gr Lp (k.val % 2 * 256) W hG hcov _ _ x 9 (hidx9 k x)]
    exact congrArg (fun w => Cert.Sae.K.lane g w (((x 0).val + 9) % 16)) hW
  · rw [hf.2.2.2.2.2.2.2.2.2.2.1, readbackLane d L g gr Lp (k.val % 2 * 256) W hG hcov _ _ x 10 (hidx10 k x)]
    exact congrArg (fun w => Cert.Sae.K.lane g w (((x 0).val + 10) % 16)) hW
  · rw [hf.2.2.2.2.2.2.2.2.2.2.2.1, readbackLane d L g gr Lp (k.val % 2 * 256) W hG hcov _ _ x 11 (hidx11 k x)]
    exact congrArg (fun w => Cert.Sae.K.lane g w (((x 0).val + 11) % 16)) hW
  · rw [hf.2.2.2.2.2.2.2.2.2.2.2.2.1, readbackLane d L g gr Lp (k.val % 2 * 256) W hG hcov _ _ x 12 (hidx12 k x)]
    exact congrArg (fun w => Cert.Sae.K.lane g w (((x 0).val + 12) % 16)) hW
  · rw [hf.2.2.2.2.2.2.2.2.2.2.2.2.2.1, readbackLane d L g gr Lp (k.val % 2 * 256) W hG hcov _ _ x 13 (hidx13 k x)]
    exact congrArg (fun w => Cert.Sae.K.lane g w (((x 0).val + 13) % 16)) hW
  · rw [hf.2.2.2.2.2.2.2.2.2.2.2.2.2.2.1, readbackLane d L g gr Lp (k.val % 2 * 256) W hG hcov _ _ x 14 (hidx14 k x)]
    exact congrArg (fun w => Cert.Sae.K.lane g w (((x 0).val + 14) % 16)) hW
  · rw [hf.2.2.2.2.2.2.2.2.2.2.2.2.2.2.2, readbackLane d L g gr Lp (k.val % 2 * 256) W hG hcov _ _ x 15 (hidx15 k x)]
    exact congrArg (fun w => Cert.Sae.K.lane g w (((x 0).val + 15) % 16)) hW

end Cert.Proof.KI

end
-- ==== Proof.KI.ValRowsB.lean ====
/-
  The same for the second chunk buffer. What the row-group trip's loads read, at a lane, said through the closed forms: a gather of a chunk buffer reads
  the species word of the chunk's row and the column the two index vectors name; a gather of the table of sums of
  four or of the lane table reads the closed form at the index; a whole-view load index is the index itself.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.LibWordIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "bB" => (Memref.whole Cert.KernelIdeal.cc0_scratch1 : Memref Cert.KernelIdeal.sig Kind.scVector Space.vmem Cert.KernelIdeal.S128x200 EltTy.i32)
local notation "t8r" => (Memref.whole Cert.KernelIdeal.cc0_scratch3 : Memref Cert.KernelIdeal.sig Kind.scVector Space.vmem Cert.KernelIdeal.S272 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

/-- The whole shape's load rectangle names each index by itself. -/
theorem whole_idxB {s : Shape} (j : (LoadRect.whole s).shape.Idx) (a : Fin s.rank) : ((LoadRect.whole s).idx j a).val = (j a).val := by
  show 0 + 1 * (j a).val = (j a).val
  omega

section Gathers
variable (d : Dev nD) (L : grid0.Coords) (g : FVec F S8 .f32) (fsp : Buf (Elt F) ((spW).view.loc (thr d L)))

/-- A gather of chunk buffer A reads the species word at the chunk's row and the column the index vectors name. -/
theorem gatherAB (ch : Fin 4) (fb : Buf (Elt F) ((bB).view.loc (thr d L))) (hA : IsChunkB d L fsp ch fb)
    (ri ci : IVec S16 32) (h : ∀ a x, ((![ri, ci] : Fin 2 → IVec S16 32) a x).toNat < S128x200.size a) (x : S16.Idx) :
    loadIdx ((bB).view.readAt (Elt F) (LoadRect.whole S128x200) fb) ![ri, ci] h x
      = fsp (ix2 (chunkRow L ch ⟨(ri x).toNat, h 0 x⟩) ⟨(ci x).toNat, h 1 x⟩) := by
  rw [← hA ⟨(ri x).toNat, h 0 x⟩ ⟨(ci x).toNat, h 1 x⟩]
  show (bB).view.read (Elt F) fb ((LoadRect.whole S128x200).idx (idxAt ![ri, ci] h x)) = _
  refine congrArg ((bB).view.read (Elt F) fb) (funext fun a => Fin.ext ?_)
  rw [whole_idxB]
  match a with
  | ⟨0, _⟩ => rfl
  | ⟨1, _⟩ => rfl

/-- A gather of the table of sums of four reads the closed form at the index. -/
theorem gatherT4B (g4 : Buf (Elt F) ((t4).view.loc (thr d L))) (h4 : IsT4 d L g 4096 g4)
    (pi : IVec S16 32) (h : ∀ a x, ((![pi] : Fin 1 → IVec S16 32) a x).toNat < S4096.size a) (x : S16.Idx) :
    loadIdx ((t4).view.readAt (Elt F) (LoadRect.whole S4096) g4) ![pi] h x = Cert.Sae.K.T4 g (pi x).toNat := by
  have e := h4 (ix1 ⟨(pi x).toNat, h 0 x⟩) (h 0 x)
  rw [show Cert.Sae.K.T4 g (pi x).toNat = Cert.Sae.K.T4 g ((ix1 (⟨(pi x).toNat, h 0 x⟩ : Fin 4096)) 0).val from rfl, ← e]
  show (t4).view.read (Elt F) g4 ((LoadRect.whole S4096).idx (idxAt ![pi] h x)) = _
  refine congrArg ((t4).view.read (Elt F) g4) (funext fun a => Fin.ext ?_)
  rw [whole_idxB]
  match a with
  | ⟨0, _⟩ => rfl

/-- A gather of the lane table reads the closed form at the index. -/
theorem gatherT8RB (g8r : Buf (Elt F) ((t8r).view.loc (thr d L))) (h8r : IsT8R d L g g8r)
    (qi : IVec S16 32) (h : ∀ a x, ((![qi] : Fin 1 → IVec S16 32) a x).toNat < S272.size a) (x : S16.Idx) :
    loadIdx ((t8r).view.readAt (Elt F) (LoadRect.whole S272) g8r) ![qi] h x = Cert.Sae.K.T8R g (qi x).toNat := by
  have e := h8r (ix1 ⟨(qi x).toNat, h 0 x⟩)
  rw [show Cert.Sae.K.T8R g (qi x).toNat = Cert.Sae.K.T8R g ((ix1 (⟨(qi x).toNat, h 0 x⟩ : Fin 272)) 0).val from rfl, ← e]
  show (t8r).view.read (Elt F) g8r ((LoadRect.whole S272).idx (idxAt ![qi] h x)) = _
  refine congrArg ((t8r).view.read (Elt F) g8r) (funext fun a => Fin.ext ?_)
  rw [whole_idxB]
  match a with
  | ⟨0, _⟩ => rfl

end Gathers

/-! ## One row of a chunk at a lane -/

section Row
variable (d : Dev nD) (L : grid0.Coords) (g : FVec F S8 .f32) (fsp : Buf (Elt F) ((spW).view.loc (thr d L)))
  (ch : Fin 4) (fb : Buf (Elt F) ((bB).view.loc (thr d L))) (hA : IsChunkB d L fsp ch fb)
  (g4 : Buf (Elt F) ((t4).view.loc (thr d L))) (h4 : IsT4 d L g 4096 g4)
  (g8r : Buf (Elt F) ((t8r).view.loc (thr d L))) (h8r : IsT8R d L g g8r)

/-- The 200 species words of row r of the chunk, by column (taken mod 200). -/
def rowWB (r : Fin 128) : Nat → BitVec 32 :=
  fun c => fsp (ix2 (chunkRow L ch r) ⟨c % 200, Nat.mod_lt _ (by norm_num)⟩)

include hA in
/-- A gather of the chunk buffer whose row vector is the row and whose column vector is column c reads word c of the row. -/
theorem wordAB (r : Fin 128) (ri ci : IVec S16 32)
    (h : ∀ a x, ((![ri, ci] : Fin 2 → IVec S16 32) a x).toNat < S128x200.size a) (x : S16.Idx) (c : Nat)
    (hr : (ri x).toNat = r.val) (hc : (ci x).toNat = c) (hc200 : c < 200) :
    loadIdx ((bB).view.readAt (Elt F) (LoadRect.whole S128x200) fb) ![ri, ci] h x = rowWB d L fsp ch r c := by
  rw [gatherAB d L fsp ch fb hA]
  unfold rowWB
  obtain rfl : r = ⟨(ri x).toNat, h 0 x⟩ := Fin.ext hr.symm
  have e : (⟨(ci x).toNat, h 1 x⟩ : Fin 200) = ⟨c % 200, Nat.mod_lt _ (by norm_num)⟩ :=
    Fin.ext (by show (ci x).toNat = c % 200; rw [hc, Nat.mod_eq_of_lt hc200])
  rw [e]

include hA h4 in
/-- Four gathers of the row packed into an index of the table of sums of four: the closed form's entry for block q at the lane. -/
theorem quadGB (r : Fin 128) (ri c0 c1 c2 c3 : IVec S16 32)
    (h0 : ∀ a x, ((![ri, c0] : Fin 2 → IVec S16 32) a x).toNat < S128x200.size a)
    (h1 : ∀ a x, ((![ri, c1] : Fin 2 → IVec S16 32) a x).toNat < S128x200.size a)
    (h2 : ∀ a x, ((![ri, c2] : Fin 2 → IVec S16 32) a x).toNat < S128x200.size a)
    (h3 : ∀ a x, ((![ri, c3] : Fin 2 → IVec S16 32) a x).toNat < S128x200.size a)
    (hp : ∀ a x, ((![ori (ori (ori (shli (loadIdx ((bB).view.readAt (Elt F) (LoadRect.whole S128x200) fb) ![ri, c0] h0) (broadcast S16 9#32))
        (shli (loadIdx ((bB).view.readAt (Elt F) (LoadRect.whole S128x200) fb) ![ri, c1] h1) (broadcast S16 6#32)))
        (shli (loadIdx ((bB).view.readAt (Elt F) (LoadRect.whole S128x200) fb) ![ri, c2] h2) (broadcast S16 3#32)))
        (loadIdx ((bB).view.readAt (Elt F) (LoadRect.whole S128x200) fb) ![ri, c3] h3)] : Fin 1 → IVec S16 32) a x).toNat < S4096.size a)
    (x : S16.Idx) (q : Nat) (hq : q < 3) (hr : (ri x).toNat = r.val)
    (e0 : (c0 x).toNat = 64 * q + (x 0).val) (e1 : (c1 x).toNat = 64 * q + 16 + (x 0).val)
    (e2 : (c2 x).toNat = 64 * q + 32 + (x 0).val) (e3 : (c3 x).toNat = 64 * q + 48 + (x 0).val) :
    loadIdx ((t4).view.readAt (Elt F) (LoadRect.whole S4096) g4)
        ![ori (ori (ori (shli (loadIdx ((bB).view.readAt (Elt F) (LoadRect.whole S128x200) fb) ![ri, c0] h0) (broadcast S16 9#32))
          (shli (loadIdx ((bB).view.readAt (Elt F) (LoadRect.whole S128x200) fb) ![ri, c1] h1) (broadcast S16 6#32)))
          (shli (loadIdx ((bB).view.readAt (Elt F) (LoadRect.whole S128x200) fb) ![ri, c2] h2) (broadcast S16 3#32)))
          (loadIdx ((bB).view.readAt (Elt F) (LoadRect.whole S128x200) fb) ![ri, c3] h3)] hp x
      = Cert.Sae.K.quad g (rowWB d L fsp ch r) q (x 0).val := by
  have hx : (x 0).val < 16 := (x 0).isLt
  rw [gatherT4B d L g g4 h4]
  unfold Cert.Sae.K.quad
  rw [← wordAB d L fsp ch fb hA r ri c0 h0 x _ hr e0 (by omega), ← wordAB d L fsp ch fb hA r ri c1 h1 x _ hr e1 (by omega),
    ← wordAB d L fsp ch fb hA r ri c2 h2 x _ hr e2 (by omega), ← wordAB d L fsp ch fb hA r ri c3 h3 x _ hr e3 (by omega)]
  rfl

include hA h8r in
/-- The lane table gathered at seventeen times the lane plus the row's word 184 + lane masked to three bits. -/
theorem tailGB (r : Fin 128) (ri ct v11 : IVec S16 32)
    (ht : ∀ a x, ((![ri, ct] : Fin 2 → IVec S16 32) a x).toNat < S128x200.size a)
    (h8 : ∀ a x, ((![addi v11 (andi (loadIdx ((bB).view.readAt (Elt F) (LoadRect.whole S128x200) fb) ![ri, ct] ht) (broadcast S16 7#32))]
        : Fin 1 → IVec S16 32) a x).toNat < S272.size a)
    (x : S16.Idx) (hr : (ri x).toNat = r.val) (ect : (ct x).toNat = 184 + (x 0).val) (hv11 : (v11 x).toNat = 17 * (x 0).val) :
    loadIdx ((t8r).view.readAt (Elt F) (LoadRect.whole S272) g8r)
        ![addi v11 (andi (loadIdx ((bB).view.readAt (Elt F) (LoadRect.whole S128x200) fb) ![ri, ct] ht) (broadcast S16 7#32))] h8 x
      = Cert.Sae.K.T8R g (17 * (x 0).val + (IntOp.andi (rowWB d L fsp ch r (184 + (x 0).val)) 7#32).toNat) := by
  have hx : (x 0).val < 16 := (x 0).isLt
  rw [gatherT8RB d L g g8r h8r]
  refine congrArg (Cert.Sae.K.T8R g) ?_
  rw [← wordAB d L fsp ch fb hA r ri ct ht x _ hr ect (by omega)]
  show (IntOp.addi (v11 x) (IntOp.andi (loadIdx ((bB).view.readAt (Elt F) (LoadRect.whole S128x200) fb) ![ri, ct] ht x) 7#32)).toNat = _
  generalize loadIdx ((bB).view.readAt (Elt F) (LoadRect.whole S128x200) fb) ![ri, ct] ht x = wd
  have hm : (IntOp.andi wd 7#32).toNat ≤ 7 := Cert.Lib.andi_lit_le _ 7 (by norm_num)
  simp only [IntOp.addi, BitVec.toNat_add, hv11]
  exact Nat.mod_eq_of_lt (by omega)

end Row

/-- A row's lane value from its three blocks and its tail, in the kernel's order. -/
theorem laneGB (g : FVec F S8 .f32) (W : Nat → BitVec 32) (Q0 Q1 Q2 T v16 : FVec F S16 .f32) (v15 : IVec S16 1) (x : S16.Idx)
    (h0 : Q0 x = Cert.Sae.K.quad g W 0 (x 0).val) (h1 : Q1 x = Cert.Sae.K.quad g W 1 (x 0).val)
    (h2 : Q2 x = Cert.Sae.K.quad g W 2 (x 0).val)
    (hm : v15 x = IntOp.cmpi .slt (BitVec.ofNat 32 (x 0).val) 8#32) (hz : v16 x = Cert.Sae.K.zf)
    (hT : T x = Cert.Sae.K.T8R g (17 * (x 0).val + (IntOp.andi (W (184 + (x 0).val)) 7#32).toNat)) :
    addf (addf (addf Q0 Q1) Q2) (select v15 v16 T) x = Cert.Sae.K.lane g W (x 0).val := by
  unfold Cert.Sae.K.lane
  rw [← h0, ← h1, ← h2, ← hm, ← hz, ← hT]
  rfl

/-- Sixteen lane values added in the kernel's order, the even steps onto the energy and the odd steps onto zero. -/
theorem rowOutGB (g : FVec F S8 .f32) (W : Nat → BitVec 32) (e : F .f32) (i : Nat)
    (E Z v0 v1 v2 v3 v4 v5 v6 v7 v8 v9 v10 v11 v12 v13 v14 v15 : FVec F S16 .f32) (x : S16.Idx)
    (hE : E x = e) (hZ : Z x = Cert.Sae.K.zf)
    (h0 : v0 x = Cert.Sae.K.lane g W ((i + 0) % 16)) (h1 : v1 x = Cert.Sae.K.lane g W ((i + 1) % 16))
    (h2 : v2 x = Cert.Sae.K.lane g W ((i + 2) % 16)) (h3 : v3 x = Cert.Sae.K.lane g W ((i + 3) % 16))
    (h4 : v4 x = Cert.Sae.K.lane g W ((i + 4) % 16)) (h5 : v5 x = Cert.Sae.K.lane g W ((i + 5) % 16))
    (h6 : v6 x = Cert.Sae.K.lane g W ((i + 6) % 16)) (h7 : v7 x = Cert.Sae.K.lane g W ((i + 7) % 16))
    (h8 : v8 x = Cert.Sae.K.lane g W ((i + 8) % 16)) (h9 : v9 x = Cert.Sae.K.lane g W ((i + 9) % 16))
    (h10 : v10 x = Cert.Sae.K.lane g W ((i + 10) % 16)) (h11 : v11 x = Cert.Sae.K.lane g W ((i + 11) % 16))
    (h12 : v12 x = Cert.Sae.K.lane g W ((i + 12) % 16)) (h13 : v13 x = Cert.Sae.K.lane g W ((i + 13) % 16))
    (h14 : v14 x = Cert.Sae.K.lane g W ((i + 14) % 16)) (h15 : v15 x = Cert.Sae.K.lane g W ((i + 15) % 16)) :
    addf (addf (addf (addf (addf (addf (addf (addf (addf E v0) v2) v4) v6) v8) v10) v12) v14)
        (addf (addf (addf (addf (addf (addf (addf (addf Z v1) v3) v5) v7) v9) v11) v13) v15) x
      = Cert.Sae.K.rowOut g e W i := by
  unfold Cert.Sae.K.rowOut
  simp only []
  rw [← hE, ← hZ, ← h0, ← h1, ← h2, ← h3, ← h4, ← h5, ← h6, ← h7, ← h8, ← h9, ← h10, ← h11, ← h12, ← h13, ← h14, ← h15]
  rfl

/-! ## Index vectors at a lane, the lane scratch read back, the energies -/

/-- The lane counter plus a literal, at a lane. -/
theorem col1B (c : Nat) (hc : c < 2 ^ 31) (x : S16.Idx) :
    ((addi (iota .scVector S16 32 [0] iota_S16_d0_w32_scVector) (broadcast S16 (BitVec.ofNat 32 c)) : IVec S16 32) x).toNat
      = (x 0).val + c := by
  have hx : (x 0).val < 16 := (x 0).isLt
  have hl := Cert.Lib.lane_toNat (κ := .scVector) (n := 16) (by norm_num) iota_S16_d0_w32_scVector x
  show (IntOp.addi ((iota .scVector S16 32 [0] iota_S16_d0_w32_scVector : IVec S16 32) x) (BitVec.ofNat 32 c)).toNat = _
  rw [Cert.Lib.addi_lit_toNat _ c 16 (by rw [hl]; exact hx) (by omega), hl]

/-- The lane counter plus two literals, at a lane. -/
theorem col2B (c1 c2 : Nat) (h1 : c1 < 2 ^ 30) (h2 : c2 < 2 ^ 30) (x : S16.Idx) :
    ((addi (addi (iota .scVector S16 32 [0] iota_S16_d0_w32_scVector) (broadcast S16 (BitVec.ofNat 32 c1)))
        (broadcast S16 (BitVec.ofNat 32 c2)) : IVec S16 32) x).toNat = (x 0).val + c1 + c2 := by
  have hx : (x 0).val < 16 := (x 0).isLt
  have e1 := col1B c1 (by omega) x
  show (IntOp.addi ((addi (iota .scVector S16 32 [0] iota_S16_d0_w32_scVector) (broadcast S16 (BitVec.ofNat 32 c1)) : IVec S16 32) x)
      (BitVec.ofNat 32 c2)).toNat = _
  rw [Cert.Lib.addi_lit_toNat _ c2 (16 + c1) (by rw [e1]; omega) (by omega), e1]

section Back
variable (d : Dev nD) (L : grid0.Coords)

/-- A gather of the lane scratch after stores whose payloads all agree with one function reads that function at the index. -/
theorem readbackGB (gr : Buf (Elt F) ((red).view.loc (thr d L))) (Lp : List (View.Piece (Elt F) S512 .f32)) (G : S512.Idx → F .f32)
    (hG : ∀ p ∈ Lp, ∀ x : p.1.shape.Idx, p.2 x = G (p.1.emb x))
    (ii : IVec S16 32) (h : ∀ a x, ((![ii] : Fin 1 → IVec S16 32) a x).toNat < S512.size a) (x : S16.Idx)
    (hcov : ∃ p ∈ Lp, (ix1 ⟨(ii x).toNat, h 0 x⟩ : S512.Idx) ∈ p.1.set) :
    loadIdx ((red).view.readAt (Elt F) (LoadRect.whole S512) ((red).view.writes (Elt F) gr Lp)) ![ii] h x
      = G (ix1 ⟨(ii x).toNat, h 0 x⟩) := by
  rw [← View.read_writes_apply_of_pieces (red).view gr G Lp hG _ hcov]
  show (red).view.read (Elt F) ((red).view.writes (Elt F) gr Lp) ((LoadRect.whole S512).idx (idxAt ![ii] h x)) = _
  refine congrArg ((red).view.read (Elt F) ((red).view.writes (Elt F) gr Lp)) (funext fun a => Fin.ext ?_)
  rw [whole_idxB]
  match a with
  | ⟨0, _⟩ => rfl

/-- The tile's copy of the energies loaded at sixteen entries from an offset reads the energies of those rows. -/
theorem envGB (fen : Buf (Elt F) ((enW).view.loc (thr d L))) (ge : Buf (Elt F) ((env).view.loc (thr d L))) (hge : IsEn d L fen ge)
    (off : Fin 1 → Nat) (inb : ∀ a, off a + S16.size a ≤ S512.size a) (x : S16.Idx) :
    (env).view.readAt (Elt F) (Rect.unit (s := S512) off S16.size inb).toLoadRect ge x
      = fen (ix1 (tileRow L (ix1 ⟨off 0 + (x 0).val, by have := inb 0; have hx : (x 0).val < 16 := (x 0).isLt; show off 0 + (x 0).val < 512; have h16 : S16.size 0 = 16 := rfl; have h512 : S512.size 0 = 512 := rfl; omega⟩))) := by
  rw [← hge]
  show (env).view.read (Elt F) ge ((Rect.unit (s := S512) off S16.size inb).toLoadRect.idx x) = _
  refine congrArg ((env).view.read (Elt F) ge) (funext fun a => Fin.ext ?_)
  match a with
  | ⟨0, _⟩ =>
    show off 0 + 1 * (x 0).val = off 0 + (x 0).val
    omega

end Back

section RowLane
variable (d : Dev nD) (L : grid0.Coords) (g : FVec F S8 .f32) (fsp : Buf (Elt F) ((spW).view.loc (thr d L)))
  (ch : Fin 4) (fb : Buf (Elt F) ((bB).view.loc (thr d L))) (hA : IsChunkB d L fsp ch fb)
  (g4 : Buf (Elt F) ((t4).view.loc (thr d L))) (h4 : IsT4 d L g 4096 g4)
  (g8r : Buf (Elt F) ((t8r).view.loc (thr d L))) (h8r : IsT8R d L g g8r)

include hA h4 h8r in
/-- A whole row of the chunk at a lane, in the combinators the trip's payloads unfold to: the three blocks of four
    gathered words packed into the table of sums of four, and the tail word into the lane table, are the closed
    form's lane value of that row. -/
theorem rowLaneB (r : Fin 128) (rw : BitVec 32) (hrw : rw.toNat = r.val)
    (v11 : IVec S16 32) (hv11 : ∀ x, (v11 x).toNat = 17 * (x 0).val)
    (v15 : IVec S16 1) (hv15 : ∀ x, v15 x = IntOp.cmpi .slt (BitVec.ofNat 32 (x 0).val) 8#32)
    (v16 : FVec F S16 .f32) (hv16 : ∀ x, v16 x = Cert.Sae.K.zf)
    (h00 : ∀ a x, ((![broadcast S16 rw, (addi (iota .scVector S16 32 [0] iota_S16_d0_w32_scVector) (broadcast S16 0#32))] : Fin 2 → IVec S16 32) a x).toNat < S128x200.size a)
    (h01 : ∀ a x, ((![broadcast S16 rw, (addi (addi (iota .scVector S16 32 [0] iota_S16_d0_w32_scVector) (broadcast S16 0#32)) (broadcast S16 16#32))] : Fin 2 → IVec S16 32) a x).toNat < S128x200.size a)
    (h02 : ∀ a x, ((![broadcast S16 rw, (addi (addi (iota .scVector S16 32 [0] iota_S16_d0_w32_scVector) (broadcast S16 0#32)) (broadcast S16 32#32))] : Fin 2 → IVec S16 32) a x).toNat < S128x200.size a)
    (h03 : ∀ a x, ((![broadcast S16 rw, (addi (addi (iota .scVector S16 32 [0] iota_S16_d0_w32_scVector) (broadcast S16 0#32)) (broadcast S16 48#32))] : Fin 2 → IVec S16 32) a x).toNat < S128x200.size a)
    (h10 : ∀ a x, ((![broadcast S16 rw, (addi (iota .scVector S16 32 [0] iota_S16_d0_w32_scVector) (broadcast S16 64#32))] : Fin 2 → IVec S16 32) a x).toNat < S128x200.size a)
    (h11 : ∀ a x, ((![broadcast S16 rw, (addi (addi (iota .scVector S16 32 [0] iota_S16_d0_w32_scVector) (broadcast S16 64#32)) (broadcast S16 16#32))] : Fin 2 → IVec S16 32) a x).toNat < S128x200.size a)
    (h12 : ∀ a x, ((![broadcast S16 rw, (addi (addi (iota .scVector S16 32 [0] iota_S16_d0_w32_scVector) (broadcast S16 64#32)) (broadcast S16 32#32))] : Fin 2 → IVec S16 32) a x).toNat < S128x200.size a)
    (h13 : ∀ a x, ((![broadcast S16 rw, (addi (addi (iota .scVector S16 32 [0] iota_S16_d0_w32_scVector) (broadcast S16 64#32)) (broadcast S16 48#32))] : Fin 2 → IVec S16 32) a x).toNat < S128x200.size a)
    (h20 : ∀ a x, ((![broadcast S16 rw, (addi (iota .scVector S16 32 [0] iota_S16_d0_w32_scVector) (broadcast S16 128#32))] : Fin 2 → IVec S16 32) a x).toNat < S128x200.size a)
    (h21 : ∀ a x, ((![broadcast S16 rw, (addi (addi (iota .scVector S16 32 [0] iota_S16_d0_w32_scVector) (broadcast S16 128#32)) (broadcast S16 16#32))] : Fin 2 → IVec S16 32) a x).toNat < S128x200.size a)
    (h22 : ∀ a x, ((![broadcast S16 rw, (addi (addi (iota .scVector S16 32 [0] iota_S16_d0_w32_scVector) (broadcast S16 128#32)) (broadcast S16 32#32))] : Fin 2 → IVec S16 32) a x).toNat < S128x200.size a)
    (h23 : ∀ a x, ((![broadcast S16 rw, (addi (addi (iota .scVector S16 32 [0] iota_S16_d0_w32_scVector) (broadcast S16 128#32)) (broadcast S16 48#32))] : Fin 2 → IVec S16 32) a x).toNat < S128x200.size a)
    (hp0 : ∀ a x, ((![(ori (ori (ori (shli (loadIdx ((bB).view.readAt (Elt F) (LoadRect.whole S128x200) fb) ![broadcast S16 rw, (addi (iota .scVector S16 32 [0] iota_S16_d0_w32_scVector) (broadcast S16 0#32))] h00) (broadcast S16 9#32)) (shli (loadIdx ((bB).view.readAt (Elt F) (LoadRect.whole S128x200) fb) ![broadcast S16 rw, (addi (addi (iota .scVector S16 32 [0] iota_S16_d0_w32_scVector) (broadcast S16 0#32)) (broadcast S16 16#32))] h01) (broadcast S16 6#32))) (shli (loadIdx ((bB).view.readAt (Elt F) (LoadRect.whole S128x200) fb) ![broadcast S16 rw, (addi (addi (iota .scVector S16 32 [0] iota_S16_d0_w32_scVector) (broadcast S16 0#32)) (broadcast S16 32#32))] h02) (broadcast S16 3#32))) (loadIdx ((bB).view.readAt (Elt F) (LoadRect.whole S128x200) fb) ![broadcast S16 rw, (addi (addi (iota .scVector S16 32 [0] iota_S16_d0_w32_scVector) (broadcast S16 0#32)) (broadcast S16 48#32))] h03))] : Fin 1 → IVec S16 32) a x).toNat < S4096.size a)
    (hp1 : ∀ a x, ((![(ori (ori (ori (shli (loadIdx ((bB).view.readAt (Elt F) (LoadRect.whole S128x200) fb) ![broadcast S16 rw, (addi (iota .scVector S16 32 [0] iota_S16_d0_w32_scVector) (broadcast S16 64#32))] h10) (broadcast S16 9#32)) (shli (loadIdx ((bB).view.readAt (Elt F) (LoadRect.whole S128x200) fb) ![broadcast S16 rw, (addi (addi (iota .scVector S16 32 [0] iota_S16_d0_w32_scVector) (broadcast S16 64#32)) (broadcast S16 16#32))] h11) (broadcast S16 6#32))) (shli (loadIdx ((bB).view.readAt (Elt F) (LoadRect.whole S128x200) fb) ![broadcast S16 rw, (addi (addi (iota .scVector S16 32 [0] iota_S16_d0_w32_scVector) (broadcast S16 64#32)) (broadcast S16 32#32))] h12) (broadcast S16 3#32))) (loadIdx ((bB).view.readAt (Elt F) (LoadRect.whole S128x200) fb) ![broadcast S16 rw, (addi (addi (iota .scVector S16 32 [0] iota_S16_d0_w32_scVector) (broadcast S16 64#32)) (broadcast S16 48#32))] h13))] : Fin 1 → IVec S16 32) a x).toNat < S4096.size a)
    (hp2 : ∀ a x, ((![(ori (ori (ori (shli (loadIdx ((bB).view.readAt (Elt F) (LoadRect.whole S128x200) fb) ![broadcast S16 rw, (addi (iota .scVector S16 32 [0] iota_S16_d0_w32_scVector) (broadcast S16 128#32))] h20) (broadcast S16 9#32)) (shli (loadIdx ((bB).view.readAt (Elt F) (LoadRect.whole S128x200) fb) ![broadcast S16 rw, (addi (addi (iota .scVector S16 32 [0] iota_S16_d0_w32_scVector) (broadcast S16 128#32)) (broadcast S16 16#32))] h21) (broadcast S16 6#32))) (shli (loadIdx ((bB).view.readAt (Elt F) (LoadRect.whole S128x200) fb) ![broadcast S16 rw, (addi (addi (iota .scVector S16 32 [0] iota_S16_d0_w32_scVector) (broadcast S16 128#32)) (broadcast S16 32#32))] h22) (broadcast S16 3#32))) (loadIdx ((bB).view.readAt (Elt F) (LoadRect.whole S128x200) fb) ![broadcast S16 rw, (addi (addi (iota .scVector S16 32 [0] iota_S16_d0_w32_scVector) (broadcast S16 128#32)) (broadcast S16 48#32))] h23))] : Fin 1 → IVec S16 32) a x).toNat < S4096.size a)
    (ht : ∀ a x, ((![broadcast S16 rw, (addi (iota .scVector S16 32 [0] iota_S16_d0_w32_scVector) (broadcast S16 184#32))] : Fin 2 → IVec S16 32) a x).toNat < S128x200.size a)
    (h8 : ∀ a x, ((![(addi v11 (andi (loadIdx ((bB).view.readAt (Elt F) (LoadRect.whole S128x200) fb) ![broadcast S16 rw, (addi (iota .scVector S16 32 [0] iota_S16_d0_w32_scVector) (broadcast S16 184#32))] ht) (broadcast S16 7#32)))] : Fin 1 → IVec S16 32) a x).toNat < S272.size a)
    (x : S16.Idx) :
    addf (addf (addf (loadIdx ((t4).view.readAt (Elt F) (LoadRect.whole S4096) g4) ![(ori (ori (ori (shli (loadIdx ((bB).view.readAt (Elt F) (LoadRect.whole S128x200) fb) ![broadcast S16 rw, (addi (iota .scVector S16 32 [0] iota_S16_d0_w32_scVector) (broadcast S16 0#32))] h00) (broadcast S16 9#32)) (shli (loadIdx ((bB).view.readAt (Elt F) (LoadRect.whole S128x200) fb) ![broadcast S16 rw, (addi (addi (iota .scVector S16 32 [0] iota_S16_d0_w32_scVector) (broadcast S16 0#32)) (broadcast S16 16#32))] h01) (broadcast S16 6#32))) (shli (loadIdx ((bB).view.readAt (Elt F) (LoadRect.whole S128x200) fb) ![broadcast S16 rw, (addi (addi (iota .scVector S16 32 [0] iota_S16_d0_w32_scVector) (broadcast S16 0#32)) (broadcast S16 32#32))] h02) (broadcast S16 3#32))) (loadIdx ((bB).view.readAt (Elt F) (LoadRect.whole S128x200) fb) ![broadcast S16 rw, (addi (addi (iota .scVector S16 32 [0] iota_S16_d0_w32_scVector) (broadcast S16 0#32)) (broadcast S16 48#32))] h03))] hp0)
        (loadIdx ((t4).view.readAt (Elt F) (LoadRect.whole S4096) g4) ![(ori (ori (ori (shli (loadIdx ((bB).view.readAt (Elt F) (LoadRect.whole S128x200) fb) ![broadcast S16 rw, (addi (iota .scVector S16 32 [0] iota_S16_d0_w32_scVector) (broadcast S16 64#32))] h10) (broadcast S16 9#32)) (shli (loadIdx ((bB).view.readAt (Elt F) (LoadRect.whole S128x200) fb) ![broadcast S16 rw, (addi (addi (iota .scVector S16 32 [0] iota_S16_d0_w32_scVector) (broadcast S16 64#32)) (broadcast S16 16#32))] h11) (broadcast S16 6#32))) (shli (loadIdx ((bB).view.readAt (Elt F) (LoadRect.whole S128x200) fb) ![broadcast S16 rw, (addi (addi (iota .scVector S16 32 [0] iota_S16_d0_w32_scVector) (broadcast S16 64#32)) (broadcast S16 32#32))] h12) (broadcast S16 3#32))) (loadIdx ((bB).view.readAt (Elt F) (LoadRect.whole S128x200) fb) ![broadcast S16 rw, (addi (addi (iota .scVector S16 32 [0] iota_S16_d0_w32_scVector) (broadcast S16 64#32)) (broadcast S16 48#32))] h13))] hp1))
        (loadIdx ((t4).view.readAt (Elt F) (LoadRect.whole S4096) g4) ![(ori (ori (ori (shli (loadIdx ((bB).view.readAt (Elt F) (LoadRect.whole S128x200) fb) ![broadcast S16 rw, (addi (iota .scVector S16 32 [0] iota_S16_d0_w32_scVector) (broadcast S16 128#32))] h20) (broadcast S16 9#32)) (shli (loadIdx ((bB).view.readAt (Elt F) (LoadRect.whole S128x200) fb) ![broadcast S16 rw, (addi (addi (iota .scVector S16 32 [0] iota_S16_d0_w32_scVector) (broadcast S16 128#32)) (broadcast S16 16#32))] h21) (broadcast S16 6#32))) (shli (loadIdx ((bB).view.readAt (Elt F) (LoadRect.whole S128x200) fb) ![broadcast S16 rw, (addi (addi (iota .scVector S16 32 [0] iota_S16_d0_w32_scVector) (broadcast S16 128#32)) (broadcast S16 32#32))] h22) (broadcast S16 3#32))) (loadIdx ((bB).view.readAt (Elt F) (LoadRect.whole S128x200) fb) ![broadcast S16 rw, (addi (addi (iota .scVector S16 32 [0] iota_S16_d0_w32_scVector) (broadcast S16 128#32)) (broadcast S16 48#32))] h23))] hp2))
      (select v15 v16 (loadIdx ((t8r).view.readAt (Elt F) (LoadRect.whole S272) g8r) ![(addi v11 (andi (loadIdx ((bB).view.readAt (Elt F) (LoadRect.whole S128x200) fb) ![broadcast S16 rw, (addi (iota .scVector S16 32 [0] iota_S16_d0_w32_scVector) (broadcast S16 184#32))] ht) (broadcast S16 7#32)))] h8)) x
      = Cert.Sae.K.lane g (rowWB d L fsp ch r) (x 0).val := by
  have hr : ((broadcast S16 rw : IVec S16 32) x).toNat = r.val := hrw
  refine laneGB g (rowWB d L fsp ch r) _ _ _ _ v16 v15 x ?_ ?_ ?_ (hv15 x) (hv16 x) ?_
  · exact quadGB d L g fsp ch fb hA g4 h4 r _ _ _ _ _ h00 h01 h02 h03 hp0 x 0 (by norm_num) hr
      (by rw [col1B 0 (by norm_num) x]; omega) (by rw [col2B 0 16 (by norm_num) (by norm_num) x]; omega) (by rw [col2B 0 32 (by norm_num) (by norm_num) x]; omega)
      (by rw [col2B 0 48 (by norm_num) (by norm_num) x]; omega)
  · exact quadGB d L g fsp ch fb hA g4 h4 r _ _ _ _ _ h10 h11 h12 h13 hp1 x 1 (by norm_num) hr
      (by rw [col1B 64 (by norm_num) x]; omega) (by rw [col2B 64 16 (by norm_num) (by norm_num) x]; omega)
      (by rw [col2B 64 32 (by norm_num) (by norm_num) x]; omega) (by rw [col2B 64 48 (by norm_num) (by norm_num) x]; omega)
  · exact quadGB d L g fsp ch fb hA g4 h4 r _ _ _ _ _ h20 h21 h22 h23 hp2 x 2 (by norm_num) hr
      (by rw [col1B 128 (by norm_num) x]; omega) (by rw [col2B 128 16 (by norm_num) (by norm_num) x]; omega)
      (by rw [col2B 128 32 (by norm_num) (by norm_num) x]; omega) (by rw [col2B 128 48 (by norm_num) (by norm_num) x]; omega)
  · exact tailGB d L g fsp ch fb hA g8r h8r r _ _ v11 ht h8 x hr (by rw [col1B 184 (by norm_num) x]; omega) (hv11 x)

end RowLane

/-! ## The trip's constants at a lane, and one step of the output scratch -/

/-- Seventeen times the lane. -/
theorem pay1403_toNatB (x : S16.Idx) : ((k0_pay1403 : IVec S16 32) x).toNat = 17 * (x 0).val := by
  have hx : (x 0).val < 16 := (x 0).isLt
  have hl := Cert.Lib.lane_toNat (κ := .scVector) (n := 16) (by norm_num) iota_S16_d0_w32_scVector x
  show (IntOp.muli ((iota .scVector S16 32 [0] iota_S16_d0_w32_scVector : IVec S16 32) x) (BitVec.ofNat 32 17)).toNat = _
  rw [Cert.Lib.muli_lit_toNat _ 17 16 (by rw [hl]; exact hx) (by norm_num), hl]
  omega

/-- The lanes below eight. -/
theorem pay1405_applyB (x : S16.Idx) : (k0_pay1405 : IVec S16 1) x = IntOp.cmpi .slt (BitVec.ofNat 32 (x 0).val) 8#32 := by
  show IntOp.cmpi .slt ((iota .scVector S16 32 [0] iota_S16_d0_w32_scVector : IVec S16 32) x) 8#32 = _
  rw [Cert.Lib.lane_apply]

/-- The zero vector. -/
theorem pay1406_applyB (x : S16.Idx) : (k0_pay1406 (F := F) : FVec F S16 .f32) x = Cert.Sae.K.zf := rfl

section OutStep
variable (d : Dev nD) (L : grid0.Coords) (g : FVec F S8 .f32)
  (fen : Buf (Elt F) ((enW).view.loc (thr d L))) (fsp : Buf (Elt F) ((spW).view.loc (thr d L)))

/-- Sixteen more finished rows: the output scratch finished below n, with a store at n of a payload whose lane i is
    the closed form of row n + i, is finished below n + 16. -/
theorem isOut_stepB (n : Nat) (hn : n + 16 ≤ 512) (hd : 16 ∣ n) (go : Buf (Elt F) ((outv).view.loc (thr d L)))
    (hgo : IsOut d L g fen fsp n go) (off : Fin 1 → Nat) (hoff : off = ![n]) (inb : ∀ a, off a + S16.size a ≤ S512.size a)
    (P : (Rect.unit (s := S512) off S16.size inb).shape.Idx → F .f32)
    (hP : ∀ (x : S16.Idx) (y : S512.Idx), (y 0).val = n + (x 0).val →
      P x = Cert.Sae.K.rowOut (F := F) g (fen (ix1 (tileRow L y)))
        (fun c => fsp (ix2 (tileRow L y) ⟨c % 200, Nat.mod_lt _ (by norm_num)⟩)) (x 0).val) :
    IsOut d L g fen fsp (n + 16) ((outv).view.writes (Elt F) go [⟨Rect.unit (s := S512) off S16.size inb, P⟩]) := by
  subst hoff
  intro y hy
  by_cases hlt : (y 0).val < n
  · rw [View.read_writes_apply_of_forall_not_mem]
    · exact hgo y hlt
    · intro p hp
      rw [List.mem_singleton] at hp
      subst hp
      rw [Rect.mem_set_unit]
      intro hmem
      have h0 : n ≤ (y 0).val := (hmem 0).1
      omega
  · have hge : n ≤ (y 0).val := Nat.le_of_not_lt hlt
    have hx16 : (y 0).val - n < 16 := by omega
    let x : S16.Idx := ix1 ⟨(y 0).val - n, hx16⟩
    have hy' : y = (Rect.unit (s := S512) ![n] S16.size inb).emb x := by
      funext a
      match a with
      | ⟨0, _⟩ =>
        refine Fin.ext ?_
        show (y 0).val = n + 1 * ((y 0).val - n)
        omega
    have hmod : (y 0).val % 16 = (y 0).val - n := by
      obtain ⟨q, rfl⟩ := hd
      omega
    rw [hy', View.read_writes_cons_emb, ← hy', hmod]
    exact hP x y (by show (y 0).val = n + ((y 0).val - n); omega)

end OutStep

/-! ## The transposed read-back -/

/-- Sixteen times the lane. -/
theorem pay1404_toNatB (x : S16.Idx) : ((k0_pay1404 : IVec S16 32) x).toNat = 16 * (x 0).val := by
  have hx : (x 0).val < 16 := (x 0).isLt
  have hl := Cert.Lib.lane_toNat (κ := .scVector) (n := 16) (by norm_num) iota_S16_d0_w32_scVector x
  show (IntOp.muli ((iota .scVector S16 32 [0] iota_S16_d0_w32_scVector : IVec S16 32) x) (BitVec.ofNat 32 16)).toNat = _
  rw [Cert.Lib.muli_lit_toNat _ 16 16 (by rw [hl]; exact hx) (by norm_num), hl]
  omega

/-- A word masked to four bits is the word mod 16. -/
theorem andi15B (w : BitVec 32) : (IntOp.andi w 15#32).toNat = w.toNat % 16 := by
  simp only [IntOp.andi, BitVec.toNat_and, BitVec.toNat_ofNat]
  exact Nat.and_two_pow_sub_one_eq_mod w.toNat 4

/-- The read-back index of step cc at a lane: the half's base, sixteen times the lane, and the lane plus cc mod 16. -/
theorem idxBackB (vb : IVec S16 32) (b : Nat) (hb : ∀ x, (vb x).toNat = b) (hb256 : b ≤ 256) (cc : Nat) (hcc : cc < 16) (x : S16.Idx) :
    ((addi (addi vb k0_pay1404) (andi (addi (iota .scVector S16 32 [0] iota_S16_d0_w32_scVector) (broadcast S16 (BitVec.ofNat 32 cc)))
        (broadcast S16 15#32)) : IVec S16 32) x).toNat = b + 16 * (x 0).val + ((x 0).val + cc) % 16 := by
  have hx : (x 0).val < 16 := (x 0).isLt
  have e1 := col1B cc (by omega) x
  have e2 := pay1404_toNatB x
  have e3 := hb x
  show (IntOp.addi (IntOp.addi (vb x) ((k0_pay1404 : IVec S16 32) x))
      (IntOp.andi ((addi (iota .scVector S16 32 [0] iota_S16_d0_w32_scVector) (broadcast S16 (BitVec.ofNat 32 cc)) : IVec S16 32) x) 15#32)).toNat = _
  have e4 := andi15B ((addi (iota .scVector S16 32 [0] iota_S16_d0_w32_scVector) (broadcast S16 (BitVec.ofNat 32 cc)) : IVec S16 32) x)
  rw [e1] at e4
  have hm : ((x 0).val + cc) % 16 < 16 := Nat.mod_lt _ (by norm_num)
  simp only [IntOp.addi, BitVec.toNat_add, e2, e3, e4]
  omega

/-- An index inside a sixteen-entry piece of the lane scratch. -/
theorem mem_unit16B (off : Fin 1 → Nat) (inb : ∀ a, off a + S16.size a ≤ S512.size a) (j : S512.Idx) (b : Nat) (hoff : off 0 = b)
    (h1 : b ≤ (j 0).val) (h2 : (j 0).val < b + 16) : j ∈ (Rect.unit (s := S512) off S16.size inb).set := by
  rw [Rect.mem_set_unit]
  intro a
  match a with
  | ⟨0, _⟩ =>
    refine ⟨?_, ?_⟩
    · show off 0 ≤ (j 0).val
      rw [hoff]; exact h1
    · show (j 0).val < off 0 + 16
      rw [hoff]; exact h2

section BackLane
variable (d : Dev nD) (L : grid0.Coords) (g : FVec F S8 .f32)

/-- A gather of the lane scratch at the transposed index of step cc, after sixteen stores whose payloads are the rows'
    lane values: lane x reads row x's value at lane x + cc mod 16. -/
theorem readbackLaneB (gr : Buf (Elt F) ((red).view.loc (thr d L))) (Lp : List (View.Piece (Elt F) S512 .f32)) (base : Nat)
    (W : Fin 16 → Nat → BitVec 32)
    (hG : ∀ p ∈ Lp, ∀ x : p.1.shape.Idx, ∃ (r m : Nat) (hr : r < 16), m < 16 ∧ (p.1.emb x 0).val = base + 16 * r + m ∧
      p.2 x = Cert.Sae.K.lane g (W ⟨r, hr⟩) m)
    (hcov : ∀ j : S512.Idx, base ≤ (j 0).val → (j 0).val < base + 256 → ∃ p ∈ Lp, j ∈ p.1.set)
    (ii : IVec S16 32) (h : ∀ a x, ((![ii] : Fin 1 → IVec S16 32) a x).toNat < S512.size a) (x : S16.Idx) (cc : Nat)
    (hii : (ii x).toNat = base + 16 * (x 0).val + ((x 0).val + cc) % 16) :
    loadIdx ((red).view.readAt (Elt F) (LoadRect.whole S512) ((red).view.writes (Elt F) gr Lp)) ![ii] h x
      = Cert.Sae.K.lane g (W ⟨(x 0).val, (x 0).isLt⟩) (((x 0).val + cc) % 16) := by
  have hx : (x 0).val < 16 := (x 0).isLt
  have hm : ((x 0).val + cc) % 16 < 16 := Nat.mod_lt _ (by norm_num)
  let G : S512.Idx → F .f32 := fun j =>
    Cert.Sae.K.lane g (W ⟨((j 0).val - base) / 16 % 16, Nat.mod_lt _ (by norm_num)⟩) (((j 0).val - base) % 16)
  have hG' : ∀ p ∈ Lp, ∀ x : p.1.shape.Idx, p.2 x = G (p.1.emb x) := by
    intro p hp x'
    obtain ⟨r, m, hr, hm', he, hp2⟩ := hG p hp x'
    rw [hp2]
    show _ = Cert.Sae.K.lane g (W ⟨((p.1.emb x' 0).val - base) / 16 % 16, Nat.mod_lt _ (by norm_num)⟩) (((p.1.emb x' 0).val - base) % 16)
    have e1 : ((p.1.emb x' 0).val - base) / 16 % 16 = r := by rw [he]; omega
    have e2 : ((p.1.emb x' 0).val - base) % 16 = m := by rw [he]; omega
    rw [e2]
    exact congrArg (fun t => Cert.Sae.K.lane g (W t) m) (Fin.ext e1.symm)
  have hc := hcov (ix1 ⟨(ii x).toNat, h 0 x⟩) (by show base ≤ (ii x).toNat; omega) (by show (ii x).toNat < base + 256; omega)
  rw [readbackGB d L gr Lp G hG' ii h x hc]
  show Cert.Sae.K.lane g (W ⟨((ii x).toNat - base) / 16 % 16, Nat.mod_lt _ (by norm_num)⟩) (((ii x).toNat - base) % 16) = _
  have e1 : ((ii x).toNat - base) / 16 % 16 = (x 0).val := by rw [hii]; omega
  have e2 : ((ii x).toNat - base) % 16 = ((x 0).val + cc) % 16 := by rw [hii]; omega
  rw [e2]
  exact congrArg (fun t => Cert.Sae.K.lane g (W t) (((x 0).val + cc) % 16)) (Fin.ext e1)

end BackLane

end Cert.Proof.KI

end
-- ==== Proof.KI.ValRegionT3.lean ====
/-
  One trip of chunk 1's row-group loop, with values: the run of the trip, then the output scratch's sixteen new
  entries read off the stores. Each of the sixteen rows' stored lane vectors is the closed form's lane value of its
  row (the gathered words are the species words of the chunk's row, the tables read their closed forms); the
  transposed read-back of step cc at lane x is row x's value at lane x + cc mod 16; so lane x of the stored result
  is the closed form of row x of the group, on its energy.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.KI.ValRowsB
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

local macro "sg_disch" k:ident h:ident ho:ident : tactic => `(tactic| first | sl_decide | ((try clear $ho); revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

theorem region_t3v (d : Dev nD) (L : grid0.Coords) (g : FVec F S8 .f32) (fen : Buf (Elt F) ((enW).view.loc (thr d L)))
    (fsp : Buf (Elt F) ((spW).view.loc (thr d L))) (hsp : ∀ j, (fsp j).toNat ≤ 6) (v2 : BitVec 32) (v624 : Vec F S16 .f32) :
    ∀ (k : Fin k0_t3_loop.trips) (acc : Unit), invBv (F := F) d L g fen fsp 1 k.val acc ⊢
      wp frame (wpE (defs₀ (F := F)) 𝒱₀ (thr d L) none) Set.univ
        (k0_t3_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invBv (F := F) d L g fen fsp 1 (k.val + 1)) := by
  intro k _
  unfold invBv
  iintro ⟨⟨%fb, Hb, %hA⟩, ⟨%g4, H4, %h4⟩, ⟨%g8r, H8r, %h8r⟩, ⟨%gr, Hr⟩, ⟨%ge, He, %hge⟩, ⟨%go, Hov, %hgo⟩⟩
  have hfb : ∀ j, ((bB).view.read (Elt F) fb j).toNat ≤ 6 := fun j => by
    obtain ⟨r, c, rfl⟩ : ∃ (r : Fin 128) (c : Fin 200), j = ix2 r c := ⟨j 0, j 1, eq_ix2 j⟩
    rw [hA r c]; exact hsp _
  sl_exec (disch := sg_disch k hfb hgo)
  repeat (iapply (wp_gather_bind 𝒱₀ (thr d L) none Set.univ); sl_exec (disch := sg_disch k hfb hgo))
  sl_step
  isplitl [Hb]
  · iexists fb; isplitl [Hb]
    · iexact Hb
    · ipureintro; exact hA
  isplitl [H4]
  · iexists g4; isplitl [H4]
    · iexact H4
    · ipureintro; exact h4
  isplitl [H8r]
  · iexists g8r; isplitl [H8r]
    · iexact H8r
    · ipureintro; exact h8r
  isplitl [Hr]; · iexists _; iexact Hr
  isplitl [He]
  · iexists ge; isplitl [He]
    · iexact He
    · ipureintro; exact hge
  iexists _; isplitl [Hov]
  · iexact Hov
  ipureintro
  have hk : k.val < 8 := k.isLt
  have hidx0 : ∀ (k' : Fin k0_t3_loop.trips) (x' : S16.Idx), (region_t3v.sl.v2273 k' x').toNat = k'.val % 2 * 256 + 16 * (x' 0).val + ((x' 0).val + 0) % 16 := by decide +kernel
  have hidx1 : ∀ (k' : Fin k0_t3_loop.trips) (x' : S16.Idx), (region_t3v.sl.v2282 k' x').toNat = k'.val % 2 * 256 + 16 * (x' 0).val + ((x' 0).val + 1) % 16 := by decide +kernel
  have hidx2 : ∀ (k' : Fin k0_t3_loop.trips) (x' : S16.Idx), (region_t3v.sl.v2291 k' x').toNat = k'.val % 2 * 256 + 16 * (x' 0).val + ((x' 0).val + 2) % 16 := by decide +kernel
  have hidx3 : ∀ (k' : Fin k0_t3_loop.trips) (x' : S16.Idx), (region_t3v.sl.r_113 k' x').toNat = k'.val % 2 * 256 + 16 * (x' 0).val + ((x' 0).val + 3) % 16 := by decide +kernel
  have hidx4 : ∀ (k' : Fin k0_t3_loop.trips) (x' : S16.Idx), (region_t3v.sl.v2309 k' x').toNat = k'.val % 2 * 256 + 16 * (x' 0).val + ((x' 0).val + 4) % 16 := by decide +kernel
  have hidx5 : ∀ (k' : Fin k0_t3_loop.trips) (x' : S16.Idx), (region_t3v.sl.v2318 k' x').toNat = k'.val % 2 * 256 + 16 * (x' 0).val + ((x' 0).val + 5) % 16 := by decide +kernel
  have hidx6 : ∀ (k' : Fin k0_t3_loop.trips) (x' : S16.Idx), (region_t3v.sl.v2327 k' x').toNat = k'.val % 2 * 256 + 16 * (x' 0).val + ((x' 0).val + 6) % 16 := by decide +kernel
  have hidx7 : ∀ (k' : Fin k0_t3_loop.trips) (x' : S16.Idx), (region_t3v.sl.v2336 k' x').toNat = k'.val % 2 * 256 + 16 * (x' 0).val + ((x' 0).val + 7) % 16 := by decide +kernel
  have hidx8 : ∀ (k' : Fin k0_t3_loop.trips) (x' : S16.Idx), (region_t3v.sl.r_116 k' x').toNat = k'.val % 2 * 256 + 16 * (x' 0).val + ((x' 0).val + 8) % 16 := by decide +kernel
  have hidx9 : ∀ (k' : Fin k0_t3_loop.trips) (x' : S16.Idx), (region_t3v.sl.v2354 k' x').toNat = k'.val % 2 * 256 + 16 * (x' 0).val + ((x' 0).val + 9) % 16 := by decide +kernel
  have hidx10 : ∀ (k' : Fin k0_t3_loop.trips) (x' : S16.Idx), (region_t3v.sl.v2363 k' x').toNat = k'.val % 2 * 256 + 16 * (x' 0).val + ((x' 0).val + 10) % 16 := by decide +kernel
  have hidx11 : ∀ (k' : Fin k0_t3_loop.trips) (x' : S16.Idx), (region_t3v.sl.v2372 k' x').toNat = k'.val % 2 * 256 + 16 * (x' 0).val + ((x' 0).val + 11) % 16 := by decide +kernel
  have hidx12 : ∀ (k' : Fin k0_t3_loop.trips) (x' : S16.Idx), (region_t3v.sl.v2381 k' x').toNat = k'.val % 2 * 256 + 16 * (x' 0).val + ((x' 0).val + 12) % 16 := by decide +kernel
  have hidx13 : ∀ (k' : Fin k0_t3_loop.trips) (x' : S16.Idx), (region_t3v.sl.r_119 k' x').toNat = k'.val % 2 * 256 + 16 * (x' 0).val + ((x' 0).val + 13) % 16 := by decide +kernel
  have hidx14 : ∀ (k' : Fin k0_t3_loop.trips) (x' : S16.Idx), (region_t3v.sl.v2399 k' x').toNat = k'.val % 2 * 256 + 16 * (x' 0).val + ((x' 0).val + 14) % 16 := by decide +kernel
  have hidx15 : ∀ (k' : Fin k0_t3_loop.trips) (x' : S16.Idx), (region_t3v.sl.v2408 k' x').toNat = k'.val % 2 * 256 + 16 * (x' 0).val + ((x' 0).val + 15) % 16 := by decide +kernel
  refine isOut_stepB d L g fen fsp (128 * (1 : Fin 4).val + 16 * k.val) (by simp <;> omega) (by simp <;> omega) go hgo _
    (by rw [k0_off47_eq]; exact congrArg (fun t : Nat => (![t] : Fin 1 → Nat)) (by simp <;> omega)) _ _ (fun x y hy => ?_)
  have hx : (x 0).val < 16 := (x 0).isLt
  have hR0 : 16 * k.val + 0 < 128 := by omega
  have hR1 : 16 * k.val + 1 < 128 := by omega
  have hR2 : 16 * k.val + 2 < 128 := by omega
  have hR3 : 16 * k.val + 3 < 128 := by omega
  have hR4 : 16 * k.val + 4 < 128 := by omega
  have hR5 : 16 * k.val + 5 < 128 := by omega
  have hR6 : 16 * k.val + 6 < 128 := by omega
  have hR7 : 16 * k.val + 7 < 128 := by omega
  have hR8 : 16 * k.val + 8 < 128 := by omega
  have hR9 : 16 * k.val + 9 < 128 := by omega
  have hR10 : 16 * k.val + 10 < 128 := by omega
  have hR11 : 16 * k.val + 11 < 128 := by omega
  have hR12 : 16 * k.val + 12 < 128 := by omega
  have hR13 : 16 * k.val + 13 < 128 := by omega
  have hR14 : 16 * k.val + 14 < 128 := by omega
  have hR15 : 16 * k.val + 15 < 128 := by omega
  obtain ⟨W, hWdef⟩ : ∃ W : Fin 16 → Nat → BitVec 32, W = (fun r : Fin 16 => rowWB d L fsp 1 ⟨16 * k.val + r.val, by have := r.isLt; omega⟩) := ⟨_, rfl⟩
  have hW : W ⟨(x 0).val, (x 0).isLt⟩ = fun c => fsp (ix2 (tileRow L y) ⟨c % 200, Nat.mod_lt _ (by norm_num)⟩) := by
    rw [hWdef]
    funext c
    show fsp (ix2 (chunkRow L 1 ⟨16 * k.val + (x 0).val, _⟩) _) = _
    refine congrArg (fun t => fsp (ix2 t _)) (Fin.ext ?_)
    show 512 * wid L + 128 * (1 : Fin 4).val + (16 * k.val + (x 0).val) = 512 * wid L + (y 0).val
    rw [hy]; omega
  have hP : ∃ Lp, (region_t3v.sl.f d L k fb g4 g8r gr hfb = (red).view.readAt (Elt F) (LoadRect.whole S512) ((red).view.writes (Elt F) gr Lp)
        ∧ region_t3v.sl.f_1 d L k fb g4 g8r gr hfb = (red).view.readAt (Elt F) (LoadRect.whole S512) ((red).view.writes (Elt F) gr Lp)
        ∧ region_t3v.sl.f_2 d L k fb g4 g8r gr hfb = (red).view.readAt (Elt F) (LoadRect.whole S512) ((red).view.writes (Elt F) gr Lp)
        ∧ region_t3v.sl.f_3 d L k fb g4 g8r gr hfb = (red).view.readAt (Elt F) (LoadRect.whole S512) ((red).view.writes (Elt F) gr Lp)
        ∧ region_t3v.sl.f_4 d L k fb g4 g8r gr hfb = (red).view.readAt (Elt F) (LoadRect.whole S512) ((red).view.writes (Elt F) gr Lp)
        ∧ region_t3v.sl.f_5 d L k fb g4 g8r gr hfb = (red).view.readAt (Elt F) (LoadRect.whole S512) ((red).view.writes (Elt F) gr Lp)
        ∧ region_t3v.sl.f_6 d L k fb g4 g8r gr hfb = (red).view.readAt (Elt F) (LoadRect.whole S512) ((red).view.writes (Elt F) gr Lp)
        ∧ region_t3v.sl.f_7 d L k fb g4 g8r gr hfb = (red).view.readAt (Elt F) (LoadRect.whole S512) ((red).view.writes (Elt F) gr Lp)
        ∧ region_t3v.sl.f_8 d L k fb g4 g8r gr hfb = (red).view.readAt (Elt F) (LoadRect.whole S512) ((red).view.writes (Elt F) gr Lp)
        ∧ region_t3v.sl.f_9 d L k fb g4 g8r gr hfb = (red).view.readAt (Elt F) (LoadRect.whole S512) ((red).view.writes (Elt F) gr Lp)
        ∧ region_t3v.sl.f_10 d L k fb g4 g8r gr hfb = (red).view.readAt (Elt F) (LoadRect.whole S512) ((red).view.writes (Elt F) gr Lp)
        ∧ region_t3v.sl.f_11 d L k fb g4 g8r gr hfb = (red).view.readAt (Elt F) (LoadRect.whole S512) ((red).view.writes (Elt F) gr Lp)
        ∧ region_t3v.sl.f_12 d L k fb g4 g8r gr hfb = (red).view.readAt (Elt F) (LoadRect.whole S512) ((red).view.writes (Elt F) gr Lp)
        ∧ region_t3v.sl.f_13 d L k fb g4 g8r gr hfb = (red).view.readAt (Elt F) (LoadRect.whole S512) ((red).view.writes (Elt F) gr Lp)
        ∧ region_t3v.sl.f_14 d L k fb g4 g8r gr hfb = (red).view.readAt (Elt F) (LoadRect.whole S512) ((red).view.writes (Elt F) gr Lp)
        ∧ region_t3v.sl.f_15 d L k fb g4 g8r gr hfb = (red).view.readAt (Elt F) (LoadRect.whole S512) ((red).view.writes (Elt F) gr Lp))
      ∧ (∀ p ∈ Lp, ∀ x : p.1.shape.Idx, ∃ (r m : Nat) (hr : r < 16), m < 16 ∧ (p.1.emb x 0).val = k.val % 2 * 256 + 16 * r + m ∧
          p.2 x = Cert.Sae.K.lane g (W ⟨r, hr⟩) m)
      ∧ (∀ j : S512.Idx, k.val % 2 * 256 ≤ (j 0).val → (j 0).val < k.val % 2 * 256 + 256 → ∃ p ∈ Lp, j ∈ p.1.set) := by
    refine ⟨_, ⟨rfl, rfl, rfl, rfl, rfl, rfl, rfl, rfl, rfl, rfl, rfl, rfl, rfl, rfl, rfl, rfl⟩, ?_, ?_⟩
    · intro p hp x'
      simp only [List.mem_cons, List.not_mem_nil, _root_.or_false] at hp
      rcases hp with rfl | rfl | rfl | rfl | rfl | rfl | rfl | rfl | rfl | rfl | rfl | rfl | rfl | rfl | rfl | rfl
      · have ho := congrFun (k0_off45_eq k) 0
        simp only [Matrix.cons_val_zero] at ho
        refine ⟨15, (x' 0).val, by norm_num, (x' 0).isLt, ?_, ?_⟩
        · show k0_off45 k 0 + 1 * (x' 0).val = _
          rw [ho]; omega
        · rw [hWdef]
          exact rowLaneB d L g fsp 1 fb hA g4 h4 g8r h8r ⟨16 * k.val + 15, hR15⟩ _ (by clear * - k hR15; revert k; decide +kernel)
            k0_pay1403 pay1403_toNatB k0_pay1405 pay1405_applyB k0_pay1406 pay1406_applyB _ _ _ _ _ _ _ _ _ _ _ _ _ _ _ _ _ x'
      · have ho := congrFun (k0_off44_eq k) 0
        simp only [Matrix.cons_val_zero] at ho
        refine ⟨14, (x' 0).val, by norm_num, (x' 0).isLt, ?_, ?_⟩
        · show k0_off44 k 0 + 1 * (x' 0).val = _
          rw [ho]; omega
        · rw [hWdef]
          exact rowLaneB d L g fsp 1 fb hA g4 h4 g8r h8r ⟨16 * k.val + 14, hR14⟩ _ (by clear * - k hR14; revert k; decide +kernel)
            k0_pay1403 pay1403_toNatB k0_pay1405 pay1405_applyB k0_pay1406 pay1406_applyB _ _ _ _ _ _ _ _ _ _ _ _ _ _ _ _ _ x'
      · have ho := congrFun (k0_off43_eq k) 0
        simp only [Matrix.cons_val_zero] at ho
        refine ⟨13, (x' 0).val, by norm_num, (x' 0).isLt, ?_, ?_⟩
        · show k0_off43 k 0 + 1 * (x' 0).val = _
          rw [ho]; omega
        · rw [hWdef]
          exact rowLaneB d L g fsp 1 fb hA g4 h4 g8r h8r ⟨16 * k.val + 13, hR13⟩ _ (by clear * - k hR13; revert k; decide +kernel)
            k0_pay1403 pay1403_toNatB k0_pay1405 pay1405_applyB k0_pay1406 pay1406_applyB _ _ _ _ _ _ _ _ _ _ _ _ _ _ _ _ _ x'
      · have ho := congrFun (k0_off42_eq k) 0
        simp only [Matrix.cons_val_zero] at ho
        refine ⟨12, (x' 0).val, by norm_num, (x' 0).isLt, ?_, ?_⟩
        · show k0_off42 k 0 + 1 * (x' 0).val = _
          rw [ho]; omega
        · rw [hWdef]
          exact rowLaneB d L g fsp 1 fb hA g4 h4 g8r h8r ⟨16 * k.val + 12, hR12⟩ _ (by clear * - k hR12; revert k; decide +kernel)
            k0_pay1403 pay1403_toNatB k0_pay1405 pay1405_applyB k0_pay1406 pay1406_applyB _ _ _ _ _ _ _ _ _ _ _ _ _ _ _ _ _ x'
      · have ho := congrFun (k0_off41_eq k) 0
        simp only [Matrix.cons_val_zero] at ho
        refine ⟨11, (x' 0).val, by norm_num, (x' 0).isLt, ?_, ?_⟩
        · show k0_off41 k 0 + 1 * (x' 0).val = _
          rw [ho]; omega
        · rw [hWdef]
          exact rowLaneB d L g fsp 1 fb hA g4 h4 g8r h8r ⟨16 * k.val + 11, hR11⟩ _ (by clear * - k hR11; revert k; decide +kernel)
            k0_pay1403 pay1403_toNatB k0_pay1405 pay1405_applyB k0_pay1406 pay1406_applyB _ _ _ _ _ _ _ _ _ _ _ _ _ _ _ _ _ x'
      · have ho := congrFun (k0_off40_eq k) 0
        simp only [Matrix.cons_val_zero] at ho
        refine ⟨10, (x' 0).val, by norm_num, (x' 0).isLt, ?_, ?_⟩
        · show k0_off40 k 0 + 1 * (x' 0).val = _
          rw [ho]; omega
        · rw [hWdef]
          exact rowLaneB d L g fsp 1 fb hA g4 h4 g8r h8r ⟨16 * k.val + 10, hR10⟩ _ (by clear * - k hR10; revert k; decide +kernel)
            k0_pay1403 pay1403_toNatB k0_pay1405 pay1405_applyB k0_pay1406 pay1406_applyB _ _ _ _ _ _ _ _ _ _ _ _ _ _ _ _ _ x'
      · have ho := congrFun (k0_off39_eq k) 0
        simp only [Matrix.cons_val_zero] at ho
        refine ⟨9, (x' 0).val, by norm_num, (x' 0).isLt, ?_, ?_⟩
        · show k0_off39 k 0 + 1 * (x' 0).val = _
          rw [ho]; omega
        · rw [hWdef]
          exact rowLaneB d L g fsp 1 fb hA g4 h4 g8r h8r ⟨16 * k.val + 9, hR9⟩ _ (by clear * - k hR9; revert k; decide +kernel)
            k0_pay1403 pay1403_toNatB k0_pay1405 pay1405_applyB k0_pay1406 pay1406_applyB _ _ _ _ _ _ _ _ _ _ _ _ _ _ _ _ _ x'
      · have ho := congrFun (k0_off38_eq k) 0
        simp only [Matrix.cons_val_zero] at ho
        refine ⟨8, (x' 0).val, by norm_num, (x' 0).isLt, ?_, ?_⟩
        · show k0_off38 k 0 + 1 * (x' 0).val = _
          rw [ho]; omega
        · rw [hWdef]
          exact rowLaneB d L g fsp 1 fb hA g4 h4 g8r h8r ⟨16 * k.val + 8, hR8⟩ _ (by clear * - k hR8; revert k; decide +kernel)
            k0_pay1403 pay1403_toNatB k0_pay1405 pay1405_applyB k0_pay1406 pay1406_applyB _ _ _ _ _ _ _ _ _ _ _ _ _ _ _ _ _ x'
      · have ho := congrFun (k0_off37_eq k) 0
        simp only [Matrix.cons_val_zero] at ho
        refine ⟨7, (x' 0).val, by norm_num, (x' 0).isLt, ?_, ?_⟩
        · show k0_off37 k 0 + 1 * (x' 0).val = _
          rw [ho]; omega
        · rw [hWdef]
          exact rowLaneB d L g fsp 1 fb hA g4 h4 g8r h8r ⟨16 * k.val + 7, hR7⟩ _ (by clear * - k hR7; revert k; decide +kernel)
            k0_pay1403 pay1403_toNatB k0_pay1405 pay1405_applyB k0_pay1406 pay1406_applyB _ _ _ _ _ _ _ _ _ _ _ _ _ _ _ _ _ x'
      · have ho := congrFun (k0_off36_eq k) 0
        simp only [Matrix.cons_val_zero] at ho
        refine ⟨6, (x' 0).val, by norm_num, (x' 0).isLt, ?_, ?_⟩
        · show k0_off36 k 0 + 1 * (x' 0).val = _
          rw [ho]; omega
        · rw [hWdef]
          exact rowLaneB d L g fsp 1 fb hA g4 h4 g8r h8r ⟨16 * k.val + 6, hR6⟩ _ (by clear * - k hR6; revert k; decide +kernel)
            k0_pay1403 pay1403_toNatB k0_pay1405 pay1405_applyB k0_pay1406 pay1406_applyB _ _ _ _ _ _ _ _ _ _ _ _ _ _ _ _ _ x'
      · have ho := congrFun (k0_off35_eq k) 0
        simp only [Matrix.cons_val_zero] at ho
        refine ⟨5, (x' 0).val, by norm_num, (x' 0).isLt, ?_, ?_⟩
        · show k0_off35 k 0 + 1 * (x' 0).val = _
          rw [ho]; omega
        · rw [hWdef]
          exact rowLaneB d L g fsp 1 fb hA g4 h4 g8r h8r ⟨16 * k.val + 5, hR5⟩ _ (by clear * - k hR5; revert k; decide +kernel)
            k0_pay1403 pay1403_toNatB k0_pay1405 pay1405_applyB k0_pay1406 pay1406_applyB _ _ _ _ _ _ _ _ _ _ _ _ _ _ _ _ _ x'
      · have ho := congrFun (k0_off34_eq k) 0
        simp only [Matrix.cons_val_zero] at ho
        refine ⟨4, (x' 0).val, by norm_num, (x' 0).isLt, ?_, ?_⟩
        · show k0_off34 k 0 + 1 * (x' 0).val = _
          rw [ho]; omega
        · rw [hWdef]
          exact rowLaneB d L g fsp 1 fb hA g4 h4 g8r h8r ⟨16 * k.val + 4, hR4⟩ _ (by clear * - k hR4; revert k; decide +kernel)
            k0_pay1403 pay1403_toNatB k0_pay1405 pay1405_applyB k0_pay1406 pay1406_applyB _ _ _ _ _ _ _ _ _ _ _ _ _ _ _ _ _ x'
      · have ho := congrFun (k0_off33_eq k) 0
        simp only [Matrix.cons_val_zero] at ho
        refine ⟨3, (x' 0).val, by norm_num, (x' 0).isLt, ?_, ?_⟩
        · show k0_off33 k 0 + 1 * (x' 0).val = _
          rw [ho]; omega
        · rw [hWdef]
          exact rowLaneB d L g fsp 1 fb hA g4 h4 g8r h8r ⟨16 * k.val + 3, hR3⟩ _ (by clear * - k hR3; revert k; decide +kernel)
            k0_pay1403 pay1403_toNatB k0_pay1405 pay1405_applyB k0_pay1406 pay1406_applyB _ _ _ _ _ _ _ _ _ _ _ _ _ _ _ _ _ x'
      · have ho := congrFun (k0_off32_eq k) 0
        simp only [Matrix.cons_val_zero] at ho
        refine ⟨2, (x' 0).val, by norm_num, (x' 0).isLt, ?_, ?_⟩
        · show k0_off32 k 0 + 1 * (x' 0).val = _
          rw [ho]; omega
        · rw [hWdef]
          exact rowLaneB d L g fsp 1 fb hA g4 h4 g8r h8r ⟨16 * k.val + 2, hR2⟩ _ (by clear * - k hR2; revert k; decide +kernel)
            k0_pay1403 pay1403_toNatB k0_pay1405 pay1405_applyB k0_pay1406 pay1406_applyB _ _ _ _ _ _ _ _ _ _ _ _ _ _ _ _ _ x'
      · have ho := congrFun (k0_off31_eq k) 0
        simp only [Matrix.cons_val_zero] at ho
        refine ⟨1, (x' 0).val, by norm_num, (x' 0).isLt, ?_, ?_⟩
        · show k0_off31 k 0 + 1 * (x' 0).val = _
          rw [ho]; omega
        · rw [hWdef]
          exact rowLaneB d L g fsp 1 fb hA g4 h4 g8r h8r ⟨16 * k.val + 1, hR1⟩ _ (by clear * - k hR1; revert k; decide +kernel)
            k0_pay1403 pay1403_toNatB k0_pay1405 pay1405_applyB k0_pay1406 pay1406_applyB _ _ _ _ _ _ _ _ _ _ _ _ _ _ _ _ _ x'
      · have ho := congrFun (k0_off30_eq k) 0
        simp only [Matrix.cons_val_zero] at ho
        refine ⟨0, (x' 0).val, by norm_num, (x' 0).isLt, ?_, ?_⟩
        · show k0_off30 k 0 + 1 * (x' 0).val = _
          rw [ho]; omega
        · rw [hWdef]
          exact rowLaneB d L g fsp 1 fb hA g4 h4 g8r h8r ⟨16 * k.val + 0, hR0⟩ _ (by clear * - k hR0; revert k; decide +kernel)
            k0_pay1403 pay1403_toNatB k0_pay1405 pay1405_applyB k0_pay1406 pay1406_applyB _ _ _ _ _ _ _ _ _ _ _ _ _ _ _ _ _ x'
    · intro j h1 h2
      have hq : ((j 0).val - k.val % 2 * 256) / 16 < 16 := by omega
      obtain ⟨q, hqe⟩ : ∃ q, q = ((j 0).val - k.val % 2 * 256) / 16 := ⟨_, rfl⟩
      rw [← hqe] at hq
      interval_cases q
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
        exact mem_unit16B (k0_off30 k) (k0_off30_inb k) j (k.val % 2 * 256 + 0) (congrFun (k0_off30_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
        exact mem_unit16B (k0_off31 k) (k0_off31_inb k) j (k.val % 2 * 256 + 16) (congrFun (k0_off31_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
        exact mem_unit16B (k0_off32 k) (k0_off32_inb k) j (k.val % 2 * 256 + 32) (congrFun (k0_off32_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
        exact mem_unit16B (k0_off33 k) (k0_off33_inb k) j (k.val % 2 * 256 + 48) (congrFun (k0_off33_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
        exact mem_unit16B (k0_off34 k) (k0_off34_inb k) j (k.val % 2 * 256 + 64) (congrFun (k0_off34_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
        exact mem_unit16B (k0_off35 k) (k0_off35_inb k) j (k.val % 2 * 256 + 80) (congrFun (k0_off35_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        exact mem_unit16B (k0_off36 k) (k0_off36_inb k) j (k.val % 2 * 256 + 96) (congrFun (k0_off36_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        exact mem_unit16B (k0_off37 k) (k0_off37_inb k) j (k.val % 2 * 256 + 112) (congrFun (k0_off37_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_unit16B (k0_off38 k) (k0_off38_inb k) j (k.val % 2 * 256 + 128) (congrFun (k0_off38_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_unit16B (k0_off39 k) (k0_off39_inb k) j (k.val % 2 * 256 + 144) (congrFun (k0_off39_eq k) 0) (by omega) (by omega)
      · refine ⟨_, List.mem_cons_of_mem _ (List.mem_cons_of_mem _ (List.mem_cons_of_mem _ (List.mem_cons_of_mem _ (List.mem_cons_of_mem _ (List.mem_cons_self))))), ?_⟩
        exact mem_unit16B (k0_off40 k) (k0_off40_inb k) j (k.val % 2 * 256 + 160) (congrFun (k0_off40_eq k) 0) (by omega) (by omega)
      · refine ⟨_, List.mem_cons_of_mem _ (List.mem_cons_of_mem _ (List.mem_cons_of_mem _ (List.mem_cons_of_mem _ (List.mem_cons_self)))), ?_⟩
        exact mem_unit16B (k0_off41 k) (k0_off41_inb k) j (k.val % 2 * 256 + 176) (congrFun (k0_off41_eq k) 0) (by omega) (by omega)
      · refine ⟨_, List.mem_cons_of_mem _ (List.mem_cons_of_mem _ (List.mem_cons_of_mem _ (List.mem_cons_self))), ?_⟩
        exact mem_unit16B (k0_off42 k) (k0_off42_inb k) j (k.val % 2 * 256 + 192) (congrFun (k0_off42_eq k) 0) (by omega) (by omega)
      · refine ⟨_, List.mem_cons_of_mem _ (List.mem_cons_of_mem _ (List.mem_cons_self)), ?_⟩
        exact mem_unit16B (k0_off43 k) (k0_off43_inb k) j (k.val % 2 * 256 + 208) (congrFun (k0_off43_eq k) 0) (by omega) (by omega)
      · refine ⟨_, List.mem_cons_of_mem _ (List.mem_cons_self), ?_⟩
        exact mem_unit16B (k0_off44 k) (k0_off44_inb k) j (k.val % 2 * 256 + 224) (congrFun (k0_off44_eq k) 0) (by omega) (by omega)
      · refine ⟨_, List.mem_cons_self, ?_⟩
        exact mem_unit16B (k0_off45 k) (k0_off45_inb k) j (k.val % 2 * 256 + 240) (congrFun (k0_off45_eq k) 0) (by omega) (by omega)
  obtain ⟨Lp, hf, hG, hcov⟩ := hP
  refine rowOutGB g _ _ (x 0).val _ _ _ _ _ _ _ _ _ _ _ _ _ _ _ _ _ _ x ?_ ?_ ?_ ?_ ?_ ?_ ?_ ?_ ?_ ?_ ?_ ?_ ?_ ?_ ?_ ?_ ?_ ?_
  · rw [envGB d L fen ge hge (k0_off46 k) (k0_off46_inb k) x]
    refine congrArg (fun t => fen (ix1 (tileRow L t))) ?_
    funext a
    match a with
    | ⟨0, _⟩ =>
      refine Fin.ext ?_
      have ho := congrFun (k0_off46_eq k) 0
      simp only [Matrix.cons_val_zero] at ho
      show k0_off46 k 0 + (x 0).val = (y 0).val
      rw [ho, hy]; simp <;> omega
  · rfl
  · rw [hf.1, readbackLaneB d L g gr Lp (k.val % 2 * 256) W hG hcov _ _ x 0 (hidx0 k x)]
    exact congrArg (fun w => Cert.Sae.K.lane g w (((x 0).val + 0) % 16)) hW
  · rw [hf.2.1, readbackLaneB d L g gr Lp (k.val % 2 * 256) W hG hcov _ _ x 1 (hidx1 k x)]
    exact congrArg (fun w => Cert.Sae.K.lane g w (((x 0).val + 1) % 16)) hW
  · rw [hf.2.2.1, readbackLaneB d L g gr Lp (k.val % 2 * 256) W hG hcov _ _ x 2 (hidx2 k x)]
    exact congrArg (fun w => Cert.Sae.K.lane g w (((x 0).val + 2) % 16)) hW
  · rw [hf.2.2.2.1, readbackLaneB d L g gr Lp (k.val % 2 * 256) W hG hcov _ _ x 3 (hidx3 k x)]
    exact congrArg (fun w => Cert.Sae.K.lane g w (((x 0).val + 3) % 16)) hW
  · rw [hf.2.2.2.2.1, readbackLaneB d L g gr Lp (k.val % 2 * 256) W hG hcov _ _ x 4 (hidx4 k x)]
    exact congrArg (fun w => Cert.Sae.K.lane g w (((x 0).val + 4) % 16)) hW
  · rw [hf.2.2.2.2.2.1, readbackLaneB d L g gr Lp (k.val % 2 * 256) W hG hcov _ _ x 5 (hidx5 k x)]
    exact congrArg (fun w => Cert.Sae.K.lane g w (((x 0).val + 5) % 16)) hW
  · rw [hf.2.2.2.2.2.2.1, readbackLaneB d L g gr Lp (k.val % 2 * 256) W hG hcov _ _ x 6 (hidx6 k x)]
    exact congrArg (fun w => Cert.Sae.K.lane g w (((x 0).val + 6) % 16)) hW
  · rw [hf.2.2.2.2.2.2.2.1, readbackLaneB d L g gr Lp (k.val % 2 * 256) W hG hcov _ _ x 7 (hidx7 k x)]
    exact congrArg (fun w => Cert.Sae.K.lane g w (((x 0).val + 7) % 16)) hW
  · rw [hf.2.2.2.2.2.2.2.2.1, readbackLaneB d L g gr Lp (k.val % 2 * 256) W hG hcov _ _ x 8 (hidx8 k x)]
    exact congrArg (fun w => Cert.Sae.K.lane g w (((x 0).val + 8) % 16)) hW
  · rw [hf.2.2.2.2.2.2.2.2.2.1, readbackLaneB d L g gr Lp (k.val % 2 * 256) W hG hcov _ _ x 9 (hidx9 k x)]
    exact congrArg (fun w => Cert.Sae.K.lane g w (((x 0).val + 9) % 16)) hW
  · rw [hf.2.2.2.2.2.2.2.2.2.2.1, readbackLaneB d L g gr Lp (k.val % 2 * 256) W hG hcov _ _ x 10 (hidx10 k x)]
    exact congrArg (fun w => Cert.Sae.K.lane g w (((x 0).val + 10) % 16)) hW
  · rw [hf.2.2.2.2.2.2.2.2.2.2.2.1, readbackLaneB d L g gr Lp (k.val % 2 * 256) W hG hcov _ _ x 11 (hidx11 k x)]
    exact congrArg (fun w => Cert.Sae.K.lane g w (((x 0).val + 11) % 16)) hW
  · rw [hf.2.2.2.2.2.2.2.2.2.2.2.2.1, readbackLaneB d L g gr Lp (k.val % 2 * 256) W hG hcov _ _ x 12 (hidx12 k x)]
    exact congrArg (fun w => Cert.Sae.K.lane g w (((x 0).val + 12) % 16)) hW
  · rw [hf.2.2.2.2.2.2.2.2.2.2.2.2.2.1, readbackLaneB d L g gr Lp (k.val % 2 * 256) W hG hcov _ _ x 13 (hidx13 k x)]
    exact congrArg (fun w => Cert.Sae.K.lane g w (((x 0).val + 13) % 16)) hW
  · rw [hf.2.2.2.2.2.2.2.2.2.2.2.2.2.2.1, readbackLaneB d L g gr Lp (k.val % 2 * 256) W hG hcov _ _ x 14 (hidx14 k x)]
    exact congrArg (fun w => Cert.Sae.K.lane g w (((x 0).val + 14) % 16)) hW
  · rw [hf.2.2.2.2.2.2.2.2.2.2.2.2.2.2.2, readbackLaneB d L g gr Lp (k.val % 2 * 256) W hG hcov _ _ x 15 (hidx15 k x)]
    exact congrArg (fun w => Cert.Sae.K.lane g w (((x 0).val + 15) % 16)) hW

end Cert.Proof.KI

end
-- ==== Proof.KI.ValRegionT4.lean ====
/-
  One trip of chunk 2's row-group loop, with values: the run of the trip, then the output scratch's sixteen new
  entries read off the stores. Each of the sixteen rows' stored lane vectors is the closed form's lane value of its
  row (the gathered words are the species words of the chunk's row, the tables read their closed forms); the
  transposed read-back of step cc at lane x is row x's value at lane x + cc mod 16; so lane x of the stored result
  is the closed form of row x of the group, on its energy.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.KI.ValRows
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

local macro "sg_disch" k:ident h:ident ho:ident : tactic => `(tactic| first | sl_decide | ((try clear $ho); revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

theorem region_t4v (d : Dev nD) (L : grid0.Coords) (g : FVec F S8 .f32) (fen : Buf (Elt F) ((enW).view.loc (thr d L)))
    (fsp : Buf (Elt F) ((spW).view.loc (thr d L))) (hsp : ∀ j, (fsp j).toNat ≤ 6) (v2 : BitVec 32) (v624 : Vec F S16 .f32) :
    ∀ (k : Fin k0_t4_loop.trips) (acc : Unit), invAv (F := F) d L g fen fsp 2 k.val acc ⊢
      wp frame (wpE (defs₀ (F := F)) 𝒱₀ (thr d L) none) Set.univ
        (k0_t4_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invAv (F := F) d L g fen fsp 2 (k.val + 1)) := by
  intro k _
  unfold invAv
  iintro ⟨⟨%fb, Hb, %hA⟩, ⟨%g4, H4, %h4⟩, ⟨%g8r, H8r, %h8r⟩, ⟨%gr, Hr⟩, ⟨%ge, He, %hge⟩, ⟨%go, Hov, %hgo⟩⟩
  have hfb : ∀ j, ((bA).view.read (Elt F) fb j).toNat ≤ 6 := fun j => by
    obtain ⟨r, c, rfl⟩ : ∃ (r : Fin 128) (c : Fin 200), j = ix2 r c := ⟨j 0, j 1, eq_ix2 j⟩
    rw [hA r c]; exact hsp _
  sl_exec (disch := sg_disch k hfb hgo)
  repeat (iapply (wp_gather_bind 𝒱₀ (thr d L) none Set.univ); sl_exec (disch := sg_disch k hfb hgo))
  sl_step
  isplitl [Hb]
  · iexists fb; isplitl [Hb]
    · iexact Hb
    · ipureintro; exact hA
  isplitl [H4]
  · iexists g4; isplitl [H4]
    · iexact H4
    · ipureintro; exact h4
  isplitl [H8r]
  · iexists g8r; isplitl [H8r]
    · iexact H8r
    · ipureintro; exact h8r
  isplitl [Hr]; · iexists _; iexact Hr
  isplitl [He]
  · iexists ge; isplitl [He]
    · iexact He
    · ipureintro; exact hge
  iexists _; isplitl [Hov]
  · iexact Hov
  ipureintro
  have hk : k.val < 8 := k.isLt
  have hidx0 : ∀ (k' : Fin k0_t4_loop.trips) (x' : S16.Idx), (region_t4v.sl.v2273 k' x').toNat = k'.val % 2 * 256 + 16 * (x' 0).val + ((x' 0).val + 0) % 16 := by decide +kernel
  have hidx1 : ∀ (k' : Fin k0_t4_loop.trips) (x' : S16.Idx), (region_t4v.sl.v2282 k' x').toNat = k'.val % 2 * 256 + 16 * (x' 0).val + ((x' 0).val + 1) % 16 := by decide +kernel
  have hidx2 : ∀ (k' : Fin k0_t4_loop.trips) (x' : S16.Idx), (region_t4v.sl.v2291 k' x').toNat = k'.val % 2 * 256 + 16 * (x' 0).val + ((x' 0).val + 2) % 16 := by decide +kernel
  have hidx3 : ∀ (k' : Fin k0_t4_loop.trips) (x' : S16.Idx), (region_t4v.sl.r_113 k' x').toNat = k'.val % 2 * 256 + 16 * (x' 0).val + ((x' 0).val + 3) % 16 := by decide +kernel
  have hidx4 : ∀ (k' : Fin k0_t4_loop.trips) (x' : S16.Idx), (region_t4v.sl.v2309 k' x').toNat = k'.val % 2 * 256 + 16 * (x' 0).val + ((x' 0).val + 4) % 16 := by decide +kernel
  have hidx5 : ∀ (k' : Fin k0_t4_loop.trips) (x' : S16.Idx), (region_t4v.sl.v2318 k' x').toNat = k'.val % 2 * 256 + 16 * (x' 0).val + ((x' 0).val + 5) % 16 := by decide +kernel
  have hidx6 : ∀ (k' : Fin k0_t4_loop.trips) (x' : S16.Idx), (region_t4v.sl.v2327 k' x').toNat = k'.val % 2 * 256 + 16 * (x' 0).val + ((x' 0).val + 6) % 16 := by decide +kernel
  have hidx7 : ∀ (k' : Fin k0_t4_loop.trips) (x' : S16.Idx), (region_t4v.sl.v2336 k' x').toNat = k'.val % 2 * 256 + 16 * (x' 0).val + ((x' 0).val + 7) % 16 := by decide +kernel
  have hidx8 : ∀ (k' : Fin k0_t4_loop.trips) (x' : S16.Idx), (region_t4v.sl.r_116 k' x').toNat = k'.val % 2 * 256 + 16 * (x' 0).val + ((x' 0).val + 8) % 16 := by decide +kernel
  have hidx9 : ∀ (k' : Fin k0_t4_loop.trips) (x' : S16.Idx), (region_t4v.sl.v2354 k' x').toNat = k'.val % 2 * 256 + 16 * (x' 0).val + ((x' 0).val + 9) % 16 := by decide +kernel
  have hidx10 : ∀ (k' : Fin k0_t4_loop.trips) (x' : S16.Idx), (region_t4v.sl.v2363 k' x').toNat = k'.val % 2 * 256 + 16 * (x' 0).val + ((x' 0).val + 10) % 16 := by decide +kernel
  have hidx11 : ∀ (k' : Fin k0_t4_loop.trips) (x' : S16.Idx), (region_t4v.sl.v2372 k' x').toNat = k'.val % 2 * 256 + 16 * (x' 0).val + ((x' 0).val + 11) % 16 := by decide +kernel
  have hidx12 : ∀ (k' : Fin k0_t4_loop.trips) (x' : S16.Idx), (region_t4v.sl.v2381 k' x').toNat = k'.val % 2 * 256 + 16 * (x' 0).val + ((x' 0).val + 12) % 16 := by decide +kernel
  have hidx13 : ∀ (k' : Fin k0_t4_loop.trips) (x' : S16.Idx), (region_t4v.sl.r_119 k' x').toNat = k'.val % 2 * 256 + 16 * (x' 0).val + ((x' 0).val + 13) % 16 := by decide +kernel
  have hidx14 : ∀ (k' : Fin k0_t4_loop.trips) (x' : S16.Idx), (region_t4v.sl.v2399 k' x').toNat = k'.val % 2 * 256 + 16 * (x' 0).val + ((x' 0).val + 14) % 16 := by decide +kernel
  have hidx15 : ∀ (k' : Fin k0_t4_loop.trips) (x' : S16.Idx), (region_t4v.sl.v2408 k' x').toNat = k'.val % 2 * 256 + 16 * (x' 0).val + ((x' 0).val + 15) % 16 := by decide +kernel
  refine isOut_step d L g fen fsp (128 * (2 : Fin 4).val + 16 * k.val) (by simp <;> omega) (by simp <;> omega) go hgo _
    (by rw [k0_off65_eq]; exact congrArg (fun t : Nat => (![t] : Fin 1 → Nat)) (by simp <;> omega)) _ _ (fun x y hy => ?_)
  have hx : (x 0).val < 16 := (x 0).isLt
  have hR0 : 16 * k.val + 0 < 128 := by omega
  have hR1 : 16 * k.val + 1 < 128 := by omega
  have hR2 : 16 * k.val + 2 < 128 := by omega
  have hR3 : 16 * k.val + 3 < 128 := by omega
  have hR4 : 16 * k.val + 4 < 128 := by omega
  have hR5 : 16 * k.val + 5 < 128 := by omega
  have hR6 : 16 * k.val + 6 < 128 := by omega
  have hR7 : 16 * k.val + 7 < 128 := by omega
  have hR8 : 16 * k.val + 8 < 128 := by omega
  have hR9 : 16 * k.val + 9 < 128 := by omega
  have hR10 : 16 * k.val + 10 < 128 := by omega
  have hR11 : 16 * k.val + 11 < 128 := by omega
  have hR12 : 16 * k.val + 12 < 128 := by omega
  have hR13 : 16 * k.val + 13 < 128 := by omega
  have hR14 : 16 * k.val + 14 < 128 := by omega
  have hR15 : 16 * k.val + 15 < 128 := by omega
  obtain ⟨W, hWdef⟩ : ∃ W : Fin 16 → Nat → BitVec 32, W = (fun r : Fin 16 => rowW d L fsp 2 ⟨16 * k.val + r.val, by have := r.isLt; omega⟩) := ⟨_, rfl⟩
  have hW : W ⟨(x 0).val, (x 0).isLt⟩ = fun c => fsp (ix2 (tileRow L y) ⟨c % 200, Nat.mod_lt _ (by norm_num)⟩) := by
    rw [hWdef]
    funext c
    show fsp (ix2 (chunkRow L 2 ⟨16 * k.val + (x 0).val, _⟩) _) = _
    refine congrArg (fun t => fsp (ix2 t _)) (Fin.ext ?_)
    show 512 * wid L + 128 * (2 : Fin 4).val + (16 * k.val + (x 0).val) = 512 * wid L + (y 0).val
    rw [hy]; omega
  have hP : ∃ Lp, (region_t4v.sl.f d L k fb g4 g8r gr hfb = (red).view.readAt (Elt F) (LoadRect.whole S512) ((red).view.writes (Elt F) gr Lp)
        ∧ region_t4v.sl.f_1 d L k fb g4 g8r gr hfb = (red).view.readAt (Elt F) (LoadRect.whole S512) ((red).view.writes (Elt F) gr Lp)
        ∧ region_t4v.sl.f_2 d L k fb g4 g8r gr hfb = (red).view.readAt (Elt F) (LoadRect.whole S512) ((red).view.writes (Elt F) gr Lp)
        ∧ region_t4v.sl.f_3 d L k fb g4 g8r gr hfb = (red).view.readAt (Elt F) (LoadRect.whole S512) ((red).view.writes (Elt F) gr Lp)
        ∧ region_t4v.sl.f_4 d L k fb g4 g8r gr hfb = (red).view.readAt (Elt F) (LoadRect.whole S512) ((red).view.writes (Elt F) gr Lp)
        ∧ region_t4v.sl.f_5 d L k fb g4 g8r gr hfb = (red).view.readAt (Elt F) (LoadRect.whole S512) ((red).view.writes (Elt F) gr Lp)
        ∧ region_t4v.sl.f_6 d L k fb g4 g8r gr hfb = (red).view.readAt (Elt F) (LoadRect.whole S512) ((red).view.writes (Elt F) gr Lp)
        ∧ region_t4v.sl.f_7 d L k fb g4 g8r gr hfb = (red).view.readAt (Elt F) (LoadRect.whole S512) ((red).view.writes (Elt F) gr Lp)
        ∧ region_t4v.sl.f_8 d L k fb g4 g8r gr hfb = (red).view.readAt (Elt F) (LoadRect.whole S512) ((red).view.writes (Elt F) gr Lp)
        ∧ region_t4v.sl.f_9 d L k fb g4 g8r gr hfb = (red).view.readAt (Elt F) (LoadRect.whole S512) ((red).view.writes (Elt F) gr Lp)
        ∧ region_t4v.sl.f_10 d L k fb g4 g8r gr hfb = (red).view.readAt (Elt F) (LoadRect.whole S512) ((red).view.writes (Elt F) gr Lp)
        ∧ region_t4v.sl.f_11 d L k fb g4 g8r gr hfb = (red).view.readAt (Elt F) (LoadRect.whole S512) ((red).view.writes (Elt F) gr Lp)
        ∧ region_t4v.sl.f_12 d L k fb g4 g8r gr hfb = (red).view.readAt (Elt F) (LoadRect.whole S512) ((red).view.writes (Elt F) gr Lp)
        ∧ region_t4v.sl.f_13 d L k fb g4 g8r gr hfb = (red).view.readAt (Elt F) (LoadRect.whole S512) ((red).view.writes (Elt F) gr Lp)
        ∧ region_t4v.sl.f_14 d L k fb g4 g8r gr hfb = (red).view.readAt (Elt F) (LoadRect.whole S512) ((red).view.writes (Elt F) gr Lp)
        ∧ region_t4v.sl.f_15 d L k fb g4 g8r gr hfb = (red).view.readAt (Elt F) (LoadRect.whole S512) ((red).view.writes (Elt F) gr Lp))
      ∧ (∀ p ∈ Lp, ∀ x : p.1.shape.Idx, ∃ (r m : Nat) (hr : r < 16), m < 16 ∧ (p.1.emb x 0).val = k.val % 2 * 256 + 16 * r + m ∧
          p.2 x = Cert.Sae.K.lane g (W ⟨r, hr⟩) m)
      ∧ (∀ j : S512.Idx, k.val % 2 * 256 ≤ (j 0).val → (j 0).val < k.val % 2 * 256 + 256 → ∃ p ∈ Lp, j ∈ p.1.set) := by
    refine ⟨_, ⟨rfl, rfl, rfl, rfl, rfl, rfl, rfl, rfl, rfl, rfl, rfl, rfl, rfl, rfl, rfl, rfl⟩, ?_, ?_⟩
    · intro p hp x'
      simp only [List.mem_cons, List.not_mem_nil, _root_.or_false] at hp
      rcases hp with rfl | rfl | rfl | rfl | rfl | rfl | rfl | rfl | rfl | rfl | rfl | rfl | rfl | rfl | rfl | rfl
      · have ho := congrFun (k0_off63_eq k) 0
        simp only [Matrix.cons_val_zero] at ho
        refine ⟨15, (x' 0).val, by norm_num, (x' 0).isLt, ?_, ?_⟩
        · show k0_off63 k 0 + 1 * (x' 0).val = _
          rw [ho]; omega
        · rw [hWdef]
          exact rowLane d L g fsp 2 fb hA g4 h4 g8r h8r ⟨16 * k.val + 15, hR15⟩ _ (by clear * - k hR15; revert k; decide +kernel)
            k0_pay1403 pay1403_toNat k0_pay1405 pay1405_apply k0_pay1406 pay1406_apply _ _ _ _ _ _ _ _ _ _ _ _ _ _ _ _ _ x'
      · have ho := congrFun (k0_off62_eq k) 0
        simp only [Matrix.cons_val_zero] at ho
        refine ⟨14, (x' 0).val, by norm_num, (x' 0).isLt, ?_, ?_⟩
        · show k0_off62 k 0 + 1 * (x' 0).val = _
          rw [ho]; omega
        · rw [hWdef]
          exact rowLane d L g fsp 2 fb hA g4 h4 g8r h8r ⟨16 * k.val + 14, hR14⟩ _ (by clear * - k hR14; revert k; decide +kernel)
            k0_pay1403 pay1403_toNat k0_pay1405 pay1405_apply k0_pay1406 pay1406_apply _ _ _ _ _ _ _ _ _ _ _ _ _ _ _ _ _ x'
      · have ho := congrFun (k0_off61_eq k) 0
        simp only [Matrix.cons_val_zero] at ho
        refine ⟨13, (x' 0).val, by norm_num, (x' 0).isLt, ?_, ?_⟩
        · show k0_off61 k 0 + 1 * (x' 0).val = _
          rw [ho]; omega
        · rw [hWdef]
          exact rowLane d L g fsp 2 fb hA g4 h4 g8r h8r ⟨16 * k.val + 13, hR13⟩ _ (by clear * - k hR13; revert k; decide +kernel)
            k0_pay1403 pay1403_toNat k0_pay1405 pay1405_apply k0_pay1406 pay1406_apply _ _ _ _ _ _ _ _ _ _ _ _ _ _ _ _ _ x'
      · have ho := congrFun (k0_off60_eq k) 0
        simp only [Matrix.cons_val_zero] at ho
        refine ⟨12, (x' 0).val, by norm_num, (x' 0).isLt, ?_, ?_⟩
        · show k0_off60 k 0 + 1 * (x' 0).val = _
          rw [ho]; omega
        · rw [hWdef]
          exact rowLane d L g fsp 2 fb hA g4 h4 g8r h8r ⟨16 * k.val + 12, hR12⟩ _ (by clear * - k hR12; revert k; decide +kernel)
            k0_pay1403 pay1403_toNat k0_pay1405 pay1405_apply k0_pay1406 pay1406_apply _ _ _ _ _ _ _ _ _ _ _ _ _ _ _ _ _ x'
      · have ho := congrFun (k0_off59_eq k) 0
        simp only [Matrix.cons_val_zero] at ho
        refine ⟨11, (x' 0).val, by norm_num, (x' 0).isLt, ?_, ?_⟩
        · show k0_off59 k 0 + 1 * (x' 0).val = _
          rw [ho]; omega
        · rw [hWdef]
          exact rowLane d L g fsp 2 fb hA g4 h4 g8r h8r ⟨16 * k.val + 11, hR11⟩ _ (by clear * - k hR11; revert k; decide +kernel)
            k0_pay1403 pay1403_toNat k0_pay1405 pay1405_apply k0_pay1406 pay1406_apply _ _ _ _ _ _ _ _ _ _ _ _ _ _ _ _ _ x'
      · have ho := congrFun (k0_off58_eq k) 0
        simp only [Matrix.cons_val_zero] at ho
        refine ⟨10, (x' 0).val, by norm_num, (x' 0).isLt, ?_, ?_⟩
        · show k0_off58 k 0 + 1 * (x' 0).val = _
          rw [ho]; omega
        · rw [hWdef]
          exact rowLane d L g fsp 2 fb hA g4 h4 g8r h8r ⟨16 * k.val + 10, hR10⟩ _ (by clear * - k hR10; revert k; decide +kernel)
            k0_pay1403 pay1403_toNat k0_pay1405 pay1405_apply k0_pay1406 pay1406_apply _ _ _ _ _ _ _ _ _ _ _ _ _ _ _ _ _ x'
      · have ho := congrFun (k0_off57_eq k) 0
        simp only [Matrix.cons_val_zero] at ho
        refine ⟨9, (x' 0).val, by norm_num, (x' 0).isLt, ?_, ?_⟩
        · show k0_off57 k 0 + 1 * (x' 0).val = _
          rw [ho]; omega
        · rw [hWdef]
          exact rowLane d L g fsp 2 fb hA g4 h4 g8r h8r ⟨16 * k.val + 9, hR9⟩ _ (by clear * - k hR9; revert k; decide +kernel)
            k0_pay1403 pay1403_toNat k0_pay1405 pay1405_apply k0_pay1406 pay1406_apply _ _ _ _ _ _ _ _ _ _ _ _ _ _ _ _ _ x'
      · have ho := congrFun (k0_off56_eq k) 0
        simp only [Matrix.cons_val_zero] at ho
        refine ⟨8, (x' 0).val, by norm_num, (x' 0).isLt, ?_, ?_⟩
        · show k0_off56 k 0 + 1 * (x' 0).val = _
          rw [ho]; omega
        · rw [hWdef]
          exact rowLane d L g fsp 2 fb hA g4 h4 g8r h8r ⟨16 * k.val + 8, hR8⟩ _ (by clear * - k hR8; revert k; decide +kernel)
            k0_pay1403 pay1403_toNat k0_pay1405 pay1405_apply k0_pay1406 pay1406_apply _ _ _ _ _ _ _ _ _ _ _ _ _ _ _ _ _ x'
      · have ho := congrFun (k0_off55_eq k) 0
        simp only [Matrix.cons_val_zero] at ho
        refine ⟨7, (x' 0).val, by norm_num, (x' 0).isLt, ?_, ?_⟩
        · show k0_off55 k 0 + 1 * (x' 0).val = _
          rw [ho]; omega
        · rw [hWdef]
          exact rowLane d L g fsp 2 fb hA g4 h4 g8r h8r ⟨16 * k.val + 7, hR7⟩ _ (by clear * - k hR7; revert k; decide +kernel)
            k0_pay1403 pay1403_toNat k0_pay1405 pay1405_apply k0_pay1406 pay1406_apply _ _ _ _ _ _ _ _ _ _ _ _ _ _ _ _ _ x'
      · have ho := congrFun (k0_off54_eq k) 0
        simp only [Matrix.cons_val_zero] at ho
        refine ⟨6, (x' 0).val, by norm_num, (x' 0).isLt, ?_, ?_⟩
        · show k0_off54 k 0 + 1 * (x' 0).val = _
          rw [ho]; omega
        · rw [hWdef]
          exact rowLane d L g fsp 2 fb hA g4 h4 g8r h8r ⟨16 * k.val + 6, hR6⟩ _ (by clear * - k hR6; revert k; decide +kernel)
            k0_pay1403 pay1403_toNat k0_pay1405 pay1405_apply k0_pay1406 pay1406_apply _ _ _ _ _ _ _ _ _ _ _ _ _ _ _ _ _ x'
      · have ho := congrFun (k0_off53_eq k) 0
        simp only [Matrix.cons_val_zero] at ho
        refine ⟨5, (x' 0).val, by norm_num, (x' 0).isLt, ?_, ?_⟩
        · show k0_off53 k 0 + 1 * (x' 0).val = _
          rw [ho]; omega
        · rw [hWdef]
          exact rowLane d L g fsp 2 fb hA g4 h4 g8r h8r ⟨16 * k.val + 5, hR5⟩ _ (by clear * - k hR5; revert k; decide +kernel)
            k0_pay1403 pay1403_toNat k0_pay1405 pay1405_apply k0_pay1406 pay1406_apply _ _ _ _ _ _ _ _ _ _ _ _ _ _ _ _ _ x'
      · have ho := congrFun (k0_off52_eq k) 0
        simp only [Matrix.cons_val_zero] at ho
        refine ⟨4, (x' 0).val, by norm_num, (x' 0).isLt, ?_, ?_⟩
        · show k0_off52 k 0 + 1 * (x' 0).val = _
          rw [ho]; omega
        · rw [hWdef]
          exact rowLane d L g fsp 2 fb hA g4 h4 g8r h8r ⟨16 * k.val + 4, hR4⟩ _ (by clear * - k hR4; revert k; decide +kernel)
            k0_pay1403 pay1403_toNat k0_pay1405 pay1405_apply k0_pay1406 pay1406_apply _ _ _ _ _ _ _ _ _ _ _ _ _ _ _ _ _ x'
      · have ho := congrFun (k0_off51_eq k) 0
        simp only [Matrix.cons_val_zero] at ho
        refine ⟨3, (x' 0).val, by norm_num, (x' 0).isLt, ?_, ?_⟩
        · show k0_off51 k 0 + 1 * (x' 0).val = _
          rw [ho]; omega
        · rw [hWdef]
          exact rowLane d L g fsp 2 fb hA g4 h4 g8r h8r ⟨16 * k.val + 3, hR3⟩ _ (by clear * - k hR3; revert k; decide +kernel)
            k0_pay1403 pay1403_toNat k0_pay1405 pay1405_apply k0_pay1406 pay1406_apply _ _ _ _ _ _ _ _ _ _ _ _ _ _ _ _ _ x'
      · have ho := congrFun (k0_off50_eq k) 0
        simp only [Matrix.cons_val_zero] at ho
        refine ⟨2, (x' 0).val, by norm_num, (x' 0).isLt, ?_, ?_⟩
        · show k0_off50 k 0 + 1 * (x' 0).val = _
          rw [ho]; omega
        · rw [hWdef]
          exact rowLane d L g fsp 2 fb hA g4 h4 g8r h8r ⟨16 * k.val + 2, hR2⟩ _ (by clear * - k hR2; revert k; decide +kernel)
            k0_pay1403 pay1403_toNat k0_pay1405 pay1405_apply k0_pay1406 pay1406_apply _ _ _ _ _ _ _ _ _ _ _ _ _ _ _ _ _ x'
      · have ho := congrFun (k0_off49_eq k) 0
        simp only [Matrix.cons_val_zero] at ho
        refine ⟨1, (x' 0).val, by norm_num, (x' 0).isLt, ?_, ?_⟩
        · show k0_off49 k 0 + 1 * (x' 0).val = _
          rw [ho]; omega
        · rw [hWdef]
          exact rowLane d L g fsp 2 fb hA g4 h4 g8r h8r ⟨16 * k.val + 1, hR1⟩ _ (by clear * - k hR1; revert k; decide +kernel)
            k0_pay1403 pay1403_toNat k0_pay1405 pay1405_apply k0_pay1406 pay1406_apply _ _ _ _ _ _ _ _ _ _ _ _ _ _ _ _ _ x'
      · have ho := congrFun (k0_off48_eq k) 0
        simp only [Matrix.cons_val_zero] at ho
        refine ⟨0, (x' 0).val, by norm_num, (x' 0).isLt, ?_, ?_⟩
        · show k0_off48 k 0 + 1 * (x' 0).val = _
          rw [ho]; omega
        · rw [hWdef]
          exact rowLane d L g fsp 2 fb hA g4 h4 g8r h8r ⟨16 * k.val + 0, hR0⟩ _ (by clear * - k hR0; revert k; decide +kernel)
            k0_pay1403 pay1403_toNat k0_pay1405 pay1405_apply k0_pay1406 pay1406_apply _ _ _ _ _ _ _ _ _ _ _ _ _ _ _ _ _ x'
    · intro j h1 h2
      have hq : ((j 0).val - k.val % 2 * 256) / 16 < 16 := by omega
      obtain ⟨q, hqe⟩ : ∃ q, q = ((j 0).val - k.val % 2 * 256) / 16 := ⟨_, rfl⟩
      rw [← hqe] at hq
      interval_cases q
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
        exact mem_unit16 (k0_off48 k) (k0_off48_inb k) j (k.val % 2 * 256 + 0) (congrFun (k0_off48_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
        exact mem_unit16 (k0_off49 k) (k0_off49_inb k) j (k.val % 2 * 256 + 16) (congrFun (k0_off49_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
        exact mem_unit16 (k0_off50 k) (k0_off50_inb k) j (k.val % 2 * 256 + 32) (congrFun (k0_off50_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
        exact mem_unit16 (k0_off51 k) (k0_off51_inb k) j (k.val % 2 * 256 + 48) (congrFun (k0_off51_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
        exact mem_unit16 (k0_off52 k) (k0_off52_inb k) j (k.val % 2 * 256 + 64) (congrFun (k0_off52_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
        exact mem_unit16 (k0_off53 k) (k0_off53_inb k) j (k.val % 2 * 256 + 80) (congrFun (k0_off53_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        exact mem_unit16 (k0_off54 k) (k0_off54_inb k) j (k.val % 2 * 256 + 96) (congrFun (k0_off54_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        exact mem_unit16 (k0_off55 k) (k0_off55_inb k) j (k.val % 2 * 256 + 112) (congrFun (k0_off55_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_unit16 (k0_off56 k) (k0_off56_inb k) j (k.val % 2 * 256 + 128) (congrFun (k0_off56_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_unit16 (k0_off57 k) (k0_off57_inb k) j (k.val % 2 * 256 + 144) (congrFun (k0_off57_eq k) 0) (by omega) (by omega)
      · refine ⟨_, List.mem_cons_of_mem _ (List.mem_cons_of_mem _ (List.mem_cons_of_mem _ (List.mem_cons_of_mem _ (List.mem_cons_of_mem _ (List.mem_cons_self))))), ?_⟩
        exact mem_unit16 (k0_off58 k) (k0_off58_inb k) j (k.val % 2 * 256 + 160) (congrFun (k0_off58_eq k) 0) (by omega) (by omega)
      · refine ⟨_, List.mem_cons_of_mem _ (List.mem_cons_of_mem _ (List.mem_cons_of_mem _ (List.mem_cons_of_mem _ (List.mem_cons_self)))), ?_⟩
        exact mem_unit16 (k0_off59 k) (k0_off59_inb k) j (k.val % 2 * 256 + 176) (congrFun (k0_off59_eq k) 0) (by omega) (by omega)
      · refine ⟨_, List.mem_cons_of_mem _ (List.mem_cons_of_mem _ (List.mem_cons_of_mem _ (List.mem_cons_self))), ?_⟩
        exact mem_unit16 (k0_off60 k) (k0_off60_inb k) j (k.val % 2 * 256 + 192) (congrFun (k0_off60_eq k) 0) (by omega) (by omega)
      · refine ⟨_, List.mem_cons_of_mem _ (List.mem_cons_of_mem _ (List.mem_cons_self)), ?_⟩
        exact mem_unit16 (k0_off61 k) (k0_off61_inb k) j (k.val % 2 * 256 + 208) (congrFun (k0_off61_eq k) 0) (by omega) (by omega)
      · refine ⟨_, List.mem_cons_of_mem _ (List.mem_cons_self), ?_⟩
        exact mem_unit16 (k0_off62 k) (k0_off62_inb k) j (k.val % 2 * 256 + 224) (congrFun (k0_off62_eq k) 0) (by omega) (by omega)
      · refine ⟨_, List.mem_cons_self, ?_⟩
        exact mem_unit16 (k0_off63 k) (k0_off63_inb k) j (k.val % 2 * 256 + 240) (congrFun (k0_off63_eq k) 0) (by omega) (by omega)
  obtain ⟨Lp, hf, hG, hcov⟩ := hP
  refine rowOutG g _ _ (x 0).val _ _ _ _ _ _ _ _ _ _ _ _ _ _ _ _ _ _ x ?_ ?_ ?_ ?_ ?_ ?_ ?_ ?_ ?_ ?_ ?_ ?_ ?_ ?_ ?_ ?_ ?_ ?_
  · rw [envG d L fen ge hge (k0_off64 k) (k0_off64_inb k) x]
    refine congrArg (fun t => fen (ix1 (tileRow L t))) ?_
    funext a
    match a with
    | ⟨0, _⟩ =>
      refine Fin.ext ?_
      have ho := congrFun (k0_off64_eq k) 0
      simp only [Matrix.cons_val_zero] at ho
      show k0_off64 k 0 + (x 0).val = (y 0).val
      rw [ho, hy]; simp <;> omega
  · rfl
  · rw [hf.1, readbackLane d L g gr Lp (k.val % 2 * 256) W hG hcov _ _ x 0 (hidx0 k x)]
    exact congrArg (fun w => Cert.Sae.K.lane g w (((x 0).val + 0) % 16)) hW
  · rw [hf.2.1, readbackLane d L g gr Lp (k.val % 2 * 256) W hG hcov _ _ x 1 (hidx1 k x)]
    exact congrArg (fun w => Cert.Sae.K.lane g w (((x 0).val + 1) % 16)) hW
  · rw [hf.2.2.1, readbackLane d L g gr Lp (k.val % 2 * 256) W hG hcov _ _ x 2 (hidx2 k x)]
    exact congrArg (fun w => Cert.Sae.K.lane g w (((x 0).val + 2) % 16)) hW
  · rw [hf.2.2.2.1, readbackLane d L g gr Lp (k.val % 2 * 256) W hG hcov _ _ x 3 (hidx3 k x)]
    exact congrArg (fun w => Cert.Sae.K.lane g w (((x 0).val + 3) % 16)) hW
  · rw [hf.2.2.2.2.1, readbackLane d L g gr Lp (k.val % 2 * 256) W hG hcov _ _ x 4 (hidx4 k x)]
    exact congrArg (fun w => Cert.Sae.K.lane g w (((x 0).val + 4) % 16)) hW
  · rw [hf.2.2.2.2.2.1, readbackLane d L g gr Lp (k.val % 2 * 256) W hG hcov _ _ x 5 (hidx5 k x)]
    exact congrArg (fun w => Cert.Sae.K.lane g w (((x 0).val + 5) % 16)) hW
  · rw [hf.2.2.2.2.2.2.1, readbackLane d L g gr Lp (k.val % 2 * 256) W hG hcov _ _ x 6 (hidx6 k x)]
    exact congrArg (fun w => Cert.Sae.K.lane g w (((x 0).val + 6) % 16)) hW
  · rw [hf.2.2.2.2.2.2.2.1, readbackLane d L g gr Lp (k.val % 2 * 256) W hG hcov _ _ x 7 (hidx7 k x)]
    exact congrArg (fun w => Cert.Sae.K.lane g w (((x 0).val + 7) % 16)) hW
  · rw [hf.2.2.2.2.2.2.2.2.1, readbackLane d L g gr Lp (k.val % 2 * 256) W hG hcov _ _ x 8 (hidx8 k x)]
    exact congrArg (fun w => Cert.Sae.K.lane g w (((x 0).val + 8) % 16)) hW
  · rw [hf.2.2.2.2.2.2.2.2.2.1, readbackLane d L g gr Lp (k.val % 2 * 256) W hG hcov _ _ x 9 (hidx9 k x)]
    exact congrArg (fun w => Cert.Sae.K.lane g w (((x 0).val + 9) % 16)) hW
  · rw [hf.2.2.2.2.2.2.2.2.2.2.1, readbackLane d L g gr Lp (k.val % 2 * 256) W hG hcov _ _ x 10 (hidx10 k x)]
    exact congrArg (fun w => Cert.Sae.K.lane g w (((x 0).val + 10) % 16)) hW
  · rw [hf.2.2.2.2.2.2.2.2.2.2.2.1, readbackLane d L g gr Lp (k.val % 2 * 256) W hG hcov _ _ x 11 (hidx11 k x)]
    exact congrArg (fun w => Cert.Sae.K.lane g w (((x 0).val + 11) % 16)) hW
  · rw [hf.2.2.2.2.2.2.2.2.2.2.2.2.1, readbackLane d L g gr Lp (k.val % 2 * 256) W hG hcov _ _ x 12 (hidx12 k x)]
    exact congrArg (fun w => Cert.Sae.K.lane g w (((x 0).val + 12) % 16)) hW
  · rw [hf.2.2.2.2.2.2.2.2.2.2.2.2.2.1, readbackLane d L g gr Lp (k.val % 2 * 256) W hG hcov _ _ x 13 (hidx13 k x)]
    exact congrArg (fun w => Cert.Sae.K.lane g w (((x 0).val + 13) % 16)) hW
  · rw [hf.2.2.2.2.2.2.2.2.2.2.2.2.2.2.1, readbackLane d L g gr Lp (k.val % 2 * 256) W hG hcov _ _ x 14 (hidx14 k x)]
    exact congrArg (fun w => Cert.Sae.K.lane g w (((x 0).val + 14) % 16)) hW
  · rw [hf.2.2.2.2.2.2.2.2.2.2.2.2.2.2.2, readbackLane d L g gr Lp (k.val % 2 * 256) W hG hcov _ _ x 15 (hidx15 k x)]
    exact congrArg (fun w => Cert.Sae.K.lane g w (((x 0).val + 15) % 16)) hW

end Cert.Proof.KI

end
-- ==== Proof.KI.ValRegionT5.lean ====
/-
  One trip of chunk 3's row-group loop, with values: the run of the trip, then the output scratch's sixteen new
  entries read off the stores. Each of the sixteen rows' stored lane vectors is the closed form's lane value of its
  row (the gathered words are the species words of the chunk's row, the tables read their closed forms); the
  transposed read-back of step cc at lane x is row x's value at lane x + cc mod 16; so lane x of the stored result
  is the closed form of row x of the group, on its energy.
-/
import proofs.«206987_g17583596110038_cont_8to1_771_12_alg».proof.Proof.KI.Base
import proofs.«206987_g17583596110038_cont_8to1_771_12_alg».proof.Proof.KI.ValInv
import proofs.«206987_g17583596110038_cont_8to1_771_12_alg».proof.Proof.KI.ValRowsB
import proofs.«206987_g17583596110038_cont_8to1_771_12_alg».proof.Proof.LibWordIdx
import proofs.«206987_g17583596110038_cont_8to1_771_12_alg».proof.Proof.KI.Offs

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

local macro "sg_disch" k:ident h:ident : tactic => `(tactic| first | sl_decide | (revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

local macro "sg_disch" k:ident h:ident ho:ident : tactic => `(tactic| first | sl_decide | ((try clear $ho); revert $k; decide +kernel) | sl_exact (Cert.Lib.pack4_ok _ _ _ _ (Cert.Lib.gather_le _ _ 6 $h _ _) (Cert.Lib.gather_le _ _ 6 $h _ _) (Cert.Lib.gather_le _ _ 6 $h _ _) (Cert.Lib.gather_le _ _ 6 $h _ _)) | sl_exact (Cert.Lib.lane17_ok _ _))

theorem region_t5v (d : Dev nD) (L : grid0.Coords) (g : FVec F S8 .f32) (fen : Buf (Elt F) ((enW).view.loc (thr d L)))
    (fsp : Buf (Elt F) ((spW).view.loc (thr d L))) (hsp : ∀ j, (fsp j).toNat ≤ 6) :
    ∀ (k : Fin k0_t5_loop.trips) (acc : Unit), invBv (F := F) d L g fen fsp 3 k.val acc ⊢
      wp frame (wpE (defs₀ (F := F)) 𝒱₀ (thr d L) none) Set.univ
        (k0_t5_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            (iota .scVector S16 32 [0] iota_S16_d0_w32_scVector) k0_pay1403 k0_pay1404 k0_pay1405 (k0_pay1406 (F := F)) k acc)
        (invBv (F := F) d L g fen fsp 3 (k.val + 1)) := by
  intro k _
  unfold invBv
  iintro ⟨⟨%fb, Hb, %hA⟩, ⟨%g4, H4, %h4⟩, ⟨%g8r, H8r, %h8r⟩, ⟨%gr, Hr⟩, ⟨%ge, He, %hge⟩, ⟨%go, Hov, %hgo⟩⟩
  have hfb : ∀ j, ((bB).view.read (Elt F) fb j).toNat ≤ 6 := fun j => by
    obtain ⟨r, c, rfl⟩ : ∃ (r : Fin 128) (c : Fin 200), j = ix2 r c := ⟨j 0, j 1, eq_ix2 j⟩
    rw [hA r c]; exact hsp _
  sl_exec (disch := sg_disch k hfb hgo)
  repeat (iapply (wp_gather_bind 𝒱₀ (thr d L) none Set.univ); sl_exec (disch := sg_disch k hfb hgo))
  sl_step
  isplitl [Hb]
  · iexists fb; isplitl [Hb]
    · iexact Hb
    · ipureintro; exact hA
  isplitl [H4]
  · iexists g4; isplitl [H4]
    · iexact H4
    · ipureintro; exact h4
  isplitl [H8r]
  · iexists g8r; isplitl [H8r]
    · iexact H8r
    · ipureintro; exact h8r
  isplitl [Hr]; · iexists _; iexact Hr
  isplitl [He]
  · iexists ge; isplitl [He]
    · iexact He
    · ipureintro; exact hge
  iexists _; isplitl [Hov]
  · iexact Hov
  ipureintro
  have hk : k.val < 8 := k.isLt
  have hidx0 : ∀ (k' : Fin k0_t5_loop.trips) (x' : S16.Idx), (region_t5v.sl.v2273 k' x').toNat = k'.val % 2 * 256 + 16 * (x' 0).val + ((x' 0).val + 0) % 16 := by decide +kernel
  have hidx1 : ∀ (k' : Fin k0_t5_loop.trips) (x' : S16.Idx), (region_t5v.sl.v2282 k' x').toNat = k'.val % 2 * 256 + 16 * (x' 0).val + ((x' 0).val + 1) % 16 := by decide +kernel
  have hidx2 : ∀ (k' : Fin k0_t5_loop.trips) (x' : S16.Idx), (region_t5v.sl.v2291 k' x').toNat = k'.val % 2 * 256 + 16 * (x' 0).val + ((x' 0).val + 2) % 16 := by decide +kernel
  have hidx3 : ∀ (k' : Fin k0_t5_loop.trips) (x' : S16.Idx), (region_t5v.sl.r_113 k' x').toNat = k'.val % 2 * 256 + 16 * (x' 0).val + ((x' 0).val + 3) % 16 := by decide +kernel
  have hidx4 : ∀ (k' : Fin k0_t5_loop.trips) (x' : S16.Idx), (region_t5v.sl.v2309 k' x').toNat = k'.val % 2 * 256 + 16 * (x' 0).val + ((x' 0).val + 4) % 16 := by decide +kernel
  have hidx5 : ∀ (k' : Fin k0_t5_loop.trips) (x' : S16.Idx), (region_t5v.sl.v2318 k' x').toNat = k'.val % 2 * 256 + 16 * (x' 0).val + ((x' 0).val + 5) % 16 := by decide +kernel
  have hidx6 : ∀ (k' : Fin k0_t5_loop.trips) (x' : S16.Idx), (region_t5v.sl.v2327 k' x').toNat = k'.val % 2 * 256 + 16 * (x' 0).val + ((x' 0).val + 6) % 16 := by decide +kernel
  have hidx7 : ∀ (k' : Fin k0_t5_loop.trips) (x' : S16.Idx), (region_t5v.sl.v2336 k' x').toNat = k'.val % 2 * 256 + 16 * (x' 0).val + ((x' 0).val + 7) % 16 := by decide +kernel
  have hidx8 : ∀ (k' : Fin k0_t5_loop.trips) (x' : S16.Idx), (region_t5v.sl.r_116 k' x').toNat = k'.val % 2 * 256 + 16 * (x' 0).val + ((x' 0).val + 8) % 16 := by decide +kernel
  have hidx9 : ∀ (k' : Fin k0_t5_loop.trips) (x' : S16.Idx), (region_t5v.sl.v2354 k' x').toNat = k'.val % 2 * 256 + 16 * (x' 0).val + ((x' 0).val + 9) % 16 := by decide +kernel
  have hidx10 : ∀ (k' : Fin k0_t5_loop.trips) (x' : S16.Idx), (region_t5v.sl.v2363 k' x').toNat = k'.val % 2 * 256 + 16 * (x' 0).val + ((x' 0).val + 10) % 16 := by decide +kernel
  have hidx11 : ∀ (k' : Fin k0_t5_loop.trips) (x' : S16.Idx), (region_t5v.sl.v2372 k' x').toNat = k'.val % 2 * 256 + 16 * (x' 0).val + ((x' 0).val + 11) % 16 := by decide +kernel
  have hidx12 : ∀ (k' : Fin k0_t5_loop.trips) (x' : S16.Idx), (region_t5v.sl.v2381 k' x').toNat = k'.val % 2 * 256 + 16 * (x' 0).val + ((x' 0).val + 12) % 16 := by decide +kernel
  have hidx13 : ∀ (k' : Fin k0_t5_loop.trips) (x' : S16.Idx), (region_t5v.sl.r_119 k' x').toNat = k'.val % 2 * 256 + 16 * (x' 0).val + ((x' 0).val + 13) % 16 := by decide +kernel
  have hidx14 : ∀ (k' : Fin k0_t5_loop.trips) (x' : S16.Idx), (region_t5v.sl.v2399 k' x').toNat = k'.val % 2 * 256 + 16 * (x' 0).val + ((x' 0).val + 14) % 16 := by decide +kernel
  have hidx15 : ∀ (k' : Fin k0_t5_loop.trips) (x' : S16.Idx), (region_t5v.sl.v2408 k' x').toNat = k'.val % 2 * 256 + 16 * (x' 0).val + ((x' 0).val + 15) % 16 := by decide +kernel
  refine isOut_stepB d L g fen fsp (128 * (3 : Fin 4).val + 16 * k.val) (by simp <;> omega) (by simp <;> omega) go hgo _
    (by rw [k0_off83_eq]; exact congrArg (fun t : Nat => (![t] : Fin 1 → Nat)) (by simp <;> omega)) _ _ (fun x y hy => ?_)
  have hx : (x 0).val < 16 := (x 0).isLt
  have hR0 : 16 * k.val + 0 < 128 := by omega
  have hR1 : 16 * k.val + 1 < 128 := by omega
  have hR2 : 16 * k.val + 2 < 128 := by omega
  have hR3 : 16 * k.val + 3 < 128 := by omega
  have hR4 : 16 * k.val + 4 < 128 := by omega
  have hR5 : 16 * k.val + 5 < 128 := by omega
  have hR6 : 16 * k.val + 6 < 128 := by omega
  have hR7 : 16 * k.val + 7 < 128 := by omega
  have hR8 : 16 * k.val + 8 < 128 := by omega
  have hR9 : 16 * k.val + 9 < 128 := by omega
  have hR10 : 16 * k.val + 10 < 128 := by omega
  have hR11 : 16 * k.val + 11 < 128 := by omega
  have hR12 : 16 * k.val + 12 < 128 := by omega
  have hR13 : 16 * k.val + 13 < 128 := by omega
  have hR14 : 16 * k.val + 14 < 128 := by omega
  have hR15 : 16 * k.val + 15 < 128 := by omega
  obtain ⟨W, hWdef⟩ : ∃ W : Fin 16 → Nat → BitVec 32, W = (fun r : Fin 16 => rowWB d L fsp 3 ⟨16 * k.val + r.val, by have := r.isLt; omega⟩) := ⟨_, rfl⟩
  have hW : W ⟨(x 0).val, (x 0).isLt⟩ = fun c => fsp (ix2 (tileRow L y) ⟨c % 200, Nat.mod_lt _ (by norm_num)⟩) := by
    rw [hWdef]
    funext c
    show fsp (ix2 (chunkRow L 3 ⟨16 * k.val + (x 0).val, _⟩) _) = _
    refine congrArg (fun t => fsp (ix2 t _)) (Fin.ext ?_)
    show 512 * wid L + 128 * (3 : Fin 4).val + (16 * k.val + (x 0).val) = 512 * wid L + (y 0).val
    rw [hy]; omega
  have hP : ∃ Lp, (region_t5v.sl.f d L k fb g4 g8r gr hfb = (red).view.readAt (Elt F) (LoadRect.whole S512) ((red).view.writes (Elt F) gr Lp)
        ∧ region_t5v.sl.f_1 d L k fb g4 g8r gr hfb = (red).view.readAt (Elt F) (LoadRect.whole S512) ((red).view.writes (Elt F) gr Lp)
        ∧ region_t5v.sl.f_2 d L k fb g4 g8r gr hfb = (red).view.readAt (Elt F) (LoadRect.whole S512) ((red).view.writes (Elt F) gr Lp)
        ∧ region_t5v.sl.f_3 d L k fb g4 g8r gr hfb = (red).view.readAt (Elt F) (LoadRect.whole S512) ((red).view.writes (Elt F) gr Lp)
        ∧ region_t5v.sl.f_4 d L k fb g4 g8r gr hfb = (red).view.readAt (Elt F) (LoadRect.whole S512) ((red).view.writes (Elt F) gr Lp)
        ∧ region_t5v.sl.f_5 d L k fb g4 g8r gr hfb = (red).view.readAt (Elt F) (LoadRect.whole S512) ((red).view.writes (Elt F) gr Lp)
        ∧ region_t5v.sl.f_6 d L k fb g4 g8r gr hfb = (red).view.readAt (Elt F) (LoadRect.whole S512) ((red).view.writes (Elt F) gr Lp)
        ∧ region_t5v.sl.f_7 d L k fb g4 g8r gr hfb = (red).view.readAt (Elt F) (LoadRect.whole S512) ((red).view.writes (Elt F) gr Lp)
        ∧ region_t5v.sl.f_8 d L k fb g4 g8r gr hfb = (red).view.readAt (Elt F) (LoadRect.whole S512) ((red).view.writes (Elt F) gr Lp)
        ∧ region_t5v.sl.f_9 d L k fb g4 g8r gr hfb = (red).view.readAt (Elt F) (LoadRect.whole S512) ((red).view.writes (Elt F) gr Lp)
        ∧ region_t5v.sl.f_10 d L k fb g4 g8r gr hfb = (red).view.readAt (Elt F) (LoadRect.whole S512) ((red).view.writes (Elt F) gr Lp)
        ∧ region_t5v.sl.f_11 d L k fb g4 g8r gr hfb = (red).view.readAt (Elt F) (LoadRect.whole S512) ((red).view.writes (Elt F) gr Lp)
        ∧ region_t5v.sl.f_12 d L k fb g4 g8r gr hfb = (red).view.readAt (Elt F) (LoadRect.whole S512) ((red).view.writes (Elt F) gr Lp)
        ∧ region_t5v.sl.f_13 d L k fb g4 g8r gr hfb = (red).view.readAt (Elt F) (LoadRect.whole S512) ((red).view.writes (Elt F) gr Lp)
        ∧ region_t5v.sl.f_14 d L k fb g4 g8r gr hfb = (red).view.readAt (Elt F) (LoadRect.whole S512) ((red).view.writes (Elt F) gr Lp)
        ∧ region_t5v.sl.f_15 d L k fb g4 g8r gr hfb = (red).view.readAt (Elt F) (LoadRect.whole S512) ((red).view.writes (Elt F) gr Lp))
      ∧ (∀ p ∈ Lp, ∀ x : p.1.shape.Idx, ∃ (r m : Nat) (hr : r < 16), m < 16 ∧ (p.1.emb x 0).val = k.val % 2 * 256 + 16 * r + m ∧
          p.2 x = Cert.Sae.K.lane g (W ⟨r, hr⟩) m)
      ∧ (∀ j : S512.Idx, k.val % 2 * 256 ≤ (j 0).val → (j 0).val < k.val % 2 * 256 + 256 → ∃ p ∈ Lp, j ∈ p.1.set) := by
    refine ⟨_, ⟨rfl, rfl, rfl, rfl, rfl, rfl, rfl, rfl, rfl, rfl, rfl, rfl, rfl, rfl, rfl, rfl⟩, ?_, ?_⟩
    · intro p hp x'
      simp only [List.mem_cons, List.not_mem_nil, _root_.or_false] at hp
      rcases hp with rfl | rfl | rfl | rfl | rfl | rfl | rfl | rfl | rfl | rfl | rfl | rfl | rfl | rfl | rfl | rfl
      · have ho := congrFun (k0_off81_eq k) 0
        simp only [Matrix.cons_val_zero] at ho
        refine ⟨15, (x' 0).val, by norm_num, (x' 0).isLt, ?_, ?_⟩
        · show k0_off81 k 0 + 1 * (x' 0).val = _
          rw [ho]; omega
        · rw [hWdef]
          exact rowLaneB d L g fsp 3 fb hA g4 h4 g8r h8r ⟨16 * k.val + 15, hR15⟩ _ (by clear * - k hR15; revert k; decide +kernel)
            k0_pay1403 pay1403_toNatB k0_pay1405 pay1405_applyB k0_pay1406 pay1406_applyB _ _ _ _ _ _ _ _ _ _ _ _ _ _ _ _ _ x'
      · have ho := congrFun (k0_off80_eq k) 0
        simp only [Matrix.cons_val_zero] at ho
        refine ⟨14, (x' 0).val, by norm_num, (x' 0).isLt, ?_, ?_⟩
        · show k0_off80 k 0 + 1 * (x' 0).val = _
          rw [ho]; omega
        · rw [hWdef]
          exact rowLaneB d L g fsp 3 fb hA g4 h4 g8r h8r ⟨16 * k.val + 14, hR14⟩ _ (by clear * - k hR14; revert k; decide +kernel)
            k0_pay1403 pay1403_toNatB k0_pay1405 pay1405_applyB k0_pay1406 pay1406_applyB _ _ _ _ _ _ _ _ _ _ _ _ _ _ _ _ _ x'
      · have ho := congrFun (k0_off79_eq k) 0
        simp only [Matrix.cons_val_zero] at ho
        refine ⟨13, (x' 0).val, by norm_num, (x' 0).isLt, ?_, ?_⟩
        · show k0_off79 k 0 + 1 * (x' 0).val = _
          rw [ho]; omega
        · rw [hWdef]
          exact rowLaneB d L g fsp 3 fb hA g4 h4 g8r h8r ⟨16 * k.val + 13, hR13⟩ _ (by clear * - k hR13; revert k; decide +kernel)
            k0_pay1403 pay1403_toNatB k0_pay1405 pay1405_applyB k0_pay1406 pay1406_applyB _ _ _ _ _ _ _ _ _ _ _ _ _ _ _ _ _ x'
      · have ho := congrFun (k0_off78_eq k) 0
        simp only [Matrix.cons_val_zero] at ho
        refine ⟨12, (x' 0).val, by norm_num, (x' 0).isLt, ?_, ?_⟩
        · show k0_off78 k 0 + 1 * (x' 0).val = _
          rw [ho]; omega
        · rw [hWdef]
          exact rowLaneB d L g fsp 3 fb hA g4 h4 g8r h8r ⟨16 * k.val + 12, hR12⟩ _ (by clear * - k hR12; revert k; decide +kernel)
            k0_pay1403 pay1403_toNatB k0_pay1405 pay1405_applyB k0_pay1406 pay1406_applyB _ _ _ _ _ _ _ _ _ _ _ _ _ _ _ _ _ x'
      · have ho := congrFun (k0_off77_eq k) 0
        simp only [Matrix.cons_val_zero] at ho
        refine ⟨11, (x' 0).val, by norm_num, (x' 0).isLt, ?_, ?_⟩
        · show k0_off77 k 0 + 1 * (x' 0).val = _
          rw [ho]; omega
        · rw [hWdef]
          exact rowLaneB d L g fsp 3 fb hA g4 h4 g8r h8r ⟨16 * k.val + 11, hR11⟩ _ (by clear * - k hR11; revert k; decide +kernel)
            k0_pay1403 pay1403_toNatB k0_pay1405 pay1405_applyB k0_pay1406 pay1406_applyB _ _ _ _ _ _ _ _ _ _ _ _ _ _ _ _ _ x'
      · have ho := congrFun (k0_off76_eq k) 0
        simp only [Matrix.cons_val_zero] at ho
        refine ⟨10, (x' 0).val, by norm_num, (x' 0).isLt, ?_, ?_⟩
        · show k0_off76 k 0 + 1 * (x' 0).val = _
          rw [ho]; omega
        · rw [hWdef]
          exact rowLaneB d L g fsp 3 fb hA g4 h4 g8r h8r ⟨16 * k.val + 10, hR10⟩ _ (by clear * - k hR10; revert k; decide +kernel)
            k0_pay1403 pay1403_toNatB k0_pay1405 pay1405_applyB k0_pay1406 pay1406_applyB _ _ _ _ _ _ _ _ _ _ _ _ _ _ _ _ _ x'
      · have ho := congrFun (k0_off75_eq k) 0
        simp only [Matrix.cons_val_zero] at ho
        refine ⟨9, (x' 0).val, by norm_num, (x' 0).isLt, ?_, ?_⟩
        · show k0_off75 k 0 + 1 * (x' 0).val = _
          rw [ho]; omega
        · rw [hWdef]
          exact rowLaneB d L g fsp 3 fb hA g4 h4 g8r h8r ⟨16 * k.val + 9, hR9⟩ _ (by clear * - k hR9; revert k; decide +kernel)
            k0_pay1403 pay1403_toNatB k0_pay1405 pay1405_applyB k0_pay1406 pay1406_applyB _ _ _ _ _ _ _ _ _ _ _ _ _ _ _ _ _ x'
      · have ho := congrFun (k0_off74_eq k) 0
        simp only [Matrix.cons_val_zero] at ho
        refine ⟨8, (x' 0).val, by norm_num, (x' 0).isLt, ?_, ?_⟩
        · show k0_off74 k 0 + 1 * (x' 0).val = _
          rw [ho]; omega
        · rw [hWdef]
          exact rowLaneB d L g fsp 3 fb hA g4 h4 g8r h8r ⟨16 * k.val + 8, hR8⟩ _ (by clear * - k hR8; revert k; decide +kernel)
            k0_pay1403 pay1403_toNatB k0_pay1405 pay1405_applyB k0_pay1406 pay1406_applyB _ _ _ _ _ _ _ _ _ _ _ _ _ _ _ _ _ x'
      · have ho := congrFun (k0_off73_eq k) 0
        simp only [Matrix.cons_val_zero] at ho
        refine ⟨7, (x' 0).val, by norm_num, (x' 0).isLt, ?_, ?_⟩
        · show k0_off73 k 0 + 1 * (x' 0).val = _
          rw [ho]; omega
        · rw [hWdef]
          exact rowLaneB d L g fsp 3 fb hA g4 h4 g8r h8r ⟨16 * k.val + 7, hR7⟩ _ (by clear * - k hR7; revert k; decide +kernel)
            k0_pay1403 pay1403_toNatB k0_pay1405 pay1405_applyB k0_pay1406 pay1406_applyB _ _ _ _ _ _ _ _ _ _ _ _ _ _ _ _ _ x'
      · have ho := congrFun (k0_off72_eq k) 0
        simp only [Matrix.cons_val_zero] at ho
        refine ⟨6, (x' 0).val, by norm_num, (x' 0).isLt, ?_, ?_⟩
        · show k0_off72 k 0 + 1 * (x' 0).val = _
          rw [ho]; omega
        · rw [hWdef]
          exact rowLaneB d L g fsp 3 fb hA g4 h4 g8r h8r ⟨16 * k.val + 6, hR6⟩ _ (by clear * - k hR6; revert k; decide +kernel)
            k0_pay1403 pay1403_toNatB k0_pay1405 pay1405_applyB k0_pay1406 pay1406_applyB _ _ _ _ _ _ _ _ _ _ _ _ _ _ _ _ _ x'
      · have ho := congrFun (k0_off71_eq k) 0
        simp only [Matrix.cons_val_zero] at ho
        refine ⟨5, (x' 0).val, by norm_num, (x' 0).isLt, ?_, ?_⟩
        · show k0_off71 k 0 + 1 * (x' 0).val = _
          rw [ho]; omega
        · rw [hWdef]
          exact rowLaneB d L g fsp 3 fb hA g4 h4 g8r h8r ⟨16 * k.val + 5, hR5⟩ _ (by clear * - k hR5; revert k; decide +kernel)
            k0_pay1403 pay1403_toNatB k0_pay1405 pay1405_applyB k0_pay1406 pay1406_applyB _ _ _ _ _ _ _ _ _ _ _ _ _ _ _ _ _ x'
      · have ho := congrFun (k0_off70_eq k) 0
        simp only [Matrix.cons_val_zero] at ho
        refine ⟨4, (x' 0).val, by norm_num, (x' 0).isLt, ?_, ?_⟩
        · show k0_off70 k 0 + 1 * (x' 0).val = _
          rw [ho]; omega
        · rw [hWdef]
          exact rowLaneB d L g fsp 3 fb hA g4 h4 g8r h8r ⟨16 * k.val + 4, hR4⟩ _ (by clear * - k hR4; revert k; decide +kernel)
            k0_pay1403 pay1403_toNatB k0_pay1405 pay1405_applyB k0_pay1406 pay1406_applyB _ _ _ _ _ _ _ _ _ _ _ _ _ _ _ _ _ x'
      · have ho := congrFun (k0_off69_eq k) 0
        simp only [Matrix.cons_val_zero] at ho
        refine ⟨3, (x' 0).val, by norm_num, (x' 0).isLt, ?_, ?_⟩
        · show k0_off69 k 0 + 1 * (x' 0).val = _
          rw [ho]; omega
        · rw [hWdef]
          exact rowLaneB d L g fsp 3 fb hA g4 h4 g8r h8r ⟨16 * k.val + 3, hR3⟩ _ (by clear * - k hR3; revert k; decide +kernel)
            k0_pay1403 pay1403_toNatB k0_pay1405 pay1405_applyB k0_pay1406 pay1406_applyB _ _ _ _ _ _ _ _ _ _ _ _ _ _ _ _ _ x'
      · have ho := congrFun (k0_off68_eq k) 0
        simp only [Matrix.cons_val_zero] at ho
        refine ⟨2, (x' 0).val, by norm_num, (x' 0).isLt, ?_, ?_⟩
        · show k0_off68 k 0 + 1 * (x' 0).val = _
          rw [ho]; omega
        · rw [hWdef]
          exact rowLaneB d L g fsp 3 fb hA g4 h4 g8r h8r ⟨16 * k.val + 2, hR2⟩ _ (by clear * - k hR2; revert k; decide +kernel)
            k0_pay1403 pay1403_toNatB k0_pay1405 pay1405_applyB k0_pay1406 pay1406_applyB _ _ _ _ _ _ _ _ _ _ _ _ _ _ _ _ _ x'
      · have ho := congrFun (k0_off67_eq k) 0
        simp only [Matrix.cons_val_zero] at ho
        refine ⟨1, (x' 0).val, by norm_num, (x' 0).isLt, ?_, ?_⟩
        · show k0_off67 k 0 + 1 * (x' 0).val = _
          rw [ho]; omega
        · rw [hWdef]
          exact rowLaneB d L g fsp 3 fb hA g4 h4 g8r h8r ⟨16 * k.val + 1, hR1⟩ _ (by clear * - k hR1; revert k; decide +kernel)
            k0_pay1403 pay1403_toNatB k0_pay1405 pay1405_applyB k0_pay1406 pay1406_applyB _ _ _ _ _ _ _ _ _ _ _ _ _ _ _ _ _ x'
      · have ho := congrFun (k0_off66_eq k) 0
        simp only [Matrix.cons_val_zero] at ho
        refine ⟨0, (x' 0).val, by norm_num, (x' 0).isLt, ?_, ?_⟩
        · show k0_off66 k 0 + 1 * (x' 0).val = _
          rw [ho]; omega
        · rw [hWdef]
          exact rowLaneB d L g fsp 3 fb hA g4 h4 g8r h8r ⟨16 * k.val + 0, hR0⟩ _ (by clear * - k hR0; revert k; decide +kernel)
            k0_pay1403 pay1403_toNatB k0_pay1405 pay1405_applyB k0_pay1406 pay1406_applyB _ _ _ _ _ _ _ _ _ _ _ _ _ _ _ _ _ x'
    · intro j h1 h2
      have hq : ((j 0).val - k.val % 2 * 256) / 16 < 16 := by omega
      obtain ⟨q, hqe⟩ : ∃ q, q = ((j 0).val - k.val % 2 * 256) / 16 := ⟨_, rfl⟩
      rw [← hqe] at hq
      interval_cases q
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
        exact mem_unit16B (k0_off66 k) (k0_off66_inb k) j (k.val % 2 * 256 + 0) (congrFun (k0_off66_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
        exact mem_unit16B (k0_off67 k) (k0_off67_inb k) j (k.val % 2 * 256 + 16) (congrFun (k0_off67_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
        exact mem_unit16B (k0_off68 k) (k0_off68_inb k) j (k.val % 2 * 256 + 32) (congrFun (k0_off68_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
        exact mem_unit16B (k0_off69 k) (k0_off69_inb k) j (k.val % 2 * 256 + 48) (congrFun (k0_off69_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
        exact mem_unit16B (k0_off70 k) (k0_off70_inb k) j (k.val % 2 * 256 + 64) (congrFun (k0_off70_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
        exact mem_unit16B (k0_off71 k) (k0_off71_inb k) j (k.val % 2 * 256 + 80) (congrFun (k0_off71_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
        exact mem_unit16B (k0_off72 k) (k0_off72_inb k) j (k.val % 2 * 256 + 96) (congrFun (k0_off72_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
        exact mem_unit16B (k0_off73 k) (k0_off73_inb k) j (k.val % 2 * 256 + 112) (congrFun (k0_off73_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        exact mem_unit16B (k0_off74 k) (k0_off74_inb k) j (k.val % 2 * 256 + 128) (congrFun (k0_off74_eq k) 0) (by omega) (by omega)
      · refine ⟨_, List.mem_cons_of_mem _ (List.mem_cons_of_mem _ (List.mem_cons_of_mem _ (List.mem_cons_of_mem _ (List.mem_cons_of_mem _ (List.mem_cons_of_mem _ (List.mem_cons_self)))))), ?_⟩
        exact mem_unit16B (k0_off75 k) (k0_off75_inb k) j (k.val % 2 * 256 + 144) (congrFun (k0_off75_eq k) 0) (by omega) (by omega)
      · refine ⟨_, List.mem_cons_of_mem _ (List.mem_cons_of_mem _ (List.mem_cons_of_mem _ (List.mem_cons_of_mem _ (List.mem_cons_of_mem _ (List.mem_cons_self))))), ?_⟩
        exact mem_unit16B (k0_off76 k) (k0_off76_inb k) j (k.val % 2 * 256 + 160) (congrFun (k0_off76_eq k) 0) (by omega) (by omega)
      · refine ⟨_, List.mem_cons_of_mem _ (List.mem_cons_of_mem _ (List.mem_cons_of_mem _ (List.mem_cons_of_mem _ (List.mem_cons_self)))), ?_⟩
        exact mem_unit16B (k0_off77 k) (k0_off77_inb k) j (k.val % 2 * 256 + 176) (congrFun (k0_off77_eq k) 0) (by omega) (by omega)
      · refine ⟨_, List.mem_cons_of_mem _ (List.mem_cons_of_mem _ (List.mem_cons_of_mem _ (List.mem_cons_self))), ?_⟩
        exact mem_unit16B (k0_off78 k) (k0_off78_inb k) j (k.val % 2 * 256 + 192) (congrFun (k0_off78_eq k) 0) (by omega) (by omega)
      · refine ⟨_, List.mem_cons_of_mem _ (List.mem_cons_of_mem _ (List.mem_cons_self)), ?_⟩
        exact mem_unit16B (k0_off79 k) (k0_off79_inb k) j (k.val % 2 * 256 + 208) (congrFun (k0_off79_eq k) 0) (by omega) (by omega)
      · refine ⟨_, List.mem_cons_of_mem _ (List.mem_cons_self), ?_⟩
        exact mem_unit16B (k0_off80 k) (k0_off80_inb k) j (k.val % 2 * 256 + 224) (congrFun (k0_off80_eq k) 0) (by omega) (by omega)
      · refine ⟨_, List.mem_cons_self, ?_⟩
        exact mem_unit16B (k0_off81 k) (k0_off81_inb k) j (k.val % 2 * 256 + 240) (congrFun (k0_off81_eq k) 0) (by omega) (by omega)
  obtain ⟨Lp, hf, hG, hcov⟩ := hP
  refine rowOutGB g _ _ (x 0).val _ _ _ _ _ _ _ _ _ _ _ _ _ _ _ _ _ _ x ?_ ?_ ?_ ?_ ?_ ?_ ?_ ?_ ?_ ?_ ?_ ?_ ?_ ?_ ?_ ?_ ?_ ?_
  · rw [envGB d L fen ge hge (k0_off82 k) (k0_off82_inb k) x]
    refine congrArg (fun t => fen (ix1 (tileRow L t))) ?_
    funext a
    match a with
    | ⟨0, _⟩ =>
      refine Fin.ext ?_
      have ho := congrFun (k0_off82_eq k) 0
      simp only [Matrix.cons_val_zero] at ho
      show k0_off82 k 0 + (x 0).val = (y 0).val
      rw [ho, hy]; simp <;> omega
  · rfl
  · rw [hf.1, readbackLaneB d L g gr Lp (k.val % 2 * 256) W hG hcov _ _ x 0 (hidx0 k x)]
    exact congrArg (fun w => Cert.Sae.K.lane g w (((x 0).val + 0) % 16)) hW
  · rw [hf.2.1, readbackLaneB d L g gr Lp (k.val % 2 * 256) W hG hcov _ _ x 1 (hidx1 k x)]
    exact congrArg (fun w => Cert.Sae.K.lane g w (((x 0).val + 1) % 16)) hW
  · rw [hf.2.2.1, readbackLaneB d L g gr Lp (k.val % 2 * 256) W hG hcov _ _ x 2 (hidx2 k x)]
    exact congrArg (fun w => Cert.Sae.K.lane g w (((x 0).val + 2) % 16)) hW
  · rw [hf.2.2.2.1, readbackLaneB d L g gr Lp (k.val % 2 * 256) W hG hcov _ _ x 3 (hidx3 k x)]
    exact congrArg (fun w => Cert.Sae.K.lane g w (((x 0).val + 3) % 16)) hW
  · rw [hf.2.2.2.2.1, readbackLaneB d L g gr Lp (k.val % 2 * 256) W hG hcov _ _ x 4 (hidx4 k x)]
    exact congrArg (fun w => Cert.Sae.K.lane g w (((x 0).val + 4) % 16)) hW
  · rw [hf.2.2.2.2.2.1, readbackLaneB d L g gr Lp (k.val % 2 * 256) W hG hcov _ _ x 5 (hidx5 k x)]
    exact congrArg (fun w => Cert.Sae.K.lane g w (((x 0).val + 5) % 16)) hW
  · rw [hf.2.2.2.2.2.2.1, readbackLaneB d L g gr Lp (k.val % 2 * 256) W hG hcov _ _ x 6 (hidx6 k x)]
    exact congrArg (fun w => Cert.Sae.K.lane g w (((x 0).val + 6) % 16)) hW
  · rw [hf.2.2.2.2.2.2.2.1, readbackLaneB d L g gr Lp (k.val % 2 * 256) W hG hcov _ _ x 7 (hidx7 k x)]
    exact congrArg (fun w => Cert.Sae.K.lane g w (((x 0).val + 7) % 16)) hW
  · rw [hf.2.2.2.2.2.2.2.2.1, readbackLaneB d L g gr Lp (k.val % 2 * 256) W hG hcov _ _ x 8 (hidx8 k x)]
    exact congrArg (fun w => Cert.Sae.K.lane g w (((x 0).val + 8) % 16)) hW
  · rw [hf.2.2.2.2.2.2.2.2.2.1, readbackLaneB d L g gr Lp (k.val % 2 * 256) W hG hcov _ _ x 9 (hidx9 k x)]
    exact congrArg (fun w => Cert.Sae.K.lane g w (((x 0).val + 9) % 16)) hW
  · rw [hf.2.2.2.2.2.2.2.2.2.2.1, readbackLaneB d L g gr Lp (k.val % 2 * 256) W hG hcov _ _ x 10 (hidx10 k x)]
    exact congrArg (fun w => Cert.Sae.K.lane g w (((x 0).val + 10) % 16)) hW
  · rw [hf.2.2.2.2.2.2.2.2.2.2.2.1, readbackLaneB d L g gr Lp (k.val % 2 * 256) W hG hcov _ _ x 11 (hidx11 k x)]
    exact congrArg (fun w => Cert.Sae.K.lane g w (((x 0).val + 11) % 16)) hW
  · rw [hf.2.2.2.2.2.2.2.2.2.2.2.2.1, readbackLaneB d L g gr Lp (k.val % 2 * 256) W hG hcov _ _ x 12 (hidx12 k x)]
    exact congrArg (fun w => Cert.Sae.K.lane g w (((x 0).val + 12) % 16)) hW
  · rw [hf.2.2.2.2.2.2.2.2.2.2.2.2.2.1, readbackLaneB d L g gr Lp (k.val % 2 * 256) W hG hcov _ _ x 13 (hidx13 k x)]
    exact congrArg (fun w => Cert.Sae.K.lane g w (((x 0).val + 13) % 16)) hW
  · rw [hf.2.2.2.2.2.2.2.2.2.2.2.2.2.2.1, readbackLaneB d L g gr Lp (k.val % 2 * 256) W hG hcov _ _ x 14 (hidx14 k x)]
    exact congrArg (fun w => Cert.Sae.K.lane g w (((x 0).val + 14) % 16)) hW
  · rw [hf.2.2.2.2.2.2.2.2.2.2.2.2.2.2.2, readbackLaneB d L g gr Lp (k.val % 2 * 256) W hG hcov _ _ x 15 (hidx15 k x)]
    exact congrArg (fun w => Cert.Sae.K.lane g w (((x 0).val + 15) % 16)) hW

end Cert.Proof.KI

end
-- ==== Proof.KI.ValRegionT1.lean ====
/-
  One trip of the loop that fills the table of sums of four, with its values: the pair table reads the sums of two
  table entries throughout; before trip k the first 128·k entries of the table of sums of four read the sums of two
  pair-table entries (at the entry number's high six bits and its low six bits), and the trip's eight stores of
  sixteen entries extend that to 128·(k+1): below 128·k nothing is touched, and each new entry is the sum of the two
  gathered pair-table entries, its index words being the entry number shifted and masked.
-/
import proofs.«206987_g17583596110038_cont_8to1_771_12_alg».proof.Proof.KI.Base
import proofs.«206987_g17583596110038_cont_8to1_771_12_alg».proof.Proof.KI.ValInv
import Idealize.ShloMosaic.Lib.Writes
import proofs.«206987_g17583596110038_cont_8to1_771_12_alg».proof.Proof.SaeTables

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

open Idealize.ShloMosaic.ValueIdx

theorem region_t1v (d : Dev nD) (L : grid0.Coords) (g : FVec F S8 .f32) (v2 : BitVec 32) (v624 : Vec F S16 .f32) :
    ∀ (k : Fin k0_t1_loop.trips) (acc : Unit), invT1v (F := F) d L g k.val acc ⊢
      wp frame (wpE (defs₀ (F := F)) 𝒱₀ (thr d L) none) Set.univ
        (k0_t1_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2
            v2 (iota .scVector S16 32 [0] iota_S16_d0_w32_scVector) k0_pay1403 k0_pay1404 k0_pay1405 (k0_pay1406 (F := F)) v624 k acc)
        (invT1v (F := F) d L g (k.val + 1)) := by
  intro k _
  unfold invT1v
  iintro ⟨⟨%g2, H2, %h2⟩, ⟨%g4, H4, %h4⟩⟩
  sl_exec (disch := first | sl_decide | (clear h4; revert k; decide +kernel))
  repeat (iapply (wp_gather_bind 𝒱₀ (thr d L) none Set.univ); sl_exec (disch := first | sl_decide | (clear h4; revert k; decide +kernel)))
  sl_step
  isplitl [H2]
  · iexists _; isplitl [H2]; · iexact H2
    ipureintro; exact h2
  · iexists _; isplitl [H4]; · iexact H4
    ipureintro
    unfold Cert.Proof.KI.region_t1v.sl.r Cert.Proof.KI.region_t1v.sl.r_1
    have hk : k.val < 32 := k.isLt
    -- the pair table, read whole, reads the sums of two
    have hA : ∀ z : S64.Idx, View.readAt (Elt F) (t2).view (LoadRect.whole S64) g2 z = Cert.Sae.K.T2 g (z 0).val := fun z => by
      rw [View.readAt_apply]
      exact (h2 _).trans (congrArg (Cert.Sae.K.T2 g) (by show 0 + 1 * (z 0).val = (z 0).val; omega))
    intro y hy
    by_cases hlo : (y 0).val < 128 * k.val
    · -- below 128·k no store of the trip lands
      rw [View.read_writes_apply_of_forall_not_mem]
      · exact h4 y hlo
      · intro p hp
        rcases List.mem_cons.mp hp with rfl | hp1
        · intro hm
          change y ∈ (Rect.unit (s := S4096) (k0_off10 k) S16.size (k0_off10_inb k)).set at hm
          have h0 := (Rect.mem_set_unit.mp hm (0 : Fin 1)).1
          rw [(show k0_off10 k 0 = 128 * k.val + 112 from congrFun (k0_off10_eq k) 0)] at h0
          omega
        rcases List.mem_cons.mp hp1 with rfl | hp2
        · intro hm
          change y ∈ (Rect.unit (s := S4096) (k0_off9 k) S16.size (k0_off9_inb k)).set at hm
          have h0 := (Rect.mem_set_unit.mp hm (0 : Fin 1)).1
          rw [(show k0_off9 k 0 = 128 * k.val + 96 from congrFun (k0_off9_eq k) 0)] at h0
          omega
        rcases List.mem_cons.mp hp2 with rfl | hp3
        · intro hm
          change y ∈ (Rect.unit (s := S4096) (k0_off8 k) S16.size (k0_off8_inb k)).set at hm
          have h0 := (Rect.mem_set_unit.mp hm (0 : Fin 1)).1
          rw [(show k0_off8 k 0 = 128 * k.val + 80 from congrFun (k0_off8_eq k) 0)] at h0
          omega
        rcases List.mem_cons.mp hp3 with rfl | hp4
        · intro hm
          change y ∈ (Rect.unit (s := S4096) (k0_off7 k) S16.size (k0_off7_inb k)).set at hm
          have h0 := (Rect.mem_set_unit.mp hm (0 : Fin 1)).1
          rw [(show k0_off7 k 0 = 128 * k.val + 64 from congrFun (k0_off7_eq k) 0)] at h0
          omega
        rcases List.mem_cons.mp hp4 with rfl | hp5
        · intro hm
          change y ∈ (Rect.unit (s := S4096) (k0_off6 k) S16.size (k0_off6_inb k)).set at hm
          have h0 := (Rect.mem_set_unit.mp hm (0 : Fin 1)).1
          rw [(show k0_off6 k 0 = 128 * k.val + 48 from congrFun (k0_off6_eq k) 0)] at h0
          omega
        rcases List.mem_cons.mp hp5 with rfl | hp6
        · intro hm
          change y ∈ (Rect.unit (s := S4096) (k0_off5 k) S16.size (k0_off5_inb k)).set at hm
          have h0 := (Rect.mem_set_unit.mp hm (0 : Fin 1)).1
          rw [(show k0_off5 k 0 = 128 * k.val + 32 from congrFun (k0_off5_eq k) 0)] at h0
          omega
        rcases List.mem_cons.mp hp6 with rfl | hp7
        · intro hm
          change y ∈ (Rect.unit (s := S4096) (k0_off4 k) S16.size (k0_off4_inb k)).set at hm
          have h0 := (Rect.mem_set_unit.mp hm (0 : Fin 1)).1
          rw [(show k0_off4 k 0 = 128 * k.val + 16 from congrFun (k0_off4_eq k) 0)] at h0
          omega
        rcases List.mem_cons.mp hp7 with rfl | hp8
        · intro hm
          change y ∈ (Rect.unit (s := S4096) (k0_off3 k) S16.size (k0_off3_inb k)).set at hm
          have h0 := (Rect.mem_set_unit.mp hm (0 : Fin 1)).1
          rw [(show k0_off3 k 0 = 128 * k.val from congrFun (k0_off3_eq k) 0)] at h0
          omega
        exact absurd hp8 List.not_mem_nil
    · -- the trip's 128 entries: each store's sixteen are sums of two pair-table entries
      refine View.read_writes_apply_of_pieces (Val := Elt F) (t4).view _ (fun y => (Cert.Sae.K.T4 g (y 0).val : Elt F .f32)) _ ?_ y ?_
      · intro p hp x
        rcases List.mem_cons.mp hp with rfl | hp1
        · show _ = Cert.Sae.K.T4 g (k0_off10 k 0 + 1 * (x 0).val)
          rw [(show k0_off10 k 0 = 128 * k.val + 112 from congrFun (k0_off10_eq k) 0)]
          exact Cert.Sae.K.t4_piece g _ hA (128 * k.val + 112) _ _ _ _ (fun x => by have hx : (x 0).val < 16 := (x 0).isLt; omega)
            (by clear hlo hy h4 hk x hp; revert k; decide +kernel) (by clear hlo hy h4 hk x hp; revert k; decide +kernel) x
        rcases List.mem_cons.mp hp1 with rfl | hp2
        · show _ = Cert.Sae.K.T4 g (k0_off9 k 0 + 1 * (x 0).val)
          rw [(show k0_off9 k 0 = 128 * k.val + 96 from congrFun (k0_off9_eq k) 0)]
          exact Cert.Sae.K.t4_piece g _ hA (128 * k.val + 96) _ _ _ _ (fun x => by have hx : (x 0).val < 16 := (x 0).isLt; omega)
            (by clear hlo hy h4 hk x hp hp1; revert k; decide +kernel) (by clear hlo hy h4 hk x hp hp1; revert k; decide +kernel) x
        rcases List.mem_cons.mp hp2 with rfl | hp3
        · show _ = Cert.Sae.K.T4 g (k0_off8 k 0 + 1 * (x 0).val)
          rw [(show k0_off8 k 0 = 128 * k.val + 80 from congrFun (k0_off8_eq k) 0)]
          exact Cert.Sae.K.t4_piece g _ hA (128 * k.val + 80) _ _ _ _ (fun x => by have hx : (x 0).val < 16 := (x 0).isLt; omega)
            (by clear hlo hy h4 hk x hp hp1 hp2; revert k; decide +kernel) (by clear hlo hy h4 hk x hp hp1 hp2; revert k; decide +kernel) x
        rcases List.mem_cons.mp hp3 with rfl | hp4
        · show _ = Cert.Sae.K.T4 g (k0_off7 k 0 + 1 * (x 0).val)
          rw [(show k0_off7 k 0 = 128 * k.val + 64 from congrFun (k0_off7_eq k) 0)]
          exact Cert.Sae.K.t4_piece g _ hA (128 * k.val + 64) _ _ _ _ (fun x => by have hx : (x 0).val < 16 := (x 0).isLt; omega)
            (by clear hlo hy h4 hk x hp hp1 hp2 hp3; revert k; decide +kernel) (by clear hlo hy h4 hk x hp hp1 hp2 hp3; revert k; decide +kernel) x
        rcases List.mem_cons.mp hp4 with rfl | hp5
        · show _ = Cert.Sae.K.T4 g (k0_off6 k 0 + 1 * (x 0).val)
          rw [(show k0_off6 k 0 = 128 * k.val + 48 from congrFun (k0_off6_eq k) 0)]
          exact Cert.Sae.K.t4_piece g _ hA (128 * k.val + 48) _ _ _ _ (fun x => by have hx : (x 0).val < 16 := (x 0).isLt; omega)
            (by clear hlo hy h4 hk x hp hp1 hp2 hp3 hp4; revert k; decide +kernel) (by clear hlo hy h4 hk x hp hp1 hp2 hp3 hp4; revert k; decide +kernel) x
        rcases List.mem_cons.mp hp5 with rfl | hp6
        · show _ = Cert.Sae.K.T4 g (k0_off5 k 0 + 1 * (x 0).val)
          rw [(show k0_off5 k 0 = 128 * k.val + 32 from congrFun (k0_off5_eq k) 0)]
          exact Cert.Sae.K.t4_piece g _ hA (128 * k.val + 32) _ _ _ _ (fun x => by have hx : (x 0).val < 16 := (x 0).isLt; omega)
            (by clear hlo hy h4 hk x hp hp1 hp2 hp3 hp4 hp5; revert k; decide +kernel) (by clear hlo hy h4 hk x hp hp1 hp2 hp3 hp4 hp5; revert k; decide +kernel) x
        rcases List.mem_cons.mp hp6 with rfl | hp7
        · show _ = Cert.Sae.K.T4 g (k0_off4 k 0 + 1 * (x 0).val)
          rw [(show k0_off4 k 0 = 128 * k.val + 16 from congrFun (k0_off4_eq k) 0)]
          exact Cert.Sae.K.t4_piece g _ hA (128 * k.val + 16) _ _ _ _ (fun x => by have hx : (x 0).val < 16 := (x 0).isLt; omega)
            (by clear hlo hy h4 hk x hp hp1 hp2 hp3 hp4 hp5 hp6; revert k; decide +kernel) (by clear hlo hy h4 hk x hp hp1 hp2 hp3 hp4 hp5 hp6; revert k; decide +kernel) x
        rcases List.mem_cons.mp hp7 with rfl | hp8
        · show _ = Cert.Sae.K.T4 g (k0_off3 k 0 + 1 * (x 0).val)
          rw [(show k0_off3 k 0 = 128 * k.val from congrFun (k0_off3_eq k) 0)]
          exact Cert.Sae.K.t4_piece g _ hA (128 * k.val) _ _ _ _ (fun x => by have hx : (x 0).val < 16 := (x 0).isLt; omega)
            (by clear hlo hy h4 hk x hp hp1 hp2 hp3 hp4 hp5 hp6 hp7; revert k; decide +kernel) (by clear hlo hy h4 hk x hp hp1 hp2 hp3 hp4 hp5 hp6 hp7; revert k; decide +kernel) x
        exact absurd hp8 List.not_mem_nil
      · -- every entry of the trip's 128 lies under one of the eight stores
        obtain ⟨u, hu1, hu2⟩ : ∃ u : Fin 8, 128 * k.val + 16 * u.val ≤ (y 0).val ∧ (y 0).val < 128 * k.val + 16 * u.val + 16 :=
          ⟨⟨((y 0).val - 128 * k.val) / 16, by omega⟩, by show 128 * k.val + 16 * (((y 0).val - 128 * k.val) / 16) ≤ _; omega,
            by show _ < 128 * k.val + 16 * (((y 0).val - 128 * k.val) / 16) + 16; omega⟩
        fin_cases u <;> simp only [Fin.val_zero, Fin.val_one, Fin.val_two, Fin.isValue, Fin.mk_one, Fin.zero_eta, Fin.reduceFinMk, Fin.coe_ofNat_eq_mod, Nat.reduceMod, Nat.reduceMul, Nat.add_zero, Nat.mul_zero] at hu1 hu2
        · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
          show y ∈ (Rect.unit (s := S4096) (k0_off3 k) S16.size (k0_off3_inb k)).set
          rw [Rect.mem_set_unit]
          intro a
          match a with
          | ⟨0, _⟩ =>
            show k0_off3 k 0 ≤ (y 0).val ∧ (y 0).val < k0_off3 k 0 + 16
            rw [(show k0_off3 k 0 = 128 * k.val from congrFun (k0_off3_eq k) 0)]
            exact ⟨hu1, hu2⟩
        · refine ⟨_, (List.mem_cons_of_mem _ (List.mem_cons_of_mem _ (List.mem_cons_of_mem _ (List.mem_cons_of_mem _ (List.mem_cons_of_mem _ (List.mem_cons_of_mem _ List.mem_cons_self)))))), ?_⟩
          show y ∈ (Rect.unit (s := S4096) (k0_off4 k) S16.size (k0_off4_inb k)).set
          rw [Rect.mem_set_unit]
          intro a
          match a with
          | ⟨0, _⟩ =>
            show k0_off4 k 0 ≤ (y 0).val ∧ (y 0).val < k0_off4 k 0 + 16
            rw [(show k0_off4 k 0 = 128 * k.val + 16 from congrFun (k0_off4_eq k) 0)]
            exact ⟨hu1, hu2⟩
        · refine ⟨_, (List.mem_cons_of_mem _ (List.mem_cons_of_mem _ (List.mem_cons_of_mem _ (List.mem_cons_of_mem _ (List.mem_cons_of_mem _ List.mem_cons_self))))), ?_⟩
          show y ∈ (Rect.unit (s := S4096) (k0_off5 k) S16.size (k0_off5_inb k)).set
          rw [Rect.mem_set_unit]
          intro a
          match a with
          | ⟨0, _⟩ =>
            show k0_off5 k 0 ≤ (y 0).val ∧ (y 0).val < k0_off5 k 0 + 16
            rw [(show k0_off5 k 0 = 128 * k.val + 32 from congrFun (k0_off5_eq k) 0)]
            exact ⟨hu1, hu2⟩
        · refine ⟨_, (List.mem_cons_of_mem _ (List.mem_cons_of_mem _ (List.mem_cons_of_mem _ (List.mem_cons_of_mem _ List.mem_cons_self)))), ?_⟩
          show y ∈ (Rect.unit (s := S4096) (k0_off6 k) S16.size (k0_off6_inb k)).set
          rw [Rect.mem_set_unit]
          intro a
          match a with
          | ⟨0, _⟩ =>
            show k0_off6 k 0 ≤ (y 0).val ∧ (y 0).val < k0_off6 k 0 + 16
            rw [(show k0_off6 k 0 = 128 * k.val + 48 from congrFun (k0_off6_eq k) 0)]
            exact ⟨hu1, hu2⟩
        · refine ⟨_, (List.mem_cons_of_mem _ (List.mem_cons_of_mem _ (List.mem_cons_of_mem _ List.mem_cons_self))), ?_⟩
          show y ∈ (Rect.unit (s := S4096) (k0_off7 k) S16.size (k0_off7_inb k)).set
          rw [Rect.mem_set_unit]
          intro a
          match a with
          | ⟨0, _⟩ =>
            show k0_off7 k 0 ≤ (y 0).val ∧ (y 0).val < k0_off7 k 0 + 16
            rw [(show k0_off7 k 0 = 128 * k.val + 64 from congrFun (k0_off7_eq k) 0)]
            exact ⟨hu1, hu2⟩
        · refine ⟨_, (List.mem_cons_of_mem _ (List.mem_cons_of_mem _ List.mem_cons_self)), ?_⟩
          show y ∈ (Rect.unit (s := S4096) (k0_off8 k) S16.size (k0_off8_inb k)).set
          rw [Rect.mem_set_unit]
          intro a
          match a with
          | ⟨0, _⟩ =>
            show k0_off8 k 0 ≤ (y 0).val ∧ (y 0).val < k0_off8 k 0 + 16
            rw [(show k0_off8 k 0 = 128 * k.val + 80 from congrFun (k0_off8_eq k) 0)]
            exact ⟨hu1, hu2⟩
        · refine ⟨_, (List.mem_cons_of_mem _ List.mem_cons_self), ?_⟩
          show y ∈ (Rect.unit (s := S4096) (k0_off9 k) S16.size (k0_off9_inb k)).set
          rw [Rect.mem_set_unit]
          intro a
          match a with
          | ⟨0, _⟩ =>
            show k0_off9 k 0 ≤ (y 0).val ∧ (y 0).val < k0_off9 k 0 + 16
            rw [(show k0_off9 k 0 = 128 * k.val + 96 from congrFun (k0_off9_eq k) 0)]
            exact ⟨hu1, hu2⟩
        · refine ⟨_, List.mem_cons_self, ?_⟩
          show y ∈ (Rect.unit (s := S4096) (k0_off10 k) S16.size (k0_off10_inb k)).set
          rw [Rect.mem_set_unit]
          intro a
          match a with
          | ⟨0, _⟩ =>
            show k0_off10 k 0 ≤ (y 0).val ∧ (y 0).val < k0_off10 k 0 + 16
            rw [(show k0_off10 k 0 = 128 * k.val + 112 from congrFun (k0_off10_eq k) 0)]
            exact ⟨hu1, hu2⟩

end Cert.Proof.KI

end
-- ==== Proof.KI.UnfoldHead.lean ====
/-
  A goal equation whose left side is a named definition applied to its arguments (possibly behind the projection of a
  pair) is restated with that definition's body in its place: one unfolding and no further, so that a lemma about the
  head of the body applies by matching. The two statements are equal by definition; the kernel checks that.
-/
import Idealize.ShloMosaic.PureOps.ShapeOps
import Lean

namespace Cert.Proof.KI

open Lean Elab Tactic Meta in
/-- Replace the left side of the goal equation by the body of the definition at its head, once (the projection of a pair
    reduced first); a left side already headed by the gather is left as it is. -/
elab "unfold_lhs_head" : tactic => do
  let g ← getMainGoal
  let t ← instantiateMVars (← g.getType)
  let some (_, lhs, rhs) := t.eq? | throwError "unfold_lhs_head: the goal is not an equation"
  let mut lhs ← whnfR lhs
  unless lhs.getAppFn.isConstOf ``Idealize.ShloMosaic.loadIdx do
    let some l ← delta? lhs | throwError "unfold_lhs_head: no definition at the head of the left side"
    lhs := l.headBeta
  let g' ← g.replaceTargetDefEq (← mkEq lhs rhs)
  replaceMainGoal [g']

end Cert.Proof.KI
-- ==== Proof.KI.BodyVal.lean ====
/-
  One tile's whole task with its result: the frame argument of Body.lean again, with every buffer's contents said
  through the closed forms. After the prologue the eight-entry scratch holds the table, the pair table and the lane
  table hold T2 and T8R of it (piece by piece), the energies scratch the tile's energies; the first loop fills the
  table of sums of four; each chunk lands as its 128 rows of the species array and its row-group loop finishes sixteen
  more rows of the output scratch per trip; the last copy writes the 512 finished rows to the tile's slice of the result.
-/
import proofs.«206987_g17583596110038_cont_8to1_771_12_alg».proof.Proof.KI.ValEntry
import proofs.«206987_g17583596110038_cont_8to1_771_12_alg».proof.Proof.SaeTables
import proofs.«206987_g17583596110038_cont_8to1_771_12_alg».proof.Proof.LibWordIdx
import proofs.«206987_g17583596110038_cont_8to1_771_12_alg».proof.Proof.KI.Offs
import proofs.«206987_g17583596110038_cont_8to1_771_12_alg».proof.Proof.KI.ValRegionT2
import proofs.«206987_g17583596110038_cont_8to1_771_12_alg».proof.Proof.KI.ValRegionT3
import proofs.«206987_g17583596110038_cont_8to1_771_12_alg».proof.Proof.KI.ValRegionT4
import proofs.«206987_g17583596110038_cont_8to1_771_12_alg».proof.Proof.KI.ValRegionT5
import proofs.«206987_g17583596110038_cont_8to1_771_12_alg».proof.Proof.KI.ValRegionT1
import proofs.«206987_g17583596110038_cont_8to1_771_12_alg».proof.Proof.KI.UnfoldHead

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable [FloatOps F]

/-- The output scratch's finished rows, at an equal bound. -/
theorem IsOut_of_eq (d : Dev nD) (L : grid0.Coords) (g : FVec F S8 .f32) (fen : Buf (Elt F) ((enW).view.loc (thr d L)))
    (fsp : Buf (Elt F) ((spW).view.loc (thr d L))) {n n' : Nat} (h : n = n') (go : Buf (Elt F) ((outv).view.loc (thr d L)))
    (ho : IsOut d L g fen fsp n go) : IsOut d L g fen fsp n' go := h ▸ ho
theorem IsT4_of_eq (d : Dev nD) (L : grid0.Coords) (g : FVec F S8 .f32) {n n' : Nat} (h : n = n') (g4 : Buf (Elt F) ((t4).view.loc (thr d L)))
    (ho : IsT4 d L g n g4) : IsT4 d L g n' g4 := h ▸ ho

/-- One tile's task with its result: as `body_core`, and the tile's slice of the result array ends holding, at its entry y,
    the kernel's closed form `rowOut` of the eight-entry table, of energy 512·(tile number) + y and of that row of species
    words — stated through any whole-array function G that agrees with it on the slice. -/
theorem body_val (d : Dev nD) (L : grid0.Coords) (O : CellTallies nD τ sig (HIx 1)) (W : Waits sig (HIx 1))
    (q1 q2 q3 q4 : PosShare TreeShare)
    (fsp : Buf (Elt F) ((spW).view.loc (thr d L))) (fen : Buf (Elt F) ((enW).view.loc (thr d L))) (fse : Buf (Elt F) ((seW).view.loc (thr d L)))
    (fo : Buf (Elt F) ((oW).view.loc (thr d L)))
    (fA : Buf (Elt F) ((bA).view.loc (thr d L))) (fB : Buf (Elt F) ((bB).view.loc (thr d L)))
    (f8 : Buf (Elt F) ((t8).view.loc (thr d L))) (f8r : Buf (Elt F) ((t8r).view.loc (thr d L)))
    (f2 : Buf (Elt F) ((t2).view.loc (thr d L))) (f4 : Buf (Elt F) ((t4).view.loc (thr d L)))
    (fr : Buf (Elt F) ((red).view.loc (thr d L))) (fe : Buf (Elt F) ((env).view.loc (thr d L))) (fov : Buf (Elt F) ((outv).view.loc (thr d L)))
    (hsp : ∀ j, (fsp j).toNat ≤ 6)
    (G : Buf (Elt F) ((oW).view.loc (thr d L)))
    (hG : ∀ y : S512.Idx, G ((oSl L).view.emb y)
      = Cert.Sae.K.rowOut (F := F) fse (fen (ValueIdx.ix1 (tileRow L y))) (fun c => fsp (ValueIdx.ix2 (tileRow L y) ⟨c % 200, Nat.mod_lt _ (by norm_num)⟩)) ((y 0).val % 16)) :
    (iprop(Transfers.MayWaits (thr d L) (none : HIx 1) O
        ∗ ((spW).view.loc (thr d L) ↦{q1} fsp) ∗ ((spW).view.loc (thr d L) ↦{q2} fsp)
        ∗ ((enW).view.loc (thr d L) ↦{q3} fen) ∗ ((seW).view.loc (thr d L) ↦{q4} fse)
        ∗ ((oSl L).view.loc (thr d L) ↦[(oSl L).view.set]{fullShare} fo)
        ∗ ((bA).view.loc (thr d L) ↦{fullShare} fA) ∗ ((bB).view.loc (thr d L) ↦{fullShare} fB)
        ∗ ((t8).view.loc (thr d L) ↦{fullShare} f8) ∗ ((t8r).view.loc (thr d L) ↦{fullShare} f8r)
        ∗ ((t2).view.loc (thr d L) ↦{fullShare} f2) ∗ ((t4).view.loc (thr d L) ↦{fullShare} f4)
        ∗ ((red).view.loc (thr d L) ↦{fullShare} fr) ∗ ((env).view.loc (thr d L) ↦{fullShare} fe)
        ∗ ((outv).view.loc (thr d L) ↦{fullShare} fov)
        ∗ semVal (thr d L, SemLoc.dma cc0_scratch9.sem) 0 ∗ semVal (thr d L, SemLoc.dma cc0_scratch10.sem) 0
        ∗ semVal (thr d L, SemLoc.dma cc0_scoped0.sem) 0 ∗ semVal (thr d L, SemLoc.dma cc0_scoped1.sem) 0
        ∗ semVal (thr d L, SemLoc.dma cc0_scoped2.sem) 0
        ∗ owes (thr d L) O W) : sProp 𝕄)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(((spW).view.loc (thr d L) ↦{q1} fsp) ∗ ((spW).view.loc (thr d L) ↦{q2} fsp)
            ∗ ((enW).view.loc (thr d L) ↦{q3} fen) ∗ ((seW).view.loc (thr d L) ↦{q4} fse)
            ∗ ((oSl L).view.loc (thr d L) ↦[(oSl L).view.set]{fullShare} G)
            ∗ (∃ g, (bA).view.loc (thr d L) ↦{fullShare} g) ∗ (∃ g, (bB).view.loc (thr d L) ↦{fullShare} g)
            ∗ (∃ g, (t8).view.loc (thr d L) ↦{fullShare} g) ∗ (∃ g, (t8r).view.loc (thr d L) ↦{fullShare} g)
            ∗ (∃ g, (t2).view.loc (thr d L) ↦{fullShare} g) ∗ (∃ g, (t4).view.loc (thr d L) ↦{fullShare} g)
            ∗ (∃ g, (red).view.loc (thr d L) ↦{fullShare} g) ∗ (∃ g, (env).view.loc (thr d L) ↦{fullShare} g)
            ∗ (∃ g, (outv).view.loc (thr d L) ↦{fullShare} g)
            ∗ semVal (thr d L, SemLoc.dma cc0_scratch9.sem) 0 ∗ semVal (thr d L, SemLoc.dma cc0_scratch10.sem) 0
            ∗ semVal (thr d L, SemLoc.dma cc0_scoped0.sem) 0 ∗ semVal (thr d L, SemLoc.dma cc0_scoped1.sem) 0
            ∗ semVal (thr d L, SemLoc.dma cc0_scoped2.sem) 0
            ∗ ∃ W', ⌜∀ p ∈ W', p ∈ W ∨ p.2 = none⌝ ∗ owes (thr d L) O W') := by
  iintro ⟨Hmw, Hsp1, Hsp2, Hen, Hse, Ho, HA, HB, H8, H8r, H2, H4, Hr, He, Hov, Hs9, Hs10, Hc0, Hc1, Hc2, HO⟩
  sl_unfold [cc0__sae_body]
  sl_exec
  repeat (iapply (wp_gather_bind 𝒱₀ (thr d L) none Set.univ); sl_exec)
  sl_for (invT1v (F := F) d L fse) $$ [H2 H4]
  case region => exact region_t1v d L fse _ _
  · unfold invT1v
    isplitl [H2]
    · iexists _; isplitl [H2]
      · iexact H2
      · ipureintro
        intro y
        refine View.read_writes_apply_of_pieces (Val := Elt F) (t2).view _ (fun y => (Cert.Sae.K.T2 fse (y 0).val : Elt F .f32)) _ ?_ y ?_
        · intro p hp x
          simp only [List.mem_cons, List.mem_nil_iff, or_false] at hp
          rcases hp with rfl | rfl | rfl | rfl
          · exact Cert.Sae.K.t2_piece fse _ (t8_landed d L fse _ _ (fun _ => rfl)) 48 _ _ _ _ (by decide +kernel) (by decide +kernel) x
          · exact Cert.Sae.K.t2_piece fse _ (t8_landed d L fse _ _ (fun _ => rfl)) 32 _ _ _ _ (by decide +kernel) (by decide +kernel) x
          · exact Cert.Sae.K.t2_piece fse _ (t8_landed d L fse _ _ (fun _ => rfl)) 16 _ _ _ _ (by decide +kernel) (by decide +kernel) x
          · exact Cert.Sae.K.t2_piece fse _ (t8_landed d L fse _ _ (fun _ => rfl)) 0 _ _ _ _ (by decide +kernel) (by decide +kernel) x
        · exact View.cover_of_tiled _ ![16] rfl y
    · iexists _; isplitl [H4]
      · iexact H4
      · ipureintro; intro y hy; exact absurd hy (by omega)
  iintro %_ HI
  unfold invT1v
  icases HI with ⟨⟨%g2, H2, %hT2⟩, ⟨%g4, H4, %hT4'⟩⟩
  have hT4 := IsT4_of_eq d L fse (show 128 * k0_t1_loop.trips = 4096 by decide) g4 hT4'
  sl_exec
  sl_for (invAv (F := F) d L fse fen fsp 0) $$ [HA H4 H8r Hr He Hov]
  case region => exact region_t2v d L fse fen fsp hsp _ _
  · unfold invAv
    isplitl [HA]
    · iexists _; isplitl [HA]
      · iexact HA
      · ipureintro
        exact chunkA_landed d L fsp 0 _ _ (fun r c => sp_chunk_read d L 0 _ _ (k0_off1_eq L ⟨0, by decide⟩) fsp r c)
    isplitl [H4]
    · iexists _; isplitl [H4]
      · iexact H4
      · ipureintro; exact hT4
    isplitl [H8r]
    · iexists _; isplitl [H8r]
      · iexact H8r
      · ipureintro
        intro y
        refine View.read_writes_apply_of_pieces (Val := Elt F) (t8r).view _ (fun y => (Cert.Sae.K.T8R fse (y 0).val : Elt F .f32)) _ ?_ y ?_
        · intro p hp x
          rcases List.mem_cons.mp hp with rfl | hp1
          · show _ = Cert.Sae.K.T8R fse (256 + 1 * (x 0).val)
            unfold_lhs_head
            exact Cert.Sae.K.t8r_piece fse _ (t8_landed d L fse _ _ (fun _ => rfl)) 256 _ _ (by decide +kernel) x
          rcases List.mem_cons.mp hp1 with rfl | hp2
          · show _ = Cert.Sae.K.T8R fse (240 + 1 * (x 0).val)
            unfold_lhs_head
            exact Cert.Sae.K.t8r_piece fse _ (t8_landed d L fse _ _ (fun _ => rfl)) 240 _ _ (by decide +kernel) x
          rcases List.mem_cons.mp hp2 with rfl | hp3
          · show _ = Cert.Sae.K.T8R fse (224 + 1 * (x 0).val)
            unfold_lhs_head
            exact Cert.Sae.K.t8r_piece fse _ (t8_landed d L fse _ _ (fun _ => rfl)) 224 _ _ (by decide +kernel) x
          rcases List.mem_cons.mp hp3 with rfl | hp4
          · show _ = Cert.Sae.K.T8R fse (208 + 1 * (x 0).val)
            unfold_lhs_head
            exact Cert.Sae.K.t8r_piece fse _ (t8_landed d L fse _ _ (fun _ => rfl)) 208 _ _ (by decide +kernel) x
          rcases List.mem_cons.mp hp4 with rfl | hp5
          · show _ = Cert.Sae.K.T8R fse (192 + 1 * (x 0).val)
            unfold_lhs_head
            exact Cert.Sae.K.t8r_piece fse _ (t8_landed d L fse _ _ (fun _ => rfl)) 192 _ _ (by decide +kernel) x
          rcases List.mem_cons.mp hp5 with rfl | hp6
          · show _ = Cert.Sae.K.T8R fse (176 + 1 * (x 0).val)
            unfold_lhs_head
            exact Cert.Sae.K.t8r_piece fse _ (t8_landed d L fse _ _ (fun _ => rfl)) 176 _ _ (by decide +kernel) x
          rcases List.mem_cons.mp hp6 with rfl | hp7
          · show _ = Cert.Sae.K.T8R fse (160 + 1 * (x 0).val)
            unfold_lhs_head
            exact Cert.Sae.K.t8r_piece fse _ (t8_landed d L fse _ _ (fun _ => rfl)) 160 _ _ (by decide +kernel) x
          rcases List.mem_cons.mp hp7 with rfl | hp8
          · show _ = Cert.Sae.K.T8R fse (144 + 1 * (x 0).val)
            unfold_lhs_head
            exact Cert.Sae.K.t8r_piece fse _ (t8_landed d L fse _ _ (fun _ => rfl)) 144 _ _ (by decide +kernel) x
          rcases List.mem_cons.mp hp8 with rfl | hp9
          · show _ = Cert.Sae.K.T8R fse (128 + 1 * (x 0).val)
            unfold_lhs_head
            exact Cert.Sae.K.t8r_piece fse _ (t8_landed d L fse _ _ (fun _ => rfl)) 128 _ _ (by decide +kernel) x
          rcases List.mem_cons.mp hp9 with rfl | hp10
          · show _ = Cert.Sae.K.T8R fse (112 + 1 * (x 0).val)
            unfold_lhs_head
            exact Cert.Sae.K.t8r_piece fse _ (t8_landed d L fse _ _ (fun _ => rfl)) 112 _ _ (by decide +kernel) x
          rcases List.mem_cons.mp hp10 with rfl | hp11
          · show _ = Cert.Sae.K.T8R fse (96 + 1 * (x 0).val)
            unfold_lhs_head
            exact Cert.Sae.K.t8r_piece fse _ (t8_landed d L fse _ _ (fun _ => rfl)) 96 _ _ (by decide +kernel) x
          rcases List.mem_cons.mp hp11 with rfl | hp12
          · show _ = Cert.Sae.K.T8R fse (80 + 1 * (x 0).val)
            unfold_lhs_head
            exact Cert.Sae.K.t8r_piece fse _ (t8_landed d L fse _ _ (fun _ => rfl)) 80 _ _ (by decide +kernel) x
          rcases List.mem_cons.mp hp12 with rfl | hp13
          · show _ = Cert.Sae.K.T8R fse (64 + 1 * (x 0).val)
            unfold_lhs_head
            exact Cert.Sae.K.t8r_piece fse _ (t8_landed d L fse _ _ (fun _ => rfl)) 64 _ _ (by decide +kernel) x
          rcases List.mem_cons.mp hp13 with rfl | hp14
          · show _ = Cert.Sae.K.T8R fse (48 + 1 * (x 0).val)
            unfold_lhs_head
            exact Cert.Sae.K.t8r_piece fse _ (t8_landed d L fse _ _ (fun _ => rfl)) 48 _ _ (by decide +kernel) x
          rcases List.mem_cons.mp hp14 with rfl | hp15
          · show _ = Cert.Sae.K.T8R fse (32 + 1 * (x 0).val)
            unfold_lhs_head
            exact Cert.Sae.K.t8r_piece fse _ (t8_landed d L fse _ _ (fun _ => rfl)) 32 _ _ (by decide +kernel) x
          rcases List.mem_cons.mp hp15 with rfl | hp16
          · show _ = Cert.Sae.K.T8R fse (16 + 1 * (x 0).val)
            unfold_lhs_head
            exact Cert.Sae.K.t8r_piece fse _ (t8_landed d L fse _ _ (fun _ => rfl)) 16 _ _ (by decide +kernel) x
          rcases List.mem_cons.mp hp16 with rfl | hp17
          · show _ = Cert.Sae.K.T8R fse (0 + 1 * (x 0).val)
            unfold_lhs_head
            exact Cert.Sae.K.t8r_piece fse _ (t8_landed d L fse _ _ (fun _ => rfl)) 0 _ _ (by decide +kernel) x
          exact absurd hp17 List.not_mem_nil
        · exact View.cover_of_tiled _ ![16] rfl y
    isplitl [Hr]; · iexists _; iexact Hr
    isplitl [He]
    · iexists _; isplitl [He]
      · iexact He
      · ipureintro
        exact en_landed d L fen _ _ (fun y => en_slice_read d L _ _ (k0_off2_eq L) fen y)
    iexists _; isplitl [Hov]
    · iexact Hov
    · ipureintro
      intro y hy; simp at hy
  iintro %_ HI
  unfold invAv
  icases HI with ⟨⟨%fb1, HA, %hfb1⟩, ⟨%g41, H4, %hT4⟩, ⟨%g8r1, H8r, %hT8R⟩, ⟨%gr1, Hr⟩, ⟨%ge1, He, %hEn⟩, ⟨%go1, Hov, %hOut1⟩⟩
  sl_exec
  sl_for (invBv (F := F) d L fse fen fsp 1) $$ [HB H4 H8r Hr He Hov]
  case region => exact region_t3v d L fse fen fsp hsp _ _
  · unfold invBv
    isplitl [HB]
    · iexists _; isplitl [HB]
      · iexact HB
      · ipureintro
        exact chunkB_landed d L fsp 1 _ _ (fun r c => sp_chunk_read d L 1 _ _ (k0_off1_eq L ⟨1, by decide⟩) fsp r c)
    isplitl [H4]
    · iexists _; isplitl [H4]
      · iexact H4
      · ipureintro; exact hT4
    isplitl [H8r]
    · iexists _; isplitl [H8r]
      · iexact H8r
      · ipureintro
        exact hT8R
    isplitl [Hr]; · iexists _; iexact Hr
    isplitl [He]
    · iexists _; isplitl [He]
      · iexact He
      · ipureintro
        exact hEn
    iexists _; isplitl [Hov]
    · iexact Hov
    · ipureintro
      exact IsOut_of_eq d L fse fen fsp (show 128 * (0 : Fin 4).val + 16 * k0_t2_loop.trips = 128 * (1 : Fin 4).val + 16 * 0 by decide) _ hOut1
  iintro %_ HI
  unfold invBv
  icases HI with ⟨⟨%fb2, HB, %hfb2⟩, ⟨%g42, H4, %hT4⟩, ⟨%g8r2, H8r, %hT8R⟩, ⟨%gr2, Hr⟩, ⟨%ge2, He, %hEn⟩, ⟨%go2, Hov, %hOut2⟩⟩
  sl_exec
  sl_for (invAv (F := F) d L fse fen fsp 2) $$ [HA H4 H8r Hr He Hov]
  case region => exact region_t4v d L fse fen fsp hsp _ _
  · unfold invAv
    isplitl [HA]
    · iexists _; isplitl [HA]
      · iexact HA
      · ipureintro
        exact chunkA_landed d L fsp 2 _ _ (fun r c => sp_chunk_read d L 2 _ _ (k0_off11_eq L ⟨2, by decide⟩) fsp r c)
    isplitl [H4]
    · iexists _; isplitl [H4]
      · iexact H4
      · ipureintro; exact hT4
    isplitl [H8r]
    · iexists _; isplitl [H8r]
      · iexact H8r
      · ipureintro
        exact hT8R
    isplitl [Hr]; · iexists _; iexact Hr
    isplitl [He]
    · iexists _; isplitl [He]
      · iexact He
      · ipureintro
        exact hEn
    iexists _; isplitl [Hov]
    · iexact Hov
    · ipureintro
      exact IsOut_of_eq d L fse fen fsp (show 128 * (1 : Fin 4).val + 16 * k0_t3_loop.trips = 128 * (2 : Fin 4).val + 16 * 0 by decide) _ hOut2
  iintro %_ HI
  unfold invAv
  icases HI with ⟨⟨%fb3, HA, %hfb3⟩, ⟨%g43, H4, %hT4⟩, ⟨%g8r3, H8r, %hT8R⟩, ⟨%gr3, Hr⟩, ⟨%ge3, He, %hEn⟩, ⟨%go3, Hov, %hOut3⟩⟩
  sl_exec
  sl_for (invBv (F := F) d L fse fen fsp 3) $$ [HB H4 H8r Hr He Hov]
  case region => exact region_t5v d L fse fen fsp hsp
  · unfold invBv
    isplitl [HB]
    · iexists _; isplitl [HB]
      · iexact HB
      · ipureintro
        exact chunkB_landed d L fsp 3 _ _ (fun r c => sp_chunk_read d L 3 _ _ (k0_off11_eq L ⟨3, by decide⟩) fsp r c)
    isplitl [H4]
    · iexists _; isplitl [H4]
      · iexact H4
      · ipureintro; exact hT4
    isplitl [H8r]
    · iexists _; isplitl [H8r]
      · iexact H8r
      · ipureintro
        exact hT8R
    isplitl [Hr]; · iexists _; iexact Hr
    isplitl [He]
    · iexists _; isplitl [He]
      · iexact He
      · ipureintro
        exact hEn
    iexists _; isplitl [Hov]
    · iexact Hov
    · ipureintro
      exact IsOut_of_eq d L fse fen fsp (show 128 * (2 : Fin 4).val + 16 * k0_t4_loop.trips = 128 * (3 : Fin 4).val + 16 * 0 by decide) _ hOut3
  iintro %_ HI
  unfold invBv
  icases HI with ⟨⟨%fb4, HB, %hfb4⟩, ⟨%g44, H4, %hT4⟩, ⟨%g8r4, H8r, %hT8R⟩, ⟨%gr4, Hr⟩, ⟨%ge4, He, %hEn⟩, ⟨%go4, Hov, %hOut4⟩⟩
  sl_exec
  have hOutAll := IsOut_of_eq d L fse fen fsp (show 128 * (3 : Fin 4).val + 16 * k0_t5_loop.trips = 512 by decide) _ hOut4
  sl_step
  isplitl [Hsp1]; · iexact Hsp1
  isplitl [Hsp2]; · iexact Hsp2
  isplitl [Hen]; · iexact Hen
  isplitl [Hse]; · iexact Hse
  isplitl [Ho]
  · ihave Ho' := (Entails.of_eq (pointsTo_congr (out_landed d L G fo _ (fun y => (hOutAll y (y 0).isLt).trans (hG y).symm)))) $$ Ho
    iexact Ho'
  isplitl [HA]; · iexists _; iexact HA
  isplitl [HB]; · iexists _; iexact HB
  isplitl [H8]; · iexists _; iexact H8
  isplitl [H8r]; · iexists _; iexact H8r
  isplitl [H2]; · iexists _; iexact H2
  isplitl [H4]; · iexists _; iexact H4
  isplitl [Hr]; · iexists _; iexact Hr
  isplitl [He]; · iexists _; iexact He
  isplitl [Hov]; · iexists _; iexact Hov
  isplitl [Hs9]; · iexact Hs9
  isplitl [Hs10]; · iexact Hs10
  isplitl [Hc0]; · iexact Hc0
  isplitl [Hc1]; · iexact Hc1
  isplitl [Hc2]; · iexact Hc2
  iexists _
  isplitr
  swap
  · iexact HO
  · ipureintro
    intro p hp
    repeat (rcases Finset.mem_insert.mp hp with rfl | hp; · exact .inr rfl)
    exact .inl hp
  all_goals exact View.loads_vmem h_S8

end Cert.Proof.KI

end
-- ==== Proof.KI.LaunchVal.lean ====
/-
  The launch with the result's value: the thirty-two tiles each leave their 512 entries of the result at ONE function
  of the launch memory — entry j the kernel's closed form of the eight-entry table, of energy j and of row j of the
  species words — so the entries join into the whole array at that function, and the run of the whole family of
  threads ends with the result array holding it and the three arguments unchanged.
-/
import proofs.«206987_g17583596110038_cont_8to1_771_12_alg».proof.Proof.KI.Launch
import proofs.«206987_g17583596110038_cont_8to1_771_12_alg».proof.Proof.KI.BodyVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

local notation "spW" => (Memref.whole Cert.KernelIdeal.main_arg0_scv : Memref Cert.KernelIdeal.sig Kind.scVector Space.hbm Cert.KernelIdeal.S16384x200 EltTy.i32)
local notation "enW" => (Memref.whole Cert.KernelIdeal.main_arg1_scv : Memref Cert.KernelIdeal.sig Kind.scVector Space.hbm Cert.KernelIdeal.S16384 EltTy.f32)
local notation "seW" => (Memref.whole Cert.KernelIdeal.main_v2_scv : Memref Cert.KernelIdeal.sig Kind.scVector Space.hbm Cert.KernelIdeal.S8 EltTy.f32)
local notation "oW" => (Memref.whole Cert.KernelIdeal.main_v3_scv : Memref Cert.KernelIdeal.sig Kind.scVector Space.hbm Cert.KernelIdeal.S16384 EltTy.f32)
local notation "bA" => (Memref.whole Cert.KernelIdeal.cc0_scratch0 : Memref Cert.KernelIdeal.sig Kind.scVector Space.vmem Cert.KernelIdeal.S128x200 EltTy.i32)
local notation "bB" => (Memref.whole Cert.KernelIdeal.cc0_scratch1 : Memref Cert.KernelIdeal.sig Kind.scVector Space.vmem Cert.KernelIdeal.S128x200 EltTy.i32)
local notation "t8" => (Memref.whole Cert.KernelIdeal.cc0_scratch2 : Memref Cert.KernelIdeal.sig Kind.scVector Space.vmem Cert.KernelIdeal.S8 EltTy.f32)
local notation "t8r" => (Memref.whole Cert.KernelIdeal.cc0_scratch3 : Memref Cert.KernelIdeal.sig Kind.scVector Space.vmem Cert.KernelIdeal.S272 EltTy.f32)
local notation "t2" => (Memref.whole Cert.KernelIdeal.cc0_scratch4 : Memref Cert.KernelIdeal.sig Kind.scVector Space.vmem Cert.KernelIdeal.S64 EltTy.f32)
local notation "t4" => (Memref.whole Cert.KernelIdeal.cc0_scratch5 : Memref Cert.KernelIdeal.sig Kind.scVector Space.vmem Cert.KernelIdeal.S4096 EltTy.f32)
local notation "red" => (Memref.whole Cert.KernelIdeal.cc0_scratch6 : Memref Cert.KernelIdeal.sig Kind.scVector Space.vmem Cert.KernelIdeal.S512 EltTy.f32)
local notation "env" => (Memref.whole Cert.KernelIdeal.cc0_scratch7 : Memref Cert.KernelIdeal.sig Kind.scVector Space.vmem Cert.KernelIdeal.S512 EltTy.f32)
local notation "outv" => (Memref.whole Cert.KernelIdeal.cc0_scratch8 : Memref Cert.KernelIdeal.sig Kind.scVector Space.vmem Cert.KernelIdeal.S512 EltTy.f32)

variable (m : (ℓ : Loc nD τ sig) → Buf (Elt F) ℓ) (ρ : Dev nD → PrngReg)

variable [FloatOps F]

/-! ## The result, as one function of the launch memory -/

/-- The row an entry of the result array belongs to. -/
def rowOf (j : S16384.Idx) : Fin 16384 := ⟨(j 0).val, (j 0).isLt⟩

/-- What the result array holds after the run: at entry j, the kernel's closed form of the eight-entry table, of
    energy j and of row j of the species words, summed from lane j mod 16. -/
def Gv (d : Dev nD) : Buf (Elt F) (oLoc d) := fun j =>
  Cert.Sae.K.rowOut (F := F) (se8 m d) (m (enLoc d) (ix1 (rowOf j)))
    (fun c => m (spLoc d) (ix2 (rowOf j) ⟨c % 200, Nat.mod_lt _ (by norm_num)⟩)) ((rowOf j).val % 16)

omit [FloatOps F] in
/-- Entry y of tile L's slice is entry 512·(tile number) + y of the array. -/
theorem emb_row (L : grid0.Coords) (y : S512.Idx) : (((oSl L).view.emb y) 0).val = 512 * wid L + (y 0).val := by
  show k0_off84 L 0 + 1 * (y 0).val = _
  rw [k0_off84_eq]
  show 1024 * (L 1).val + 512 * (L 0).val + 1 * (y 0).val = 512 * ((L 1).val * 2 + (L 0).val) + (y 0).val
  omega

/-- On tile L's slice the one function is the tile's own closed form. -/
theorem hGv (d : Dev nD) (L : grid0.Coords) : ∀ y : S512.Idx, Gv m d ((oSl L).view.emb y)
    = Cert.Sae.K.rowOut (F := F) (se8 m d) (m (enLoc d) (ix1 (tileRow L y)))
        (fun c => m (spLoc d) (ix2 (tileRow L y) ⟨c % 200, Nat.mod_lt _ (by norm_num)⟩)) ((y 0).val % 16) := by
  intro y
  have hr : rowOf ((oSl L).view.emb y) = tileRow L y := Fin.ext (emb_row L y)
  unfold Gv
  rw [hr]
  congr 1
  show (512 * wid L + (y 0).val) % 16 = (y 0).val % 16
  omega

/-! ## What the handshakes carry -/

/-- What a tile hands back: its shares, and its entries of the result at the one function. -/
def TDv (d : Dev nD) (L : grid0.Coords) : sProp 𝕄 :=
  iprop((spLoc d ↦{(tq (L 0).val (L 1).val).left} m (spLoc d)) ∗ (spLoc d ↦{(tq (L 0).val (L 1).val).right} m (spLoc d))
    ∗ (enLoc d ↦{tq (L 0).val (L 1).val} m (enLoc d)) ∗ (seLoc d ↦{tq (L 0).val (L 1).val} se8 m d)
    ∗ (oLoc d ↦[(oSl L).view.set]{fullShare} Gv m d))

instance TDv_storable (d : Dev nD) (L : grid0.Coords) : BI.Storable (upEmb : UEmb _ 𝕄) (TDv m d L) := by unfold TDv; infer_instance

/-- The one call hands each SparseCore its sixteen tiles' resources, each tile its own, and brings them back, the
    result's entries at the one function. -/
def Pv : (K (F := F)).Pay (nD := nD) (Val := Elt F) (Name := ℕ) (U := UU) where
  st := fun q d c => match q with | 0 => bigSep Finset.univ fun i : Fin ((K (F := F)).nSub 0) => GO m d (tL (F := F) c i)
  dn := fun q d c => match q with | 0 => bigSep Finset.univ fun i : Fin ((K (F := F)).nSub 0) => TDv m d (tL (F := F) c i)
  go := fun q d c i => match q with | 0 => GO m d (tL (F := F) c i)
  td := fun q d c i => match q with | 0 => TDv m d (tL (F := F) c i)
  x := fun _ _ => iprop(emp)

instance Pv_storable : (Pv (F := F) m).IsStorable where
  st q d c := match q with
    | 0 => (inferInstance : BI.Storable (upEmb : UEmb _ 𝕄) (bigSep Finset.univ fun i : Fin ((K (F := F)).nSub 0) => GO m d (tL (F := F) c i)))
  dn q d c := match q with
    | 0 => (inferInstance : BI.Storable (upEmb : UEmb _ 𝕄) (bigSep Finset.univ fun i : Fin ((K (F := F)).nSub 0) => TDv m d (tL (F := F) c i)))
  go q d c i := match q with | 0 => (inferInstance : BI.Storable (upEmb : UEmb _ 𝕄) (GO m d (tL (F := F) c i)))
  td q d c i := match q with | 0 => (inferInstance : BI.Storable (upEmb : UEmb _ 𝕄) (TDv m d (tL (F := F) c i)))

/-! ## The task -/

/-- One tile's task with its result, from what the launch hands it: as before, and the tile's entries of the result
    end at the one whole-array function. -/
theorem tile_body_val (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ GO m d L
        ∗ scopedBufs (thr d L) ∗ scopedSems0 (thr d L) ∗ owes (thr d L) O W)
      ⊢ wp frame (wpE (defs₀ (F := F)) 𝒱₀ (thr d L) none) Set.univ
          (cc0__sae_body L spW (Memref.isWhole_whole _) enW (Memref.isWhole_whole _) seW (Memref.isWhole_whole _) oW (Memref.isWhole_whole _)
            bA (Memref.isWhole_whole _) bB (Memref.isWhole_whole _) t8 (Memref.isWhole_whole _) t8r (Memref.isWhole_whole _)
            t2 (Memref.isWhole_whole _) t4 (Memref.isWhole_whole _) red (Memref.isWhole_whole _) env (Memref.isWhole_whole _)
            outv (Memref.isWhole_whole _) cc0_scratch9 cc0_scratch10 cc0_scoped0 cc0_scoped1 cc0_scoped2)
          fun _ => iprop(TDv m d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold GO TDv
  iintro ⟨#Hlv, -, ⟨Hsp1, Hsp2, Hen, Hse, Ho⟩, ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, Hbufs⟩, ⟨Hs9, Hs10, Hs0, Hs1, Hs2, Hsems⟩, HO⟩
  ihave Hmw := ((K (F := F)).mayWaits_none (thr := thr d L) hO) $$ Hlv
  iapply (wp_wand_r frame _ Set.univ)
  isplitl [Hmw Hsp1 Hsp2 Hen Hse Ho Hb0 Hb1 Hb2 Hb3 Hb4 Hb5 Hb6 Hb7 Hb8 Hs9 Hs10 Hs0 Hs1 Hs2 HO]
  · iapply (body_val d L O W _ _ _ _ (m (spLoc d)) (m (enLoc d)) (se8 m d) (m (oLoc d)) f0 f1 f2 f3 f4 f5 f6 f7 f8 (hpre d) (Gv m d) (hGv m d L))
    isplitl [Hmw]; · iexact Hmw
    isplitl [Hsp1]; · iexact Hsp1
    isplitl [Hsp2]; · iexact Hsp2
    isplitl [Hen]; · iexact Hen
    isplitl [Hse]; · iexact Hse
    isplitl [Ho]; · iexact Ho
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hs9]; · iexact Hs9
    isplitl [Hs10]; · iexact Hs10
    isplitl [Hs0]; · iexact Hs0
    isplitl [Hs1]; · iexact Hs1
    isplitl [Hs2]; · iexact Hs2
    iexact HO
  · iintro %_ ⟨Hsp1, Hsp2, Hen, Hse, Ho, Hb0, Hb1, Hb2, Hb3, Hb4, Hb5, Hb6, Hb7, Hb8, Hs9, Hs10, Hs0, Hs1, Hs2, HO⟩
    isplitl [Hsp1 Hsp2 Hen Hse Ho]
    · isplitl [Hsp1]; · iexact Hsp1
      isplitl [Hsp2]; · iexact Hsp2
      isplitl [Hen]; · iexact Hen
      isplitl [Hse]; · iexact Hse
      iexact Ho
    isplitl [Hb0 Hb1 Hb2 Hb3 Hb4 Hb5 Hb6 Hb7 Hb8 Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      iexact Hbufs
    isplitl [Hs9 Hs10 Hs0 Hs1 Hs2 Hsems]
    · isplitl [Hs9]; · iexact Hs9
      isplitl [Hs10]; · iexact Hs10
      isplitl [Hs0]; · iexact Hs0
      isplitl [Hs1]; · iexact Hs1
      isplitl [Hs2]; · iexact Hs2
      iexact Hsems
    iexact HO

/-! ## The launch theorem's obligations -/

theorem tileOblV (hF : (K (F := F)).Facts) (hpre : PreOK m) : (K (F := F)).TileObl (D (F := F)) 𝒱 (Pv m) v₀ 0 := by
  intro d c i O W hO _ _
  -- the task owes nothing for a protocol of its own
  simp only [show (Pv m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body_val m hF hpre d (coordsV ⟨_, hc.1⟩ ⟨_, hc.2⟩) O W hO).trans (wp_mono frame _ _ fun _ => obl_post)

theorem vecSplitV : (K (F := F)).VecSplit' (Pv m) 0 := by
  intro d c
  show (bigSep Finset.univ fun i : Fin ((K (F := F)).nSub 0) => GO m d (tL (F := F) c i)) ⊢ |={Set.univ}=> iprop(
      (bigSep Finset.univ fun i : Fin ((K (F := F)).nSub 0) => GO m d (tL (F := F) c i))
      ∗ ((bigSep Finset.univ fun i : Fin ((K (F := F)).nSub 0) => TDv m d (tL (F := F) c i))
          -∗ bigSep Finset.univ fun i : Fin ((K (F := F)).nSub 0) => TDv m d (tL (F := F) c i)))
  iintro H; imodintro
  isplitl [H]; · iexact H
  iintro H; iexact H

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pv m).x q thr) := by
  unfold u₀
  iintro Hu
  ihave H := (ownU_pair _ _) $$ Hu
  icases H with ⟨HH, -⟩
  imodintro
  isplitl [HH]; · iexact HH
  isplitr; · rw [bigSep_emp']; iempintro
  unfold Pv; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- What @main leaves the claim: the three argument arrays whole at their launch contents, the result whole at the
    one function. -/
abbrev FINv (d : Dev nD) : sProp 𝕄 :=
  iprop((spLoc d ↦{fullShare} m (spLoc d)) ∗ (enLoc d ↦{fullShare} m (enLoc d)) ∗ (a2Loc d ↦{fullShare} m (a2Loc d))
    ∗ (oLoc d ↦{fullShare} Gv m d))

/-- What the call takes for the two SparseCores: every tile's shares and entries, array by array. -/
theorem st0_eqV (d : Dev nD) :
    (bigSep Finset.univ fun c : Fin ((K (F := F)).nCore 0) => (Pv m).st 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => oLoc d ↦[(oSl (coordsV ⟨c.val, c.isLt⟩ ⟨s.val, s.isLt⟩)).view.set]{fullShare} m (oLoc d))) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ (oLoc d ↦[(oSl (coordsV ⟨c.val, c.isLt⟩ ⟨s.val, s.isLt⟩)).view.set]{fullShare} m (oLoc d)))) = _
  simp only [bigSep_sep']
/-- What it hands back: the same, the result's entries at the one function. -/
theorem dn0_eqV (d : Dev nD) :
    (bigSep Finset.univ fun c : Fin ((K (F := F)).nCore 0) => (Pv m).dn 0 d c)
      = iprop((bigSep Finset.univ fun c : Fin 2 => bigSep Finset.univ fun s : Fin 16 => spLoc d ↦{(tq c.val s.val).left} m (spLoc d))
          ∗ (bigSep Finset.univ fun c : Fin 2 => bigSep Finset.univ fun s : Fin 16 => spLoc d ↦{(tq c.val s.val).right} m (spLoc d))
          ∗ (bigSep Finset.univ fun c : Fin 2 => bigSep Finset.univ fun s : Fin 16 => enLoc d ↦{tq c.val s.val} m (enLoc d))
          ∗ (bigSep Finset.univ fun c : Fin 2 => bigSep Finset.univ fun s : Fin 16 => seLoc d ↦{tq c.val s.val} se8 m d)
          ∗ (bigSep Finset.univ fun c : Fin 2 => bigSep Finset.univ fun s : Fin 16 => oLoc d ↦[(oSl (coordsV ⟨c.val, c.isLt⟩ ⟨s.val, s.isLt⟩)).view.set]{fullShare} Gv m d)) := by
  show (bigSep Finset.univ fun c : Fin 2 => bigSep Finset.univ fun s : Fin 16 => iprop((spLoc d ↦{(tq c.val s.val).left} m (spLoc d)) ∗ (spLoc d ↦{(tq c.val s.val).right} m (spLoc d)) ∗ (enLoc d ↦{tq c.val s.val} m (enLoc d)) ∗ (seLoc d ↦{tq c.val s.val} se8 m d) ∗ (oLoc d ↦[(oSl (coordsV ⟨c.val, c.isLt⟩ ⟨s.val, s.isLt⟩)).view.set]{fullShare} Gv m d))) = _
  simp only [bigSep_sep']

/-- @main on device d's TensorCore: the five host operations over the nine arrays held whole, the arrays dealt to the
    tiles, the call, the species words, the energies and the result rejoined; the arguments kept, the result whole at
    the one function. -/
theorem hmainV (κ : GSem nD τ sig → ℕ) (d : Dev nD) :
    iprop((K (F := F)).ctx EH (Pv m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINv m d) := by
  unfold SparseCore.Cfg.tcRes
  rw [unscoped_held]
  simp only [main, wp_bind, wp_pure]
  iintro ⟨#Hctx, Hst, ⟨Hb, Hheld, -, -⟩, -⟩
  -- the five host operations, over the nine arrays held whole
  iapply (wp_hlo_within 𝒱 (SparseCore.T d) none Set.univ (op := op1) (S := S9) h1sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) h2sub (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) h3sub (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) h4sub (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S9) h5sub (V := V4 m d)) $$ [Hb Hheld]
  · isplitl [Hb]; · iexact Hb
    iexact Hheld
  iintro ⟨Hb, Hheld⟩
  rw [wp_ret]; imodintro
  ihave Hh := (Entails.of_eq (held_S9 (F := F) d (V5 m d))) $$ Hheld
  icases Hh with ⟨Hsp, Hen, Ha2, -, -, -, -, Hse, Ho⟩
  rw [V5_sp, V5_en, V5_a2, V5_se, V5_o]
  -- the arrays dealt to the thirty-two tiles: read tokens of the inputs, the result's entries
  ihave Hsp' := (toks_split2 (ℓ := spLoc d) (f := m (spLoc d))) $$ Hsp
  icases Hsp' with ⟨Rsp, Tsp⟩
  ihave Tsp' := (Entails.of_eq (BS_sep (F := F) (fun c s => spLoc d ↦{(tq c.val s.val).left} m (spLoc d)) (fun c s => spLoc d ↦{(tq c.val s.val).right} m (spLoc d)))) $$ Tsp
  icases Tsp' with ⟨TspL, TspR⟩
  ihave Hen' := (toks_split (ℓ := enLoc d) (f := m (enLoc d))) $$ Hen
  icases Hen' with ⟨Ren, Ten⟩
  ihave Hse' := (toks_split (ℓ := seLoc d) (f := se8 m d)) $$ Hse
  icases Hse' with ⟨-, Tse⟩
  ihave To := (Entails.of_eq (oPts_tiles (F := F) d (m (oLoc d)))) $$ Ho
  -- the call
  iapply ((K (F := F)).wp_run (D (F := F)) 𝒱 (EH := EH) (P := Pv m) κ d 0) $$ [Hst TspL TspR Ten Tse To Rsp Ren Ha2]
  isplitr; · iexact Hctx
  isplitl [Hst]; · iexact Hst
  isplitl [TspL TspR Ten Tse To]
  · rw [st0_eqV]
    isplitl [TspL]; · iexact TspL
    isplitl [TspR]; · iexact TspR
    isplitl [Ten]; · iexact Ten
    isplitl [Tse]; · iexact Tse
    iexact To
  iintro ⟨Hst, Hdn⟩
  ihave Hdn' := (Entails.of_eq (dn0_eqV m d)) $$ Hdn
  icases Hdn' with ⟨TspL, TspR, Ten, -, To⟩
  ihave Ho := (Entails.of_eq (oPts_tiles (F := F) d (Gv m d)).symm) $$ To
  -- the result, the species words and the energies rejoined whole
  ihave Tsp := (Entails.of_eq (BS_sep (F := F) (fun c s => spLoc d ↦{(tq c.val s.val).left} m (spLoc d)) (fun c s => spLoc d ↦{(tq c.val s.val).right} m (spLoc d))).symm) $$ [TspL TspR]
  · isplitl [TspL]; · iexact TspL
    iexact TspR
  ihave Hsp := (toks_join2 (ℓ := spLoc d) (f := m (spLoc d))) $$ [Rsp Tsp]
  · isplitl [Rsp]; · iexact Rsp
    iexact Tsp
  ihave Hen := (toks_join (ℓ := enLoc d) (f := m (enLoc d))) $$ [Ren Ten]
  · isplitl [Ren]; · iexact Ren
    iexact Ten
  imodintro
  isplitl [Hst]; · iexact Hst
  isplitl [Hsp]; · iexact Hsp
  isplitl [Hen]; · iexact Hen
  isplitl [Ha2]; · iexact Ha2
  iexact Ho

def fqV (d : Dev nD) (s' : Phys nD τ sig (Elt F)) : Prop :=
  s'.mem.mem (oLoc d) = Gv m d ∧ s'.mem.mem (spLoc d) = m (spLoc d) ∧ s'.mem.mem (enLoc d) = m (enLoc d) ∧ s'.mem.mem (a2Loc d) = m (a2Loc d)

theorem hfinV (d : Dev nD) (s' : Phys nD τ sig (Elt F)) : iprop(FINv m d ∗ SI s') ⊢ (⌜fqV m d s'⌝ : sProp 𝕄) := by
  iintro ⟨⟨Hi, Hx, Ha, Ho⟩, HSI⟩
  ihave H := (persistent_entails_right (SI_pointsTo_agree (st := s') (ℓ := spLoc d) (I := Finset.univ) (q := fullShare) (f := m (spLoc d)))) $$ [HSI Hi]
  · isplitl [HSI] <;> iassumption
  icases H with ⟨%h1, HSI, -⟩
  ihave H := (persistent_entails_right (SI_pointsTo_agree (st := s') (ℓ := enLoc d) (I := Finset.univ) (q := fullShare) (f := m (enLoc d)))) $$ [HSI Hx]
  · isplitl [HSI] <;> iassumption
  icases H with ⟨%h2, HSI, -⟩
  ihave H := (persistent_entails_right (SI_pointsTo_agree (st := s') (ℓ := a2Loc d) (I := Finset.univ) (q := fullShare) (f := m (a2Loc d)))) $$ [HSI Ha]
  · isplitl [HSI] <;> iassumption
  icases H with ⟨%h3, HSI, -⟩
  ihave H := (SI_pointsTo_agree (st := s') (ℓ := oLoc d) (I := Finset.univ) (q := fullShare) (f := Gv m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run, with the result -/

def QCV : PUnit × MemSt nD τ sig (Elt F) → Prop := fun r => ∀ c : Dev nD,
  r.2.mem (oLoc c) = Gv m c ∧ r.2.mem (spLoc c) = m (spLoc c) ∧ r.2.mem (enLoc c) = m (enLoc c) ∧ r.2.mem (a2Loc c) = m (a2Loc c)

theorem run_value' [∀ e, Nonempty (Elt F e)] (hpre : PreOK m) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := Pv m) facts v₀
    (fun q hq => match q with | 0 => nomatch hq)
    (fun q _ => match q with | 0 => tileOblV m facts hpre)
    (fun q _ => match q with | 0 => SparseCore.Cfg.VecSplit.of_plain (vecSplitV m))
    m ρ main (fun _ => iprop(emp)) (FINv m) (u₀ (F := F)) (sep_elim_left.trans (hu₀V m)) (hmainV m ρ) (fqV m) (hfinV m) (QCV m) (fun _ h => h)

/-- Every weakly fair execution of the whole family of threads ends, nothing faulting, no handshake unanswered, the
    result array holding the one function of the launch memory and the three argument arrays unchanged. -/
theorem run_value [∀ e, Nonempty (Elt F e)] (m : (ℓ : Loc nD τ sig) → Buf (Elt F) ℓ) (ρ : Dev nD → PrngReg)
    (hpre : ∀ (d : Dev nD) j, (m ((SparseCore.T d).loc main_arg0) j).toNat ≤ 6) :
    θ_run (Cert.KernelIdeal.defs (F := F)) (Cert.KernelIdeal.threads (F := F)) ⟨m, fun _ => 0, ρ⟩ (fun r => ∀ c : Dev nD,
      r.2.mem ((c.tc : Thread nD τ).loc main_v3) = Gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c => h c) (run_value' m ρ hpre)

end Cert.Proof.KI

end
-- ==== Proof.SaeAlgebra.lean ====
/-
  At the extended reals the kernel's order of additions gives the plain sum. Four words at most six packed three
  bits apiece are the number 512 a + 64 b + 8 c + d, so the table of sums of four read there is the four self
  energies added in pairs; the lane table read at seventeen times the lane plus a word is the word's self energy;
  lanes below eight take no tail. Sixteen lanes, each three blocks of four columns and, from lane eight on, one
  of the last eight columns, are the two hundred columns each once; addition of extended reals is commutative
  and associative, so the row's value is the energy plus the sum over the columns, from whichever lane it starts.
-/
import proofs.«206987_g17583596110038_cont_8to1_771_12_alg».proof.Proof.SaeForms
import proofs.«206987_g17583596110038_cont_8to1_771_12_alg».proof.Proof.SaeSpec
import Idealize.ShloMosaic.PureOps.Ideal
import Idealize.ShloMosaic.PureOps.Ideal.Laws
import Idealize.ShloMosaic.Lib.ValueIdx
import Mathlib.Tactic

noncomputable section

namespace Cert.Sae.K

open Idealize.ShloMosaic Idealize.ShloMosaic.ValueIdx Finset

/-! ## Sums regrouped, in any commutative monoid -/

/-- Sixteen lanes of three blocks of four columns, and a tail on the upper eight lanes, are the 200 columns. -/
theorem regroup {M : Type} [AddCommMonoid M] (h : ℕ → M) :
    (∑ l ∈ range 16,
      (((((h (64 * 0 + l) + h (64 * 0 + 16 + l)) + (h (64 * 0 + 32 + l) + h (64 * 0 + 48 + l)))
        + ((h (64 * 1 + l) + h (64 * 1 + 16 + l)) + (h (64 * 1 + 32 + l) + h (64 * 1 + 48 + l))))
        + ((h (64 * 2 + l) + h (64 * 2 + 16 + l)) + (h (64 * 2 + 32 + l) + h (64 * 2 + 48 + l))))
        + (if l < 8 then 0 else h (184 + l))))
      = ∑ c ∈ range 200, h c := by
  simp only [Finset.sum_range_succ, Finset.sum_range_zero, Nat.reduceMul, Nat.reduceAdd, Nat.reduceLT, if_true, if_false,
    ite_true, ite_false, zero_add, add_zero]
  ac_rfl

/-- Sixteen terms taken from any starting lane, the even steps onto e and the odd steps onto zero, are e plus all sixteen. -/
theorem rot16 {M : Type} [AddCommMonoid M] (e : M) (v : ℕ → M) (i : ℕ) (hi : i < 16) :
    ((((((((e + v ((i + 0) % 16)) + v ((i + 2) % 16)) + v ((i + 4) % 16)) + v ((i + 6) % 16)) + v ((i + 8) % 16)) + v ((i + 10) % 16)) + v ((i + 12) % 16)) + v ((i + 14) % 16))
      + ((((((((0 + v ((i + 1) % 16)) + v ((i + 3) % 16)) + v ((i + 5) % 16)) + v ((i + 7) % 16)) + v ((i + 9) % 16)) + v ((i + 11) % 16)) + v ((i + 13) % 16)) + v ((i + 15) % 16))
      = e + ∑ l ∈ range 16, v l := by
  simp only [Finset.sum_range_succ, Finset.sum_range_zero, zero_add]
  interval_cases i <;> simp only [Nat.reduceAdd, Nat.reduceMod] <;> ac_rfl

/-! ## Words -/

/-- A small word shifted left by a literal is the word times the power of two. -/
theorem shli_toNat (x : BitVec 32) (s : Nat) (hs : s < 32) (hx : x.toNat * 2 ^ s < 2 ^ 32) :
    (IntOp.shli .vector x (BitVec.ofNat 32 s)).toNat = x.toNat * 2 ^ s := by
  have e : (BitVec.ofNat 32 s).toNat = s := by rw [BitVec.toNat_ofNat]; exact Nat.mod_eq_of_lt (by omega)
  have h : IntOp.shli .vector x (BitVec.ofNat 32 s) = x <<< (BitVec.ofNat 32 s) := by
    unfold IntOp.shli; rw [if_pos (by rw [e]; exact hs)]
  rw [h, BitVec.shiftLeft_eq', e, BitVec.toNat_shiftLeft, Nat.shiftLeft_eq, Nat.mod_eq_of_lt hx]

/-- The or of a multiple of 2^i and a number below 2^i is their sum. -/
theorem or_eq_add (a b i : Nat) (hb : b < 2 ^ i) : a * 2 ^ i ||| b = a * 2 ^ i + b := by
  have := Nat.shiftLeft_add_eq_or_of_lt hb a
  rw [Nat.shiftLeft_eq] at this
  exact this.symm

/-- Four words at most six, packed, are 512 a + 64 b + 8 c + d. -/
theorem pk_eq (a b c d : BitVec 32) (ha : a.toNat ≤ 6) (hb : b.toNat ≤ 6) (hc : c.toNat ≤ 6) (hd : d.toNat ≤ 6) :
    pk a b c d = 512 * a.toNat + 64 * b.toNat + 8 * c.toNat + d.toNat := by
  unfold pk
  simp only [IntOp.ori, BitVec.toNat_or]
  rw [shli_toNat a 9 (by norm_num) (by norm_num; omega), shli_toNat b 6 (by norm_num) (by norm_num; omega),
    shli_toNat c 3 (by norm_num) (by norm_num; omega)]
  have e1 : a.toNat * 2 ^ 9 ||| b.toNat * 2 ^ 6 = (8 * a.toNat + b.toNat) * 2 ^ 6 := by
    rw [or_eq_add a.toNat (b.toNat * 2 ^ 6) 9 (by norm_num; omega)]; norm_num; ring
  have e2 : (8 * a.toNat + b.toNat) * 2 ^ 6 ||| c.toNat * 2 ^ 3 = (64 * a.toNat + 8 * b.toNat + c.toNat) * 2 ^ 3 := by
    rw [or_eq_add (8 * a.toNat + b.toNat) (c.toNat * 2 ^ 3) 6 (by norm_num; omega)]; norm_num; ring
  have e3 : (64 * a.toNat + 8 * b.toNat + c.toNat) * 2 ^ 3 ||| d.toNat = (64 * a.toNat + 8 * b.toNat + c.toNat) * 2 ^ 3 + d.toNat :=
    or_eq_add _ _ 3 (by norm_num; omega)
  rw [e1, e2, e3]; norm_num; ring

/-- A word at most six masked to three bits is itself. -/
theorem andi7 (x : BitVec 32) (hx : x.toNat ≤ 6) : (IntOp.andi x 7#32).toNat = x.toNat := by
  simp only [IntOp.andi, BitVec.toNat_and, BitVec.toNat_ofNat]
  generalize x.toNat = n at hx
  interval_cases n <;> rfl

/-! ## The tables read at the packed words -/

section Tables

variable (g : FVec Ideal ⟨1, ![8]⟩ .f32)

theorem addf_eq (x y : Ideal .f32) : FloatOps.addf x y = ((x : EReal) + (y : EReal) : EReal) := rfl

theorem zf_eq : (zf (F := Ideal) : EReal) = 0 := Ideal.ofBits_zero_f32

/-- The table of sums of four at four packed words: the four self energies added in pairs. -/
theorem T4_pk (a b c d : BitVec 32) (ha : a.toNat ≤ 6) (hb : b.toNat ≤ 6) (hc : c.toNat ≤ 6) (hd : d.toNat ≤ 6) :
    (T4 g (pk a b c d) : EReal) = ((e8 g a.toNat + e8 g b.toNat) + (e8 g c.toNat + e8 g d.toNat) : EReal) := by
  rw [pk_eq a b c d ha hb hc hd]
  unfold T4 T2
  have h1 : (512 * a.toNat + 64 * b.toNat + 8 * c.toNat + d.toNat) / 64 / 8 % 8 = a.toNat := by omega
  have h2 : (512 * a.toNat + 64 * b.toNat + 8 * c.toNat + d.toNat) / 64 % 8 = b.toNat := by omega
  have h3 : (512 * a.toNat + 64 * b.toNat + 8 * c.toNat + d.toNat) % 64 / 8 % 8 = c.toNat := by omega
  have h4 : (512 * a.toNat + 64 * b.toNat + 8 * c.toNat + d.toNat) % 64 % 8 = d.toNat := by omega
  rw [h1, h2, h3, h4]
  rfl

/-- The lane table at seventeen times the lane plus a masked word: the word's self energy. -/
theorem T8R_lane (l : Nat) (x : BitVec 32) (hx : x.toNat ≤ 6) :
    (T8R g (17 * l + (IntOp.andi x 7#32).toNat) : EReal) = e8 g x.toNat := by
  rw [andi7 x hx]
  unfold T8R
  have h : min ((17 * l + x.toNat) % 17) 7 = x.toNat := by omega
  rw [h]

/-- Lanes below eight take the zero, the others the lane-table entry. -/
theorem tail_sel (X : EReal) (l : Nat) (hl : l < 16) :
    (Scalar.select (IntOp.cmpi .slt (BitVec.ofNat 32 l) 8#32) (zf (F := Ideal)) X : EReal) = if l < 8 then 0 else X := by
  have hz : (zf (F := Ideal) : EReal) = 0 := zf_eq
  rw [hz]
  interval_cases l <;> rfl

variable (w : Nat → BitVec 32) (hw : ∀ c, c < 200 → (w c).toNat ≤ 6)

include hw in
theorem quad_eq (q l : Nat) (hq : q < 3) (hl : l < 16) :
    (quad g w q l : EReal)
      = ((e8 g (w (64 * q + l)).toNat + e8 g (w (64 * q + 16 + l)).toNat)
          + (e8 g (w (64 * q + 32 + l)).toNat + e8 g (w (64 * q + 48 + l)).toNat) : EReal) := by
  unfold quad
  exact T4_pk g _ _ _ _ (hw _ (by omega)) (hw _ (by omega)) (hw _ (by omega)) (hw _ (by omega))

include hw in
theorem lane_eq (l : Nat) (hl : l < 16) :
    (lane g w l : EReal)
      = (((((e8 g (w (64 * 0 + l)).toNat + e8 g (w (64 * 0 + 16 + l)).toNat) + (e8 g (w (64 * 0 + 32 + l)).toNat + e8 g (w (64 * 0 + 48 + l)).toNat))
          + ((e8 g (w (64 * 1 + l)).toNat + e8 g (w (64 * 1 + 16 + l)).toNat) + (e8 g (w (64 * 1 + 32 + l)).toNat + e8 g (w (64 * 1 + 48 + l)).toNat)))
          + ((e8 g (w (64 * 2 + l)).toNat + e8 g (w (64 * 2 + 16 + l)).toNat) + (e8 g (w (64 * 2 + 32 + l)).toNat + e8 g (w (64 * 2 + 48 + l)).toNat)))
          + (if l < 8 then 0 else e8 g (w (184 + l)).toNat) : EReal) := by
  unfold lane
  rw [addf_eq, addf_eq, addf_eq, quad_eq g w hw 0 l (by omega) hl, quad_eq g w hw 1 l (by omega) hl, quad_eq g w hw 2 l (by omega) hl,
    T8R_lane g l _ (hw _ (by omega)), tail_sel _ l hl]

include hw in
/-- A row's value in the kernel's order is its energy plus the sum of the self energies of its 200 words. -/
theorem rowOut_ideal (e : EReal) (i : Nat) (hi : i < 16) :
    (rowOut (F := Ideal) g e w i : EReal) = e + ∑ c : Fin 200, (e8 g (w c.val).toNat : EReal) := by
  have hz : (zf (F := Ideal) : EReal) = 0 := zf_eq
  have hA : (rowOut (F := Ideal) g e w i : EReal) = e + ∑ l ∈ range 16, (lane g w l : EReal) := by
    unfold rowOut
    simp only [hz]
    exact rot16 e (fun l => (lane g w l : EReal)) i hi
  rw [hA, Finset.sum_congr rfl fun l hl => lane_eq g w hw l (Finset.mem_range.1 hl),
    regroup (fun c => (e8 g (w c).toNat : EReal)), Finset.sum_range]

end Tables

/-- The eight-entry table that holds the seven self energies reads, at a word at most six, that word's self energy. -/
theorem e8_scatter (g : FVec Ideal ⟨1, ![8]⟩ .f32) (se : FVec Ideal ⟨1, ![7]⟩ .f32)
    (hg : ∀ a : Fin 7, g (ix1 ⟨a.val, by omega⟩) = se (ix1 a)) (x : BitVec 32) (hx : x.toNat ≤ 6) :
    (e8 g x.toNat : EReal) = Cert.Sae.seAt se x := by
  unfold e8 Cert.Sae.seAt
  rw [dif_pos (by omega)]
  have h8 : x.toNat % 8 = x.toNat := Nat.mod_eq_of_lt (by omega)
  have := hg ⟨x.toNat, by omega⟩
  rw [← this]
  exact congrArg g (congrArg ix1 (Fin.ext h8))

end Cert.Sae.K

end
-- ==== Proof.LibScatterSet.lean ====
/-
  A host scatter whose body returns the update (`x.at[…].set(u)`) read at an index.

  The operation is a left fold over the update's elements, each writing its value at the operand index it lands
  on and dropped when it lands outside. Read at one operand index `i`: if exactly one update element lands on
  `i`, the result there is that element (`scatter_set_hit`); if none does, it is the operand's own element
  (`scatter_set_miss`). The two facts about a fold of writes behind them (`foldl_write_miss`, `foldl_write_hit`)
  are stated for any step function that writes or skips. General in the shapes.
  Two corollaries for an update written at the origin of a larger operand, given the landing map decided on the
  literal dimension numbers: inside the window the update, outside it the operand (`scatter1_pad`, `scatter2_pad`).
-/
import Idealize.ShloMosaic.PureOps.ShapeOps
import Idealize.ShloMosaic.Lib.ValueIdx

namespace Cert.LibScatterSet

open Idealize.ShloMosaic

/-! ## A fold of writes -/

section fold
variable {ι α β : Type} [DecidableEq ι] (p : β → Option ι) (g : β → α)
  (stepf : (ι → α) → β → (ι → α))

/-- If no element of the list writes at `i`, the fold leaves `i` as it was. -/
theorem foldl_write_miss
    (hsome : ∀ r n i, p n = some i → stepf r n = fun j => if j = i then g n else r j)
    (hnone : ∀ r n, p n = none → stepf r n = r)
    (l : List β) (x : ι → α) (i : ι) (h : ∀ n ∈ l, p n ≠ some i) : l.foldl stepf x i = x i := by
  induction l generalizing x with
  | nil => rfl
  | cons n l ih =>
    rw [List.foldl_cons, ih _ (fun k hk => h k (List.mem_cons_of_mem _ hk))]
    cases hp : p n with
    | none => rw [hnone _ _ hp]
    | some k =>
      rw [hsome _ _ _ hp]
      have hne : ¬ i = k := fun e => h n (List.mem_cons_self ..) (by rw [hp, e])
      show (if i = k then g n else x i) = x i
      rw [if_neg hne]

/-- If exactly one element of a duplicate-free list writes at `i`, the fold leaves its value there. -/
theorem foldl_write_hit
    (hsome : ∀ r n i, p n = some i → stepf r n = fun j => if j = i then g n else r j)
    (hnone : ∀ r n, p n = none → stepf r n = r)
    (l : List β) (hl : l.Nodup) (x : ι → α) (i : ι) (n₀ : β) (hn : n₀ ∈ l) (hp : p n₀ = some i)
    (huniq : ∀ n ∈ l, p n = some i → n = n₀) : l.foldl stepf x i = g n₀ := by
  obtain ⟨l1, l2, rfl⟩ := List.append_of_mem hn
  have hnot : n₀ ∉ l2 := by
    have h2 : (n₀ :: l2).Nodup := (List.nodup_append.1 hl).2.1
    exact (List.nodup_cons.1 h2).1
  rw [List.foldl_append, List.foldl_cons,
    foldl_write_miss p g stepf hsome hnone l2 _ i (fun k hk e => by
      have := huniq k (List.mem_append_right _ (List.mem_cons_of_mem _ hk)) e
      exact hnot (this ▸ hk)),
    hsome _ _ _ hp]
  show (if i = i then g n₀ else _) = g n₀
  rw [if_pos rfl]

end fold

/-! ## The scatter -/

variable {s si u : Shape} {w : Nat} {α : Type}

/-- The one update element that lands on `i` is what the scatter leaves there. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  unfold Host.scatter
  refine (foldl_write_hit (fun n => d.resultIdx? (u.rowMajor.symm n) idx) (fun n => upd (u.rowMajor.symm n)) _
    (fun r n k hk => ?_) (fun r n hk => ?_) _ (List.nodup_finRange _) x i (u.rowMajor j) (List.mem_finRange _)
    (by show d.resultIdx? (u.rowMajor.symm (u.rowMajor j)) idx = some i; rw [Equiv.symm_apply_apply]; exact hj)
    (fun n _ hn => ?_)).trans ?_
  · simp only [hk]
  · simp only [hk]
  · have := huniq _ hn
    rw [← this, Equiv.apply_symm_apply]
  · show upd (u.rowMajor.symm (u.rowMajor j)) = upd j
    rw [Equiv.symm_apply_apply]

/-- Where no update element lands the operand's element stays. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  refine foldl_write_miss (fun n => d.resultIdx? (u.rowMajor.symm n) idx) (fun n => upd (u.rowMajor.symm n)) _
    (fun r n k hk => ?_) (fun r n hk => ?_) _ x i (fun n _ => h _)
  · simp only [hk]
  · simp only [hk]

/-! ## An update written at the origin of a larger operand -/

open Idealize.ShloMosaic.ValueIdx

/-- Rank 1: an `[n]` update landing on the first `n` places of an `[N]` operand. -/
theorem scatter1_pad {N n : ℕ} (hn : n ≤ N) (d : ScatterDims ⟨1, ![N]⟩ si ⟨1, ![n]⟩) (idx : IVec si w)
    (hdec : ∀ p : Fin n, d.resultIdx? (ix1 p) idx = some (ix1 (Fin.castLE hn p)))
    (x : (⟨1, ![N]⟩ : Shape).Idx → α) (upd : (⟨1, ![n]⟩ : Shape).Idx → α) (i : Fin N) :
    Host.scatter d (fun _ b => b) x idx upd (ix1 i) = if h : i.val < n then upd (ix1 ⟨i.val, h⟩) else x (ix1 i) := by
  by_cases h : i.val < n
  · rw [dif_pos h]
    refine scatter_set_hit d x idx upd (ix1 i) (ix1 ⟨i.val, h⟩) ((hdec _).trans rfl) (fun j' hj' => ?_)
    obtain ⟨p, rfl⟩ : ∃ p : Fin n, j' = ix1 p := ⟨j' 0, eq_ix1 j'⟩
    rw [hdec] at hj'
    have e0 : Fin.castLE hn p = i := congrFun (Option.some.inj hj') 0
    have v0 : p.val = i.val := congrArg Fin.val e0
    exact congrArg ix1 (Fin.ext v0)
  · rw [dif_neg h]
    refine scatter_set_miss d x idx upd (ix1 i) (fun j' hj' => ?_)
    obtain ⟨p, rfl⟩ : ∃ p : Fin n, j' = ix1 p := ⟨j' 0, eq_ix1 j'⟩
    rw [hdec] at hj'
    have e0 : Fin.castLE hn p = i := congrFun (Option.some.inj hj') 0
    have v0 : p.val = i.val := congrArg Fin.val e0
    exact h (v0 ▸ p.isLt)

/-- Rank 2: an `[n, o]` update landing on the top-left corner of an `[N0, N1]` operand. -/
theorem scatter2_pad {N0 N1 n o : ℕ} (hn : n ≤ N0) (ho : o ≤ N1) (d : ScatterDims ⟨2, ![N0, N1]⟩ si ⟨2, ![n, o]⟩)
    (idx : IVec si w)
    (hdec : ∀ (p : Fin n) (q : Fin o), d.resultIdx? (ix2 p q) idx = some (ix2 (Fin.castLE hn p) (Fin.castLE ho q)))
    (x : (⟨2, ![N0, N1]⟩ : Shape).Idx → α) (upd : (⟨2, ![n, o]⟩ : Shape).Idx → α) (i : Fin N0) (j : Fin N1) :
    Host.scatter d (fun _ b => b) x idx upd (ix2 i j)
      = if h : i.val < n ∧ j.val < o then upd (ix2 ⟨i.val, h.1⟩ ⟨j.val, h.2⟩) else x (ix2 i j) := by
  by_cases h : i.val < n ∧ j.val < o
  · rw [dif_pos h]
    refine scatter_set_hit d x idx upd (ix2 i j) (ix2 ⟨i.val, h.1⟩ ⟨j.val, h.2⟩) ((hdec _ _).trans rfl) (fun j' hj' => ?_)
    obtain ⟨p, q, rfl⟩ : ∃ (p : Fin n) (q : Fin o), j' = ix2 p q := ⟨j' 0, j' 1, eq_ix2 j'⟩
    rw [hdec] at hj'
    have e0 : Fin.castLE hn p = i := congrFun (Option.some.inj hj') 0
    have e1 : Fin.castLE ho q = j := congrFun (Option.some.inj hj') 1
    have v0 : p.val = i.val := congrArg Fin.val e0
    have v1 : q.val = j.val := congrArg Fin.val e1
    have a0 : p = ⟨i.val, h.1⟩ := Fin.ext v0
    have a1 : q = ⟨j.val, h.2⟩ := Fin.ext v1
    rw [a0, a1]
  · rw [dif_neg h]
    refine scatter_set_miss d x idx upd (ix2 i j) (fun j' hj' => ?_)
    obtain ⟨p, q, rfl⟩ : ∃ (p : Fin n) (q : Fin o), j' = ix2 p q := ⟨j' 0, j' 1, eq_ix2 j'⟩
    rw [hdec] at hj'
    have e0 : Fin.castLE hn p = i := congrFun (Option.some.inj hj') 0
    have e1 : Fin.castLE ho q = j := congrFun (Option.some.inj hj') 1
    have v0 : p.val = i.val := congrArg Fin.val e0
    have v1 : q.val = j.val := congrArg Fin.val e1
    exact h ⟨v0 ▸ p.isLt, v1 ▸ q.isLt⟩

end Cert.LibScatterSet
-- ==== Proof.KI.Algebraic.lean ====
/-
  The value conjunct: over the extended reals the kernel's result array and the reference's are the same function of
  the arguments. The eight-entry table the host operations build reads, below seven, the self energies; a row's value
  in the kernel's order of additions is then its energy plus the sum of the self energies of its 200 species words,
  which is what the reference leaves.
-/
import proofs.«206987_g17583596110038_cont_8to1_771_12_alg».proof.Proof.KI.LaunchVal
import proofs.«206987_g17583596110038_cont_8to1_771_12_alg».proof.Proof.SaeAlgebra
import proofs.«206987_g17583596110038_cont_8to1_771_12_alg».proof.Proof.LibScatterSet
import proofs.«206987_g17583596110038_cont_8to1_771_12_alg».proof.Proof.PreRange
import proofs.«206987_g17583596110038_cont_8to1_771_12_alg».proof.Proof.RefRun

noncomputable section

namespace Cert.Proof.KI

open Cert.KernelIdeal Cert.KernelIdeal.Gen

open Idealize.ShloMosaic
open Idealize.ShloMosaic.SparseCore (S V T)
open Idealize.SL.Sem
open Idealize.ShloMosaic.ValueIdx

variable {F : FTy → Type} [FloatOps F]
variable (m : (ℓ : Loc nD τ sig) → Buf (Elt F) ℓ)

/-! ## The eight-entry table -/

/-- A buffer none of the first four host operations writes is at its launch contents after them. -/
theorem V4_keep (d : Dev nD) {b : DevRef τ sig} (h1 : b ∉ (op1 (F := F)).writes) (h2 : b ∉ (op2 (F := F)).writes) (h3 : b ∉ (op3 (F := F)).writes)
    (h4 : b ∉ (op4 (F := F)).writes) : V4 m d b = V0 m d b := by
  show (op4 (F := F)).result (V3 m d) b = _
  rw [(op4 (F := F)).result_of_not_mem _ h4]
  show (op3 (F := F)).result (V2 m d) b = _
  rw [(op3 (F := F)).result_of_not_mem _ h3]
  show (op2 (F := F)).result (V1 m d) b = _
  rw [(op2 (F := F)).result_of_not_mem _ h2]
  show (op1 (F := F)).result (V0 m d) b = _
  rw [(op1 (F := F)).result_of_not_mem _ h1]

/-- The index operand of the scatter is the one word zero. -/
theorem V4_v1 (d : Dev nD) : V4 m d rV1 = (fun _ => 0#32 : IVec S1 32) := by
  show (op4 (F := F)).result (V3 m d) rV1 = _
  rw [StableHlo.unary_result]
  show broadcastInDim S1 ![] Facts₀.bcast_S_S1 ((op3 (F := F)).result (V2 m d) rC) = _
  rw [StableHlo.nullary_result]
  rfl

/-- The table is the scatter of the seven self energies, at index zero, into what the first two operations left. -/
theorem se8_eq (d : Dev nD) :
    se8 m d = Host.scatter scatter_S8_S1_S7_0_n_0_0 (fun _ b => b) (V4 m d rV0) (fun _ => 0#32 : IVec S1 32) (m (a2Loc d)) := by
  show (op5 (F := F)).result (V4 m d) rSe = _
  rw [StableHlo.ternary_result, V4_v1,
    V4_keep m d (b := rA2) (show rA2 ∉ ({rCst} : Finset (DevRef τ sig)) by decide) (show rA2 ∉ ({rV0} : Finset (DevRef τ sig)) by decide)
      (show rA2 ∉ ({rC} : Finset (DevRef τ sig)) by decide) (show rA2 ∉ ({rV1} : Finset (DevRef τ sig)) by decide)]
  rfl

/-- Below seven the table holds the self energies. -/
theorem se8_at (d : Dev nD) (a : Fin 7) : se8 m d (ix1 ⟨a.val, by omega⟩) = m (a2Loc d) (ix1 a) := by
  rw [se8_eq]
  have h := Cert.LibScatterSet.scatter1_pad (N := 8) (n := 7) (by norm_num) scatter_S8_S1_S7_0_n_0_0 (fun _ => 0#32 : IVec S1 32)
    (by decide) (V4 m d rV0) (m (a2Loc d)) ⟨a.val, by omega⟩
  rw [h, dif_pos a.isLt]

/-! ## The result is the specification's -/

/-- Over the extended reals, with every species word one of the seven element numbers, the one function the tiles
    leave is the specification's result: a row's energy plus the sum of its 200 atoms' self energies. -/
theorem Gv_eq_out (m : (ℓ : Loc nD τ sig) → Buf (Elt Ideal) ℓ) (d : Dev nD) (hr : ∀ j, (m (spLoc d) j).toNat ≤ 6) :
    Gv (F := Ideal) m d = Cert.Sae.out (m (spLoc d)) (m (enLoc d)) (m (a2Loc d)) := by
  funext j
  have hj : j = ix1 (rowOf j) := by funext a; match a with | ⟨0, _⟩ => rfl
  unfold Gv
  rw [Cert.Sae.K.rowOut_ideal (se8 m d) _ (fun c _ => hr _) _ _ (Nat.mod_lt _ (by norm_num))]
  conv_rhs => rw [hj, Cert.Sae.out_apply]
  congr 1
  unfold Cert.Sae.rowSum
  refine Finset.sum_congr rfl fun c _ => ?_
  rw [Cert.Sae.K.e8_scatter (se8 m d) (m (a2Loc d)) (se8_at m d) _ (hr _)]
  have hc : (⟨c.val % 200, Nat.mod_lt _ (by norm_num)⟩ : Fin 200) = c := Fin.ext (Nat.mod_eq_of_lt c.isLt)
  rw [hc]

/-- The value conjunct: from memories agreeing on the arguments both programs run, end with equal results and
    unchanged arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hr : ∀ (d : Dev nD) j, (m ((SparseCore.T d).loc main_arg0) j).toNat ≤ 6 :=
    fun d j => Cert.Sae.inRange_of_pre (F := Ideal) _ _ _ (hpre d) j
  refine ⟨fun c => m ((c.tc : Thread nD τ).loc main_arg0),
    fun c => Cert.Sae.out (m ((c.tc : Thread nD τ).loc main_arg0)) (m ((c.tc : Thread nD τ).loc main_arg1)) (m ((c.tc : Thread nD τ).loc main_arg2)), ?_, ?_⟩
  · exact (θ_run Cert.KernelIdeal.defs _ _).mono
      (fun _ h c => ⟨(h c).2.1, (h c).1.trans (Gv_eq_out m c (hr c)), (h c).2.1, (h c).2.2.1, (h c).2.2.2⟩)
      (run_value (F := Ideal) m ρ hr)
  · refine (θ_run Cert.ReferenceIdeal.defs _ _).mono (fun _ h c => ?_)
      (Cert.Sae.Ref.run m' ρ' (fun c => by rw [(hagree c).1]; exact hr c))
    obtain ⟨h5, h0, h1, h2⟩ := h c
    refine ⟨h0.trans (hagree c).1, h5.trans ?_, h0, h1, h2⟩
    rw [(hagree c).1, (hagree c).2.1, (hagree c).2.2]

end Cert.Proof.KI

end
-- ==== Proof.lean ====
/-
  The certificate's claim, assembled from its five conjuncts.

  Three frames. Each program, from any launch memory whose species words pass the input-domain predicate (every word
  one of the seven element numbers 0 … 6), runs to its end under every weakly fair schedule, nothing faulting, and
  leaves its three argument arrays as they were. For the kernel the run is that of the whole family of threads — the
  TensorCore's five host operations and its one call, the two sequencers, the thirty-two tiles — taken once at the
  word level and once over the extended reals, one proof read at the two float instances: each tile reads the species
  words, the energies and the eight-entry table through read shares of the whole arrays, writes its own 512 entries
  of the result, and the arguments are rejoined whole when the call returns. For the reference it is the run of its
  host program.

  Preservation. The idealized kernel is the kernel's own text read over the extended reals: no operation was
  rewritten, and the conjunct is `True`.

  Value. Over the extended reals both programs are to leave, for each conformation, its energy plus the sum over its
  200 atoms of the self energy its species word names in the table of seven: the kernel's tiles leave that closed form
  in their own order of additions, which over the extended reals is the same sum, and the eight-entry table the host
  operations build reads the self energies below seven; so the two results are equal entry by entry, the arguments
  unchanged on both sides.
-/
import proofs.«206987_g17583596110038_cont_8to1_771_12_alg».proof.Defs
import proofs.«206987_g17583596110038_cont_8to1_771_12_alg».proof.Proof.Gen.Kernel
import proofs.«206987_g17583596110038_cont_8to1_771_12_alg».proof.Proof.Gen.Kernel.Skeleton
import proofs.«206987_g17583596110038_cont_8to1_771_12_alg».proof.Proof.Gen.KernelIdeal
import proofs.«206987_g17583596110038_cont_8to1_771_12_alg».proof.Proof.Gen.KernelIdeal.Skeleton
import proofs.«206987_g17583596110038_cont_8to1_771_12_alg».proof.Proof.Gen.ReferenceIdeal
import proofs.«206987_g17583596110038_cont_8to1_771_12_alg».proof.Proof.Gen.Pre_input_domain
import Idealize.ShloMosaic.Adequacy
import Idealize.ShloMosaic.Init
import proofs.«206987_g17583596110038_cont_8to1_771_12_alg».proof.Proof.KB.Frame
import proofs.«206987_g17583596110038_cont_8to1_771_12_alg».proof.Proof.KI.Frame
import proofs.«206987_g17583596110038_cont_8to1_771_12_alg».proof.Proof.RefRun
import proofs.«206987_g17583596110038_cont_8to1_771_12_alg».proof.Proof.KI.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame, Cert.Proof.KI.frame, Cert.Sae.Ref.frame, trivial,
    Cert.Proof.KI.algebraic⟩

end Cert.Proof

end
